-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S26x26000x16 : Shape := ⟨3, ![26, 26000, 16]⟩
abbrev S26000x1 : Shape := ⟨2, ![26000, 1]⟩
abbrev S1 : Shape := ⟨1, ![1]⟩
abbrev S_ : Shape := ⟨0, ![]⟩

class Facts : Prop where
  bcast_S_S26x26000x16 : S_.BroadcastsInDim S26x26000x16 (![] : Fin 0 → Fin S26x26000x16.rank)
  reducesTo_S26x26000x16_S_d0_1_2 : S26x26000x16.ReducesTo [0, 1, 2] S_
  h_S_ : 0 < S_.numel
  bcast_S_S26000x1 : S_.BroadcastsInDim S26000x1 (![] : Fin 0 → Fin S26000x1.rank)
  reducesTo_S26000x1_S_d0_1 : S26000x1.ReducesTo [0, 1] S_
  bcast_S_S1 : S_.BroadcastsInDim S1 (![] : Fin 0 → Fin S1.rank)
  reducesTo_S1_S_d0 : S1.ReducesTo [0] S_
  bcast_S_S4096x26 : S_.BroadcastsInDim S4096x26 (![] : Fin 0 → Fin S4096x26.rank)
  reducesTo_S4096x26_S_d0_1 : S4096x26.ReducesTo [0, 1] S_

variable [Facts]

def fn_part1 {F : FTy → Type} [FloatOps F] (main_arg0 : IVec S4096x26 32) (main_v13 : IVec S_ 1) (main_v15 : IVec S4096x26 1) (main_c_5 : IVec S_ 32) : IVec S_ 1 :=
  let main_v16 : IVec S4096x26 32 := broadcastInDim S4096x26 ![] bcast_S_S4096x26 main_c_5
  let main_v17 : IVec S4096x26 1 := cmpi .sle main_arg0 main_v16
  let main_v18 : IVec S4096x26 1 := andi main_v15 main_v17
  let main_c_6 : IVec S_ 1 := constantI S_ 1 1#1
  let main_v19 : IVec S_ 1 := (fun x v => Host.reduce IntOp.andi x v reducesTo_S4096x26_S_d0_1 h_S_) main_v18 main_c_6
  let main_v20 : IVec S_ 1 := andi main_v13 main_v19
  main_v20

def fn {F : FTy → Type} [FloatOps F] (main_arg0 : IVec S4096x26 32) (main_arg1 : FVec F S26x26000x16 .f32) (main_arg2 : FVec F S26000x1 .f32) (main_arg3 : FVec F S1 .f32) : IVec S_ 1 :=
  let main_v0 : FVec F S26x26000x16 .f32 := Host.absf main_arg1
  let main_cst : FVec F S_ .f32 := constant S_ .f32 0x7F800000#32
  let main_v1 : FVec F S26x26000x16 .f32 := broadcastInDim S26x26000x16 ![] bcast_S_S26x26000x16 main_cst
  let main_v2 : IVec S26x26000x16 1 := cmpf .olt main_v0 main_v1
  let main_c : IVec S_ 1 := constantI S_ 1 1#1
  let main_v3 : IVec S_ 1 := (fun x v => Host.reduce IntOp.andi x v reducesTo_S26x26000x16_S_d0_1_2 h_S_) main_v2 main_c
  let main_v4 : FVec F S26000x1 .f32 := Host.absf main_arg2
  let main_cst_0 : FVec F S_ .f32 := constant S_ .f32 0x7F800000#32
  let main_v5 : FVec F S26000x1 .f32 := broadcastInDim S26000x1 ![] bcast_S_S26000x1 main_cst_0
  let main_v6 : IVec S26000x1 1 := cmpf .olt main_v4 main_v5
  let main_c_1 : IVec S_ 1 := constantI S_ 1 1#1
  let main_v7 : IVec S_ 1 := (fun x v => Host.reduce IntOp.andi x v reducesTo_S26000x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S4096x26 32 := broadcastInDim S4096x26 ![] bcast_S_S4096x26 main_c_4
  let main_v15 : IVec S4096x26 1 := cmpi .sge main_arg0 main_v14
  let main_c_5 : IVec S_ 32 := constantI S_ 32 999#32
  fn_part1 (F := F) main_arg0 main_v13 main_v15 main_c_5
-- ==== Kernel.lean ====
abbrev S4096x26 : Shape := ⟨2, ![4096, 26]⟩
abbrev S26x26000x16 : Shape := ⟨3, ![26, 26000, 16]⟩
abbrev S26000x1 : Shape := ⟨2, ![26000, 1]⟩
abbrev S1 : Shape := ⟨1, ![1]⟩
abbrev S26x4096 : Shape := ⟨2, ![26, 4096]⟩
abbrev S106496 : Shape := ⟨1, ![106496]⟩
abbrev S10816000 : Shape := ⟨1, ![10816000]⟩
abbrev S26000 : Shape := ⟨1, ![26000]⟩
abbrev S_ : Shape := ⟨0, ![]⟩
abbrev S26112 : Shape := ⟨1, ![26112]⟩
abbrev S1343488 : Shape := ⟨1, ![1343488]⟩
abbrev S16000 : Shape := ⟨1, ![16000]⟩
abbrev S4096 : Shape := ⟨1, ![4096]⟩
abbrev S3328 : Shape := ⟨1, ![3328]⟩
abbrev S128 : Shape := ⟨1, ![128]⟩
abbrev S16 : Shape := ⟨1, ![16]⟩
abbrev S328x4096 : Shape := ⟨2, ![328, 4096]⟩
abbrev S4096x1 : Shape := ⟨2, ![4096, 1]⟩

abbrev nBuf : Table → Nat
  | .hbm => 15
  | .local .tc .vmem => 2
  | .local .tc .smem => 1
  | .local .scVector .vmem => 9
  | _ => 0

abbrev bufTy : (tb : Table) → Fin (nBuf tb) → BufTy
  | .hbm, ⟨0, _⟩ => ⟨S4096x26, .i32⟩
  | .hbm, ⟨1, _⟩ => ⟨S26x26000x16, .f32⟩
  | .hbm, ⟨2, _⟩ => ⟨S26000x1, .f32⟩
  | .hbm, ⟨3, _⟩ => ⟨S1, .f32⟩
  | .hbm, ⟨4, _⟩ => ⟨S26x4096, .i32⟩
  | .hbm, ⟨5, _⟩ => ⟨S106496, .i32⟩
  | .hbm, ⟨6, _⟩ => ⟨S10816000, .f32⟩
  | .hbm, ⟨7, _⟩ => ⟨S26000, .f32⟩
  | .hbm, ⟨8, _⟩ => ⟨S_, .i32⟩
  | .hbm, ⟨9, _⟩ => ⟨S_, .f32⟩
  | .hbm, ⟨10, _⟩ => ⟨S26112, .f32⟩
  | .hbm, ⟨11, _⟩ => ⟨S1343488, .f32⟩
  | .hbm, ⟨12, _⟩ => ⟨S328x4096, .f32⟩
  | .hbm, ⟨13, _⟩ => ⟨S4096, .f32⟩
  | .hbm, ⟨14, _⟩ => ⟨S4096x1, .f32⟩
  | .local .tc .vmem, ⟨0, _⟩ => ⟨S328x4096, .f32⟩
  | .local .tc .vmem, ⟨1, _⟩ => ⟨S4096, .f32⟩
  | .local .tc .smem, ⟨0, _⟩ => ⟨S1, .f32⟩
  | .local .scVector .vmem, ⟨0, _⟩ => ⟨S16000, .f32⟩
  | .local .scVector .vmem, ⟨1, _⟩ => ⟨S16000, .f32⟩
  | .local .scVector .vmem, ⟨2, _⟩ => ⟨S4096, .i32⟩
  | .local .scVector .vmem, ⟨3, _⟩ => ⟨S4096, .i32⟩
  | .local .scVector .vmem, ⟨4, _⟩ => ⟨S4096, .f32⟩
  | .local .scVector .vmem, ⟨5, _⟩ => ⟨S26112, .f32⟩
  | .local .scVector .vmem, ⟨6, _⟩ => ⟨S3328, .i32⟩
  | .local .scVector .vmem, ⟨7, _⟩ => ⟨S128, .f32⟩
  | .local .scVector .vmem, ⟨8, _⟩ => ⟨S128, .f32⟩
  | _, _ => ⟨S4096x26, .i32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 43 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => true
  | ⟨41, _⟩ => true
  | ⟨42, _⟩ => true
  | _ => false

abbrev sig : RefSig :=
  ofTables nBuf rfl bufTy 4 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v1_scv : Ref sig .scVector := ⟨.hbm, 5, rfl⟩
abbrev main_v2_scv : Ref sig .scVector := ⟨.hbm, 6, rfl⟩
abbrev main_v4_scv : Ref sig .scVector := ⟨.hbm, 10, rfl⟩
abbrev main_v5_scv : Ref sig .scVector := ⟨.hbm, 11, rfl⟩
abbrev cc1_stg0_0 : Ref sig .tc := ⟨.vmem, 0, rfl⟩
abbrev cc1_stg2_0 : Ref sig .tc := ⟨.vmem, 1, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 40
abbrev cc1_sem1_0 : DmaSem sig := 41
abbrev cc1_sem2_0 : DmaSem sig := 42
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  ![v3.toNat]
@[reducible] def k0_t1_loop : Scf.Loop 32 :=
  let c0_i32_1 : BitVec 32 := 0#32
  let c8_i32 : BitVec 32 := 8#32
  let v29 : BitVec 32 := Scalar.addi c0_i32_1 c8_i32
  let c1_i32 : BitVec 32 := 1#32
  ⟨c0_i32_1, v29, c1_i32⟩
def k0_off2 (k0_t1 : Fin k0_t1_loop.trips) : Fin 1 → Nat :=
  let c0_i32_9 : BitVec 32 := 0#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v46 : BitVec 32 := Scalar.addi c0_i32_9 v44
  let v47 : Index := Scalar.indexCast v46
  ![v47.toNat]

def k0_chk1 (v50 : IVec S16 32) : Prop :=
  (∀ a x, ((![v50] : Fin 1 → IVec S16 32) a x).toNat < S26112.size a)
instance k0_chk1.dec : ∀ (v50 : IVec S16 32), Decidable (k0_chk1 v50) := fun v50 => decidable_of_iff' _ (Iff.of_eq (k0_chk1.eq_1 v50))
theorem k0_idx1_inb : ∀ (v50 : IVec S16 32) (k0_hw1 : k0_chk1 v50), ∀ a x, ((![v50] : Fin 1 → IVec S16 32) a x).toNat < S26112.size a := fun v50 k0_hw1 => k0_hw1
def k0_off3 (k0_t1 : Fin k0_t1_loop.trips) : Fin 1 → Nat :=
  let c128_i32_11 : BitVec 32 := 128#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v53 : BitVec 32 := Scalar.addi c128_i32_11 v44
  let v54 : Index := Scalar.indexCast v53
  ![v54.toNat]

def k0_chk2 (v57 : IVec S16 32) : Prop :=
  (∀ a x, ((![v57] : Fin 1 → IVec S16 32) a x).toNat < S26112.size a)
instance k0_chk2.dec : ∀ (v57 : IVec S16 32), Decidable (k0_chk2 v57) := fun v57 => decidable_of_iff' _ (Iff.of_eq (k0_chk2.eq_1 v57))
theorem k0_idx2_inb : ∀ (v57 : IVec S16 32) (k0_hw2 : k0_chk2 v57), ∀ a x, ((![v57] : Fin 1 → IVec S16 32) a x).toNat < S26112.size a := fun v57 k0_hw2 => k0_hw2
def k0_off4 (k0_t1 : Fin k0_t1_loop.trips) : Fin 1 → Nat :=
  let c256_i32 : BitVec 32 := 256#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v60 : BitVec 32 := Scalar.addi c256_i32 v44
  let v61 : Index := Scalar.indexCast v60
  ![v61.toNat]

def k0_chk3 (v64 : IVec S16 32) : Prop :=
  (∀ a x, ((![v64] : Fin 1 → IVec S16 32) a x).toNat < S26112.size a)
instance k0_chk3.dec : ∀ (v64 : IVec S16 32), Decidable (k0_chk3 v64) := fun v64 => decidable_of_iff' _ (Iff.of_eq (k0_chk3.eq_1 v64))
theorem k0_idx3_inb : ∀ (v64 : IVec S16 32) (k0_hw3 : k0_chk3 v64), ∀ a x, ((![v64] : Fin 1 → IVec S16 32) a x).toNat < S26112.size a := fun v64 k0_hw3 => k0_hw3
def k0_off5 (k0_t1 : Fin k0_t1_loop.trips) : Fin 1 → Nat :=
  let c384_i32 : BitVec 32 := 384#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v67 : BitVec 32 := Scalar.addi c384_i32 v44
  let v68 : Index := Scalar.indexCast v67
  ![v68.toNat]

def k0_chk4 (v71 : IVec S16 32) : Prop :=
  (∀ a x, ((![v71] : Fin 1 → IVec S16 32) a x).toNat < S26112.size a)
instance k0_chk4.dec : ∀ (v71 : IVec S16 32), Decidable (k0_chk4 v71) := fun v71 => decidable_of_iff' _ (Iff.of_eq (k0_chk4.eq_1 v71))
theorem k0_idx4_inb : ∀ (v71 : IVec S16 32) (k0_hw4 : k0_chk4 v71), ∀ a x, ((![v71] : Fin 1 → IVec S16 32) a x).toNat < S26112.size a := fun v71 k0_hw4 => k0_hw4
def k0_off6 (k0_t1 : Fin k0_t1_loop.trips) : Fin 1 → Nat :=
  let c512_i32 : BitVec 32 := 512#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v74 : BitVec 32 := Scalar.addi c512_i32 v44
  let v75 : Index := Scalar.indexCast v74
  ![v75.toNat]

def k0_chk5 (v78 : IVec S16 32) : Prop :=
  (∀ a x, ((![v78] : Fin 1 → IVec S16 32) a x).toNat < S26112.size a)
instance k0_chk5.dec : ∀ (v78 : IVec S16 32), Decidable (k0_chk5 v78) := fun v78 => decidable_of_iff' _ (Iff.of_eq (k0_chk5.eq_1 v78))
theorem k0_idx5_inb : ∀ (v78 : IVec S16 32) (k0_hw5 : k0_chk5 v78), ∀ a x, ((![v78] : Fin 1 → IVec S16 32) a x).toNat < S26112.size a := fun v78 k0_hw5 => k0_hw5
def k0_off7 (k0_t1 : Fin k0_t1_loop.trips) : Fin 1 → Nat :=
  let c640_i32 : BitVec 32 := 640#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v81 : BitVec 32 := Scalar.addi c640_i32 v44
  let v82 : Index := Scalar.indexCast v81
  ![v82.toNat]

def k0_chk6 (v85 : IVec S16 32) : Prop :=
  (∀ a x, ((![v85] : Fin 1 → IVec S16 32) a x).toNat < S26112.size a)
instance k0_chk6.dec : ∀ (v85 : IVec S16 32), Decidable (k0_chk6 v85) := fun v85 => decidable_of_iff' _ (Iff.of_eq (k0_chk6.eq_1 v85))
theorem k0_idx6_inb : ∀ (v85 : IVec S16 32) (k0_hw6 : k0_chk6 v85), ∀ a x, ((![v85] : Fin 1 → IVec S16 32) a x).toNat < S26112.size a := fun v85 k0_hw6 => k0_hw6
def k0_off8 (k0_t1 : Fin k0_t1_loop.trips) : Fin 1 → Nat :=
  let c768_i32 : BitVec 32 := 768#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v88 : BitVec 32 := Scalar.addi c768_i32 v44
  let v89 : Index := Scalar.indexCast v88
  ![v89.toNat]

def k0_chk7 (v92 : IVec S16 32) : Prop :=
  (∀ a x, ((![v92] : Fin 1 → IVec S16 32) a x).toNat < S26112.size a)
instance k0_chk7.dec : ∀ (v92 : IVec S16 32), Decidable (k0_chk7 v92) := fun v92 => decidable_of_iff' _ (Iff.of_eq (k0_chk7.eq_1 v92))
theorem k0_idx7_inb : ∀ (v92 : IVec S16 32) (k0_hw7 : k0_chk7 v92), ∀ a x, ((![v92] : Fin 1 → IVec S16 32) a x).toNat < S26112.size a := fun v92 k0_hw7 => k0_hw7
def k0_off9 (k0_t1 : Fin k0_t1_loop.trips) : Fin 1 → Nat :=
  let c896_i32 : BitVec 32 := 896#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v95 : BitVec 32 := Scalar.addi c896_i32 v44
  let v96 : Index := Scalar.indexCast v95
  ![v96.toNat]

def k0_chk8 (v99 : IVec S16 32) : Prop :=
  (∀ a x, ((![v99] : Fin 1 → IVec S16 32) a x).toNat < S26112.size a)
instance k0_chk8.dec : ∀ (v99 : IVec S16 32), Decidable (k0_chk8 v99) := fun v99 => decidable_of_iff' _ (Iff.of_eq (k0_chk8.eq_1 v99))
theorem k0_idx8_inb : ∀ (v99 : IVec S16 32) (k0_hw8 : k0_chk8 v99), ∀ a x, ((![v99] : Fin 1 → IVec S16 32) a x).toNat < S26112.size a := fun v99 k0_hw8 => k0_hw8
def k0_off10 (k0_t1 : Fin k0_t1_loop.trips) : Fin 1 → Nat :=
  let c1024_i32 : BitVec 32 := 1024#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v102 : BitVec 32 := Scalar.addi c1024_i32 v44
  let v103 : Index := Scalar.indexCast v102
  ![v103.toNat]

def k0_chk9 (v106 : IVec S16 32) : Prop :=
  (∀ a x, ((![v106] : Fin 1 → IVec S16 32) a x).toNat < S26112.size a)
instance k0_chk9.dec : ∀ (v106 : IVec S16 32), Decidable (k0_chk9 v106) := fun v106 => decidable_of_iff' _ (Iff.of_eq (k0_chk9.eq_1 v106))
theorem k0_idx9_inb : ∀ (v106 : IVec S16 32) (k0_hw9 : k0_chk9 v106), ∀ a x, ((![v106] : Fin 1 → IVec S16 32) a x).toNat < S26112.size a := fun v106 k0_hw9 => k0_hw9
def k0_off11 (k0_t1 : Fin k0_t1_loop.trips) : Fin 1 → Nat :=
  let c1152_i32 : BitVec 32 := 1152#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v109 : BitVec 32 := Scalar.addi c1152_i32 v44
  let v110 : Index := Scalar.indexCast v109
  ![v110.toNat]

def k0_chk10 (v113 : IVec S16 32) : Prop :=
  (∀ a x, ((![v113] : Fin 1 → IVec S16 32) a x).toNat < S26112.size a)
instance k0_chk10.dec : ∀ (v113 : IVec S16 32), Decidable (k0_chk10 v113) := fun v113 => decidable_of_iff' _ (Iff.of_eq (k0_chk10.eq_1 v113))
theorem k0_idx10_inb : ∀ (v113 : IVec S16 32) (k0_hw10 : k0_chk10 v113), ∀ a x, ((![v113] : Fin 1 → IVec S16 32) a x).toNat < S26112.size a := fun v113 k0_hw10 => k0_hw10
def k0_off12 (k0_t1 : Fin k0_t1_loop.trips) : Fin 1 → Nat :=
  let c1280_i32 : BitVec 32 := 1280#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v116 : BitVec 32 := Scalar.addi c1280_i32 v44
  let v117 : Index := Scalar.indexCast v116
  ![v117.toNat]

def k0_chk11 (v120 : IVec S16 32) : Prop :=
  (∀ a x, ((![v120] : Fin 1 → IVec S16 32) a x).toNat < S26112.size a)
instance k0_chk11.dec : ∀ (v120 : IVec S16 32), Decidable (k0_chk11 v120) := fun v120 => decidable_of_iff' _ (Iff.of_eq (k0_chk11.eq_1 v120))
theorem k0_idx11_inb : ∀ (v120 : IVec S16 32) (k0_hw11 : k0_chk11 v120), ∀ a x, ((![v120] : Fin 1 → IVec S16 32) a x).toNat < S26112.size a := fun v120 k0_hw11 => k0_hw11
def k0_off13 (k0_t1 : Fin k0_t1_loop.trips) : Fin 1 → Nat :=
  let c1408_i32 : BitVec 32 := 1408#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v123 : BitVec 32 := Scalar.addi c1408_i32 v44
  let v124 : Index := Scalar.indexCast v123
  ![v124.toNat]

def k0_chk12 (v127 : IVec S16 32) : Prop :=
  (∀ a x, ((![v127] : Fin 1 → IVec S16 32) a x).toNat < S26112.size a)
instance k0_chk12.dec : ∀ (v127 : IVec S16 32), Decidable (k0_chk12 v127) := fun v127 => decidable_of_iff' _ (Iff.of_eq (k0_chk12.eq_1 v127))
theorem k0_idx12_inb : ∀ (v127 : IVec S16 32) (k0_hw12 : k0_chk12 v127), ∀ a x, ((![v127] : Fin 1 → IVec S16 32) a x).toNat < S26112.size a := fun v127 k0_hw12 => k0_hw12
def k0_off14 (k0_t1 : Fin k0_t1_loop.trips) : Fin 1 → Nat :=
  let c1536_i32 : BitVec 32 := 1536#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v130 : BitVec 32 := Scalar.addi c1536_i32 v44
  let v131 : Index := Scalar.indexCast v130
  ![v131.toNat]

def k0_chk13 (v134 : IVec S16 32) : Prop :=
  (∀ a x, ((![v134] : Fin 1 → IVec S16 32) a x).toNat < S26112.size a)
instance k0_chk13.dec : ∀ (v134 : IVec S16 32), Decidable (k0_chk13 v134) := fun v134 => decidable_of_iff' _ (Iff.of_eq (k0_chk13.eq_1 v134))
theorem k0_idx13_inb : ∀ (v134 : IVec S16 32) (k0_hw13 : k0_chk13 v134), ∀ a x, ((![v134] : Fin 1 → IVec S16 32) a x).toNat < S26112.size a := fun v134 k0_hw13 => k0_hw13
def k0_off15 (k0_t1 : Fin k0_t1_loop.trips) : Fin 1 → Nat :=
  let c1664_i32 : BitVec 32 := 1664#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v137 : BitVec 32 := Scalar.addi c1664_i32 v44
  let v138 : Index := Scalar.indexCast v137
  ![v138.toNat]

def k0_chk14 (v141 : IVec S16 32) : Prop :=
  (∀ a x, ((![v141] : Fin 1 → IVec S16 32) a x).toNat < S26112.size a)
instance k0_chk14.dec : ∀ (v141 : IVec S16 32), Decidable (k0_chk14 v141) := fun v141 => decidable_of_iff' _ (Iff.of_eq (k0_chk14.eq_1 v141))
theorem k0_idx14_inb : ∀ (v141 : IVec S16 32) (k0_hw14 : k0_chk14 v141), ∀ a x, ((![v141] : Fin 1 → IVec S16 32) a x).toNat < S26112.size a := fun v141 k0_hw14 => k0_hw14
def k0_off16 (k0_t1 : Fin k0_t1_loop.trips) : Fin 1 → Nat :=
  let c1792_i32 : BitVec 32 := 1792#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v144 : BitVec 32 := Scalar.addi c1792_i32 v44
  let v145 : Index := Scalar.indexCast v144
  ![v145.toNat]

def k0_chk15 (v148 : IVec S16 32) : Prop :=
  (∀ a x, ((![v148] : Fin 1 → IVec S16 32) a x).toNat < S26112.size a)
instance k0_chk15.dec : ∀ (v148 : IVec S16 32), Decidable (k0_chk15 v148) := fun v148 => decidable_of_iff' _ (Iff.of_eq (k0_chk15.eq_1 v148))
theorem k0_idx15_inb : ∀ (v148 : IVec S16 32) (k0_hw15 : k0_chk15 v148), ∀ a x, ((![v148] : Fin 1 → IVec S16 32) a x).toNat < S26112.size a := fun v148 k0_hw15 => k0_hw15
def k0_off17 (k0_t1 : Fin k0_t1_loop.trips) : Fin 1 → Nat :=
  let c1920_i32 : BitVec 32 := 1920#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v151 : BitVec 32 := Scalar.addi c1920_i32 v44
  let v152 : Index := Scalar.indexCast v151
  ![v152.toNat]

def k0_chk16 (v155 : IVec S16 32) : Prop :=
  (∀ a x, ((![v155] : Fin 1 → IVec S16 32) a x).toNat < S26112.size a)
instance k0_chk16.dec : ∀ (v155 : IVec S16 32), Decidable (k0_chk16 v155) := fun v155 => decidable_of_iff' _ (Iff.of_eq (k0_chk16.eq_1 v155))
theorem k0_idx16_inb : ∀ (v155 : IVec S16 32) (k0_hw16 : k0_chk16 v155), ∀ a x, ((![v155] : Fin 1 → IVec S16 32) a x).toNat < S26112.size a := fun v155 k0_hw16 => k0_hw16
def k0_off18 (k0_t1 : Fin k0_t1_loop.trips) : Fin 1 → Nat :=
  let c2048_i32 : BitVec 32 := 2048#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v158 : BitVec 32 := Scalar.addi c2048_i32 v44
  let v159 : Index := Scalar.indexCast v158
  ![v159.toNat]

def k0_chk17 (v162 : IVec S16 32) : Prop :=
  (∀ a x, ((![v162] : Fin 1 → IVec S16 32) a x).toNat < S26112.size a)
instance k0_chk17.dec : ∀ (v162 : IVec S16 32), Decidable (k0_chk17 v162) := fun v162 => decidable_of_iff' _ (Iff.of_eq (k0_chk17.eq_1 v162))
theorem k0_idx17_inb : ∀ (v162 : IVec S16 32) (k0_hw17 : k0_chk17 v162), ∀ a x, ((![v162] : Fin 1 → IVec S16 32) a x).toNat < S26112.size a := fun v162 k0_hw17 => k0_hw17
def k0_off19 (k0_t1 : Fin k0_t1_loop.trips) : Fin 1 → Nat :=
  let c2176_i32 : BitVec 32 := 2176#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v165 : BitVec 32 := Scalar.addi c2176_i32 v44
  let v166 : Index := Scalar.indexCast v165
  ![v166.toNat]

def k0_chk18 (v169 : IVec S16 32) : Prop :=
  (∀ a x, ((![v169] : Fin 1 → IVec S16 32) a x).toNat < S26112.size a)
instance k0_chk18.dec : ∀ (v169 : IVec S16 32), Decidable (k0_chk18 v169) := fun v169 => decidable_of_iff' _ (Iff.of_eq (k0_chk18.eq_1 v169))
theorem k0_idx18_inb : ∀ (v169 : IVec S16 32) (k0_hw18 : k0_chk18 v169), ∀ a x, ((![v169] : Fin 1 → IVec S16 32) a x).toNat < S26112.size a := fun v169 k0_hw18 => k0_hw18
def k0_off20 (k0_t1 : Fin k0_t1_loop.trips) : Fin 1 → Nat :=
  let c2304_i32 : BitVec 32 := 2304#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v172 : BitVec 32 := Scalar.addi c2304_i32 v44
  let v173 : Index := Scalar.indexCast v172
  ![v173.toNat]

def k0_chk19 (v176 : IVec S16 32) : Prop :=
  (∀ a x, ((![v176] : Fin 1 → IVec S16 32) a x).toNat < S26112.size a)
instance k0_chk19.dec : ∀ (v176 : IVec S16 32), Decidable (k0_chk19 v176) := fun v176 => decidable_of_iff' _ (Iff.of_eq (k0_chk19.eq_1 v176))
theorem k0_idx19_inb : ∀ (v176 : IVec S16 32) (k0_hw19 : k0_chk19 v176), ∀ a x, ((![v176] : Fin 1 → IVec S16 32) a x).toNat < S26112.size a := fun v176 k0_hw19 => k0_hw19
def k0_off21 (k0_t1 : Fin k0_t1_loop.trips) : Fin 1 → Nat :=
  let c2432_i32 : BitVec 32 := 2432#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v179 : BitVec 32 := Scalar.addi c2432_i32 v44
  let v180 : Index := Scalar.indexCast v179
  ![v180.toNat]

def k0_chk20 (v183 : IVec S16 32) : Prop :=
  (∀ a x, ((![v183] : Fin 1 → IVec S16 32) a x).toNat < S26112.size a)
instance k0_chk20.dec : ∀ (v183 : IVec S16 32), Decidable (k0_chk20 v183) := fun v183 => decidable_of_iff' _ (Iff.of_eq (k0_chk20.eq_1 v183))
theorem k0_idx20_inb : ∀ (v183 : IVec S16 32) (k0_hw20 : k0_chk20 v183), ∀ a x, ((![v183] : Fin 1 → IVec S16 32) a x).toNat < S26112.size a := fun v183 k0_hw20 => k0_hw20
def k0_off22 (k0_t1 : Fin k0_t1_loop.trips) : Fin 1 → Nat :=
  let c2560_i32 : BitVec 32 := 2560#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v186 : BitVec 32 := Scalar.addi c2560_i32 v44
  let v187 : Index := Scalar.indexCast v186
  ![v187.toNat]

def k0_chk21 (v190 : IVec S16 32) : Prop :=
  (∀ a x, ((![v190] : Fin 1 → IVec S16 32) a x).toNat < S26112.size a)
instance k0_chk21.dec : ∀ (v190 : IVec S16 32), Decidable (k0_chk21 v190) := fun v190 => decidable_of_iff' _ (Iff.of_eq (k0_chk21.eq_1 v190))
theorem k0_idx21_inb : ∀ (v190 : IVec S16 32) (k0_hw21 : k0_chk21 v190), ∀ a x, ((![v190] : Fin 1 → IVec S16 32) a x).toNat < S26112.size a := fun v190 k0_hw21 => k0_hw21
def k0_off23 (k0_t1 : Fin k0_t1_loop.trips) : Fin 1 → Nat :=
  let c2688_i32 : BitVec 32 := 2688#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v193 : BitVec 32 := Scalar.addi c2688_i32 v44
  let v194 : Index := Scalar.indexCast v193
  ![v194.toNat]

def k0_chk22 (v197 : IVec S16 32) : Prop :=
  (∀ a x, ((![v197] : Fin 1 → IVec S16 32) a x).toNat < S26112.size a)
instance k0_chk22.dec : ∀ (v197 : IVec S16 32), Decidable (k0_chk22 v197) := fun v197 => decidable_of_iff' _ (Iff.of_eq (k0_chk22.eq_1 v197))
theorem k0_idx22_inb : ∀ (v197 : IVec S16 32) (k0_hw22 : k0_chk22 v197), ∀ a x, ((![v197] : Fin 1 → IVec S16 32) a x).toNat < S26112.size a := fun v197 k0_hw22 => k0_hw22
def k0_off24 (k0_t1 : Fin k0_t1_loop.trips) : Fin 1 → Nat :=
  let c2816_i32 : BitVec 32 := 2816#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v200 : BitVec 32 := Scalar.addi c2816_i32 v44
  let v201 : Index := Scalar.indexCast v200
  ![v201.toNat]

def k0_chk23 (v204 : IVec S16 32) : Prop :=
  (∀ a x, ((![v204] : Fin 1 → IVec S16 32) a x).toNat < S26112.size a)
instance k0_chk23.dec : ∀ (v204 : IVec S16 32), Decidable (k0_chk23 v204) := fun v204 => decidable_of_iff' _ (Iff.of_eq (k0_chk23.eq_1 v204))
theorem k0_idx23_inb : ∀ (v204 : IVec S16 32) (k0_hw23 : k0_chk23 v204), ∀ a x, ((![v204] : Fin 1 → IVec S16 32) a x).toNat < S26112.size a := fun v204 k0_hw23 => k0_hw23
def k0_off25 (k0_t1 : Fin k0_t1_loop.trips) : Fin 1 → Nat :=
  let c2944_i32 : BitVec 32 := 2944#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v207 : BitVec 32 := Scalar.addi c2944_i32 v44
  let v208 : Index := Scalar.indexCast v207
  ![v208.toNat]

def k0_chk24 (v211 : IVec S16 32) : Prop :=
  (∀ a x, ((![v211] : Fin 1 → IVec S16 32) a x).toNat < S26112.size a)
instance k0_chk24.dec : ∀ (v211 : IVec S16 32), Decidable (k0_chk24 v211) := fun v211 => decidable_of_iff' _ (Iff.of_eq (k0_chk24.eq_1 v211))
theorem k0_idx24_inb : ∀ (v211 : IVec S16 32) (k0_hw24 : k0_chk24 v211), ∀ a x, ((![v211] : Fin 1 → IVec S16 32) a x).toNat < S26112.size a := fun v211 k0_hw24 => k0_hw24
def k0_off26 (k0_t1 : Fin k0_t1_loop.trips) : Fin 1 → Nat :=
  let c3072_i32 : BitVec 32 := 3072#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v214 : BitVec 32 := Scalar.addi c3072_i32 v44
  let v215 : Index := Scalar.indexCast v214
  ![v215.toNat]

def k0_chk25 (v218 : IVec S16 32) : Prop :=
  (∀ a x, ((![v218] : Fin 1 → IVec S16 32) a x).toNat < S26112.size a)
instance k0_chk25.dec : ∀ (v218 : IVec S16 32), Decidable (k0_chk25 v218) := fun v218 => decidable_of_iff' _ (Iff.of_eq (k0_chk25.eq_1 v218))
theorem k0_idx25_inb : ∀ (v218 : IVec S16 32) (k0_hw25 : k0_chk25 v218), ∀ a x, ((![v218] : Fin 1 → IVec S16 32) a x).toNat < S26112.size a := fun v218 k0_hw25 => k0_hw25
def k0_off27 (k0_t1 : Fin k0_t1_loop.trips) : Fin 1 → Nat :=
  let c3200_i32 : BitVec 32 := 3200#32
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v221 : BitVec 32 := Scalar.addi c3200_i32 v44
  let v222 : Index := Scalar.indexCast v221
  ![v222.toNat]

def k0_chk26 (v225 : IVec S16 32) : Prop :=
  (∀ a x, ((![v225] : Fin 1 → IVec S16 32) a x).toNat < S26112.size a)
instance k0_chk26.dec : ∀ (v225 : IVec S16 32), Decidable (k0_chk26 v225) := fun v225 => decidable_of_iff' _ (Iff.of_eq (k0_chk26.eq_1 v225))
theorem k0_idx26_inb : ∀ (v225 : IVec S16 32) (k0_hw26 : k0_chk26 v225), ∀ a x, ((![v225] : Fin 1 → IVec S16 32) a x).toNat < S26112.size a := fun v225 k0_hw26 => k0_hw26
def k0_off28 (k0_t1 : Fin k0_t1_loop.trips) : Fin 1 → Nat :=
  let c0_i32_1 : BitVec 32 := 0#32
  let c1_i32 : BitVec 32 := 1#32
  let arg15 : BitVec 32 := Scf.iv c0_i32_1 c1_i32 k0_t1
  let c16_i32 : BitVec 32 := 16#32
  let v44 : BitVec 32 := Scalar.muli arg15 c16_i32
  let v228 : Index := Scalar.indexCast v44
  ![v228.toNat]
def k0_off29 (i : grid0.Coords) (c1331200_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v30 : BitVec 32 := Scalar.addi c1331200_i32 v2
  ![v30.toNat]
@[reducible] def k0_t2_loop (i : grid0.Coords) : Scf.Loop 32 :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c5_i32_3 : BitVec 32 := 5#32
  let v36 : BitVec 1 := Scalar.cmpi .slt v1 c5_i32_3
  let c11_i32 : BitVec 32 := 11#32
  let c10_i32_4 : BitVec 32 := 10#32
  let v37 : BitVec 32 := Scalar.select v36 c11_i32 c10_i32_4
  let v38 : BitVec 32 := Scalar.addi v35 v37
  let v39 : BitVec 32 := Scalar.subi v38 v35
  let c1_i32_6 : BitVec 32 := 1#32
  let v41 : BitVec 32 := Scalar.divsi v39 c1_i32_6
  let v42 : BitVec 32 := Scalar.muli v41 c1_i32_6
  let v43 : BitVec 32 := Scalar.addi v35 v42
  let c1_i32_7 : BitVec 32 := 1#32
  ⟨v35, v43, c1_i32_7⟩
def k0_off30 (i : grid0.Coords) (k0_t2 : Fin (k0_t2_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c1_i32_7 : BitVec 32 := 1#32
  let arg15 : BitVec 32 := Scf.iv v35 c1_i32_7 k0_t2
  let c13_i32 : BitVec 32 := 13#32
  let c5042_i32 : BitVec 32 := 5042#32
  let v44 : BitVec 32 := Scalar.muli arg15 c5042_i32
  let c16_i32 : BitVec 32 := 16#32
  let v45 : BitVec 32 := Scalar.shrui v44 c16_i32
  let v46 : BitVec 32 := Scalar.muli c13_i32 v45
  let v47 : BitVec 32 := Scalar.subi arg15 v46
  let c0_i32_9 : BitVec 32 := 0#32
  let v51 : BitVec 1 := Scalar.cmpi .eq v47 c0_i32_9
  let v48 : BitVec 32 := Scalar.addi v45 v47
  let c25_i32_10 : BitVec 32 := 25#32
  let v52 : BitVec 1 := Scalar.cmpi .sge v48 c25_i32_10
  let c25_i32_11 : BitVec 32 := 25#32
  let v53 : BitVec 32 := Scalar.subi v48 c25_i32_11
  let v54 : BitVec 32 := Scalar.select v52 v53 v48
  let v55 : BitVec 32 := Scalar.select v51 v45 v54
  let c4096_i32_16 : BitVec 32 := 4096#32
  let v61 : BitVec 32 := Scalar.muli v55 c4096_i32_16
  ![v61.toNat]
def k0_off31 (i : grid0.Coords) (k0_t2 : Fin (k0_t2_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c1_i32_7 : BitVec 32 := 1#32
  let arg15 : BitVec 32 := Scf.iv v35 c1_i32_7 k0_t2
  let c13_i32 : BitVec 32 := 13#32
  let c5042_i32 : BitVec 32 := 5042#32
  let v44 : BitVec 32 := Scalar.muli arg15 c5042_i32
  let c16_i32 : BitVec 32 := 16#32
  let v45 : BitVec 32 := Scalar.shrui v44 c16_i32
  let v46 : BitVec 32 := Scalar.muli c13_i32 v45
  let v47 : BitVec 32 := Scalar.subi arg15 v46
  let c0_i32_12 : BitVec 32 := 0#32
  let v56 : BitVec 1 := Scalar.cmpi .eq v47 c0_i32_12
  let c25_i32_15 : BitVec 32 := 25#32
  let c25_i32 : BitVec 32 := 25#32
  let v49 : BitVec 32 := Scalar.addi v45 c25_i32
  let v50 : BitVec 32 := Scalar.subi v49 v47
  let c25_i32_13 : BitVec 32 := 25#32
  let v57 : BitVec 1 := Scalar.cmpi .sge v50 c25_i32_13
  let c25_i32_14 : BitVec 32 := 25#32
  let v58 : BitVec 32 := Scalar.subi v50 c25_i32_14
  let v59 : BitVec 32 := Scalar.select v57 v58 v50
  let v60 : BitVec 32 := Scalar.select v56 c25_i32_15 v59
  let c4096_i32_17 : BitVec 32 := 4096#32
  let v62 : BitVec 32 := Scalar.muli v60 c4096_i32_17
  ![v62.toNat]
def k0_off32 (i : grid0.Coords) (k0_t2 : Fin (k0_t2_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c1_i32_7 : BitVec 32 := 1#32
  let arg15 : BitVec 32 := Scf.iv v35 c1_i32_7 k0_t2
  let c13_i32 : BitVec 32 := 13#32
  let c5042_i32 : BitVec 32 := 5042#32
  let v44 : BitVec 32 := Scalar.muli arg15 c5042_i32
  let c16_i32 : BitVec 32 := 16#32
  let v45 : BitVec 32 := Scalar.shrui v44 c16_i32
  let v46 : BitVec 32 := Scalar.muli c13_i32 v45
  let v47 : BitVec 32 := Scalar.subi arg15 v46
  let c0_i32_12 : BitVec 32 := 0#32
  let v56 : BitVec 1 := Scalar.cmpi .eq v47 c0_i32_12
  let c25_i32_15 : BitVec 32 := 25#32
  let c25_i32 : BitVec 32 := 25#32
  let v49 : BitVec 32 := Scalar.addi v45 c25_i32
  let v50 : BitVec 32 := Scalar.subi v49 v47
  let c25_i32_13 : BitVec 32 := 25#32
  let v57 : BitVec 1 := Scalar.cmpi .sge v50 c25_i32_13
  let c25_i32_14 : BitVec 32 := 25#32
  let v58 : BitVec 32 := Scalar.subi v50 c25_i32_14
  let v59 : BitVec 32 := Scalar.select v57 v58 v50
  let v60 : BitVec 32 := Scalar.select v56 c25_i32_15 v59
  let c26000_i32 : BitVec 32 := 26000#32
  let v63 : BitVec 32 := Scalar.muli v60 c26000_i32
  let c0_i32_9 : BitVec 32 := 0#32
  let v51 : BitVec 1 := Scalar.cmpi .eq v47 c0_i32_9
  let v48 : BitVec 32 := Scalar.addi v45 v47
  let c25_i32_10 : BitVec 32 := 25#32
  let v52 : BitVec 1 := Scalar.cmpi .sge v48 c25_i32_10
  let c25_i32_11 : BitVec 32 := 25#32
  let v53 : BitVec 32 := Scalar.subi v48 c25_i32_11
  let v54 : BitVec 32 := Scalar.select v52 v53 v48
  let v55 : BitVec 32 := Scalar.select v51 v45 v54
  let c1000_i32 : BitVec 32 := 1000#32
  let v64 : BitVec 32 := Scalar.muli v55 c1000_i32
  let v65 : BitVec 32 := Scalar.addi v63 v64
  let c16_i32_18 : BitVec 32 := 16#32
  let v66 : BitVec 32 := Scalar.muli v65 c16_i32_18
  ![v66.toNat]
def k0_off33 (i : grid0.Coords) (k0_t2 : Fin (k0_t2_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c1_i32_7 : BitVec 32 := 1#32
  let arg15 : BitVec 32 := Scf.iv v35 c1_i32_7 k0_t2
  let c13_i32 : BitVec 32 := 13#32
  let c5042_i32 : BitVec 32 := 5042#32
  let v44 : BitVec 32 := Scalar.muli arg15 c5042_i32
  let c16_i32 : BitVec 32 := 16#32
  let v45 : BitVec 32 := Scalar.shrui v44 c16_i32
  let v46 : BitVec 32 := Scalar.muli c13_i32 v45
  let v47 : BitVec 32 := Scalar.subi arg15 v46
  let c0_i32_9 : BitVec 32 := 0#32
  let v51 : BitVec 1 := Scalar.cmpi .eq v47 c0_i32_9
  let v48 : BitVec 32 := Scalar.addi v45 v47
  let c25_i32_10 : BitVec 32 := 25#32
  let v52 : BitVec 1 := Scalar.cmpi .sge v48 c25_i32_10
  let c25_i32_11 : BitVec 32 := 25#32
  let v53 : BitVec 32 := Scalar.subi v48 c25_i32_11
  let v54 : BitVec 32 := Scalar.select v52 v53 v48
  let v55 : BitVec 32 := Scalar.select v51 v45 v54
  let c26000_i32_19 : BitVec 32 := 26000#32
  let v67 : BitVec 32 := Scalar.muli v55 c26000_i32_19
  let c0_i32_12 : BitVec 32 := 0#32
  let v56 : BitVec 1 := Scalar.cmpi .eq v47 c0_i32_12
  let c25_i32_15 : BitVec 32 := 25#32
  let c25_i32 : BitVec 32 := 25#32
  let v49 : BitVec 32 := Scalar.addi v45 c25_i32
  let v50 : BitVec 32 := Scalar.subi v49 v47
  let c25_i32_13 : BitVec 32 := 25#32
  let v57 : BitVec 1 := Scalar.cmpi .sge v50 c25_i32_13
  let c25_i32_14 : BitVec 32 := 25#32
  let v58 : BitVec 32 := Scalar.subi v50 c25_i32_14
  let v59 : BitVec 32 := Scalar.select v57 v58 v50
  let v60 : BitVec 32 := Scalar.select v56 c25_i32_15 v59
  let c1000_i32_20 : BitVec 32 := 1000#32
  let v68 : BitVec 32 := Scalar.muli v60 c1000_i32_20
  let v69 : BitVec 32 := Scalar.addi v67 v68
  let c16_i32_21 : BitVec 32 := 16#32
  let v70 : BitVec 32 := Scalar.muli v69 c16_i32_21
  ![v70.toNat]
@[reducible] def k0_t3_loop : Scf.Loop 32 :=
  let c0_i32_23 : BitVec 32 := 0#32
  let c256_i32 : BitVec 32 := 256#32
  let v71 : BitVec 32 := Scalar.addi c0_i32_23 c256_i32
  let c1_i32_24 : BitVec 32 := 1#32
  ⟨c0_i32_23, v71, c1_i32_24⟩
def k0_off34 (k0_t3 : Fin k0_t3_loop.trips) : Fin 1 → Nat :=
  let c0_i32_23 : BitVec 32 := 0#32
  let c1_i32_24 : BitVec 32 := 1#32
  let arg16 : BitVec 32 := Scf.iv c0_i32_23 c1_i32_24 k0_t3
  let c16_i32_27 : BitVec 32 := 16#32
  let v73 : BitVec 32 := Scalar.muli arg16 c16_i32_27
  let v74 : Index := Scalar.indexCast v73
  ![v74.toNat]

def k0_chk27 (v84 : IVec S16 32) : Prop :=
  (∀ a x, ((![v84] : Fin 1 → IVec S16 32) a x).toNat < S16000.size a)
instance k0_chk27.dec : ∀ (v84 : IVec S16 32), Decidable (k0_chk27 v84) := fun v84 => decidable_of_iff' _ (Iff.of_eq (k0_chk27.eq_1 v84))
theorem k0_idx27_inb : ∀ (v84 : IVec S16 32) (k0_hw27 : k0_chk27 v84), ∀ a x, ((![v84] : Fin 1 → IVec S16 32) a x).toNat < S16000.size a := fun v84 k0_hw27 => k0_hw27

def k0_chk28 (v87 : IVec S16 32) : Prop :=
  (∀ a x, ((![v87] : Fin 1 → IVec S16 32) a x).toNat < S16000.size a)
instance k0_chk28.dec : ∀ (v87 : IVec S16 32), Decidable (k0_chk28 v87) := fun v87 => decidable_of_iff' _ (Iff.of_eq (k0_chk28.eq_1 v87))
theorem k0_idx28_inb : ∀ (v87 : IVec S16 32) (k0_hw28 : k0_chk28 v87), ∀ a x, ((![v87] : Fin 1 → IVec S16 32) a x).toNat < S16000.size a := fun v87 k0_hw28 => k0_hw28

def k0_chk29 (v92 : IVec S16 32) : Prop :=
  (∀ a x, ((![v92] : Fin 1 → IVec S16 32) a x).toNat < S16000.size a)
instance k0_chk29.dec : ∀ (v92 : IVec S16 32), Decidable (k0_chk29 v92) := fun v92 => decidable_of_iff' _ (Iff.of_eq (k0_chk29.eq_1 v92))
theorem k0_idx29_inb : ∀ (v92 : IVec S16 32) (k0_hw29 : k0_chk29 v92), ∀ a x, ((![v92] : Fin 1 → IVec S16 32) a x).toNat < S16000.size a := fun v92 k0_hw29 => k0_hw29

def k0_chk30 (v95 : IVec S16 32) : Prop :=
  (∀ a x, ((![v95] : Fin 1 → IVec S16 32) a x).toNat < S16000.size a)
instance k0_chk30.dec : ∀ (v95 : IVec S16 32), Decidable (k0_chk30 v95) := fun v95 => decidable_of_iff' _ (Iff.of_eq (k0_chk30.eq_1 v95))
theorem k0_idx30_inb : ∀ (v95 : IVec S16 32) (k0_hw30 : k0_chk30 v95), ∀ a x, ((![v95] : Fin 1 → IVec S16 32) a x).toNat < S16000.size a := fun v95 k0_hw30 => k0_hw30

def k0_chk31 (v100 : IVec S16 32) : Prop :=
  (∀ a x, ((![v100] : Fin 1 → IVec S16 32) a x).toNat < S16000.size a)
instance k0_chk31.dec : ∀ (v100 : IVec S16 32), Decidable (k0_chk31 v100) := fun v100 => decidable_of_iff' _ (Iff.of_eq (k0_chk31.eq_1 v100))
theorem k0_idx31_inb : ∀ (v100 : IVec S16 32) (k0_hw31 : k0_chk31 v100), ∀ a x, ((![v100] : Fin 1 → IVec S16 32) a x).toNat < S16000.size a := fun v100 k0_hw31 => k0_hw31

def k0_chk32 (v103 : IVec S16 32) : Prop :=
  (∀ a x, ((![v103] : Fin 1 → IVec S16 32) a x).toNat < S16000.size a)
instance k0_chk32.dec : ∀ (v103 : IVec S16 32), Decidable (k0_chk32 v103) := fun v103 => decidable_of_iff' _ (Iff.of_eq (k0_chk32.eq_1 v103))
theorem k0_idx32_inb : ∀ (v103 : IVec S16 32) (k0_hw32 : k0_chk32 v103), ∀ a x, ((![v103] : Fin 1 → IVec S16 32) a x).toNat < S16000.size a := fun v103 k0_hw32 => k0_hw32

def k0_chk33 (v108 : IVec S16 32) : Prop :=
  (∀ a x, ((![v108] : Fin 1 → IVec S16 32) a x).toNat < S16000.size a)
instance k0_chk33.dec : ∀ (v108 : IVec S16 32), Decidable (k0_chk33 v108) := fun v108 => decidable_of_iff' _ (Iff.of_eq (k0_chk33.eq_1 v108))
theorem k0_idx33_inb : ∀ (v108 : IVec S16 32) (k0_hw33 : k0_chk33 v108), ∀ a x, ((![v108] : Fin 1 → IVec S16 32) a x).toNat < S16000.size a := fun v108 k0_hw33 => k0_hw33

def k0_chk34 (v111 : IVec S16 32) : Prop :=
  (∀ a x, ((![v111] : Fin 1 → IVec S16 32) a x).toNat < S16000.size a)
instance k0_chk34.dec : ∀ (v111 : IVec S16 32), Decidable (k0_chk34 v111) := fun v111 => decidable_of_iff' _ (Iff.of_eq (k0_chk34.eq_1 v111))
theorem k0_idx34_inb : ∀ (v111 : IVec S16 32) (k0_hw34 : k0_chk34 v111), ∀ a x, ((![v111] : Fin 1 → IVec S16 32) a x).toNat < S16000.size a := fun v111 k0_hw34 => k0_hw34

def k0_chk35 (v116 : IVec S16 32) : Prop :=
  (∀ a x, ((![v116] : Fin 1 → IVec S16 32) a x).toNat < S16000.size a)
instance k0_chk35.dec : ∀ (v116 : IVec S16 32), Decidable (k0_chk35 v116) := fun v116 => decidable_of_iff' _ (Iff.of_eq (k0_chk35.eq_1 v116))
theorem k0_idx35_inb : ∀ (v116 : IVec S16 32) (k0_hw35 : k0_chk35 v116), ∀ a x, ((![v116] : Fin 1 → IVec S16 32) a x).toNat < S16000.size a := fun v116 k0_hw35 => k0_hw35

def k0_chk36 (v119 : IVec S16 32) : Prop :=
  (∀ a x, ((![v119] : Fin 1 → IVec S16 32) a x).toNat < S16000.size a)
instance k0_chk36.dec : ∀ (v119 : IVec S16 32), Decidable (k0_chk36 v119) := fun v119 => decidable_of_iff' _ (Iff.of_eq (k0_chk36.eq_1 v119))
theorem k0_idx36_inb : ∀ (v119 : IVec S16 32) (k0_hw36 : k0_chk36 v119), ∀ a x, ((![v119] : Fin 1 → IVec S16 32) a x).toNat < S16000.size a := fun v119 k0_hw36 => k0_hw36

def k0_chk37 (v124 : IVec S16 32) : Prop :=
  (∀ a x, ((![v124] : Fin 1 → IVec S16 32) a x).toNat < S16000.size a)
instance k0_chk37.dec : ∀ (v124 : IVec S16 32), Decidable (k0_chk37 v124) := fun v124 => decidable_of_iff' _ (Iff.of_eq (k0_chk37.eq_1 v124))
theorem k0_idx37_inb : ∀ (v124 : IVec S16 32) (k0_hw37 : k0_chk37 v124), ∀ a x, ((![v124] : Fin 1 → IVec S16 32) a x).toNat < S16000.size a := fun v124 k0_hw37 => k0_hw37

def k0_chk38 (v127 : IVec S16 32) : Prop :=
  (∀ a x, ((![v127] : Fin 1 → IVec S16 32) a x).toNat < S16000.size a)
instance k0_chk38.dec : ∀ (v127 : IVec S16 32), Decidable (k0_chk38 v127) := fun v127 => decidable_of_iff' _ (Iff.of_eq (k0_chk38.eq_1 v127))
theorem k0_idx38_inb : ∀ (v127 : IVec S16 32) (k0_hw38 : k0_chk38 v127), ∀ a x, ((![v127] : Fin 1 → IVec S16 32) a x).toNat < S16000.size a := fun v127 k0_hw38 => k0_hw38

def k0_chk39 (v132 : IVec S16 32) : Prop :=
  (∀ a x, ((![v132] : Fin 1 → IVec S16 32) a x).toNat < S16000.size a)
instance k0_chk39.dec : ∀ (v132 : IVec S16 32), Decidable (k0_chk39 v132) := fun v132 => decidable_of_iff' _ (Iff.of_eq (k0_chk39.eq_1 v132))
theorem k0_idx39_inb : ∀ (v132 : IVec S16 32) (k0_hw39 : k0_chk39 v132), ∀ a x, ((![v132] : Fin 1 → IVec S16 32) a x).toNat < S16000.size a := fun v132 k0_hw39 => k0_hw39

def k0_chk40 (v135 : IVec S16 32) : Prop :=
  (∀ a x, ((![v135] : Fin 1 → IVec S16 32) a x).toNat < S16000.size a)
instance k0_chk40.dec : ∀ (v135 : IVec S16 32), Decidable (k0_chk40 v135) := fun v135 => decidable_of_iff' _ (Iff.of_eq (k0_chk40.eq_1 v135))
theorem k0_idx40_inb : ∀ (v135 : IVec S16 32) (k0_hw40 : k0_chk40 v135), ∀ a x, ((![v135] : Fin 1 → IVec S16 32) a x).toNat < S16000.size a := fun v135 k0_hw40 => k0_hw40

def k0_chk41 (v140 : IVec S16 32) : Prop :=
  (∀ a x, ((![v140] : Fin 1 → IVec S16 32) a x).toNat < S16000.size a)
instance k0_chk41.dec : ∀ (v140 : IVec S16 32), Decidable (k0_chk41 v140) := fun v140 => decidable_of_iff' _ (Iff.of_eq (k0_chk41.eq_1 v140))
theorem k0_idx41_inb : ∀ (v140 : IVec S16 32) (k0_hw41 : k0_chk41 v140), ∀ a x, ((![v140] : Fin 1 → IVec S16 32) a x).toNat < S16000.size a := fun v140 k0_hw41 => k0_hw41

def k0_chk42 (v143 : IVec S16 32) : Prop :=
  (∀ a x, ((![v143] : Fin 1 → IVec S16 32) a x).toNat < S16000.size a)
instance k0_chk42.dec : ∀ (v143 : IVec S16 32), Decidable (k0_chk42 v143) := fun v143 => decidable_of_iff' _ (Iff.of_eq (k0_chk42.eq_1 v143))
theorem k0_idx42_inb : ∀ (v143 : IVec S16 32) (k0_hw42 : k0_chk42 v143), ∀ a x, ((![v143] : Fin 1 → IVec S16 32) a x).toNat < S16000.size a := fun v143 k0_hw42 => k0_hw42

def k0_chk43 (v148 : IVec S16 32) : Prop :=
  (∀ a x, ((![v148] : Fin 1 → IVec S16 32) a x).toNat < S16000.size a)
instance k0_chk43.dec : ∀ (v148 : IVec S16 32), Decidable (k0_chk43 v148) := fun v148 => decidable_of_iff' _ (Iff.of_eq (k0_chk43.eq_1 v148))
theorem k0_idx43_inb : ∀ (v148 : IVec S16 32) (k0_hw43 : k0_chk43 v148), ∀ a x, ((![v148] : Fin 1 → IVec S16 32) a x).toNat < S16000.size a := fun v148 k0_hw43 => k0_hw43

def k0_chk44 (v151 : IVec S16 32) : Prop :=
  (∀ a x, ((![v151] : Fin 1 → IVec S16 32) a x).toNat < S16000.size a)
instance k0_chk44.dec : ∀ (v151 : IVec S16 32), Decidable (k0_chk44 v151) := fun v151 => decidable_of_iff' _ (Iff.of_eq (k0_chk44.eq_1 v151))
theorem k0_idx44_inb : ∀ (v151 : IVec S16 32) (k0_hw44 : k0_chk44 v151), ∀ a x, ((![v151] : Fin 1 → IVec S16 32) a x).toNat < S16000.size a := fun v151 k0_hw44 => k0_hw44

def k0_chk45 (v156 : IVec S16 32) : Prop :=
  (∀ a x, ((![v156] : Fin 1 → IVec S16 32) a x).toNat < S16000.size a)
instance k0_chk45.dec : ∀ (v156 : IVec S16 32), Decidable (k0_chk45 v156) := fun v156 => decidable_of_iff' _ (Iff.of_eq (k0_chk45.eq_1 v156))
theorem k0_idx45_inb : ∀ (v156 : IVec S16 32) (k0_hw45 : k0_chk45 v156), ∀ a x, ((![v156] : Fin 1 → IVec S16 32) a x).toNat < S16000.size a := fun v156 k0_hw45 => k0_hw45

def k0_chk46 (v159 : IVec S16 32) : Prop :=
  (∀ a x, ((![v159] : Fin 1 → IVec S16 32) a x).toNat < S16000.size a)
instance k0_chk46.dec : ∀ (v159 : IVec S16 32), Decidable (k0_chk46 v159) := fun v159 => decidable_of_iff' _ (Iff.of_eq (k0_chk46.eq_1 v159))
theorem k0_idx46_inb : ∀ (v159 : IVec S16 32) (k0_hw46 : k0_chk46 v159), ∀ a x, ((![v159] : Fin 1 → IVec S16 32) a x).toNat < S16000.size a := fun v159 k0_hw46 => k0_hw46

def k0_chk47 (v164 : IVec S16 32) : Prop :=
  (∀ a x, ((![v164] : Fin 1 → IVec S16 32) a x).toNat < S16000.size a)
instance k0_chk47.dec : ∀ (v164 : IVec S16 32), Decidable (k0_chk47 v164) := fun v164 => decidable_of_iff' _ (Iff.of_eq (k0_chk47.eq_1 v164))
theorem k0_idx47_inb : ∀ (v164 : IVec S16 32) (k0_hw47 : k0_chk47 v164), ∀ a x, ((![v164] : Fin 1 → IVec S16 32) a x).toNat < S16000.size a := fun v164 k0_hw47 => k0_hw47

def k0_chk48 (v167 : IVec S16 32) : Prop :=
  (∀ a x, ((![v167] : Fin 1 → IVec S16 32) a x).toNat < S16000.size a)
instance k0_chk48.dec : ∀ (v167 : IVec S16 32), Decidable (k0_chk48 v167) := fun v167 => decidable_of_iff' _ (Iff.of_eq (k0_chk48.eq_1 v167))
theorem k0_idx48_inb : ∀ (v167 : IVec S16 32) (k0_hw48 : k0_chk48 v167), ∀ a x, ((![v167] : Fin 1 → IVec S16 32) a x).toNat < S16000.size a := fun v167 k0_hw48 => k0_hw48

def k0_chk49 (v172 : IVec S16 32) : Prop :=
  (∀ a x, ((![v172] : Fin 1 → IVec S16 32) a x).toNat < S16000.size a)
instance k0_chk49.dec : ∀ (v172 : IVec S16 32), Decidable (k0_chk49 v172) := fun v172 => decidable_of_iff' _ (Iff.of_eq (k0_chk49.eq_1 v172))
theorem k0_idx49_inb : ∀ (v172 : IVec S16 32) (k0_hw49 : k0_chk49 v172), ∀ a x, ((![v172] : Fin 1 → IVec S16 32) a x).toNat < S16000.size a := fun v172 k0_hw49 => k0_hw49

def k0_chk50 (v175 : IVec S16 32) : Prop :=
  (∀ a x, ((![v175] : Fin 1 → IVec S16 32) a x).toNat < S16000.size a)
instance k0_chk50.dec : ∀ (v175 : IVec S16 32), Decidable (k0_chk50 v175) := fun v175 => decidable_of_iff' _ (Iff.of_eq (k0_chk50.eq_1 v175))
theorem k0_idx50_inb : ∀ (v175 : IVec S16 32) (k0_hw50 : k0_chk50 v175), ∀ a x, ((![v175] : Fin 1 → IVec S16 32) a x).toNat < S16000.size a := fun v175 k0_hw50 => k0_hw50

def k0_chk51 (v180 : IVec S16 32) : Prop :=
  (∀ a x, ((![v180] : Fin 1 → IVec S16 32) a x).toNat < S16000.size a)
instance k0_chk51.dec : ∀ (v180 : IVec S16 32), Decidable (k0_chk51 v180) := fun v180 => decidable_of_iff' _ (Iff.of_eq (k0_chk51.eq_1 v180))
theorem k0_idx51_inb : ∀ (v180 : IVec S16 32) (k0_hw51 : k0_chk51 v180), ∀ a x, ((![v180] : Fin 1 → IVec S16 32) a x).toNat < S16000.size a := fun v180 k0_hw51 => k0_hw51

def k0_chk52 (v183 : IVec S16 32) : Prop :=
  (∀ a x, ((![v183] : Fin 1 → IVec S16 32) a x).toNat < S16000.size a)
instance k0_chk52.dec : ∀ (v183 : IVec S16 32), Decidable (k0_chk52 v183) := fun v183 => decidable_of_iff' _ (Iff.of_eq (k0_chk52.eq_1 v183))
theorem k0_idx52_inb : ∀ (v183 : IVec S16 32) (k0_hw52 : k0_chk52 v183), ∀ a x, ((![v183] : Fin 1 → IVec S16 32) a x).toNat < S16000.size a := fun v183 k0_hw52 => k0_hw52

def k0_chk53 (v188 : IVec S16 32) : Prop :=
  (∀ a x, ((![v188] : Fin 1 → IVec S16 32) a x).toNat < S16000.size a)
instance k0_chk53.dec : ∀ (v188 : IVec S16 32), Decidable (k0_chk53 v188) := fun v188 => decidable_of_iff' _ (Iff.of_eq (k0_chk53.eq_1 v188))
theorem k0_idx53_inb : ∀ (v188 : IVec S16 32) (k0_hw53 : k0_chk53 v188), ∀ a x, ((![v188] : Fin 1 → IVec S16 32) a x).toNat < S16000.size a := fun v188 k0_hw53 => k0_hw53

def k0_chk54 (v191 : IVec S16 32) : Prop :=
  (∀ a x, ((![v191] : Fin 1 → IVec S16 32) a x).toNat < S16000.size a)
instance k0_chk54.dec : ∀ (v191 : IVec S16 32), Decidable (k0_chk54 v191) := fun v191 => decidable_of_iff' _ (Iff.of_eq (k0_chk54.eq_1 v191))
theorem k0_idx54_inb : ∀ (v191 : IVec S16 32) (k0_hw54 : k0_chk54 v191), ∀ a x, ((![v191] : Fin 1 → IVec S16 32) a x).toNat < S16000.size a := fun v191 k0_hw54 => k0_hw54

def k0_chk55 (v196 : IVec S16 32) : Prop :=
  (∀ a x, ((![v196] : Fin 1 → IVec S16 32) a x).toNat < S16000.size a)
instance k0_chk55.dec : ∀ (v196 : IVec S16 32), Decidable (k0_chk55 v196) := fun v196 => decidable_of_iff' _ (Iff.of_eq (k0_chk55.eq_1 v196))
theorem k0_idx55_inb : ∀ (v196 : IVec S16 32) (k0_hw55 : k0_chk55 v196), ∀ a x, ((![v196] : Fin 1 → IVec S16 32) a x).toNat < S16000.size a := fun v196 k0_hw55 => k0_hw55

def k0_chk56 (v199 : IVec S16 32) : Prop :=
  (∀ a x, ((![v199] : Fin 1 → IVec S16 32) a x).toNat < S16000.size a)
instance k0_chk56.dec : ∀ (v199 : IVec S16 32), Decidable (k0_chk56 v199) := fun v199 => decidable_of_iff' _ (Iff.of_eq (k0_chk56.eq_1 v199))
theorem k0_idx56_inb : ∀ (v199 : IVec S16 32) (k0_hw56 : k0_chk56 v199), ∀ a x, ((![v199] : Fin 1 → IVec S16 32) a x).toNat < S16000.size a := fun v199 k0_hw56 => k0_hw56

def k0_chk57 (v204 : IVec S16 32) : Prop :=
  (∀ a x, ((![v204] : Fin 1 → IVec S16 32) a x).toNat < S16000.size a)
instance k0_chk57.dec : ∀ (v204 : IVec S16 32), Decidable (k0_chk57 v204) := fun v204 => decidable_of_iff' _ (Iff.of_eq (k0_chk57.eq_1 v204))
theorem k0_idx57_inb : ∀ (v204 : IVec S16 32) (k0_hw57 : k0_chk57 v204), ∀ a x, ((![v204] : Fin 1 → IVec S16 32) a x).toNat < S16000.size a := fun v204 k0_hw57 => k0_hw57

def k0_chk58 (v207 : IVec S16 32) : Prop :=
  (∀ a x, ((![v207] : Fin 1 → IVec S16 32) a x).toNat < S16000.size a)
instance k0_chk58.dec : ∀ (v207 : IVec S16 32), Decidable (k0_chk58 v207) := fun v207 => decidable_of_iff' _ (Iff.of_eq (k0_chk58.eq_1 v207))
theorem k0_idx58_inb : ∀ (v207 : IVec S16 32) (k0_hw58 : k0_chk58 v207), ∀ a x, ((![v207] : Fin 1 → IVec S16 32) a x).toNat < S16000.size a := fun v207 k0_hw58 => k0_hw58
def k0_off35 (k0_t3 : Fin k0_t3_loop.trips) : Fin 1 → Nat :=
  let c0_i32_23 : BitVec 32 := 0#32
  let c1_i32_24 : BitVec 32 := 1#32
  let arg16 : BitVec 32 := Scf.iv c0_i32_23 c1_i32_24 k0_t3
  let c16_i32_27 : BitVec 32 := 16#32
  let v73 : BitVec 32 := Scalar.muli arg16 c16_i32_27
  let v211 : Index := Scalar.indexCast v73
  ![v211.toNat]
def k0_off36 (i : grid0.Coords) (k0_t2 : Fin (k0_t2_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c1_i32_7 : BitVec 32 := 1#32
  let arg15 : BitVec 32 := Scf.iv v35 c1_i32_7 k0_t2
  let c4096_i32_26 : BitVec 32 := 4096#32
  let v72 : BitVec 32 := Scalar.muli arg15 c4096_i32_26
  ![v72.toNat]
@[reducible] def k0_t4_loop (i : grid0.Coords) : Scf.Loop 32 :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c5_i32_3 : BitVec 32 := 5#32
  let v36 : BitVec 1 := Scalar.cmpi .slt v1 c5_i32_3
  let c11_i32 : BitVec 32 := 11#32
  let c10_i32_4 : BitVec 32 := 10#32
  let v37 : BitVec 32 := Scalar.select v36 c11_i32 c10_i32_4
  let v38 : BitVec 32 := Scalar.addi v35 v37
  let v39 : BitVec 32 := Scalar.subi v38 v35
  let c1_i32_6 : BitVec 32 := 1#32
  let v41 : BitVec 32 := Scalar.divsi v39 c1_i32_6
  let v42 : BitVec 32 := Scalar.muli v41 c1_i32_6
  let v43 : BitVec 32 := Scalar.addi v35 v42
  let v40 : BitVec 32 := Scalar.addi v35 v39
  let c1_i32_8 : BitVec 32 := 1#32
  ⟨v43, v40, c1_i32_8⟩
def k0_off37 (i : grid0.Coords) (k0_t4 : Fin (k0_t4_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c5_i32_3 : BitVec 32 := 5#32
  let v36 : BitVec 1 := Scalar.cmpi .slt v1 c5_i32_3
  let c11_i32 : BitVec 32 := 11#32
  let c10_i32_4 : BitVec 32 := 10#32
  let v37 : BitVec 32 := Scalar.select v36 c11_i32 c10_i32_4
  let v38 : BitVec 32 := Scalar.addi v35 v37
  let v39 : BitVec 32 := Scalar.subi v38 v35
  let c1_i32_6 : BitVec 32 := 1#32
  let v41 : BitVec 32 := Scalar.divsi v39 c1_i32_6
  let v42 : BitVec 32 := Scalar.muli v41 c1_i32_6
  let v43 : BitVec 32 := Scalar.addi v35 v42
  let c1_i32_8 : BitVec 32 := 1#32
  let arg15 : BitVec 32 := Scf.iv v43 c1_i32_8 k0_t4
  let c13_i32 : BitVec 32 := 13#32
  let c5042_i32 : BitVec 32 := 5042#32
  let v44 : BitVec 32 := Scalar.muli arg15 c5042_i32
  let c16_i32 : BitVec 32 := 16#32
  let v45 : BitVec 32 := Scalar.shrui v44 c16_i32
  let v46 : BitVec 32 := Scalar.muli c13_i32 v45
  let v47 : BitVec 32 := Scalar.subi arg15 v46
  let c0_i32_9 : BitVec 32 := 0#32
  let v51 : BitVec 1 := Scalar.cmpi .eq v47 c0_i32_9
  let v48 : BitVec 32 := Scalar.addi v45 v47
  let c25_i32_10 : BitVec 32 := 25#32
  let v52 : BitVec 1 := Scalar.cmpi .sge v48 c25_i32_10
  let c25_i32_11 : BitVec 32 := 25#32
  let v53 : BitVec 32 := Scalar.subi v48 c25_i32_11
  let v54 : BitVec 32 := Scalar.select v52 v53 v48
  let v55 : BitVec 32 := Scalar.select v51 v45 v54
  let c4096_i32_16 : BitVec 32 := 4096#32
  let v61 : BitVec 32 := Scalar.muli v55 c4096_i32_16
  ![v61.toNat]
def k0_off38 (i : grid0.Coords) (k0_t4 : Fin (k0_t4_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c5_i32_3 : BitVec 32 := 5#32
  let v36 : BitVec 1 := Scalar.cmpi .slt v1 c5_i32_3
  let c11_i32 : BitVec 32 := 11#32
  let c10_i32_4 : BitVec 32 := 10#32
  let v37 : BitVec 32 := Scalar.select v36 c11_i32 c10_i32_4
  let v38 : BitVec 32 := Scalar.addi v35 v37
  let v39 : BitVec 32 := Scalar.subi v38 v35
  let c1_i32_6 : BitVec 32 := 1#32
  let v41 : BitVec 32 := Scalar.divsi v39 c1_i32_6
  let v42 : BitVec 32 := Scalar.muli v41 c1_i32_6
  let v43 : BitVec 32 := Scalar.addi v35 v42
  let c1_i32_8 : BitVec 32 := 1#32
  let arg15 : BitVec 32 := Scf.iv v43 c1_i32_8 k0_t4
  let c13_i32 : BitVec 32 := 13#32
  let c5042_i32 : BitVec 32 := 5042#32
  let v44 : BitVec 32 := Scalar.muli arg15 c5042_i32
  let c16_i32 : BitVec 32 := 16#32
  let v45 : BitVec 32 := Scalar.shrui v44 c16_i32
  let v46 : BitVec 32 := Scalar.muli c13_i32 v45
  let v47 : BitVec 32 := Scalar.subi arg15 v46
  let c0_i32_12 : BitVec 32 := 0#32
  let v56 : BitVec 1 := Scalar.cmpi .eq v47 c0_i32_12
  let c25_i32_15 : BitVec 32 := 25#32
  let c25_i32 : BitVec 32 := 25#32
  let v49 : BitVec 32 := Scalar.addi v45 c25_i32
  let v50 : BitVec 32 := Scalar.subi v49 v47
  let c25_i32_13 : BitVec 32 := 25#32
  let v57 : BitVec 1 := Scalar.cmpi .sge v50 c25_i32_13
  let c25_i32_14 : BitVec 32 := 25#32
  let v58 : BitVec 32 := Scalar.subi v50 c25_i32_14
  let v59 : BitVec 32 := Scalar.select v57 v58 v50
  let v60 : BitVec 32 := Scalar.select v56 c25_i32_15 v59
  let c4096_i32_17 : BitVec 32 := 4096#32
  let v62 : BitVec 32 := Scalar.muli v60 c4096_i32_17
  ![v62.toNat]
def k0_off39 (i : grid0.Coords) (k0_t4 : Fin (k0_t4_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c5_i32_3 : BitVec 32 := 5#32
  let v36 : BitVec 1 := Scalar.cmpi .slt v1 c5_i32_3
  let c11_i32 : BitVec 32 := 11#32
  let c10_i32_4 : BitVec 32 := 10#32
  let v37 : BitVec 32 := Scalar.select v36 c11_i32 c10_i32_4
  let v38 : BitVec 32 := Scalar.addi v35 v37
  let v39 : BitVec 32 := Scalar.subi v38 v35
  let c1_i32_6 : BitVec 32 := 1#32
  let v41 : BitVec 32 := Scalar.divsi v39 c1_i32_6
  let v42 : BitVec 32 := Scalar.muli v41 c1_i32_6
  let v43 : BitVec 32 := Scalar.addi v35 v42
  let c1_i32_8 : BitVec 32 := 1#32
  let arg15 : BitVec 32 := Scf.iv v43 c1_i32_8 k0_t4
  let c13_i32 : BitVec 32 := 13#32
  let c5042_i32 : BitVec 32 := 5042#32
  let v44 : BitVec 32 := Scalar.muli arg15 c5042_i32
  let c16_i32 : BitVec 32 := 16#32
  let v45 : BitVec 32 := Scalar.shrui v44 c16_i32
  let v46 : BitVec 32 := Scalar.muli c13_i32 v45
  let v47 : BitVec 32 := Scalar.subi arg15 v46
  let c0_i32_12 : BitVec 32 := 0#32
  let v56 : BitVec 1 := Scalar.cmpi .eq v47 c0_i32_12
  let c25_i32_15 : BitVec 32 := 25#32
  let c25_i32 : BitVec 32 := 25#32
  let v49 : BitVec 32 := Scalar.addi v45 c25_i32
  let v50 : BitVec 32 := Scalar.subi v49 v47
  let c25_i32_13 : BitVec 32 := 25#32
  let v57 : BitVec 1 := Scalar.cmpi .sge v50 c25_i32_13
  let c25_i32_14 : BitVec 32 := 25#32
  let v58 : BitVec 32 := Scalar.subi v50 c25_i32_14
  let v59 : BitVec 32 := Scalar.select v57 v58 v50
  let v60 : BitVec 32 := Scalar.select v56 c25_i32_15 v59
  let c26000_i32 : BitVec 32 := 26000#32
  let v63 : BitVec 32 := Scalar.muli v60 c26000_i32
  let c0_i32_9 : BitVec 32 := 0#32
  let v51 : BitVec 1 := Scalar.cmpi .eq v47 c0_i32_9
  let v48 : BitVec 32 := Scalar.addi v45 v47
  let c25_i32_10 : BitVec 32 := 25#32
  let v52 : BitVec 1 := Scalar.cmpi .sge v48 c25_i32_10
  let c25_i32_11 : BitVec 32 := 25#32
  let v53 : BitVec 32 := Scalar.subi v48 c25_i32_11
  let v54 : BitVec 32 := Scalar.select v52 v53 v48
  let v55 : BitVec 32 := Scalar.select v51 v45 v54
  let c1000_i32 : BitVec 32 := 1000#32
  let v64 : BitVec 32 := Scalar.muli v55 c1000_i32
  let v65 : BitVec 32 := Scalar.addi v63 v64
  let c16_i32_18 : BitVec 32 := 16#32
  let v66 : BitVec 32 := Scalar.muli v65 c16_i32_18
  ![v66.toNat]
def k0_off40 (i : grid0.Coords) (k0_t4 : Fin (k0_t4_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c5_i32_3 : BitVec 32 := 5#32
  let v36 : BitVec 1 := Scalar.cmpi .slt v1 c5_i32_3
  let c11_i32 : BitVec 32 := 11#32
  let c10_i32_4 : BitVec 32 := 10#32
  let v37 : BitVec 32 := Scalar.select v36 c11_i32 c10_i32_4
  let v38 : BitVec 32 := Scalar.addi v35 v37
  let v39 : BitVec 32 := Scalar.subi v38 v35
  let c1_i32_6 : BitVec 32 := 1#32
  let v41 : BitVec 32 := Scalar.divsi v39 c1_i32_6
  let v42 : BitVec 32 := Scalar.muli v41 c1_i32_6
  let v43 : BitVec 32 := Scalar.addi v35 v42
  let c1_i32_8 : BitVec 32 := 1#32
  let arg15 : BitVec 32 := Scf.iv v43 c1_i32_8 k0_t4
  let c13_i32 : BitVec 32 := 13#32
  let c5042_i32 : BitVec 32 := 5042#32
  let v44 : BitVec 32 := Scalar.muli arg15 c5042_i32
  let c16_i32 : BitVec 32 := 16#32
  let v45 : BitVec 32 := Scalar.shrui v44 c16_i32
  let v46 : BitVec 32 := Scalar.muli c13_i32 v45
  let v47 : BitVec 32 := Scalar.subi arg15 v46
  let c0_i32_9 : BitVec 32 := 0#32
  let v51 : BitVec 1 := Scalar.cmpi .eq v47 c0_i32_9
  let v48 : BitVec 32 := Scalar.addi v45 v47
  let c25_i32_10 : BitVec 32 := 25#32
  let v52 : BitVec 1 := Scalar.cmpi .sge v48 c25_i32_10
  let c25_i32_11 : BitVec 32 := 25#32
  let v53 : BitVec 32 := Scalar.subi v48 c25_i32_11
  let v54 : BitVec 32 := Scalar.select v52 v53 v48
  let v55 : BitVec 32 := Scalar.select v51 v45 v54
  let c26000_i32_19 : BitVec 32 := 26000#32
  let v67 : BitVec 32 := Scalar.muli v55 c26000_i32_19
  let c0_i32_12 : BitVec 32 := 0#32
  let v56 : BitVec 1 := Scalar.cmpi .eq v47 c0_i32_12
  let c25_i32_15 : BitVec 32 := 25#32
  let c25_i32 : BitVec 32 := 25#32
  let v49 : BitVec 32 := Scalar.addi v45 c25_i32
  let v50 : BitVec 32 := Scalar.subi v49 v47
  let c25_i32_13 : BitVec 32 := 25#32
  let v57 : BitVec 1 := Scalar.cmpi .sge v50 c25_i32_13
  let c25_i32_14 : BitVec 32 := 25#32
  let v58 : BitVec 32 := Scalar.subi v50 c25_i32_14
  let v59 : BitVec 32 := Scalar.select v57 v58 v50
  let v60 : BitVec 32 := Scalar.select v56 c25_i32_15 v59
  let c1000_i32_20 : BitVec 32 := 1000#32
  let v68 : BitVec 32 := Scalar.muli v60 c1000_i32_20
  let v69 : BitVec 32 := Scalar.addi v67 v68
  let c16_i32_21 : BitVec 32 := 16#32
  let v70 : BitVec 32 := Scalar.muli v69 c16_i32_21
  ![v70.toNat]
@[reducible] def k0_t5_loop : Scf.Loop 32 :=
  let c0_i32_23 : BitVec 32 := 0#32
  let c256_i32 : BitVec 32 := 256#32
  let v71 : BitVec 32 := Scalar.addi c0_i32_23 c256_i32
  let c1_i32_24 : BitVec 32 := 1#32
  ⟨c0_i32_23, v71, c1_i32_24⟩
def k0_off41 (k0_t5 : Fin k0_t5_loop.trips) : Fin 1 → Nat :=
  let c0_i32_23 : BitVec 32 := 0#32
  let c1_i32_24 : BitVec 32 := 1#32
  let arg16 : BitVec 32 := Scf.iv c0_i32_23 c1_i32_24 k0_t5
  let c16_i32_27 : BitVec 32 := 16#32
  let v73 : BitVec 32 := Scalar.muli arg16 c16_i32_27
  let v74 : Index := Scalar.indexCast v73
  ![v74.toNat]

def k0_chk59 (v84 : IVec S16 32) : Prop :=
  (∀ a x, ((![v84] : Fin 1 → IVec S16 32) a x).toNat < S16000.size a)
instance k0_chk59.dec : ∀ (v84 : IVec S16 32), Decidable (k0_chk59 v84) := fun v84 => decidable_of_iff' _ (Iff.of_eq (k0_chk59.eq_1 v84))
theorem k0_idx59_inb : ∀ (v84 : IVec S16 32) (k0_hw59 : k0_chk59 v84), ∀ a x, ((![v84] : Fin 1 → IVec S16 32) a x).toNat < S16000.size a := fun v84 k0_hw59 => k0_hw59

def k0_chk60 (v87 : IVec S16 32) : Prop :=
  (∀ a x, ((![v87] : Fin 1 → IVec S16 32) a x).toNat < S16000.size a)
instance k0_chk60.dec : ∀ (v87 : IVec S16 32), Decidable (k0_chk60 v87) := fun v87 => decidable_of_iff' _ (Iff.of_eq (k0_chk60.eq_1 v87))
theorem k0_idx60_inb : ∀ (v87 : IVec S16 32) (k0_hw60 : k0_chk60 v87), ∀ a x, ((![v87] : Fin 1 → IVec S16 32) a x).toNat < S16000.size a := fun v87 k0_hw60 => k0_hw60

def k0_chk61 (v92 : IVec S16 32) : Prop :=
  (∀ a x, ((![v92] : Fin 1 → IVec S16 32) a x).toNat < S16000.size a)
instance k0_chk61.dec : ∀ (v92 : IVec S16 32), Decidable (k0_chk61 v92) := fun v92 => decidable_of_iff' _ (Iff.of_eq (k0_chk61.eq_1 v92))
theorem k0_idx61_inb : ∀ (v92 : IVec S16 32) (k0_hw61 : k0_chk61 v92), ∀ a x, ((![v92] : Fin 1 → IVec S16 32) a x).toNat < S16000.size a := fun v92 k0_hw61 => k0_hw61

def k0_chk62 (v95 : IVec S16 32) : Prop :=
  (∀ a x, ((![v95] : Fin 1 → IVec S16 32) a x).toNat < S16000.size a)
instance k0_chk62.dec : ∀ (v95 : IVec S16 32), Decidable (k0_chk62 v95) := fun v95 => decidable_of_iff' _ (Iff.of_eq (k0_chk62.eq_1 v95))
theorem k0_idx62_inb : ∀ (v95 : IVec S16 32) (k0_hw62 : k0_chk62 v95), ∀ a x, ((![v95] : Fin 1 → IVec S16 32) a x).toNat < S16000.size a := fun v95 k0_hw62 => k0_hw62

def k0_chk63 (v100 : IVec S16 32) : Prop :=
  (∀ a x, ((![v100] : Fin 1 → IVec S16 32) a x).toNat < S16000.size a)
instance k0_chk63.dec : ∀ (v100 : IVec S16 32), Decidable (k0_chk63 v100) := fun v100 => decidable_of_iff' _ (Iff.of_eq (k0_chk63.eq_1 v100))
theorem k0_idx63_inb : ∀ (v100 : IVec S16 32) (k0_hw63 : k0_chk63 v100), ∀ a x, ((![v100] : Fin 1 → IVec S16 32) a x).toNat < S16000.size a := fun v100 k0_hw63 => k0_hw63

def k0_chk64 (v103 : IVec S16 32) : Prop :=
  (∀ a x, ((![v103] : Fin 1 → IVec S16 32) a x).toNat < S16000.size a)
instance k0_chk64.dec : ∀ (v103 : IVec S16 32), Decidable (k0_chk64 v103) := fun v103 => decidable_of_iff' _ (Iff.of_eq (k0_chk64.eq_1 v103))
theorem k0_idx64_inb : ∀ (v103 : IVec S16 32) (k0_hw64 : k0_chk64 v103), ∀ a x, ((![v103] : Fin 1 → IVec S16 32) a x).toNat < S16000.size a := fun v103 k0_hw64 => k0_hw64

def k0_chk65 (v108 : IVec S16 32) : Prop :=
  (∀ a x, ((![v108] : Fin 1 → IVec S16 32) a x).toNat < S16000.size a)
instance k0_chk65.dec : ∀ (v108 : IVec S16 32), Decidable (k0_chk65 v108) := fun v108 => decidable_of_iff' _ (Iff.of_eq (k0_chk65.eq_1 v108))
theorem k0_idx65_inb : ∀ (v108 : IVec S16 32) (k0_hw65 : k0_chk65 v108), ∀ a x, ((![v108] : Fin 1 → IVec S16 32) a x).toNat < S16000.size a := fun v108 k0_hw65 => k0_hw65

def k0_chk66 (v111 : IVec S16 32) : Prop :=
  (∀ a x, ((![v111] : Fin 1 → IVec S16 32) a x).toNat < S16000.size a)
instance k0_chk66.dec : ∀ (v111 : IVec S16 32), Decidable (k0_chk66 v111) := fun v111 => decidable_of_iff' _ (Iff.of_eq (k0_chk66.eq_1 v111))
theorem k0_idx66_inb : ∀ (v111 : IVec S16 32) (k0_hw66 : k0_chk66 v111), ∀ a x, ((![v111] : Fin 1 → IVec S16 32) a x).toNat < S16000.size a := fun v111 k0_hw66 => k0_hw66

def k0_chk67 (v116 : IVec S16 32) : Prop :=
  (∀ a x, ((![v116] : Fin 1 → IVec S16 32) a x).toNat < S16000.size a)
instance k0_chk67.dec : ∀ (v116 : IVec S16 32), Decidable (k0_chk67 v116) := fun v116 => decidable_of_iff' _ (Iff.of_eq (k0_chk67.eq_1 v116))
theorem k0_idx67_inb : ∀ (v116 : IVec S16 32) (k0_hw67 : k0_chk67 v116), ∀ a x, ((![v116] : Fin 1 → IVec S16 32) a x).toNat < S16000.size a := fun v116 k0_hw67 => k0_hw67

def k0_chk68 (v119 : IVec S16 32) : Prop :=
  (∀ a x, ((![v119] : Fin 1 → IVec S16 32) a x).toNat < S16000.size a)
instance k0_chk68.dec : ∀ (v119 : IVec S16 32), Decidable (k0_chk68 v119) := fun v119 => decidable_of_iff' _ (Iff.of_eq (k0_chk68.eq_1 v119))
theorem k0_idx68_inb : ∀ (v119 : IVec S16 32) (k0_hw68 : k0_chk68 v119), ∀ a x, ((![v119] : Fin 1 → IVec S16 32) a x).toNat < S16000.size a := fun v119 k0_hw68 => k0_hw68

def k0_chk69 (v124 : IVec S16 32) : Prop :=
  (∀ a x, ((![v124] : Fin 1 → IVec S16 32) a x).toNat < S16000.size a)
instance k0_chk69.dec : ∀ (v124 : IVec S16 32), Decidable (k0_chk69 v124) := fun v124 => decidable_of_iff' _ (Iff.of_eq (k0_chk69.eq_1 v124))
theorem k0_idx69_inb : ∀ (v124 : IVec S16 32) (k0_hw69 : k0_chk69 v124), ∀ a x, ((![v124] : Fin 1 → IVec S16 32) a x).toNat < S16000.size a := fun v124 k0_hw69 => k0_hw69

def k0_chk70 (v127 : IVec S16 32) : Prop :=
  (∀ a x, ((![v127] : Fin 1 → IVec S16 32) a x).toNat < S16000.size a)
instance k0_chk70.dec : ∀ (v127 : IVec S16 32), Decidable (k0_chk70 v127) := fun v127 => decidable_of_iff' _ (Iff.of_eq (k0_chk70.eq_1 v127))
theorem k0_idx70_inb : ∀ (v127 : IVec S16 32) (k0_hw70 : k0_chk70 v127), ∀ a x, ((![v127] : Fin 1 → IVec S16 32) a x).toNat < S16000.size a := fun v127 k0_hw70 => k0_hw70

def k0_chk71 (v132 : IVec S16 32) : Prop :=
  (∀ a x, ((![v132] : Fin 1 → IVec S16 32) a x).toNat < S16000.size a)
instance k0_chk71.dec : ∀ (v132 : IVec S16 32), Decidable (k0_chk71 v132) := fun v132 => decidable_of_iff' _ (Iff.of_eq (k0_chk71.eq_1 v132))
theorem k0_idx71_inb : ∀ (v132 : IVec S16 32) (k0_hw71 : k0_chk71 v132), ∀ a x, ((![v132] : Fin 1 → IVec S16 32) a x).toNat < S16000.size a := fun v132 k0_hw71 => k0_hw71

def k0_chk72 (v135 : IVec S16 32) : Prop :=
  (∀ a x, ((![v135] : Fin 1 → IVec S16 32) a x).toNat < S16000.size a)
instance k0_chk72.dec : ∀ (v135 : IVec S16 32), Decidable (k0_chk72 v135) := fun v135 => decidable_of_iff' _ (Iff.of_eq (k0_chk72.eq_1 v135))
theorem k0_idx72_inb : ∀ (v135 : IVec S16 32) (k0_hw72 : k0_chk72 v135), ∀ a x, ((![v135] : Fin 1 → IVec S16 32) a x).toNat < S16000.size a := fun v135 k0_hw72 => k0_hw72

def k0_chk73 (v140 : IVec S16 32) : Prop :=
  (∀ a x, ((![v140] : Fin 1 → IVec S16 32) a x).toNat < S16000.size a)
instance k0_chk73.dec : ∀ (v140 : IVec S16 32), Decidable (k0_chk73 v140) := fun v140 => decidable_of_iff' _ (Iff.of_eq (k0_chk73.eq_1 v140))
theorem k0_idx73_inb : ∀ (v140 : IVec S16 32) (k0_hw73 : k0_chk73 v140), ∀ a x, ((![v140] : Fin 1 → IVec S16 32) a x).toNat < S16000.size a := fun v140 k0_hw73 => k0_hw73

def k0_chk74 (v143 : IVec S16 32) : Prop :=
  (∀ a x, ((![v143] : Fin 1 → IVec S16 32) a x).toNat < S16000.size a)
instance k0_chk74.dec : ∀ (v143 : IVec S16 32), Decidable (k0_chk74 v143) := fun v143 => decidable_of_iff' _ (Iff.of_eq (k0_chk74.eq_1 v143))
theorem k0_idx74_inb : ∀ (v143 : IVec S16 32) (k0_hw74 : k0_chk74 v143), ∀ a x, ((![v143] : Fin 1 → IVec S16 32) a x).toNat < S16000.size a := fun v143 k0_hw74 => k0_hw74

def k0_chk75 (v148 : IVec S16 32) : Prop :=
  (∀ a x, ((![v148] : Fin 1 → IVec S16 32) a x).toNat < S16000.size a)
instance k0_chk75.dec : ∀ (v148 : IVec S16 32), Decidable (k0_chk75 v148) := fun v148 => decidable_of_iff' _ (Iff.of_eq (k0_chk75.eq_1 v148))
theorem k0_idx75_inb : ∀ (v148 : IVec S16 32) (k0_hw75 : k0_chk75 v148), ∀ a x, ((![v148] : Fin 1 → IVec S16 32) a x).toNat < S16000.size a := fun v148 k0_hw75 => k0_hw75

def k0_chk76 (v151 : IVec S16 32) : Prop :=
  (∀ a x, ((![v151] : Fin 1 → IVec S16 32) a x).toNat < S16000.size a)
instance k0_chk76.dec : ∀ (v151 : IVec S16 32), Decidable (k0_chk76 v151) := fun v151 => decidable_of_iff' _ (Iff.of_eq (k0_chk76.eq_1 v151))
theorem k0_idx76_inb : ∀ (v151 : IVec S16 32) (k0_hw76 : k0_chk76 v151), ∀ a x, ((![v151] : Fin 1 → IVec S16 32) a x).toNat < S16000.size a := fun v151 k0_hw76 => k0_hw76

def k0_chk77 (v156 : IVec S16 32) : Prop :=
  (∀ a x, ((![v156] : Fin 1 → IVec S16 32) a x).toNat < S16000.size a)
instance k0_chk77.dec : ∀ (v156 : IVec S16 32), Decidable (k0_chk77 v156) := fun v156 => decidable_of_iff' _ (Iff.of_eq (k0_chk77.eq_1 v156))
theorem k0_idx77_inb : ∀ (v156 : IVec S16 32) (k0_hw77 : k0_chk77 v156), ∀ a x, ((![v156] : Fin 1 → IVec S16 32) a x).toNat < S16000.size a := fun v156 k0_hw77 => k0_hw77

def k0_chk78 (v159 : IVec S16 32) : Prop :=
  (∀ a x, ((![v159] : Fin 1 → IVec S16 32) a x).toNat < S16000.size a)
instance k0_chk78.dec : ∀ (v159 : IVec S16 32), Decidable (k0_chk78 v159) := fun v159 => decidable_of_iff' _ (Iff.of_eq (k0_chk78.eq_1 v159))
theorem k0_idx78_inb : ∀ (v159 : IVec S16 32) (k0_hw78 : k0_chk78 v159), ∀ a x, ((![v159] : Fin 1 → IVec S16 32) a x).toNat < S16000.size a := fun v159 k0_hw78 => k0_hw78

def k0_chk79 (v164 : IVec S16 32) : Prop :=
  (∀ a x, ((![v164] : Fin 1 → IVec S16 32) a x).toNat < S16000.size a)
instance k0_chk79.dec : ∀ (v164 : IVec S16 32), Decidable (k0_chk79 v164) := fun v164 => decidable_of_iff' _ (Iff.of_eq (k0_chk79.eq_1 v164))
theorem k0_idx79_inb : ∀ (v164 : IVec S16 32) (k0_hw79 : k0_chk79 v164), ∀ a x, ((![v164] : Fin 1 → IVec S16 32) a x).toNat < S16000.size a := fun v164 k0_hw79 => k0_hw79

def k0_chk80 (v167 : IVec S16 32) : Prop :=
  (∀ a x, ((![v167] : Fin 1 → IVec S16 32) a x).toNat < S16000.size a)
instance k0_chk80.dec : ∀ (v167 : IVec S16 32), Decidable (k0_chk80 v167) := fun v167 => decidable_of_iff' _ (Iff.of_eq (k0_chk80.eq_1 v167))
theorem k0_idx80_inb : ∀ (v167 : IVec S16 32) (k0_hw80 : k0_chk80 v167), ∀ a x, ((![v167] : Fin 1 → IVec S16 32) a x).toNat < S16000.size a := fun v167 k0_hw80 => k0_hw80

def k0_chk81 (v172 : IVec S16 32) : Prop :=
  (∀ a x, ((![v172] : Fin 1 → IVec S16 32) a x).toNat < S16000.size a)
instance k0_chk81.dec : ∀ (v172 : IVec S16 32), Decidable (k0_chk81 v172) := fun v172 => decidable_of_iff' _ (Iff.of_eq (k0_chk81.eq_1 v172))
theorem k0_idx81_inb : ∀ (v172 : IVec S16 32) (k0_hw81 : k0_chk81 v172), ∀ a x, ((![v172] : Fin 1 → IVec S16 32) a x).toNat < S16000.size a := fun v172 k0_hw81 => k0_hw81

def k0_chk82 (v175 : IVec S16 32) : Prop :=
  (∀ a x, ((![v175] : Fin 1 → IVec S16 32) a x).toNat < S16000.size a)
instance k0_chk82.dec : ∀ (v175 : IVec S16 32), Decidable (k0_chk82 v175) := fun v175 => decidable_of_iff' _ (Iff.of_eq (k0_chk82.eq_1 v175))
theorem k0_idx82_inb : ∀ (v175 : IVec S16 32) (k0_hw82 : k0_chk82 v175), ∀ a x, ((![v175] : Fin 1 → IVec S16 32) a x).toNat < S16000.size a := fun v175 k0_hw82 => k0_hw82

def k0_chk83 (v180 : IVec S16 32) : Prop :=
  (∀ a x, ((![v180] : Fin 1 → IVec S16 32) a x).toNat < S16000.size a)
instance k0_chk83.dec : ∀ (v180 : IVec S16 32), Decidable (k0_chk83 v180) := fun v180 => decidable_of_iff' _ (Iff.of_eq (k0_chk83.eq_1 v180))
theorem k0_idx83_inb : ∀ (v180 : IVec S16 32) (k0_hw83 : k0_chk83 v180), ∀ a x, ((![v180] : Fin 1 → IVec S16 32) a x).toNat < S16000.size a := fun v180 k0_hw83 => k0_hw83

def k0_chk84 (v183 : IVec S16 32) : Prop :=
  (∀ a x, ((![v183] : Fin 1 → IVec S16 32) a x).toNat < S16000.size a)
instance k0_chk84.dec : ∀ (v183 : IVec S16 32), Decidable (k0_chk84 v183) := fun v183 => decidable_of_iff' _ (Iff.of_eq (k0_chk84.eq_1 v183))
theorem k0_idx84_inb : ∀ (v183 : IVec S16 32) (k0_hw84 : k0_chk84 v183), ∀ a x, ((![v183] : Fin 1 → IVec S16 32) a x).toNat < S16000.size a := fun v183 k0_hw84 => k0_hw84

def k0_chk85 (v188 : IVec S16 32) : Prop :=
  (∀ a x, ((![v188] : Fin 1 → IVec S16 32) a x).toNat < S16000.size a)
instance k0_chk85.dec : ∀ (v188 : IVec S16 32), Decidable (k0_chk85 v188) := fun v188 => decidable_of_iff' _ (Iff.of_eq (k0_chk85.eq_1 v188))
theorem k0_idx85_inb : ∀ (v188 : IVec S16 32) (k0_hw85 : k0_chk85 v188), ∀ a x, ((![v188] : Fin 1 → IVec S16 32) a x).toNat < S16000.size a := fun v188 k0_hw85 => k0_hw85

def k0_chk86 (v191 : IVec S16 32) : Prop :=
  (∀ a x, ((![v191] : Fin 1 → IVec S16 32) a x).toNat < S16000.size a)
instance k0_chk86.dec : ∀ (v191 : IVec S16 32), Decidable (k0_chk86 v191) := fun v191 => decidable_of_iff' _ (Iff.of_eq (k0_chk86.eq_1 v191))
theorem k0_idx86_inb : ∀ (v191 : IVec S16 32) (k0_hw86 : k0_chk86 v191), ∀ a x, ((![v191] : Fin 1 → IVec S16 32) a x).toNat < S16000.size a := fun v191 k0_hw86 => k0_hw86

def k0_chk87 (v196 : IVec S16 32) : Prop :=
  (∀ a x, ((![v196] : Fin 1 → IVec S16 32) a x).toNat < S16000.size a)
instance k0_chk87.dec : ∀ (v196 : IVec S16 32), Decidable (k0_chk87 v196) := fun v196 => decidable_of_iff' _ (Iff.of_eq (k0_chk87.eq_1 v196))
theorem k0_idx87_inb : ∀ (v196 : IVec S16 32) (k0_hw87 : k0_chk87 v196), ∀ a x, ((![v196] : Fin 1 → IVec S16 32) a x).toNat < S16000.size a := fun v196 k0_hw87 => k0_hw87

def k0_chk88 (v199 : IVec S16 32) : Prop :=
  (∀ a x, ((![v199] : Fin 1 → IVec S16 32) a x).toNat < S16000.size a)
instance k0_chk88.dec : ∀ (v199 : IVec S16 32), Decidable (k0_chk88 v199) := fun v199 => decidable_of_iff' _ (Iff.of_eq (k0_chk88.eq_1 v199))
theorem k0_idx88_inb : ∀ (v199 : IVec S16 32) (k0_hw88 : k0_chk88 v199), ∀ a x, ((![v199] : Fin 1 → IVec S16 32) a x).toNat < S16000.size a := fun v199 k0_hw88 => k0_hw88

def k0_chk89 (v204 : IVec S16 32) : Prop :=
  (∀ a x, ((![v204] : Fin 1 → IVec S16 32) a x).toNat < S16000.size a)
instance k0_chk89.dec : ∀ (v204 : IVec S16 32), Decidable (k0_chk89 v204) := fun v204 => decidable_of_iff' _ (Iff.of_eq (k0_chk89.eq_1 v204))
theorem k0_idx89_inb : ∀ (v204 : IVec S16 32) (k0_hw89 : k0_chk89 v204), ∀ a x, ((![v204] : Fin 1 → IVec S16 32) a x).toNat < S16000.size a := fun v204 k0_hw89 => k0_hw89

def k0_chk90 (v207 : IVec S16 32) : Prop :=
  (∀ a x, ((![v207] : Fin 1 → IVec S16 32) a x).toNat < S16000.size a)
instance k0_chk90.dec : ∀ (v207 : IVec S16 32), Decidable (k0_chk90 v207) := fun v207 => decidable_of_iff' _ (Iff.of_eq (k0_chk90.eq_1 v207))
theorem k0_idx90_inb : ∀ (v207 : IVec S16 32) (k0_hw90 : k0_chk90 v207), ∀ a x, ((![v207] : Fin 1 → IVec S16 32) a x).toNat < S16000.size a := fun v207 k0_hw90 => k0_hw90
def k0_off42 (k0_t5 : Fin k0_t5_loop.trips) : Fin 1 → Nat :=
  let c0_i32_23 : BitVec 32 := 0#32
  let c1_i32_24 : BitVec 32 := 1#32
  let arg16 : BitVec 32 := Scf.iv c0_i32_23 c1_i32_24 k0_t5
  let c16_i32_27 : BitVec 32 := 16#32
  let v73 : BitVec 32 := Scalar.muli arg16 c16_i32_27
  let v211 : Index := Scalar.indexCast v73
  ![v211.toNat]
def k0_off43 (i : grid0.Coords) (k0_t4 : Fin (k0_t4_loop i).trips) : Fin 1 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v33 : BitVec 32 := Scalar.muli c10_i32 v1
  let c5_i32 : BitVec 32 := 5#32
  let v34 : BitVec 32 := Scalar.minsi v1 c5_i32
  let v35 : BitVec 32 := Scalar.addi v33 v34
  let c5_i32_3 : BitVec 32 := 5#32
  let v36 : BitVec 1 := Scalar.cmpi .slt v1 c5_i32_3
  let c11_i32 : BitVec 32 := 11#32
  let c10_i32_4 : BitVec 32 := 10#32
  let v37 : BitVec 32 := Scalar.select v36 c11_i32 c10_i32_4
  let v38 : BitVec 32 := Scalar.addi v35 v37
  let v39 : BitVec 32 := Scalar.subi v38 v35
  let c1_i32_6 : BitVec 32 := 1#32
  let v41 : BitVec 32 := Scalar.divsi v39 c1_i32_6
  let v42 : BitVec 32 := Scalar.muli v41 c1_i32_6
  let v43 : BitVec 32 := Scalar.addi v35 v42
  let c1_i32_8 : BitVec 32 := 1#32
  let arg15 : BitVec 32 := Scf.iv v43 c1_i32_8 k0_t4
  let c4096_i32_26 : BitVec 32 := 4096#32
  let v72 : BitVec 32 := Scalar.muli arg15 c4096_i32_26
  ![v72.toNat]
abbrev grid1 : Pipeline.Grid := .none

abbrev stage1_0 : Fin 1 → Memref sig .tc .vmem S328x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x26_S26x4096_1_0 : S4096x26.Transposes [1, 0] S26x4096
  shapeCasts_S26x4096_S106496 : S26x4096.ShapeCasts S106496
  shapeCasts_S26x26000x16_S10816000 : S26x26000x16.ShapeCasts S10816000
  shapeCasts_S26000x1_S26000 : S26000x1.ShapeCasts S26000
  pads_S26000_S26112_01120 : S26000.Pads (![0] : Fin 1 → Nat) ![112] ![0] S26112
  h_S_ : 0 < S_.numel
  inb_S3328_S128_0 : ∀ a, (![0] : Fin 1 → Nat) a + S128.size a ≤ S3328.size a
  inb_S3328_S128_128 : ∀ a, (![128] : Fin 1 → Nat) a + S128.size a ≤ S3328.size a
  inb_S3328_S128_256 : ∀ a, (![256] : Fin 1 → Nat) a + S128.size a ≤ S3328.size a
  inb_S3328_S128_384 : ∀ a, (![384] : Fin 1 → Nat) a + S128.size a ≤ S3328.size a
  inb_S3328_S128_512 : ∀ a, (![512] : Fin 1 → Nat) a + S128.size a ≤ S3328.size a
  inb_S3328_S128_640 : ∀ a, (![640] : Fin 1 → Nat) a + S128.size a ≤ S3328.size a
  inb_S3328_S128_768 : ∀ a, (![768] : Fin 1 → Nat) a + S128.size a ≤ S3328.size a
  inb_S3328_S128_896 : ∀ a, (![896] : Fin 1 → Nat) a + S128.size a ≤ S3328.size a
  inb_S3328_S128_1024 : ∀ a, (![1024] : Fin 1 → Nat) a + S128.size a ≤ S3328.size a
  inb_S3328_S128_1152 : ∀ a, (![1152] : Fin 1 → Nat) a + S128.size a ≤ S3328.size a
  inb_S3328_S128_1280 : ∀ a, (![1280] : Fin 1 → Nat) a + S128.size a ≤ S3328.size a
  inb_S3328_S128_1408 : ∀ a, (![1408] : Fin 1 → Nat) a + S128.size a ≤ S3328.size a
  inb_S3328_S128_1536 : ∀ a, (![1536] : Fin 1 → Nat) a + S128.size a ≤ S3328.size a
  inb_S3328_S128_1664 : ∀ a, (![1664] : Fin 1 → Nat) a + S128.size a ≤ S3328.size a
  inb_S3328_S128_1792 : ∀ a, (![1792] : Fin 1 → Nat) a + S128.size a ≤ S3328.size a
  inb_S3328_S128_1920 : ∀ a, (![1920] : Fin 1 → Nat) a + S128.size a ≤ S3328.size a
  inb_S3328_S128_2048 : ∀ a, (![2048] : Fin 1 → Nat) a + S128.size a ≤ S3328.size a
  inb_S3328_S128_2176 : ∀ a, (![2176] : Fin 1 → Nat) a + S128.size a ≤ S3328.size a
  inb_S3328_S128_2304 : ∀ a, (![2304] : Fin 1 → Nat) a + S128.size a ≤ S3328.size a
  inb_S3328_S128_2432 : ∀ a, (![2432] : Fin 1 → Nat) a + S128.size a ≤ S3328.size a
  inb_S3328_S128_2560 : ∀ a, (![2560] : Fin 1 → Nat) a + S128.size a ≤ S3328.size a
  inb_S3328_S128_2688 : ∀ a, (![2688] : Fin 1 → Nat) a + S128.size a ≤ S3328.size a
  inb_S3328_S128_2816 : ∀ a, (![2816] : Fin 1 → Nat) a + S128.size a ≤ S3328.size a
  inb_S3328_S128_2944 : ∀ a, (![2944] : Fin 1 → Nat) a + S128.size a ≤ S3328.size a
  inb_S3328_S128_3072 : ∀ a, (![3072] : Fin 1 → Nat) a + S128.size a ≤ S3328.size a
  inb_S3328_S128_3200 : ∀ a, (![3200] : Fin 1 → Nat) a + S128.size a ≤ S3328.size a
  h_S16 : 0 < S16.numel
  h_S26112 : 0 < S26112.numel
  h_S16000 : 0 < S16000.numel
  shapeCasts_S1343488_S328x4096 : S1343488.ShapeCasts S328x4096
  inb_S328x4096_S328x4096_0_0 : ∀ a, (![0, 0] : Fin 2 → Nat) a + S328x4096.size a ≤ S328x4096.size a
  h_S328x4096 : 0 < S328x4096.numel
  shapeCasts_S328x4096_S328x4096 : S328x4096.ShapeCasts S328x4096
  reduces_S328x4096_S4096 : S328x4096.Reduces [0] S4096
  inb_S1_S1_0 : ∀ a, (![0] : Fin 1 → Nat) a + S1.size a ≤ S1.size a
  numel1_S1 : S1.numel = 1
  inb_S4096_S4096_0 : ∀ a, (![0] : Fin 1 → Nat) a + S4096.size a ≤ S4096.size a
  h_S4096 : 0 < S4096.numel
  shapeCasts_S4096_S4096x1 : S4096.ShapeCasts S4096x1
  hcc0_scoped0 : 0 + S_.numel ≤ 43
  hcc0_scoped1 : 1 + S_.numel ≤ 43
  hcc0_scoped2 : 2 + S_.numel ≤ 43
  hcc0_scoped3 : 3 + S_.numel ≤ 43
  hcc0_scoped4 : 4 + S_.numel ≤ 43
  hcc0_scoped5 : 5 + S_.numel ≤ 43
  hcc0_scoped6 : 6 + S_.numel ≤ 43
  hcc0_scoped7 : 7 + S_.numel ≤ 43
  hcc0_scoped8 : 8 + S_.numel ≤ 43
  hcc0_scoped9 : 9 + S_.numel ≤ 43
  hcc0_scoped10 : 10 + S_.numel ≤ 43
  hcc0_scoped11 : 11 + S_.numel ≤ 43
  hcc0_scoped12 : 12 + S_.numel ≤ 43
  hcc0_scoped13 : 13 + S_.numel ≤ 43
  hcc0_scoped14 : 14 + S_.numel ≤ 43
  hcc0_scoped15 : 15 + S_.numel ≤ 43
  hcc0_scoped16 : 16 + S_.numel ≤ 43
  hcc0_scoped17 : 17 + S_.numel ≤ 43
  hcc0_scoped18 : 18 + S_.numel ≤ 43
  hcc0_scoped19 : 19 + S_.numel ≤ 43
  hcc0_scoped20 : 20 + S_.numel ≤ 43
  hcc0_scoped21 : 21 + S_.numel ≤ 43
  hcc0_scoped22 : 22 + S_.numel ≤ 43
  hcc0_scoped23 : 23 + S_.numel ≤ 43
  hcc0_scoped24 : 24 + S_.numel ≤ 43
  hcc0_scoped25 : 25 + S_.numel ≤ 43
  hcc0_scoped26 : 26 + S_.numel ≤ 43
  hcc0_scoped27 : 27 + S_.numel ≤ 43
  hcc0_scoped28 : 28 + S_.numel ≤ 43
  hcc0_scoped29 : 29 + S_.numel ≤ 43
  hcc0_scoped30 : 30 + S_.numel ≤ 43
  hcc0_scoped31 : 31 + S_.numel ≤ 43
  hcc0_scoped32 : 32 + S_.numel ≤ 43
  hcc0_scoped33 : 33 + S_.numel ≤ 43
  hcc0_scoped34 : 34 + S_.numel ≤ 43
  hcc0_scoped35 : 35 + S_.numel ≤ 43
  hcc0_scoped36 : 36 + S_.numel ≤ 43
  hcc0_scoped37 : 37 + S_.numel ≤ 43
  hcc0_scoped38 : 38 + S_.numel ≤ 43
  hcc0_scoped39 : 39 + S_.numel ≤ 43
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 26), ∀ a, (k0_off1 i (BitVec.ofNat 32 (4096 * r.val))) a + S128.size a ≤ S106496.size a
  k0_t1_ok : k0_t1_loop.OK
  k0_off2_inb : ∀ k0_t1 : Fin k0_t1_loop.trips, ∀ a, (k0_off2 k0_t1) a + S16.size a ≤ S3328.size a
  k0_off3_inb : ∀ k0_t1 : Fin k0_t1_loop.trips, ∀ a, (k0_off3 k0_t1) a + S16.size a ≤ S3328.size a
  k0_off4_inb : ∀ k0_t1 : Fin k0_t1_loop.trips, ∀ a, (k0_off4 k0_t1) a + S16.size a ≤ S3328.size a
  k0_off5_inb : ∀ k0_t1 : Fin k0_t1_loop.trips, ∀ a, (k0_off5 k0_t1) a + S16.size a ≤ S3328.size a
  k0_off6_inb : ∀ k0_t1 : Fin k0_t1_loop.trips, ∀ a, (k0_off6 k0_t1) a + S16.size a ≤ S3328.size a
  k0_off7_inb : ∀ k0_t1 : Fin k0_t1_loop.trips, ∀ a, (k0_off7 k0_t1) a + S16.size a ≤ S3328.size a
  k0_off8_inb : ∀ k0_t1 : Fin k0_t1_loop.trips, ∀ a, (k0_off8 k0_t1) a + S16.size a ≤ S3328.size a
  k0_off9_inb : ∀ k0_t1 : Fin k0_t1_loop.trips, ∀ a, (k0_off9 k0_t1) a + S16.size a ≤ S3328.size a
  k0_off10_inb : ∀ k0_t1 : Fin k0_t1_loop.trips, ∀ a, (k0_off10 k0_t1) a + S16.size a ≤ S3328.size a
  k0_off11_inb : ∀ k0_t1 : Fin k0_t1_loop.trips, ∀ a, (k0_off11 k0_t1) a + S16.size a ≤ S3328.size a
  k0_off12_inb : ∀ k0_t1 : Fin k0_t1_loop.trips, ∀ a, (k0_off12 k0_t1) a + S16.size a ≤ S3328.size a
  k0_off13_inb : ∀ k0_t1 : Fin k0_t1_loop.trips, ∀ a, (k0_off13 k0_t1) a + S16.size a ≤ S3328.size a
  k0_off14_inb : ∀ k0_t1 : Fin k0_t1_loop.trips, ∀ a, (k0_off14 k0_t1) a + S16.size a ≤ S3328.size a
  k0_off15_inb : ∀ k0_t1 : Fin k0_t1_loop.trips, ∀ a, (k0_off15 k0_t1) a + S16.size a ≤ S3328.size a
  k0_off16_inb : ∀ k0_t1 : Fin k0_t1_loop.trips, ∀ a, (k0_off16 k0_t1) a + S16.size a ≤ S3328.size a
  k0_off17_inb : ∀ k0_t1 : Fin k0_t1_loop.trips, ∀ a, (k0_off17 k0_t1) a + S16.size a ≤ S3328.size a
  k0_off18_inb : ∀ k0_t1 : Fin k0_t1_loop.trips, ∀ a, (k0_off18 k0_t1) a + S16.size a ≤ S3328.size a
  k0_off19_inb : ∀ k0_t1 : Fin k0_t1_loop.trips, ∀ a, (k0_off19 k0_t1) a + S16.size a ≤ S3328.size a
  k0_off20_inb : ∀ k0_t1 : Fin k0_t1_loop.trips, ∀ a, (k0_off20 k0_t1) a + S16.size a ≤ S3328.size a
  k0_off21_inb : ∀ k0_t1 : Fin k0_t1_loop.trips, ∀ a, (k0_off21 k0_t1) a + S16.size a ≤ S3328.size a
  k0_off22_inb : ∀ k0_t1 : Fin k0_t1_loop.trips, ∀ a, (k0_off22 k0_t1) a + S16.size a ≤ S3328.size a
  k0_off23_inb : ∀ k0_t1 : Fin k0_t1_loop.trips, ∀ a, (k0_off23 k0_t1) a + S16.size a ≤ S3328.size a
  k0_off24_inb : ∀ k0_t1 : Fin k0_t1_loop.trips, ∀ a, (k0_off24 k0_t1) a + S16.size a ≤ S3328.size a
  k0_off25_inb : ∀ k0_t1 : Fin k0_t1_loop.trips, ∀ a, (k0_off25 k0_t1) a + S16.size a ≤ S3328.size a
  k0_off26_inb : ∀ k0_t1 : Fin k0_t1_loop.trips, ∀ a, (k0_off26 k0_t1) a + S16.size a ≤ S3328.size a
  k0_off27_inb : ∀ k0_t1 : Fin k0_t1_loop.trips, ∀ a, (k0_off27 k0_t1) a + S16.size a ≤ S3328.size a
  k0_off28_inb : ∀ k0_t1 : Fin k0_t1_loop.trips, ∀ a, (k0_off28 k0_t1) a + S16.size a ≤ S128.size a
  k0_off29_inb : ∀ i : grid0.Coords, ∀ (r : Fin 3), ∀ a, (k0_off29 i (BitVec.ofNat 32 (1331200 + 4096 * r.val))) a + S128.size a ≤ S1343488.size a
  k0_t2_ok : ∀ i : grid0.Coords, (k0_t2_loop i).OK
  k0_off30_inb : ∀ (i : grid0.Coords) (k0_t2 : Fin (k0_t2_loop i).trips), ∀ a, (k0_off30 i k0_t2) a + S4096.size a ≤ S106496.size a
  k0_off31_inb : ∀ (i : grid0.Coords) (k0_t2 : Fin (k0_t2_loop i).trips), ∀ a, (k0_off31 i k0_t2) a + S4096.size a ≤ S106496.size a
  k0_off32_inb : ∀ (i : grid0.Coords) (k0_t2 : Fin (k0_t2_loop i).trips), ∀ a, (k0_off32 i k0_t2) a + S16000.size a ≤ S10816000.size a
  k0_off33_inb : ∀ (i : grid0.Coords) (k0_t2 : Fin (k0_t2_loop i).trips), ∀ a, (k0_off33 i k0_t2) a + S16000.size a ≤ S10816000.size a
  k0_t3_ok : k0_t3_loop.OK
  k0_off34_inb : ∀ k0_t3 : Fin k0_t3_loop.trips, ∀ a, (k0_off34 k0_t3) a + S16.size a ≤ S4096.size a
  k0_off35_inb : ∀ k0_t3 : Fin k0_t3_loop.trips, ∀ a, (k0_off35 k0_t3) a + S16.size a ≤ S4096.size a
  k0_off36_inb : ∀ (i : grid0.Coords) (k0_t2 : Fin (k0_t2_loop i).trips), ∀ a, (k0_off36 i k0_t2) a + S4096.size a ≤ S1343488.size a
  k0_t4_ok : ∀ i : grid0.Coords, (k0_t4_loop i).OK
  k0_off37_inb : ∀ (i : grid0.Coords) (k0_t4 : Fin (k0_t4_loop i).trips), ∀ a, (k0_off37 i k0_t4) a + S4096.size a ≤ S106496.size a
  k0_off38_inb : ∀ (i : grid0.Coords) (k0_t4 : Fin (k0_t4_loop i).trips), ∀ a, (k0_off38 i k0_t4) a + S4096.size a ≤ S106496.size a
  k0_off39_inb : ∀ (i : grid0.Coords) (k0_t4 : Fin (k0_t4_loop i).trips), ∀ a, (k0_off39 i k0_t4) a + S16000.size a ≤ S10816000.size a
  k0_off40_inb : ∀ (i : grid0.Coords) (k0_t4 : Fin (k0_t4_loop i).trips), ∀ a, (k0_off40 i k0_t4) a + S16000.size a ≤ S10816000.size a
  k0_t5_ok : k0_t5_loop.OK
  k0_off41_inb : ∀ k0_t5 : Fin k0_t5_loop.trips, ∀ a, (k0_off41 k0_t5) a + S16.size a ≤ S4096.size a
  k0_off42_inb : ∀ k0_t5 : Fin k0_t5_loop.trips, ∀ a, (k0_off42 k0_t5) a + S16.size a ≤ S4096.size a
  k0_off43_inb : ∀ (i : grid0.Coords) (k0_t4 : Fin (k0_t4_loop i).trips), ∀ a, (k0_off43 i k0_t4) a + S4096.size a ≤ S1343488.size a
  hstage1_0 : ∀ j, (stage1_0 j).IsWhole
  hstage1_1 : ∀ j, (stage1_1 j).IsWhole
  hstage1_2 : ∀ j, (stage1_2 j).IsWhole

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7
abbrev cc0_scoped8 : DmaSems sig S_ := SemArray.consecutive 8 S_ hcc0_scoped8
abbrev cc0_scoped9 : DmaSems sig S_ := SemArray.consecutive 9 S_ hcc0_scoped9
abbrev cc0_scoped10 : DmaSems sig S_ := SemArray.consecutive 10 S_ hcc0_scoped10
abbrev cc0_scoped11 : DmaSems sig S_ := SemArray.consecutive 11 S_ hcc0_scoped11
abbrev cc0_scoped12 : DmaSems sig S_ := SemArray.consecutive 12 S_ hcc0_scoped12
abbrev cc0_scoped13 : DmaSems sig S_ := SemArray.consecutive 13 S_ hcc0_scoped13
abbrev cc0_scoped14 : DmaSems sig S_ := SemArray.consecutive 14 S_ hcc0_scoped14
abbrev cc0_scoped15 : DmaSems sig S_ := SemArray.consecutive 15 S_ hcc0_scoped15
abbrev cc0_scoped16 : DmaSems sig S_ := SemArray.consecutive 16 S_ hcc0_scoped16
abbrev cc0_scoped17 : DmaSems sig S_ := SemArray.consecutive 17 S_ hcc0_scoped17
abbrev cc0_scoped18 : DmaSems sig S_ := SemArray.consecutive 18 S_ hcc0_scoped18
abbrev cc0_scoped19 : DmaSems sig S_ := SemArray.consecutive 19 S_ hcc0_scoped19
abbrev cc0_scoped20 : DmaSems sig S_ := SemArray.consecutive 20 S_ hcc0_scoped20
abbrev cc0_scoped21 : DmaSems sig S_ := SemArray.consecutive 21 S_ hcc0_scoped21
abbrev cc0_scoped22 : DmaSems sig S_ := SemArray.consecutive 22 S_ hcc0_scoped22
abbrev cc0_scoped23 : DmaSems sig S_ := SemArray.consecutive 23 S_ hcc0_scoped23
abbrev cc0_scoped24 : DmaSems sig S_ := SemArray.consecutive 24 S_ hcc0_scoped24
abbrev cc0_scoped25 : DmaSems sig S_ := SemArray.consecutive 25 S_ hcc0_scoped25
abbrev cc0_scoped26 : DmaSems sig S_ := SemArray.consecutive 26 S_ hcc0_scoped26
abbrev cc0_scoped27 : DmaSems sig S_ := SemArray.consecutive 27 S_ hcc0_scoped27
abbrev cc0_scoped28 : DmaSems sig S_ := SemArray.consecutive 28 S_ hcc0_scoped28
abbrev cc0_scoped29 : DmaSems sig S_ := SemArray.consecutive 29 S_ hcc0_scoped29
abbrev cc0_scoped30 : DmaSems sig S_ := SemArray.consecutive 30 S_ hcc0_scoped30
abbrev cc0_scoped31 : DmaSems sig S_ := SemArray.consecutive 31 S_ hcc0_scoped31
abbrev cc0_scoped32 : DmaSems sig S_ := SemArray.consecutive 32 S_ hcc0_scoped32
abbrev cc0_scoped33 : DmaSems sig S_ := SemArray.consecutive 33 S_ hcc0_scoped33
abbrev cc0_scoped34 : DmaSems sig S_ := SemArray.consecutive 34 S_ hcc0_scoped34
abbrev cc0_scoped35 : DmaSems sig S_ := SemArray.consecutive 35 S_ hcc0_scoped35
abbrev cc0_scoped36 : DmaSems sig S_ := SemArray.consecutive 36 S_ hcc0_scoped36
abbrev cc0_scoped37 : DmaSems sig S_ := SemArray.consecutive 37 S_ hcc0_scoped37
abbrev cc0_scoped38 : DmaSems sig S_ := SemArray.consecutive 38 S_ hcc0_scoped38
abbrev cc0_scoped39 : DmaSems sig S_ := SemArray.consecutive 39 S_ hcc0_scoped39

abbrev win1_0 : Pipeline.Window sig grid1 :=
  Pipeline.Window.whole (Memref.whole main_v6) false false (stage1_0 0) (sem1_0 0) (Memref.isWhole_whole _) (hstage1_0 0)

abbrev win1_1 : Pipeline.Window sig grid1 :=
  Pipeline.Window.whole (Memref.whole main_arg3) false false (stage1_1 0) (sem1_1 0) (Memref.isWhole_whole _) (hstage1_1 0)

abbrev win1_2 : Pipeline.Window sig grid1 :=
  Pipeline.Window.whole (Memref.whole main_v7) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x26 : Shape := ⟨2, ![4096, 26]⟩
abbrev S26x26000x16 : Shape := ⟨3, ![26, 26000, 16]⟩
abbrev S26000x1 : Shape := ⟨2, ![26000, 1]⟩
abbrev S1 : Shape := ⟨1, ![1]⟩
abbrev S26 : Shape := ⟨1, ![26]⟩
abbrev S325 : Shape := ⟨1, ![325]⟩
abbrev S1x26 : Shape := ⟨2, ![1, 26]⟩
abbrev S_ : Shape := ⟨0, ![]⟩
abbrev S4096x26x1 : Shape := ⟨3, ![4096, 26, 1]⟩
abbrev S26x4096x26x16 : Shape := ⟨4, ![26, 4096, 26, 16]⟩
abbrev S4096x26x26x16 : Shape := ⟨4, ![4096, 26, 26, 16]⟩
abbrev S4096x676x16 : Shape := ⟨3, ![4096, 676, 16]⟩
abbrev S325x1 : Shape := ⟨2, ![325, 1]⟩
abbrev S4096x325x16 : Shape := ⟨3, ![4096, 325, 16]⟩
abbrev S4096x325 : Shape := ⟨2, ![4096, 325]⟩
abbrev S4096 : Shape := ⟨1, ![4096]⟩
abbrev S4096x1 : Shape := ⟨2, ![4096, 1]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S26x26000x16, .f32⟩
  | .hbm, ⟨2, _⟩ => ⟨S26000x1, .f32⟩
  | .hbm, ⟨3, _⟩ => ⟨S1, .f32⟩
  | .hbm, ⟨4, _⟩ => ⟨S26, .i32⟩
  | .hbm, ⟨5, _⟩ => ⟨S325, .i32⟩
  | .hbm, ⟨6, _⟩ => ⟨S325, .i1⟩
  | .hbm, ⟨7, _⟩ => ⟨S325, .i32⟩
  | .hbm, ⟨8, _⟩ => ⟨S325, .i1⟩
  | .hbm, ⟨9, _⟩ => ⟨S1x26, .i32⟩
  | .hbm, ⟨10, _⟩ => ⟨S4096x26, .i32⟩
  | .hbm, ⟨11, _⟩ => ⟨S4096x26, .i32⟩
  | .hbm, ⟨12, _⟩ => ⟨S_, .i32⟩
  | .hbm, ⟨13, _⟩ => ⟨S4096x26, .i32⟩
  | .hbm, ⟨14, _⟩ => ⟨S4096x26, .i1⟩
  | .hbm, ⟨15, _⟩ => ⟨S_, .i32⟩
  | .hbm, ⟨16, _⟩ => ⟨S4096x26, .i32⟩
  | .hbm, ⟨17, _⟩ => ⟨S4096x26, .i32⟩
  | .hbm, ⟨18, _⟩ => ⟨S4096x26, .i32⟩
  | .hbm, ⟨19, _⟩ => ⟨S4096x26x1, .i32⟩
  | .hbm, ⟨20, _⟩ => ⟨S26x4096x26x16, .f32⟩
  | .hbm, ⟨21, _⟩ => ⟨S4096x26x26x16, .f32⟩
  | .hbm, ⟨22, _⟩ => ⟨S4096x676x16, .f32⟩
  | .hbm, ⟨23, _⟩ => ⟨S_, .i32⟩
  | .hbm, ⟨24, _⟩ => ⟨S325, .i32⟩
  | .hbm, ⟨25, _⟩ => ⟨S325, .i32⟩
  | .hbm, ⟨26, _⟩ => ⟨S325, .i32⟩
  | .hbm, ⟨27, _⟩ => ⟨S325x1, .i32⟩
  | .hbm, ⟨28, _⟩ => ⟨S4096x325x16, .f32⟩
  | .hbm, ⟨29, _⟩ => ⟨S_, .i32⟩
  | .hbm, ⟨30, _⟩ => ⟨S325, .i32⟩
  | .hbm, ⟨31, _⟩ => ⟨S325, .i32⟩
  | .hbm, ⟨32, _⟩ => ⟨S325, .i32⟩
  | .hbm, ⟨33, _⟩ => ⟨S325x1, .i32⟩
  | .hbm, ⟨34, _⟩ => ⟨S4096x325x16, .f32⟩
  | .hbm, ⟨35, _⟩ => ⟨S4096x325x16, .f32⟩
  | .hbm, ⟨36, _⟩ => ⟨S_, .f32⟩
  | .hbm, ⟨37, _⟩ => ⟨S4096x325, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .i32⟩
  | .hbm, ⟨42, _⟩ => ⟨S4096x26, .i32⟩
  | .hbm, ⟨43, _⟩ => ⟨S4096x26, .i1⟩
  | .hbm, ⟨44, _⟩ => ⟨S_, .i32⟩
  | .hbm, ⟨45, _⟩ => ⟨S4096x26, .i32⟩
  | .hbm, ⟨46, _⟩ => ⟨S4096x26, .i32⟩
  | .hbm, ⟨47, _⟩ => ⟨S4096x26, .i32⟩
  | .hbm, ⟨48, _⟩ => ⟨S4096x26x1, .i32⟩
  | .hbm, ⟨49, _⟩ => ⟨S4096x26x1, .f32⟩
  | .hbm, ⟨50, _⟩ => ⟨S_, .f32⟩
  | .hbm, ⟨51, _⟩ => ⟨S4096x1, .f32⟩
  | .hbm, ⟨52, _⟩ => ⟨S1x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_4 : Ref sig .tc := ⟨.hbm, 12, rfl⟩
abbrev main_v3 : Ref sig .tc := ⟨.hbm, 13, rfl⟩
abbrev main_v4 : Ref sig .tc := ⟨.hbm, 14, rfl⟩
abbrev main_c_5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_c_9 : Ref sig .tc := ⟨.hbm, 41, rfl⟩
abbrev main_v26 : Ref sig .tc := ⟨.hbm, 42, rfl⟩
abbrev main_v27 : Ref sig .tc := ⟨.hbm, 43, rfl⟩
abbrev main_c_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S1x26_S4096x26_0_1 : S1x26.BroadcastsInDim S4096x26 (![0, 1] : Fin 2 → Fin S4096x26.rank)
  bcast_S_S4096x26 : S_.BroadcastsInDim S4096x26 (![] : Fin 0 → Fin S4096x26.rank)
  bcast_S4096x26_S4096x26x1_0_1 : S4096x26.BroadcastsInDim S4096x26x1 (![0, 1] : Fin 2 → Fin S4096x26x1.rank)
  transposes_S26x4096x26x16_S4096x26x26x16_1_0_2_3 : S26x4096x26x16.Transposes [1, 0, 2, 3] S4096x26x26x16
  shapeCasts_S4096x26x26x16_S4096x676x16 : S4096x26x26x16.ShapeCasts S4096x676x16
  bcast_S_S325 : S_.BroadcastsInDim S325 (![] : Fin 0 → Fin S325.rank)
  bcast_S325_S325x1_0 : S325.BroadcastsInDim S325x1 (![0] : Fin 1 → Fin S325x1.rank)
  reducesTo_S4096x325x16_S4096x325_d2 : S4096x325x16.ReducesTo [2] S4096x325
  h_S_ : 0 < S_.numel
  reducesTo_S4096x325_S4096_d1 : S4096x325.ReducesTo [1] S4096
  bcast_S4096_S4096x1_0 : S4096.BroadcastsInDim S4096x1 (![0] : Fin 1 → Fin S4096x1.rank)
  reducesTo_S4096x26x1_S4096x1_d1 : S4096x26x1.ReducesTo [1] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  gather_S26x26000x16_S4096x26x1_S26x4096x26x16_03_1_n_n_1_2_26116_wf : GatherDims.WF S26x26000x16 S4096x26x1 S26x4096x26x16 [0, 3] [1] [] [1] [] 2 ![26, 1, 16]
  gather_S4096x676x16_S325x1_S4096x325x16_02_1_n_n_1_1_4096116_wf : GatherDims.WF S4096x676x16 S325x1 S4096x325x16 [0, 2] [1] [] [1] [] 1 ![4096, 1, 16]
  gather_S26000x1_S4096x26x1_S4096x26x1_2_0_n_n_0_2_11_wf : GatherDims.WF S26000x1 S4096x26x1 S4096x26x1 [2] [0] [] [0] [] 2 ![1, 1]

variable [Facts₀]

def gather_S26x26000x16_S4096x26x1_S26x4096x26x16_03_1_n_n_1_2_26116 : GatherDims S26x26000x16 S4096x26x1 S26x4096x26x16 where
  offsetDims := [0, 3]
  collapsedSliceDims := [1]
  operandBatchingDims := []
  startIndicesBatchingDims := []
  startIndexMap := [1]
  indexVectorDim := 2
  sliceSizes := ![26, 1, 16]
  wf := gather_S26x26000x16_S4096x26x1_S26x4096x26x16_03_1_n_n_1_2_26116_wf
def gather_S4096x676x16_S325x1_S4096x325x16_02_1_n_n_1_1_4096116 : GatherDims S4096x676x16 S325x1 S4096x325x16 where
  offsetDims := [0, 2]
  collapsedSliceDims := [1]
  operandBatchingDims := []
  startIndicesBatchingDims := []
  startIndexMap := [1]
  indexVectorDim := 1
  sliceSizes := ![4096, 1, 16]
  wf := gather_S4096x676x16_S325x1_S4096x325x16_02_1_n_n_1_1_4096116_wf
def gather_S26000x1_S4096x26x1_S4096x26x1_2_0_n_n_0_2_11 : GatherDims S26000x1 S4096x26x1 S4096x26x1 where
  offsetDims := [2]
  collapsedSliceDims := [0]
  operandBatchingDims := []
  startIndicesBatchingDims := []
  startIndexMap := [0]
  indexVectorDim := 2
  sliceSizes := ![1, 1]
  wf := gather_S26000x1_S4096x26x1_S4096x26x1_2_0_n_n_0_2_11_wf

class Facts : Prop extends Facts₀ where

variable [Facts]
-- ==== Proof.Ghost.lean ====
/-
  The setting of the first program's launch: the program as a SparseCore launch sees it, the ghost state of its proof,
  and the arrays the TensorCore hands the SparseCores.

  The device has three kinds of threads: the TensorCore, which runs the host operations, starts the one SparseCore
  call and later runs a small kernel region of its own; the two sequencers; and the thirty-two vector subcores, each
  of which runs the tile body. Three protocols need ghost state. The handshakes between the TensorCore, the sequencers
  and the tiles are cells under rounds whose duties are numbered. The staging copies of the TensorCore's kernel region
  are cells under rounds with unnamed duties. A tile's own copies are local: each is issued and waited for by the same
  thread on a semaphore nobody else touches, which needs only exclusive counters. The resource algebra is the product of
  the three.
-/
import proofs.«207464_g62843961475156_cont_9to1_m_1121_6_alg».proof.KernelIdeal
import proofs.«207464_g62843961475156_cont_9to1_m_1121_6_alg».proof.Proof.Gen.KernelIdeal
import proofs.«207464_g62843961475156_cont_9to1_m_1121_6_alg».proof.Proof.Gen.KernelIdeal.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.KLaunch

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the body table below the SparseCore layer: the kernels' and the one TensorCore region's. -/
abbrev ΛP : Labels := Pipeline.Sig Λ₀ (Fin 1) fun p => (pcfgs (F := F) p).Adm
/-- The one SparseCore call: a vector-subcore kernel on 2 SparseCores × 16 tiles. -/
abbrev K : SparseCore.Cfg τ sig (ΛP (F := F)) 1 := sc (F := F)
theorem nCore_zero : (K (F := F)).nCore 0 = 2 := rfl
theorem nSub_zero : (K (F := F)).nSub 0 = 16 := rfl
/-- The body table below the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds: duties numbered. -/
abbrev UH : Type := URounds (GSem nD τ sig) ℕ
/-- The TensorCore region's staging cells' rounds: duties unnamed. -/
abbrev UP : Type := URounds (GSem nD τ sig) Unit
/-- The three protocols' algebras side by side; the exclusive counters of the tiles' local copies are found in the
    rightmost place by instance. -/
abbrev UU : Type := UH × (UP × Counters)

local notation "𝕄" => MT nD τ sig (HIx 1) (Elt F) ℕ UU ℕ

/-- The model the whole proof is stated over. -/
abbrev Mod (F : FTy → Type) : Type := MT nD τ sig (HIx 1) (Elt F) ℕ UU ℕ

/-- The handshakes' rounds, the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The staging cells' rounds, the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- The counters, the right factor (the same embedding the instance finds). -/
def EC : Emb Counters (MT nD τ sig (HIx 1) (Elt F) ℕ UU ℕ) :=
  ((Emb.inr : Emb Counters (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance
instance EC_landsIn : (EC : Emb Counters 𝕄).LandsIn (upEmb : UEmb _ 𝕄) := by unfold EC; infer_instance

/-- The launch element splits into the three protocols' elements. -/
theorem ownU_triple (a : UH) (b : UP) (c : Counters) :
    (ownU ((a, (b, c)) : UU) : sProp 𝕄) ⊢ iprop(BI.own (EH (F := F) a) ∗ BI.own (EP (F := F) b) ∗ BI.own (EC (F := F) c)) := by
  iintro Hu
  ihave H := (ownU_pair (nD := nD) (τ := τ) (sig := sig) (Ix := HIx 1) (Val := Elt F) (Name := ℕ) (Lvl := ℕ) a (b, c)) $$ Hu
  icases H with ⟨Ha, Hbc⟩
  isplitl [Ha]; · iexact Ha
  ihave H2 := (own_pair_emb (embR (nD := nD) (τ := τ) (sig := sig) (Ix := HIx 1) (Val := Elt F) (Name := ℕ) (Lvl := ℕ) (A := UH) (B := UP × Counters)) b c) $$ Hbc
  iexact H2

/-! ## The arrays that pass between the TensorCore and the SparseCores -/

/-- The payloads of the handshakes, as the launch theorem takes them. -/
abbrev PayT (F : FTy → Type) : Type := (K (F := F)).Pay (nD := nD) (Val := Elt F) (Name := ℕ) (U := UU)

/-- The four arrays of the SparseCore call as locations of device `d`: the transposed indices, the flattened tables, the
    padded linear table, and the partial sums the call writes. -/
abbrev v1Loc (d : Dev nD) : Loc nD τ sig := (SparseCore.T d).loc main_v1
abbrev v2Loc (d : Dev nD) : Loc nD τ sig := (SparseCore.T d).loc main_v2
abbrev v4Loc (d : Dev nD) : Loc nD τ sig := (SparseCore.T d).loc main_v4
abbrev v5Loc (d : Dev nD) : Loc nD τ sig := (SparseCore.T d).loc main_v5

/-- Each of them whole, at the full share, at given contents. -/
abbrev v1Pts (d : Dev nD) (f : Buf (Elt F) (v1Loc d)) : sProp 𝕄 := v1Loc d ↦{fullShare} f
abbrev v2Pts (d : Dev nD) (f : Buf (Elt F) (v2Loc d)) : sProp 𝕄 := v2Loc d ↦{fullShare} f
abbrev v4Pts (d : Dev nD) (f : Buf (Elt F) (v4Loc d)) : sProp 𝕄 := v4Loc d ↦{fullShare} f
abbrev v5Pts (d : Dev nD) (f : Buf (Elt F) (v5Loc d)) : sProp 𝕄 := v5Loc d ↦{fullShare} f

/-- What the call takes from the TensorCore: the three operands at their contents, the result array at any. -/
abbrev callTakes (d : Dev nD) (x1 : Buf (Elt F) (v1Loc d)) (w2 : Buf (Elt F) (v2Loc d)) (w4 : Buf (Elt F) (v4Loc d)) : sProp 𝕄 :=
  iprop(v1Pts d x1 ∗ v2Pts d w2 ∗ v4Pts d w4 ∗ ∃ f, v5Pts d f)
/-- What it gives back: the operands unchanged, the result array at `r`. -/
abbrev callGives (d : Dev nD) (x1 : Buf (Elt F) (v1Loc d)) (w2 : Buf (Elt F) (v2Loc d)) (w4 : Buf (Elt F) (v4Loc d))
    (r : Buf (Elt F) (v5Loc d)) : sProp 𝕄 :=
  iprop(v1Pts d x1 ∗ v2Pts d w2 ∗ v4Pts d w4 ∗ v5Pts d r)

end Cert.Proof.KLaunch

end
-- ==== Proof.HostOps.lean ====
/-
  The host operations of the first program's @main, as pure functions of the launch memory.

  Before the SparseCore call @main transposes the index matrix and flattens it (entry `f·4096 + b` of the flat array is
  `x[b, f]`), flattens the two tables, and pads the flat linear table with 112 zeros. Each operation writes one buffer that
  no other operation writes, so the device's buffers after the line are a composition of the operations' functions.
-/
import proofs.«207464_g62843961475156_cont_9to1_m_1121_6_alg».proof.Proof.Ghost
import Idealize.ShloMosaic.Lib.Pipeline.Value
import Idealize.ShloMosaic.Lib.ValueIdx

noncomputable section

namespace Cert.Proof.KLaunch

open Cert.KernelIdeal Cert.KernelIdeal.Gen

open Idealize.ShloMosaic Idealize.ShloMosaic.ValueIdx
open Idealize.ShloMosaic.SparseCore (S V T)
open Idealize.SL Idealize.SL.Sem
open Idealize.ShloMosaic.StableHlo (held after)

variable {F : FTy → Type} [FloatOps F]

/-! ## The operations before the call -/

abbrev opT : HloOp τ sig (Elt F) :=
  StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev opR1 : HloOp τ sig (Elt F) := StableHlo.reshape main_v0 main_v1 rfl shapeCasts_S26x4096_S106496
abbrev opR2 : HloOp τ sig (Elt F) := StableHlo.reshape main_arg1 main_v2 rfl shapeCasts_S26x26000x16_S10816000
abbrev opR3 : HloOp τ sig (Elt F) := StableHlo.reshape main_arg2 main_v3 rfl shapeCasts_S26000x1_S26000
abbrev opC : HloOp τ sig (Elt F) := StableHlo.nullary main_c (constantI S_ 32 0#32)
abbrev opP0 : HloOp τ sig (Elt F) := StableHlo.TRef.unary (.of main_c : StableHlo.TRef sig ⟨S_, .i32⟩) main_call0.v0 (sitofp .f32)
abbrev opP1 : HloOp τ sig (Elt F) :=
  StableHlo.TRef.binary (.of main_v3 : StableHlo.TRef sig ⟨S26000, .f32⟩) main_call0.v0 main_call0.v1 (fun x v => pad S26112 ![0] ![112] ![0] x v pads_S26000_S26112_01120 h_S_)
/-- The seven operations before the SparseCore call, in order. -/
def preOps : List (HloOp τ sig (Elt F)) := [opT, opR1, opR2, opR3, opC, opP0, opP1]

/-- The reshape of the call's result, -/
abbrev opR6 : HloOp τ sig (Elt F) := StableHlo.reshape main_v5 main_v6 rfl shapeCasts_S1343488_S328x4096
/-- and of the TensorCore region's. -/
abbrev opR8 : HloOp τ sig (Elt F) := StableHlo.reshape main_v7 main_v8 rfl shapeCasts_S4096_S4096x1

variable (m : (ℓ : Loc nD τ sig) → Buf (Elt F) ℓ)

/-- Device `d`'s buffers at launch, as a valuation. -/
def V0 (d : Dev nD) : Valuation τ sig (Elt F) := fun b => m (d, b)
/-- After the seven operations. -/
def Vpre (d : Dev nD) : Valuation τ sig (Elt F) := after preOps (V0 m d)

/-- The flat transposed indices, the flat tables, the padded flat linear table: what the call is handed. -/
def xt (d : Dev nD) : Buf (Elt F) (v1Loc d) := Vpre m d (Proc.devRef .tc main_v1)
def wf (d : Dev nD) : Buf (Elt F) (v2Loc d) := Vpre m d (Proc.devRef .tc main_v2)
def wl (d : Dev nD) : Buf (Elt F) (v4Loc d) := Vpre m d (Proc.devRef .tc main_v4)

theorem xt_eq (d : Dev nD) : xt m d = fun i => shapeCast S106496 (transpose S26x4096 [1, 0] (m ((SparseCore.T d).loc main_arg0)) transposes_S4096x26_S26x4096_1_0) shapeCasts_S26x4096_S106496 i := by
  unfold xt Vpre preOps
  after_results
  rfl

theorem wf_eq (d : Dev nD) : wf m d = fun i => shapeCast S10816000 (m ((SparseCore.T d).loc main_arg1)) shapeCasts_S26x26000x16_S10816000 i := by
  unfold wf Vpre preOps
  after_results
  rfl

/-- The padding value: the integer constant zero, converted. -/
abbrev padVal : (⟨S_, .f32⟩ : BufTy).Contents (Elt F) := sitofp .f32 (constantI S_ 32 0#32)

theorem wl_eq (d : Dev nD) : wl m d = pad S26112 ![0] ![112] ![0]
    (fun i => shapeCast S26000 (m ((SparseCore.T d).loc main_arg2)) shapeCasts_S26000x1_S26000 i) (padVal (F := F)) pads_S26000_S26112_01120 h_S_ := by
  unfold wl Vpre preOps
  after_results
  rfl

/-- Entry `f·4096 + b` of the flat transposed indices is `x[b, f]`. -/
theorem xt_apply (d : Dev nD) (f : Fin 26) (b : Fin 4096) (h : f.val * 4096 + b.val < 106496) :
    xt m d (ix1 ⟨f.val * 4096 + b.val, h⟩) = m ((SparseCore.T d).loc main_arg0) (ix2 b f) := by
  rw [xt_eq]
  show shapeCast S106496 _ _ _ = _
  rw [shapeCast_apply _ _ _ (ix2 f b) (by rw [Shape.rowMajor_val_two, Shape.rowMajor_val_one]; rfl)]
  exact transpose_apply _ _ _ _ (ix2 b f) (fun a => by match a with | ⟨0, _⟩ => rfl | ⟨1, _⟩ => rfl)

/-- Every entry of the flat transposed indices is an entry of the index matrix. -/
theorem xt_mem (d : Dev nD) (j : S106496.Idx) : ∃ idx, xt m d j = m ((SparseCore.T d).loc main_arg0) idx := by
  rw [xt_eq]
  unfold shapeCast transpose
  exact ⟨_, rfl⟩

/-- Entry `(j·26000 + r)·16 + e` of the flat tables is `W_cross[j, r, e]`. -/
theorem wf_apply (d : Dev nD) (j : Fin 26) (r : Fin 26000) (e : Fin 16) (h : (j.val * 26000 + r.val) * 16 + e.val < 10816000) :
    wf m d (ix1 ⟨(j.val * 26000 + r.val) * 16 + e.val, h⟩) = m ((SparseCore.T d).loc main_arg1) (ix3 j r e) := by
  rw [wf_eq]
  exact shapeCast_apply _ _ _ (ix3 j r e) (by rw [Shape.rowMajor_val_three, Shape.rowMajor_val_one]; rfl)

/-! ## The buffers after the call, after the TensorCore region, at the end -/

abbrev v6Loc (d : Dev nD) : Loc nD τ sig := (SparseCore.T d).loc main_v6
abbrev v7Loc (d : Dev nD) : Loc nD τ sig := (SparseCore.T d).loc main_v7
abbrev v8Loc (d : Dev nD) : Loc nD τ sig := (SparseCore.T d).loc main_v8

/-- After the call: the partial sums at `f`. -/
def Vcall (d : Dev nD) (f : Buf (Elt F) (v5Loc d)) : Valuation τ sig (Elt F) := Function.update (Vpre m d) (Proc.devRef .tc main_v5) f
/-- After their reshape into 328 rows of 4096. -/
def V6 (d : Dev nD) (f : Buf (Elt F) (v5Loc d)) : Valuation τ sig (Elt F) := (opR6 (F := F)).result (Vcall m d f)
/-- After the TensorCore region: its result array at `g`. -/
def V7 (d : Dev nD) (f : Buf (Elt F) (v5Loc d)) (g : Buf (Elt F) (v7Loc d)) : Valuation τ sig (Elt F) :=
  Function.update (V6 m d f) (Proc.devRef .tc main_v7) g
/-- At the end: after the last reshape. -/
def V8 (d : Dev nD) (f : Buf (Elt F) (v5Loc d)) (g : Buf (Elt F) (v7Loc d)) : Valuation τ sig (Elt F) :=
  (opR8 (F := F)).result (V7 m d f g)

theorem Vcall_v5 (d : Dev nD) (f : Buf (Elt F) (v5Loc d)) : Vcall m d f (Proc.devRef .tc main_v5) = f := Function.update_self _ _ _
theorem Vcall_of_ne (d : Dev nD) (f : Buf (Elt F) (v5Loc d)) (b : DevRef τ sig) (h : b ≠ Proc.devRef .tc main_v5) : Vcall m d f b = Vpre m d b :=
  Function.update_of_ne h _ _

theorem V6_v6 (d : Dev nD) (f : Buf (Elt F) (v5Loc d)) :
    V6 m d f (Proc.devRef .tc main_v6) = fun i => shapeCast S328x4096 f shapeCasts_S1343488_S328x4096 i := by
  unfold V6
  rw [StableHlo.reshape_result, Vcall_v5]
  rfl

theorem V7_v7 (d : Dev nD) (f : Buf (Elt F) (v5Loc d)) (g : Buf (Elt F) (v7Loc d)) :
    V7 m d f g (Proc.devRef .tc main_v7) = g := Function.update_self _ _ _
theorem V7_of_ne (d : Dev nD) (f : Buf (Elt F) (v5Loc d)) (g : Buf (Elt F) (v7Loc d)) (b : DevRef τ sig)
    (h : b ≠ Proc.devRef .tc main_v7) : V7 m d f g b = V6 m d f b := Function.update_of_ne h _ _

theorem V8_v8 (d : Dev nD) (f : Buf (Elt F) (v5Loc d)) (g : Buf (Elt F) (v7Loc d)) :
    V8 m d f g (Proc.devRef .tc main_v8) = fun i => shapeCast S4096x1 g shapeCasts_S4096_S4096x1 i := by
  unfold V8
  rw [StableHlo.reshape_result, V7_v7]
  rfl

/-- A buffer none of the last four steps writes is, at the end, as the seven operations left it. -/
theorem V8_of_ne (d : Dev nD) (f : Buf (Elt F) (v5Loc d)) (g : Buf (Elt F) (v7Loc d)) (a : Ref sig .tc)
    (h8 : a ≠ main_v8) (h7 : a ≠ main_v7) (h6 : a ≠ main_v6) (h5 : a ≠ main_v5) :
    V8 m d f g (Proc.devRef .tc a) = Vpre m d (Proc.devRef .tc a) := by
  unfold V8 V7 V6 Vcall
  rw [StableHlo.reshape_result_ne _ _ _ _ _ _ _ h8, Function.update_of_ne (StableHlo.devRef_ne_of_ne h7), StableHlo.reshape_result_ne _ _ _ _ _ _ _ h6,
    Function.update_of_ne (StableHlo.devRef_ne_of_ne h5)]

/-- No operation writes an argument array: each is, after the seven operations, as launched. -/
theorem Vpre_arg0 (d : Dev nD) : Vpre m d (Proc.devRef .tc main_arg0) = m ((SparseCore.T d).loc main_arg0) := by
  unfold Vpre preOps; after_results; rfl
theorem Vpre_arg1 (d : Dev nD) : Vpre m d (Proc.devRef .tc main_arg1) = m ((SparseCore.T d).loc main_arg1) := by
  unfold Vpre preOps; after_results; rfl
theorem Vpre_arg2 (d : Dev nD) : Vpre m d (Proc.devRef .tc main_arg2) = m ((SparseCore.T d).loc main_arg2) := by
  unfold Vpre preOps; after_results; rfl
theorem Vpre_arg3 (d : Dev nD) : Vpre m d (Proc.devRef .tc main_arg3) = m ((SparseCore.T d).loc main_arg3) := by
  unfold Vpre preOps; after_results; rfl
theorem Vpre_v7 (d : Dev nD) : Vpre m d (Proc.devRef .tc main_v7) = m ((SparseCore.T d).loc main_v7) := by
  unfold Vpre preOps; after_results; rfl

end Cert.Proof.KLaunch

end
-- ==== Proof.TcBody.lean ====
/-
  The TensorCore kernel of the first program, run on three held buffers.

  The kernel loads a 328 × 4096 array of partial sums and one scalar (the bias), adds the 328 rows, adds the scalar to each
  of the 4096 sums, applies the logistic function, and stores the 4096 results. It makes no copy and waits for
  nothing, so its run is a straight line of three loads and one store.
-/
import proofs.«207464_g62843961475156_cont_9to1_m_1121_6_alg».proof.Proof.Ghost
import proofs.«207464_g62843961475156_cont_9to1_m_1121_6_alg».proof.Proof.Gen.KernelIdeal.Skeleton
import proofs.«207464_g62843961475156_cont_9to1_m_1121_6_alg».proof.Proof.Gen.KernelIdeal.Points
import Idealize.ShloMosaic.Lib.Pipeline.Value
import Idealize.ShloMosaic.Lib.ValueIdx
import Idealize.ShloMosaic.Lib.Tactic

noncomputable section

namespace Cert.Proof.KLaunch

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Memref `M`'s buffer on core `c`, held whole at `f`. -/
abbrev ptM (c : Dev nD) {sp : Space} {S : Shape} {e : EltTy} (M : Memref sig .tc sp S e) (f : Buf (Elt F) (M.view.loc (c.tc : Thread nD τ))) : sProp 𝕄 :=
  M.view.loc (c.tc : Thread nD τ) ↦{fullShare} f

/-- The kernel run from its three buffers, the first two at `f0` and `f1`, together with what it leaves in the third
    (whatever that held before is overwritten). -/
def combineRun (c : Dev nD) (M0 : Memref sig .tc .vmem S328x4096 .f32) (h0 : M0.IsWhole) (M1 : Memref sig .tc .smem S1 .f32) (h1 : M1.IsWhole)
    (M2 : Memref sig .tc .vmem S4096 .f32) (h2 : M2.IsWhole)
    (f0 : Buf (Elt F) (M0.view.loc (c.tc : Thread nD τ))) (f1 : Buf (Elt F) (M1.view.loc (c.tc : Thread nD τ))) :
    { pay : Buf (Elt F) (M2.view.loc (c.tc : Thread nD τ)) //
    ∀ (f2 : Buf (Elt F) (M2.view.loc (c.tc : Thread nD τ))) (Q : PUnit → sProp 𝕄),
      iprop(ptM c M0 f0 ∗ ptM c M1 f1 ∗ ptM c M2 f2 ∗ (iprop(ptM c M0 f0 ∗ ptM c M1 f1 ∗ ptM c M2 pay) -∗ Q ⟨⟩))
        ⊢ wp frame (wpE (defs₀ (F := F)) Variants.none (c.tc : Thread nD τ) none) Set.univ (cc1__combine_body (F := F) M0 h0 M1 h1 M2 h2) Q } := by
  refine ⟨?_, fun f2 Q => ?run⟩
  case run =>
    iintro ⟨H0, H1, H2, Hk⟩
    simp only [cc1__combine_body_eq_skeleton]; unfold cc1__combine_body_skel
    sl_exec!
    sl_step
    iapply Hk
    isplitl [H0]; · iexact H0
    isplitl [H1]; · iexact H1
    iexact H2

theorem offsets_zero2 : (![0, 0] : Fin 2 → Nat) = fun _ => 0 := funext fun a => by fin_cases a <;> rfl
theorem offsets_zero1 : (![0] : Fin 1 → Nat) = fun _ => 0 := funext fun a => by fin_cases a; rfl

/-- What the kernel leaves in the result's staging buffer, from the contents of the two inputs' staging buffers. -/
def combined (c : Dev nD) (f0 : (⟨S328x4096, .f32⟩ : BufTy).Contents (Elt F)) (f1 : (⟨S1, .f32⟩ : BufTy).Contents (Elt F)) :
    (⟨S4096, .f32⟩ : BufTy).Contents (Elt F) :=
  (combineRun c (Memref.whole cc1_stg0_0) (Memref.isWhole_whole _) (Memref.whole cc1_stg1_0) (Memref.isWhole_whole _)
    (Memref.whole cc1_stg2_0) (Memref.isWhole_whole _) f0 f1).1

/-- The column sums of the partial sums, plus the bias, through the logistic function. -/
abbrev combineOf (f0 : (⟨S328x4096, .f32⟩ : BufTy).Contents (Elt F)) (f1 : (⟨S1, .f32⟩ : BufTy).Contents (Elt F)) :
    (⟨S4096, .f32⟩ : BufTy).Contents (Elt F) :=
  k1_pay1 f0 (f1 (ix1 0))

/-- It is the kernel's own term of them: the loads read the buffers whole, the store writes the result whole. -/
theorem combined_eq (c : Dev nD) (f0 : (⟨S328x4096, .f32⟩ : BufTy).Contents (Elt F)) (f1 : (⟨S1, .f32⟩ : BufTy).Contents (Elt F)) :
    combined c f0 f1 = combineOf f0 f1 := by
  unfold combined combineRun
  dsimp only
  sl_unfold_words
  refine (View.read_whole (Val := Elt F) cc1_stg2_0 _).symm.trans ?_
  rw [View.read_writes_junk_eq_canon]
  refine (View.canon_unit_zero (Val := Elt F) (S := S4096) offsets_zero1 inb_S4096_S4096_0 _).trans ?_
  have hl0 : View.readAt (Elt F) (Memref.whole cc1_stg0_0).view (Rect.unit ![0, 0] S328x4096.size inb_S328x4096_S328x4096_0_0).toLoadRect f0 = f0 :=
    View.ld_unit_zero (Val := Elt F) (S := S328x4096) offsets_zero2 inb_S328x4096_S328x4096_0_0 f0
  have hl1 : View.readAt (Elt F) (Memref.whole cc1_stg1_0).view (Rect.unit ![0] S1.size inb_S1_S1_0).toLoadRect f1 = f1 :=
    View.ld_unit_zero (Val := Elt F) (S := S1) offsets_zero1 inb_S1_S1_0 f1
  rw [hl0, hl1]
  exact congrArg (k1_pay1 f0) (congrArg f1 (funext fun a => Fin.ext (by fin_cases a; rfl)))

end Cert.Proof.KLaunch

end
-- ==== Proof.TcRegion.lean ====
/-
  The TensorCore region of the first program: its proof data, its body obligation, the region as one step of @main, and
  what its result array holds afterwards.

  The region has one grid point and three windows, each a whole array staged in one buffer: the 328 × 4096 partial sums and
  the bias are fetched, the 4096 results are written back. The pipeline around the body does the staging copies; the
  body is the kernel run on the three staging buffers. So after the region the result array holds the kernel's term
  of the other two arrays' contents at entry, and every other array is untouched.
-/
import proofs.«207464_g62843961475156_cont_9to1_m_1121_6_alg».proof.Proof.TcBody
import Idealize.ShloMosaic.Lib.Pipeline.Regions
import Idealize.ShloMosaic.Lib.Pipeline.RegionsLoop
import Idealize.ShloMosaic.Lib.Pipeline.Kit

noncomputable section

namespace Cert.Proof.KLaunch

open Cert.KernelIdeal Cert.KernelIdeal.Gen
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)

variable {F : FTy → Type} [FloatOps F]

local notation "𝕄" => MT nD τ sig (HIx 1) (Elt F) ℕ UU ℕ

-- the memory as the region finds it
variable (Wm : (ℓ : Loc nD τ sig) → Buf (Elt F) ℓ)

/-! ## The proof data -/

/-- The pairs a TensorCore wait may have recorded by the time of the region: those at or below the level the launch's
    protocol allows after the SparseCore call. The region's own waits are at the lowest level and stay inside. -/
def bset (c : Dev nD) : Set (SemLoc sig × HIx 1) := {p | (K (F := F)).lev (SparseCore.T c, p.1) p.2 ≤ 8 * 1}

/-- The TensorCore after the one SparseCore call: it owes nothing, and its recorded waits are at or below level 8. -/
def owesTc (c : Dev nD) : sProp 𝕄 :=
  iprop(∃ W, ⌜(K (F := F)).WBelow (SparseCore.T c) W (8 * 1)⌝ ∗ owes (SparseCore.T c) (0 : CellTallies nD τ sig (HIx 1)) W)

/-- The two input windows' arrays as the fetch stages them. -/
abbrev xstg0 (c : Dev nD) : (cfg1.win 0).block.Idx → Elt F (cfg1.win 0).elt :=
  ((cfg1.win 0).blk t1_0).view.read (Elt F) (Wm ((cfg1.win 0).arr.view.loc (c : Thread nD τ)))
abbrev xstg1 (c : Dev nD) : (cfg1.win 1).block.Idx → Elt F (cfg1.win 1).elt :=
  ((cfg1.win 1).blk t1_0).view.read (Elt F) (Wm ((cfg1.win 1).arr.view.loc (c : Thread nD τ)))

/-- The region's proof data on core `c`: the three arrays at their entry contents; after the body the inputs as
    fetched, the result at the kernel's term; no invariant of its own; the core owes nothing. -/
def dat1 (c : Dev nD) : Pipeline.Dat τ (Elt F) (HIx 1) ℕ UU ℕ cfg1 c where
  A w := Wm ((cfg1.win w).arr.view.loc (c : Thread nD τ))
  after w _ := match w with
    | ⟨0, _⟩ => xstg0 Wm c
    | ⟨1, _⟩ => xstg1 Wm c
    | ⟨2, _⟩ => combined c (xstg0 Wm c) (xstg1 Wm c)
  Φ _ := iprop(emp)
  q _ := fullShare
  owed _ := 0
  recorded _ := bset (F := F) c

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat1 Wm

/-! ## The body -/

theorem before_in0 (c : Dev nD) (d : (cfg1.win 0).block.Idx → Elt F (cfg1.win 0).elt) : (dat1 Wm c).before 0 t1_0 d = xstg0 Wm c := by
  unfold Pipeline.Dat.before; rw [if_pos (by decide)]; rfl
theorem before_in1 (c : Dev nD) (d : (cfg1.win 1).block.Idx → Elt F (cfg1.win 1).elt) : (dat1 Wm c).before 1 t1_0 d = xstg1 Wm c := by
  unfold Pipeline.Dat.before; rw [if_pos (by decide)]; rfl

omit [FloatOps F] in
theorem owns_whole_eq (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on core `c`: the staging buffers taken apart, the kernel's run applied. -/
theorem body_obligation (c : Dev nD) : BodyObligation (dat1 (F := F) Wm c) (defs₀ (F := F)) 𝒱₀ none Set.univ := fun t => by
  obtain rfl := fin_N1 t
  rw [bigSep_W1, bigSep_W1]
  simp only [owns_whole_eq]
  rw [show (dat1 Wm c).Φ t1_0.castSucc = iprop(emp) from rfl, show (dat1 Wm c).Φ t1_0.succ = iprop(emp) from rfl,
    show (dat1 Wm c).owesAt none t1_0.succ = (dat1 Wm c).owesAt none t1_0.castSucc from rfl]
  iintro ⟨-, HO, ⟨%d0, %f0, %hf0, H0⟩, ⟨%d1, %f1, %hf1, H1⟩, ⟨%d2, %f2, %hf2, H2⟩⟩
  rw [before_in0] at hf0
  rw [before_in1] at hf1
  subst hf0
  subst hf1
  iapply ((combineRun c (Memref.whole cc1_stg0_0) (Memref.isWhole_whole _) (Memref.whole cc1_stg1_0) (Memref.isWhole_whole _)
    (Memref.whole cc1_stg2_0) (Memref.isWhole_whole _) (xstg0 Wm c) (xstg1 Wm c)).2 f2 _)
  isplitl [H0]; · iexact H0
  isplitl [H1]; · iexact H1
  isplitl [H2]; · iexact H2
  iintro ⟨H0, H1, H2⟩
  isplitr; · iempintro
  isplitl [HO]; · iexact HO
  isplitl [H0]
  · iexists _; isplitr; swap; (· iexact H0); ipureintro; rfl
  isplitl [H1]
  · iexists _; isplitr; swap; (· iexact H1); ipureintro; rfl
  iexists _; isplitr; swap; (· iexact H2); ipureintro; dsimp only [dat1, combined]

/-! ## What the arrays hold after the region -/

/-- The kernel's term of the two input arrays as the region finds them: what the result array holds afterwards. -/
abbrev out7 (c : Dev nD) : Buf (Elt F) ((c : Thread nD τ).loc main_v7) :=
  combineOf (Wm ((c : Thread nD τ).loc main_v6)) (Wm ((c : Thread nD τ).loc main_arg3))

/-- A window's block at the one grid point is its whole array: the block starts at the origin. -/
theorem emb_blk0 (y : ((cfg1.win 0).xblock (cfg1.grid.coords t1_0)).Idx) : ((cfg1.win 0).blk t1_0).view.emb y = y := by
  funext a; apply Fin.ext
  match a with
  | ⟨0, _⟩ =>
    show win1_0.index t1_0 0 * win1_0.size 0 + 1 * (y 0 : Nat) = _
    rw [show win1_0.index t1_0 0 = 0 by decide, Nat.zero_mul, Nat.zero_add, Nat.one_mul]
    rfl
  | ⟨1, _⟩ =>
    show win1_0.index t1_0 1 * win1_0.size 1 + 1 * (y 1 : Nat) = _
    rw [show win1_0.index t1_0 1 = 0 by decide, Nat.zero_mul, Nat.zero_add, Nat.one_mul]
    rfl
theorem emb_blk1 (y : ((cfg1.win 1).xblock (cfg1.grid.coords t1_0)).Idx) : ((cfg1.win 1).blk t1_0).view.emb y = y := by
  funext a; apply Fin.ext
  match a with
  | ⟨0, _⟩ =>
    show win1_1.index t1_0 0 * win1_1.size 0 + 1 * (y 0 : Nat) = _
    rw [show win1_1.index t1_0 0 = 0 by decide, Nat.zero_mul, Nat.zero_add, Nat.one_mul]
    rfl
theorem emb_blk2 (y : ((cfg1.win 2).xblock (cfg1.grid.coords t1_0)).Idx) : ((cfg1.win 2).blk t1_0).view.emb y = y := by
  funext a; apply Fin.ext
  match a with
  | ⟨0, _⟩ =>
    show win1_2.index t1_0 0 * win1_2.size 0 + 1 * (y 0 : Nat) = _
    rw [show win1_2.index t1_0 0 = 0 by decide, Nat.zero_mul, Nat.zero_add, Nat.one_mul]
    rfl

theorem read_blk0 (c : Dev nD) (G : Buf (Elt F) ((cfg1.win 0).arr.view.loc (c : Thread nD τ))) :
    ((cfg1.win 0).blk t1_0).view.read (Elt F) G = G := by
  funext y; rw [View.read_apply, emb_blk0]; rfl
theorem read_blk1 (c : Dev nD) (G : Buf (Elt F) ((cfg1.win 1).arr.view.loc (c : Thread nD τ))) :
    ((cfg1.win 1).blk t1_0).view.read (Elt F) G = G := by
  funext y; rw [View.read_apply, emb_blk1]; rfl
theorem read_blk2 (c : Dev nD) (G : Buf (Elt F) ((cfg1.win 2).arr.view.loc (c : Thread nD τ))) :
    ((cfg1.win 2).blk t1_0).view.read (Elt F) G = G := by
  funext y; rw [View.read_apply, emb_blk2]; rfl

/-- The result window's write-back is the kernel's term of the whole input arrays. -/
theorem flushed_eq (c : Dev nD) (t : Fin cfg1.N) :
    (dat1 Wm c).flushed 2 t = ((cfg1.win 2).blk t).view.read (Elt F) (out7 Wm c) := by
  obtain rfl := fin_N1 t
  have ha : (dat1 Wm c).after 2 t1_0 = combined c (xstg0 Wm c) (xstg1 Wm c) := by dsimp only [dat1]
  unfold Pipeline.Dat.flushed
  rw [ha, combined_eq, read_blk2]
  unfold xstg0 xstg1
  rw [read_blk0, read_blk1]
  rfl

/-- The one block of the result window covers its array. -/
theorem cover (i : S4096.Idx) : ∃ t : Fin cfg1.N, (cfg1.win 2).flush t = true ∧ i ∈ ((cfg1.win 2).blk t).view.set := by
  refine ⟨t1_0, flush1_2 _, ?_⟩
  show i ∈ ((View.whole main_v7).slice (win1_2.rect t1_0)).set
  rw [View.set_slice_whole, Rect.mem_set_unit]
  intro a
  match a with
  | ⟨0, _⟩ =>
    show win1_2.index t1_0 0 * win1_2.size 0 ≤ (i 0 : Nat) ∧ (i 0 : Nat) < win1_2.index t1_0 0 * win1_2.size 0 + win1_2.xsize (grid1.coords t1_0) 0
    rw [show win1_2.index t1_0 0 = 0 by decide, show win1_2.xsize (grid1.coords t1_0) 0 = 4096 by decide, Nat.zero_mul]
    have h : (i 0 : Nat) < 4096 := (i 0).isLt
    exact ⟨Nat.zero_le _, by omega⟩

/-- The region's result array ends at the kernel's term of the two input arrays as the region found them. -/
theorem arrAt_v7 (c : Dev nD) : (dat1 Wm c).arrAt 2 cfg1.N = out7 Wm c :=
  (dat1 Wm c).arrAt_eq_of_cover 2 (out7 Wm c) (fun t _ => flushed_eq Wm c t) cover
/-- The input arrays reach its exit as it found them. -/
theorem arrAt_v6 (c : Dev nD) : (dat1 Wm c).arrAt 0 cfg1.N = Wm ((cfg1.win 0).arr.view.loc (c : Thread nD τ)) := (dat1 Wm c).arrAt_in 0 rfl _
theorem arrAt_arg3 (c : Dev nD) : (dat1 Wm c).arrAt 1 cfg1.N = Wm ((cfg1.win 1).arr.view.loc (c : Thread nD τ)) := (dat1 Wm c).arrAt_in 1 rfl _

/-! ## The region as one step of @main -/

/-- The unscoped buffers as the region finds them, -/
abbrev Win (c : Dev nD) : (b : Ref sig .tc) → Buf (Elt F) ((c : Thread nD τ).loc b) := fun b => Wm ((c : Thread nD τ).loc b)
/-- and as it leaves them: the result array rewritten. -/
def Wout (c : Dev nD) : (b : Ref sig .tc) → Buf (Elt F) ((c : Thread nD τ).loc b) := Function.update (Win Wm c) main_v7 (out7 Wm c)

theorem arrays_eq (c : Dev nD) (Fa) : ((pdats (F := F) Wm 0 c).arrays Fa : sProp 𝕄)
    = iprop((((c : Thread nD τ).loc main_v6) ↦{fullShare} Fa 0) ∗ (((c : Thread nD τ).loc main_arg3) ↦{fullShare} Fa 1) ∗ (((c : Thread nD τ).loc main_v7) ↦{fullShare} Fa 2)) := by
  rw [Pipeline.arrays_eq (Pipeline.pin (pcfgs (F := F)) adm) (pdats Wm) 0 c launch1.arr_whole ((pdats Wm 0 c).share_full fun _ => rfl) Fa, bigSep_W1]

/-- The region: the three arrays into the pipeline, the other buffers bypassing; the core owes nothing throughout and its
    recorded waits stay at or below the level the launch allows. -/
def reg1 : Pipeline.RegionSeg (pcfgs (F := F)) adm (pdats Wm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation Wm c).loose
  hwaits c := Pipeline.hwaits_of_owed_zero (pcfgs (F := F)) adm (pdats Wm) none (K (F := F)).L (K (F := F)).lev 0 (fun _ _ => rfl) c
  pre c := iprop(unscopedBufs c (Win Wm c) ∗ owesTc (F := F) c)
  post c := iprop(unscopedBufs c (Wout Wm c) ∗ owesTc (F := F) c)
  X _ := iprop(emp)
  Y _ := iprop(emp)
  Z c := Pipeline.unscopedRest (Ix := HIx 1) (Name := ℕ) (U := UU) (Lvl := ℕ) spec1 c (Win Wm c)
  hentry c := by
    rw [Pipeline.ownSems0_none]
    have hsplit := Pipeline.arrays_of_unscopedBufs (pcfgs (F := F)) adm (pdats Wm) launch1.win launch1.arr_whole c
      ((pdats Wm 0 c).share_full fun _ => rfl) (Win Wm c) fun _ => rfl
    unfold owesTc
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by iintro -; iempintro
  hout c := by
    rw [Pipeline.ownSems0_none, scopedRest1_eq]
    iintro -; isplitr; · iempintro
    isplitr <;> iempintro
  hexit c := by
    have hjoin := Pipeline.unscopedBufs_of_arrays (pcfgs (F := F)) adm launch1.win launch1.arr_whole c (pdats Wm)
      ((pdats Wm 0 c).share_full fun _ => rfl) (Win Wm c) (Wout Wm c) ((pdats Wm 0 c).arrAt · (Pipeline.pin (pcfgs (F := F)) adm 0).N)
      (fun w => by
        match w with
        | ⟨0, _⟩ => exact (arrAt_v6 Wm c).trans (show Win Wm c main_v6 = Wout Wm c main_v6 from
            (Function.update_of_ne (show (main_v6 : Ref sig .tc) ≠ main_v7 by decide) _ _).symm)
        | ⟨1, _⟩ => exact (arrAt_arg3 Wm c).trans (show Win Wm c main_arg3 = Wout Wm c main_arg3 from
            (Function.update_of_ne (show (main_arg3 : Ref sig .tc) ≠ main_v7 by decide) _ _).symm)
        | ⟨2, _⟩ => exact (arrAt_v7 Wm c).trans (show out7 Wm c = Wout Wm c main_v7 from by unfold Wout; rw [Function.update_self]))
      (fun b hb => show Wout Wm c b = Win Wm c b from
        Function.update_of_ne (fun e : b = main_v7 => hb (by rw [e]; exact Finset.mem_image.mpr ⟨2, Finset.mem_univ _, rfl⟩)) _ _)
    unfold owesTc
    iintro ⟨Ha, HO, -, Hr⟩
    imodintro
    isplitl [Ha Hr]
    · iapply hjoin; isplitl [Ha]; · iexact Ha
      iexact Hr
    unfold Pipeline.Dat.owesAt Pipeline.owesWithin
    icases HO with ⟨%W, %hW, HO⟩
    iexists W; isplitr
    · ipureintro; intro p hp
      rcases hW hp with h | ⟨w, s, rfl⟩
      · exact h
      · show (K (F := F)).lev _ none ≤ 8 * 1
        rw [SparseCore.Cfg.lev_none]; exact Nat.zero_le _
    · iexact HO

end Cert.Proof.KLaunch

end
-- ==== Proof.Launch.lean ====
/-
  The launch of the first program: the launch element of the ghost state, @main on the TensorCore, and the run of all
  thirty-five threads.

  @main runs seven host operations on arrays it holds whole, hands four of them to the SparseCores and gets them back
  (the partial sums rewritten), reshapes the partial sums, runs its own kernel region on them and the bias, and reshapes
  the result. Nothing writes an argument array. The SparseCore side enters through its payload record and the two
  obligations about the tile body, which are assumed here.
-/
import proofs.«207464_g62843961475156_cont_9to1_m_1121_6_alg».proof.Proof.HostOps
import proofs.«207464_g62843961475156_cont_9to1_m_1121_6_alg».proof.Proof.TcRegion

noncomputable section

namespace Cert.Proof.KLaunch

open Cert.KernelIdeal Cert.KernelIdeal.Gen
open Idealize.ShloMosaic Idealize.ShloMosaic.ValueIdx
open Idealize.ShloMosaic.TcCoe
open Idealize.ShloMosaic.SparseCore (S V T)
open Idealize.ShloMosaic.SparseCore.Cfg (HIx Pay callsFrom)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within after)
open Idealize.ShloMosaic.Pipeline (ucRefs unscopedBufs_held sub_ucRefs)

variable {F : FTy → Type} [FloatOps F]

local notation "𝕄" => MT nD τ sig (HIx 1) (Elt F) ℕ UU ℕ

/-! ## The launch element -/

/-- The launch element: the handshakes' rounds at their cells, the staging cells' rounds at theirs, no counter. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What the launch leaves the TensorCore of `d` for its kernel region: the staging cells' ghost state and the duty
    tokens of the staging copies. -/
def G (d : Dev nD) : sProp 𝕄 :=
  iprop((bigSep Finset.univ fun p : Fin 1 => Pipeline.cellsGhost (Pipeline.pin (pcfgs (F := F)) adm) (EP (F := F)) p d)
    ∗ bigSep Finset.univ fun p : Fin 1 => (Pipeline.toksInit (Pipeline.pin (pcfgs (F := F)) adm) (EP (F := F)) p d : sProp 𝕄))

/-- Of it, the one pipeline's summands. -/
theorem G_elim (d : Dev nD) : (G (F := F) d : sProp 𝕄)
    ⊢ iprop(Pipeline.cellsGhost (Pipeline.pin (pcfgs (F := F)) adm) (EP (F := F)) 0 d ∗ Pipeline.toksInit (Pipeline.pin (pcfgs (F := F)) adm) (EP (F := F)) 0 d) := by
  unfold G
  rw [show (Finset.univ : Finset (Fin 1)) = {0} from rfl, bigSep_singleton, bigSep_singleton]

omit [FloatOps F] in
theorem bigSep_emp' {I : Type} (s : Finset I) : (bigSep s fun _ => iprop(emp)) = (iprop(emp) : sProp 𝕄) := bigSep_emp_const s

variable (P : PayT F)

theorem hu₀ (hx : P.x = fun _ _ => iprop(emp)) : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  iintro Hu
  ihave H := (ownU_triple _ _ _) $$ Hu
  icases H with ⟨HH, HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · unfold G; rw [bigSep_sep']; isplitl [Hg]; · iexact Hg
    iexact Ht
  rw [hx]; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem reg1_pre (Wm : (ℓ : Loc nD τ sig) → Buf (Elt F) ℓ) (c : Dev nD) :
    ((reg1 (F := F) Wm).pre c : sProp 𝕄) = iprop(unscopedBufs c (Win Wm c) ∗ owesTc (F := F) c) := rfl
theorem reg1_post (Wm : (ℓ : Loc nD τ sig) → Buf (Elt F) ℓ) (c : Dev nD) :
    ((reg1 (F := F) Wm).post c : sProp 𝕄) = iprop(unscopedBufs c (Wout Wm c) ∗ owesTc (F := F) c) := rfl

/-! ## The TensorCore's handshake state after the one call -/

/-- The TensorCore's handshake state before call `1` (there is none: after the last call) without what it owes. -/
def tcRest (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (callsFrom 1) fun q : Fin 1 => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

/-- After the last call the TensorCore owes nothing. -/
theorem tcSt_one (d : Dev nD) :
    ((K (F := F)).tcSt (EH (F := F)) d 1 : sProp 𝕄) = iprop(owesTc (F := F) d ∗ tcRest (F := F) d) := by
  unfold SparseCore.Cfg.tcSt tcRest owesTc
  rw [(K (F := F)).Otc_end d (le_refl 1)]

/-! ## The arrays @main passes around -/

variable (m : (ℓ : Loc nD τ sig) → Buf (Elt F) ℓ) (ρ : Dev nD → PrngReg)

/-- The memory as the TensorCore's region finds it, when the call left `fs c` in device `c`'s partial sums. -/
def Wmem (fs : (c : Dev nD) → Buf (Elt F) (v5Loc c)) : (ℓ : Loc nD τ sig) → Buf (Elt F) ℓ := fun ℓ => V6 m ℓ.1 (fs ℓ.1) ℓ.2

/-- What the region leaves in its result array. -/
def g7 (d : Dev nD) (f : Buf (Elt F) (v5Loc d)) : Buf (Elt F) (v7Loc d) :=
  combineOf (V6 m d f (Proc.devRef .tc main_v6)) (V6 m d f (Proc.devRef .tc main_arg3))
/-- The device's buffers at the end. -/
def Vend (d : Dev nD) (f : Buf (Elt F) (v5Loc d)) : Valuation τ sig (Elt F) := V8 m d f (g7 m d f)
/-- The result of @main, as a function of the arguments and of what the call left in the partial sums. -/
def outOf (d : Dev nD) (f : Buf (Elt F) (v5Loc d)) : Buf (Elt F) (v8Loc d) := Vend m d f (Proc.devRef .tc main_v8)

theorem V6_arg3 (d : Dev nD) (f : Buf (Elt F) (v5Loc d)) : V6 m d f (Proc.devRef .tc main_arg3) = m ((SparseCore.T d).loc main_arg3) := by
  unfold V6 Vcall
  rw [StableHlo.reshape_result_ne _ _ _ _ _ _ _ (by decide), Function.update_of_ne (by decide), Vpre_arg3]

/-- The result, spelt out: the partial sums as 328 rows of 4096, their column sums plus the bias through the logistic
    function, as a column. -/
theorem outOf_eq (d : Dev nD) (f : Buf (Elt F) (v5Loc d)) :
    outOf m d f = fun i => shapeCast S4096x1
      (combineOf (fun i => shapeCast S328x4096 f shapeCasts_S1343488_S328x4096 i) (m ((SparseCore.T d).loc main_arg3))) shapeCasts_S4096_S4096x1 i := by
  unfold outOf Vend
  rw [V8_v8]
  unfold g7
  rw [V6_v6, V6_arg3]

/-- The buffers the call takes and gives back. -/
abbrev callRefs : Finset (DevRef τ sig) :=
  {Proc.devRef .tc main_v1, Proc.devRef .tc main_v2, Proc.devRef .tc main_v4, Proc.devRef .tc main_v5}
theorem callRefs_sub : callRefs ⊆ ucRefs τ sig := by decide

omit [FloatOps F] in
theorem held_callRefs (d : Dev nD) (W : Valuation τ sig (Elt F)) :
    (held (SparseCore.T d) callRefs W : sProp 𝕄)
      = iprop(v1Pts d (W (Proc.devRef .tc main_v1)) ∗ v2Pts d (W (Proc.devRef .tc main_v2)) ∗ v4Pts d (W (Proc.devRef .tc main_v4)) ∗ v5Pts d (W (Proc.devRef .tc main_v5))) := by
  unfold held callRefs
  rw [SparseCore.bigSep_insert' (by decide), SparseCore.bigSep_insert' (by decide), SparseCore.bigSep_insert' (by decide), bigSep_singleton]

/-- The buffers the claim reads at the end: the result and the four arguments. -/
abbrev finRefs : Finset (DevRef τ sig) :=
  {Proc.devRef .tc main_v8, Proc.devRef .tc main_arg0, Proc.devRef .tc main_arg1, Proc.devRef .tc main_arg2, Proc.devRef .tc main_arg3}
theorem finRefs_sub : finRefs ⊆ ucRefs τ sig := by decide

omit [FloatOps F] in
theorem held_finRefs (d : Dev nD) (W : Valuation τ sig (Elt F)) :
    (held (SparseCore.T d) finRefs W : sProp 𝕄)
      = iprop(((d, Proc.devRef .tc main_v8) ↦{fullShare} W (Proc.devRef .tc main_v8)) ∗ ((d, Proc.devRef .tc main_arg0) ↦{fullShare} W (Proc.devRef .tc main_arg0))
          ∗ ((d, Proc.devRef .tc main_arg1) ↦{fullShare} W (Proc.devRef .tc main_arg1)) ∗ ((d, Proc.devRef .tc main_arg2) ↦{fullShare} W (Proc.devRef .tc main_arg2))
          ∗ ((d, Proc.devRef .tc main_arg3) ↦{fullShare} W (Proc.devRef .tc main_arg3))) := by
  unfold held finRefs
  rw [SparseCore.bigSep_insert' (by decide), SparseCore.bigSep_insert' (by decide), SparseCore.bigSep_insert' (by decide), SparseCore.bigSep_insert' (by decide), bigSep_singleton]

/-- Before the call: the four arrays out of the buffers at `Vpre`, the partial sums at what they hold. -/
theorem held_before_call (d : Dev nD) :
    (held (SparseCore.T d) callRefs (Vpre m d) : sProp 𝕄) ⊢ callTakes d (xt m d) (wf m d) (wl m d) := by
  rw [held_callRefs]
  unfold xt wf wl
  iintro ⟨H1, H2, H4, H5⟩
  isplitl [H1]; · iexact H1
  isplitl [H2]; · iexact H2
  isplitl [H4]; · iexact H4
  iexists _; iexact H5

/-- After the call: the four arrays back (the partial sums at `f`) beside the rest are all the buffers at `Vcall`. -/
theorem held_after_call (d : Dev nD) (f : Buf (Elt F) (v5Loc d)) :
    iprop(v1Pts d (xt m d) ∗ v2Pts d (wf m d) ∗ v4Pts d (wl m d) ∗ v5Pts d f ∗ held (SparseCore.T d) (ucRefs τ sig \ callRefs) (Vpre m d))
      ⊢ (held (SparseCore.T d) (ucRefs τ sig) (Vcall m d f) : sProp 𝕄) := by
  rw [held_sub_split (SparseCore.T d) callRefs_sub (Vcall m d f), held_callRefs, Vcall_v5, Vcall_of_ne m d f _ (by decide),
    Vcall_of_ne m d f _ (by decide), Vcall_of_ne m d f _ (by decide),
    held_congr (SparseCore.T d) (V := Vcall m d f) (V' := Vpre m d) fun b hb => Vcall_of_ne m d f b fun e =>
      (Finset.mem_sdiff.mp hb).2 (e ▸ by decide)]
  iintro ⟨H1, H2, H4, H5, Hr⟩
  isplitl [H1 H2 H4 H5]
  · isplitl [H1]; · iexact H1
    isplitl [H2]; · iexact H2
    isplitl [H4]; · iexact H4
    iexact H5
  iexact Hr

/-- The buffers as the region leaves them are the buffers at `V7`. -/
theorem Wout_eq (fs : (c : Dev nD) → Buf (Elt F) (v5Loc c)) (d : Dev nD) :
    Wout (Wmem m fs) d = fun b => V7 m d (fs d) (g7 m d (fs d)) (Proc.devRef .tc b) := by
  funext b
  unfold Wout V7
  by_cases h : b = main_v7
  · subst h; rw [Function.update_self, Function.update_self]; rfl
  · rw [Function.update_of_ne h, Function.update_of_ne (StableHlo.devRef_ne_of_ne h)]; rfl

/-! ## @main on the TensorCore -/

theorem opT_sub : (opT (F := F)).bufs ⊆ ucRefs τ sig := sub_ucRefs _ (StableHlo.unary_bufs_sub _ _ _ _ _)
theorem opR1_sub : (opR1 (F := F)).bufs ⊆ ucRefs τ sig := sub_ucRefs _ (StableHlo.reshape_bufs_sub _ _ _ _ _ _)
theorem opR2_sub : (opR2 (F := F)).bufs ⊆ ucRefs τ sig := sub_ucRefs _ (StableHlo.reshape_bufs_sub _ _ _ _ _ _)
theorem opR3_sub : (opR3 (F := F)).bufs ⊆ ucRefs τ sig := sub_ucRefs _ (StableHlo.reshape_bufs_sub _ _ _ _ _ _)
theorem opC_sub : (opC (F := F)).bufs ⊆ ucRefs τ sig := sub_ucRefs _ (StableHlo.nullary_bufs_sub _ _ _)
theorem opP0_sub : (opP0 (F := F)).bufs ⊆ ucRefs τ sig := sub_ucRefs _ (StableHlo.unary_bufs_sub _ _ _ _ _)
theorem opP1_sub : (opP1 (F := F)).bufs ⊆ ucRefs τ sig := sub_ucRefs _ (StableHlo.binary_bufs_sub _ _ _ _ _ _ _)
theorem opR6_sub : (opR6 (F := F)).bufs ⊆ ucRefs τ sig := sub_ucRefs _ (StableHlo.reshape_bufs_sub _ _ _ _ _ _)
theorem opR8_sub : (opR8 (F := F)).bufs ⊆ ucRefs τ sig := sub_ucRefs _ (StableHlo.reshape_bufs_sub _ _ _ _ _ _)

/-- The seven operations' results composed are the buffers after them. -/
theorem Vpre_eq (d : Dev nD) : (opP1 (F := F)).result ((opP0 (F := F)).result ((opC (F := F)).result ((opR3 (F := F)).result ((opR2 (F := F)).result
    ((opR1 (F := F)).result ((opT (F := F)).result (V0 m d))))))) = Vpre m d := rfl

variable (R : (d : Dev nD) → Buf (Elt F) (v5Loc d) → Prop)

/-- What @main leaves the claim: for some contents `f` the call could leave in the partial sums (`R`), the result and the
    four arguments at the end. -/
def FIN (d : Dev nD) : sProp 𝕄 := iprop(∃ f, ⌜R d f⌝ ∗ held (SparseCore.T d) finRefs (Vend m d f))

variable (Rem : Dev nD → sProp (MT nD τ sig (HIx 1) (Elt F) ℕ UU ℕ))

set_option hygiene false in
/-- One host operation over all the unscoped buffers held. -/
local macro "host_step" op:term "," h:term : tactic => `(tactic| (
  iapply (wp_hlo_within 𝒱 (SparseCore.T d) none Set.univ (op := $op) (S := ucRefs τ sig) $h) $$ [Hb Hheld]
  · isplitl [Hb]; · iexact Hb
    iexact Hheld
  iintro ⟨Hb, Hheld⟩
  rw [wp_ret]; imodintro))

set_option backward.isDefEq.respectTransparency.types false in
/-- @main on device `d`'s TensorCore. -/
theorem hmain
    (hst : ∀ d, callTakes d (xt m d) (wf m d) (wl m d) ⊢ iprop(Rem d ∗ bigSep Finset.univ fun c : Fin ((K (F := F)).nCore 0) => P.st 0 d c))
    (hdn : ∀ d, iprop(Rem d ∗ bigSep Finset.univ fun c : Fin ((K (F := F)).nCore 0) => P.dn 0 d c)
      ⊢ iprop(v1Pts d (xt m d) ∗ v2Pts d (wf m d) ∗ v4Pts d (wl m d) ∗ ∃ f, ⌜R d f⌝ ∗ v5Pts d f))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R d) := by
  unfold SparseCore.Cfg.tcRes
  rw [show (unscopedBufs d (fun b => m ((SparseCore.T d).loc b)) : sProp 𝕄) = held (SparseCore.T d) (ucRefs τ sig) (V0 m d)
    from unscopedBufs_held d (V0 m d)]
  simp only [main, fn_pad.body, wp_bind, wp_pure]
  iintro ⟨#Hctx, Hst, ⟨Hb, Hheld, -, -⟩, HG⟩
  -- the seven host operations
  host_step opT, opT_sub
  host_step opR1, opR1_sub
  host_step opR2, opR2_sub
  host_step opR3, opR3_sub
  host_step opC, opC_sub
  host_step opP0, opP0_sub
  host_step opP1, opP1_sub
  rw [Vpre_eq m d]
  -- the call: the four arrays out and back
  ihave Hh := (Entails.of_eq (held_sub_split (SparseCore.T d) callRefs_sub (Vpre m d))) $$ Hheld
  icases Hh with ⟨Hcall, Hrest⟩
  ihave Hc := (held_before_call m d) $$ Hcall
  ihave Hc' := (hst d) $$ Hc
  icases Hc' with ⟨Hrem, Hcst⟩
  iapply ((K (F := F)).wp_run (D (F := F)) 𝒱 (EH := EH) (P := P) κ d 0) $$ [Hst Hcst Hb Hrest Hrem HG]
  isplitr; · iexact Hctx
  isplitl [Hst]; · iexact Hst
  isplitl [Hcst]; · iexact Hcst
  iintro ⟨Hst, Hdn⟩
  ihave Hdn' := (hdn d) $$ [Hrem Hdn]
  · isplitl [Hrem]; · iexact Hrem
    iexact Hdn
  icases Hdn' with ⟨H1, H2, H4, %f, %hR, H5⟩
  ihave Hheld := (held_after_call m d f) $$ [H1 H2 H4 H5 Hrest]
  · isplitl [H1]; · iexact H1
    isplitl [H2]; · iexact H2
    isplitl [H4]; · iexact H4
    isplitl [H5]; · iexact H5
    iexact Hrest
  -- the reshape of the partial sums
  host_step opR6, opR6_sub
  ihave Hheld := (Entails.of_eq (show (held (SparseCore.T d) (ucRefs τ sig) ((opR6 (F := F)).result (Vcall m d f)) : sProp 𝕄) = unscopedBufs d (Win (Wmem m fun _ => f) d)
    from (unscopedBufs_held d (V6 m d f)).symm)) $$ Hheld
  -- the TensorCore's own region
  ihave Hst' := (Entails.of_eq (show ((K (F := F)).tcSt (EH (F := F)) d ((0 : Fin 1).val + 1) : sProp 𝕄) = _ from tcSt_one (F := F) d)) $$ Hst
  icases Hst' with ⟨HO, Htr⟩
  ihave Hlev := (SparseCore.Cfg.ctx_levAts κ) $$ Hctx
  ihave HG' := (G_elim (F := F) d) $$ HG
  icases HG' with ⟨Hg, Ht⟩
  rw [show (Prog.lift (TpuEff.customCall (SparseCore.inner (Pipeline.entry 0)) ()) : Prog (TpuEff nD τ sig (Elt F) (SparseCore.Sig (ΛP (F := F)) 1) .tc) PUnit)
    = SparseCore.liftProg (.op (.customCall (Pipeline.entry 0) ()) Prog.ret) from rfl]
  iapply ((K (F := F)).wp_liftProg (D (F := F)) 𝒱 (SparseCore.T d) Set.univ none
    (.op (.customCall (Pipeline.entry 0) ()) Prog.ret) _)
  iapply (Pipeline.RegionSeg.wp (pcfgs (F := F)) adm (pdats (Wmem m fun _ => f)) none cellOf_inj (EP (F := F)) defs₀ 𝒱₀
    (K (F := F)).L (K (F := F)).lev (reg1 (Wmem m fun _ => f)) d none (fun u hu => by cases hu) Prog.ret _) $$ [Hb Hheld HO Hlev Hg Ht Htr]
  rw [reg1_pre, reg1_post]
  isplitr [Hb Hheld HO Hlev Hg Ht]
  swap
  · isplitl [Hb]; · iexact Hb
    isplitl [Hheld HO]
    · isplitl [Hheld]; · iexact Hheld
      iexact HO
    isplitl [Hlev]; · iexact Hlev
    isplitl [Hg]; · iexact Hg
    iexact Ht
  iintro ⟨Hb, Hpost⟩
  icases Hpost with ⟨Hub, HO⟩
  rw [wp_ret]; imodintro
  ihave Hheld := (Entails.of_eq (show (unscopedBufs d (Wout (Wmem m fun _ => f) d) : sProp 𝕄) = held (SparseCore.T d) (ucRefs τ sig) (V7 m d f (g7 m d f))
    from by rw [Wout_eq m (fun _ => f) d]; exact unscopedBufs_held d (V7 m d f (g7 m d f)))) $$ Hub
  -- the last reshape
  host_step opR8, opR8_sub
  imodintro
  isplitl [HO Htr]
  · iapply (Entails.of_eq (tcSt_one (F := F) d).symm)
    isplitl [HO]; · iexact HO
    iexact Htr
  unfold FIN
  iexists f; isplitr; · ipureintro; exact hR
  ihave Hh := (Entails.of_eq (show (held (SparseCore.T d) (ucRefs τ sig) ((opR8 (F := F)).result (V7 m d f (g7 m d f))) : sProp 𝕄) = _
    from held_sub_split (SparseCore.T d) finRefs_sub (Vend m d f))) $$ Hheld
  icases Hh with ⟨Hfin, -⟩
  iexact Hfin

/-! ## Reading the final memory -/

theorem Vend_arg0 (d : Dev nD) (f : Buf (Elt F) (v5Loc d)) : Vend m d f (Proc.devRef .tc main_arg0) = m ((SparseCore.T d).loc main_arg0) :=
  (V8_of_ne m d f _ main_arg0 (by decide) (by decide) (by decide) (by decide)).trans (Vpre_arg0 m d)
theorem Vend_arg1 (d : Dev nD) (f : Buf (Elt F) (v5Loc d)) : Vend m d f (Proc.devRef .tc main_arg1) = m ((SparseCore.T d).loc main_arg1) :=
  (V8_of_ne m d f _ main_arg1 (by decide) (by decide) (by decide) (by decide)).trans (Vpre_arg1 m d)
theorem Vend_arg2 (d : Dev nD) (f : Buf (Elt F) (v5Loc d)) : Vend m d f (Proc.devRef .tc main_arg2) = m ((SparseCore.T d).loc main_arg2) :=
  (V8_of_ne m d f _ main_arg2 (by decide) (by decide) (by decide) (by decide)).trans (Vpre_arg2 m d)
theorem Vend_arg3 (d : Dev nD) (f : Buf (Elt F) (v5Loc d)) : Vend m d f (Proc.devRef .tc main_arg3) = m ((SparseCore.T d).loc main_arg3) :=
  (V8_of_ne m d f _ main_arg3 (by decide) (by decide) (by decide) (by decide)).trans (Vpre_arg3 m d)

/-- What the final memory of device `d` says: the result is @main's function of the arguments and of some contents the
    call could leave in the partial sums; the arguments are as launched. -/
def fq (d : Dev nD) (s' : Phys nD τ sig (Elt F)) : Prop :=
  (∃ f, R d f ∧ s'.mem.mem (v8Loc d) = outOf m d f)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)

theorem hfin (d : Dev nD) (s' : Phys nD τ sig (Elt F)) : iprop(FIN m R d ∗ SI s') ⊢ (⌜fq m R d s'⌝ : sProp 𝕄) := by
  unfold FIN
  iintro ⟨⟨%f, %hR, Hh⟩, HSI⟩
  ihave Hh' := (Entails.of_eq (held_finRefs (F := F) d (Vend m d f))) $$ Hh
  icases Hh' with ⟨H8, H0, H1, H2, H3⟩
  icombine HSI H8 gives %h8
  icombine HSI H0 gives %h0
  icombine HSI H1 gives %h1
  icombine HSI H2 gives %h2
  icombine HSI H3 gives %h3
  ipureintro
  exact ⟨⟨f, hR, Buf.eq_of_forall_mem_univ h8⟩, (Buf.eq_of_forall_mem_univ h0).trans (Vend_arg0 m d f),
    (Buf.eq_of_forall_mem_univ h1).trans (Vend_arg1 m d f), (Buf.eq_of_forall_mem_univ h2).trans (Vend_arg2 m d f),
    (Buf.eq_of_forall_mem_univ h3).trans (Vend_arg3 m d f)⟩

/-! ## The program's run -/

/-- The run's post: on every device the result is @main's function of the arguments and of some contents of the partial
    sums the call could leave (`R`), and the four arguments are as launched. -/
def QC : PUnit × MemSt nD τ sig (Elt F) → Prop := fun r => ∀ c : Dev nD,
  (∃ f, R c f ∧ r.2.mem (v8Loc c) = outOf m c f)
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)

/-- Every weakly fair execution of the thirty-five threads terminates, nothing faulting, in a memory satisfying `QC`:
    from the tile body's obligation, the split of a SparseCore's operands among its tiles, and what the call takes from
    and returns to the TensorCore. -/
theorem run_main [∀ e, Nonempty (Elt F e)] [P.IsStorable]
    (hx : P.x = fun _ _ => iprop(emp)) (hheld : P.held = ∅)
    (tileObl : (K (F := F)).TileObl (D (F := F)) 𝒱 P v₀ 0) (vecSplit : (K (F := F)).VecSplit' P 0)
    (hst : ∀ d, callTakes d (xt m d) (wf m d) (wl m d) ⊢ iprop(Rem d ∗ bigSep Finset.univ fun c : Fin ((K (F := F)).nCore 0) => P.st 0 d c))
    (hdn : ∀ d, iprop(Rem d ∗ bigSep Finset.univ fun c : Fin ((K (F := F)).nCore 0) => P.dn 0 d c)
      ⊢ iprop(v1Pts d (xt m d) ∗ v2Pts d (wf m d) ∗ v4Pts d (wl m d) ∗ ∃ f, ⌜R d f⌝ ∗ v5Pts d f)) :
    θ_run (Cert.KernelIdeal.defs (F := F)) (Cert.KernelIdeal.threads (F := F)) ⟨m, fun _ => 0, ρ⟩ (QC m R) :=
  SparseCore.Cfg.θ_run_sc (K := K (F := F)) (D := D (F := F)) (𝒱 := 𝒱) (EH := EH) (P := P) facts v₀
    (fun q hq => match q with | 0 => absurd hq (show (scKind 0 : Kind) ≠ .scScalar by decide))
    (fun q _ => match q with | 0 => tileObl)
    (fun q _ => match q with | 0 => SparseCore.Cfg.VecSplit.of_plain vecSplit)
    m ρ main (G (F := F)) (FIN m R) (u₀ (F := F)) (sep_elim_left.trans (hu₀ P hx)) (hmain P m ρ R Rem hst hdn) (fq m R) (hfin m R) (QC m R) (fun _ h => h)
    (hheld := hheld)

omit [FloatOps F] in
theorem callTakes_true (d : Dev nD) (x1 : Buf (Elt F) (v1Loc d)) (w2 : Buf (Elt F) (v2Loc d)) (w4 : Buf (Elt F) (v4Loc d)) :
    (callTakes d x1 w2 w4 : sProp 𝕄) ⊢ iprop(v1Pts d x1 ∗ v2Pts d w2 ∗ v4Pts d w4 ∗ ∃ f, ⌜True⌝ ∗ v5Pts d f) := by
  iintro ⟨H1, H2, H4, %f, H5⟩
  isplitl [H1]; · iexact H1
  isplitl [H2]; · iexact H2
  isplitl [H4]; · iexact H4
  iexists f; isplitr; · ipureintro; trivial
  iexact H5

/-- The frame variant: the call returns the partial sums at contents not named. -/
theorem run_frame [∀ e, Nonempty (Elt F e)] [P.IsStorable]
    (hx : P.x = fun _ _ => iprop(emp)) (hheld : P.held = ∅)
    (tileObl : (K (F := F)).TileObl (D (F := F)) 𝒱 P v₀ 0) (vecSplit : (K (F := F)).VecSplit' P 0)
    (hst : ∀ d, callTakes d (xt m d) (wf m d) (wl m d) ⊢ iprop(Rem d ∗ bigSep Finset.univ fun c : Fin ((K (F := F)).nCore 0) => P.st 0 d c))
    (hdn : ∀ d, iprop(Rem d ∗ bigSep Finset.univ fun c : Fin ((K (F := F)).nCore 0) => P.dn 0 d c) ⊢ callTakes d (xt m d) (wf m d) (wl m d)) :
    θ_run (Cert.KernelIdeal.defs (F := F)) (Cert.KernelIdeal.threads (F := F)) ⟨m, fun _ => 0, ρ⟩ (fun r => ∀ c : Dev nD,
      r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)) :=
  (θ_run (Cert.KernelIdeal.defs (F := F)) _ _).mono (fun _ h c => (h c).2)
    (run_main P m ρ (fun _ _ => True) Rem hx hheld tileObl vecSplit hst fun d => (hdn d).trans (callTakes_true d _ _ _))

end Cert.Proof.KLaunch

end
-- ==== Proof.TileDefs.lean ====
import Idealize.ShloMosaic.Lib.SparseCore.Launch
import Idealize.ShloMosaic.Lib.StableHlo.Run
import Idealize.ShloMosaic.Lib.Pipeline.Kit
import Idealize.ShloMosaic.Lib.Tactic
import proofs.«207464_g62843961475156_cont_9to1_m_1121_6_alg».proof.Proof.Gen.KernelIdeal
import proofs.«207464_g62843961475156_cont_9to1_m_1121_6_alg».proof.Proof.Gen.KernelIdeal.Skeleton
import proofs.«207464_g62843961475156_cont_9to1_m_1121_6_alg».proof.Proof.Ghost

noncomputable section

namespace Cert.Proof.KTile

open Cert.KernelIdeal Cert.KernelIdeal.Gen Cert.Proof.KLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

local notation "xtW" => (Memref.whole Cert.KernelIdeal.main_v1_scv : Memref Cert.KernelIdeal.sig Kind.scVector Space.hbm Cert.KernelIdeal.S106496 EltTy.i32)
local notation "wfW" => (Memref.whole Cert.KernelIdeal.main_v2_scv : Memref Cert.KernelIdeal.sig Kind.scVector Space.hbm Cert.KernelIdeal.S10816000 EltTy.f32)
local notation "wlW" => (Memref.whole Cert.KernelIdeal.main_v4_scv : Memref Cert.KernelIdeal.sig Kind.scVector Space.hbm Cert.KernelIdeal.S26112 EltTy.f32)
local notation "ptW" => (Memref.whole Cert.KernelIdeal.main_v5_scv : Memref Cert.KernelIdeal.sig Kind.scVector Space.hbm Cert.KernelIdeal.S1343488 EltTy.f32)
local notation "s0W" => (Memref.whole Cert.KernelIdeal.cc0_scratch0 : Memref Cert.KernelIdeal.sig Kind.scVector Space.vmem Cert.KernelIdeal.S16000 EltTy.f32)
local notation "s1W" => (Memref.whole Cert.KernelIdeal.cc0_scratch1 : Memref Cert.KernelIdeal.sig Kind.scVector Space.vmem Cert.KernelIdeal.S16000 EltTy.f32)
local notation "s2W" => (Memref.whole Cert.KernelIdeal.cc0_scratch2 : Memref Cert.KernelIdeal.sig Kind.scVector Space.vmem Cert.KernelIdeal.S4096 EltTy.i32)
local notation "s3W" => (Memref.whole Cert.KernelIdeal.cc0_scratch3 : Memref Cert.KernelIdeal.sig Kind.scVector Space.vmem Cert.KernelIdeal.S4096 EltTy.i32)
local notation "s4W" => (Memref.whole Cert.KernelIdeal.cc0_scratch4 : Memref Cert.KernelIdeal.sig Kind.scVector Space.vmem Cert.KernelIdeal.S4096 EltTy.f32)
local notation "s5W" => (Memref.whole Cert.KernelIdeal.cc0_scratch5 : Memref Cert.KernelIdeal.sig Kind.scVector Space.vmem Cert.KernelIdeal.S26112 EltTy.f32)
local notation "s6W" => (Memref.whole Cert.KernelIdeal.cc0_scratch6 : Memref Cert.KernelIdeal.sig Kind.scVector Space.vmem Cert.KernelIdeal.S3328 EltTy.i32)
local notation "s7W" => (Memref.whole Cert.KernelIdeal.cc0_scratch7 : Memref Cert.KernelIdeal.sig Kind.scVector Space.vmem Cert.KernelIdeal.S128 EltTy.f32)
local notation "s8W" => (Memref.whole Cert.KernelIdeal.cc0_scratch8 : Memref Cert.KernelIdeal.sig Kind.scVector Space.vmem Cert.KernelIdeal.S128 EltTy.f32)

/-- The three 128-word pieces of the rows 325, 326, 327 this subcore writes, as the program slices them. -/
abbrev ptRow0 : Memref sig .scVector .hbm S128 .f32 := (ptW).slice (Rect.unit (s := S1343488) (k0_off29 L 1331200#32) S128.size (k0_off29_inb L 0)) (fun _ => rfl)
abbrev ptRow1 : Memref sig .scVector .hbm S128 .f32 := (ptW).slice (Rect.unit (s := S1343488) (k0_off29 L 1335296#32) S128.size (k0_off29_inb L 1)) (fun _ => rfl)
abbrev ptRow2 : Memref sig .scVector .hbm S128 .f32 := (ptW).slice (Rect.unit (s := S1343488) (k0_off29 L 1339392#32) S128.size (k0_off29_inb L 2)) (fun _ => rfl)
/-- The 4096-word row of the task of trip `t`. -/
abbrev ptTask (t : Fin (k0_t2_loop L).trips) : Memref sig .scVector .hbm S4096 .f32 := (ptW).slice (Rect.unit (s := S1343488) (k0_off36 L t) S4096.size (k0_off36_inb L t)) (fun _ => rfl)

/-- What one vector subcore owns of the result array: its three 128-word pieces of the last three rows and the rows of
    its tasks, each at some contents. -/
def tilePieces : sProp 𝕄 :=
  iprop((∃ f, (ptRow0 L).view.loc (thr d L) ↦[(ptRow0 L).view.set]{fullShare} f) ∗ (∃ f, (ptRow1 L).view.loc (thr d L) ↦[(ptRow1 L).view.set]{fullShare} f) ∗ (∃ f, (ptRow2 L).view.loc (thr d L) ↦[(ptRow2 L).view.set]{fullShare} f)
    ∗ bigSep Finset.univ fun t : Fin (k0_t2_loop L).trips => iprop(∃ f, (ptTask L t).view.loc (thr d L) ↦[(ptTask L t).view.set]{fullShare} f))

end Cert.Proof.KTile
end
-- ==== Proof.LibIndexedOps.lean ====
/-
  The SparseCore's indexed load and indexed store as steps of an ordinary run. By definition an indexed load
  (a gather of lanes out of a tile's buffer) is a load of the WHOLE buffer followed by the pure gather of its lanes,
  and an indexed store (a scatter of lanes) is a load of the whole buffer followed by a store of the whole buffer with
  the lanes scattered in. Stated as canonical-name equations of the program, they let a symbolic run that knows how to
  load and store whole buffers pass through any number of indexed loads and stores: the buffer must simply be held
  whole. Stated for every mesh, signature, label set, processor and float instance; both are true by unfolding.
-/
import Idealize.ShloMosaic.Lib.SparseCore
import Idealize.ShloMosaic.Lib.Tactic

noncomputable section

namespace Cert.IndexedOps

open Idealize.ShloMosaic Idealize.ShloMosaic.Tactic Idealize.SL.Sem

variable {nD : Nat} {τ : Topo} {sig : RefSig} {F : FTy → Type} [FloatOps F] {Λ : Labels}

/-- The indexed load is a load of the whole buffer followed by the pure gather of its lanes. -/
@[sl_canon] theorem vectorLoadIdx_eq {p : Proc τ} {s t : Shape} {e : EltTy} (base : Memref sig p.kind .vmem s e)
    (idxs : Fin s.rank → IVec t 32) (h : ∀ a x, (idxs a x).toNat < s.size a) (hl : base.view.Loads) :
    (SparseCore.vectorLoadIdx (nD := nD) (τ := τ) (F := F) (Λ := Λ) base idxs h hl)
      = Prog.op (.load base (.whole s) (View.loadsAt_whole hl)) fun f => .ret (Idealize.ShloMosaic.loadIdx f idxs h) := rfl

/-- The indexed store is a load of the whole buffer and a store of the whole buffer with the lanes scattered in. -/
@[sl_canon] theorem vectorStoreIdx_eq {p : Proc τ} {s : Shape} {e : EltTy} {dd : Fin 1 → Nat} (base : Memref sig p.kind .vmem s e)
    (idxs : Fin s.rank → IVec ⟨1, dd⟩ 32) (v : Vec F ⟨1, dd⟩ e) (mask : IVec ⟨1, dd⟩ 1) (add : Bool)
    (h : ∀ a x, (idxs a x).toNat < s.size a) (hs : (base.access (.whole s)).Stores Finset.univ) :
    (SparseCore.vectorStoreIdx (nD := nD) (τ := τ) (F := F) (Λ := Λ) base idxs v mask add h hs)
      = Prog.op (.load base (.whole s) (View.loadsAt_rect hs.loads)) fun f =>
        Prog.op (.store base (.whole s) (Idealize.ShloMosaic.storeIdx f idxs v mask add h) Finset.univ hs (.inl rfl)) fun _ => .ret ⟨⟩ := rfl

end Cert.IndexedOps

end
-- ==== Proof.LibReadBack.lean ====
/-
  A buffer written by slice stores, read back under a predicate. If every store's payload satisfies a predicate P
  at each of its elements, then so does the buffer at every index some store covers — however many stores, in
  whatever order, whatever was there before. For index scratch written sixteen lanes at a time and then used as
  offsets or addresses: each word's RANGE is what a later indexed copy, load or store asks of it, and it follows
  from the range of each store's lanes without naming the function the stores add up to.
-/
import Idealize.ShloMosaic.Lib.Pipeline.Value
import Idealize.ShloMosaic.Lib.Pipeline.FrameBody

noncomputable section

namespace Cert.ReadBack

open Idealize.ShloMosaic Idealize.ShloMosaic.View

variable {Val : EltTy → Type} {S : Shape} {e : EltTy}

/-- The canonical function of a list of pieces satisfies `P` wherever some piece covers, if every payload does. -/
theorem canon_all [∀ e, Nonempty (Val e)] (P : Val e → Prop) :
    ∀ (L : List (Piece Val S e)) (_ : ∀ p ∈ L, ∀ x : p.1.shape.Idx, P (p.2 x)) (y : S.Idx)
      (_ : ∃ p ∈ L, y ∈ p.1.set), P (canon L y)
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, canon_cons_emb]
      exact hL p (by simp) x
    · rw [canon_cons_of_not_mem _ _ hm]
      refine canon_all P L (fun q hq => hL q (by simp [hq])) y ?_
      obtain ⟨q, hq, hyq⟩ := hy
      rcases List.mem_cons.mp hq with rfl | hq'
      · exact absurd hyq hm
      · exact ⟨q, hq', hyq⟩

/-- Read back through the view: the writes over any start contents, where the pieces cover every index. -/
theorem read_writes_all [∀ e, Nonempty (Val e)] {sig : RefSig} {κ : Kind} {sp : Space} (v : View sig κ sp S e)
    (f : v.ty.Contents Val) (L : List (Piece Val S e)) (hc : ∀ y, ∃ p ∈ L, y ∈ p.1.set) (P : Val e → Prop)
    (hL : ∀ p ∈ L, ∀ x : p.1.shape.Idx, P (p.2 x)) (y : S.Idx) : P (v.read Val (v.writes Val f L) y) := by
  rw [read_writes_eq_canon v f L hc]
  exact canon_all P L hL y (hc y)

end Cert.ReadBack

end
-- ==== Proof.TileFacts.lean ====
/-
  Ranges of index words. A lane word that is at most B stays at most B + c after adding the splat of c, and at most
  B * c after multiplying by the splat of c, as long as no 32-bit wrap occurs; a vector of lane words below N is a
  legal index vector into an axis of extent N.
-/
import Idealize.ShloMosaic.PureOps
import Idealize.ShloMosaic.Lib.ValueIdx

namespace Cert.TileFacts

open Idealize.ShloMosaic

variable {s : Shape}

/-- Adding the splat of `c` to words at most `B`: at most `B + c`, when that does not wrap. -/
theorem addi_bcast_le (v : IVec s 32) (c : BitVec 32) (B : Nat) (hv : ∀ x, (v x).toNat ≤ B) (h : B + c.toNat < 2 ^ 32) :
    ∀ x, (addi v (broadcast s c) x).toNat ≤ B + c.toNat := by
  intro x
  show ((v x) + c).toNat ≤ _
  rw [BitVec.toNat_add]
  have := hv x
  rw [Nat.mod_eq_of_lt (by omega)]
  omega

/-- Multiplying words at most `B` by the splat of `c`: at most `B * c`, when that does not wrap. -/
theorem muli_bcast_le (v : IVec s 32) (c : BitVec 32) (B : Nat) (hv : ∀ x, (v x).toNat ≤ B) (h : B * c.toNat < 2 ^ 32) :
    ∀ x, (muli v (broadcast s c) x).toNat ≤ B * c.toNat := by
  intro x
  show ((v x) * c).toNat ≤ _
  rw [BitVec.toNat_mul]
  have h1 : (v x).toNat * c.toNat ≤ B * c.toNat := Nat.mul_le_mul_right _ (hv x)
  rw [Nat.mod_eq_of_lt (by omega)]
  exact h1

/-- Words at most `B < N` form a legal index vector into an axis of extent `N`. -/
theorem inb_of_le {N : Nat} (v : IVec s 32) (B : Nat) (hv : ∀ x, (v x).toNat ≤ B) (hB : B < N) :
    ∀ (a : Fin 1) (x : s.Idx), ((![v] : Fin 1 → IVec s 32) a x).toNat < (⟨1, ![N]⟩ : Shape).size a := by
  intro a x
  match a with
  | ⟨0, _⟩ => exact Nat.lt_of_le_of_lt (hv x) hB

end Cert.TileFacts
-- ==== Proof.Cover6.lean ====
/-
  Twenty-six consecutive blocks of 128 words tile a line of 3328 words: every index lies in the block numbered by its
  quotient by 128. Stated for any list of written pieces whose rectangles are those blocks (in the order the copies
  were made, last first), whatever their payloads.
-/
import Idealize.ShloMosaic.Lib.Pipeline.Value
import Idealize.ShloMosaic.Lib.Pipeline.FrameBody

noncomputable section

namespace Cert.Cover6

open Idealize.ShloMosaic Idealize.ShloMosaic.View

abbrev S3328 : Shape := ⟨1, ![3328]⟩
abbrev S128 : Shape := ⟨1, ![128]⟩

theorem blk_inb (k : Nat) (hk : k < 26) : ∀ a, (![128 * k] : Fin 1 → Nat) a + S128.size a ≤ S3328.size a := by
  intro a
  match a with
  | ⟨0, _⟩ => show 128 * k + 128 ≤ 3328; omega

/-- Block `k`: words `128 k … 128 k + 127`. -/
def blk (k : Fin 26) : Rect S3328 := Rect.unit (s := S3328) ![128 * k.val] S128.size (blk_inb k.val k.isLt)

/-- The blocks, last first. -/
def blks : List (Rect S3328) := (List.finRange 26).reverse.map blk

theorem mem_blk (y : S3328.Idx) : y ∈ (blk ⟨(y 0).val / 128, by have h : (y 0).val < 3328 := (y 0).isLt; show _ / 128 < 26; omega⟩).set := by
  unfold blk
  rw [Rect.mem_set_unit]
  intro a
  match a with
  | ⟨0, _⟩ =>
    show 128 * ((y 0).val / 128) ≤ (y 0).val ∧ (y 0).val < 128 * ((y 0).val / 128) + 128
    omega

variable {Val : EltTy → Type} {e : EltTy}

/-- Pieces over the blocks cover the line. -/
theorem cover (L : List (Piece Val S3328 e)) (hL : L.map (fun p => p.1) = blks) (y : S3328.Idx) : ∃ p ∈ L, y ∈ p.1.set := by
  have hm : blk ⟨(y 0).val / 128, by have h : (y 0).val < 3328 := (y 0).isLt; show _ / 128 < 26; omega⟩ ∈ L.map (fun p => p.1) := by
    rw [hL]; unfold blks
    exact List.mem_map.mpr ⟨_, List.mem_reverse.mpr (List.mem_finRange _), rfl⟩
  obtain ⟨p, hp, hpe⟩ := List.mem_map.mp hm
  exact ⟨p, hp, hpe ▸ mem_blk y⟩

end Cert.Cover6

end
-- ==== Proof.TileBody.lean ====
/-
  One vector subcore's run of the kernel body. The subcore stages the padded linear table and its 128 batch rows of the
  26 index columns, sums the 26 linear weights of each row sixteen rows at a time, writes that line and two zero lines
  to its pieces of the last three result rows, and then, for each of its ten or eleven field pairs, stages the two index
  columns and the two 1000-row tables of the pair, accumulates the sixteen products per batch row sixteen rows at a
  time, and writes the 4096-word line to the pair's row of the result. Every index word that addresses a table is a
  field value (at most 999) scaled and shifted by constants, so every indexed load is in range: that is all the frame
  needs of the data. The run ends with every buffer and semaphore back and the shares of the read-only arrays intact.
-/
import Idealize.ShloMosaic.Lib.SparseCore.Launch
import Idealize.ShloMosaic.Lib.StableHlo.Run
import Idealize.ShloMosaic.Lib.Pipeline.Kit
import Idealize.ShloMosaic.Lib.Tactic
import proofs.«207464_g62843961475156_cont_9to1_m_1121_6_alg».proof.Proof.Gen.KernelIdeal
import proofs.«207464_g62843961475156_cont_9to1_m_1121_6_alg».proof.Proof.Gen.KernelIdeal.Skeleton
import proofs.«207464_g62843961475156_cont_9to1_m_1121_6_alg».proof.Proof.Ghost
import proofs.«207464_g62843961475156_cont_9to1_m_1121_6_alg».proof.Proof.TileDefs
import proofs.«207464_g62843961475156_cont_9to1_m_1121_6_alg».proof.Proof.LibIndexedOps
import proofs.«207464_g62843961475156_cont_9to1_m_1121_6_alg».proof.Proof.LibReadBack
import proofs.«207464_g62843961475156_cont_9to1_m_1121_6_alg».proof.Proof.TileFacts
import proofs.«207464_g62843961475156_cont_9to1_m_1121_6_alg».proof.Proof.Cover6

noncomputable section

namespace Cert.Proof.KTile

open Cert.KernelIdeal Cert.KernelIdeal.Gen Cert.Proof.KLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

local notation "xtW" => (Memref.whole Cert.KernelIdeal.main_v1_scv : Memref Cert.KernelIdeal.sig Kind.scVector Space.hbm Cert.KernelIdeal.S106496 EltTy.i32)
local notation "wfW" => (Memref.whole Cert.KernelIdeal.main_v2_scv : Memref Cert.KernelIdeal.sig Kind.scVector Space.hbm Cert.KernelIdeal.S10816000 EltTy.f32)
local notation "wlW" => (Memref.whole Cert.KernelIdeal.main_v4_scv : Memref Cert.KernelIdeal.sig Kind.scVector Space.hbm Cert.KernelIdeal.S26112 EltTy.f32)
local notation "ptW" => (Memref.whole Cert.KernelIdeal.main_v5_scv : Memref Cert.KernelIdeal.sig Kind.scVector Space.hbm Cert.KernelIdeal.S1343488 EltTy.f32)
local notation "s0W" => (Memref.whole Cert.KernelIdeal.cc0_scratch0 : Memref Cert.KernelIdeal.sig Kind.scVector Space.vmem Cert.KernelIdeal.S16000 EltTy.f32)
local notation "s1W" => (Memref.whole Cert.KernelIdeal.cc0_scratch1 : Memref Cert.KernelIdeal.sig Kind.scVector Space.vmem Cert.KernelIdeal.S16000 EltTy.f32)
local notation "s2W" => (Memref.whole Cert.KernelIdeal.cc0_scratch2 : Memref Cert.KernelIdeal.sig Kind.scVector Space.vmem Cert.KernelIdeal.S4096 EltTy.i32)
local notation "s3W" => (Memref.whole Cert.KernelIdeal.cc0_scratch3 : Memref Cert.KernelIdeal.sig Kind.scVector Space.vmem Cert.KernelIdeal.S4096 EltTy.i32)
local notation "s4W" => (Memref.whole Cert.KernelIdeal.cc0_scratch4 : Memref Cert.KernelIdeal.sig Kind.scVector Space.vmem Cert.KernelIdeal.S4096 EltTy.f32)
local notation "s5W" => (Memref.whole Cert.KernelIdeal.cc0_scratch5 : Memref Cert.KernelIdeal.sig Kind.scVector Space.vmem Cert.KernelIdeal.S26112 EltTy.f32)
local notation "s6W" => (Memref.whole Cert.KernelIdeal.cc0_scratch6 : Memref Cert.KernelIdeal.sig Kind.scVector Space.vmem Cert.KernelIdeal.S3328 EltTy.i32)
local notation "s7W" => (Memref.whole Cert.KernelIdeal.cc0_scratch7 : Memref Cert.KernelIdeal.sig Kind.scVector Space.vmem Cert.KernelIdeal.S128 EltTy.f32)
local notation "s8W" => (Memref.whole Cert.KernelIdeal.cc0_scratch8 : Memref Cert.KernelIdeal.sig Kind.scVector Space.vmem Cert.KernelIdeal.S128 EltTy.f32)

omit [FloatOps F] in
/-- Recording one more wait at the kernel's own index keeps the recorded waits among the given ones and the kernel's own. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- A whole buffer written piece by piece: where the pieces cover it, every word satisfies what every payload word does. -/
theorem whole_writes_all {κ : Kind} (b : Ref sig κ) (f : b.ty.Contents (Elt F)) (Lp : List (View.Piece (Elt F) b.ty.shape b.ty.elt))
    (hc : ∀ y, ∃ p ∈ Lp, y ∈ p.1.set) (P : Elt F b.ty.elt → Prop) (hL : ∀ p ∈ Lp, ∀ x : p.1.shape.Idx, P (p.2 x)) (y : b.ty.shape.Idx) :
    P ((Memref.whole b).view.writes (Elt F) f Lp y) :=
  Cert.ReadBack.read_writes_all (Val := Elt F) (Memref.whole b).view f Lp hc P hL y

/-- The first loop keeps the padded linear table and the staged index chunk (whose words are field values, at most 999),
    and rewrites one 16-word piece of each of the two output scratch lines per trip. -/
def inv1 (O : CellTallies nD τ sig (HIx 1)) (W : Waits sig (HIx 1)) (_ : Nat) (_ : PUnit) : sProp 𝕄 :=
  iprop(Transfers.MayWaits (thr d L) (none : HIx 1) O
    ∗ (∃ f, (s5W).view.loc (thr d L) ↦{fullShare} f)
    ∗ (∃ f : Buf (Elt F) ((s6W).view.loc (thr d L)), ⌜∀ y, (f y : BitVec 32).toNat ≤ 999⌝ ∗ (s6W).view.loc (thr d L) ↦{fullShare} f)
    ∗ (∃ f, (s7W).view.loc (thr d L) ↦{fullShare} f)
    ∗ (∃ f, (s8W).view.loc (thr d L) ↦{fullShare} f)
    ∗ ∃ W', ⌜∀ p ∈ W', p ∈ W ∨ p.2 = none⌝ ∗ owes (thr d L) O W')

/-- The inner loop of a task keeps the two tables and the two index columns (field values, at most 999) and rewrites one
    16-word piece of the accumulator line per trip. -/
def inv3 (O : CellTallies nD τ sig (HIx 1)) (W : Waits sig (HIx 1)) (_ : Nat) (_ : PUnit) : sProp 𝕄 :=
  iprop(Transfers.MayWaits (thr d L) (none : HIx 1) O
    ∗ (∃ f, (s0W).view.loc (thr d L) ↦{fullShare} f)
    ∗ (∃ f, (s1W).view.loc (thr d L) ↦{fullShare} f)
    ∗ (∃ f : Buf (Elt F) ((s2W).view.loc (thr d L)), ⌜∀ y, (f y : BitVec 32).toNat ≤ 999⌝ ∗ (s2W).view.loc (thr d L) ↦{fullShare} f)
    ∗ (∃ f : Buf (Elt F) ((s3W).view.loc (thr d L)), ⌜∀ y, (f y : BitVec 32).toNat ≤ 999⌝ ∗ (s3W).view.loc (thr d L) ↦{fullShare} f)
    ∗ (∃ f, (s4W).view.loc (thr d L) ↦{fullShare} f)
    ∗ ∃ W', ⌜∀ p ∈ W', p ∈ W ∨ p.2 = none⌝ ∗ owes (thr d L) O W')

/-- The task loop keeps the shares of the three read-only arrays, the five scratch lines of a task, the five semaphores
    of a task's copies at zero, and every task row of the result this subcore owns. -/
def inv2 (q1 q2 : PosShare TreeShare) (fxt : Buf (Elt F) ((xtW).view.loc (thr d L))) (fwf : Buf (Elt F) ((wfW).view.loc (thr d L)))
    (O : CellTallies nD τ sig (HIx 1)) (W : Waits sig (HIx 1)) (_ : Nat) (_ : PUnit) : sProp 𝕄 :=
  iprop(Transfers.MayWaits (thr d L) (none : HIx 1) O
    ∗ ((xtW).view.loc (thr d L) ↦{q1} fxt)
    ∗ ((wfW).view.loc (thr d L) ↦{q2} fwf)
    ∗ (∃ f, (s0W).view.loc (thr d L) ↦{fullShare} f) ∗ (∃ f, (s1W).view.loc (thr d L) ↦{fullShare} f) ∗ (∃ f, (s2W).view.loc (thr d L) ↦{fullShare} f) ∗ (∃ f, (s3W).view.loc (thr d L) ↦{fullShare} f) ∗ (∃ f, (s4W).view.loc (thr d L) ↦{fullShare} f)
    ∗ semVal ((thr d L, SemLoc.dma cc0_scoped30.sem) : GSem nD τ sig) 0 ∗ semVal ((thr d L, SemLoc.dma cc0_scoped31.sem) : GSem nD τ sig) 0 ∗ semVal ((thr d L, SemLoc.dma cc0_scoped32.sem) : GSem nD τ sig) 0 ∗ semVal ((thr d L, SemLoc.dma cc0_scoped33.sem) : GSem nD τ sig) 0 ∗ semVal ((thr d L, SemLoc.dma cc0_scoped34.sem) : GSem nD τ sig) 0
    ∗ (bigSep Finset.univ fun t : Fin (k0_t2_loop L).trips => iprop(∃ f, (ptTask L t).view.loc (thr d L) ↦[(ptTask L t).view.set]{fullShare} f))
    ∗ ∃ W', ⌜∀ p ∈ W', p ∈ W ∨ p.2 = none⌝ ∗ owes (thr d L) O W')

theorem tile_body (q1 q2 q3 : PosShare TreeShare) (fxt : Buf (Elt F) ((xtW).view.loc (thr d L))) (fwf : Buf (Elt F) ((wfW).view.loc (thr d L)))
    (fwl : Buf (Elt F) ((wlW).view.loc (thr d L))) (hxt : ∀ y, (fxt y : BitVec 32).toNat ≤ 999)
    (O : CellTallies nD τ sig (HIx 1)) (W : Waits sig (HIx 1)) (hO : ∀ g, O g none = 0) :
    (iprop(levAts (K (F := F)).L (K (F := F)).lev
      ∗ ((xtW).view.loc (thr d L) ↦{q1} fxt)
      ∗ ((wfW).view.loc (thr d L) ↦{q2} fwf)
      ∗ ((wlW).view.loc (thr d L) ↦{q3} fwl)
      ∗ (∃ f, (ptRow0 L).view.loc (thr d L) ↦[(ptRow0 L).view.set]{fullShare} f)
      ∗ (∃ f, (ptRow1 L).view.loc (thr d L) ↦[(ptRow1 L).view.set]{fullShare} f)
      ∗ (∃ f, (ptRow2 L).view.loc (thr d L) ↦[(ptRow2 L).view.set]{fullShare} f)
      ∗ (bigSep Finset.univ fun t : Fin (k0_t2_loop L).trips => iprop(∃ f, (ptTask L t).view.loc (thr d L) ↦[(ptTask L t).view.set]{fullShare} f))
      ∗ (∃ f, (s0W).view.loc (thr d L) ↦{fullShare} f)
      ∗ (∃ f, (s1W).view.loc (thr d L) ↦{fullShare} f)
      ∗ (∃ f, (s2W).view.loc (thr d L) ↦{fullShare} f)
      ∗ (∃ f, (s3W).view.loc (thr d L) ↦{fullShare} f)
      ∗ (∃ f, (s4W).view.loc (thr d L) ↦{fullShare} f)
      ∗ (∃ f, (s5W).view.loc (thr d L) ↦{fullShare} f)
      ∗ (∃ f, (s6W).view.loc (thr d L) ↦{fullShare} f)
      ∗ (∃ f, (s7W).view.loc (thr d L) ↦{fullShare} f)
      ∗ (∃ f, (s8W).view.loc (thr d L) ↦{fullShare} f)
      ∗ semVal ((thr d L, SemLoc.dma cc0_scoped0.sem) : GSem nD τ sig) 0
      ∗ semVal ((thr d L, SemLoc.dma cc0_scoped1.sem) : GSem nD τ sig) 0
      ∗ semVal ((thr d L, SemLoc.dma cc0_scoped2.sem) : GSem nD τ sig) 0
      ∗ semVal ((thr d L, SemLoc.dma cc0_scoped3.sem) : GSem nD τ sig) 0
      ∗ semVal ((thr d L, SemLoc.dma cc0_scoped4.sem) : GSem nD τ sig) 0
      ∗ semVal ((thr d L, SemLoc.dma cc0_scoped5.sem) : GSem nD τ sig) 0
      ∗ semVal ((thr d L, SemLoc.dma cc0_scoped6.sem) : GSem nD τ sig) 0
      ∗ semVal ((thr d L, SemLoc.dma cc0_scoped7.sem) : GSem nD τ sig) 0
      ∗ semVal ((thr d L, SemLoc.dma cc0_scoped8.sem) : GSem nD τ sig) 0
      ∗ semVal ((thr d L, SemLoc.dma cc0_scoped9.sem) : GSem nD τ sig) 0
      ∗ semVal ((thr d L, SemLoc.dma cc0_scoped10.sem) : GSem nD τ sig) 0
      ∗ semVal ((thr d L, SemLoc.dma cc0_scoped11.sem) : GSem nD τ sig) 0
      ∗ semVal ((thr d L, SemLoc.dma cc0_scoped12.sem) : GSem nD τ sig) 0
      ∗ semVal ((thr d L, SemLoc.dma cc0_scoped13.sem) : GSem nD τ sig) 0
      ∗ semVal ((thr d L, SemLoc.dma cc0_scoped14.sem) : GSem nD τ sig) 0
      ∗ semVal ((thr d L, SemLoc.dma cc0_scoped15.sem) : GSem nD τ sig) 0
      ∗ semVal ((thr d L, SemLoc.dma cc0_scoped16.sem) : GSem nD τ sig) 0
      ∗ semVal ((thr d L, SemLoc.dma cc0_scoped17.sem) : GSem nD τ sig) 0
      ∗ semVal ((thr d L, SemLoc.dma cc0_scoped18.sem) : GSem nD τ sig) 0
      ∗ semVal ((thr d L, SemLoc.dma cc0_scoped19.sem) : GSem nD τ sig) 0
      ∗ semVal ((thr d L, SemLoc.dma cc0_scoped20.sem) : GSem nD τ sig) 0
      ∗ semVal ((thr d L, SemLoc.dma cc0_scoped21.sem) : GSem nD τ sig) 0
      ∗ semVal ((thr d L, SemLoc.dma cc0_scoped22.sem) : GSem nD τ sig) 0
      ∗ semVal ((thr d L, SemLoc.dma cc0_scoped23.sem) : GSem nD τ sig) 0
      ∗ semVal ((thr d L, SemLoc.dma cc0_scoped24.sem) : GSem nD τ sig) 0
      ∗ semVal ((thr d L, SemLoc.dma cc0_scoped25.sem) : GSem nD τ sig) 0
      ∗ semVal ((thr d L, SemLoc.dma cc0_scoped26.sem) : GSem nD τ sig) 0
      ∗ semVal ((thr d L, SemLoc.dma cc0_scoped27.sem) : GSem nD τ sig) 0
      ∗ semVal ((thr d L, SemLoc.dma cc0_scoped28.sem) : GSem nD τ sig) 0
      ∗ semVal ((thr d L, SemLoc.dma cc0_scoped29.sem) : GSem nD τ sig) 0
      ∗ semVal ((thr d L, SemLoc.dma cc0_scoped30.sem) : GSem nD τ sig) 0
      ∗ semVal ((thr d L, SemLoc.dma cc0_scoped31.sem) : GSem nD τ sig) 0
      ∗ semVal ((thr d L, SemLoc.dma cc0_scoped32.sem) : GSem nD τ sig) 0
      ∗ semVal ((thr d L, SemLoc.dma cc0_scoped33.sem) : GSem nD τ sig) 0
      ∗ semVal ((thr d L, SemLoc.dma cc0_scoped34.sem) : GSem nD τ sig) 0
      ∗ semVal ((thr d L, SemLoc.dma cc0_scoped35.sem) : GSem nD τ sig) 0
      ∗ semVal ((thr d L, SemLoc.dma cc0_scoped36.sem) : GSem nD τ sig) 0
      ∗ semVal ((thr d L, SemLoc.dma cc0_scoped37.sem) : GSem nD τ sig) 0
      ∗ semVal ((thr d L, SemLoc.dma cc0_scoped38.sem) : GSem nD τ sig) 0
      ∗ semVal ((thr d L, SemLoc.dma cc0_scoped39.sem) : GSem nD τ sig) 0
      ∗ owes (thr d L) O W) : sProp 𝕄)
      ⊢ wp frame (wpE (defs₀ (F := F)) 𝒱₀ (thr d L) none) Set.univ
          (cc0__sc_body (F := F) L xtW (Memref.isWhole_whole _) wfW (Memref.isWhole_whole _) wlW (Memref.isWhole_whole _) ptW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39)
          fun _ => iprop(((xtW).view.loc (thr d L) ↦{q1} fxt)
      ∗ ((wfW).view.loc (thr d L) ↦{q2} fwf)
      ∗ ((wlW).view.loc (thr d L) ↦{q3} fwl)
      ∗ (∃ f, (ptRow0 L).view.loc (thr d L) ↦[(ptRow0 L).view.set]{fullShare} f)
      ∗ (∃ f, (ptRow1 L).view.loc (thr d L) ↦[(ptRow1 L).view.set]{fullShare} f)
      ∗ (∃ f, (ptRow2 L).view.loc (thr d L) ↦[(ptRow2 L).view.set]{fullShare} f)
      ∗ (bigSep Finset.univ fun t : Fin (k0_t2_loop L).trips => iprop(∃ f, (ptTask L t).view.loc (thr d L) ↦[(ptTask L t).view.set]{fullShare} f))
      ∗ (∃ f, (s0W).view.loc (thr d L) ↦{fullShare} f)
      ∗ (∃ f, (s1W).view.loc (thr d L) ↦{fullShare} f)
      ∗ (∃ f, (s2W).view.loc (thr d L) ↦{fullShare} f)
      ∗ (∃ f, (s3W).view.loc (thr d L) ↦{fullShare} f)
      ∗ (∃ f, (s4W).view.loc (thr d L) ↦{fullShare} f)
      ∗ (∃ f, (s5W).view.loc (thr d L) ↦{fullShare} f)
      ∗ (∃ f, (s6W).view.loc (thr d L) ↦{fullShare} f)
      ∗ (∃ f, (s7W).view.loc (thr d L) ↦{fullShare} f)
      ∗ (∃ f, (s8W).view.loc (thr d L) ↦{fullShare} f)
      ∗ semVal ((thr d L, SemLoc.dma cc0_scoped0.sem) : GSem nD τ sig) 0
      ∗ semVal ((thr d L, SemLoc.dma cc0_scoped1.sem) : GSem nD τ sig) 0
      ∗ semVal ((thr d L, SemLoc.dma cc0_scoped2.sem) : GSem nD τ sig) 0
      ∗ semVal ((thr d L, SemLoc.dma cc0_scoped3.sem) : GSem nD τ sig) 0
      ∗ semVal ((thr d L, SemLoc.dma cc0_scoped4.sem) : GSem nD τ sig) 0
      ∗ semVal ((thr d L, SemLoc.dma cc0_scoped5.sem) : GSem nD τ sig) 0
      ∗ semVal ((thr d L, SemLoc.dma cc0_scoped6.sem) : GSem nD τ sig) 0
      ∗ semVal ((thr d L, SemLoc.dma cc0_scoped7.sem) : GSem nD τ sig) 0
      ∗ semVal ((thr d L, SemLoc.dma cc0_scoped8.sem) : GSem nD τ sig) 0
      ∗ semVal ((thr d L, SemLoc.dma cc0_scoped9.sem) : GSem nD τ sig) 0
      ∗ semVal ((thr d L, SemLoc.dma cc0_scoped10.sem) : GSem nD τ sig) 0
      ∗ semVal ((thr d L, SemLoc.dma cc0_scoped11.sem) : GSem nD τ sig) 0
      ∗ semVal ((thr d L, SemLoc.dma cc0_scoped12.sem) : GSem nD τ sig) 0
      ∗ semVal ((thr d L, SemLoc.dma cc0_scoped13.sem) : GSem nD τ sig) 0
      ∗ semVal ((thr d L, SemLoc.dma cc0_scoped14.sem) : GSem nD τ sig) 0
      ∗ semVal ((thr d L, SemLoc.dma cc0_scoped15.sem) : GSem nD τ sig) 0
      ∗ semVal ((thr d L, SemLoc.dma cc0_scoped16.sem) : GSem nD τ sig) 0
      ∗ semVal ((thr d L, SemLoc.dma cc0_scoped17.sem) : GSem nD τ sig) 0
      ∗ semVal ((thr d L, SemLoc.dma cc0_scoped18.sem) : GSem nD τ sig) 0
      ∗ semVal ((thr d L, SemLoc.dma cc0_scoped19.sem) : GSem nD τ sig) 0
      ∗ semVal ((thr d L, SemLoc.dma cc0_scoped20.sem) : GSem nD τ sig) 0
      ∗ semVal ((thr d L, SemLoc.dma cc0_scoped21.sem) : GSem nD τ sig) 0
      ∗ semVal ((thr d L, SemLoc.dma cc0_scoped22.sem) : GSem nD τ sig) 0
      ∗ semVal ((thr d L, SemLoc.dma cc0_scoped23.sem) : GSem nD τ sig) 0
      ∗ semVal ((thr d L, SemLoc.dma cc0_scoped24.sem) : GSem nD τ sig) 0
      ∗ semVal ((thr d L, SemLoc.dma cc0_scoped25.sem) : GSem nD τ sig) 0
      ∗ semVal ((thr d L, SemLoc.dma cc0_scoped26.sem) : GSem nD τ sig) 0
      ∗ semVal ((thr d L, SemLoc.dma cc0_scoped27.sem) : GSem nD τ sig) 0
      ∗ semVal ((thr d L, SemLoc.dma cc0_scoped28.sem) : GSem nD τ sig) 0
      ∗ semVal ((thr d L, SemLoc.dma cc0_scoped29.sem) : GSem nD τ sig) 0
      ∗ semVal ((thr d L, SemLoc.dma cc0_scoped30.sem) : GSem nD τ sig) 0
      ∗ semVal ((thr d L, SemLoc.dma cc0_scoped31.sem) : GSem nD τ sig) 0
      ∗ semVal ((thr d L, SemLoc.dma cc0_scoped32.sem) : GSem nD τ sig) 0
      ∗ semVal ((thr d L, SemLoc.dma cc0_scoped33.sem) : GSem nD τ sig) 0
      ∗ semVal ((thr d L, SemLoc.dma cc0_scoped34.sem) : GSem nD τ sig) 0
      ∗ semVal ((thr d L, SemLoc.dma cc0_scoped35.sem) : GSem nD τ sig) 0
      ∗ semVal ((thr d L, SemLoc.dma cc0_scoped36.sem) : GSem nD τ sig) 0
      ∗ semVal ((thr d L, SemLoc.dma cc0_scoped37.sem) : GSem nD τ sig) 0
      ∗ semVal ((thr d L, SemLoc.dma cc0_scoped38.sem) : GSem nD τ sig) 0
      ∗ semVal ((thr d L, SemLoc.dma cc0_scoped39.sem) : GSem nD τ sig) 0
      ∗ ∃ W', ⌜∀ p ∈ W', p ∈ W ∨ p.2 = none⌝ ∗ owes (thr d L) O W') := by
  rw [cc0__sc_body_eq_skeleton]; unfold cc0__sc_body_skel
  iintro ⟨#Hlv, Hxt, Hwf, Hwl, ⟨%fr0, Hr0⟩, ⟨%fr1, Hr1⟩, ⟨%fr2, Hr2⟩, Hpt, ⟨%fs0, Hs0⟩, ⟨%fs1, Hs1⟩, ⟨%fs2, Hs2⟩, ⟨%fs3, Hs3⟩, ⟨%fs4, Hs4⟩, ⟨%fs5, Hs5⟩, ⟨%fs6, Hs6⟩, ⟨%fs7, Hs7⟩, ⟨%fs8, Hs8⟩, Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, HO⟩
  ihave Hmw := ((K (F := F)).mayWaits_none (thr := thr d L) hO) $$ Hlv
  sl_exec_parts
  sl_for (inv1 d L O W) $$ [Hmw Hs5 Hs6 Hs7 Hs8 HO]
  case region =>
    intro k _
    unfold inv1
    iintro ⟨Hmw, ⟨%f5, Hs5⟩, ⟨%f6, %hf6, Hs6⟩, ⟨%f7, Hs7⟩, ⟨%f8, Hs8⟩, %W', %hW', HO⟩
    sl_exec_parts (disch := first
      | exact Cert.TileFacts.inb_of_le _ _ (Cert.TileFacts.addi_bcast_le _ _ 999 (fun x => hf6 _) (by decide)) (by decide))
    sl_step
    isplitl [Hmw]; · iexact Hmw
    isplitl [Hs5]; · iexists _; iexact Hs5
    isplitl [Hs6]; · iexists f6; isplitr; · ipureintro; exact hf6
                     iexact Hs6
    isplitl [Hs7]; · iexists _; iexact Hs7
    isplitl [Hs8]; · iexists _; iexact Hs8
    iexists W'; isplitr
    · ipureintro; exact hW'
    · iexact HO
  · unfold inv1
    isplitl [Hmw]; · iexact Hmw
    isplitl [Hs5]; · iexists _; iexact Hs5
    isplitl [Hs6]
    · iexists _; isplitr
      swap
      · iexact Hs6
      · ipureintro
        intro y
        refine whole_writes_all (F := F) cc0_scratch6 _ _ (Cert.Cover6.cover _ rfl) (fun w : BitVec 32 => w.toNat ≤ 999) ?hL y
        repeat (first | exact List.forall_mem_nil _ | refine List.forall_mem_cons.mpr ⟨fun x => hxt _, ?_⟩)
    isplitl [Hs7]; · iexists _; iexact Hs7
    isplitl [Hs8]; · iexists _; iexact Hs8
    iexists _; isplitr
    swap
    · iexact HO
    · ipureintro; repeat apply waits_insert
      exact fun p hp => Or.inl hp
  iintro %_ HI
  unfold inv1
  icases HI with ⟨Hmw, ⟨%f5, Hs5⟩, ⟨%f6, %hf6, Hs6⟩, ⟨%f7, Hs7⟩, ⟨%f8, Hs8⟩, %W1, %hW1, HO⟩
  sl_exec_parts
  sl_for (inv2 d L q1 q2 fxt fwf O W) $$ [Hmw Hxt Hwf Hs0 Hs1 Hs2 Hs3 Hs4 Hm30 Hm31 Hm32 Hm33 Hm34 Hpt HO]
  case region =>
    intro k _
    unfold inv2
    iintro ⟨Hmw, Hxt, Hwf, ⟨%f0, Hs0⟩, ⟨%f1, Hs1⟩, ⟨%f2, Hs2⟩, ⟨%f3, Hs3⟩, ⟨%f4, Hs4⟩, Hm30, Hm31, Hm32, Hm33, Hm34, Hpt, %W', %hW', HO⟩
    ihave Hp := (Entails.of_eq (SparseCore.bigSep_erase' (Finset.mem_univ k))) $$ Hpt
    icases Hp with ⟨⟨%fk, Hk⟩, Hrest⟩
    sl_exec_parts

    sl_for (inv3 d L O W) $$ [Hmw Hs0 Hs1 Hs2 Hs3 Hs4 HO]
    case region =>
      intro k3 _
      unfold inv3
      iintro ⟨Hmw, ⟨%g0, Hs0⟩, ⟨%g1, Hs1⟩, ⟨%g2, %hf2, Hs2⟩, ⟨%g3, %hf3, Hs3⟩, ⟨%g4, Hs4⟩, %W3, %hW3, HO⟩
      sl_exec_parts (disch := first
      | exact Cert.TileFacts.inb_of_le _ _ (Cert.TileFacts.addi_bcast_le _ _ _ (Cert.TileFacts.muli_bcast_le _ _ 999 (fun x => hf2 _) (by decide)) (by decide)) (by decide)
      | exact Cert.TileFacts.inb_of_le _ _ (Cert.TileFacts.addi_bcast_le _ _ _ (Cert.TileFacts.muli_bcast_le _ _ 999 (fun x => hf3 _) (by decide)) (by decide)) (by decide))
      sl_step
      isplitl [Hmw]; · iexact Hmw
      isplitl [Hs0]; · iexists _; iexact Hs0
      isplitl [Hs1]; · iexists _; iexact Hs1
      isplitl [Hs2]; · iexists g2; isplitr; · ipureintro; exact hf2
                       iexact Hs2
      isplitl [Hs3]; · iexists g3; isplitr; · ipureintro; exact hf3
                       iexact Hs3
      isplitl [Hs4]; · iexists _; iexact Hs4
      iexists _; isplitr
      swap
      · iexact HO
      · ipureintro; repeat apply waits_insert
        exact hW3
    · unfold inv3
      isplitl [Hmw]; · iexact Hmw
      isplitl [Hs0]; · iexists _; iexact Hs0
      isplitl [Hs1]; · iexists _; iexact Hs1
      isplitl [Hs2]
      · iexists _; isplitr
        swap
        · iexact Hs2
        · ipureintro; intro y
          simp only [Memref.view_whole, View.write_whole_univ]
          exact hxt _
      isplitl [Hs3]
      · iexists _; isplitr
        swap
        · iexact Hs3
        · ipureintro; intro y
          simp only [Memref.view_whole, View.write_whole_univ]
          exact hxt _
      isplitl [Hs4]; · iexists _; iexact Hs4
      iexists _; isplitr
      swap
      · iexact HO
      · ipureintro; repeat apply waits_insert
        exact hW'
    iintro %_ HI
    unfold inv3
    icases HI with ⟨Hmw, ⟨%g0, Hs0⟩, ⟨%g1, Hs1⟩, ⟨%g2, %hf2, Hs2⟩, ⟨%g3, %hf3, Hs3⟩, ⟨%g4, Hs4⟩, %W3, %hW3, HO⟩
    sl_exec_parts
    sl_step
    isplitl [Hmw]; · iexact Hmw
    isplitl [Hxt]; · iexact Hxt
    isplitl [Hwf]; · iexact Hwf
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hm30]; · iexact Hm30
    isplitl [Hm31]; · iexact Hm31
    isplitl [Hm32]; · iexact Hm32
    isplitl [Hm33]; · iexact Hm33
    isplitl [Hm34]; · iexact Hm34
    isplitl [Hk Hrest]
    · rw [SparseCore.bigSep_erase' (Finset.mem_univ k)]
      isplitl [Hk]; · iexists _; iexact Hk
      iexact Hrest
    iexists _; isplitr
    swap
    · iexact HO
    · ipureintro; repeat apply waits_insert
      exact hW3
  · unfold inv2
    isplitl [Hmw]; · iexact Hmw
    isplitl [Hxt]; · iexact Hxt
    isplitl [Hwf]; · iexact Hwf
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hm30]; · iexact Hm30
    isplitl [Hm31]; · iexact Hm31
    isplitl [Hm32]; · iexact Hm32
    isplitl [Hm33]; · iexact Hm33
    isplitl [Hm34]; · iexact Hm34
    isplitl [Hpt]; · iexact Hpt
    iexists _; isplitr
    swap
    · iexact HO
    · ipureintro; repeat apply waits_insert
      exact hW1
  iintro %_ HI
  unfold inv2
  icases HI with ⟨Hmw, Hxt, Hwf, ⟨%f0, Hs0⟩, ⟨%f1, Hs1⟩, ⟨%f2, Hs2⟩, ⟨%f3, Hs3⟩, ⟨%f4, Hs4⟩, Hm30, Hm31, Hm32, Hm33, Hm34, Hpt, %W2, %hW2, HO⟩
  sl_exec_parts
  sl_for (fun _ _ => (iprop(emp) : sProp 𝕄)) $$ []
  case region =>
    intro k _
    exact (Nat.not_lt_zero _ (Nat.lt_of_lt_of_le k.isLt (k0_t4_abs L).2.1)).elim
  · iempintro
  iintro %_ -
  sl_exec_parts
  sl_step
  isplitl [Hxt]; · iexact Hxt
  isplitl [Hwf]; · iexact Hwf
  isplitl [Hwl]; · iexact Hwl
  isplitl [Hr0]; · iexists _; iexact Hr0
  isplitl [Hr1]; · iexists _; iexact Hr1
  isplitl [Hr2]; · iexists _; iexact Hr2
  isplitl [Hpt]; · iexact Hpt
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [Hs7]; · iexists _; iexact Hs7
  isplitl [Hs8]; · iexists _; iexact Hs8
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  isplitl [Hm19]; · iexact Hm19
  isplitl [Hm20]; · iexact Hm20
  isplitl [Hm21]; · iexact Hm21
  isplitl [Hm22]; · iexact Hm22
  isplitl [Hm23]; · iexact Hm23
  isplitl [Hm24]; · iexact Hm24
  isplitl [Hm25]; · iexact Hm25
  isplitl [Hm26]; · iexact Hm26
  isplitl [Hm27]; · iexact Hm27
  isplitl [Hm28]; · iexact Hm28
  isplitl [Hm29]; · iexact Hm29
  isplitl [Hm30]; · iexact Hm30
  isplitl [Hm31]; · iexact Hm31
  isplitl [Hm32]; · iexact Hm32
  isplitl [Hm33]; · iexact Hm33
  isplitl [Hm34]; · iexact Hm34
  isplitl [Hm35]; · iexact Hm35
  isplitl [Hm36]; · iexact Hm36
  isplitl [Hm37]; · iexact Hm37
  isplitl [Hm38]; · iexact Hm38
  isplitl [Hm39]; · iexact Hm39
  iexists _; isplitr
  swap
  · iexact HO
  · ipureintro; repeat apply waits_insert
    exact hW2

end Cert.Proof.KTile
end
-- ==== Proof.TileOwn.lean ====
/-
  What a vector subcore owns: its scoped semaphores are the program's forty-three DMA semaphores, its own buffers
  include the nine scratch lines of the kernel. Both as explicit lists, for a run that names each of them.
-/
import Idealize.ShloMosaic.Lib.SparseCore.Launch
import Idealize.ShloMosaic.Lib.StableHlo.Run
import Idealize.ShloMosaic.Lib.Pipeline.Kit
import Idealize.ShloMosaic.Lib.Tactic
import proofs.«207464_g62843961475156_cont_9to1_m_1121_6_alg».proof.Proof.Gen.KernelIdeal
import proofs.«207464_g62843961475156_cont_9to1_m_1121_6_alg».proof.Proof.Gen.KernelIdeal.Skeleton
import proofs.«207464_g62843961475156_cont_9to1_m_1121_6_alg».proof.Proof.Ghost
import proofs.«207464_g62843961475156_cont_9to1_m_1121_6_alg».proof.Proof.TileDefs

noncomputable section

namespace Cert.Proof.KTile

open Cert.KernelIdeal Cert.KernelIdeal.Gen Cert.Proof.KLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

local notation "xtW" => (Memref.whole Cert.KernelIdeal.main_v1_scv : Memref Cert.KernelIdeal.sig Kind.scVector Space.hbm Cert.KernelIdeal.S106496 EltTy.i32)
local notation "wfW" => (Memref.whole Cert.KernelIdeal.main_v2_scv : Memref Cert.KernelIdeal.sig Kind.scVector Space.hbm Cert.KernelIdeal.S10816000 EltTy.f32)
local notation "wlW" => (Memref.whole Cert.KernelIdeal.main_v4_scv : Memref Cert.KernelIdeal.sig Kind.scVector Space.hbm Cert.KernelIdeal.S26112 EltTy.f32)
local notation "ptW" => (Memref.whole Cert.KernelIdeal.main_v5_scv : Memref Cert.KernelIdeal.sig Kind.scVector Space.hbm Cert.KernelIdeal.S1343488 EltTy.f32)
local notation "s0W" => (Memref.whole Cert.KernelIdeal.cc0_scratch0 : Memref Cert.KernelIdeal.sig Kind.scVector Space.vmem Cert.KernelIdeal.S16000 EltTy.f32)
local notation "s1W" => (Memref.whole Cert.KernelIdeal.cc0_scratch1 : Memref Cert.KernelIdeal.sig Kind.scVector Space.vmem Cert.KernelIdeal.S16000 EltTy.f32)
local notation "s2W" => (Memref.whole Cert.KernelIdeal.cc0_scratch2 : Memref Cert.KernelIdeal.sig Kind.scVector Space.vmem Cert.KernelIdeal.S4096 EltTy.i32)
local notation "s3W" => (Memref.whole Cert.KernelIdeal.cc0_scratch3 : Memref Cert.KernelIdeal.sig Kind.scVector Space.vmem Cert.KernelIdeal.S4096 EltTy.i32)
local notation "s4W" => (Memref.whole Cert.KernelIdeal.cc0_scratch4 : Memref Cert.KernelIdeal.sig Kind.scVector Space.vmem Cert.KernelIdeal.S4096 EltTy.f32)
local notation "s5W" => (Memref.whole Cert.KernelIdeal.cc0_scratch5 : Memref Cert.KernelIdeal.sig Kind.scVector Space.vmem Cert.KernelIdeal.S26112 EltTy.f32)
local notation "s6W" => (Memref.whole Cert.KernelIdeal.cc0_scratch6 : Memref Cert.KernelIdeal.sig Kind.scVector Space.vmem Cert.KernelIdeal.S3328 EltTy.i32)
local notation "s7W" => (Memref.whole Cert.KernelIdeal.cc0_scratch7 : Memref Cert.KernelIdeal.sig Kind.scVector Space.vmem Cert.KernelIdeal.S128 EltTy.f32)
local notation "s8W" => (Memref.whole Cert.KernelIdeal.cc0_scratch8 : Memref Cert.KernelIdeal.sig Kind.scVector Space.vmem Cert.KernelIdeal.S128 EltTy.f32)

omit [FloatOps F] in
/-- The scoped semaphores of a vector subcore are the forty DMA semaphores of the kernel's copies. -/
theorem ownCells_V :
    (ownCells (nD := nD) (τ := τ) (sig := sig) (thr d L))
      = (Finset.univ : Finset (Fin 43)).image (fun n => ((thr d L, SemLoc.dma (n : DmaSem sig)) : GSem nD τ sig)) := by
  ext ⟨t, sm⟩
  simp only [mem_ownCells, Finset.mem_image, Finset.mem_univ, _root_.true_and]
  constructor
  · rintro ⟨rfl, hs⟩
    have hs' : (sm : SemLoc sig).isScoped .scVector = true := hs
    have key : ∀ sm : SemLoc sig, sm.isScoped .scVector = true → ∃ n : Fin 43, (SemLoc.dma (n : DmaSem sig) : SemLoc sig) = sm := by decide
    obtain ⟨n, hn⟩ := key sm hs'
    exact ⟨n, by rw [hn]⟩
  · rintro ⟨n, h⟩
    cases h
    exact ⟨rfl, by show (SemLoc.dma (n : DmaSem sig) : SemLoc sig).isScoped .scVector = true; revert n; decide⟩

set_option maxHeartbeats 8000000 in
omit [FloatOps F] in
theorem ownSems0_V :
    (ownSems0 (thr d L) : sProp 𝕄)
      = iprop(semVal ((thr d L, SemLoc.dma cc0_scoped0.sem) : GSem nD τ sig) 0
          ∗ semVal ((thr d L, SemLoc.dma cc0_scoped1.sem) : GSem nD τ sig) 0
          ∗ semVal ((thr d L, SemLoc.dma cc0_scoped2.sem) : GSem nD τ sig) 0
          ∗ semVal ((thr d L, SemLoc.dma cc0_scoped3.sem) : GSem nD τ sig) 0
          ∗ semVal ((thr d L, SemLoc.dma cc0_scoped4.sem) : GSem nD τ sig) 0
          ∗ semVal ((thr d L, SemLoc.dma cc0_scoped5.sem) : GSem nD τ sig) 0
          ∗ semVal ((thr d L, SemLoc.dma cc0_scoped6.sem) : GSem nD τ sig) 0
          ∗ semVal ((thr d L, SemLoc.dma cc0_scoped7.sem) : GSem nD τ sig) 0
          ∗ semVal ((thr d L, SemLoc.dma cc0_scoped8.sem) : GSem nD τ sig) 0
          ∗ semVal ((thr d L, SemLoc.dma cc0_scoped9.sem) : GSem nD τ sig) 0
          ∗ semVal ((thr d L, SemLoc.dma cc0_scoped10.sem) : GSem nD τ sig) 0
          ∗ semVal ((thr d L, SemLoc.dma cc0_scoped11.sem) : GSem nD τ sig) 0
          ∗ semVal ((thr d L, SemLoc.dma cc0_scoped12.sem) : GSem nD τ sig) 0
          ∗ semVal ((thr d L, SemLoc.dma cc0_scoped13.sem) : GSem nD τ sig) 0
          ∗ semVal ((thr d L, SemLoc.dma cc0_scoped14.sem) : GSem nD τ sig) 0
          ∗ semVal ((thr d L, SemLoc.dma cc0_scoped15.sem) : GSem nD τ sig) 0
          ∗ semVal ((thr d L, SemLoc.dma cc0_scoped16.sem) : GSem nD τ sig) 0
          ∗ semVal ((thr d L, SemLoc.dma cc0_scoped17.sem) : GSem nD τ sig) 0
          ∗ semVal ((thr d L, SemLoc.dma cc0_scoped18.sem) : GSem nD τ sig) 0
          ∗ semVal ((thr d L, SemLoc.dma cc0_scoped19.sem) : GSem nD τ sig) 0
          ∗ semVal ((thr d L, SemLoc.dma cc0_scoped20.sem) : GSem nD τ sig) 0
          ∗ semVal ((thr d L, SemLoc.dma cc0_scoped21.sem) : GSem nD τ sig) 0
          ∗ semVal ((thr d L, SemLoc.dma cc0_scoped22.sem) : GSem nD τ sig) 0
          ∗ semVal ((thr d L, SemLoc.dma cc0_scoped23.sem) : GSem nD τ sig) 0
          ∗ semVal ((thr d L, SemLoc.dma cc0_scoped24.sem) : GSem nD τ sig) 0
          ∗ semVal ((thr d L, SemLoc.dma cc0_scoped25.sem) : GSem nD τ sig) 0
          ∗ semVal ((thr d L, SemLoc.dma cc0_scoped26.sem) : GSem nD τ sig) 0
          ∗ semVal ((thr d L, SemLoc.dma cc0_scoped27.sem) : GSem nD τ sig) 0
          ∗ semVal ((thr d L, SemLoc.dma cc0_scoped28.sem) : GSem nD τ sig) 0
          ∗ semVal ((thr d L, SemLoc.dma cc0_scoped29.sem) : GSem nD τ sig) 0
          ∗ semVal ((thr d L, SemLoc.dma cc0_scoped30.sem) : GSem nD τ sig) 0
          ∗ semVal ((thr d L, SemLoc.dma cc0_scoped31.sem) : GSem nD τ sig) 0
          ∗ semVal ((thr d L, SemLoc.dma cc0_scoped32.sem) : GSem nD τ sig) 0
          ∗ semVal ((thr d L, SemLoc.dma cc0_scoped33.sem) : GSem nD τ sig) 0
          ∗ semVal ((thr d L, SemLoc.dma cc0_scoped34.sem) : GSem nD τ sig) 0
          ∗ semVal ((thr d L, SemLoc.dma cc0_scoped35.sem) : GSem nD τ sig) 0
          ∗ semVal ((thr d L, SemLoc.dma cc0_scoped36.sem) : GSem nD τ sig) 0
          ∗ semVal ((thr d L, SemLoc.dma cc0_scoped37.sem) : GSem nD τ sig) 0
          ∗ semVal ((thr d L, SemLoc.dma cc0_scoped38.sem) : GSem nD τ sig) 0
          ∗ semVal ((thr d L, SemLoc.dma cc0_scoped39.sem) : GSem nD τ sig) 0
          ∗ semVal ((thr d L, SemLoc.dma (⟨40, by decide⟩ : DmaSem sig)) : GSem nD τ sig) 0
          ∗ semVal ((thr d L, SemLoc.dma (⟨41, by decide⟩ : DmaSem sig)) : GSem nD τ sig) 0
          ∗ semVal ((thr d L, SemLoc.dma (⟨42, by decide⟩ : DmaSem sig)) : GSem nD τ sig) 0) := by
  unfold SparseCore.Cfg.ownSems0
  rw [ownCells_V, SparseCore.bigSep_image_of_injOn (fun a _ b _ e => by have := (Prod.mk.inj e).2; exact SemLoc.dma.inj this)]
  rw [show (Finset.univ : Finset (Fin 43)) = {0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42} by decide]
  iterate 42 rw [SparseCore.bigSep_insert' (by decide)]
  rw [bigSep_singleton]
  rfl

set_option maxHeartbeats 1600000 in
omit [FloatOps F] in
/-- The nine scratch lines are the subcore's own buffers. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ (∃ f, (thr d L).loc cc0_scratch7 ↦{fullShare} f)
          ∗ (∃ f, (thr d L).loc cc0_scratch8 ↦{fullShare} f)
          ∗ bigSep ((((((((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl)]
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := (Proc.scVector (cV L) (jV L)).devRef cc0_scratch1) rfl⟩)]
  rw [SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := (Proc.scVector (cV L) (jV L)).devRef cc0_scratch2) rfl⟩⟩)]
  rw [SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := (Proc.scVector (cV L) (jV L)).devRef cc0_scratch3) rfl⟩⟩⟩)]
  rw [SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := (Proc.scVector (cV L) (jV L)).devRef cc0_scratch4) rfl⟩⟩⟩⟩)]
  rw [SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := Proc.scVector (cV L) (jV L)) (b := (Proc.scVector (cV L) (jV L)).devRef cc0_scratch5) rfl⟩⟩⟩⟩⟩)]
  rw [SparseCore.bigSep_erase' (Finset.mem_erase.mpr ⟨(fun e => absurd (Proc.devRef_injective _ e) (show (cc0_scratch6 : Ref sig .scVector) ≠ cc0_scratch5 by decide)), Finset.mem_erase.mpr ⟨(fun e => absurd (Proc.devRef_injective _ e) (show (cc0_scratch6 : Ref sig .scVector) ≠ cc0_scratch4 by decide)), Finset.mem_erase.mpr ⟨(fun e => absurd (Proc.devRef_injective _ e) (show (cc0_scratch6 : Ref sig .scVector) ≠ cc0_scratch3 by decide)), Finset.mem_erase.mpr ⟨(fun e => absurd (Proc.devRef_injective _ e) (show (cc0_scratch6 : Ref sig .scVector) ≠ cc0_scratch2 by decide)), Finset.mem_erase.mpr ⟨(fun e => absurd (Proc.devRef_injective _ e) (show (cc0_scratch6 : Ref sig .scVector) ≠ cc0_scratch1 by decide)), Finset.mem_erase.mpr ⟨(fun e => absurd (Proc.devRef_injective _ e) (show (cc0_scratch6 : Ref sig .scVector) ≠ cc0_scratch0 by decide)), SparseCore.Cfg.mem_ownRefs_of_owner (p := Proc.scVector (cV L) (jV L)) (b := (Proc.scVector (cV L) (jV L)).devRef cc0_scratch6) rfl⟩⟩⟩⟩⟩⟩)]
  rw [SparseCore.bigSep_erase' (Finset.mem_erase.mpr ⟨(fun e => absurd (Proc.devRef_injective _ e) (show (cc0_scratch7 : Ref sig .scVector) ≠ cc0_scratch6 by decide)), Finset.mem_erase.mpr ⟨(fun e => absurd (Proc.devRef_injective _ e) (show (cc0_scratch7 : Ref sig .scVector) ≠ cc0_scratch5 by decide)), Finset.mem_erase.mpr ⟨(fun e => absurd (Proc.devRef_injective _ e) (show (cc0_scratch7 : Ref sig .scVector) ≠ cc0_scratch4 by decide)), Finset.mem_erase.mpr ⟨(fun e => absurd (Proc.devRef_injective _ e) (show (cc0_scratch7 : Ref sig .scVector) ≠ cc0_scratch3 by decide)), Finset.mem_erase.mpr ⟨(fun e => absurd (Proc.devRef_injective _ e) (show (cc0_scratch7 : Ref sig .scVector) ≠ cc0_scratch2 by decide)), Finset.mem_erase.mpr ⟨(fun e => absurd (Proc.devRef_injective _ e) (show (cc0_scratch7 : Ref sig .scVector) ≠ cc0_scratch1 by decide)), Finset.mem_erase.mpr ⟨(fun e => absurd (Proc.devRef_injective _ e) (show (cc0_scratch7 : Ref sig .scVector) ≠ cc0_scratch0 by decide)), SparseCore.Cfg.mem_ownRefs_of_owner (p := Proc.scVector (cV L) (jV L)) (b := (Proc.scVector (cV L) (jV L)).devRef cc0_scratch7) rfl⟩⟩⟩⟩⟩⟩⟩)]
  rw [SparseCore.bigSep_erase' (Finset.mem_erase.mpr ⟨(fun e => absurd (Proc.devRef_injective _ e) (show (cc0_scratch8 : Ref sig .scVector) ≠ cc0_scratch7 by decide)), Finset.mem_erase.mpr ⟨(fun e => absurd (Proc.devRef_injective _ e) (show (cc0_scratch8 : Ref sig .scVector) ≠ cc0_scratch6 by decide)), Finset.mem_erase.mpr ⟨(fun e => absurd (Proc.devRef_injective _ e) (show (cc0_scratch8 : Ref sig .scVector) ≠ cc0_scratch5 by decide)), Finset.mem_erase.mpr ⟨(fun e => absurd (Proc.devRef_injective _ e) (show (cc0_scratch8 : Ref sig .scVector) ≠ cc0_scratch4 by decide)), Finset.mem_erase.mpr ⟨(fun e => absurd (Proc.devRef_injective _ e) (show (cc0_scratch8 : Ref sig .scVector) ≠ cc0_scratch3 by decide)), Finset.mem_erase.mpr ⟨(fun e => absurd (Proc.devRef_injective _ e) (show (cc0_scratch8 : Ref sig .scVector) ≠ cc0_scratch2 by decide)), Finset.mem_erase.mpr ⟨(fun e => absurd (Proc.devRef_injective _ e) (show (cc0_scratch8 : Ref sig .scVector) ≠ cc0_scratch1 by decide)), Finset.mem_erase.mpr ⟨(fun e => absurd (Proc.devRef_injective _ e) (show (cc0_scratch8 : Ref sig .scVector) ≠ cc0_scratch0 by decide)), SparseCore.Cfg.mem_ownRefs_of_owner (p := Proc.scVector (cV L) (jV L)) (b := (Proc.scVector (cV L) (jV L)).devRef cc0_scratch8) rfl⟩⟩⟩⟩⟩⟩⟩⟩)]

end Cert.Proof.KTile
end
-- ==== Proof.TilePay.lean ====
/-
  The call's payloads and the launch theorem's obligations for the vector-subcore kernel. A subcore is handed a read
  share of each operand array (one of thirty-two) and its own pieces of the result array, and hands them back; a
  SparseCore is handed exactly what its sixteen subcores are, so nothing is split or gathered at that level. The
  subcore's task is the run of the body on those resources and on its own scratch lines and semaphores.
-/
import Idealize.ShloMosaic.Lib.SparseCore.Launch
import Idealize.ShloMosaic.Lib.StableHlo.Run
import Idealize.ShloMosaic.Lib.Pipeline.Kit
import Idealize.ShloMosaic.Lib.Tactic
import proofs.«207464_g62843961475156_cont_9to1_m_1121_6_alg».proof.Proof.Gen.KernelIdeal
import proofs.«207464_g62843961475156_cont_9to1_m_1121_6_alg».proof.Proof.Gen.KernelIdeal.Skeleton
import proofs.«207464_g62843961475156_cont_9to1_m_1121_6_alg».proof.Proof.Ghost
import proofs.«207464_g62843961475156_cont_9to1_m_1121_6_alg».proof.Proof.TileDefs
import proofs.«207464_g62843961475156_cont_9to1_m_1121_6_alg».proof.Proof.TileBody
import proofs.«207464_g62843961475156_cont_9to1_m_1121_6_alg».proof.Proof.TileOwn

noncomputable section

namespace Cert.Proof.KTile

open Cert.KernelIdeal Cert.KernelIdeal.Gen Cert.Proof.KLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

local notation "xtW" => (Memref.whole Cert.KernelIdeal.main_v1_scv : Memref Cert.KernelIdeal.sig Kind.scVector Space.hbm Cert.KernelIdeal.S106496 EltTy.i32)
local notation "wfW" => (Memref.whole Cert.KernelIdeal.main_v2_scv : Memref Cert.KernelIdeal.sig Kind.scVector Space.hbm Cert.KernelIdeal.S10816000 EltTy.f32)
local notation "wlW" => (Memref.whole Cert.KernelIdeal.main_v4_scv : Memref Cert.KernelIdeal.sig Kind.scVector Space.hbm Cert.KernelIdeal.S26112 EltTy.f32)
local notation "ptW" => (Memref.whole Cert.KernelIdeal.main_v5_scv : Memref Cert.KernelIdeal.sig Kind.scVector Space.hbm Cert.KernelIdeal.S1343488 EltTy.f32)
local notation "s0W" => (Memref.whole Cert.KernelIdeal.cc0_scratch0 : Memref Cert.KernelIdeal.sig Kind.scVector Space.vmem Cert.KernelIdeal.S16000 EltTy.f32)
local notation "s1W" => (Memref.whole Cert.KernelIdeal.cc0_scratch1 : Memref Cert.KernelIdeal.sig Kind.scVector Space.vmem Cert.KernelIdeal.S16000 EltTy.f32)
local notation "s2W" => (Memref.whole Cert.KernelIdeal.cc0_scratch2 : Memref Cert.KernelIdeal.sig Kind.scVector Space.vmem Cert.KernelIdeal.S4096 EltTy.i32)
local notation "s3W" => (Memref.whole Cert.KernelIdeal.cc0_scratch3 : Memref Cert.KernelIdeal.sig Kind.scVector Space.vmem Cert.KernelIdeal.S4096 EltTy.i32)
local notation "s4W" => (Memref.whole Cert.KernelIdeal.cc0_scratch4 : Memref Cert.KernelIdeal.sig Kind.scVector Space.vmem Cert.KernelIdeal.S4096 EltTy.f32)
local notation "s5W" => (Memref.whole Cert.KernelIdeal.cc0_scratch5 : Memref Cert.KernelIdeal.sig Kind.scVector Space.vmem Cert.KernelIdeal.S26112 EltTy.f32)
local notation "s6W" => (Memref.whole Cert.KernelIdeal.cc0_scratch6 : Memref Cert.KernelIdeal.sig Kind.scVector Space.vmem Cert.KernelIdeal.S3328 EltTy.i32)
local notation "s7W" => (Memref.whole Cert.KernelIdeal.cc0_scratch7 : Memref Cert.KernelIdeal.sig Kind.scVector Space.vmem Cert.KernelIdeal.S128 EltTy.f32)
local notation "s8W" => (Memref.whole Cert.KernelIdeal.cc0_scratch8 : Memref Cert.KernelIdeal.sig Kind.scVector Space.vmem Cert.KernelIdeal.S128 EltTy.f32)

/-! ## What the call hands each subcore, and the launch theorem's obligations -/

section PayDefs

variable (x1 : (d : Dev nD) → Buf (Elt F) (v1Loc d)) (w2 : (d : Dev nD) → Buf (Elt F) (v2Loc d)) (w4 : (d : Dev nD) → Buf (Elt F) (v4Loc d))

/-- The number of a subcore among the thirty-two: sixteen per SparseCore. -/
def tokOf (L : grid0.Coords) : Fin 32 := ⟨16 * (L 0).val + (L 1).val, by
  have h0 : (L 0).val < 2 := (L 0).isLt
  have h1 : (L 1).val < 16 := (L 1).isLt
  omega⟩

/-- One subcore's part of the call: a read share of each of the three operand arrays at their contents, and its pieces
    of the result array. -/
def tileRes (d : Dev nD) (L : grid0.Coords) : sProp 𝕄 :=
  iprop((v1Loc d ↦{Transfers.shareTok fullShare 32 (tokOf L)} x1 d) ∗ (v2Loc d ↦{Transfers.shareTok fullShare 32 (tokOf L)} w2 d)
    ∗ (v4Loc d ↦{Transfers.shareTok fullShare 32 (tokOf L)} w4 d) ∗ tilePieces d L)

def coordsV (c : Fin (grid0.bound 0)) (s : Fin (grid0.bound 1)) : grid0.Coords :=
  fun | 0 => c | 1 => s | ⟨_ + 2, h⟩ => absurd h (Nat.not_lt.2 (Nat.le_add_left _ _))

/-- The call's payloads: a SparseCore is handed what its sixteen subcores are, a subcore its part; both come back
    as they went (the result pieces at whatever the tasks left). -/
def P : PayT F where
  st := fun q d c => match q with
    | 0 => bigSep Finset.univ fun i : Fin ((K (F := F)).nSub 0) => tileRes x1 w2 w4 d (coordsV ⟨c.val, c.isLt⟩ ⟨i.val, i.isLt⟩)
  dn := fun q d c => match q with
    | 0 => bigSep Finset.univ fun i : Fin ((K (F := F)).nSub 0) => tileRes x1 w2 w4 d (coordsV ⟨c.val, c.isLt⟩ ⟨i.val, i.isLt⟩)
  go := fun q d c i => match q with
    | 0 => tileRes x1 w2 w4 d (coordsV ⟨c.val, c.isLt⟩ ⟨i.val, i.isLt⟩)
  td := fun q d c i => match q with
    | 0 => tileRes x1 w2 w4 d (coordsV ⟨c.val, c.isLt⟩ ⟨i.val, i.isLt⟩)
  x := fun _ _ => iprop(emp)

set_option synthInstance.maxHeartbeats 1000000 in
instance tileRes_storable (d : Dev nD) (L : grid0.Coords) : BI.Storable (upEmb : UEmb _ 𝕄) (tileRes x1 w2 w4 d L) := by
  unfold tileRes tilePieces; infer_instance

set_option synthInstance.maxHeartbeats 1000000 in
instance P_storable : (P (F := F) x1 w2 w4).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

theorem defs₀_vector (c : Fin τ.nSC) (s : Fin τ.nSub) :
    defs₀ (F := F) (.scVector c s) 0 ()
      = SparseCore.onTile hcore0 hsub0 (fun c s => cc0__sc_body (F := F) (coordsV c s) xtW (Memref.isWhole_whole _) wfW (Memref.isWhole_whole _) wlW (Memref.isWhole_whole _) ptW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The HBM arrays as a subcore's memrefs address them are the device's arrays. -/
theorem pts_xt (q : PosShare TreeShare) (f : Buf (Elt F) (v1Loc d)) :
    ((xtW).view.loc (thr d L) ↦{q} f : sProp 𝕄) = v1Loc d ↦{q} f := by
  simp only [Memref.view_whole, View.set_whole]
theorem pts_wf (q : PosShare TreeShare) (f : Buf (Elt F) (v2Loc d)) :
    ((wfW).view.loc (thr d L) ↦{q} f : sProp 𝕄) = v2Loc d ↦{q} f := by
  simp only [Memref.view_whole, View.set_whole]
theorem pts_wl (q : PosShare TreeShare) (f : Buf (Elt F) (v4Loc d)) :
    ((wlW).view.loc (thr d L) ↦{q} f : sProp 𝕄) = v4Loc d ↦{q} f := by
  simp only [Memref.view_whole, View.set_whole]

/-- One subcore's task, from its part of the call and its own scratch and semaphores back to them. -/
theorem tile_task (hF : (K (F := F)).Facts) (hx1 : ∀ y, (x1 d y : BitVec 32).toNat ≤ 999)
    (O : CellTallies nD τ sig (HIx 1)) (W : Waits sig (HIx 1)) (hO : ∀ g, O g none = 0) :
    iprop(levAts (K (F := F)).L (K (F := F)).lev ∗ emp ∗ tileRes x1 w2 w4 d L
        ∗ scopedBufs (thr d L) ∗ scopedSems0 (thr d L) ∗ owes (thr d L) O W)
      ⊢ wp frame (wpE (defs₀ (F := F)) 𝒱₀ (thr d L) none) Set.univ
          (cc0__sc_body (F := F) L xtW (Memref.isWhole_whole _) wfW (Memref.isWhole_whole _) wlW (Memref.isWhole_whole _) ptW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39)
          fun _ => iprop(tileRes x1 w2 w4 d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tileRes tilePieces
  iintro ⟨#Hlv, -, ⟨Hxt, Hwf, Hwl, Hr0, Hr1, Hr2, Hpt⟩, ⟨Hs0, Hs1, Hs2, Hs3, Hs4, Hs5, Hs6, Hs7, Hs8, Hbufs⟩, ⟨Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, Hm40, Hm41, Hm42⟩, HO⟩
  ihave Hxt' := (Entails.of_eq (pts_xt (F := F) d L _ _).symm) $$ Hxt
  ihave Hwf' := (Entails.of_eq (pts_wf (F := F) d L _ _).symm) $$ Hwf
  ihave Hwl' := (Entails.of_eq (pts_wl (F := F) d L _ _).symm) $$ Hwl
  iapply (wp_wand_r frame _ _)
  isplitl [Hxt' Hwf' Hwl' Hr0 Hr1 Hr2 Hpt Hs0 Hs1 Hs2 Hs3 Hs4 Hs5 Hs6 Hs7 Hs8 Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39 HO]
  · iapply (tile_body (F := F) d L _ _ _ (x1 d) (w2 d) (w4 d) hx1 O W hO)
    isplitr; · iexact Hlv
    isplitl [Hxt']; · iexact Hxt'
    isplitl [Hwf']; · iexact Hwf'
    isplitl [Hwl']; · iexact Hwl'
    isplitl [Hr0]; · iexact Hr0
    isplitl [Hr1]; · iexact Hr1
    isplitl [Hr2]; · iexact Hr2
    isplitl [Hpt]; · iexact Hpt
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    isplitl [Hm21]; · iexact Hm21
    isplitl [Hm22]; · iexact Hm22
    isplitl [Hm23]; · iexact Hm23
    isplitl [Hm24]; · iexact Hm24
    isplitl [Hm25]; · iexact Hm25
    isplitl [Hm26]; · iexact Hm26
    isplitl [Hm27]; · iexact Hm27
    isplitl [Hm28]; · iexact Hm28
    isplitl [Hm29]; · iexact Hm29
    isplitl [Hm30]; · iexact Hm30
    isplitl [Hm31]; · iexact Hm31
    isplitl [Hm32]; · iexact Hm32
    isplitl [Hm33]; · iexact Hm33
    isplitl [Hm34]; · iexact Hm34
    isplitl [Hm35]; · iexact Hm35
    isplitl [Hm36]; · iexact Hm36
    isplitl [Hm37]; · iexact Hm37
    isplitl [Hm38]; · iexact Hm38
    isplitl [Hm39]; · iexact Hm39
    iexact HO
  · iintro %a Hpost
    icases Hpost with ⟨Hxt, Hwf, Hwl, Hr0, Hr1, Hr2, Hpt, Hs0, Hs1, Hs2, Hs3, Hs4, Hs5, Hs6, Hs7, Hs8, Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, HW⟩
    isplitl [Hxt Hwf Hwl Hr0 Hr1 Hr2 Hpt]
    · isplitl [Hxt]; · iapply (Entails.of_eq (pts_xt (F := F) d L _ _)); iexact Hxt
      isplitl [Hwf]; · iapply (Entails.of_eq (pts_wf (F := F) d L _ _)); iexact Hwf
      isplitl [Hwl]; · iapply (Entails.of_eq (pts_wl (F := F) d L _ _)); iexact Hwl
      isplitl [Hr0]; · iexact Hr0
      isplitl [Hr1]; · iexact Hr1
      isplitl [Hr2]; · iexact Hr2
      iexact Hpt
    isplitl [Hs0 Hs1 Hs2 Hs3 Hs4 Hs5 Hs6 Hs7 Hs8 Hbufs]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hbufs
    isplitl [Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39 Hm40 Hm41 Hm42]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      isplitl [Hm15]; · iexact Hm15
      isplitl [Hm16]; · iexact Hm16
      isplitl [Hm17]; · iexact Hm17
      isplitl [Hm18]; · iexact Hm18
      isplitl [Hm19]; · iexact Hm19
      isplitl [Hm20]; · iexact Hm20
      isplitl [Hm21]; · iexact Hm21
      isplitl [Hm22]; · iexact Hm22
      isplitl [Hm23]; · iexact Hm23
      isplitl [Hm24]; · iexact Hm24
      isplitl [Hm25]; · iexact Hm25
      isplitl [Hm26]; · iexact Hm26
      isplitl [Hm27]; · iexact Hm27
      isplitl [Hm28]; · iexact Hm28
      isplitl [Hm29]; · iexact Hm29
      isplitl [Hm30]; · iexact Hm30
      isplitl [Hm31]; · iexact Hm31
      isplitl [Hm32]; · iexact Hm32
      isplitl [Hm33]; · iexact Hm33
      isplitl [Hm34]; · iexact Hm34
      isplitl [Hm35]; · iexact Hm35
      isplitl [Hm36]; · iexact Hm36
      isplitl [Hm37]; · iexact Hm37
      isplitl [Hm38]; · iexact Hm38
      isplitl [Hm39]; · iexact Hm39
      isplitl [Hm40]; · iexact Hm40
      isplitl [Hm41]; · iexact Hm41
      iexact Hm42
    iexact HW

end PayDefs

section Obl

variable (x1 : (d : Dev nD) → Buf (Elt F) (v1Loc d)) (w2 : (d : Dev nD) → Buf (Elt F) (v2Loc d)) (w4 : (d : Dev nD) → Buf (Elt F) (v4Loc d))

/-- The launch theorem's obligation for the vector-subcore kernel: every subcore's task. -/
theorem tileObl (hF : (K (F := F)).Facts) (hx1 : ∀ d y, (x1 d y : BitVec 32).toNat ≤ 999) :
    (K (F := F)).TileObl (D (F := F)) 𝒱 (P x1 w2 w4) v₀ 0 := by
  intro d c i O W hO _ _
  simp only [show (P x1 w2 w4).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task d (coordsV ⟨_, hc.1⟩ ⟨_, hc.2⟩) x1 w2 w4 hF (hx1 d) O W hO).trans (wp_mono frame _ _ fun _ => obl_post)

/-- A SparseCore's part of the call IS its sixteen subcores' parts: nothing to split or gather. -/
theorem vecSplit : (K (F := F)).VecSplit' (P x1 w2 w4) 0 := by
  intro d c
  unfold P; dsimp only
  iintro H
  imodintro
  isplitl [H]; · iexact H
  iintro H; iexact H

end Obl

end Cert.Proof.KTile
end
-- ==== Proof.Spec.lean ====
/-
  The common specification of the two programs.

  With rowId(b,f) = x[b,f] + 1000·f, both programs compute
    out[b,0] = logistic( bias[0] + Σ_f W_linear[rowId(b,f),0]
                         + Σ_{unordered pairs {i,j} of fields} Σ_d W_cross[j,rowId(b,i),d] · W_cross[i,rowId(b,j),d] ).
  They differ in the order in which the 325 unordered pairs of the 26 fields are enumerated (a round-robin tournament
  on one side, the lexicographic order on the other), in the order of the outer additions, and in how the logistic
  function is written.  This module fixes the vocabulary: the row index, the linear term, the cross term of one pair,
  the two enumerations of the pairs, and the two closed forms of the output.
-/
import Idealize.ShloMosaic.PureOps.Ideal
import Idealize.ShloMosaic.Lib.ValueIdx
import Mathlib

noncomputable section

open scoped BigOperators

namespace Cert.Spec

open Idealize.ShloMosaic Idealize.ShloMosaic.ValueIdx

/-- The shape of the index matrix `x`. -/
abbrev SX : Shape := ⟨2, ![4096, 26]⟩
/-- The shape of the field-aware tables `W_cross`. -/
abbrev SW : Shape := ⟨3, ![26, 26000, 16]⟩
/-- The shape of the linear table `W_linear`. -/
abbrev SL : Shape := ⟨2, ![26000, 1]⟩
/-- The shape of the bias. -/
abbrev SB : Shape := ⟨1, ![1]⟩
/-- The shape of the output. -/
abbrev SO : Shape := ⟨2, ![4096, 1]⟩

/-- The global row of field `f` for batch element `b`: `x[b,f] + 1000·f`. The reduction modulo 26000 only spares a
    side proof; for `0 ≤ x[b,f] ≤ 999` it is the identity. -/
def rowId (x : IVec SX 32) (b : Fin 4096) (f : Fin 26) : Fin 26000 :=
  ⟨((x (ix2 b f)).toNat + 1000 * f.val) % 26000, Nat.mod_lt _ (by norm_num)⟩

/-- The linear term: the sum over the fields of the linear table's entry at the field's row. -/
def lin (x : IVec SX 32) (Wl : FVec Ideal SL .f32) (b : Fin 4096) : EReal :=
  ∑ f : Fin 26, Wl (ix2 (rowId x b f) 0)

/-- The cross term of the ordered pair of fields `(i, j)`: the inner product over the 16 embedding coordinates of
    table `j` at field `i`'s row with table `i` at field `j`'s row. -/
def cross (x : IVec SX 32) (W : FVec Ideal SW .f32) (b : Fin 4096) (i j : Fin 26) : EReal :=
  ∑ d : Fin 16, W (ix3 j (rowId x b i) d) * W (ix3 i (rowId x b j) d)

/-- The cross term is symmetric in the two fields: each product commutes. -/
theorem cross_comm (x : IVec SX 32) (W : FVec Ideal SW .f32) (b : Fin 4096) (i j : Fin 26) :
    cross x W b i j = cross x W b j i := by
  unfold cross
  exact Finset.sum_congr rfl fun d _ => mul_comm _ _

/-! ## The round-robin enumeration of the pairs

  Task `p < 325` has round `r = p / 13` (`0 ≤ r ≤ 24`) and game `g = p mod 13`.  Game `0` of round `r` pairs field `r`
  with field `25`; game `g ≥ 1` pairs `(r + g) mod 25` with `(r − g) mod 25`. -/

/-- The first field of task `p`. -/
def ti (p : Fin 325) : Fin 26 :=
  ⟨(if p.val % 13 = 0 then p.val / 13 else (p.val / 13 + p.val % 13) % 25) % 26, Nat.mod_lt _ (by norm_num)⟩

/-- The second field of task `p`. -/
def tj (p : Fin 325) : Fin 26 :=
  ⟨(if p.val % 13 = 0 then 25 else (p.val / 13 + 25 - p.val % 13) % 25) % 26, Nat.mod_lt _ (by norm_num)⟩

/-! ## The lexicographic enumeration of the pairs

  The pairs `(i, j)` with `i < j < 26` in lexicographic order: row `i` holds the `25 − i` pairs `(i, i+1), …, (i, 25)`. -/

/-- The `k`-th pair counted from the start of row `i`, by walking down the rows (`fuel` bounds the number of rows
    still to be skipped). -/
def lexAux : ℕ → ℕ → ℕ → ℕ × ℕ
  | 0, i, k => (i, i + 1 + k)
  | fuel + 1, i, k => if k < 25 - i then (i, i + 1 + k) else lexAux fuel (i + 1) (k - (25 - i))

/-- The smaller field of the `k`-th pair in lexicographic order. -/
def ri (k : Fin 325) : Fin 26 := ⟨(lexAux 25 0 k.val).1 % 26, Nat.mod_lt _ (by norm_num)⟩

/-- The larger field of the `k`-th pair in lexicographic order. -/
def rj (k : Fin 325) : Fin 26 := ⟨(lexAux 25 0 k.val).2 % 26, Nat.mod_lt _ (by norm_num)⟩

/-! ## The two closed forms of the output -/

/-- The output as the first program computes it: the cross terms in tournament order, then the linear term, then the
    bias, then the logistic function. -/
def kerOut (x : IVec SX 32) (W : FVec Ideal SW .f32) (Wl : FVec Ideal SL .f32) (bias : FVec Ideal SB .f32) :
    FVec Ideal SO .f32 :=
  fun idx => Ideal.logistic (((∑ p : Fin 325, cross x W (idx 0) (ti p) (tj p)) + lin x Wl (idx 0)) + bias (ix1 0))

/-- The output as the second program computes it: linear term plus bias, plus the cross terms in lexicographic order,
    then `1 / (1 + exp (−z))`. -/
def refOut (x : IVec SX 32) (W : FVec Ideal SW .f32) (Wl : FVec Ideal SL .f32) (bias : FVec Ideal SB .f32) :
    FVec Ideal SO .f32 :=
  fun idx => Ideal.div 1 (1 + Ideal.exp (-((lin x Wl (idx 0) + bias (ix1 0)) +
    ∑ k : Fin 325, cross x W (idx 0) (ri k) (rj k))))

end Cert.Spec
-- ==== Proof.TaskIdx.lean ====
/-
  Closed forms of what the first program computes in 32-bit words in its task loop: the number of tasks a subcore runs,
  the task a trip stands for, and the offsets of the five slices a task copies — the two columns of `x`, the two
  16000-word tables of `W_cross`, and the 4096-word row of partial sums it writes.  Every one is a check over the 32
  subcores and their 10 or 11 trips.  Last, the tasks of the 32 subcores partition the 325 tasks.
-/
import proofs.«207464_g62843961475156_cont_9to1_m_1121_6_alg».proof.Proof.Gen.KernelIdeal
import proofs.«207464_g62843961475156_cont_9to1_m_1121_6_alg».proof.Proof.Spec

set_option synthInstance.maxSize 4096
set_option Elab.async false

open scoped BigOperators

namespace Cert.KernelIdeal.Tasks

open Idealize.ShloMosaic Cert.Spec

/-- The worker number of a grid point: `2·subcore + core`, in `0 … 31`. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- The first five workers run 11 tasks, the others 10. -/
theorem trips_eq : ∀ i : grid0.Coords, (k0_t2_loop i).trips = if wid i < 5 then 11 else 10 := by decide +kernel

/-- The task of trip `t` of worker `i`: the workers take consecutive ranges of tasks, starting at
    `10·wid + min wid 5`. -/
def task (i : grid0.Coords) (t : Fin (k0_t2_loop i).trips) : Fin 325 :=
  ⟨10 * wid i + min (wid i) 5 + t.val, by
    have ht : t.val < if wid i < 5 then 11 else 10 := lt_of_lt_of_eq t.isLt (trips_eq i)
    have hw := wid_lt i
    split at ht <;> omega⟩

theorem task_val (i : grid0.Coords) (t : Fin (k0_t2_loop i).trips) :
    (task i t).val = 10 * wid i + min (wid i) 5 + t.val := rfl

/-- The first column of `x` a task copies is its first field's. -/
theorem k0_off30_eq : ∀ (i : grid0.Coords) (t : Fin (k0_t2_loop i).trips),
    k0_off30 i t = ![4096 * (ti (task i t)).val] := by decide +kernel

/-- The second column of `x` a task copies is its second field's. -/
theorem k0_off31_eq : ∀ (i : grid0.Coords) (t : Fin (k0_t2_loop i).trips),
    k0_off31 i t = ![4096 * (tj (task i t)).val] := by decide +kernel

/-- The first table a task copies: table `tj`, the 1000 rows of field `ti`. -/
theorem k0_off32_eq : ∀ (i : grid0.Coords) (t : Fin (k0_t2_loop i).trips),
    k0_off32 i t = ![16 * (26000 * (tj (task i t)).val + 1000 * (ti (task i t)).val)] := by decide +kernel

/-- The second table a task copies: table `ti`, the 1000 rows of field `tj`. -/
theorem k0_off33_eq : ∀ (i : grid0.Coords) (t : Fin (k0_t2_loop i).trips),
    k0_off33 i t = ![16 * (26000 * (ti (task i t)).val + 1000 * (tj (task i t)).val)] := by decide +kernel

/-- The row of partial sums a task writes is the task's own. -/
theorem k0_off36_eq : ∀ (i : grid0.Coords) (t : Fin (k0_t2_loop i).trips),
    k0_off36 i t = ![4096 * (task i t).val] := by decide +kernel

/-! ## The tasks of the 32 workers partition the 325 tasks

  Worker `w` runs the tasks `10·w + min w 5 + t`, `t < 11` for `w < 5` and `t < 10` otherwise: consecutive ranges, the
  next worker starting where the previous one stops, from `0` up to `10·31 + 5 + 10 = 325`. -/

/-- Two trips that stand for the same task are the same trip of the same worker. -/
theorem task_inj {i i' : grid0.Coords} {t : Fin (k0_t2_loop i).trips} {t' : Fin (k0_t2_loop i').trips}
    (h : task i t = task i' t') : i = i' ∧ t.val = t'.val := by
  have hv := congrArg Fin.val h
  rw [task_val, task_val] at hv
  have ht : t.val < if wid i < 5 then 11 else 10 := lt_of_lt_of_eq t.isLt (trips_eq i)
  have ht' : t'.val < if wid i' < 5 then 11 else 10 := lt_of_lt_of_eq t'.isLt (trips_eq i')
  have h0 : (i 0).val < 2 := (i 0).isLt
  have h0' : (i' 0).val < 2 := (i' 0).isLt
  have hw : wid i = wid i' ∧ t.val = t'.val := by
    split at ht <;> split at ht' <;> omega
  refine ⟨?_, hw.2⟩
  have hw1 := hw.1
  unfold wid at hw1
  funext a
  match a with
  | ⟨0, _⟩ => exact Fin.ext (show (i 0).val = (i' 0).val by omega)
  | ⟨1, _⟩ => exact Fin.ext (show (i 1).val = (i' 1).val by omega)

/-- Every task is some trip of some worker. -/
theorem task_surj (p : Fin 325) : ∃ (i : grid0.Coords) (t : Fin (k0_t2_loop i).trips), task i t = p := by
  have hp := p.isLt
  -- the worker whose range holds `p`: the first five ranges have length 11, the others length 10
  obtain ⟨w, hw, hlo, hhi⟩ : ∃ w, w < 32 ∧ 10 * w + min w 5 ≤ p.val ∧
      p.val < 10 * w + min w 5 + (if w < 5 then 11 else 10) := by
    by_cases h : p.val < 55
    · refine ⟨p.val / 11, by omega, ?_, ?_⟩
      · have : p.val / 11 < 5 := by omega
        rw [Nat.min_eq_left (by omega)]; omega
      · have : p.val / 11 < 5 := by omega
        rw [Nat.min_eq_left (by omega), if_pos this]; omega
    · refine ⟨(p.val - 5) / 10, by omega, ?_, ?_⟩
      · have : 5 ≤ (p.val - 5) / 10 := by omega
        rw [Nat.min_eq_right this]; omega
      · have : 5 ≤ (p.val - 5) / 10 := by omega
        rw [Nat.min_eq_right this, if_neg (by omega)]; omega
  let i : grid0.Coords := ValueIdx.ix2 (⟨w % 2, Nat.mod_lt _ (by norm_num)⟩ : Fin 2) (⟨w / 2, by omega⟩ : Fin 16)
  have hwid : wid i = w := by
    show 2 * (w / 2) + w % 2 = w
    omega
  have htr : p.val - (10 * w + min w 5) < (k0_t2_loop i).trips := by
    rw [trips_eq i, hwid]; omega
  refine ⟨i, ⟨p.val - (10 * w + min w 5), htr⟩, Fin.ext ?_⟩
  rw [task_val, hwid]
  show 10 * w + min w 5 + (p.val - (10 * w + min w 5)) = p.val
  omega

/-- The trips of all workers, as pairs (worker, trip), are the 325 tasks. -/
noncomputable def taskEquiv : (Σ i : grid0.Coords, Fin (k0_t2_loop i).trips) ≃ Fin 325 :=
  Equiv.ofBijective (fun s => task s.1 s.2)
    ⟨fun s s' h => by
      obtain ⟨i, t⟩ := s
      obtain ⟨i', t'⟩ := s'
      obtain ⟨hi, ht⟩ := task_inj h
      subst hi
      exact congrArg _ (Fin.ext ht),
     fun p => by
      obtain ⟨i, t, h⟩ := task_surj p
      exact ⟨⟨i, t⟩, h⟩⟩

theorem taskEquiv_apply (i : grid0.Coords) (t : Fin (k0_t2_loop i).trips) : taskEquiv ⟨i, t⟩ = task i t := rfl

/-- A sum over the 325 tasks is the sum over the workers of the sums over their trips. -/
theorem sum_tasks {M : Type*} [AddCommMonoid M] (f : Fin 325 → M) :
    ∑ p : Fin 325, f p = ∑ i : grid0.Coords, ∑ t : Fin (k0_t2_loop i).trips, f (task i t) := by
  rw [← Equiv.sum_comp taskEquiv f, Fintype.sum_sigma]
  rfl

/-- A statement about every task is one about every trip of every worker. -/
theorem forall_tasks {P : Fin 325 → Prop} : (∀ p, P p) ↔ ∀ (i : grid0.Coords) (t : Fin (k0_t2_loop i).trips), P (task i t) :=
  ⟨fun h i t => h _, fun h p => by obtain ⟨i, t, rfl⟩ := task_surj p; exact h i t⟩

end Cert.KernelIdeal.Tasks
-- ==== Proof.PartSplit.lean ====
/-
  The result array of the SparseCore call, 1343488 words, is 328 rows of 4096 words.  Rows 0 … 324 are the rows of the
  325 tasks; each of the rows 325, 326, 327 is cut into 32 pieces of 128 words, one per vector subcore.  A subcore owns
  the rows of its tasks and its piece of each of the last three rows.  These pieces, over the 32 subcores, are pairwise
  disjoint and cover the array, so the array held whole is the same as every subcore holding its pieces.
-/
import proofs.«207464_g62843961475156_cont_9to1_m_1121_6_alg».proof.Proof.TileDefs
import proofs.«207464_g62843961475156_cont_9to1_m_1121_6_alg».proof.Proof.TaskIdx

noncomputable section

namespace Cert.Proof.KTile

open Cert.KernelIdeal Cert.KernelIdeal.Gen Cert.Proof.KLaunch Cert.KernelIdeal.Tasks

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

/-! ## Positions and intervals -/

/-- The position of an index of the flat array. -/
def pos (i : S1343488.Idx) : ℕ := (i 0).val

theorem pos_lt (i : S1343488.Idx) : pos i < 1343488 := (i 0).isLt

/-- A unit-stride rectangle of the flat array is an interval of positions. -/
theorem mem_unit1 {off size : Fin 1 → ℕ} {inb : ∀ a, off a + size a ≤ S1343488.size a} (i : S1343488.Idx) :
    i ∈ (Rect.unit (s := S1343488) off size inb).set ↔ off 0 ≤ pos i ∧ pos i < off 0 + size 0 := by
  rw [Rect.mem_set_unit]
  exact Fin.forall_fin_one

/-! ## The pieces of one subcore -/

/-- The elements of the piece of row `325 + r` subcore `L` owns. -/
def rowSet (L : grid0.Coords) (r : Fin 3) : Finset S1343488.Idx :=
  match r with
  | 0 => (ptRow0 L).view.set
  | 1 => (ptRow1 L).view.set
  | 2 => (ptRow2 L).view.set

/-- The elements of the row of the task of trip `t` of subcore `L`. -/
def taskSet (L : grid0.Coords) (t : Fin (k0_t2_loop L).trips) : Finset S1343488.Idx := (ptTask L t).view.set

/-- The piece of row `325 + r` is the `wid`-th interval of 128 positions of that row. -/
theorem mem_rowSet (L : grid0.Coords) (r : Fin 3) (i : S1343488.Idx) :
    i ∈ rowSet L r ↔ 1331200 + 4096 * r.val + 128 * wid L ≤ pos i ∧ pos i < 1331200 + 4096 * r.val + 128 * wid L + 128 := by
  have e : ∀ r : Fin 3, k0_off29 L (BitVec.ofNat 32 (1331200 + 4096 * r.val)) 0 = 1331200 + 4096 * r.val + 128 * wid L := by
    intro r; rw [k0_off29_eq L r]; show 4096 * r.val + 256 * (L 1).val + 128 * (L 0).val + 1331200 = _; unfold wid; omega
  match r with
  | 0 =>
    show i ∈ ((View.whole main_v5_scv).slice (Rect.unit (s := S1343488) (k0_off29 L 1331200#32) S128.size (k0_off29_inb L 0))).set ↔ _
    rw [View.set_slice_whole, mem_unit1, show k0_off29 L 1331200#32 0 = _ from e 0]; exact Iff.rfl
  | 1 =>
    show i ∈ ((View.whole main_v5_scv).slice (Rect.unit (s := S1343488) (k0_off29 L 1335296#32) S128.size (k0_off29_inb L 1))).set ↔ _
    rw [View.set_slice_whole, mem_unit1, show k0_off29 L 1335296#32 0 = _ from e 1]; exact Iff.rfl
  | 2 =>
    show i ∈ ((View.whole main_v5_scv).slice (Rect.unit (s := S1343488) (k0_off29 L 1339392#32) S128.size (k0_off29_inb L 2))).set ↔ _
    rw [View.set_slice_whole, mem_unit1, show k0_off29 L 1339392#32 0 = _ from e 2]; exact Iff.rfl

/-- The row of a task is the task's interval of 4096 positions. -/
theorem mem_taskSet (L : grid0.Coords) (t : Fin (k0_t2_loop L).trips) (i : S1343488.Idx) :
    i ∈ taskSet L t ↔ 4096 * (task L t).val ≤ pos i ∧ pos i < 4096 * (task L t).val + 4096 := by
  have e : k0_off36 L t 0 = 4096 * (task L t).val := by rw [k0_off36_eq L t]; rfl
  show i ∈ ((View.whole main_v5_scv).slice (Rect.unit (s := S1343488) (k0_off36 L t) S4096.size (k0_off36_inb L t))).set ↔ _
  rw [View.set_slice_whole, mem_unit1, e]; exact Iff.rfl

/-! ## The worker number names the subcore -/

theorem wid_inj {L L' : grid0.Coords} (h : wid L = wid L') : L = L' := by
  have h0 : (L 0).val < 2 := (L 0).isLt
  have h0' : (L' 0).val < 2 := (L' 0).isLt
  unfold wid at h
  funext a
  match a with
  | ⟨0, _⟩ => exact Fin.ext (show (L 0).val = (L' 0).val by omega)
  | ⟨1, _⟩ => exact Fin.ext (show (L 1).val = (L' 1).val by omega)

/-- The grid point of core `c`, subcore `s`, in the program's spelling. -/
def coords (c : Fin 2) (s : Fin 16) : grid0.Coords :=
  fun | 0 => c | 1 => s | ⟨_ + 2, h⟩ => absurd h (Nat.not_lt.2 (Nat.le_add_left _ _))

theorem coords_eta (L : grid0.Coords) : coords (L 0) (L 1) = L := by
  funext a
  match a with
  | ⟨0, _⟩ => rfl
  | ⟨1, _⟩ => rfl

theorem wid_surj (w : ℕ) (hw : w < 32) : ∃ L : grid0.Coords, wid L = w :=
  ⟨coords ⟨w % 2, Nat.mod_lt _ (by norm_num)⟩ ⟨w / 2, by omega⟩, by show 2 * (w / 2) + w % 2 = w; omega⟩

/-! ## All the pieces: pairwise disjoint, covering the array -/

/-- The pieces of one subcore: three pieces of rows, and one row per trip. -/
abbrev Pc (L : grid0.Coords) : Type := Fin 3 ⊕ Fin (k0_t2_loop L).trips

/-- The elements of a piece. -/
def pcSet (L : grid0.Coords) : Pc L → Finset S1343488.Idx
  | .inl r => rowSet L r
  | .inr t => taskSet L t

/-- Where a piece starts … -/
def lo (L : grid0.Coords) : Pc L → ℕ
  | .inl r => 1331200 + 4096 * r.val + 128 * wid L
  | .inr t => 4096 * (task L t).val
/-- … and how long it is. -/
def len (L : grid0.Coords) : Pc L → ℕ
  | .inl _ => 128
  | .inr _ => 4096

theorem mem_pcSet (L : grid0.Coords) (pc : Pc L) (i : S1343488.Idx) :
    i ∈ pcSet L pc ↔ lo L pc ≤ pos i ∧ pos i < lo L pc + len L pc := by
  cases pc with
  | inl r => exact mem_rowSet L r i
  | inr t => exact mem_taskSet L t i

/-- Two pieces with a common element are the same piece of the same subcore. -/
theorem pc_eq_of_mem {L L' : grid0.Coords} {pc : Pc L} {pc' : Pc L'} {i : S1343488.Idx}
    (h : i ∈ pcSet L pc) (h' : i ∈ pcSet L' pc') : (⟨L, pc⟩ : Σ L, Pc L) = ⟨L', pc'⟩ := by
  rw [mem_pcSet] at h h'
  have hw := wid_lt L
  have hw' := wid_lt L'
  cases pc with
  | inl r =>
    cases pc' with
    | inl r' =>
      have hr := r.isLt
      have hr' := r'.isLt
      simp only [lo, len] at h h'
      have e : wid L = wid L' ∧ r.val = r'.val := by omega
      obtain rfl := wid_inj e.1
      obtain rfl := Fin.ext e.2
      rfl
    | inr t' =>
      have ht := (task L' t').isLt
      simp only [lo, len] at h h'
      omega
  | inr t =>
    cases pc' with
    | inl r' =>
      have ht := (task L t).isLt
      simp only [lo, len] at h h'
      omega
    | inr t' =>
      simp only [lo, len] at h h'
      have e : task L t = task L' t' := Fin.ext (by omega)
      obtain ⟨rfl, ht⟩ := task_inj e
      obtain rfl := Fin.ext ht
      rfl

theorem pcSet_disjoint (L : grid0.Coords) {pc pc' : Pc L} (h : pc ≠ pc') : Disjoint (pcSet L pc) (pcSet L pc') := by
  rw [Finset.disjoint_left]
  intro i hi hi'
  exact h (sigma_mk_injective (pc_eq_of_mem hi hi'))

/-- Everything subcore `L` owns of the array. -/
def tileSet (L : grid0.Coords) : Finset S1343488.Idx := Finset.univ.biUnion (pcSet L)

theorem tileSet_def (L : grid0.Coords) : tileSet L = Finset.univ.biUnion (pcSet L) := rfl

theorem mem_tileSet (L : grid0.Coords) (i : S1343488.Idx) : i ∈ tileSet L ↔ ∃ pc, i ∈ pcSet L pc := by
  rw [tileSet_def]
  simp only [Finset.mem_biUnion, Finset.mem_univ, true_and]

attribute [irreducible] tileSet

theorem tile_eq_of_mem {L L' : grid0.Coords} {pc : Pc L} {pc' : Pc L'} {i : S1343488.Idx}
    (h : i ∈ pcSet L pc) (h' : i ∈ pcSet L' pc') : L = L' := congrArg Sigma.fst (pc_eq_of_mem h h')

theorem tileSet_disjoint {L L' : grid0.Coords} (h : L ≠ L') : Disjoint (tileSet L) (tileSet L') := by
  rw [Finset.disjoint_left]
  intro i hi hi'
  rw [mem_tileSet] at hi hi'
  obtain ⟨pc, hpc⟩ := hi
  obtain ⟨pc', hpc'⟩ := hi'
  exact h (tile_eq_of_mem hpc hpc')

/-- Every element of the array is in some subcore's part: a position below `325·4096` lies in the row of a task, which
    some trip of some subcore runs; a position above lies in one of the 32 pieces of one of the last three rows. -/
theorem exists_tile (i : S1343488.Idx) : ∃ L, i ∈ tileSet L := by
  have hv := pos_lt i
  by_cases h : pos i < 1331200
  · obtain ⟨L, t, ht⟩ := task_surj ⟨pos i / 4096, by omega⟩
    refine ⟨L, ?_⟩
    rw [mem_tileSet]
    refine ⟨Sum.inr t, ?_⟩
    show i ∈ taskSet L t
    rw [mem_taskSet]
    have e : (task L t).val = pos i / 4096 := congrArg Fin.val ht
    omega
  · obtain ⟨L, hL⟩ := wid_surj ((pos i - 1331200) % 4096 / 128) (by omega)
    refine ⟨L, ?_⟩
    rw [mem_tileSet]
    refine ⟨Sum.inl ⟨(pos i - 1331200) / 4096, by omega⟩, ?_⟩
    show i ∈ rowSet L ⟨(pos i - 1331200) / 4096, _⟩
    rw [mem_rowSet]
    show 1331200 + 4096 * ((pos i - 1331200) / 4096) + 128 * wid L ≤ pos i ∧
      pos i < 1331200 + 4096 * ((pos i - 1331200) / 4096) + 128 * wid L + 128
    rw [hL]
    omega

theorem tile_cover : (Finset.univ : Finset grid0.Coords).biUnion tileSet = Finset.univ := by
  ext i
  simp only [Finset.mem_biUnion, Finset.mem_univ, true_and, iff_true]
  exact exists_tile i

/-- Everything the 16 subcores of core `c` own. -/
def coreSet (c : Fin 2) : Finset S1343488.Idx := Finset.univ.biUnion fun s : Fin 16 => tileSet (coords c s)

theorem coreSet_def (c : Fin 2) : coreSet c = Finset.univ.biUnion fun s : Fin 16 => tileSet (coords c s) := rfl

theorem mem_coreSet (c : Fin 2) (i : S1343488.Idx) : i ∈ coreSet c ↔ ∃ s : Fin 16, i ∈ tileSet (coords c s) := by
  rw [coreSet_def]
  simp only [Finset.mem_biUnion, Finset.mem_univ, true_and]

attribute [irreducible] coreSet

theorem coords_ne {c : Fin 2} {s s' : Fin 16} (h : s ≠ s') : coords c s ≠ coords c s' :=
  fun e => h (congrFun e 1)

theorem coreSet_disjoint : Disjoint (coreSet 0) (coreSet 1) := by
  rw [Finset.disjoint_left]
  intro i hi hi'
  rw [mem_coreSet] at hi hi'
  obtain ⟨s, hs⟩ := hi
  obtain ⟨s', hs'⟩ := hi'
  have e : coords 0 s = coords 1 s' := by
    by_contra hne
    exact Finset.disjoint_left.mp (tileSet_disjoint hne) hs hs'
  have e0 : (0 : Fin 2) = 1 := congrFun e 0
  exact absurd e0 (by decide)

theorem coreSet_cover : coreSet 0 ∪ coreSet 1 = Finset.univ := by
  ext i
  simp only [Finset.mem_union, Finset.mem_univ, iff_true]
  obtain ⟨L, hL⟩ := exists_tile i
  rw [← coords_eta L] at hL
  have h2 : ∀ c : Fin 2, c = 0 ∨ c = 1 := by decide
  rcases h2 (L 0) with h | h
  · rw [h] at hL; left; rw [mem_coreSet]; exact ⟨L 1, hL⟩
  · rw [h] at hL; right; rw [mem_coreSet]; exact ⟨L 1, hL⟩

/-! ## The array held whole is every subcore holding its pieces -/

variable {F : FTy → Type}

local notation "𝕄" => MT nD τ sig (HIx 1) (Elt F) ℕ UU ℕ

variable [FloatOps F]

/-- Entailment both ways is equality. -/
theorem eq_of_biEntails {P Q : sProp 𝕄} (h : P ⊣⊢ Q) : P = Q := BI.equiv_iff.mp ⟨h.1, h.2⟩
theorem biEntails_of_eq {P Q : sProp 𝕄} (h : P = Q) : P ⊣⊢ Q := ⟨Entails.of_eq h, Entails.of_eq h.symm⟩
theorem sep_assoc_eq (P Q R : sProp 𝕄) : (iprop((P ∗ Q) ∗ R) : sProp 𝕄) = iprop(P ∗ Q ∗ R) :=
  eq_of_biEntails Idealize.SL.BI.Laws.sep_assoc

/-- Re-associating the four parts of a subcore's share. -/
theorem sep_assoc4 (A0 A1 A2 B : sProp 𝕄) : BI.sep (iprop(A0 ∗ A1 ∗ A2)) B = iprop(A0 ∗ A1 ∗ A2 ∗ B) := by
  show (iprop((A0 ∗ A1 ∗ A2) ∗ B) : sProp 𝕄) = _
  rw [sep_assoc_eq, sep_assoc_eq]

theorem bigSep_fin_three (Φ : Fin 3 → sProp 𝕄) : bigSep Finset.univ Φ = iprop(Φ 0 ∗ Φ 1 ∗ Φ 2) := by
  rw [show (Finset.univ : Finset (Fin 3)) = {0, 1, 2} from by decide, bigSep_insert (by decide),
    bigSep_insert (by decide), bigSep_singleton]
  rfl

/-- The grid's points are the pairs (core, subcore). -/
def coordsEquiv : Fin 2 × Fin 16 ≃ grid0.Coords where
  toFun p := coords p.1 p.2
  invFun L := (L 0, L 1)
  left_inv _ := rfl
  right_inv L := coords_eta L

/-- A `bigSep` over the grid's points is one over the cores of one over the subcores. -/
theorem bigSep_coords (Φ : grid0.Coords → sProp 𝕄) :
    bigSep Finset.univ Φ = bigSep Finset.univ fun c : Fin 2 => bigSep Finset.univ fun s : Fin 16 => Φ (coords c s) := by
  rw [bigSep_univ_equiv coordsEquiv Φ, bigSep_univ_prod]
  rfl

variable (d : Dev nD)

/-! ### At one valuation -/

/-- What one subcore owns of the result array, every piece at the contents `g` of the whole array. -/
def tilePiecesAt (g : Buf (Elt F) (v5Loc d)) (L : grid0.Coords) : sProp 𝕄 :=
  iprop(((ptRow0 L).view.loc (thr d L) ↦[(ptRow0 L).view.set]{fullShare} g) ∗ ((ptRow1 L).view.loc (thr d L) ↦[(ptRow1 L).view.set]{fullShare} g) ∗ ((ptRow2 L).view.loc (thr d L) ↦[(ptRow2 L).view.set]{fullShare} g)
    ∗ bigSep Finset.univ fun t : Fin (k0_t2_loop L).trips => (ptTask L t).view.loc (thr d L) ↦[(ptTask L t).view.set]{fullShare} g)

/-- It is the subcore's part of the array held at `g`. -/
theorem tilePiecesAt_eq (g : Buf (Elt F) (v5Loc d)) (L : grid0.Coords) :
    (tilePiecesAt (F := F) d g L : sProp 𝕄) = v5Loc d ↦[tileSet L]{fullShare} g := by
  have h : (v5Loc d ↦[Finset.univ.biUnion (pcSet L)]{fullShare} g : sProp 𝕄)
      = bigSep Finset.univ fun pc : Pc L => (v5Loc d ↦[pcSet L pc]{fullShare} g : sProp 𝕄) :=
    pointsTo_biUnion (ℓ := v5Loc d) Finset.univ (pcSet L) (fun pc _ pc' _ hne => pcSet_disjoint L hne)
  rw [tileSet_def, h, bigSep_univ_sum, bigSep_fin_three, sep_assoc4]
  rfl

/-- THE SPLIT at one valuation: the array held whole at `g` is every subcore holding its pieces at `g`. -/
theorem part_split_at (g : Buf (Elt F) (v5Loc d)) :
    (v5Loc d ↦{fullShare} g : sProp 𝕄) = bigSep Finset.univ fun L : grid0.Coords => tilePiecesAt (F := F) d g L := by
  have h : (v5Loc d ↦[Finset.univ.biUnion tileSet]{fullShare} g : sProp 𝕄)
      = bigSep Finset.univ fun L : grid0.Coords => (v5Loc d ↦[tileSet L]{fullShare} g : sProp 𝕄) :=
    pointsTo_biUnion (ℓ := v5Loc d) Finset.univ tileSet (fun L _ L' _ hne => tileSet_disjoint hne)
  rw [tile_cover] at h
  exact h.trans (bigSep_congr fun L _ => (tilePiecesAt_eq (F := F) d g L).symm)

/-- One SparseCore's part at `g` is each of its subcores holding its pieces at `g`. -/
theorem core_split_at (g : Buf (Elt F) (v5Loc d)) (c : Fin 2) :
    (v5Loc d ↦[coreSet c]{fullShare} g : sProp 𝕄) = bigSep Finset.univ fun s : Fin 16 => tilePiecesAt (F := F) d g (coords c s) := by
  have h : (v5Loc d ↦[Finset.univ.biUnion fun s : Fin 16 => tileSet (coords c s)]{fullShare} g : sProp 𝕄)
      = bigSep Finset.univ fun s : Fin 16 => (v5Loc d ↦[tileSet (coords c s)]{fullShare} g : sProp 𝕄) :=
    pointsTo_biUnion (ℓ := v5Loc d) Finset.univ (fun s : Fin 16 => tileSet (coords c s))
      (fun s _ s' _ hne => tileSet_disjoint (coords_ne hne))
  rw [coreSet_def]
  exact h.trans (bigSep_congr fun s _ => (tilePiecesAt_eq (F := F) d g (coords c s)).symm)

/-- The array held whole at `g` is the two SparseCores' parts at `g`. -/
theorem call_split_at (g : Buf (Elt F) (v5Loc d)) :
    (v5Loc d ↦{fullShare} g : sProp 𝕄) = iprop((v5Loc d ↦[coreSet 0]{fullShare} g) ∗ v5Loc d ↦[coreSet 1]{fullShare} g) := by
  have h : (v5Loc d ↦[coreSet 0 ∪ coreSet 1]{fullShare} g : sProp 𝕄)
      ⊣⊢ iprop((v5Loc d ↦[coreSet 0]{fullShare} g) ∗ v5Loc d ↦[coreSet 1]{fullShare} g) :=
    pointsTo_union (ℓ := v5Loc d) coreSet_disjoint
  rw [coreSet_cover] at h
  exact eq_of_biEntails h

/-! ### At some contents -/

/-- Contents naming nothing: what a join over no pieces would hold. -/
def junk5 : Buf (Elt F) (v5Loc d) := fun _ => Classical.arbitrary _

omit d in
/-- A buffer's elements over a finite family of pairwise disjoint sets, held at some contents, are the members of the
    family each held at some contents. -/
theorem exists_pts_biUnion {ℓ : Loc nD τ sig} {q : PosShare TreeShare} {B : Type} [DecidableEq B] (S : Finset B)
    (K : B → Finset (Idx ℓ)) (h : ∀ t ∈ S, ∀ t' ∈ S, t ≠ t' → Disjoint (K t) (K t')) (f₀ : Buf (Elt F) ℓ) :
    (iprop(∃ f, ℓ ↦[S.biUnion K]{q} f) : sProp 𝕄) = bigSep S fun t => iprop(∃ f, ℓ ↦[K t]{q} f) := by
  refine eq_of_biEntails ⟨?_, ?_⟩
  · refine exists_elim fun f => ?_
    refine (Entails.of_eq (pointsTo_biUnion S K h)).trans (bigSep_mono fun t _ => ?_)
    exact exists_intro (Φ := fun f => (ℓ ↦[K t]{q} f : sProp 𝕄)) f
  · have : Nonempty (Buf (Elt F) ℓ) := ⟨f₀⟩
    refine (bigSep_exists_pi S (fun t (f : Buf (Elt F) ℓ) => (ℓ ↦[K t]{q} f : sProp 𝕄))).trans ?_
    iintro ⟨%fs, H⟩
    ihave H' := (pointsTo_biUnion_join S K fs f₀ h) $$ H
    icases H' with ⟨%g, -, H'⟩
    iexists g
    iexact H'

/-- What one subcore owns, as the program's slices spell it, is its part of the array held at some contents. -/
theorem tilePieces_eq (L : grid0.Coords) :
    (tilePieces (F := F) d L : sProp 𝕄) = iprop(∃ f, v5Loc d ↦[tileSet L]{fullShare} f) := by
  have h : (iprop(∃ f, v5Loc d ↦[Finset.univ.biUnion (pcSet L)]{fullShare} f) : sProp 𝕄)
      = bigSep Finset.univ fun pc : Pc L => (iprop(∃ f, v5Loc d ↦[pcSet L pc]{fullShare} f) : sProp 𝕄) :=
    exists_pts_biUnion (F := F) (ℓ := v5Loc d) Finset.univ (pcSet L) (fun pc _ pc' _ hne => pcSet_disjoint L hne) (junk5 (F := F) d)
  rw [tileSet_def, h, bigSep_univ_sum, bigSep_fin_three, sep_assoc4]
  rfl

/-- THE SPLIT: the result array held whole at some contents is every subcore holding its pieces. -/
theorem part_split :
    (iprop(∃ f, (SparseCore.T d).loc main_v5 ↦{fullShare} f) : sProp 𝕄)
      ⊣⊢ bigSep Finset.univ fun L : grid0.Coords => tilePieces (F := F) d L := by
  have h : (iprop(∃ f, v5Loc d ↦[Finset.univ.biUnion tileSet]{fullShare} f) : sProp 𝕄)
      = bigSep Finset.univ fun L : grid0.Coords => (iprop(∃ f, v5Loc d ↦[tileSet L]{fullShare} f) : sProp 𝕄) :=
    exists_pts_biUnion (F := F) (ℓ := v5Loc d) Finset.univ tileSet (fun L _ L' _ hne => tileSet_disjoint hne) (junk5 (F := F) d)
  rw [tile_cover] at h
  exact biEntails_of_eq (h.trans (bigSep_congr fun L _ => (tilePieces_eq (F := F) d L).symm))

/-- The same for one SparseCore: its part of the array held at some contents is each of its 16 subcores holding its
    pieces. -/
theorem core_split (c : Fin 2) :
    (iprop(∃ f, (SparseCore.T d).loc main_v5 ↦[coreSet c]{fullShare} f) : sProp 𝕄)
      ⊣⊢ bigSep Finset.univ fun s : Fin 16 => tilePieces (F := F) d (coords c s) := by
  have h : (iprop(∃ f, v5Loc d ↦[Finset.univ.biUnion fun s : Fin 16 => tileSet (coords c s)]{fullShare} f) : sProp 𝕄)
      = bigSep Finset.univ fun s : Fin 16 => (iprop(∃ f, v5Loc d ↦[tileSet (coords c s)]{fullShare} f) : sProp 𝕄) :=
    exists_pts_biUnion (F := F) (ℓ := v5Loc d) Finset.univ (fun s : Fin 16 => tileSet (coords c s))
      (fun s _ s' _ hne => tileSet_disjoint (coords_ne hne)) (junk5 (F := F) d)
  rw [coreSet_def]
  exact biEntails_of_eq (h.trans (bigSep_congr fun s _ => (tilePieces_eq (F := F) d (coords c s)).symm))

/-- And the array held whole at some contents is the two SparseCores' parts, each at some contents. -/
theorem call_split :
    (iprop(∃ f, (SparseCore.T d).loc main_v5 ↦{fullShare} f) : sProp 𝕄)
      ⊣⊢ iprop((∃ f, (SparseCore.T d).loc main_v5 ↦[coreSet 0]{fullShare} f) ∗ ∃ f, (SparseCore.T d).loc main_v5 ↦[coreSet 1]{fullShare} f) := by
  have hd : ∀ c ∈ (Finset.univ : Finset (Fin 2)), ∀ c' ∈ (Finset.univ : Finset (Fin 2)), c ≠ c' → Disjoint (coreSet c) (coreSet c') := by
    intro c _ c' _ hne
    have h2 : ∀ c c' : Fin 2, c ≠ c' → (c = 0 ∧ c' = 1) ∨ (c = 1 ∧ c' = 0) := by decide
    rcases h2 c c' hne with ⟨rfl, rfl⟩ | ⟨rfl, rfl⟩
    · exact coreSet_disjoint
    · exact coreSet_disjoint.symm
  have hc : (Finset.univ : Finset (Fin 2)).biUnion coreSet = Finset.univ := by
    rw [show (Finset.univ : Finset (Fin 2)) = {0, 1} from by decide, Finset.biUnion_insert, Finset.singleton_biUnion]
    exact coreSet_cover
  have h : (iprop(∃ f, v5Loc d ↦[(Finset.univ : Finset (Fin 2)).biUnion coreSet]{fullShare} f) : sProp 𝕄)
      = bigSep Finset.univ fun c : Fin 2 => (iprop(∃ f, v5Loc d ↦[coreSet c]{fullShare} f) : sProp 𝕄) :=
    exists_pts_biUnion (F := F) (ℓ := v5Loc d) Finset.univ coreSet hd (junk5 (F := F) d)
  rw [hc, bigSep_univ_two] at h
  exact biEntails_of_eq h

end Cert.Proof.KTile
end
-- ==== Proof.CallSplit.lean ====
/-
  The call's resources, as the TensorCore holds them and as the subcores are handed them.  The TensorCore holds the three
  operand arrays whole and the result array at some contents.  Each operand is cut into a remainder and thirty-two read
  shares, one per subcore; the result array is cut into the subcores' pieces.  A SparseCore's part is its sixteen
  subcores' parts, so the two SparseCores' parts together are the thirty-two subcores' parts, and with the three
  remainders they are exactly what the TensorCore held.
-/
import proofs.«207464_g62843961475156_cont_9to1_m_1121_6_alg».proof.Proof.TilePay
import proofs.«207464_g62843961475156_cont_9to1_m_1121_6_alg».proof.Proof.PartSplit

noncomputable section

namespace Cert.Proof.KTile

open Cert.KernelIdeal Cert.KernelIdeal.Gen Cert.Proof.KLaunch Cert.KernelIdeal.Tasks

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The thirty-two subcores, numbered -/

theorem coordsV_eq (c : Fin (grid0.bound 0)) (s : Fin (grid0.bound 1)) : coordsV c s = coords c s := by
  funext a
  match a with
  | ⟨0, _⟩ => rfl
  | ⟨1, _⟩ => rfl

/-- A subcore's number, `16·core + subcore`, names it. -/
def tokEquiv : grid0.Coords ≃ Fin 32 where
  toFun := tokOf
  invFun k := coords ⟨k.val / 16, by have := k.isLt; omega⟩ ⟨k.val % 16, Nat.mod_lt _ (by norm_num)⟩
  left_inv L := by
    have h0 : (L 0).val < 2 := (L 0).isLt
    have h1 : (L 1).val < 16 := (L 1).isLt
    funext a
    match a with
    | ⟨0, _⟩ => exact Fin.ext (show (16 * (L 0).val + (L 1).val) / 16 = (L 0).val by omega)
    | ⟨1, _⟩ => exact Fin.ext (show (16 * (L 0).val + (L 1).val) % 16 = (L 1).val by omega)
  right_inv k := Fin.ext (show 16 * (k.val / 16) + k.val % 16 = k.val by omega)

/-- An array held whole is a remainder and one read share per subcore. -/
theorem toks_coords {ℓ : Loc nD τ sig} (f : Buf (Elt F) ℓ) :
    (ℓ ↦{fullShare} f : sProp 𝕄)
      = iprop((ℓ ↦{Transfers.shareDrop fullShare 32} f)
          ∗ bigSep Finset.univ fun L : grid0.Coords => ℓ ↦{Transfers.shareTok fullShare 32 (tokOf L)} f) := by
  have h : (ℓ ↦{fullShare} f : sProp 𝕄)
      = iprop((ℓ ↦{Transfers.shareDrop fullShare 32} f)
          ∗ bigSep Finset.univ fun k : Fin 32 => ℓ ↦{Transfers.shareTok fullShare 32 k} f) :=
    eq_of_biEntails (Transfers.pointsTo_toks fullShare 32)
  rw [bigSep_univ_equiv tokEquiv (fun k : Fin 32 => (ℓ ↦{Transfers.shareTok fullShare 32 k} f : sProp 𝕄))] at h
  exact h

section Call

attribute [local irreducible] tilePieces tilePiecesAt

variable (x1 : (d : Dev nD) → Buf (Elt F) (v1Loc d)) (w2 : (d : Dev nD) → Buf (Elt F) (v2Loc d)) (w4 : (d : Dev nD) → Buf (Elt F) (v4Loc d))
variable (d : Dev nD)

/-- What the TensorCore keeps of the three operand arrays while the call runs. -/
def Rem : sProp 𝕄 :=
  iprop((v1Loc d ↦{Transfers.shareDrop fullShare 32} x1 d) ∗ (v2Loc d ↦{Transfers.shareDrop fullShare 32} w2 d)
    ∗ (v4Loc d ↦{Transfers.shareDrop fullShare 32} w4 d))

/-- The two SparseCores' parts are the thirty-two subcores' parts. -/
theorem st_eq :
    (bigSep Finset.univ fun c : Fin ((K (F := F)).nCore 0) => (P (F := F) x1 w2 w4).st 0 d c)
      = bigSep Finset.univ fun L : grid0.Coords => tileRes x1 w2 w4 d L := by
  unfold P
  dsimp only
  show (bigSep (Finset.univ : Finset (Fin 2)) fun c => bigSep (Finset.univ : Finset (Fin 16)) fun i =>
    tileRes (F := F) x1 w2 w4 d (coordsV ⟨c.val, c.isLt⟩ ⟨i.val, i.isLt⟩)) = _
  rw [bigSep_coords (fun L : grid0.Coords => tileRes (F := F) x1 w2 w4 d L)]
  exact bigSep_congr fun c _ => bigSep_congr fun i _ => congrArg (tileRes (F := F) x1 w2 w4 d) (coordsV_eq _ _)

theorem dn_eq :
    (bigSep Finset.univ fun c : Fin ((K (F := F)).nCore 0) => (P (F := F) x1 w2 w4).dn 0 d c)
      = bigSep Finset.univ fun L : grid0.Coords => tileRes x1 w2 w4 d L := by
  unfold P
  dsimp only
  show (bigSep (Finset.univ : Finset (Fin 2)) fun c => bigSep (Finset.univ : Finset (Fin 16)) fun i =>
    tileRes (F := F) x1 w2 w4 d (coordsV ⟨c.val, c.isLt⟩ ⟨i.val, i.isLt⟩)) = _
  rw [bigSep_coords (fun L : grid0.Coords => tileRes (F := F) x1 w2 w4 d L)]
  exact bigSep_congr fun c _ => bigSep_congr fun i _ => congrArg (tileRes (F := F) x1 w2 w4 d) (coordsV_eq _ _)

/-- The subcores' parts, sorted by kind: the read shares of each operand, and the pieces of the result array. -/
theorem tiles_eq :
    (bigSep Finset.univ fun L : grid0.Coords => tileRes (F := F) x1 w2 w4 d L)
      = iprop((bigSep Finset.univ fun L : grid0.Coords => v1Loc d ↦{Transfers.shareTok fullShare 32 (tokOf L)} x1 d)
          ∗ (bigSep Finset.univ fun L : grid0.Coords => v2Loc d ↦{Transfers.shareTok fullShare 32 (tokOf L)} w2 d)
          ∗ (bigSep Finset.univ fun L : grid0.Coords => v4Loc d ↦{Transfers.shareTok fullShare 32 (tokOf L)} w4 d)
          ∗ bigSep Finset.univ fun L : grid0.Coords => tilePieces (F := F) d L) := by
  unfold tileRes
  rw [bigSep_sep', bigSep_sep', bigSep_sep']

/-- The call takes what the TensorCore holds, leaving the remainders, as the two SparseCores' parts. -/
theorem hst :
    callTakes d (x1 d) (w2 d) (w4 d)
      ⊢ iprop(Rem x1 w2 w4 d ∗ bigSep Finset.univ fun c : Fin ((K (F := F)).nCore 0) => (P (F := F) x1 w2 w4).st 0 d c) := by
  rw [st_eq, tiles_eq]
  unfold Rem
  iintro ⟨H1, H2, H4, H5⟩
  ihave H1' := (Entails.of_eq (toks_coords (F := F) (x1 d))) $$ H1
  ihave H2' := (Entails.of_eq (toks_coords (F := F) (w2 d))) $$ H2
  ihave H4' := (Entails.of_eq (toks_coords (F := F) (w4 d))) $$ H4
  ihave H5' := ((part_split (F := F) d).1) $$ H5
  icases H1' with ⟨R1, B1⟩
  icases H2' with ⟨R2, B2⟩
  icases H4' with ⟨R4, B4⟩
  isplitl [R1 R2 R4]
  · isplitl [R1]; · iexact R1
    isplitl [R2]; · iexact R2
    iexact R4
  isplitl [B1]; · iexact B1
  isplitl [B2]; · iexact B2
  isplitl [B4]; · iexact B4
  iexact H5'

/-- And gives them back. -/
theorem hdn :
    iprop(Rem x1 w2 w4 d ∗ bigSep Finset.univ fun c : Fin ((K (F := F)).nCore 0) => (P (F := F) x1 w2 w4).dn 0 d c)
      ⊢ callTakes d (x1 d) (w2 d) (w4 d) := by
  rw [dn_eq, tiles_eq]
  unfold Rem
  iintro ⟨⟨R1, R2, R4⟩, B1, B2, B4, H5⟩
  isplitl [R1 B1]
  · iapply (Entails.of_eq (toks_coords (F := F) (x1 d)).symm)
    isplitl [R1]; · iexact R1
    iexact B1
  isplitl [R2 B2]
  · iapply (Entails.of_eq (toks_coords (F := F) (w2 d)).symm)
    isplitl [R2]; · iexact R2
    iexact B2
  isplitl [R4 B4]
  · iapply (Entails.of_eq (toks_coords (F := F) (w4 d)).symm)
    isplitl [R4]; · iexact R4
    iexact B4
  iapply ((part_split (F := F) d).2)
  iexact H5

end Call

end Cert.Proof.KTile
end
-- ==== Proof.PreFacts.lean ====
/-
  The precondition read back: if the printed predicate `input_domain` is all ones, then every entry of the index
  matrix `x` lies in `[0, 999]` (read signed, hence also read unsigned).  The predicate is the conjunction of the
  finiteness tests of the three float inputs with `jnp.all((x ≥ 0) & (x ≤ 999))`; the last conjunct is a reduction by
  `and` over both axes, which is one only if every element is one, and an element is the conjunction of two signed
  comparisons of `x`'s entry with the literals `0` and `999`.
-/
import proofs.«207464_g62843961475156_cont_9to1_m_1121_6_alg».proof.Pre_input_domain
import proofs.«207464_g62843961475156_cont_9to1_m_1121_6_alg».proof.Proof.Gen.Pre_input_domain
import Idealize.ShloMosaic.Lib.ReduceAll
import Idealize.ShloMosaic.Lib.ValueIdx

namespace Cert.PreFacts

open Idealize.ShloMosaic Idealize.ShloMosaic.ValueIdx Cert.Pre_input_domain

variable {F : FTy → Type} [FloatOps F]

/-- The scalar shape has one index. -/
instance : Subsingleton S_.Idx := ⟨fun a b => funext fun d => d.elim0⟩

/-- Every entry of `x` is between `0` and `999`, read signed. -/
theorem x_toInt (x : IVec S4096x26 32) (W : FVec F S26x26000x16 .f32) (Wl : FVec F S26000x1 .f32)
    (bias : FVec F S1 .f32) (h : Cert.Pre_input_domain.fn (F := F) x W Wl bias = fun _ => 1#1)
    (idx : S4096x26.Idx) : 0 ≤ (x idx).toInt ∧ (x idx).toInt ≤ 999 := by
  have e := congrFun h ix0
  dsimp only [Cert.Pre_input_domain.fn, Cert.Pre_input_domain.fn_part1] at e
  obtain ⟨-, hall⟩ := IntOp.andi_eq_one.1 (show IntOp.andi _ _ = 1#1 from e)
  have hx := Host.reduce_andi_all _ _ _ _ _ hall idx
  obtain ⟨hge, hle⟩ := IntOp.andi_eq_one.1 (show IntOp.andi _ _ = 1#1 from hx)
  have hge' : IntOp.cmpi .sge (x idx) (0#32) = 1#1 := hge
  have hle' : IntOp.cmpi .sle (x idx) (999#32) = 1#1 := hle
  rw [IntOp.cmpi_sge] at hge'
  rw [IntOp.cmpi_sle] at hle'
  have z0 : (0#32 : BitVec 32).toInt = 0 := by decide
  have z999 : (999#32 : BitVec 32).toInt = 999 := by decide
  rw [z0] at hge'
  rw [z999] at hle'
  exact ⟨hge', hle'⟩

/-- Every entry of `x` is at most `999`, read unsigned. -/
theorem x_toNat (x : IVec S4096x26 32) (W : FVec F S26x26000x16 .f32) (Wl : FVec F S26000x1 .f32)
    (bias : FVec F S1 .f32) (h : Cert.Pre_input_domain.fn (F := F) x W Wl bias = fun _ => 1#1)
    (idx : S4096x26.Idx) : (x idx).toNat ≤ 999 := by
  obtain ⟨h0, h1⟩ := x_toInt x W Wl bias h idx
  have hlt := (x idx).isLt
  rw [BitVec.toInt_eq_toNat_cond] at h0 h1
  split at h0 <;> omega

end Cert.PreFacts
-- ==== Proof.Frames.lean ====
/-
  The two frame claims of the kernel program, at any float instance: under the precondition every index word the
  SparseCore body turns into an address is a field value (at most 999), so every subcore's task runs to its end; the
  launch theorem then gives the run of the whole program, which leaves the four argument arrays as they were.
-/
import proofs.«207464_g62843961475156_cont_9to1_m_1121_6_alg».proof.Defs
import proofs.«207464_g62843961475156_cont_9to1_m_1121_6_alg».proof.Proof.Gen.Pre_input_domain
import proofs.«207464_g62843961475156_cont_9to1_m_1121_6_alg».proof.Proof.Launch
import proofs.«207464_g62843961475156_cont_9to1_m_1121_6_alg».proof.Proof.TilePay
import proofs.«207464_g62843961475156_cont_9to1_m_1121_6_alg».proof.Proof.CallSplit
import proofs.«207464_g62843961475156_cont_9to1_m_1121_6_alg».proof.Proof.PreFacts

noncomputable section

namespace Cert.Proof.KFrames

open Cert.KernelIdeal Cert.KernelIdeal.Gen Cert.Proof.KLaunch Cert.Proof.KTile
open Idealize.ShloMosaic Idealize.SL.Sem

variable {F : FTy → Type} [FloatOps F] [∀ e, Nonempty (Elt F e)]

/-- Every word of the transposed index array is an entry of `x`, hence at most 999 under the precondition. -/
theorem xt_le (m : (ℓ : Loc nD τ sig) → Buf (Elt F) ℓ)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    ∀ d y, (xt m d y : BitVec 32).toNat ≤ 999 := by
  intro d y
  obtain ⟨idx, e⟩ := xt_mem m d y
  rw [e]
  exact Cert.PreFacts.x_toNat _ _ _ _ (hpre d) idx

/-- The program's run: it ends, nothing faults, the arguments are unchanged. -/
theorem run (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_frame (P (xt m) (wf m) (wl m)) m ρ (Rem (xt m) (wf m) (wl m)) rfl rfl
    (tileObl (xt m) (wf m) (wl m) facts (xt_le m hpre)) (vecSplit (xt m) (wf m) (wl m))
    (fun d => hst (xt m) (wf m) (wl m) d) (fun d => hdn (xt m) (wf m) (wl m) d)

end Cert.Proof.KFrames

end
-- ==== Proof.GhostB.lean ====
/-
  The setting of the first program's launch: the program as a SparseCore launch sees it, the ghost state of its proof,
  and the arrays the TensorCore hands the SparseCores.

  The device has three kinds of threads: the TensorCore, which runs the host operations, starts the one SparseCore
  call and later runs a small kernel region of its own; the two sequencers; and the thirty-two vector subcores, each
  of which runs the tile body. Three protocols need ghost state. The handshakes between the TensorCore, the sequencers
  and the tiles are cells under rounds whose duties are numbered. The staging copies of the TensorCore's kernel region
  are cells under rounds with unnamed duties. A tile's own copies are local: each is issued and waited for by the same
  thread on a semaphore nobody else touches, which needs only exclusive counters. The resource algebra is the product of
  the three.
-/
import proofs.«207464_g62843961475156_cont_9to1_m_1121_6_alg».proof.Kernel
import proofs.«207464_g62843961475156_cont_9to1_m_1121_6_alg».proof.Proof.Gen.Kernel
import proofs.«207464_g62843961475156_cont_9to1_m_1121_6_alg».proof.Proof.Gen.Kernel.Launch
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.KLaunchB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the body table below the SparseCore layer: the kernels' and the one TensorCore region's. -/
abbrev ΛP : Labels := Pipeline.Sig Λ₀ (Fin 1) fun p => (pcfgs (F := F) p).Adm
/-- The one SparseCore call: a vector-subcore kernel on 2 SparseCores × 16 tiles. -/
abbrev K : SparseCore.Cfg τ sig (ΛP (F := F)) 1 := sc (F := F)
theorem nCore_zero : (K (F := F)).nCore 0 = 2 := rfl
theorem nSub_zero : (K (F := F)).nSub 0 = 16 := rfl
/-- The body table below the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds: duties numbered. -/
abbrev UH : Type := URounds (GSem nD τ sig) ℕ
/-- The TensorCore region's staging cells' rounds: duties unnamed. -/
abbrev UP : Type := URounds (GSem nD τ sig) Unit
/-- The three protocols' algebras side by side; the exclusive counters of the tiles' local copies are found in the
    rightmost place by instance. -/
abbrev UU : Type := UH × (UP × Counters)

local notation "𝕄" => MT nD τ sig (HIx 1) (Elt F) ℕ UU ℕ

/-- The model the whole proof is stated over. -/
abbrev Mod (F : FTy → Type) : Type := MT nD τ sig (HIx 1) (Elt F) ℕ UU ℕ

/-- The handshakes' rounds, the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The staging cells' rounds, the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- The counters, the right factor (the same embedding the instance finds). -/
def EC : Emb Counters (MT nD τ sig (HIx 1) (Elt F) ℕ UU ℕ) :=
  ((Emb.inr : Emb Counters (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance
instance EC_landsIn : (EC : Emb Counters 𝕄).LandsIn (upEmb : UEmb _ 𝕄) := by unfold EC; infer_instance

/-- The launch element splits into the three protocols' elements. -/
theorem ownU_triple (a : UH) (b : UP) (c : Counters) :
    (ownU ((a, (b, c)) : UU) : sProp 𝕄) ⊢ iprop(BI.own (EH (F := F) a) ∗ BI.own (EP (F := F) b) ∗ BI.own (EC (F := F) c)) := by
  iintro Hu
  ihave H := (ownU_pair (nD := nD) (τ := τ) (sig := sig) (Ix := HIx 1) (Val := Elt F) (Name := ℕ) (Lvl := ℕ) a (b, c)) $$ Hu
  icases H with ⟨Ha, Hbc⟩
  isplitl [Ha]; · iexact Ha
  ihave H2 := (own_pair_emb (embR (nD := nD) (τ := τ) (sig := sig) (Ix := HIx 1) (Val := Elt F) (Name := ℕ) (Lvl := ℕ) (A := UH) (B := UP × Counters)) b c) $$ Hbc
  iexact H2

/-! ## The arrays that pass between the TensorCore and the SparseCores -/

/-- The payloads of the handshakes, as the launch theorem takes them. -/
abbrev PayT (F : FTy → Type) : Type := (K (F := F)).Pay (nD := nD) (Val := Elt F) (Name := ℕ) (U := UU)

/-- The four arrays of the SparseCore call as locations of device `d`: the transposed indices, the flattened tables, the
    padded linear table, and the partial sums the call writes. -/
abbrev v1Loc (d : Dev nD) : Loc nD τ sig := (SparseCore.T d).loc main_v1
abbrev v2Loc (d : Dev nD) : Loc nD τ sig := (SparseCore.T d).loc main_v2
abbrev v4Loc (d : Dev nD) : Loc nD τ sig := (SparseCore.T d).loc main_v4
abbrev v5Loc (d : Dev nD) : Loc nD τ sig := (SparseCore.T d).loc main_v5

/-- Each of them whole, at the full share, at given contents. -/
abbrev v1Pts (d : Dev nD) (f : Buf (Elt F) (v1Loc d)) : sProp 𝕄 := v1Loc d ↦{fullShare} f
abbrev v2Pts (d : Dev nD) (f : Buf (Elt F) (v2Loc d)) : sProp 𝕄 := v2Loc d ↦{fullShare} f
abbrev v4Pts (d : Dev nD) (f : Buf (Elt F) (v4Loc d)) : sProp 𝕄 := v4Loc d ↦{fullShare} f
abbrev v5Pts (d : Dev nD) (f : Buf (Elt F) (v5Loc d)) : sProp 𝕄 := v5Loc d ↦{fullShare} f

/-- What the call takes from the TensorCore: the three operands at their contents, the result array at any. -/
abbrev callTakes (d : Dev nD) (x1 : Buf (Elt F) (v1Loc d)) (w2 : Buf (Elt F) (v2Loc d)) (w4 : Buf (Elt F) (v4Loc d)) : sProp 𝕄 :=
  iprop(v1Pts d x1 ∗ v2Pts d w2 ∗ v4Pts d w4 ∗ ∃ f, v5Pts d f)
/-- What it gives back: the operands unchanged, the result array at `r`. -/
abbrev callGives (d : Dev nD) (x1 : Buf (Elt F) (v1Loc d)) (w2 : Buf (Elt F) (v2Loc d)) (w4 : Buf (Elt F) (v4Loc d))
    (r : Buf (Elt F) (v5Loc d)) : sProp 𝕄 :=
  iprop(v1Pts d x1 ∗ v2Pts d w2 ∗ v4Pts d w4 ∗ v5Pts d r)

end Cert.Proof.KLaunchB

end
-- ==== Proof.HostOpsB.lean ====
/-
  The host operations of the first program's @main, as pure functions of the launch memory.

  Before the SparseCore call @main transposes the index matrix and flattens it (entry `f·4096 + b` of the flat array is
  `x[b, f]`), flattens the two tables, and pads the flat linear table with 112 zeros. Each operation writes one buffer that
  no other operation writes, so the device's buffers after the line are a composition of the operations' functions.
-/
import proofs.«207464_g62843961475156_cont_9to1_m_1121_6_alg».proof.Proof.GhostB
import Idealize.ShloMosaic.Lib.Pipeline.Value
import Idealize.ShloMosaic.Lib.ValueIdx

noncomputable section

namespace Cert.Proof.KLaunchB

open Cert.Kernel Cert.Kernel.Gen

open Idealize.ShloMosaic Idealize.ShloMosaic.ValueIdx
open Idealize.ShloMosaic.SparseCore (S V T)
open Idealize.SL Idealize.SL.Sem
open Idealize.ShloMosaic.StableHlo (held after)

variable {F : FTy → Type} [FloatOps F]

/-! ## The operations before the call -/

abbrev opT : HloOp τ sig (Elt F) :=
  StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev opR1 : HloOp τ sig (Elt F) := StableHlo.reshape main_v0 main_v1 rfl shapeCasts_S26x4096_S106496
abbrev opR2 : HloOp τ sig (Elt F) := StableHlo.reshape main_arg1 main_v2 rfl shapeCasts_S26x26000x16_S10816000
abbrev opR3 : HloOp τ sig (Elt F) := StableHlo.reshape main_arg2 main_v3 rfl shapeCasts_S26000x1_S26000
abbrev opC : HloOp τ sig (Elt F) := StableHlo.nullary main_c (constantI S_ 32 0#32)
abbrev opP0 : HloOp τ sig (Elt F) := StableHlo.TRef.unary (.of main_c : StableHlo.TRef sig ⟨S_, .i32⟩) main_call0.v0 (sitofp .f32)
abbrev opP1 : HloOp τ sig (Elt F) :=
  StableHlo.TRef.binary (.of main_v3 : StableHlo.TRef sig ⟨S26000, .f32⟩) main_call0.v0 main_call0.v1 (fun x v => pad S26112 ![0] ![112] ![0] x v pads_S26000_S26112_01120 h_S_)
/-- The seven operations before the SparseCore call, in order. -/
def preOps : List (HloOp τ sig (Elt F)) := [opT, opR1, opR2, opR3, opC, opP0, opP1]

/-- The reshape of the call's result, -/
abbrev opR6 : HloOp τ sig (Elt F) := StableHlo.reshape main_v5 main_v6 rfl shapeCasts_S1343488_S328x4096
/-- and of the TensorCore region's. -/
abbrev opR8 : HloOp τ sig (Elt F) := StableHlo.reshape main_v7 main_v8 rfl shapeCasts_S4096_S4096x1

variable (m : (ℓ : Loc nD τ sig) → Buf (Elt F) ℓ)

/-- Device `d`'s buffers at launch, as a valuation. -/
def V0 (d : Dev nD) : Valuation τ sig (Elt F) := fun b => m (d, b)
/-- After the seven operations. -/
def Vpre (d : Dev nD) : Valuation τ sig (Elt F) := after preOps (V0 m d)

/-- The flat transposed indices, the flat tables, the padded flat linear table: what the call is handed. -/
def xt (d : Dev nD) : Buf (Elt F) (v1Loc d) := Vpre m d (Proc.devRef .tc main_v1)
def wf (d : Dev nD) : Buf (Elt F) (v2Loc d) := Vpre m d (Proc.devRef .tc main_v2)
def wl (d : Dev nD) : Buf (Elt F) (v4Loc d) := Vpre m d (Proc.devRef .tc main_v4)

theorem xt_eq (d : Dev nD) : xt m d = fun i => shapeCast S106496 (transpose S26x4096 [1, 0] (m ((SparseCore.T d).loc main_arg0)) transposes_S4096x26_S26x4096_1_0) shapeCasts_S26x4096_S106496 i := by
  unfold xt Vpre preOps
  after_results
  rfl

theorem wf_eq (d : Dev nD) : wf m d = fun i => shapeCast S10816000 (m ((SparseCore.T d).loc main_arg1)) shapeCasts_S26x26000x16_S10816000 i := by
  unfold wf Vpre preOps
  after_results
  rfl

/-- The padding value: the integer constant zero, converted. -/
abbrev padVal : (⟨S_, .f32⟩ : BufTy).Contents (Elt F) := sitofp .f32 (constantI S_ 32 0#32)

theorem wl_eq (d : Dev nD) : wl m d = pad S26112 ![0] ![112] ![0]
    (fun i => shapeCast S26000 (m ((SparseCore.T d).loc main_arg2)) shapeCasts_S26000x1_S26000 i) (padVal (F := F)) pads_S26000_S26112_01120 h_S_ := by
  unfold wl Vpre preOps
  after_results
  rfl

/-- Entry `f·4096 + b` of the flat transposed indices is `x[b, f]`. -/
theorem xt_apply (d : Dev nD) (f : Fin 26) (b : Fin 4096) (h : f.val * 4096 + b.val < 106496) :
    xt m d (ix1 ⟨f.val * 4096 + b.val, h⟩) = m ((SparseCore.T d).loc main_arg0) (ix2 b f) := by
  rw [xt_eq]
  show shapeCast S106496 _ _ _ = _
  rw [shapeCast_apply _ _ _ (ix2 f b) (by rw [Shape.rowMajor_val_two, Shape.rowMajor_val_one]; rfl)]
  exact transpose_apply _ _ _ _ (ix2 b f) (fun a => by match a with | ⟨0, _⟩ => rfl | ⟨1, _⟩ => rfl)

/-- Every entry of the flat transposed indices is an entry of the index matrix. -/
theorem xt_mem (d : Dev nD) (j : S106496.Idx) : ∃ idx, xt m d j = m ((SparseCore.T d).loc main_arg0) idx := by
  rw [xt_eq]
  unfold shapeCast transpose
  exact ⟨_, rfl⟩

/-- Entry `(j·26000 + r)·16 + e` of the flat tables is `W_cross[j, r, e]`. -/
theorem wf_apply (d : Dev nD) (j : Fin 26) (r : Fin 26000) (e : Fin 16) (h : (j.val * 26000 + r.val) * 16 + e.val < 10816000) :
    wf m d (ix1 ⟨(j.val * 26000 + r.val) * 16 + e.val, h⟩) = m ((SparseCore.T d).loc main_arg1) (ix3 j r e) := by
  rw [wf_eq]
  exact shapeCast_apply _ _ _ (ix3 j r e) (by rw [Shape.rowMajor_val_three, Shape.rowMajor_val_one]; rfl)

/-! ## The buffers after the call, after the TensorCore region, at the end -/

abbrev v6Loc (d : Dev nD) : Loc nD τ sig := (SparseCore.T d).loc main_v6
abbrev v7Loc (d : Dev nD) : Loc nD τ sig := (SparseCore.T d).loc main_v7
abbrev v8Loc (d : Dev nD) : Loc nD τ sig := (SparseCore.T d).loc main_v8

/-- After the call: the partial sums at `f`. -/
def Vcall (d : Dev nD) (f : Buf (Elt F) (v5Loc d)) : Valuation τ sig (Elt F) := Function.update (Vpre m d) (Proc.devRef .tc main_v5) f
/-- After their reshape into 328 rows of 4096. -/
def V6 (d : Dev nD) (f : Buf (Elt F) (v5Loc d)) : Valuation τ sig (Elt F) := (opR6 (F := F)).result (Vcall m d f)
/-- After the TensorCore region: its result array at `g`. -/
def V7 (d : Dev nD) (f : Buf (Elt F) (v5Loc d)) (g : Buf (Elt F) (v7Loc d)) : Valuation τ sig (Elt F) :=
  Function.update (V6 m d f) (Proc.devRef .tc main_v7) g
/-- At the end: after the last reshape. -/
def V8 (d : Dev nD) (f : Buf (Elt F) (v5Loc d)) (g : Buf (Elt F) (v7Loc d)) : Valuation τ sig (Elt F) :=
  (opR8 (F := F)).result (V7 m d f g)

theorem Vcall_v5 (d : Dev nD) (f : Buf (Elt F) (v5Loc d)) : Vcall m d f (Proc.devRef .tc main_v5) = f := Function.update_self _ _ _
theorem Vcall_of_ne (d : Dev nD) (f : Buf (Elt F) (v5Loc d)) (b : DevRef τ sig) (h : b ≠ Proc.devRef .tc main_v5) : Vcall m d f b = Vpre m d b :=
  Function.update_of_ne h _ _

theorem V6_v6 (d : Dev nD) (f : Buf (Elt F) (v5Loc d)) :
    V6 m d f (Proc.devRef .tc main_v6) = fun i => shapeCast S328x4096 f shapeCasts_S1343488_S328x4096 i := by
  unfold V6
  rw [StableHlo.reshape_result, Vcall_v5]
  rfl

theorem V7_v7 (d : Dev nD) (f : Buf (Elt F) (v5Loc d)) (g : Buf (Elt F) (v7Loc d)) :
    V7 m d f g (Proc.devRef .tc main_v7) = g := Function.update_self _ _ _
theorem V7_of_ne (d : Dev nD) (f : Buf (Elt F) (v5Loc d)) (g : Buf (Elt F) (v7Loc d)) (b : DevRef τ sig)
    (h : b ≠ Proc.devRef .tc main_v7) : V7 m d f g b = V6 m d f b := Function.update_of_ne h _ _

theorem V8_v8 (d : Dev nD) (f : Buf (Elt F) (v5Loc d)) (g : Buf (Elt F) (v7Loc d)) :
    V8 m d f g (Proc.devRef .tc main_v8) = fun i => shapeCast S4096x1 g shapeCasts_S4096_S4096x1 i := by
  unfold V8
  rw [StableHlo.reshape_result, V7_v7]
  rfl

/-- A buffer none of the last four steps writes is, at the end, as the seven operations left it. -/
theorem V8_of_ne (d : Dev nD) (f : Buf (Elt F) (v5Loc d)) (g : Buf (Elt F) (v7Loc d)) (a : Ref sig .tc)
    (h8 : a ≠ main_v8) (h7 : a ≠ main_v7) (h6 : a ≠ main_v6) (h5 : a ≠ main_v5) :
    V8 m d f g (Proc.devRef .tc a) = Vpre m d (Proc.devRef .tc a) := by
  unfold V8 V7 V6 Vcall
  rw [StableHlo.reshape_result_ne _ _ _ _ _ _ _ h8, Function.update_of_ne (StableHlo.devRef_ne_of_ne h7), StableHlo.reshape_result_ne _ _ _ _ _ _ _ h6,
    Function.update_of_ne (StableHlo.devRef_ne_of_ne h5)]

/-- No operation writes an argument array: each is, after the seven operations, as launched. -/
theorem Vpre_arg0 (d : Dev nD) : Vpre m d (Proc.devRef .tc main_arg0) = m ((SparseCore.T d).loc main_arg0) := by
  unfold Vpre preOps; after_results; rfl
theorem Vpre_arg1 (d : Dev nD) : Vpre m d (Proc.devRef .tc main_arg1) = m ((SparseCore.T d).loc main_arg1) := by
  unfold Vpre preOps; after_results; rfl
theorem Vpre_arg2 (d : Dev nD) : Vpre m d (Proc.devRef .tc main_arg2) = m ((SparseCore.T d).loc main_arg2) := by
  unfold Vpre preOps; after_results; rfl
theorem Vpre_arg3 (d : Dev nD) : Vpre m d (Proc.devRef .tc main_arg3) = m ((SparseCore.T d).loc main_arg3) := by
  unfold Vpre preOps; after_results; rfl
theorem Vpre_v7 (d : Dev nD) : Vpre m d (Proc.devRef .tc main_v7) = m ((SparseCore.T d).loc main_v7) := by
  unfold Vpre preOps; after_results; rfl

end Cert.Proof.KLaunchB

end
-- ==== Proof.TcBodyB.lean ====
/-
  The TensorCore kernel of the first program, run on three held buffers.

  The kernel loads a 328 × 4096 array of partial sums and one scalar (the bias), adds the 328 rows, adds the scalar to each
  of the 4096 sums, applies the logistic function, and stores the 4096 results. It makes no copy and waits for
  nothing, so its run is a straight line of three loads and one store.
-/
import proofs.«207464_g62843961475156_cont_9to1_m_1121_6_alg».proof.Proof.GhostB
import proofs.«207464_g62843961475156_cont_9to1_m_1121_6_alg».proof.Proof.Gen.Kernel.Skeleton
import proofs.«207464_g62843961475156_cont_9to1_m_1121_6_alg».proof.Proof.Gen.Kernel.Points
import Idealize.ShloMosaic.Lib.Pipeline.Value
import Idealize.ShloMosaic.Lib.ValueIdx
import Idealize.ShloMosaic.Lib.Tactic

noncomputable section

namespace Cert.Proof.KLaunchB

open Cert.Kernel Cert.Kernel.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Memref `M`'s buffer on core `c`, held whole at `f`. -/
abbrev ptM (c : Dev nD) {sp : Space} {S : Shape} {e : EltTy} (M : Memref sig .tc sp S e) (f : Buf (Elt F) (M.view.loc (c.tc : Thread nD τ))) : sProp 𝕄 :=
  M.view.loc (c.tc : Thread nD τ) ↦{fullShare} f

/-- The kernel run from its three buffers, the first two at `f0` and `f1`, together with what it leaves in the third
    (whatever that held before is overwritten). -/
def combineRun (c : Dev nD) (M0 : Memref sig .tc .vmem S328x4096 .f32) (h0 : M0.IsWhole) (M1 : Memref sig .tc .smem S1 .f32) (h1 : M1.IsWhole)
    (M2 : Memref sig .tc .vmem S4096 .f32) (h2 : M2.IsWhole)
    (f0 : Buf (Elt F) (M0.view.loc (c.tc : Thread nD τ))) (f1 : Buf (Elt F) (M1.view.loc (c.tc : Thread nD τ))) :
    { pay : Buf (Elt F) (M2.view.loc (c.tc : Thread nD τ)) //
    ∀ (f2 : Buf (Elt F) (M2.view.loc (c.tc : Thread nD τ))) (Q : PUnit → sProp 𝕄),
      iprop(ptM c M0 f0 ∗ ptM c M1 f1 ∗ ptM c M2 f2 ∗ (iprop(ptM c M0 f0 ∗ ptM c M1 f1 ∗ ptM c M2 pay) -∗ Q ⟨⟩))
        ⊢ wp frame (wpE (defs₀ (F := F)) Variants.none (c.tc : Thread nD τ) none) Set.univ (cc1__combine_body (F := F) M0 h0 M1 h1 M2 h2) Q } := by
  refine ⟨?_, fun f2 Q => ?run⟩
  case run =>
    iintro ⟨H0, H1, H2, Hk⟩
    simp only [cc1__combine_body_eq_skeleton]; unfold cc1__combine_body_skel
    sl_exec!
    sl_step
    iapply Hk
    isplitl [H0]; · iexact H0
    isplitl [H1]; · iexact H1
    iexact H2

theorem offsets_zero2 : (![0, 0] : Fin 2 → Nat) = fun _ => 0 := funext fun a => by fin_cases a <;> rfl
theorem offsets_zero1 : (![0] : Fin 1 → Nat) = fun _ => 0 := funext fun a => by fin_cases a; rfl

/-- What the kernel leaves in the result's staging buffer, from the contents of the two inputs' staging buffers. -/
def combined (c : Dev nD) (f0 : (⟨S328x4096, .f32⟩ : BufTy).Contents (Elt F)) (f1 : (⟨S1, .f32⟩ : BufTy).Contents (Elt F)) :
    (⟨S4096, .f32⟩ : BufTy).Contents (Elt F) :=
  (combineRun c (Memref.whole cc1_stg0_0) (Memref.isWhole_whole _) (Memref.whole cc1_stg1_0) (Memref.isWhole_whole _)
    (Memref.whole cc1_stg2_0) (Memref.isWhole_whole _) f0 f1).1

/-- The column sums of the partial sums, plus the bias, through the logistic function. -/
abbrev combineOf (f0 : (⟨S328x4096, .f32⟩ : BufTy).Contents (Elt F)) (f1 : (⟨S1, .f32⟩ : BufTy).Contents (Elt F)) :
    (⟨S4096, .f32⟩ : BufTy).Contents (Elt F) :=
  k1_pay1 f0 (f1 (ix1 0))

/-- It is the kernel's own term of them: the loads read the buffers whole, the store writes the result whole. -/
theorem combined_eq (c : Dev nD) (f0 : (⟨S328x4096, .f32⟩ : BufTy).Contents (Elt F)) (f1 : (⟨S1, .f32⟩ : BufTy).Contents (Elt F)) :
    combined c f0 f1 = combineOf f0 f1 := by
  unfold combined combineRun
  dsimp only
  sl_unfold_words
  refine (View.read_whole (Val := Elt F) cc1_stg2_0 _).symm.trans ?_
  rw [View.read_writes_junk_eq_canon]
  refine (View.canon_unit_zero (Val := Elt F) (S := S4096) offsets_zero1 inb_S4096_S4096_0 _).trans ?_
  have hl0 : View.readAt (Elt F) (Memref.whole cc1_stg0_0).view (Rect.unit ![0, 0] S328x4096.size inb_S328x4096_S328x4096_0_0).toLoadRect f0 = f0 :=
    View.ld_unit_zero (Val := Elt F) (S := S328x4096) offsets_zero2 inb_S328x4096_S328x4096_0_0 f0
  have hl1 : View.readAt (Elt F) (Memref.whole cc1_stg1_0).view (Rect.unit ![0] S1.size inb_S1_S1_0).toLoadRect f1 = f1 :=
    View.ld_unit_zero (Val := Elt F) (S := S1) offsets_zero1 inb_S1_S1_0 f1
  rw [hl0, hl1]
  exact congrArg (k1_pay1 f0) (congrArg f1 (funext fun a => Fin.ext (by fin_cases a; rfl)))

end Cert.Proof.KLaunchB

end
-- ==== Proof.TcRegionB.lean ====
/-
  The TensorCore region of the first program: its proof data, its body obligation, the region as one step of @main, and
  what its result array holds afterwards.

  The region has one grid point and three windows, each a whole array staged in one buffer: the 328 × 4096 partial sums and
  the bias are fetched, the 4096 results are written back. The pipeline around the body does the staging copies; the
  body is the kernel run on the three staging buffers. So after the region the result array holds the kernel's term
  of the other two arrays' contents at entry, and every other array is untouched.
-/
import proofs.«207464_g62843961475156_cont_9to1_m_1121_6_alg».proof.Proof.TcBodyB
import Idealize.ShloMosaic.Lib.Pipeline.Regions
import Idealize.ShloMosaic.Lib.Pipeline.RegionsLoop
import Idealize.ShloMosaic.Lib.Pipeline.Kit

noncomputable section

namespace Cert.Proof.KLaunchB

open Cert.Kernel Cert.Kernel.Gen
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)

variable {F : FTy → Type} [FloatOps F]

local notation "𝕄" => MT nD τ sig (HIx 1) (Elt F) ℕ UU ℕ

-- the memory as the region finds it
variable (Wm : (ℓ : Loc nD τ sig) → Buf (Elt F) ℓ)

/-! ## The proof data -/

/-- The pairs a TensorCore wait may have recorded by the time of the region: those at or below the level the launch's
    protocol allows after the SparseCore call. The region's own waits are at the lowest level and stay inside. -/
def bset (c : Dev nD) : Set (SemLoc sig × HIx 1) := {p | (K (F := F)).lev (SparseCore.T c, p.1) p.2 ≤ 8 * 1}

/-- The TensorCore after the one SparseCore call: it owes nothing, and its recorded waits are at or below level 8. -/
def owesTc (c : Dev nD) : sProp 𝕄 :=
  iprop(∃ W, ⌜(K (F := F)).WBelow (SparseCore.T c) W (8 * 1)⌝ ∗ owes (SparseCore.T c) (0 : CellTallies nD τ sig (HIx 1)) W)

/-- The two input windows' arrays as the fetch stages them. -/
abbrev xstg0 (c : Dev nD) : (cfg1.win 0).block.Idx → Elt F (cfg1.win 0).elt :=
  ((cfg1.win 0).blk t1_0).view.read (Elt F) (Wm ((cfg1.win 0).arr.view.loc (c : Thread nD τ)))
abbrev xstg1 (c : Dev nD) : (cfg1.win 1).block.Idx → Elt F (cfg1.win 1).elt :=
  ((cfg1.win 1).blk t1_0).view.read (Elt F) (Wm ((cfg1.win 1).arr.view.loc (c : Thread nD τ)))

/-- The region's proof data on core `c`: the three arrays at their entry contents; after the body the inputs as
    fetched, the result at the kernel's term; no invariant of its own; the core owes nothing. -/
def dat1 (c : Dev nD) : Pipeline.Dat τ (Elt F) (HIx 1) ℕ UU ℕ cfg1 c where
  A w := Wm ((cfg1.win w).arr.view.loc (c : Thread nD τ))
  after w _ := match w with
    | ⟨0, _⟩ => xstg0 Wm c
    | ⟨1, _⟩ => xstg1 Wm c
    | ⟨2, _⟩ => combined c (xstg0 Wm c) (xstg1 Wm c)
  Φ _ := iprop(emp)
  q _ := fullShare
  owed _ := 0
  recorded _ := bset (F := F) c

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat1 Wm

/-! ## The body -/

theorem before_in0 (c : Dev nD) (d : (cfg1.win 0).block.Idx → Elt F (cfg1.win 0).elt) : (dat1 Wm c).before 0 t1_0 d = xstg0 Wm c := by
  unfold Pipeline.Dat.before; rw [if_pos (by decide)]; rfl
theorem before_in1 (c : Dev nD) (d : (cfg1.win 1).block.Idx → Elt F (cfg1.win 1).elt) : (dat1 Wm c).before 1 t1_0 d = xstg1 Wm c := by
  unfold Pipeline.Dat.before; rw [if_pos (by decide)]; rfl

omit [FloatOps F] in
theorem owns_whole_eq (c : Dev nD) (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The library's body obligation on core `c`: the staging buffers taken apart, the kernel's run applied. -/
theorem body_obligation (c : Dev nD) : BodyObligation (dat1 (F := F) Wm c) (defs₀ (F := F)) 𝒱₀ none Set.univ := fun t => by
  obtain rfl := fin_N1 t
  rw [bigSep_W1, bigSep_W1]
  simp only [owns_whole_eq]
  rw [show (dat1 Wm c).Φ t1_0.castSucc = iprop(emp) from rfl, show (dat1 Wm c).Φ t1_0.succ = iprop(emp) from rfl,
    show (dat1 Wm c).owesAt none t1_0.succ = (dat1 Wm c).owesAt none t1_0.castSucc from rfl]
  iintro ⟨-, HO, ⟨%d0, %f0, %hf0, H0⟩, ⟨%d1, %f1, %hf1, H1⟩, ⟨%d2, %f2, %hf2, H2⟩⟩
  rw [before_in0] at hf0
  rw [before_in1] at hf1
  subst hf0
  subst hf1
  iapply ((combineRun c (Memref.whole cc1_stg0_0) (Memref.isWhole_whole _) (Memref.whole cc1_stg1_0) (Memref.isWhole_whole _)
    (Memref.whole cc1_stg2_0) (Memref.isWhole_whole _) (xstg0 Wm c) (xstg1 Wm c)).2 f2 _)
  isplitl [H0]; · iexact H0
  isplitl [H1]; · iexact H1
  isplitl [H2]; · iexact H2
  iintro ⟨H0, H1, H2⟩
  isplitr; · iempintro
  isplitl [HO]; · iexact HO
  isplitl [H0]
  · iexists _; isplitr; swap; (· iexact H0); ipureintro; rfl
  isplitl [H1]
  · iexists _; isplitr; swap; (· iexact H1); ipureintro; rfl
  iexists _; isplitr; swap; (· iexact H2); ipureintro; dsimp only [dat1, combined]

/-! ## What the arrays hold after the region -/

/-- The kernel's term of the two input arrays as the region finds them: what the result array holds afterwards. -/
abbrev out7 (c : Dev nD) : Buf (Elt F) ((c : Thread nD τ).loc main_v7) :=
  combineOf (Wm ((c : Thread nD τ).loc main_v6)) (Wm ((c : Thread nD τ).loc main_arg3))

/-- A window's block at the one grid point is its whole array: the block starts at the origin. -/
theorem emb_blk0 (y : ((cfg1.win 0).xblock (cfg1.grid.coords t1_0)).Idx) : ((cfg1.win 0).blk t1_0).view.emb y = y := by
  funext a; apply Fin.ext
  match a with
  | ⟨0, _⟩ =>
    show win1_0.index t1_0 0 * win1_0.size 0 + 1 * (y 0 : Nat) = _
    rw [show win1_0.index t1_0 0 = 0 by decide, Nat.zero_mul, Nat.zero_add, Nat.one_mul]
    rfl
  | ⟨1, _⟩ =>
    show win1_0.index t1_0 1 * win1_0.size 1 + 1 * (y 1 : Nat) = _
    rw [show win1_0.index t1_0 1 = 0 by decide, Nat.zero_mul, Nat.zero_add, Nat.one_mul]
    rfl
theorem emb_blk1 (y : ((cfg1.win 1).xblock (cfg1.grid.coords t1_0)).Idx) : ((cfg1.win 1).blk t1_0).view.emb y = y := by
  funext a; apply Fin.ext
  match a with
  | ⟨0, _⟩ =>
    show win1_1.index t1_0 0 * win1_1.size 0 + 1 * (y 0 : Nat) = _
    rw [show win1_1.index t1_0 0 = 0 by decide, Nat.zero_mul, Nat.zero_add, Nat.one_mul]
    rfl
theorem emb_blk2 (y : ((cfg1.win 2).xblock (cfg1.grid.coords t1_0)).Idx) : ((cfg1.win 2).blk t1_0).view.emb y = y := by
  funext a; apply Fin.ext
  match a with
  | ⟨0, _⟩ =>
    show win1_2.index t1_0 0 * win1_2.size 0 + 1 * (y 0 : Nat) = _
    rw [show win1_2.index t1_0 0 = 0 by decide, Nat.zero_mul, Nat.zero_add, Nat.one_mul]
    rfl

theorem read_blk0 (c : Dev nD) (G : Buf (Elt F) ((cfg1.win 0).arr.view.loc (c : Thread nD τ))) :
    ((cfg1.win 0).blk t1_0).view.read (Elt F) G = G := by
  funext y; rw [View.read_apply, emb_blk0]; rfl
theorem read_blk1 (c : Dev nD) (G : Buf (Elt F) ((cfg1.win 1).arr.view.loc (c : Thread nD τ))) :
    ((cfg1.win 1).blk t1_0).view.read (Elt F) G = G := by
  funext y; rw [View.read_apply, emb_blk1]; rfl
theorem read_blk2 (c : Dev nD) (G : Buf (Elt F) ((cfg1.win 2).arr.view.loc (c : Thread nD τ))) :
    ((cfg1.win 2).blk t1_0).view.read (Elt F) G = G := by
  funext y; rw [View.read_apply, emb_blk2]; rfl

/-- The result window's write-back is the kernel's term of the whole input arrays. -/
theorem flushed_eq (c : Dev nD) (t : Fin cfg1.N) :
    (dat1 Wm c).flushed 2 t = ((cfg1.win 2).blk t).view.read (Elt F) (out7 Wm c) := by
  obtain rfl := fin_N1 t
  have ha : (dat1 Wm c).after 2 t1_0 = combined c (xstg0 Wm c) (xstg1 Wm c) := by dsimp only [dat1]
  unfold Pipeline.Dat.flushed
  rw [ha, combined_eq, read_blk2]
  unfold xstg0 xstg1
  rw [read_blk0, read_blk1]
  rfl

/-- The one block of the result window covers its array. -/
theorem cover (i : S4096.Idx) : ∃ t : Fin cfg1.N, (cfg1.win 2).flush t = true ∧ i ∈ ((cfg1.win 2).blk t).view.set := by
  refine ⟨t1_0, flush1_2 _, ?_⟩
  show i ∈ ((View.whole main_v7).slice (win1_2.rect t1_0)).set
  rw [View.set_slice_whole, Rect.mem_set_unit]
  intro a
  match a with
  | ⟨0, _⟩ =>
    show win1_2.index t1_0 0 * win1_2.size 0 ≤ (i 0 : Nat) ∧ (i 0 : Nat) < win1_2.index t1_0 0 * win1_2.size 0 + win1_2.xsize (grid1.coords t1_0) 0
    rw [show win1_2.index t1_0 0 = 0 by decide, show win1_2.xsize (grid1.coords t1_0) 0 = 4096 by decide, Nat.zero_mul]
    have h : (i 0 : Nat) < 4096 := (i 0).isLt
    exact ⟨Nat.zero_le _, by omega⟩

/-- The region's result array ends at the kernel's term of the two input arrays as the region found them. -/
theorem arrAt_v7 (c : Dev nD) : (dat1 Wm c).arrAt 2 cfg1.N = out7 Wm c :=
  (dat1 Wm c).arrAt_eq_of_cover 2 (out7 Wm c) (fun t _ => flushed_eq Wm c t) cover
/-- The input arrays reach its exit as it found them. -/
theorem arrAt_v6 (c : Dev nD) : (dat1 Wm c).arrAt 0 cfg1.N = Wm ((cfg1.win 0).arr.view.loc (c : Thread nD τ)) := (dat1 Wm c).arrAt_in 0 rfl _
theorem arrAt_arg3 (c : Dev nD) : (dat1 Wm c).arrAt 1 cfg1.N = Wm ((cfg1.win 1).arr.view.loc (c : Thread nD τ)) := (dat1 Wm c).arrAt_in 1 rfl _

/-! ## The region as one step of @main -/

/-- The unscoped buffers as the region finds them, -/
abbrev Win (c : Dev nD) : (b : Ref sig .tc) → Buf (Elt F) ((c : Thread nD τ).loc b) := fun b => Wm ((c : Thread nD τ).loc b)
/-- and as it leaves them: the result array rewritten. -/
def Wout (c : Dev nD) : (b : Ref sig .tc) → Buf (Elt F) ((c : Thread nD τ).loc b) := Function.update (Win Wm c) main_v7 (out7 Wm c)

theorem arrays_eq (c : Dev nD) (Fa) : ((pdats (F := F) Wm 0 c).arrays Fa : sProp 𝕄)
    = iprop((((c : Thread nD τ).loc main_v6) ↦{fullShare} Fa 0) ∗ (((c : Thread nD τ).loc main_arg3) ↦{fullShare} Fa 1) ∗ (((c : Thread nD τ).loc main_v7) ↦{fullShare} Fa 2)) := by
  rw [Pipeline.arrays_eq (Pipeline.pin (pcfgs (F := F)) adm) (pdats Wm) 0 c launch1.arr_whole ((pdats Wm 0 c).share_full fun _ => rfl) Fa, bigSep_W1]

/-- The region: the three arrays into the pipeline, the other buffers bypassing; the core owes nothing throughout and its
    recorded waits stay at or below the level the launch allows. -/
def reg1 : Pipeline.RegionSeg (pcfgs (F := F)) adm (pdats Wm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation Wm c).loose
  hwaits c := Pipeline.hwaits_of_owed_zero (pcfgs (F := F)) adm (pdats Wm) none (K (F := F)).L (K (F := F)).lev 0 (fun _ _ => rfl) c
  pre c := iprop(unscopedBufs c (Win Wm c) ∗ owesTc (F := F) c)
  post c := iprop(unscopedBufs c (Wout Wm c) ∗ owesTc (F := F) c)
  X _ := iprop(emp)
  Y _ := iprop(emp)
  Z c := Pipeline.unscopedRest (Ix := HIx 1) (Name := ℕ) (U := UU) (Lvl := ℕ) spec1 c (Win Wm c)
  hentry c := by
    rw [Pipeline.ownSems0_none]
    have hsplit := Pipeline.arrays_of_unscopedBufs (pcfgs (F := F)) adm (pdats Wm) launch1.win launch1.arr_whole c
      ((pdats Wm 0 c).share_full fun _ => rfl) (Win Wm c) fun _ => rfl
    unfold owesTc
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by iintro -; iempintro
  hout c := by
    rw [Pipeline.ownSems0_none, scopedRest1_eq]
    iintro -; isplitr; · iempintro
    isplitr <;> iempintro
  hexit c := by
    have hjoin := Pipeline.unscopedBufs_of_arrays (pcfgs (F := F)) adm launch1.win launch1.arr_whole c (pdats Wm)
      ((pdats Wm 0 c).share_full fun _ => rfl) (Win Wm c) (Wout Wm c) ((pdats Wm 0 c).arrAt · (Pipeline.pin (pcfgs (F := F)) adm 0).N)
      (fun w => by
        match w with
        | ⟨0, _⟩ => exact (arrAt_v6 Wm c).trans (show Win Wm c main_v6 = Wout Wm c main_v6 from
            (Function.update_of_ne (show (main_v6 : Ref sig .tc) ≠ main_v7 by decide) _ _).symm)
        | ⟨1, _⟩ => exact (arrAt_arg3 Wm c).trans (show Win Wm c main_arg3 = Wout Wm c main_arg3 from
            (Function.update_of_ne (show (main_arg3 : Ref sig .tc) ≠ main_v7 by decide) _ _).symm)
        | ⟨2, _⟩ => exact (arrAt_v7 Wm c).trans (show out7 Wm c = Wout Wm c main_v7 from by unfold Wout; rw [Function.update_self]))
      (fun b hb => show Wout Wm c b = Win Wm c b from
        Function.update_of_ne (fun e : b = main_v7 => hb (by rw [e]; exact Finset.mem_image.mpr ⟨2, Finset.mem_univ _, rfl⟩)) _ _)
    unfold owesTc
    iintro ⟨Ha, HO, -, Hr⟩
    imodintro
    isplitl [Ha Hr]
    · iapply hjoin; isplitl [Ha]; · iexact Ha
      iexact Hr
    unfold Pipeline.Dat.owesAt Pipeline.owesWithin
    icases HO with ⟨%W, %hW, HO⟩
    iexists W; isplitr
    · ipureintro; intro p hp
      rcases hW hp with h | ⟨w, s, rfl⟩
      · exact h
      · show (K (F := F)).lev _ none ≤ 8 * 1
        rw [SparseCore.Cfg.lev_none]; exact Nat.zero_le _
    · iexact HO

end Cert.Proof.KLaunchB

end
-- ==== Proof.LaunchB.lean ====
/-
  The launch of the first program: the launch element of the ghost state, @main on the TensorCore, and the run of all
  thirty-five threads.

  @main runs seven host operations on arrays it holds whole, hands four of them to the SparseCores and gets them back
  (the partial sums rewritten), reshapes the partial sums, runs its own kernel region on them and the bias, and reshapes
  the result. Nothing writes an argument array. The SparseCore side enters through its payload record and the two
  obligations about the tile body, which are assumed here.
-/
import proofs.«207464_g62843961475156_cont_9to1_m_1121_6_alg».proof.Proof.HostOpsB
import proofs.«207464_g62843961475156_cont_9to1_m_1121_6_alg».proof.Proof.TcRegionB

noncomputable section

namespace Cert.Proof.KLaunchB

open Cert.Kernel Cert.Kernel.Gen
open Idealize.ShloMosaic Idealize.ShloMosaic.ValueIdx
open Idealize.ShloMosaic.TcCoe
open Idealize.ShloMosaic.SparseCore (S V T)
open Idealize.ShloMosaic.SparseCore.Cfg (HIx Pay callsFrom)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within after)
open Idealize.ShloMosaic.Pipeline (ucRefs unscopedBufs_held sub_ucRefs)

variable {F : FTy → Type} [FloatOps F]

local notation "𝕄" => MT nD τ sig (HIx 1) (Elt F) ℕ UU ℕ

/-! ## The launch element -/

/-- The launch element: the handshakes' rounds at their cells, the staging cells' rounds at theirs, no counter. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What the launch leaves the TensorCore of `d` for its kernel region: the staging cells' ghost state and the duty
    tokens of the staging copies. -/
def G (d : Dev nD) : sProp 𝕄 :=
  iprop((bigSep Finset.univ fun p : Fin 1 => Pipeline.cellsGhost (Pipeline.pin (pcfgs (F := F)) adm) (EP (F := F)) p d)
    ∗ bigSep Finset.univ fun p : Fin 1 => (Pipeline.toksInit (Pipeline.pin (pcfgs (F := F)) adm) (EP (F := F)) p d : sProp 𝕄))

/-- Of it, the one pipeline's summands. -/
theorem G_elim (d : Dev nD) : (G (F := F) d : sProp 𝕄)
    ⊢ iprop(Pipeline.cellsGhost (Pipeline.pin (pcfgs (F := F)) adm) (EP (F := F)) 0 d ∗ Pipeline.toksInit (Pipeline.pin (pcfgs (F := F)) adm) (EP (F := F)) 0 d) := by
  unfold G
  rw [show (Finset.univ : Finset (Fin 1)) = {0} from rfl, bigSep_singleton, bigSep_singleton]

omit [FloatOps F] in
theorem bigSep_emp' {I : Type} (s : Finset I) : (bigSep s fun _ => iprop(emp)) = (iprop(emp) : sProp 𝕄) := bigSep_emp_const s

variable (P : PayT F)

theorem hu₀ (hx : P.x = fun _ _ => iprop(emp)) : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  iintro Hu
  ihave H := (ownU_triple _ _ _) $$ Hu
  icases H with ⟨HH, HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · unfold G; rw [bigSep_sep']; isplitl [Hg]; · iexact Hg
    iexact Ht
  rw [hx]; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem reg1_pre (Wm : (ℓ : Loc nD τ sig) → Buf (Elt F) ℓ) (c : Dev nD) :
    ((reg1 (F := F) Wm).pre c : sProp 𝕄) = iprop(unscopedBufs c (Win Wm c) ∗ owesTc (F := F) c) := rfl
theorem reg1_post (Wm : (ℓ : Loc nD τ sig) → Buf (Elt F) ℓ) (c : Dev nD) :
    ((reg1 (F := F) Wm).post c : sProp 𝕄) = iprop(unscopedBufs c (Wout Wm c) ∗ owesTc (F := F) c) := rfl

/-! ## The TensorCore's handshake state after the one call -/

/-- The TensorCore's handshake state before call `1` (there is none: after the last call) without what it owes. -/
def tcRest (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (callsFrom 1) fun q : Fin 1 => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

/-- After the last call the TensorCore owes nothing. -/
theorem tcSt_one (d : Dev nD) :
    ((K (F := F)).tcSt (EH (F := F)) d 1 : sProp 𝕄) = iprop(owesTc (F := F) d ∗ tcRest (F := F) d) := by
  unfold SparseCore.Cfg.tcSt tcRest owesTc
  rw [(K (F := F)).Otc_end d (le_refl 1)]

/-! ## The arrays @main passes around -/

variable (m : (ℓ : Loc nD τ sig) → Buf (Elt F) ℓ) (ρ : Dev nD → PrngReg)

/-- The memory as the TensorCore's region finds it, when the call left `fs c` in device `c`'s partial sums. -/
def Wmem (fs : (c : Dev nD) → Buf (Elt F) (v5Loc c)) : (ℓ : Loc nD τ sig) → Buf (Elt F) ℓ := fun ℓ => V6 m ℓ.1 (fs ℓ.1) ℓ.2

/-- What the region leaves in its result array. -/
def g7 (d : Dev nD) (f : Buf (Elt F) (v5Loc d)) : Buf (Elt F) (v7Loc d) :=
  combineOf (V6 m d f (Proc.devRef .tc main_v6)) (V6 m d f (Proc.devRef .tc main_arg3))
/-- The device's buffers at the end. -/
def Vend (d : Dev nD) (f : Buf (Elt F) (v5Loc d)) : Valuation τ sig (Elt F) := V8 m d f (g7 m d f)
/-- The result of @main, as a function of the arguments and of what the call left in the partial sums. -/
def outOf (d : Dev nD) (f : Buf (Elt F) (v5Loc d)) : Buf (Elt F) (v8Loc d) := Vend m d f (Proc.devRef .tc main_v8)

theorem V6_arg3 (d : Dev nD) (f : Buf (Elt F) (v5Loc d)) : V6 m d f (Proc.devRef .tc main_arg3) = m ((SparseCore.T d).loc main_arg3) := by
  unfold V6 Vcall
  rw [StableHlo.reshape_result_ne _ _ _ _ _ _ _ (by decide), Function.update_of_ne (by decide), Vpre_arg3]

/-- The result, spelt out: the partial sums as 328 rows of 4096, their column sums plus the bias through the logistic
    function, as a column. -/
theorem outOf_eq (d : Dev nD) (f : Buf (Elt F) (v5Loc d)) :
    outOf m d f = fun i => shapeCast S4096x1
      (combineOf (fun i => shapeCast S328x4096 f shapeCasts_S1343488_S328x4096 i) (m ((SparseCore.T d).loc main_arg3))) shapeCasts_S4096_S4096x1 i := by
  unfold outOf Vend
  rw [V8_v8]
  unfold g7
  rw [V6_v6, V6_arg3]

/-- The buffers the call takes and gives back. -/
abbrev callRefs : Finset (DevRef τ sig) :=
  {Proc.devRef .tc main_v1, Proc.devRef .tc main_v2, Proc.devRef .tc main_v4, Proc.devRef .tc main_v5}
theorem callRefs_sub : callRefs ⊆ ucRefs τ sig := by decide

omit [FloatOps F] in
theorem held_callRefs (d : Dev nD) (W : Valuation τ sig (Elt F)) :
    (held (SparseCore.T d) callRefs W : sProp 𝕄)
      = iprop(v1Pts d (W (Proc.devRef .tc main_v1)) ∗ v2Pts d (W (Proc.devRef .tc main_v2)) ∗ v4Pts d (W (Proc.devRef .tc main_v4)) ∗ v5Pts d (W (Proc.devRef .tc main_v5))) := by
  unfold held callRefs
  rw [SparseCore.bigSep_insert' (by decide), SparseCore.bigSep_insert' (by decide), SparseCore.bigSep_insert' (by decide), bigSep_singleton]

/-- The buffers the claim reads at the end: the result and the four arguments. -/
abbrev finRefs : Finset (DevRef τ sig) :=
  {Proc.devRef .tc main_v8, Proc.devRef .tc main_arg0, Proc.devRef .tc main_arg1, Proc.devRef .tc main_arg2, Proc.devRef .tc main_arg3}
theorem finRefs_sub : finRefs ⊆ ucRefs τ sig := by decide

omit [FloatOps F] in
theorem held_finRefs (d : Dev nD) (W : Valuation τ sig (Elt F)) :
    (held (SparseCore.T d) finRefs W : sProp 𝕄)
      = iprop(((d, Proc.devRef .tc main_v8) ↦{fullShare} W (Proc.devRef .tc main_v8)) ∗ ((d, Proc.devRef .tc main_arg0) ↦{fullShare} W (Proc.devRef .tc main_arg0))
          ∗ ((d, Proc.devRef .tc main_arg1) ↦{fullShare} W (Proc.devRef .tc main_arg1)) ∗ ((d, Proc.devRef .tc main_arg2) ↦{fullShare} W (Proc.devRef .tc main_arg2))
          ∗ ((d, Proc.devRef .tc main_arg3) ↦{fullShare} W (Proc.devRef .tc main_arg3))) := by
  unfold held finRefs
  rw [SparseCore.bigSep_insert' (by decide), SparseCore.bigSep_insert' (by decide), SparseCore.bigSep_insert' (by decide), SparseCore.bigSep_insert' (by decide), bigSep_singleton]

/-- Before the call: the four arrays out of the buffers at `Vpre`, the partial sums at what they hold. -/
theorem held_before_call (d : Dev nD) :
    (held (SparseCore.T d) callRefs (Vpre m d) : sProp 𝕄) ⊢ callTakes d (xt m d) (wf m d) (wl m d) := by
  rw [held_callRefs]
  unfold xt wf wl
  iintro ⟨H1, H2, H4, H5⟩
  isplitl [H1]; · iexact H1
  isplitl [H2]; · iexact H2
  isplitl [H4]; · iexact H4
  iexists _; iexact H5

/-- After the call: the four arrays back (the partial sums at `f`) beside the rest are all the buffers at `Vcall`. -/
theorem held_after_call (d : Dev nD) (f : Buf (Elt F) (v5Loc d)) :
    iprop(v1Pts d (xt m d) ∗ v2Pts d (wf m d) ∗ v4Pts d (wl m d) ∗ v5Pts d f ∗ held (SparseCore.T d) (ucRefs τ sig \ callRefs) (Vpre m d))
      ⊢ (held (SparseCore.T d) (ucRefs τ sig) (Vcall m d f) : sProp 𝕄) := by
  rw [held_sub_split (SparseCore.T d) callRefs_sub (Vcall m d f), held_callRefs, Vcall_v5, Vcall_of_ne m d f _ (by decide),
    Vcall_of_ne m d f _ (by decide), Vcall_of_ne m d f _ (by decide),
    held_congr (SparseCore.T d) (V := Vcall m d f) (V' := Vpre m d) fun b hb => Vcall_of_ne m d f b fun e =>
      (Finset.mem_sdiff.mp hb).2 (e ▸ by decide)]
  iintro ⟨H1, H2, H4, H5, Hr⟩
  isplitl [H1 H2 H4 H5]
  · isplitl [H1]; · iexact H1
    isplitl [H2]; · iexact H2
    isplitl [H4]; · iexact H4
    iexact H5
  iexact Hr

/-- The buffers as the region leaves them are the buffers at `V7`. -/
theorem Wout_eq (fs : (c : Dev nD) → Buf (Elt F) (v5Loc c)) (d : Dev nD) :
    Wout (Wmem m fs) d = fun b => V7 m d (fs d) (g7 m d (fs d)) (Proc.devRef .tc b) := by
  funext b
  unfold Wout V7
  by_cases h : b = main_v7
  · subst h; rw [Function.update_self, Function.update_self]; rfl
  · rw [Function.update_of_ne h, Function.update_of_ne (StableHlo.devRef_ne_of_ne h)]; rfl

/-! ## @main on the TensorCore -/

theorem opT_sub : (opT (F := F)).bufs ⊆ ucRefs τ sig := sub_ucRefs _ (StableHlo.unary_bufs_sub _ _ _ _ _)
theorem opR1_sub : (opR1 (F := F)).bufs ⊆ ucRefs τ sig := sub_ucRefs _ (StableHlo.reshape_bufs_sub _ _ _ _ _ _)
theorem opR2_sub : (opR2 (F := F)).bufs ⊆ ucRefs τ sig := sub_ucRefs _ (StableHlo.reshape_bufs_sub _ _ _ _ _ _)
theorem opR3_sub : (opR3 (F := F)).bufs ⊆ ucRefs τ sig := sub_ucRefs _ (StableHlo.reshape_bufs_sub _ _ _ _ _ _)
theorem opC_sub : (opC (F := F)).bufs ⊆ ucRefs τ sig := sub_ucRefs _ (StableHlo.nullary_bufs_sub _ _ _)
theorem opP0_sub : (opP0 (F := F)).bufs ⊆ ucRefs τ sig := sub_ucRefs _ (StableHlo.unary_bufs_sub _ _ _ _ _)
theorem opP1_sub : (opP1 (F := F)).bufs ⊆ ucRefs τ sig := sub_ucRefs _ (StableHlo.binary_bufs_sub _ _ _ _ _ _ _)
theorem opR6_sub : (opR6 (F := F)).bufs ⊆ ucRefs τ sig := sub_ucRefs _ (StableHlo.reshape_bufs_sub _ _ _ _ _ _)
theorem opR8_sub : (opR8 (F := F)).bufs ⊆ ucRefs τ sig := sub_ucRefs _ (StableHlo.reshape_bufs_sub _ _ _ _ _ _)

/-- The seven operations' results composed are the buffers after them. -/
theorem Vpre_eq (d : Dev nD) : (opP1 (F := F)).result ((opP0 (F := F)).result ((opC (F := F)).result ((opR3 (F := F)).result ((opR2 (F := F)).result
    ((opR1 (F := F)).result ((opT (F := F)).result (V0 m d))))))) = Vpre m d := rfl

variable (R : (d : Dev nD) → Buf (Elt F) (v5Loc d) → Prop)

/-- What @main leaves the claim: for some contents `f` the call could leave in the partial sums (`R`), the result and the
    four arguments at the end. -/
def FIN (d : Dev nD) : sProp 𝕄 := iprop(∃ f, ⌜R d f⌝ ∗ held (SparseCore.T d) finRefs (Vend m d f))

variable (Rem : Dev nD → sProp (MT nD τ sig (HIx 1) (Elt F) ℕ UU ℕ))

set_option hygiene false in
/-- One host operation over all the unscoped buffers held. -/
local macro "host_step" op:term "," h:term : tactic => `(tactic| (
  iapply (wp_hlo_within 𝒱 (SparseCore.T d) none Set.univ (op := $op) (S := ucRefs τ sig) $h) $$ [Hb Hheld]
  · isplitl [Hb]; · iexact Hb
    iexact Hheld
  iintro ⟨Hb, Hheld⟩
  rw [wp_ret]; imodintro))

set_option backward.isDefEq.respectTransparency.types false in
/-- @main on device `d`'s TensorCore. -/
theorem hmain
    (hst : ∀ d, callTakes d (xt m d) (wf m d) (wl m d) ⊢ iprop(Rem d ∗ bigSep Finset.univ fun c : Fin ((K (F := F)).nCore 0) => P.st 0 d c))
    (hdn : ∀ d, iprop(Rem d ∗ bigSep Finset.univ fun c : Fin ((K (F := F)).nCore 0) => P.dn 0 d c)
      ⊢ iprop(v1Pts d (xt m d) ∗ v2Pts d (wf m d) ∗ v4Pts d (wl m d) ∗ ∃ f, ⌜R d f⌝ ∗ v5Pts d f))
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R d) := by
  unfold SparseCore.Cfg.tcRes
  rw [show (unscopedBufs d (fun b => m ((SparseCore.T d).loc b)) : sProp 𝕄) = held (SparseCore.T d) (ucRefs τ sig) (V0 m d)
    from unscopedBufs_held d (V0 m d)]
  simp only [main, fn_pad.body, wp_bind, wp_pure]
  iintro ⟨#Hctx, Hst, ⟨Hb, Hheld, -, -⟩, HG⟩
  -- the seven host operations
  host_step opT, opT_sub
  host_step opR1, opR1_sub
  host_step opR2, opR2_sub
  host_step opR3, opR3_sub
  host_step opC, opC_sub
  host_step opP0, opP0_sub
  host_step opP1, opP1_sub
  rw [Vpre_eq m d]
  -- the call: the four arrays out and back
  ihave Hh := (Entails.of_eq (held_sub_split (SparseCore.T d) callRefs_sub (Vpre m d))) $$ Hheld
  icases Hh with ⟨Hcall, Hrest⟩
  ihave Hc := (held_before_call m d) $$ Hcall
  ihave Hc' := (hst d) $$ Hc
  icases Hc' with ⟨Hrem, Hcst⟩
  iapply ((K (F := F)).wp_run (D (F := F)) 𝒱 (EH := EH) (P := P) κ d 0) $$ [Hst Hcst Hb Hrest Hrem HG]
  isplitr; · iexact Hctx
  isplitl [Hst]; · iexact Hst
  isplitl [Hcst]; · iexact Hcst
  iintro ⟨Hst, Hdn⟩
  ihave Hdn' := (hdn d) $$ [Hrem Hdn]
  · isplitl [Hrem]; · iexact Hrem
    iexact Hdn
  icases Hdn' with ⟨H1, H2, H4, %f, %hR, H5⟩
  ihave Hheld := (held_after_call m d f) $$ [H1 H2 H4 H5 Hrest]
  · isplitl [H1]; · iexact H1
    isplitl [H2]; · iexact H2
    isplitl [H4]; · iexact H4
    isplitl [H5]; · iexact H5
    iexact Hrest
  -- the reshape of the partial sums
  host_step opR6, opR6_sub
  ihave Hheld := (Entails.of_eq (show (held (SparseCore.T d) (ucRefs τ sig) ((opR6 (F := F)).result (Vcall m d f)) : sProp 𝕄) = unscopedBufs d (Win (Wmem m fun _ => f) d)
    from (unscopedBufs_held d (V6 m d f)).symm)) $$ Hheld
  -- the TensorCore's own region
  ihave Hst' := (Entails.of_eq (show ((K (F := F)).tcSt (EH (F := F)) d ((0 : Fin 1).val + 1) : sProp 𝕄) = _ from tcSt_one (F := F) d)) $$ Hst
  icases Hst' with ⟨HO, Htr⟩
  ihave Hlev := (SparseCore.Cfg.ctx_levAts κ) $$ Hctx
  ihave HG' := (G_elim (F := F) d) $$ HG
  icases HG' with ⟨Hg, Ht⟩
  rw [show (Prog.lift (TpuEff.customCall (SparseCore.inner (Pipeline.entry 0)) ()) : Prog (TpuEff nD τ sig (Elt F) (SparseCore.Sig (ΛP (F := F)) 1) .tc) PUnit)
    = SparseCore.liftProg (.op (.customCall (Pipeline.entry 0) ()) Prog.ret) from rfl]
  iapply ((K (F := F)).wp_liftProg (D (F := F)) 𝒱 (SparseCore.T d) Set.univ none
    (.op (.customCall (Pipeline.entry 0) ()) Prog.ret) _)
  iapply (Pipeline.RegionSeg.wp (pcfgs (F := F)) adm (pdats (Wmem m fun _ => f)) none cellOf_inj (EP (F := F)) defs₀ 𝒱₀
    (K (F := F)).L (K (F := F)).lev (reg1 (Wmem m fun _ => f)) d none (fun u hu => by cases hu) Prog.ret _) $$ [Hb Hheld HO Hlev Hg Ht Htr]
  rw [reg1_pre, reg1_post]
  isplitr [Hb Hheld HO Hlev Hg Ht]
  swap
  · isplitl [Hb]; · iexact Hb
    isplitl [Hheld HO]
    · isplitl [Hheld]; · iexact Hheld
      iexact HO
    isplitl [Hlev]; · iexact Hlev
    isplitl [Hg]; · iexact Hg
    iexact Ht
  iintro ⟨Hb, Hpost⟩
  icases Hpost with ⟨Hub, HO⟩
  rw [wp_ret]; imodintro
  ihave Hheld := (Entails.of_eq (show (unscopedBufs d (Wout (Wmem m fun _ => f) d) : sProp 𝕄) = held (SparseCore.T d) (ucRefs τ sig) (V7 m d f (g7 m d f))
    from by rw [Wout_eq m (fun _ => f) d]; exact unscopedBufs_held d (V7 m d f (g7 m d f)))) $$ Hub
  -- the last reshape
  host_step opR8, opR8_sub
  imodintro
  isplitl [HO Htr]
  · iapply (Entails.of_eq (tcSt_one (F := F) d).symm)
    isplitl [HO]; · iexact HO
    iexact Htr
  unfold FIN
  iexists f; isplitr; · ipureintro; exact hR
  ihave Hh := (Entails.of_eq (show (held (SparseCore.T d) (ucRefs τ sig) ((opR8 (F := F)).result (V7 m d f (g7 m d f))) : sProp 𝕄) = _
    from held_sub_split (SparseCore.T d) finRefs_sub (Vend m d f))) $$ Hheld
  icases Hh with ⟨Hfin, -⟩
  iexact Hfin

/-! ## Reading the final memory -/

theorem Vend_arg0 (d : Dev nD) (f : Buf (Elt F) (v5Loc d)) : Vend m d f (Proc.devRef .tc main_arg0) = m ((SparseCore.T d).loc main_arg0) :=
  (V8_of_ne m d f _ main_arg0 (by decide) (by decide) (by decide) (by decide)).trans (Vpre_arg0 m d)
theorem Vend_arg1 (d : Dev nD) (f : Buf (Elt F) (v5Loc d)) : Vend m d f (Proc.devRef .tc main_arg1) = m ((SparseCore.T d).loc main_arg1) :=
  (V8_of_ne m d f _ main_arg1 (by decide) (by decide) (by decide) (by decide)).trans (Vpre_arg1 m d)
theorem Vend_arg2 (d : Dev nD) (f : Buf (Elt F) (v5Loc d)) : Vend m d f (Proc.devRef .tc main_arg2) = m ((SparseCore.T d).loc main_arg2) :=
  (V8_of_ne m d f _ main_arg2 (by decide) (by decide) (by decide) (by decide)).trans (Vpre_arg2 m d)
theorem Vend_arg3 (d : Dev nD) (f : Buf (Elt F) (v5Loc d)) : Vend m d f (Proc.devRef .tc main_arg3) = m ((SparseCore.T d).loc main_arg3) :=
  (V8_of_ne m d f _ main_arg3 (by decide) (by decide) (by decide) (by decide)).trans (Vpre_arg3 m d)

/-- What the final memory of device `d` says: the result is @main's function of the arguments and of some contents the
    call could leave in the partial sums; the arguments are as launched. -/
def fq (d : Dev nD) (s' : Phys nD τ sig (Elt F)) : Prop :=
  (∃ f, R d f ∧ s'.mem.mem (v8Loc d) = outOf m d f)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)

theorem hfin (d : Dev nD) (s' : Phys nD τ sig (Elt F)) : iprop(FIN m R d ∗ SI s') ⊢ (⌜fq m R d s'⌝ : sProp 𝕄) := by
  unfold FIN
  iintro ⟨⟨%f, %hR, Hh⟩, HSI⟩
  ihave Hh' := (Entails.of_eq (held_finRefs (F := F) d (Vend m d f))) $$ Hh
  icases Hh' with ⟨H8, H0, H1, H2, H3⟩
  icombine HSI H8 gives %h8
  icombine HSI H0 gives %h0
  icombine HSI H1 gives %h1
  icombine HSI H2 gives %h2
  icombine HSI H3 gives %h3
  ipureintro
  exact ⟨⟨f, hR, Buf.eq_of_forall_mem_univ h8⟩, (Buf.eq_of_forall_mem_univ h0).trans (Vend_arg0 m d f),
    (Buf.eq_of_forall_mem_univ h1).trans (Vend_arg1 m d f), (Buf.eq_of_forall_mem_univ h2).trans (Vend_arg2 m d f),
    (Buf.eq_of_forall_mem_univ h3).trans (Vend_arg3 m d f)⟩

/-! ## The program's run -/

/-- The run's post: on every device the result is @main's function of the arguments and of some contents of the partial
    sums the call could leave (`R`), and the four arguments are as launched. -/
def QC : PUnit × MemSt nD τ sig (Elt F) → Prop := fun r => ∀ c : Dev nD,
  (∃ f, R c f ∧ r.2.mem (v8Loc c) = outOf m c f)
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)

/-- Every weakly fair execution of the thirty-five threads terminates, nothing faulting, in a memory satisfying `QC`:
    from the tile body's obligation, the split of a SparseCore's operands among its tiles, and what the call takes from
    and returns to the TensorCore. -/
theorem run_main [∀ e, Nonempty (Elt F e)] [P.IsStorable]
    (hx : P.x = fun _ _ => iprop(emp)) (hheld : P.held = ∅)
    (tileObl : (K (F := F)).TileObl (D (F := F)) 𝒱 P v₀ 0) (vecSplit : (K (F := F)).VecSplit' P 0)
    (hst : ∀ d, callTakes d (xt m d) (wf m d) (wl m d) ⊢ iprop(Rem d ∗ bigSep Finset.univ fun c : Fin ((K (F := F)).nCore 0) => P.st 0 d c))
    (hdn : ∀ d, iprop(Rem d ∗ bigSep Finset.univ fun c : Fin ((K (F := F)).nCore 0) => P.dn 0 d c)
      ⊢ iprop(v1Pts d (xt m d) ∗ v2Pts d (wf m d) ∗ v4Pts d (wl m d) ∗ ∃ f, ⌜R d f⌝ ∗ v5Pts d f)) :
    θ_run (Cert.Kernel.defs (F := F)) (Cert.Kernel.threads (F := F)) ⟨m, fun _ => 0, ρ⟩ (QC m R) :=
  SparseCore.Cfg.θ_run_sc (K := K (F := F)) (D := D (F := F)) (𝒱 := 𝒱) (EH := EH) (P := P) facts v₀
    (fun q hq => match q with | 0 => absurd hq (show (scKind 0 : Kind) ≠ .scScalar by decide))
    (fun q _ => match q with | 0 => tileObl)
    (fun q _ => match q with | 0 => SparseCore.Cfg.VecSplit.of_plain vecSplit)
    m ρ main (G (F := F)) (FIN m R) (u₀ (F := F)) (sep_elim_left.trans (hu₀ P hx)) (hmain P m ρ R Rem hst hdn) (fq m R) (hfin m R) (QC m R) (fun _ h => h)
    (hheld := hheld)

omit [FloatOps F] in
theorem callTakes_true (d : Dev nD) (x1 : Buf (Elt F) (v1Loc d)) (w2 : Buf (Elt F) (v2Loc d)) (w4 : Buf (Elt F) (v4Loc d)) :
    (callTakes d x1 w2 w4 : sProp 𝕄) ⊢ iprop(v1Pts d x1 ∗ v2Pts d w2 ∗ v4Pts d w4 ∗ ∃ f, ⌜True⌝ ∗ v5Pts d f) := by
  iintro ⟨H1, H2, H4, %f, H5⟩
  isplitl [H1]; · iexact H1
  isplitl [H2]; · iexact H2
  isplitl [H4]; · iexact H4
  iexists f; isplitr; · ipureintro; trivial
  iexact H5

/-- The frame variant: the call returns the partial sums at contents not named. -/
theorem run_frame [∀ e, Nonempty (Elt F e)] [P.IsStorable]
    (hx : P.x = fun _ _ => iprop(emp)) (hheld : P.held = ∅)
    (tileObl : (K (F := F)).TileObl (D (F := F)) 𝒱 P v₀ 0) (vecSplit : (K (F := F)).VecSplit' P 0)
    (hst : ∀ d, callTakes d (xt m d) (wf m d) (wl m d) ⊢ iprop(Rem d ∗ bigSep Finset.univ fun c : Fin ((K (F := F)).nCore 0) => P.st 0 d c))
    (hdn : ∀ d, iprop(Rem d ∗ bigSep Finset.univ fun c : Fin ((K (F := F)).nCore 0) => P.dn 0 d c) ⊢ callTakes d (xt m d) (wf m d) (wl m d)) :
    θ_run (Cert.Kernel.defs (F := F)) (Cert.Kernel.threads (F := F)) ⟨m, fun _ => 0, ρ⟩ (fun r => ∀ c : Dev nD,
      r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)) :=
  (θ_run (Cert.Kernel.defs (F := F)) _ _).mono (fun _ h c => (h c).2)
    (run_main P m ρ (fun _ _ => True) Rem hx hheld tileObl vecSplit hst fun d => (hdn d).trans (callTakes_true d _ _ _))

end Cert.Proof.KLaunchB

end
-- ==== Proof.TileDefsB.lean ====
import Idealize.ShloMosaic.Lib.SparseCore.Launch
import Idealize.ShloMosaic.Lib.StableHlo.Run
import Idealize.ShloMosaic.Lib.Pipeline.Kit
import Idealize.ShloMosaic.Lib.Tactic
import proofs.«207464_g62843961475156_cont_9to1_m_1121_6_alg».proof.Proof.Gen.Kernel
import proofs.«207464_g62843961475156_cont_9to1_m_1121_6_alg».proof.Proof.Gen.Kernel.Skeleton
import proofs.«207464_g62843961475156_cont_9to1_m_1121_6_alg».proof.Proof.GhostB

noncomputable section

namespace Cert.Proof.KTileB

open Cert.Kernel Cert.Kernel.Gen Cert.Proof.KLaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

local notation "xtW" => (Memref.whole Cert.Kernel.main_v1_scv : Memref Cert.Kernel.sig Kind.scVector Space.hbm Cert.Kernel.S106496 EltTy.i32)
local notation "wfW" => (Memref.whole Cert.Kernel.main_v2_scv : Memref Cert.Kernel.sig Kind.scVector Space.hbm Cert.Kernel.S10816000 EltTy.f32)
local notation "wlW" => (Memref.whole Cert.Kernel.main_v4_scv : Memref Cert.Kernel.sig Kind.scVector Space.hbm Cert.Kernel.S26112 EltTy.f32)
local notation "ptW" => (Memref.whole Cert.Kernel.main_v5_scv : Memref Cert.Kernel.sig Kind.scVector Space.hbm Cert.Kernel.S1343488 EltTy.f32)
local notation "s0W" => (Memref.whole Cert.Kernel.cc0_scratch0 : Memref Cert.Kernel.sig Kind.scVector Space.vmem Cert.Kernel.S16000 EltTy.f32)
local notation "s1W" => (Memref.whole Cert.Kernel.cc0_scratch1 : Memref Cert.Kernel.sig Kind.scVector Space.vmem Cert.Kernel.S16000 EltTy.f32)
local notation "s2W" => (Memref.whole Cert.Kernel.cc0_scratch2 : Memref Cert.Kernel.sig Kind.scVector Space.vmem Cert.Kernel.S4096 EltTy.i32)
local notation "s3W" => (Memref.whole Cert.Kernel.cc0_scratch3 : Memref Cert.Kernel.sig Kind.scVector Space.vmem Cert.Kernel.S4096 EltTy.i32)
local notation "s4W" => (Memref.whole Cert.Kernel.cc0_scratch4 : Memref Cert.Kernel.sig Kind.scVector Space.vmem Cert.Kernel.S4096 EltTy.f32)
local notation "s5W" => (Memref.whole Cert.Kernel.cc0_scratch5 : Memref Cert.Kernel.sig Kind.scVector Space.vmem Cert.Kernel.S26112 EltTy.f32)
local notation "s6W" => (Memref.whole Cert.Kernel.cc0_scratch6 : Memref Cert.Kernel.sig Kind.scVector Space.vmem Cert.Kernel.S3328 EltTy.i32)
local notation "s7W" => (Memref.whole Cert.Kernel.cc0_scratch7 : Memref Cert.Kernel.sig Kind.scVector Space.vmem Cert.Kernel.S128 EltTy.f32)
local notation "s8W" => (Memref.whole Cert.Kernel.cc0_scratch8 : Memref Cert.Kernel.sig Kind.scVector Space.vmem Cert.Kernel.S128 EltTy.f32)

/-- The three 128-word pieces of the rows 325, 326, 327 this subcore writes, as the program slices them. -/
abbrev ptRow0 : Memref sig .scVector .hbm S128 .f32 := (ptW).slice (Rect.unit (s := S1343488) (k0_off29 L 1331200#32) S128.size (k0_off29_inb L 0)) (fun _ => rfl)
abbrev ptRow1 : Memref sig .scVector .hbm S128 .f32 := (ptW).slice (Rect.unit (s := S1343488) (k0_off29 L 1335296#32) S128.size (k0_off29_inb L 1)) (fun _ => rfl)
abbrev ptRow2 : Memref sig .scVector .hbm S128 .f32 := (ptW).slice (Rect.unit (s := S1343488) (k0_off29 L 1339392#32) S128.size (k0_off29_inb L 2)) (fun _ => rfl)
/-- The 4096-word row of the task of trip `t`. -/
abbrev ptTask (t : Fin (k0_t2_loop L).trips) : Memref sig .scVector .hbm S4096 .f32 := (ptW).slice (Rect.unit (s := S1343488) (k0_off36 L t) S4096.size (k0_off36_inb L t)) (fun _ => rfl)

/-- What one vector subcore owns of the result array: its three 128-word pieces of the last three rows and the rows of
    its tasks, each at some contents. -/
def tilePieces : sProp 𝕄 :=
  iprop((∃ f, (ptRow0 L).view.loc (thr d L) ↦[(ptRow0 L).view.set]{fullShare} f) ∗ (∃ f, (ptRow1 L).view.loc (thr d L) ↦[(ptRow1 L).view.set]{fullShare} f) ∗ (∃ f, (ptRow2 L).view.loc (thr d L) ↦[(ptRow2 L).view.set]{fullShare} f)
    ∗ bigSep Finset.univ fun t : Fin (k0_t2_loop L).trips => iprop(∃ f, (ptTask L t).view.loc (thr d L) ↦[(ptTask L t).view.set]{fullShare} f))

end Cert.Proof.KTileB
end
-- ==== Proof.TileBodyB.lean ====
/-
  One vector subcore's run of the kernel body. The subcore stages the padded linear table and its 128 batch rows of the
  26 index columns, sums the 26 linear weights of each row sixteen rows at a time, writes that line and two zero lines
  to its pieces of the last three result rows, and then, for each of its ten or eleven field pairs, stages the two index
  columns and the two 1000-row tables of the pair, accumulates the sixteen products per batch row sixteen rows at a
  time, and writes the 4096-word line to the pair's row of the result. Every index word that addresses a table is a
  field value (at most 999) scaled and shifted by constants, so every indexed load is in range: that is all the frame
  needs of the data. The run ends with every buffer and semaphore back and the shares of the read-only arrays intact.
-/
import Idealize.ShloMosaic.Lib.SparseCore.Launch
import Idealize.ShloMosaic.Lib.StableHlo.Run
import Idealize.ShloMosaic.Lib.Pipeline.Kit
import Idealize.ShloMosaic.Lib.Tactic
import proofs.«207464_g62843961475156_cont_9to1_m_1121_6_alg».proof.Proof.Gen.Kernel
import proofs.«207464_g62843961475156_cont_9to1_m_1121_6_alg».proof.Proof.Gen.Kernel.Skeleton
import proofs.«207464_g62843961475156_cont_9to1_m_1121_6_alg».proof.Proof.GhostB
import proofs.«207464_g62843961475156_cont_9to1_m_1121_6_alg».proof.Proof.TileDefsB
import proofs.«207464_g62843961475156_cont_9to1_m_1121_6_alg».proof.Proof.LibIndexedOps
import proofs.«207464_g62843961475156_cont_9to1_m_1121_6_alg».proof.Proof.LibReadBack
import proofs.«207464_g62843961475156_cont_9to1_m_1121_6_alg».proof.Proof.TileFacts
import proofs.«207464_g62843961475156_cont_9to1_m_1121_6_alg».proof.Proof.Cover6

noncomputable section

namespace Cert.Proof.KTileB

open Cert.Kernel Cert.Kernel.Gen Cert.Proof.KLaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

local notation "xtW" => (Memref.whole Cert.Kernel.main_v1_scv : Memref Cert.Kernel.sig Kind.scVector Space.hbm Cert.Kernel.S106496 EltTy.i32)
local notation "wfW" => (Memref.whole Cert.Kernel.main_v2_scv : Memref Cert.Kernel.sig Kind.scVector Space.hbm Cert.Kernel.S10816000 EltTy.f32)
local notation "wlW" => (Memref.whole Cert.Kernel.main_v4_scv : Memref Cert.Kernel.sig Kind.scVector Space.hbm Cert.Kernel.S26112 EltTy.f32)
local notation "ptW" => (Memref.whole Cert.Kernel.main_v5_scv : Memref Cert.Kernel.sig Kind.scVector Space.hbm Cert.Kernel.S1343488 EltTy.f32)
local notation "s0W" => (Memref.whole Cert.Kernel.cc0_scratch0 : Memref Cert.Kernel.sig Kind.scVector Space.vmem Cert.Kernel.S16000 EltTy.f32)
local notation "s1W" => (Memref.whole Cert.Kernel.cc0_scratch1 : Memref Cert.Kernel.sig Kind.scVector Space.vmem Cert.Kernel.S16000 EltTy.f32)
local notation "s2W" => (Memref.whole Cert.Kernel.cc0_scratch2 : Memref Cert.Kernel.sig Kind.scVector Space.vmem Cert.Kernel.S4096 EltTy.i32)
local notation "s3W" => (Memref.whole Cert.Kernel.cc0_scratch3 : Memref Cert.Kernel.sig Kind.scVector Space.vmem Cert.Kernel.S4096 EltTy.i32)
local notation "s4W" => (Memref.whole Cert.Kernel.cc0_scratch4 : Memref Cert.Kernel.sig Kind.scVector Space.vmem Cert.Kernel.S4096 EltTy.f32)
local notation "s5W" => (Memref.whole Cert.Kernel.cc0_scratch5 : Memref Cert.Kernel.sig Kind.scVector Space.vmem Cert.Kernel.S26112 EltTy.f32)
local notation "s6W" => (Memref.whole Cert.Kernel.cc0_scratch6 : Memref Cert.Kernel.sig Kind.scVector Space.vmem Cert.Kernel.S3328 EltTy.i32)
local notation "s7W" => (Memref.whole Cert.Kernel.cc0_scratch7 : Memref Cert.Kernel.sig Kind.scVector Space.vmem Cert.Kernel.S128 EltTy.f32)
local notation "s8W" => (Memref.whole Cert.Kernel.cc0_scratch8 : Memref Cert.Kernel.sig Kind.scVector Space.vmem Cert.Kernel.S128 EltTy.f32)

omit [FloatOps F] in
/-- Recording one more wait at the kernel's own index keeps the recorded waits among the given ones and the kernel's own. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- A whole buffer written piece by piece: where the pieces cover it, every word satisfies what every payload word does. -/
theorem whole_writes_all {κ : Kind} (b : Ref sig κ) (f : b.ty.Contents (Elt F)) (Lp : List (View.Piece (Elt F) b.ty.shape b.ty.elt))
    (hc : ∀ y, ∃ p ∈ Lp, y ∈ p.1.set) (P : Elt F b.ty.elt → Prop) (hL : ∀ p ∈ Lp, ∀ x : p.1.shape.Idx, P (p.2 x)) (y : b.ty.shape.Idx) :
    P ((Memref.whole b).view.writes (Elt F) f Lp y) :=
  Cert.ReadBack.read_writes_all (Val := Elt F) (Memref.whole b).view f Lp hc P hL y

/-- The first loop keeps the padded linear table and the staged index chunk (whose words are field values, at most 999),
    and rewrites one 16-word piece of each of the two output scratch lines per trip. -/
def inv1 (O : CellTallies nD τ sig (HIx 1)) (W : Waits sig (HIx 1)) (_ : Nat) (_ : PUnit) : sProp 𝕄 :=
  iprop(Transfers.MayWaits (thr d L) (none : HIx 1) O
    ∗ (∃ f, (s5W).view.loc (thr d L) ↦{fullShare} f)
    ∗ (∃ f : Buf (Elt F) ((s6W).view.loc (thr d L)), ⌜∀ y, (f y : BitVec 32).toNat ≤ 999⌝ ∗ (s6W).view.loc (thr d L) ↦{fullShare} f)
    ∗ (∃ f, (s7W).view.loc (thr d L) ↦{fullShare} f)
    ∗ (∃ f, (s8W).view.loc (thr d L) ↦{fullShare} f)
    ∗ ∃ W', ⌜∀ p ∈ W', p ∈ W ∨ p.2 = none⌝ ∗ owes (thr d L) O W')

/-- The inner loop of a task keeps the two tables and the two index columns (field values, at most 999) and rewrites one
    16-word piece of the accumulator line per trip. -/
def inv3 (O : CellTallies nD τ sig (HIx 1)) (W : Waits sig (HIx 1)) (_ : Nat) (_ : PUnit) : sProp 𝕄 :=
  iprop(Transfers.MayWaits (thr d L) (none : HIx 1) O
    ∗ (∃ f, (s0W).view.loc (thr d L) ↦{fullShare} f)
    ∗ (∃ f, (s1W).view.loc (thr d L) ↦{fullShare} f)
    ∗ (∃ f : Buf (Elt F) ((s2W).view.loc (thr d L)), ⌜∀ y, (f y : BitVec 32).toNat ≤ 999⌝ ∗ (s2W).view.loc (thr d L) ↦{fullShare} f)
    ∗ (∃ f : Buf (Elt F) ((s3W).view.loc (thr d L)), ⌜∀ y, (f y : BitVec 32).toNat ≤ 999⌝ ∗ (s3W).view.loc (thr d L) ↦{fullShare} f)
    ∗ (∃ f, (s4W).view.loc (thr d L) ↦{fullShare} f)
    ∗ ∃ W', ⌜∀ p ∈ W', p ∈ W ∨ p.2 = none⌝ ∗ owes (thr d L) O W')

/-- The task loop keeps the shares of the three read-only arrays, the five scratch lines of a task, the five semaphores
    of a task's copies at zero, and every task row of the result this subcore owns. -/
def inv2 (q1 q2 : PosShare TreeShare) (fxt : Buf (Elt F) ((xtW).view.loc (thr d L))) (fwf : Buf (Elt F) ((wfW).view.loc (thr d L)))
    (O : CellTallies nD τ sig (HIx 1)) (W : Waits sig (HIx 1)) (_ : Nat) (_ : PUnit) : sProp 𝕄 :=
  iprop(Transfers.MayWaits (thr d L) (none : HIx 1) O
    ∗ ((xtW).view.loc (thr d L) ↦{q1} fxt)
    ∗ ((wfW).view.loc (thr d L) ↦{q2} fwf)
    ∗ (∃ f, (s0W).view.loc (thr d L) ↦{fullShare} f) ∗ (∃ f, (s1W).view.loc (thr d L) ↦{fullShare} f) ∗ (∃ f, (s2W).view.loc (thr d L) ↦{fullShare} f) ∗ (∃ f, (s3W).view.loc (thr d L) ↦{fullShare} f) ∗ (∃ f, (s4W).view.loc (thr d L) ↦{fullShare} f)
    ∗ semVal ((thr d L, SemLoc.dma cc0_scoped30.sem) : GSem nD τ sig) 0 ∗ semVal ((thr d L, SemLoc.dma cc0_scoped31.sem) : GSem nD τ sig) 0 ∗ semVal ((thr d L, SemLoc.dma cc0_scoped32.sem) : GSem nD τ sig) 0 ∗ semVal ((thr d L, SemLoc.dma cc0_scoped33.sem) : GSem nD τ sig) 0 ∗ semVal ((thr d L, SemLoc.dma cc0_scoped34.sem) : GSem nD τ sig) 0
    ∗ (bigSep Finset.univ fun t : Fin (k0_t2_loop L).trips => iprop(∃ f, (ptTask L t).view.loc (thr d L) ↦[(ptTask L t).view.set]{fullShare} f))
    ∗ ∃ W', ⌜∀ p ∈ W', p ∈ W ∨ p.2 = none⌝ ∗ owes (thr d L) O W')

theorem tile_body (q1 q2 q3 : PosShare TreeShare) (fxt : Buf (Elt F) ((xtW).view.loc (thr d L))) (fwf : Buf (Elt F) ((wfW).view.loc (thr d L)))
    (fwl : Buf (Elt F) ((wlW).view.loc (thr d L))) (hxt : ∀ y, (fxt y : BitVec 32).toNat ≤ 999)
    (O : CellTallies nD τ sig (HIx 1)) (W : Waits sig (HIx 1)) (hO : ∀ g, O g none = 0) :
    (iprop(levAts (K (F := F)).L (K (F := F)).lev
      ∗ ((xtW).view.loc (thr d L) ↦{q1} fxt)
      ∗ ((wfW).view.loc (thr d L) ↦{q2} fwf)
      ∗ ((wlW).view.loc (thr d L) ↦{q3} fwl)
      ∗ (∃ f, (ptRow0 L).view.loc (thr d L) ↦[(ptRow0 L).view.set]{fullShare} f)
      ∗ (∃ f, (ptRow1 L).view.loc (thr d L) ↦[(ptRow1 L).view.set]{fullShare} f)
      ∗ (∃ f, (ptRow2 L).view.loc (thr d L) ↦[(ptRow2 L).view.set]{fullShare} f)
      ∗ (bigSep Finset.univ fun t : Fin (k0_t2_loop L).trips => iprop(∃ f, (ptTask L t).view.loc (thr d L) ↦[(ptTask L t).view.set]{fullShare} f))
      ∗ (∃ f, (s0W).view.loc (thr d L) ↦{fullShare} f)
      ∗ (∃ f, (s1W).view.loc (thr d L) ↦{fullShare} f)
      ∗ (∃ f, (s2W).view.loc (thr d L) ↦{fullShare} f)
      ∗ (∃ f, (s3W).view.loc (thr d L) ↦{fullShare} f)
      ∗ (∃ f, (s4W).view.loc (thr d L) ↦{fullShare} f)
      ∗ (∃ f, (s5W).view.loc (thr d L) ↦{fullShare} f)
      ∗ (∃ f, (s6W).view.loc (thr d L) ↦{fullShare} f)
      ∗ (∃ f, (s7W).view.loc (thr d L) ↦{fullShare} f)
      ∗ (∃ f, (s8W).view.loc (thr d L) ↦{fullShare} f)
      ∗ semVal ((thr d L, SemLoc.dma cc0_scoped0.sem) : GSem nD τ sig) 0
      ∗ semVal ((thr d L, SemLoc.dma cc0_scoped1.sem) : GSem nD τ sig) 0
      ∗ semVal ((thr d L, SemLoc.dma cc0_scoped2.sem) : GSem nD τ sig) 0
      ∗ semVal ((thr d L, SemLoc.dma cc0_scoped3.sem) : GSem nD τ sig) 0
      ∗ semVal ((thr d L, SemLoc.dma cc0_scoped4.sem) : GSem nD τ sig) 0
      ∗ semVal ((thr d L, SemLoc.dma cc0_scoped5.sem) : GSem nD τ sig) 0
      ∗ semVal ((thr d L, SemLoc.dma cc0_scoped6.sem) : GSem nD τ sig) 0
      ∗ semVal ((thr d L, SemLoc.dma cc0_scoped7.sem) : GSem nD τ sig) 0
      ∗ semVal ((thr d L, SemLoc.dma cc0_scoped8.sem) : GSem nD τ sig) 0
      ∗ semVal ((thr d L, SemLoc.dma cc0_scoped9.sem) : GSem nD τ sig) 0
      ∗ semVal ((thr d L, SemLoc.dma cc0_scoped10.sem) : GSem nD τ sig) 0
      ∗ semVal ((thr d L, SemLoc.dma cc0_scoped11.sem) : GSem nD τ sig) 0
      ∗ semVal ((thr d L, SemLoc.dma cc0_scoped12.sem) : GSem nD τ sig) 0
      ∗ semVal ((thr d L, SemLoc.dma cc0_scoped13.sem) : GSem nD τ sig) 0
      ∗ semVal ((thr d L, SemLoc.dma cc0_scoped14.sem) : GSem nD τ sig) 0
      ∗ semVal ((thr d L, SemLoc.dma cc0_scoped15.sem) : GSem nD τ sig) 0
      ∗ semVal ((thr d L, SemLoc.dma cc0_scoped16.sem) : GSem nD τ sig) 0
      ∗ semVal ((thr d L, SemLoc.dma cc0_scoped17.sem) : GSem nD τ sig) 0
      ∗ semVal ((thr d L, SemLoc.dma cc0_scoped18.sem) : GSem nD τ sig) 0
      ∗ semVal ((thr d L, SemLoc.dma cc0_scoped19.sem) : GSem nD τ sig) 0
      ∗ semVal ((thr d L, SemLoc.dma cc0_scoped20.sem) : GSem nD τ sig) 0
      ∗ semVal ((thr d L, SemLoc.dma cc0_scoped21.sem) : GSem nD τ sig) 0
      ∗ semVal ((thr d L, SemLoc.dma cc0_scoped22.sem) : GSem nD τ sig) 0
      ∗ semVal ((thr d L, SemLoc.dma cc0_scoped23.sem) : GSem nD τ sig) 0
      ∗ semVal ((thr d L, SemLoc.dma cc0_scoped24.sem) : GSem nD τ sig) 0
      ∗ semVal ((thr d L, SemLoc.dma cc0_scoped25.sem) : GSem nD τ sig) 0
      ∗ semVal ((thr d L, SemLoc.dma cc0_scoped26.sem) : GSem nD τ sig) 0
      ∗ semVal ((thr d L, SemLoc.dma cc0_scoped27.sem) : GSem nD τ sig) 0
      ∗ semVal ((thr d L, SemLoc.dma cc0_scoped28.sem) : GSem nD τ sig) 0
      ∗ semVal ((thr d L, SemLoc.dma cc0_scoped29.sem) : GSem nD τ sig) 0
      ∗ semVal ((thr d L, SemLoc.dma cc0_scoped30.sem) : GSem nD τ sig) 0
      ∗ semVal ((thr d L, SemLoc.dma cc0_scoped31.sem) : GSem nD τ sig) 0
      ∗ semVal ((thr d L, SemLoc.dma cc0_scoped32.sem) : GSem nD τ sig) 0
      ∗ semVal ((thr d L, SemLoc.dma cc0_scoped33.sem) : GSem nD τ sig) 0
      ∗ semVal ((thr d L, SemLoc.dma cc0_scoped34.sem) : GSem nD τ sig) 0
      ∗ semVal ((thr d L, SemLoc.dma cc0_scoped35.sem) : GSem nD τ sig) 0
      ∗ semVal ((thr d L, SemLoc.dma cc0_scoped36.sem) : GSem nD τ sig) 0
      ∗ semVal ((thr d L, SemLoc.dma cc0_scoped37.sem) : GSem nD τ sig) 0
      ∗ semVal ((thr d L, SemLoc.dma cc0_scoped38.sem) : GSem nD τ sig) 0
      ∗ semVal ((thr d L, SemLoc.dma cc0_scoped39.sem) : GSem nD τ sig) 0
      ∗ owes (thr d L) O W) : sProp 𝕄)
      ⊢ wp frame (wpE (defs₀ (F := F)) 𝒱₀ (thr d L) none) Set.univ
          (cc0__sc_body (F := F) L xtW (Memref.isWhole_whole _) wfW (Memref.isWhole_whole _) wlW (Memref.isWhole_whole _) ptW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39)
          fun _ => iprop(((xtW).view.loc (thr d L) ↦{q1} fxt)
      ∗ ((wfW).view.loc (thr d L) ↦{q2} fwf)
      ∗ ((wlW).view.loc (thr d L) ↦{q3} fwl)
      ∗ (∃ f, (ptRow0 L).view.loc (thr d L) ↦[(ptRow0 L).view.set]{fullShare} f)
      ∗ (∃ f, (ptRow1 L).view.loc (thr d L) ↦[(ptRow1 L).view.set]{fullShare} f)
      ∗ (∃ f, (ptRow2 L).view.loc (thr d L) ↦[(ptRow2 L).view.set]{fullShare} f)
      ∗ (bigSep Finset.univ fun t : Fin (k0_t2_loop L).trips => iprop(∃ f, (ptTask L t).view.loc (thr d L) ↦[(ptTask L t).view.set]{fullShare} f))
      ∗ (∃ f, (s0W).view.loc (thr d L) ↦{fullShare} f)
      ∗ (∃ f, (s1W).view.loc (thr d L) ↦{fullShare} f)
      ∗ (∃ f, (s2W).view.loc (thr d L) ↦{fullShare} f)
      ∗ (∃ f, (s3W).view.loc (thr d L) ↦{fullShare} f)
      ∗ (∃ f, (s4W).view.loc (thr d L) ↦{fullShare} f)
      ∗ (∃ f, (s5W).view.loc (thr d L) ↦{fullShare} f)
      ∗ (∃ f, (s6W).view.loc (thr d L) ↦{fullShare} f)
      ∗ (∃ f, (s7W).view.loc (thr d L) ↦{fullShare} f)
      ∗ (∃ f, (s8W).view.loc (thr d L) ↦{fullShare} f)
      ∗ semVal ((thr d L, SemLoc.dma cc0_scoped0.sem) : GSem nD τ sig) 0
      ∗ semVal ((thr d L, SemLoc.dma cc0_scoped1.sem) : GSem nD τ sig) 0
      ∗ semVal ((thr d L, SemLoc.dma cc0_scoped2.sem) : GSem nD τ sig) 0
      ∗ semVal ((thr d L, SemLoc.dma cc0_scoped3.sem) : GSem nD τ sig) 0
      ∗ semVal ((thr d L, SemLoc.dma cc0_scoped4.sem) : GSem nD τ sig) 0
      ∗ semVal ((thr d L, SemLoc.dma cc0_scoped5.sem) : GSem nD τ sig) 0
      ∗ semVal ((thr d L, SemLoc.dma cc0_scoped6.sem) : GSem nD τ sig) 0
      ∗ semVal ((thr d L, SemLoc.dma cc0_scoped7.sem) : GSem nD τ sig) 0
      ∗ semVal ((thr d L, SemLoc.dma cc0_scoped8.sem) : GSem nD τ sig) 0
      ∗ semVal ((thr d L, SemLoc.dma cc0_scoped9.sem) : GSem nD τ sig) 0
      ∗ semVal ((thr d L, SemLoc.dma cc0_scoped10.sem) : GSem nD τ sig) 0
      ∗ semVal ((thr d L, SemLoc.dma cc0_scoped11.sem) : GSem nD τ sig) 0
      ∗ semVal ((thr d L, SemLoc.dma cc0_scoped12.sem) : GSem nD τ sig) 0
      ∗ semVal ((thr d L, SemLoc.dma cc0_scoped13.sem) : GSem nD τ sig) 0
      ∗ semVal ((thr d L, SemLoc.dma cc0_scoped14.sem) : GSem nD τ sig) 0
      ∗ semVal ((thr d L, SemLoc.dma cc0_scoped15.sem) : GSem nD τ sig) 0
      ∗ semVal ((thr d L, SemLoc.dma cc0_scoped16.sem) : GSem nD τ sig) 0
      ∗ semVal ((thr d L, SemLoc.dma cc0_scoped17.sem) : GSem nD τ sig) 0
      ∗ semVal ((thr d L, SemLoc.dma cc0_scoped18.sem) : GSem nD τ sig) 0
      ∗ semVal ((thr d L, SemLoc.dma cc0_scoped19.sem) : GSem nD τ sig) 0
      ∗ semVal ((thr d L, SemLoc.dma cc0_scoped20.sem) : GSem nD τ sig) 0
      ∗ semVal ((thr d L, SemLoc.dma cc0_scoped21.sem) : GSem nD τ sig) 0
      ∗ semVal ((thr d L, SemLoc.dma cc0_scoped22.sem) : GSem nD τ sig) 0
      ∗ semVal ((thr d L, SemLoc.dma cc0_scoped23.sem) : GSem nD τ sig) 0
      ∗ semVal ((thr d L, SemLoc.dma cc0_scoped24.sem) : GSem nD τ sig) 0
      ∗ semVal ((thr d L, SemLoc.dma cc0_scoped25.sem) : GSem nD τ sig) 0
      ∗ semVal ((thr d L, SemLoc.dma cc0_scoped26.sem) : GSem nD τ sig) 0
      ∗ semVal ((thr d L, SemLoc.dma cc0_scoped27.sem) : GSem nD τ sig) 0
      ∗ semVal ((thr d L, SemLoc.dma cc0_scoped28.sem) : GSem nD τ sig) 0
      ∗ semVal ((thr d L, SemLoc.dma cc0_scoped29.sem) : GSem nD τ sig) 0
      ∗ semVal ((thr d L, SemLoc.dma cc0_scoped30.sem) : GSem nD τ sig) 0
      ∗ semVal ((thr d L, SemLoc.dma cc0_scoped31.sem) : GSem nD τ sig) 0
      ∗ semVal ((thr d L, SemLoc.dma cc0_scoped32.sem) : GSem nD τ sig) 0
      ∗ semVal ((thr d L, SemLoc.dma cc0_scoped33.sem) : GSem nD τ sig) 0
      ∗ semVal ((thr d L, SemLoc.dma cc0_scoped34.sem) : GSem nD τ sig) 0
      ∗ semVal ((thr d L, SemLoc.dma cc0_scoped35.sem) : GSem nD τ sig) 0
      ∗ semVal ((thr d L, SemLoc.dma cc0_scoped36.sem) : GSem nD τ sig) 0
      ∗ semVal ((thr d L, SemLoc.dma cc0_scoped37.sem) : GSem nD τ sig) 0
      ∗ semVal ((thr d L, SemLoc.dma cc0_scoped38.sem) : GSem nD τ sig) 0
      ∗ semVal ((thr d L, SemLoc.dma cc0_scoped39.sem) : GSem nD τ sig) 0
      ∗ ∃ W', ⌜∀ p ∈ W', p ∈ W ∨ p.2 = none⌝ ∗ owes (thr d L) O W') := by
  rw [cc0__sc_body_eq_skeleton]; unfold cc0__sc_body_skel
  iintro ⟨#Hlv, Hxt, Hwf, Hwl, ⟨%fr0, Hr0⟩, ⟨%fr1, Hr1⟩, ⟨%fr2, Hr2⟩, Hpt, ⟨%fs0, Hs0⟩, ⟨%fs1, Hs1⟩, ⟨%fs2, Hs2⟩, ⟨%fs3, Hs3⟩, ⟨%fs4, Hs4⟩, ⟨%fs5, Hs5⟩, ⟨%fs6, Hs6⟩, ⟨%fs7, Hs7⟩, ⟨%fs8, Hs8⟩, Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, HO⟩
  ihave Hmw := ((K (F := F)).mayWaits_none (thr := thr d L) hO) $$ Hlv
  sl_exec_parts
  sl_for (inv1 d L O W) $$ [Hmw Hs5 Hs6 Hs7 Hs8 HO]
  case region =>
    intro k _
    unfold inv1
    iintro ⟨Hmw, ⟨%f5, Hs5⟩, ⟨%f6, %hf6, Hs6⟩, ⟨%f7, Hs7⟩, ⟨%f8, Hs8⟩, %W', %hW', HO⟩
    sl_exec_parts (disch := first
      | exact Cert.TileFacts.inb_of_le _ _ (Cert.TileFacts.addi_bcast_le _ _ 999 (fun x => hf6 _) (by decide)) (by decide))
    sl_step
    isplitl [Hmw]; · iexact Hmw
    isplitl [Hs5]; · iexists _; iexact Hs5
    isplitl [Hs6]; · iexists f6; isplitr; · ipureintro; exact hf6
                     iexact Hs6
    isplitl [Hs7]; · iexists _; iexact Hs7
    isplitl [Hs8]; · iexists _; iexact Hs8
    iexists W'; isplitr
    · ipureintro; exact hW'
    · iexact HO
  · unfold inv1
    isplitl [Hmw]; · iexact Hmw
    isplitl [Hs5]; · iexists _; iexact Hs5
    isplitl [Hs6]
    · iexists _; isplitr
      swap
      · iexact Hs6
      · ipureintro
        intro y
        refine whole_writes_all (F := F) cc0_scratch6 _ _ (Cert.Cover6.cover _ rfl) (fun w : BitVec 32 => w.toNat ≤ 999) ?hL y
        repeat (first | exact List.forall_mem_nil _ | refine List.forall_mem_cons.mpr ⟨fun x => hxt _, ?_⟩)
    isplitl [Hs7]; · iexists _; iexact Hs7
    isplitl [Hs8]; · iexists _; iexact Hs8
    iexists _; isplitr
    swap
    · iexact HO
    · ipureintro; repeat apply waits_insert
      exact fun p hp => Or.inl hp
  iintro %_ HI
  unfold inv1
  icases HI with ⟨Hmw, ⟨%f5, Hs5⟩, ⟨%f6, %hf6, Hs6⟩, ⟨%f7, Hs7⟩, ⟨%f8, Hs8⟩, %W1, %hW1, HO⟩
  sl_exec_parts
  sl_for (inv2 d L q1 q2 fxt fwf O W) $$ [Hmw Hxt Hwf Hs0 Hs1 Hs2 Hs3 Hs4 Hm30 Hm31 Hm32 Hm33 Hm34 Hpt HO]
  case region =>
    intro k _
    unfold inv2
    iintro ⟨Hmw, Hxt, Hwf, ⟨%f0, Hs0⟩, ⟨%f1, Hs1⟩, ⟨%f2, Hs2⟩, ⟨%f3, Hs3⟩, ⟨%f4, Hs4⟩, Hm30, Hm31, Hm32, Hm33, Hm34, Hpt, %W', %hW', HO⟩
    ihave Hp := (Entails.of_eq (SparseCore.bigSep_erase' (Finset.mem_univ k))) $$ Hpt
    icases Hp with ⟨⟨%fk, Hk⟩, Hrest⟩
    sl_exec_parts

    sl_for (inv3 d L O W) $$ [Hmw Hs0 Hs1 Hs2 Hs3 Hs4 HO]
    case region =>
      intro k3 _
      unfold inv3
      iintro ⟨Hmw, ⟨%g0, Hs0⟩, ⟨%g1, Hs1⟩, ⟨%g2, %hf2, Hs2⟩, ⟨%g3, %hf3, Hs3⟩, ⟨%g4, Hs4⟩, %W3, %hW3, HO⟩
      sl_exec_parts (disch := first
      | exact Cert.TileFacts.inb_of_le _ _ (Cert.TileFacts.addi_bcast_le _ _ _ (Cert.TileFacts.muli_bcast_le _ _ 999 (fun x => hf2 _) (by decide)) (by decide)) (by decide)
      | exact Cert.TileFacts.inb_of_le _ _ (Cert.TileFacts.addi_bcast_le _ _ _ (Cert.TileFacts.muli_bcast_le _ _ 999 (fun x => hf3 _) (by decide)) (by decide)) (by decide))
      sl_step
      isplitl [Hmw]; · iexact Hmw
      isplitl [Hs0]; · iexists _; iexact Hs0
      isplitl [Hs1]; · iexists _; iexact Hs1
      isplitl [Hs2]; · iexists g2; isplitr; · ipureintro; exact hf2
                       iexact Hs2
      isplitl [Hs3]; · iexists g3; isplitr; · ipureintro; exact hf3
                       iexact Hs3
      isplitl [Hs4]; · iexists _; iexact Hs4
      iexists _; isplitr
      swap
      · iexact HO
      · ipureintro; repeat apply waits_insert
        exact hW3
    · unfold inv3
      isplitl [Hmw]; · iexact Hmw
      isplitl [Hs0]; · iexists _; iexact Hs0
      isplitl [Hs1]; · iexists _; iexact Hs1
      isplitl [Hs2]
      · iexists _; isplitr
        swap
        · iexact Hs2
        · ipureintro; intro y
          simp only [Memref.view_whole, View.write_whole_univ]
          exact hxt _
      isplitl [Hs3]
      · iexists _; isplitr
        swap
        · iexact Hs3
        · ipureintro; intro y
          simp only [Memref.view_whole, View.write_whole_univ]
          exact hxt _
      isplitl [Hs4]; · iexists _; iexact Hs4
      iexists _; isplitr
      swap
      · iexact HO
      · ipureintro; repeat apply waits_insert
        exact hW'
    iintro %_ HI
    unfold inv3
    icases HI with ⟨Hmw, ⟨%g0, Hs0⟩, ⟨%g1, Hs1⟩, ⟨%g2, %hf2, Hs2⟩, ⟨%g3, %hf3, Hs3⟩, ⟨%g4, Hs4⟩, %W3, %hW3, HO⟩
    sl_exec_parts
    sl_step
    isplitl [Hmw]; · iexact Hmw
    isplitl [Hxt]; · iexact Hxt
    isplitl [Hwf]; · iexact Hwf
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hm30]; · iexact Hm30
    isplitl [Hm31]; · iexact Hm31
    isplitl [Hm32]; · iexact Hm32
    isplitl [Hm33]; · iexact Hm33
    isplitl [Hm34]; · iexact Hm34
    isplitl [Hk Hrest]
    · rw [SparseCore.bigSep_erase' (Finset.mem_univ k)]
      isplitl [Hk]; · iexists _; iexact Hk
      iexact Hrest
    iexists _; isplitr
    swap
    · iexact HO
    · ipureintro; repeat apply waits_insert
      exact hW3
  · unfold inv2
    isplitl [Hmw]; · iexact Hmw
    isplitl [Hxt]; · iexact Hxt
    isplitl [Hwf]; · iexact Hwf
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hm30]; · iexact Hm30
    isplitl [Hm31]; · iexact Hm31
    isplitl [Hm32]; · iexact Hm32
    isplitl [Hm33]; · iexact Hm33
    isplitl [Hm34]; · iexact Hm34
    isplitl [Hpt]; · iexact Hpt
    iexists _; isplitr
    swap
    · iexact HO
    · ipureintro; repeat apply waits_insert
      exact hW1
  iintro %_ HI
  unfold inv2
  icases HI with ⟨Hmw, Hxt, Hwf, ⟨%f0, Hs0⟩, ⟨%f1, Hs1⟩, ⟨%f2, Hs2⟩, ⟨%f3, Hs3⟩, ⟨%f4, Hs4⟩, Hm30, Hm31, Hm32, Hm33, Hm34, Hpt, %W2, %hW2, HO⟩
  sl_exec_parts
  sl_for (fun _ _ => (iprop(emp) : sProp 𝕄)) $$ []
  case region =>
    intro k _
    exact (Nat.not_lt_zero _ (Nat.lt_of_lt_of_le k.isLt (k0_t4_abs L).2.1)).elim
  · iempintro
  iintro %_ -
  sl_exec_parts
  sl_step
  isplitl [Hxt]; · iexact Hxt
  isplitl [Hwf]; · iexact Hwf
  isplitl [Hwl]; · iexact Hwl
  isplitl [Hr0]; · iexists _; iexact Hr0
  isplitl [Hr1]; · iexists _; iexact Hr1
  isplitl [Hr2]; · iexists _; iexact Hr2
  isplitl [Hpt]; · iexact Hpt
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [Hs7]; · iexists _; iexact Hs7
  isplitl [Hs8]; · iexists _; iexact Hs8
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  isplitl [Hm19]; · iexact Hm19
  isplitl [Hm20]; · iexact Hm20
  isplitl [Hm21]; · iexact Hm21
  isplitl [Hm22]; · iexact Hm22
  isplitl [Hm23]; · iexact Hm23
  isplitl [Hm24]; · iexact Hm24
  isplitl [Hm25]; · iexact Hm25
  isplitl [Hm26]; · iexact Hm26
  isplitl [Hm27]; · iexact Hm27
  isplitl [Hm28]; · iexact Hm28
  isplitl [Hm29]; · iexact Hm29
  isplitl [Hm30]; · iexact Hm30
  isplitl [Hm31]; · iexact Hm31
  isplitl [Hm32]; · iexact Hm32
  isplitl [Hm33]; · iexact Hm33
  isplitl [Hm34]; · iexact Hm34
  isplitl [Hm35]; · iexact Hm35
  isplitl [Hm36]; · iexact Hm36
  isplitl [Hm37]; · iexact Hm37
  isplitl [Hm38]; · iexact Hm38
  isplitl [Hm39]; · iexact Hm39
  iexists _; isplitr
  swap
  · iexact HO
  · ipureintro; repeat apply waits_insert
    exact hW2

end Cert.Proof.KTileB
end
-- ==== Proof.TileOwnB.lean ====
/-
  What a vector subcore owns: its scoped semaphores are the program's forty-three DMA semaphores, its own buffers
  include the nine scratch lines of the kernel. Both as explicit lists, for a run that names each of them.
-/
import Idealize.ShloMosaic.Lib.SparseCore.Launch
import Idealize.ShloMosaic.Lib.StableHlo.Run
import Idealize.ShloMosaic.Lib.Pipeline.Kit
import Idealize.ShloMosaic.Lib.Tactic
import proofs.«207464_g62843961475156_cont_9to1_m_1121_6_alg».proof.Proof.Gen.Kernel
import proofs.«207464_g62843961475156_cont_9to1_m_1121_6_alg».proof.Proof.Gen.Kernel.Skeleton
import proofs.«207464_g62843961475156_cont_9to1_m_1121_6_alg».proof.Proof.GhostB
import proofs.«207464_g62843961475156_cont_9to1_m_1121_6_alg».proof.Proof.TileDefsB

noncomputable section

namespace Cert.Proof.KTileB

open Cert.Kernel Cert.Kernel.Gen Cert.Proof.KLaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

local notation "xtW" => (Memref.whole Cert.Kernel.main_v1_scv : Memref Cert.Kernel.sig Kind.scVector Space.hbm Cert.Kernel.S106496 EltTy.i32)
local notation "wfW" => (Memref.whole Cert.Kernel.main_v2_scv : Memref Cert.Kernel.sig Kind.scVector Space.hbm Cert.Kernel.S10816000 EltTy.f32)
local notation "wlW" => (Memref.whole Cert.Kernel.main_v4_scv : Memref Cert.Kernel.sig Kind.scVector Space.hbm Cert.Kernel.S26112 EltTy.f32)
local notation "ptW" => (Memref.whole Cert.Kernel.main_v5_scv : Memref Cert.Kernel.sig Kind.scVector Space.hbm Cert.Kernel.S1343488 EltTy.f32)
local notation "s0W" => (Memref.whole Cert.Kernel.cc0_scratch0 : Memref Cert.Kernel.sig Kind.scVector Space.vmem Cert.Kernel.S16000 EltTy.f32)
local notation "s1W" => (Memref.whole Cert.Kernel.cc0_scratch1 : Memref Cert.Kernel.sig Kind.scVector Space.vmem Cert.Kernel.S16000 EltTy.f32)
local notation "s2W" => (Memref.whole Cert.Kernel.cc0_scratch2 : Memref Cert.Kernel.sig Kind.scVector Space.vmem Cert.Kernel.S4096 EltTy.i32)
local notation "s3W" => (Memref.whole Cert.Kernel.cc0_scratch3 : Memref Cert.Kernel.sig Kind.scVector Space.vmem Cert.Kernel.S4096 EltTy.i32)
local notation "s4W" => (Memref.whole Cert.Kernel.cc0_scratch4 : Memref Cert.Kernel.sig Kind.scVector Space.vmem Cert.Kernel.S4096 EltTy.f32)
local notation "s5W" => (Memref.whole Cert.Kernel.cc0_scratch5 : Memref Cert.Kernel.sig Kind.scVector Space.vmem Cert.Kernel.S26112 EltTy.f32)
local notation "s6W" => (Memref.whole Cert.Kernel.cc0_scratch6 : Memref Cert.Kernel.sig Kind.scVector Space.vmem Cert.Kernel.S3328 EltTy.i32)
local notation "s7W" => (Memref.whole Cert.Kernel.cc0_scratch7 : Memref Cert.Kernel.sig Kind.scVector Space.vmem Cert.Kernel.S128 EltTy.f32)
local notation "s8W" => (Memref.whole Cert.Kernel.cc0_scratch8 : Memref Cert.Kernel.sig Kind.scVector Space.vmem Cert.Kernel.S128 EltTy.f32)

omit [FloatOps F] in
/-- The scoped semaphores of a vector subcore are the forty DMA semaphores of the kernel's copies. -/
theorem ownCells_V :
    (ownCells (nD := nD) (τ := τ) (sig := sig) (thr d L))
      = (Finset.univ : Finset (Fin 43)).image (fun n => ((thr d L, SemLoc.dma (n : DmaSem sig)) : GSem nD τ sig)) := by
  ext ⟨t, sm⟩
  simp only [mem_ownCells, Finset.mem_image, Finset.mem_univ, _root_.true_and]
  constructor
  · rintro ⟨rfl, hs⟩
    have hs' : (sm : SemLoc sig).isScoped .scVector = true := hs
    have key : ∀ sm : SemLoc sig, sm.isScoped .scVector = true → ∃ n : Fin 43, (SemLoc.dma (n : DmaSem sig) : SemLoc sig) = sm := by decide
    obtain ⟨n, hn⟩ := key sm hs'
    exact ⟨n, by rw [hn]⟩
  · rintro ⟨n, h⟩
    cases h
    exact ⟨rfl, by show (SemLoc.dma (n : DmaSem sig) : SemLoc sig).isScoped .scVector = true; revert n; decide⟩

set_option maxHeartbeats 8000000 in
omit [FloatOps F] in
theorem ownSems0_V :
    (ownSems0 (thr d L) : sProp 𝕄)
      = iprop(semVal ((thr d L, SemLoc.dma cc0_scoped0.sem) : GSem nD τ sig) 0
          ∗ semVal ((thr d L, SemLoc.dma cc0_scoped1.sem) : GSem nD τ sig) 0
          ∗ semVal ((thr d L, SemLoc.dma cc0_scoped2.sem) : GSem nD τ sig) 0
          ∗ semVal ((thr d L, SemLoc.dma cc0_scoped3.sem) : GSem nD τ sig) 0
          ∗ semVal ((thr d L, SemLoc.dma cc0_scoped4.sem) : GSem nD τ sig) 0
          ∗ semVal ((thr d L, SemLoc.dma cc0_scoped5.sem) : GSem nD τ sig) 0
          ∗ semVal ((thr d L, SemLoc.dma cc0_scoped6.sem) : GSem nD τ sig) 0
          ∗ semVal ((thr d L, SemLoc.dma cc0_scoped7.sem) : GSem nD τ sig) 0
          ∗ semVal ((thr d L, SemLoc.dma cc0_scoped8.sem) : GSem nD τ sig) 0
          ∗ semVal ((thr d L, SemLoc.dma cc0_scoped9.sem) : GSem nD τ sig) 0
          ∗ semVal ((thr d L, SemLoc.dma cc0_scoped10.sem) : GSem nD τ sig) 0
          ∗ semVal ((thr d L, SemLoc.dma cc0_scoped11.sem) : GSem nD τ sig) 0
          ∗ semVal ((thr d L, SemLoc.dma cc0_scoped12.sem) : GSem nD τ sig) 0
          ∗ semVal ((thr d L, SemLoc.dma cc0_scoped13.sem) : GSem nD τ sig) 0
          ∗ semVal ((thr d L, SemLoc.dma cc0_scoped14.sem) : GSem nD τ sig) 0
          ∗ semVal ((thr d L, SemLoc.dma cc0_scoped15.sem) : GSem nD τ sig) 0
          ∗ semVal ((thr d L, SemLoc.dma cc0_scoped16.sem) : GSem nD τ sig) 0
          ∗ semVal ((thr d L, SemLoc.dma cc0_scoped17.sem) : GSem nD τ sig) 0
          ∗ semVal ((thr d L, SemLoc.dma cc0_scoped18.sem) : GSem nD τ sig) 0
          ∗ semVal ((thr d L, SemLoc.dma cc0_scoped19.sem) : GSem nD τ sig) 0
          ∗ semVal ((thr d L, SemLoc.dma cc0_scoped20.sem) : GSem nD τ sig) 0
          ∗ semVal ((thr d L, SemLoc.dma cc0_scoped21.sem) : GSem nD τ sig) 0
          ∗ semVal ((thr d L, SemLoc.dma cc0_scoped22.sem) : GSem nD τ sig) 0
          ∗ semVal ((thr d L, SemLoc.dma cc0_scoped23.sem) : GSem nD τ sig) 0
          ∗ semVal ((thr d L, SemLoc.dma cc0_scoped24.sem) : GSem nD τ sig) 0
          ∗ semVal ((thr d L, SemLoc.dma cc0_scoped25.sem) : GSem nD τ sig) 0
          ∗ semVal ((thr d L, SemLoc.dma cc0_scoped26.sem) : GSem nD τ sig) 0
          ∗ semVal ((thr d L, SemLoc.dma cc0_scoped27.sem) : GSem nD τ sig) 0
          ∗ semVal ((thr d L, SemLoc.dma cc0_scoped28.sem) : GSem nD τ sig) 0
          ∗ semVal ((thr d L, SemLoc.dma cc0_scoped29.sem) : GSem nD τ sig) 0
          ∗ semVal ((thr d L, SemLoc.dma cc0_scoped30.sem) : GSem nD τ sig) 0
          ∗ semVal ((thr d L, SemLoc.dma cc0_scoped31.sem) : GSem nD τ sig) 0
          ∗ semVal ((thr d L, SemLoc.dma cc0_scoped32.sem) : GSem nD τ sig) 0
          ∗ semVal ((thr d L, SemLoc.dma cc0_scoped33.sem) : GSem nD τ sig) 0
          ∗ semVal ((thr d L, SemLoc.dma cc0_scoped34.sem) : GSem nD τ sig) 0
          ∗ semVal ((thr d L, SemLoc.dma cc0_scoped35.sem) : GSem nD τ sig) 0
          ∗ semVal ((thr d L, SemLoc.dma cc0_scoped36.sem) : GSem nD τ sig) 0
          ∗ semVal ((thr d L, SemLoc.dma cc0_scoped37.sem) : GSem nD τ sig) 0
          ∗ semVal ((thr d L, SemLoc.dma cc0_scoped38.sem) : GSem nD τ sig) 0
          ∗ semVal ((thr d L, SemLoc.dma cc0_scoped39.sem) : GSem nD τ sig) 0
          ∗ semVal ((thr d L, SemLoc.dma (⟨40, by decide⟩ : DmaSem sig)) : GSem nD τ sig) 0
          ∗ semVal ((thr d L, SemLoc.dma (⟨41, by decide⟩ : DmaSem sig)) : GSem nD τ sig) 0
          ∗ semVal ((thr d L, SemLoc.dma (⟨42, by decide⟩ : DmaSem sig)) : GSem nD τ sig) 0) := by
  unfold SparseCore.Cfg.ownSems0
  rw [ownCells_V, SparseCore.bigSep_image_of_injOn (fun a _ b _ e => by have := (Prod.mk.inj e).2; exact SemLoc.dma.inj this)]
  rw [show (Finset.univ : Finset (Fin 43)) = {0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42} by decide]
  iterate 42 rw [SparseCore.bigSep_insert' (by decide)]
  rw [bigSep_singleton]
  rfl

set_option maxHeartbeats 1600000 in
omit [FloatOps F] in
/-- The nine scratch lines are the subcore's own buffers. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ (∃ f, (thr d L).loc cc0_scratch7 ↦{fullShare} f)
          ∗ (∃ f, (thr d L).loc cc0_scratch8 ↦{fullShare} f)
          ∗ bigSep ((((((((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl)]
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := (Proc.scVector (cV L) (jV L)).devRef cc0_scratch1) rfl⟩)]
  rw [SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := (Proc.scVector (cV L) (jV L)).devRef cc0_scratch2) rfl⟩⟩)]
  rw [SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := (Proc.scVector (cV L) (jV L)).devRef cc0_scratch3) rfl⟩⟩⟩)]
  rw [SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := (Proc.scVector (cV L) (jV L)).devRef cc0_scratch4) rfl⟩⟩⟩⟩)]
  rw [SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := Proc.scVector (cV L) (jV L)) (b := (Proc.scVector (cV L) (jV L)).devRef cc0_scratch5) rfl⟩⟩⟩⟩⟩)]
  rw [SparseCore.bigSep_erase' (Finset.mem_erase.mpr ⟨(fun e => absurd (Proc.devRef_injective _ e) (show (cc0_scratch6 : Ref sig .scVector) ≠ cc0_scratch5 by decide)), Finset.mem_erase.mpr ⟨(fun e => absurd (Proc.devRef_injective _ e) (show (cc0_scratch6 : Ref sig .scVector) ≠ cc0_scratch4 by decide)), Finset.mem_erase.mpr ⟨(fun e => absurd (Proc.devRef_injective _ e) (show (cc0_scratch6 : Ref sig .scVector) ≠ cc0_scratch3 by decide)), Finset.mem_erase.mpr ⟨(fun e => absurd (Proc.devRef_injective _ e) (show (cc0_scratch6 : Ref sig .scVector) ≠ cc0_scratch2 by decide)), Finset.mem_erase.mpr ⟨(fun e => absurd (Proc.devRef_injective _ e) (show (cc0_scratch6 : Ref sig .scVector) ≠ cc0_scratch1 by decide)), Finset.mem_erase.mpr ⟨(fun e => absurd (Proc.devRef_injective _ e) (show (cc0_scratch6 : Ref sig .scVector) ≠ cc0_scratch0 by decide)), SparseCore.Cfg.mem_ownRefs_of_owner (p := Proc.scVector (cV L) (jV L)) (b := (Proc.scVector (cV L) (jV L)).devRef cc0_scratch6) rfl⟩⟩⟩⟩⟩⟩)]
  rw [SparseCore.bigSep_erase' (Finset.mem_erase.mpr ⟨(fun e => absurd (Proc.devRef_injective _ e) (show (cc0_scratch7 : Ref sig .scVector) ≠ cc0_scratch6 by decide)), Finset.mem_erase.mpr ⟨(fun e => absurd (Proc.devRef_injective _ e) (show (cc0_scratch7 : Ref sig .scVector) ≠ cc0_scratch5 by decide)), Finset.mem_erase.mpr ⟨(fun e => absurd (Proc.devRef_injective _ e) (show (cc0_scratch7 : Ref sig .scVector) ≠ cc0_scratch4 by decide)), Finset.mem_erase.mpr ⟨(fun e => absurd (Proc.devRef_injective _ e) (show (cc0_scratch7 : Ref sig .scVector) ≠ cc0_scratch3 by decide)), Finset.mem_erase.mpr ⟨(fun e => absurd (Proc.devRef_injective _ e) (show (cc0_scratch7 : Ref sig .scVector) ≠ cc0_scratch2 by decide)), Finset.mem_erase.mpr ⟨(fun e => absurd (Proc.devRef_injective _ e) (show (cc0_scratch7 : Ref sig .scVector) ≠ cc0_scratch1 by decide)), Finset.mem_erase.mpr ⟨(fun e => absurd (Proc.devRef_injective _ e) (show (cc0_scratch7 : Ref sig .scVector) ≠ cc0_scratch0 by decide)), SparseCore.Cfg.mem_ownRefs_of_owner (p := Proc.scVector (cV L) (jV L)) (b := (Proc.scVector (cV L) (jV L)).devRef cc0_scratch7) rfl⟩⟩⟩⟩⟩⟩⟩)]
  rw [SparseCore.bigSep_erase' (Finset.mem_erase.mpr ⟨(fun e => absurd (Proc.devRef_injective _ e) (show (cc0_scratch8 : Ref sig .scVector) ≠ cc0_scratch7 by decide)), Finset.mem_erase.mpr ⟨(fun e => absurd (Proc.devRef_injective _ e) (show (cc0_scratch8 : Ref sig .scVector) ≠ cc0_scratch6 by decide)), Finset.mem_erase.mpr ⟨(fun e => absurd (Proc.devRef_injective _ e) (show (cc0_scratch8 : Ref sig .scVector) ≠ cc0_scratch5 by decide)), Finset.mem_erase.mpr ⟨(fun e => absurd (Proc.devRef_injective _ e) (show (cc0_scratch8 : Ref sig .scVector) ≠ cc0_scratch4 by decide)), Finset.mem_erase.mpr ⟨(fun e => absurd (Proc.devRef_injective _ e) (show (cc0_scratch8 : Ref sig .scVector) ≠ cc0_scratch3 by decide)), Finset.mem_erase.mpr ⟨(fun e => absurd (Proc.devRef_injective _ e) (show (cc0_scratch8 : Ref sig .scVector) ≠ cc0_scratch2 by decide)), Finset.mem_erase.mpr ⟨(fun e => absurd (Proc.devRef_injective _ e) (show (cc0_scratch8 : Ref sig .scVector) ≠ cc0_scratch1 by decide)), Finset.mem_erase.mpr ⟨(fun e => absurd (Proc.devRef_injective _ e) (show (cc0_scratch8 : Ref sig .scVector) ≠ cc0_scratch0 by decide)), SparseCore.Cfg.mem_ownRefs_of_owner (p := Proc.scVector (cV L) (jV L)) (b := (Proc.scVector (cV L) (jV L)).devRef cc0_scratch8) rfl⟩⟩⟩⟩⟩⟩⟩⟩)]

end Cert.Proof.KTileB
end
-- ==== Proof.TilePayB.lean ====
/-
  The call's payloads and the launch theorem's obligations for the vector-subcore kernel. A subcore is handed a read
  share of each operand array (one of thirty-two) and its own pieces of the result array, and hands them back; a
  SparseCore is handed exactly what its sixteen subcores are, so nothing is split or gathered at that level. The
  subcore's task is the run of the body on those resources and on its own scratch lines and semaphores.
-/
import Idealize.ShloMosaic.Lib.SparseCore.Launch
import Idealize.ShloMosaic.Lib.StableHlo.Run
import Idealize.ShloMosaic.Lib.Pipeline.Kit
import Idealize.ShloMosaic.Lib.Tactic
import proofs.«207464_g62843961475156_cont_9to1_m_1121_6_alg».proof.Proof.Gen.Kernel
import proofs.«207464_g62843961475156_cont_9to1_m_1121_6_alg».proof.Proof.Gen.Kernel.Skeleton
import proofs.«207464_g62843961475156_cont_9to1_m_1121_6_alg».proof.Proof.GhostB
import proofs.«207464_g62843961475156_cont_9to1_m_1121_6_alg».proof.Proof.TileDefsB
import proofs.«207464_g62843961475156_cont_9to1_m_1121_6_alg».proof.Proof.TileBodyB
import proofs.«207464_g62843961475156_cont_9to1_m_1121_6_alg».proof.Proof.TileOwnB

noncomputable section

namespace Cert.Proof.KTileB

open Cert.Kernel Cert.Kernel.Gen Cert.Proof.KLaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

local notation "xtW" => (Memref.whole Cert.Kernel.main_v1_scv : Memref Cert.Kernel.sig Kind.scVector Space.hbm Cert.Kernel.S106496 EltTy.i32)
local notation "wfW" => (Memref.whole Cert.Kernel.main_v2_scv : Memref Cert.Kernel.sig Kind.scVector Space.hbm Cert.Kernel.S10816000 EltTy.f32)
local notation "wlW" => (Memref.whole Cert.Kernel.main_v4_scv : Memref Cert.Kernel.sig Kind.scVector Space.hbm Cert.Kernel.S26112 EltTy.f32)
local notation "ptW" => (Memref.whole Cert.Kernel.main_v5_scv : Memref Cert.Kernel.sig Kind.scVector Space.hbm Cert.Kernel.S1343488 EltTy.f32)
local notation "s0W" => (Memref.whole Cert.Kernel.cc0_scratch0 : Memref Cert.Kernel.sig Kind.scVector Space.vmem Cert.Kernel.S16000 EltTy.f32)
local notation "s1W" => (Memref.whole Cert.Kernel.cc0_scratch1 : Memref Cert.Kernel.sig Kind.scVector Space.vmem Cert.Kernel.S16000 EltTy.f32)
local notation "s2W" => (Memref.whole Cert.Kernel.cc0_scratch2 : Memref Cert.Kernel.sig Kind.scVector Space.vmem Cert.Kernel.S4096 EltTy.i32)
local notation "s3W" => (Memref.whole Cert.Kernel.cc0_scratch3 : Memref Cert.Kernel.sig Kind.scVector Space.vmem Cert.Kernel.S4096 EltTy.i32)
local notation "s4W" => (Memref.whole Cert.Kernel.cc0_scratch4 : Memref Cert.Kernel.sig Kind.scVector Space.vmem Cert.Kernel.S4096 EltTy.f32)
local notation "s5W" => (Memref.whole Cert.Kernel.cc0_scratch5 : Memref Cert.Kernel.sig Kind.scVector Space.vmem Cert.Kernel.S26112 EltTy.f32)
local notation "s6W" => (Memref.whole Cert.Kernel.cc0_scratch6 : Memref Cert.Kernel.sig Kind.scVector Space.vmem Cert.Kernel.S3328 EltTy.i32)
local notation "s7W" => (Memref.whole Cert.Kernel.cc0_scratch7 : Memref Cert.Kernel.sig Kind.scVector Space.vmem Cert.Kernel.S128 EltTy.f32)
local notation "s8W" => (Memref.whole Cert.Kernel.cc0_scratch8 : Memref Cert.Kernel.sig Kind.scVector Space.vmem Cert.Kernel.S128 EltTy.f32)

/-! ## What the call hands each subcore, and the launch theorem's obligations -/

section PayDefs

variable (x1 : (d : Dev nD) → Buf (Elt F) (v1Loc d)) (w2 : (d : Dev nD) → Buf (Elt F) (v2Loc d)) (w4 : (d : Dev nD) → Buf (Elt F) (v4Loc d))

/-- The number of a subcore among the thirty-two: sixteen per SparseCore. -/
def tokOf (L : grid0.Coords) : Fin 32 := ⟨16 * (L 0).val + (L 1).val, by
  have h0 : (L 0).val < 2 := (L 0).isLt
  have h1 : (L 1).val < 16 := (L 1).isLt
  omega⟩

/-- One subcore's part of the call: a read share of each of the three operand arrays at their contents, and its pieces
    of the result array. -/
def tileRes (d : Dev nD) (L : grid0.Coords) : sProp 𝕄 :=
  iprop((v1Loc d ↦{Transfers.shareTok fullShare 32 (tokOf L)} x1 d) ∗ (v2Loc d ↦{Transfers.shareTok fullShare 32 (tokOf L)} w2 d)
    ∗ (v4Loc d ↦{Transfers.shareTok fullShare 32 (tokOf L)} w4 d) ∗ tilePieces d L)

def coordsV (c : Fin (grid0.bound 0)) (s : Fin (grid0.bound 1)) : grid0.Coords :=
  fun | 0 => c | 1 => s | ⟨_ + 2, h⟩ => absurd h (Nat.not_lt.2 (Nat.le_add_left _ _))

/-- The call's payloads: a SparseCore is handed what its sixteen subcores are, a subcore its part; both come back
    as they went (the result pieces at whatever the tasks left). -/
def P : PayT F where
  st := fun q d c => match q with
    | 0 => bigSep Finset.univ fun i : Fin ((K (F := F)).nSub 0) => tileRes x1 w2 w4 d (coordsV ⟨c.val, c.isLt⟩ ⟨i.val, i.isLt⟩)
  dn := fun q d c => match q with
    | 0 => bigSep Finset.univ fun i : Fin ((K (F := F)).nSub 0) => tileRes x1 w2 w4 d (coordsV ⟨c.val, c.isLt⟩ ⟨i.val, i.isLt⟩)
  go := fun q d c i => match q with
    | 0 => tileRes x1 w2 w4 d (coordsV ⟨c.val, c.isLt⟩ ⟨i.val, i.isLt⟩)
  td := fun q d c i => match q with
    | 0 => tileRes x1 w2 w4 d (coordsV ⟨c.val, c.isLt⟩ ⟨i.val, i.isLt⟩)
  x := fun _ _ => iprop(emp)

set_option synthInstance.maxHeartbeats 1000000 in
instance tileRes_storable (d : Dev nD) (L : grid0.Coords) : BI.Storable (upEmb : UEmb _ 𝕄) (tileRes x1 w2 w4 d L) := by
  unfold tileRes tilePieces; infer_instance

set_option synthInstance.maxHeartbeats 1000000 in
instance P_storable : (P (F := F) x1 w2 w4).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

theorem defs₀_vector (c : Fin τ.nSC) (s : Fin τ.nSub) :
    defs₀ (F := F) (.scVector c s) 0 ()
      = SparseCore.onTile hcore0 hsub0 (fun c s => cc0__sc_body (F := F) (coordsV c s) xtW (Memref.isWhole_whole _) wfW (Memref.isWhole_whole _) wlW (Memref.isWhole_whole _) ptW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The HBM arrays as a subcore's memrefs address them are the device's arrays. -/
theorem pts_xt (q : PosShare TreeShare) (f : Buf (Elt F) (v1Loc d)) :
    ((xtW).view.loc (thr d L) ↦{q} f : sProp 𝕄) = v1Loc d ↦{q} f := by
  simp only [Memref.view_whole, View.set_whole]
theorem pts_wf (q : PosShare TreeShare) (f : Buf (Elt F) (v2Loc d)) :
    ((wfW).view.loc (thr d L) ↦{q} f : sProp 𝕄) = v2Loc d ↦{q} f := by
  simp only [Memref.view_whole, View.set_whole]
theorem pts_wl (q : PosShare TreeShare) (f : Buf (Elt F) (v4Loc d)) :
    ((wlW).view.loc (thr d L) ↦{q} f : sProp 𝕄) = v4Loc d ↦{q} f := by
  simp only [Memref.view_whole, View.set_whole]

/-- One subcore's task, from its part of the call and its own scratch and semaphores back to them. -/
theorem tile_task (hF : (K (F := F)).Facts) (hx1 : ∀ y, (x1 d y : BitVec 32).toNat ≤ 999)
    (O : CellTallies nD τ sig (HIx 1)) (W : Waits sig (HIx 1)) (hO : ∀ g, O g none = 0) :
    iprop(levAts (K (F := F)).L (K (F := F)).lev ∗ emp ∗ tileRes x1 w2 w4 d L
        ∗ scopedBufs (thr d L) ∗ scopedSems0 (thr d L) ∗ owes (thr d L) O W)
      ⊢ wp frame (wpE (defs₀ (F := F)) 𝒱₀ (thr d L) none) Set.univ
          (cc0__sc_body (F := F) L xtW (Memref.isWhole_whole _) wfW (Memref.isWhole_whole _) wlW (Memref.isWhole_whole _) ptW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39)
          fun _ => iprop(tileRes x1 w2 w4 d L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tileRes tilePieces
  iintro ⟨#Hlv, -, ⟨Hxt, Hwf, Hwl, Hr0, Hr1, Hr2, Hpt⟩, ⟨Hs0, Hs1, Hs2, Hs3, Hs4, Hs5, Hs6, Hs7, Hs8, Hbufs⟩, ⟨Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, Hm40, Hm41, Hm42⟩, HO⟩
  ihave Hxt' := (Entails.of_eq (pts_xt (F := F) d L _ _).symm) $$ Hxt
  ihave Hwf' := (Entails.of_eq (pts_wf (F := F) d L _ _).symm) $$ Hwf
  ihave Hwl' := (Entails.of_eq (pts_wl (F := F) d L _ _).symm) $$ Hwl
  iapply (wp_wand_r frame _ _)
  isplitl [Hxt' Hwf' Hwl' Hr0 Hr1 Hr2 Hpt Hs0 Hs1 Hs2 Hs3 Hs4 Hs5 Hs6 Hs7 Hs8 Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39 HO]
  · iapply (tile_body (F := F) d L _ _ _ (x1 d) (w2 d) (w4 d) hx1 O W hO)
    isplitr; · iexact Hlv
    isplitl [Hxt']; · iexact Hxt'
    isplitl [Hwf']; · iexact Hwf'
    isplitl [Hwl']; · iexact Hwl'
    isplitl [Hr0]; · iexact Hr0
    isplitl [Hr1]; · iexact Hr1
    isplitl [Hr2]; · iexact Hr2
    isplitl [Hpt]; · iexact Hpt
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    isplitl [Hm21]; · iexact Hm21
    isplitl [Hm22]; · iexact Hm22
    isplitl [Hm23]; · iexact Hm23
    isplitl [Hm24]; · iexact Hm24
    isplitl [Hm25]; · iexact Hm25
    isplitl [Hm26]; · iexact Hm26
    isplitl [Hm27]; · iexact Hm27
    isplitl [Hm28]; · iexact Hm28
    isplitl [Hm29]; · iexact Hm29
    isplitl [Hm30]; · iexact Hm30
    isplitl [Hm31]; · iexact Hm31
    isplitl [Hm32]; · iexact Hm32
    isplitl [Hm33]; · iexact Hm33
    isplitl [Hm34]; · iexact Hm34
    isplitl [Hm35]; · iexact Hm35
    isplitl [Hm36]; · iexact Hm36
    isplitl [Hm37]; · iexact Hm37
    isplitl [Hm38]; · iexact Hm38
    isplitl [Hm39]; · iexact Hm39
    iexact HO
  · iintro %a Hpost
    icases Hpost with ⟨Hxt, Hwf, Hwl, Hr0, Hr1, Hr2, Hpt, Hs0, Hs1, Hs2, Hs3, Hs4, Hs5, Hs6, Hs7, Hs8, Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, HW⟩
    isplitl [Hxt Hwf Hwl Hr0 Hr1 Hr2 Hpt]
    · isplitl [Hxt]; · iapply (Entails.of_eq (pts_xt (F := F) d L _ _)); iexact Hxt
      isplitl [Hwf]; · iapply (Entails.of_eq (pts_wf (F := F) d L _ _)); iexact Hwf
      isplitl [Hwl]; · iapply (Entails.of_eq (pts_wl (F := F) d L _ _)); iexact Hwl
      isplitl [Hr0]; · iexact Hr0
      isplitl [Hr1]; · iexact Hr1
      isplitl [Hr2]; · iexact Hr2
      iexact Hpt
    isplitl [Hs0 Hs1 Hs2 Hs3 Hs4 Hs5 Hs6 Hs7 Hs8 Hbufs]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hbufs
    isplitl [Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39 Hm40 Hm41 Hm42]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      isplitl [Hm15]; · iexact Hm15
      isplitl [Hm16]; · iexact Hm16
      isplitl [Hm17]; · iexact Hm17
      isplitl [Hm18]; · iexact Hm18
      isplitl [Hm19]; · iexact Hm19
      isplitl [Hm20]; · iexact Hm20
      isplitl [Hm21]; · iexact Hm21
      isplitl [Hm22]; · iexact Hm22
      isplitl [Hm23]; · iexact Hm23
      isplitl [Hm24]; · iexact Hm24
      isplitl [Hm25]; · iexact Hm25
      isplitl [Hm26]; · iexact Hm26
      isplitl [Hm27]; · iexact Hm27
      isplitl [Hm28]; · iexact Hm28
      isplitl [Hm29]; · iexact Hm29
      isplitl [Hm30]; · iexact Hm30
      isplitl [Hm31]; · iexact Hm31
      isplitl [Hm32]; · iexact Hm32
      isplitl [Hm33]; · iexact Hm33
      isplitl [Hm34]; · iexact Hm34
      isplitl [Hm35]; · iexact Hm35
      isplitl [Hm36]; · iexact Hm36
      isplitl [Hm37]; · iexact Hm37
      isplitl [Hm38]; · iexact Hm38
      isplitl [Hm39]; · iexact Hm39
      isplitl [Hm40]; · iexact Hm40
      isplitl [Hm41]; · iexact Hm41
      iexact Hm42
    iexact HW

end PayDefs

section Obl

variable (x1 : (d : Dev nD) → Buf (Elt F) (v1Loc d)) (w2 : (d : Dev nD) → Buf (Elt F) (v2Loc d)) (w4 : (d : Dev nD) → Buf (Elt F) (v4Loc d))

/-- The launch theorem's obligation for the vector-subcore kernel: every subcore's task. -/
theorem tileObl (hF : (K (F := F)).Facts) (hx1 : ∀ d y, (x1 d y : BitVec 32).toNat ≤ 999) :
    (K (F := F)).TileObl (D (F := F)) 𝒱 (P x1 w2 w4) v₀ 0 := by
  intro d c i O W hO _ _
  simp only [show (P x1 w2 w4).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task d (coordsV ⟨_, hc.1⟩ ⟨_, hc.2⟩) x1 w2 w4 hF (hx1 d) O W hO).trans (wp_mono frame _ _ fun _ => obl_post)

/-- A SparseCore's part of the call IS its sixteen subcores' parts: nothing to split or gather. -/
theorem vecSplit : (K (F := F)).VecSplit' (P x1 w2 w4) 0 := by
  intro d c
  unfold P; dsimp only
  iintro H
  imodintro
  isplitl [H]; · iexact H
  iintro H; iexact H

end Obl

end Cert.Proof.KTileB
end
-- ==== Proof.TaskIdxB.lean ====
/-
  Closed forms of what the first program computes in 32-bit words in its task loop: the number of tasks a subcore runs,
  the task a trip stands for, and the offsets of the five slices a task copies — the two columns of `x`, the two
  16000-word tables of `W_cross`, and the 4096-word row of partial sums it writes.  Every one is a check over the 32
  subcores and their 10 or 11 trips.  Last, the tasks of the 32 subcores partition the 325 tasks.
-/
import proofs.«207464_g62843961475156_cont_9to1_m_1121_6_alg».proof.Proof.Gen.Kernel
import proofs.«207464_g62843961475156_cont_9to1_m_1121_6_alg».proof.Proof.Spec

set_option synthInstance.maxSize 4096
set_option Elab.async false

open scoped BigOperators

namespace Cert.Kernel.Tasks

open Idealize.ShloMosaic Cert.Spec

/-- The worker number of a grid point: `2·subcore + core`, in `0 … 31`. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- The first five workers run 11 tasks, the others 10. -/
theorem trips_eq : ∀ i : grid0.Coords, (k0_t2_loop i).trips = if wid i < 5 then 11 else 10 := by decide +kernel

/-- The task of trip `t` of worker `i`: the workers take consecutive ranges of tasks, starting at
    `10·wid + min wid 5`. -/
def task (i : grid0.Coords) (t : Fin (k0_t2_loop i).trips) : Fin 325 :=
  ⟨10 * wid i + min (wid i) 5 + t.val, by
    have ht : t.val < if wid i < 5 then 11 else 10 := lt_of_lt_of_eq t.isLt (trips_eq i)
    have hw := wid_lt i
    split at ht <;> omega⟩

theorem task_val (i : grid0.Coords) (t : Fin (k0_t2_loop i).trips) :
    (task i t).val = 10 * wid i + min (wid i) 5 + t.val := rfl

/-- The first column of `x` a task copies is its first field's. -/
theorem k0_off30_eq : ∀ (i : grid0.Coords) (t : Fin (k0_t2_loop i).trips),
    k0_off30 i t = ![4096 * (ti (task i t)).val] := by decide +kernel

/-- The second column of `x` a task copies is its second field's. -/
theorem k0_off31_eq : ∀ (i : grid0.Coords) (t : Fin (k0_t2_loop i).trips),
    k0_off31 i t = ![4096 * (tj (task i t)).val] := by decide +kernel

/-- The first table a task copies: table `tj`, the 1000 rows of field `ti`. -/
theorem k0_off32_eq : ∀ (i : grid0.Coords) (t : Fin (k0_t2_loop i).trips),
    k0_off32 i t = ![16 * (26000 * (tj (task i t)).val + 1000 * (ti (task i t)).val)] := by decide +kernel

/-- The second table a task copies: table `ti`, the 1000 rows of field `tj`. -/
theorem k0_off33_eq : ∀ (i : grid0.Coords) (t : Fin (k0_t2_loop i).trips),
    k0_off33 i t = ![16 * (26000 * (ti (task i t)).val + 1000 * (tj (task i t)).val)] := by decide +kernel

/-- The row of partial sums a task writes is the task's own. -/
theorem k0_off36_eq : ∀ (i : grid0.Coords) (t : Fin (k0_t2_loop i).trips),
    k0_off36 i t = ![4096 * (task i t).val] := by decide +kernel

/-! ## The tasks of the 32 workers partition the 325 tasks

  Worker `w` runs the tasks `10·w + min w 5 + t`, `t < 11` for `w < 5` and `t < 10` otherwise: consecutive ranges, the
  next worker starting where the previous one stops, from `0` up to `10·31 + 5 + 10 = 325`. -/

/-- Two trips that stand for the same task are the same trip of the same worker. -/
theorem task_inj {i i' : grid0.Coords} {t : Fin (k0_t2_loop i).trips} {t' : Fin (k0_t2_loop i').trips}
    (h : task i t = task i' t') : i = i' ∧ t.val = t'.val := by
  have hv := congrArg Fin.val h
  rw [task_val, task_val] at hv
  have ht : t.val < if wid i < 5 then 11 else 10 := lt_of_lt_of_eq t.isLt (trips_eq i)
  have ht' : t'.val < if wid i' < 5 then 11 else 10 := lt_of_lt_of_eq t'.isLt (trips_eq i')
  have h0 : (i 0).val < 2 := (i 0).isLt
  have h0' : (i' 0).val < 2 := (i' 0).isLt
  have hw : wid i = wid i' ∧ t.val = t'.val := by
    split at ht <;> split at ht' <;> omega
  refine ⟨?_, hw.2⟩
  have hw1 := hw.1
  unfold wid at hw1
  funext a
  match a with
  | ⟨0, _⟩ => exact Fin.ext (show (i 0).val = (i' 0).val by omega)
  | ⟨1, _⟩ => exact Fin.ext (show (i 1).val = (i' 1).val by omega)

/-- Every task is some trip of some worker. -/
theorem task_surj (p : Fin 325) : ∃ (i : grid0.Coords) (t : Fin (k0_t2_loop i).trips), task i t = p := by
  have hp := p.isLt
  -- the worker whose range holds `p`: the first five ranges have length 11, the others length 10
  obtain ⟨w, hw, hlo, hhi⟩ : ∃ w, w < 32 ∧ 10 * w + min w 5 ≤ p.val ∧
      p.val < 10 * w + min w 5 + (if w < 5 then 11 else 10) := by
    by_cases h : p.val < 55
    · refine ⟨p.val / 11, by omega, ?_, ?_⟩
      · have : p.val / 11 < 5 := by omega
        rw [Nat.min_eq_left (by omega)]; omega
      · have : p.val / 11 < 5 := by omega
        rw [Nat.min_eq_left (by omega), if_pos this]; omega
    · refine ⟨(p.val - 5) / 10, by omega, ?_, ?_⟩
      · have : 5 ≤ (p.val - 5) / 10 := by omega
        rw [Nat.min_eq_right this]; omega
      · have : 5 ≤ (p.val - 5) / 10 := by omega
        rw [Nat.min_eq_right this, if_neg (by omega)]; omega
  let i : grid0.Coords := ValueIdx.ix2 (⟨w % 2, Nat.mod_lt _ (by norm_num)⟩ : Fin 2) (⟨w / 2, by omega⟩ : Fin 16)
  have hwid : wid i = w := by
    show 2 * (w / 2) + w % 2 = w
    omega
  have htr : p.val - (10 * w + min w 5) < (k0_t2_loop i).trips := by
    rw [trips_eq i, hwid]; omega
  refine ⟨i, ⟨p.val - (10 * w + min w 5), htr⟩, Fin.ext ?_⟩
  rw [task_val, hwid]
  show 10 * w + min w 5 + (p.val - (10 * w + min w 5)) = p.val
  omega

/-- The trips of all workers, as pairs (worker, trip), are the 325 tasks. -/
noncomputable def taskEquiv : (Σ i : grid0.Coords, Fin (k0_t2_loop i).trips) ≃ Fin 325 :=
  Equiv.ofBijective (fun s => task s.1 s.2)
    ⟨fun s s' h => by
      obtain ⟨i, t⟩ := s
      obtain ⟨i', t'⟩ := s'
      obtain ⟨hi, ht⟩ := task_inj h
      subst hi
      exact congrArg _ (Fin.ext ht),
     fun p => by
      obtain ⟨i, t, h⟩ := task_surj p
      exact ⟨⟨i, t⟩, h⟩⟩

theorem taskEquiv_apply (i : grid0.Coords) (t : Fin (k0_t2_loop i).trips) : taskEquiv ⟨i, t⟩ = task i t := rfl

/-- A sum over the 325 tasks is the sum over the workers of the sums over their trips. -/
theorem sum_tasks {M : Type*} [AddCommMonoid M] (f : Fin 325 → M) :
    ∑ p : Fin 325, f p = ∑ i : grid0.Coords, ∑ t : Fin (k0_t2_loop i).trips, f (task i t) := by
  rw [← Equiv.sum_comp taskEquiv f, Fintype.sum_sigma]
  rfl

/-- A statement about every task is one about every trip of every worker. -/
theorem forall_tasks {P : Fin 325 → Prop} : (∀ p, P p) ↔ ∀ (i : grid0.Coords) (t : Fin (k0_t2_loop i).trips), P (task i t) :=
  ⟨fun h i t => h _, fun h p => by obtain ⟨i, t, rfl⟩ := task_surj p; exact h i t⟩

end Cert.Kernel.Tasks
-- ==== Proof.PartSplitB.lean ====
/-
  The result array of the SparseCore call, 1343488 words, is 328 rows of 4096 words.  Rows 0 … 324 are the rows of the
  325 tasks; each of the rows 325, 326, 327 is cut into 32 pieces of 128 words, one per vector subcore.  A subcore owns
  the rows of its tasks and its piece of each of the last three rows.  These pieces, over the 32 subcores, are pairwise
  disjoint and cover the array, so the array held whole is the same as every subcore holding its pieces.
-/
import proofs.«207464_g62843961475156_cont_9to1_m_1121_6_alg».proof.Proof.TileDefsB
import proofs.«207464_g62843961475156_cont_9to1_m_1121_6_alg».proof.Proof.TaskIdxB

noncomputable section

namespace Cert.Proof.KTileB

open Cert.Kernel Cert.Kernel.Gen Cert.Proof.KLaunchB Cert.Kernel.Tasks

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

/-! ## Positions and intervals -/

/-- The position of an index of the flat array. -/
def pos (i : S1343488.Idx) : ℕ := (i 0).val

theorem pos_lt (i : S1343488.Idx) : pos i < 1343488 := (i 0).isLt

/-- A unit-stride rectangle of the flat array is an interval of positions. -/
theorem mem_unit1 {off size : Fin 1 → ℕ} {inb : ∀ a, off a + size a ≤ S1343488.size a} (i : S1343488.Idx) :
    i ∈ (Rect.unit (s := S1343488) off size inb).set ↔ off 0 ≤ pos i ∧ pos i < off 0 + size 0 := by
  rw [Rect.mem_set_unit]
  exact Fin.forall_fin_one

/-! ## The pieces of one subcore -/

/-- The elements of the piece of row `325 + r` subcore `L` owns. -/
def rowSet (L : grid0.Coords) (r : Fin 3) : Finset S1343488.Idx :=
  match r with
  | 0 => (ptRow0 L).view.set
  | 1 => (ptRow1 L).view.set
  | 2 => (ptRow2 L).view.set

/-- The elements of the row of the task of trip `t` of subcore `L`. -/
def taskSet (L : grid0.Coords) (t : Fin (k0_t2_loop L).trips) : Finset S1343488.Idx := (ptTask L t).view.set

/-- The piece of row `325 + r` is the `wid`-th interval of 128 positions of that row. -/
theorem mem_rowSet (L : grid0.Coords) (r : Fin 3) (i : S1343488.Idx) :
    i ∈ rowSet L r ↔ 1331200 + 4096 * r.val + 128 * wid L ≤ pos i ∧ pos i < 1331200 + 4096 * r.val + 128 * wid L + 128 := by
  have e : ∀ r : Fin 3, k0_off29 L (BitVec.ofNat 32 (1331200 + 4096 * r.val)) 0 = 1331200 + 4096 * r.val + 128 * wid L := by
    intro r; rw [k0_off29_eq L r]; show 4096 * r.val + 256 * (L 1).val + 128 * (L 0).val + 1331200 = _; unfold wid; omega
  match r with
  | 0 =>
    show i ∈ ((View.whole main_v5_scv).slice (Rect.unit (s := S1343488) (k0_off29 L 1331200#32) S128.size (k0_off29_inb L 0))).set ↔ _
    rw [View.set_slice_whole, mem_unit1, show k0_off29 L 1331200#32 0 = _ from e 0]; exact Iff.rfl
  | 1 =>
    show i ∈ ((View.whole main_v5_scv).slice (Rect.unit (s := S1343488) (k0_off29 L 1335296#32) S128.size (k0_off29_inb L 1))).set ↔ _
    rw [View.set_slice_whole, mem_unit1, show k0_off29 L 1335296#32 0 = _ from e 1]; exact Iff.rfl
  | 2 =>
    show i ∈ ((View.whole main_v5_scv).slice (Rect.unit (s := S1343488) (k0_off29 L 1339392#32) S128.size (k0_off29_inb L 2))).set ↔ _
    rw [View.set_slice_whole, mem_unit1, show k0_off29 L 1339392#32 0 = _ from e 2]; exact Iff.rfl

/-- The row of a task is the task's interval of 4096 positions. -/
theorem mem_taskSet (L : grid0.Coords) (t : Fin (k0_t2_loop L).trips) (i : S1343488.Idx) :
    i ∈ taskSet L t ↔ 4096 * (task L t).val ≤ pos i ∧ pos i < 4096 * (task L t).val + 4096 := by
  have e : k0_off36 L t 0 = 4096 * (task L t).val := by rw [k0_off36_eq L t]; rfl
  show i ∈ ((View.whole main_v5_scv).slice (Rect.unit (s := S1343488) (k0_off36 L t) S4096.size (k0_off36_inb L t))).set ↔ _
  rw [View.set_slice_whole, mem_unit1, e]; exact Iff.rfl

/-! ## The worker number names the subcore -/

theorem wid_inj {L L' : grid0.Coords} (h : wid L = wid L') : L = L' := by
  have h0 : (L 0).val < 2 := (L 0).isLt
  have h0' : (L' 0).val < 2 := (L' 0).isLt
  unfold wid at h
  funext a
  match a with
  | ⟨0, _⟩ => exact Fin.ext (show (L 0).val = (L' 0).val by omega)
  | ⟨1, _⟩ => exact Fin.ext (show (L 1).val = (L' 1).val by omega)

/-- The grid point of core `c`, subcore `s`, in the program's spelling. -/
def coords (c : Fin 2) (s : Fin 16) : grid0.Coords :=
  fun | 0 => c | 1 => s | ⟨_ + 2, h⟩ => absurd h (Nat.not_lt.2 (Nat.le_add_left _ _))

theorem coords_eta (L : grid0.Coords) : coords (L 0) (L 1) = L := by
  funext a
  match a with
  | ⟨0, _⟩ => rfl
  | ⟨1, _⟩ => rfl

theorem wid_surj (w : ℕ) (hw : w < 32) : ∃ L : grid0.Coords, wid L = w :=
  ⟨coords ⟨w % 2, Nat.mod_lt _ (by norm_num)⟩ ⟨w / 2, by omega⟩, by show 2 * (w / 2) + w % 2 = w; omega⟩

/-! ## All the pieces: pairwise disjoint, covering the array -/

/-- The pieces of one subcore: three pieces of rows, and one row per trip. -/
abbrev Pc (L : grid0.Coords) : Type := Fin 3 ⊕ Fin (k0_t2_loop L).trips

/-- The elements of a piece. -/
def pcSet (L : grid0.Coords) : Pc L → Finset S1343488.Idx
  | .inl r => rowSet L r
  | .inr t => taskSet L t

/-- Where a piece starts … -/
def lo (L : grid0.Coords) : Pc L → ℕ
  | .inl r => 1331200 + 4096 * r.val + 128 * wid L
  | .inr t => 4096 * (task L t).val
/-- … and how long it is. -/
def len (L : grid0.Coords) : Pc L → ℕ
  | .inl _ => 128
  | .inr _ => 4096

theorem mem_pcSet (L : grid0.Coords) (pc : Pc L) (i : S1343488.Idx) :
    i ∈ pcSet L pc ↔ lo L pc ≤ pos i ∧ pos i < lo L pc + len L pc := by
  cases pc with
  | inl r => exact mem_rowSet L r i
  | inr t => exact mem_taskSet L t i

/-- Two pieces with a common element are the same piece of the same subcore. -/
theorem pc_eq_of_mem {L L' : grid0.Coords} {pc : Pc L} {pc' : Pc L'} {i : S1343488.Idx}
    (h : i ∈ pcSet L pc) (h' : i ∈ pcSet L' pc') : (⟨L, pc⟩ : Σ L, Pc L) = ⟨L', pc'⟩ := by
  rw [mem_pcSet] at h h'
  have hw := wid_lt L
  have hw' := wid_lt L'
  cases pc with
  | inl r =>
    cases pc' with
    | inl r' =>
      have hr := r.isLt
      have hr' := r'.isLt
      simp only [lo, len] at h h'
      have e : wid L = wid L' ∧ r.val = r'.val := by omega
      obtain rfl := wid_inj e.1
      obtain rfl := Fin.ext e.2
      rfl
    | inr t' =>
      have ht := (task L' t').isLt
      simp only [lo, len] at h h'
      omega
  | inr t =>
    cases pc' with
    | inl r' =>
      have ht := (task L t).isLt
      simp only [lo, len] at h h'
      omega
    | inr t' =>
      simp only [lo, len] at h h'
      have e : task L t = task L' t' := Fin.ext (by omega)
      obtain ⟨rfl, ht⟩ := task_inj e
      obtain rfl := Fin.ext ht
      rfl

theorem pcSet_disjoint (L : grid0.Coords) {pc pc' : Pc L} (h : pc ≠ pc') : Disjoint (pcSet L pc) (pcSet L pc') := by
  rw [Finset.disjoint_left]
  intro i hi hi'
  exact h (sigma_mk_injective (pc_eq_of_mem hi hi'))

/-- Everything subcore `L` owns of the array. -/
def tileSet (L : grid0.Coords) : Finset S1343488.Idx := Finset.univ.biUnion (pcSet L)

theorem tileSet_def (L : grid0.Coords) : tileSet L = Finset.univ.biUnion (pcSet L) := rfl

theorem mem_tileSet (L : grid0.Coords) (i : S1343488.Idx) : i ∈ tileSet L ↔ ∃ pc, i ∈ pcSet L pc := by
  rw [tileSet_def]
  simp only [Finset.mem_biUnion, Finset.mem_univ, true_and]

attribute [irreducible] tileSet

theorem tile_eq_of_mem {L L' : grid0.Coords} {pc : Pc L} {pc' : Pc L'} {i : S1343488.Idx}
    (h : i ∈ pcSet L pc) (h' : i ∈ pcSet L' pc') : L = L' := congrArg Sigma.fst (pc_eq_of_mem h h')

theorem tileSet_disjoint {L L' : grid0.Coords} (h : L ≠ L') : Disjoint (tileSet L) (tileSet L') := by
  rw [Finset.disjoint_left]
  intro i hi hi'
  rw [mem_tileSet] at hi hi'
  obtain ⟨pc, hpc⟩ := hi
  obtain ⟨pc', hpc'⟩ := hi'
  exact h (tile_eq_of_mem hpc hpc')

/-- Every element of the array is in some subcore's part: a position below `325·4096` lies in the row of a task, which
    some trip of some subcore runs; a position above lies in one of the 32 pieces of one of the last three rows. -/
theorem exists_tile (i : S1343488.Idx) : ∃ L, i ∈ tileSet L := by
  have hv := pos_lt i
  by_cases h : pos i < 1331200
  · obtain ⟨L, t, ht⟩ := task_surj ⟨pos i / 4096, by omega⟩
    refine ⟨L, ?_⟩
    rw [mem_tileSet]
    refine ⟨Sum.inr t, ?_⟩
    show i ∈ taskSet L t
    rw [mem_taskSet]
    have e : (task L t).val = pos i / 4096 := congrArg Fin.val ht
    omega
  · obtain ⟨L, hL⟩ := wid_surj ((pos i - 1331200) % 4096 / 128) (by omega)
    refine ⟨L, ?_⟩
    rw [mem_tileSet]
    refine ⟨Sum.inl ⟨(pos i - 1331200) / 4096, by omega⟩, ?_⟩
    show i ∈ rowSet L ⟨(pos i - 1331200) / 4096, _⟩
    rw [mem_rowSet]
    show 1331200 + 4096 * ((pos i - 1331200) / 4096) + 128 * wid L ≤ pos i ∧
      pos i < 1331200 + 4096 * ((pos i - 1331200) / 4096) + 128 * wid L + 128
    rw [hL]
    omega

theorem tile_cover : (Finset.univ : Finset grid0.Coords).biUnion tileSet = Finset.univ := by
  ext i
  simp only [Finset.mem_biUnion, Finset.mem_univ, true_and, iff_true]
  exact exists_tile i

/-- Everything the 16 subcores of core `c` own. -/
def coreSet (c : Fin 2) : Finset S1343488.Idx := Finset.univ.biUnion fun s : Fin 16 => tileSet (coords c s)

theorem coreSet_def (c : Fin 2) : coreSet c = Finset.univ.biUnion fun s : Fin 16 => tileSet (coords c s) := rfl

theorem mem_coreSet (c : Fin 2) (i : S1343488.Idx) : i ∈ coreSet c ↔ ∃ s : Fin 16, i ∈ tileSet (coords c s) := by
  rw [coreSet_def]
  simp only [Finset.mem_biUnion, Finset.mem_univ, true_and]

attribute [irreducible] coreSet

theorem coords_ne {c : Fin 2} {s s' : Fin 16} (h : s ≠ s') : coords c s ≠ coords c s' :=
  fun e => h (congrFun e 1)

theorem coreSet_disjoint : Disjoint (coreSet 0) (coreSet 1) := by
  rw [Finset.disjoint_left]
  intro i hi hi'
  rw [mem_coreSet] at hi hi'
  obtain ⟨s, hs⟩ := hi
  obtain ⟨s', hs'⟩ := hi'
  have e : coords 0 s = coords 1 s' := by
    by_contra hne
    exact Finset.disjoint_left.mp (tileSet_disjoint hne) hs hs'
  have e0 : (0 : Fin 2) = 1 := congrFun e 0
  exact absurd e0 (by decide)

theorem coreSet_cover : coreSet 0 ∪ coreSet 1 = Finset.univ := by
  ext i
  simp only [Finset.mem_union, Finset.mem_univ, iff_true]
  obtain ⟨L, hL⟩ := exists_tile i
  rw [← coords_eta L] at hL
  have h2 : ∀ c : Fin 2, c = 0 ∨ c = 1 := by decide
  rcases h2 (L 0) with h | h
  · rw [h] at hL; left; rw [mem_coreSet]; exact ⟨L 1, hL⟩
  · rw [h] at hL; right; rw [mem_coreSet]; exact ⟨L 1, hL⟩

/-! ## The array held whole is every subcore holding its pieces -/

variable {F : FTy → Type}

local notation "𝕄" => MT nD τ sig (HIx 1) (Elt F) ℕ UU ℕ

variable [FloatOps F]

/-- Entailment both ways is equality. -/
theorem eq_of_biEntails {P Q : sProp 𝕄} (h : P ⊣⊢ Q) : P = Q := BI.equiv_iff.mp ⟨h.1, h.2⟩
theorem biEntails_of_eq {P Q : sProp 𝕄} (h : P = Q) : P ⊣⊢ Q := ⟨Entails.of_eq h, Entails.of_eq h.symm⟩
theorem sep_assoc_eq (P Q R : sProp 𝕄) : (iprop((P ∗ Q) ∗ R) : sProp 𝕄) = iprop(P ∗ Q ∗ R) :=
  eq_of_biEntails Idealize.SL.BI.Laws.sep_assoc

/-- Re-associating the four parts of a subcore's share. -/
theorem sep_assoc4 (A0 A1 A2 B : sProp 𝕄) : BI.sep (iprop(A0 ∗ A1 ∗ A2)) B = iprop(A0 ∗ A1 ∗ A2 ∗ B) := by
  show (iprop((A0 ∗ A1 ∗ A2) ∗ B) : sProp 𝕄) = _
  rw [sep_assoc_eq, sep_assoc_eq]

theorem bigSep_fin_three (Φ : Fin 3 → sProp 𝕄) : bigSep Finset.univ Φ = iprop(Φ 0 ∗ Φ 1 ∗ Φ 2) := by
  rw [show (Finset.univ : Finset (Fin 3)) = {0, 1, 2} from by decide, bigSep_insert (by decide),
    bigSep_insert (by decide), bigSep_singleton]
  rfl

/-- The grid's points are the pairs (core, subcore). -/
def coordsEquiv : Fin 2 × Fin 16 ≃ grid0.Coords where
  toFun p := coords p.1 p.2
  invFun L := (L 0, L 1)
  left_inv _ := rfl
  right_inv L := coords_eta L

/-- A `bigSep` over the grid's points is one over the cores of one over the subcores. -/
theorem bigSep_coords (Φ : grid0.Coords → sProp 𝕄) :
    bigSep Finset.univ Φ = bigSep Finset.univ fun c : Fin 2 => bigSep Finset.univ fun s : Fin 16 => Φ (coords c s) := by
  rw [bigSep_univ_equiv coordsEquiv Φ, bigSep_univ_prod]
  rfl

variable (d : Dev nD)

/-! ### At one valuation -/

/-- What one subcore owns of the result array, every piece at the contents `g` of the whole array. -/
def tilePiecesAt (g : Buf (Elt F) (v5Loc d)) (L : grid0.Coords) : sProp 𝕄 :=
  iprop(((ptRow0 L).view.loc (thr d L) ↦[(ptRow0 L).view.set]{fullShare} g) ∗ ((ptRow1 L).view.loc (thr d L) ↦[(ptRow1 L).view.set]{fullShare} g) ∗ ((ptRow2 L).view.loc (thr d L) ↦[(ptRow2 L).view.set]{fullShare} g)
    ∗ bigSep Finset.univ fun t : Fin (k0_t2_loop L).trips => (ptTask L t).view.loc (thr d L) ↦[(ptTask L t).view.set]{fullShare} g)

/-- It is the subcore's part of the array held at `g`. -/
theorem tilePiecesAt_eq (g : Buf (Elt F) (v5Loc d)) (L : grid0.Coords) :
    (tilePiecesAt (F := F) d g L : sProp 𝕄) = v5Loc d ↦[tileSet L]{fullShare} g := by
  have h : (v5Loc d ↦[Finset.univ.biUnion (pcSet L)]{fullShare} g : sProp 𝕄)
      = bigSep Finset.univ fun pc : Pc L => (v5Loc d ↦[pcSet L pc]{fullShare} g : sProp 𝕄) :=
    pointsTo_biUnion (ℓ := v5Loc d) Finset.univ (pcSet L) (fun pc _ pc' _ hne => pcSet_disjoint L hne)
  rw [tileSet_def, h, bigSep_univ_sum, bigSep_fin_three, sep_assoc4]
  rfl

/-- THE SPLIT at one valuation: the array held whole at `g` is every subcore holding its pieces at `g`. -/
theorem part_split_at (g : Buf (Elt F) (v5Loc d)) :
    (v5Loc d ↦{fullShare} g : sProp 𝕄) = bigSep Finset.univ fun L : grid0.Coords => tilePiecesAt (F := F) d g L := by
  have h : (v5Loc d ↦[Finset.univ.biUnion tileSet]{fullShare} g : sProp 𝕄)
      = bigSep Finset.univ fun L : grid0.Coords => (v5Loc d ↦[tileSet L]{fullShare} g : sProp 𝕄) :=
    pointsTo_biUnion (ℓ := v5Loc d) Finset.univ tileSet (fun L _ L' _ hne => tileSet_disjoint hne)
  rw [tile_cover] at h
  exact h.trans (bigSep_congr fun L _ => (tilePiecesAt_eq (F := F) d g L).symm)

/-- One SparseCore's part at `g` is each of its subcores holding its pieces at `g`. -/
theorem core_split_at (g : Buf (Elt F) (v5Loc d)) (c : Fin 2) :
    (v5Loc d ↦[coreSet c]{fullShare} g : sProp 𝕄) = bigSep Finset.univ fun s : Fin 16 => tilePiecesAt (F := F) d g (coords c s) := by
  have h : (v5Loc d ↦[Finset.univ.biUnion fun s : Fin 16 => tileSet (coords c s)]{fullShare} g : sProp 𝕄)
      = bigSep Finset.univ fun s : Fin 16 => (v5Loc d ↦[tileSet (coords c s)]{fullShare} g : sProp 𝕄) :=
    pointsTo_biUnion (ℓ := v5Loc d) Finset.univ (fun s : Fin 16 => tileSet (coords c s))
      (fun s _ s' _ hne => tileSet_disjoint (coords_ne hne))
  rw [coreSet_def]
  exact h.trans (bigSep_congr fun s _ => (tilePiecesAt_eq (F := F) d g (coords c s)).symm)

/-- The array held whole at `g` is the two SparseCores' parts at `g`. -/
theorem call_split_at (g : Buf (Elt F) (v5Loc d)) :
    (v5Loc d ↦{fullShare} g : sProp 𝕄) = iprop((v5Loc d ↦[coreSet 0]{fullShare} g) ∗ v5Loc d ↦[coreSet 1]{fullShare} g) := by
  have h : (v5Loc d ↦[coreSet 0 ∪ coreSet 1]{fullShare} g : sProp 𝕄)
      ⊣⊢ iprop((v5Loc d ↦[coreSet 0]{fullShare} g) ∗ v5Loc d ↦[coreSet 1]{fullShare} g) :=
    pointsTo_union (ℓ := v5Loc d) coreSet_disjoint
  rw [coreSet_cover] at h
  exact eq_of_biEntails h

/-! ### At some contents -/

/-- Contents naming nothing: what a join over no pieces would hold. -/
def junk5 : Buf (Elt F) (v5Loc d) := fun _ => Classical.arbitrary _

omit d in
/-- A buffer's elements over a finite family of pairwise disjoint sets, held at some contents, are the members of the
    family each held at some contents. -/
theorem exists_pts_biUnion {ℓ : Loc nD τ sig} {q : PosShare TreeShare} {B : Type} [DecidableEq B] (S : Finset B)
    (K : B → Finset (Idx ℓ)) (h : ∀ t ∈ S, ∀ t' ∈ S, t ≠ t' → Disjoint (K t) (K t')) (f₀ : Buf (Elt F) ℓ) :
    (iprop(∃ f, ℓ ↦[S.biUnion K]{q} f) : sProp 𝕄) = bigSep S fun t => iprop(∃ f, ℓ ↦[K t]{q} f) := by
  refine eq_of_biEntails ⟨?_, ?_⟩
  · refine exists_elim fun f => ?_
    refine (Entails.of_eq (pointsTo_biUnion S K h)).trans (bigSep_mono fun t _ => ?_)
    exact exists_intro (Φ := fun f => (ℓ ↦[K t]{q} f : sProp 𝕄)) f
  · have : Nonempty (Buf (Elt F) ℓ) := ⟨f₀⟩
    refine (bigSep_exists_pi S (fun t (f : Buf (Elt F) ℓ) => (ℓ ↦[K t]{q} f : sProp 𝕄))).trans ?_
    iintro ⟨%fs, H⟩
    ihave H' := (pointsTo_biUnion_join S K fs f₀ h) $$ H
    icases H' with ⟨%g, -, H'⟩
    iexists g
    iexact H'

/-- What one subcore owns, as the program's slices spell it, is its part of the array held at some contents. -/
theorem tilePieces_eq (L : grid0.Coords) :
    (tilePieces (F := F) d L : sProp 𝕄) = iprop(∃ f, v5Loc d ↦[tileSet L]{fullShare} f) := by
  have h : (iprop(∃ f, v5Loc d ↦[Finset.univ.biUnion (pcSet L)]{fullShare} f) : sProp 𝕄)
      = bigSep Finset.univ fun pc : Pc L => (iprop(∃ f, v5Loc d ↦[pcSet L pc]{fullShare} f) : sProp 𝕄) :=
    exists_pts_biUnion (F := F) (ℓ := v5Loc d) Finset.univ (pcSet L) (fun pc _ pc' _ hne => pcSet_disjoint L hne) (junk5 (F := F) d)
  rw [tileSet_def, h, bigSep_univ_sum, bigSep_fin_three, sep_assoc4]
  rfl

/-- THE SPLIT: the result array held whole at some contents is every subcore holding its pieces. -/
theorem part_split :
    (iprop(∃ f, (SparseCore.T d).loc main_v5 ↦{fullShare} f) : sProp 𝕄)
      ⊣⊢ bigSep Finset.univ fun L : grid0.Coords => tilePieces (F := F) d L := by
  have h : (iprop(∃ f, v5Loc d ↦[Finset.univ.biUnion tileSet]{fullShare} f) : sProp 𝕄)
      = bigSep Finset.univ fun L : grid0.Coords => (iprop(∃ f, v5Loc d ↦[tileSet L]{fullShare} f) : sProp 𝕄) :=
    exists_pts_biUnion (F := F) (ℓ := v5Loc d) Finset.univ tileSet (fun L _ L' _ hne => tileSet_disjoint hne) (junk5 (F := F) d)
  rw [tile_cover] at h
  exact biEntails_of_eq (h.trans (bigSep_congr fun L _ => (tilePieces_eq (F := F) d L).symm))

/-- The same for one SparseCore: its part of the array held at some contents is each of its 16 subcores holding its
    pieces. -/
theorem core_split (c : Fin 2) :
    (iprop(∃ f, (SparseCore.T d).loc main_v5 ↦[coreSet c]{fullShare} f) : sProp 𝕄)
      ⊣⊢ bigSep Finset.univ fun s : Fin 16 => tilePieces (F := F) d (coords c s) := by
  have h : (iprop(∃ f, v5Loc d ↦[Finset.univ.biUnion fun s : Fin 16 => tileSet (coords c s)]{fullShare} f) : sProp 𝕄)
      = bigSep Finset.univ fun s : Fin 16 => (iprop(∃ f, v5Loc d ↦[tileSet (coords c s)]{fullShare} f) : sProp 𝕄) :=
    exists_pts_biUnion (F := F) (ℓ := v5Loc d) Finset.univ (fun s : Fin 16 => tileSet (coords c s))
      (fun s _ s' _ hne => tileSet_disjoint (coords_ne hne)) (junk5 (F := F) d)
  rw [coreSet_def]
  exact biEntails_of_eq (h.trans (bigSep_congr fun s _ => (tilePieces_eq (F := F) d (coords c s)).symm))

/-- And the array held whole at some contents is the two SparseCores' parts, each at some contents. -/
theorem call_split :
    (iprop(∃ f, (SparseCore.T d).loc main_v5 ↦{fullShare} f) : sProp 𝕄)
      ⊣⊢ iprop((∃ f, (SparseCore.T d).loc main_v5 ↦[coreSet 0]{fullShare} f) ∗ ∃ f, (SparseCore.T d).loc main_v5 ↦[coreSet 1]{fullShare} f) := by
  have hd : ∀ c ∈ (Finset.univ : Finset (Fin 2)), ∀ c' ∈ (Finset.univ : Finset (Fin 2)), c ≠ c' → Disjoint (coreSet c) (coreSet c') := by
    intro c _ c' _ hne
    have h2 : ∀ c c' : Fin 2, c ≠ c' → (c = 0 ∧ c' = 1) ∨ (c = 1 ∧ c' = 0) := by decide
    rcases h2 c c' hne with ⟨rfl, rfl⟩ | ⟨rfl, rfl⟩
    · exact coreSet_disjoint
    · exact coreSet_disjoint.symm
  have hc : (Finset.univ : Finset (Fin 2)).biUnion coreSet = Finset.univ := by
    rw [show (Finset.univ : Finset (Fin 2)) = {0, 1} from by decide, Finset.biUnion_insert, Finset.singleton_biUnion]
    exact coreSet_cover
  have h : (iprop(∃ f, v5Loc d ↦[(Finset.univ : Finset (Fin 2)).biUnion coreSet]{fullShare} f) : sProp 𝕄)
      = bigSep Finset.univ fun c : Fin 2 => (iprop(∃ f, v5Loc d ↦[coreSet c]{fullShare} f) : sProp 𝕄) :=
    exists_pts_biUnion (F := F) (ℓ := v5Loc d) Finset.univ coreSet hd (junk5 (F := F) d)
  rw [hc, bigSep_univ_two] at h
  exact biEntails_of_eq h

end Cert.Proof.KTileB
end
-- ==== Proof.CallSplitB.lean ====
/-
  The call's resources, as the TensorCore holds them and as the subcores are handed them.  The TensorCore holds the three
  operand arrays whole and the result array at some contents.  Each operand is cut into a remainder and thirty-two read
  shares, one per subcore; the result array is cut into the subcores' pieces.  A SparseCore's part is its sixteen
  subcores' parts, so the two SparseCores' parts together are the thirty-two subcores' parts, and with the three
  remainders they are exactly what the TensorCore held.
-/
import proofs.«207464_g62843961475156_cont_9to1_m_1121_6_alg».proof.Proof.TilePayB
import proofs.«207464_g62843961475156_cont_9to1_m_1121_6_alg».proof.Proof.PartSplitB

noncomputable section

namespace Cert.Proof.KTileB

open Cert.Kernel Cert.Kernel.Gen Cert.Proof.KLaunchB Cert.Kernel.Tasks

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The thirty-two subcores, numbered -/

theorem coordsV_eq (c : Fin (grid0.bound 0)) (s : Fin (grid0.bound 1)) : coordsV c s = coords c s := by
  funext a
  match a with
  | ⟨0, _⟩ => rfl
  | ⟨1, _⟩ => rfl

/-- A subcore's number, `16·core + subcore`, names it. -/
def tokEquiv : grid0.Coords ≃ Fin 32 where
  toFun := tokOf
  invFun k := coords ⟨k.val / 16, by have := k.isLt; omega⟩ ⟨k.val % 16, Nat.mod_lt _ (by norm_num)⟩
  left_inv L := by
    have h0 : (L 0).val < 2 := (L 0).isLt
    have h1 : (L 1).val < 16 := (L 1).isLt
    funext a
    match a with
    | ⟨0, _⟩ => exact Fin.ext (show (16 * (L 0).val + (L 1).val) / 16 = (L 0).val by omega)
    | ⟨1, _⟩ => exact Fin.ext (show (16 * (L 0).val + (L 1).val) % 16 = (L 1).val by omega)
  right_inv k := Fin.ext (show 16 * (k.val / 16) + k.val % 16 = k.val by omega)

/-- An array held whole is a remainder and one read share per subcore. -/
theorem toks_coords {ℓ : Loc nD τ sig} (f : Buf (Elt F) ℓ) :
    (ℓ ↦{fullShare} f : sProp 𝕄)
      = iprop((ℓ ↦{Transfers.shareDrop fullShare 32} f)
          ∗ bigSep Finset.univ fun L : grid0.Coords => ℓ ↦{Transfers.shareTok fullShare 32 (tokOf L)} f) := by
  have h : (ℓ ↦{fullShare} f : sProp 𝕄)
      = iprop((ℓ ↦{Transfers.shareDrop fullShare 32} f)
          ∗ bigSep Finset.univ fun k : Fin 32 => ℓ ↦{Transfers.shareTok fullShare 32 k} f) :=
    eq_of_biEntails (Transfers.pointsTo_toks fullShare 32)
  rw [bigSep_univ_equiv tokEquiv (fun k : Fin 32 => (ℓ ↦{Transfers.shareTok fullShare 32 k} f : sProp 𝕄))] at h
  exact h

section Call

attribute [local irreducible] tilePieces tilePiecesAt

variable (x1 : (d : Dev nD) → Buf (Elt F) (v1Loc d)) (w2 : (d : Dev nD) → Buf (Elt F) (v2Loc d)) (w4 : (d : Dev nD) → Buf (Elt F) (v4Loc d))
variable (d : Dev nD)

/-- What the TensorCore keeps of the three operand arrays while the call runs. -/
def Rem : sProp 𝕄 :=
  iprop((v1Loc d ↦{Transfers.shareDrop fullShare 32} x1 d) ∗ (v2Loc d ↦{Transfers.shareDrop fullShare 32} w2 d)
    ∗ (v4Loc d ↦{Transfers.shareDrop fullShare 32} w4 d))

/-- The two SparseCores' parts are the thirty-two subcores' parts. -/
theorem st_eq :
    (bigSep Finset.univ fun c : Fin ((K (F := F)).nCore 0) => (P (F := F) x1 w2 w4).st 0 d c)
      = bigSep Finset.univ fun L : grid0.Coords => tileRes x1 w2 w4 d L := by
  unfold P
  dsimp only
  show (bigSep (Finset.univ : Finset (Fin 2)) fun c => bigSep (Finset.univ : Finset (Fin 16)) fun i =>
    tileRes (F := F) x1 w2 w4 d (coordsV ⟨c.val, c.isLt⟩ ⟨i.val, i.isLt⟩)) = _
  rw [bigSep_coords (fun L : grid0.Coords => tileRes (F := F) x1 w2 w4 d L)]
  exact bigSep_congr fun c _ => bigSep_congr fun i _ => congrArg (tileRes (F := F) x1 w2 w4 d) (coordsV_eq _ _)

theorem dn_eq :
    (bigSep Finset.univ fun c : Fin ((K (F := F)).nCore 0) => (P (F := F) x1 w2 w4).dn 0 d c)
      = bigSep Finset.univ fun L : grid0.Coords => tileRes x1 w2 w4 d L := by
  unfold P
  dsimp only
  show (bigSep (Finset.univ : Finset (Fin 2)) fun c => bigSep (Finset.univ : Finset (Fin 16)) fun i =>
    tileRes (F := F) x1 w2 w4 d (coordsV ⟨c.val, c.isLt⟩ ⟨i.val, i.isLt⟩)) = _
  rw [bigSep_coords (fun L : grid0.Coords => tileRes (F := F) x1 w2 w4 d L)]
  exact bigSep_congr fun c _ => bigSep_congr fun i _ => congrArg (tileRes (F := F) x1 w2 w4 d) (coordsV_eq _ _)

/-- The subcores' parts, sorted by kind: the read shares of each operand, and the pieces of the result array. -/
theorem tiles_eq :
    (bigSep Finset.univ fun L : grid0.Coords => tileRes (F := F) x1 w2 w4 d L)
      = iprop((bigSep Finset.univ fun L : grid0.Coords => v1Loc d ↦{Transfers.shareTok fullShare 32 (tokOf L)} x1 d)
          ∗ (bigSep Finset.univ fun L : grid0.Coords => v2Loc d ↦{Transfers.shareTok fullShare 32 (tokOf L)} w2 d)
          ∗ (bigSep Finset.univ fun L : grid0.Coords => v4Loc d ↦{Transfers.shareTok fullShare 32 (tokOf L)} w4 d)
          ∗ bigSep Finset.univ fun L : grid0.Coords => tilePieces (F := F) d L) := by
  unfold tileRes
  rw [bigSep_sep', bigSep_sep', bigSep_sep']

/-- The call takes what the TensorCore holds, leaving the remainders, as the two SparseCores' parts. -/
theorem hst :
    callTakes d (x1 d) (w2 d) (w4 d)
      ⊢ iprop(Rem x1 w2 w4 d ∗ bigSep Finset.univ fun c : Fin ((K (F := F)).nCore 0) => (P (F := F) x1 w2 w4).st 0 d c) := by
  rw [st_eq, tiles_eq]
  unfold Rem
  iintro ⟨H1, H2, H4, H5⟩
  ihave H1' := (Entails.of_eq (toks_coords (F := F) (x1 d))) $$ H1
  ihave H2' := (Entails.of_eq (toks_coords (F := F) (w2 d))) $$ H2
  ihave H4' := (Entails.of_eq (toks_coords (F := F) (w4 d))) $$ H4
  ihave H5' := ((part_split (F := F) d).1) $$ H5
  icases H1' with ⟨R1, B1⟩
  icases H2' with ⟨R2, B2⟩
  icases H4' with ⟨R4, B4⟩
  isplitl [R1 R2 R4]
  · isplitl [R1]; · iexact R1
    isplitl [R2]; · iexact R2
    iexact R4
  isplitl [B1]; · iexact B1
  isplitl [B2]; · iexact B2
  isplitl [B4]; · iexact B4
  iexact H5'

/-- And gives them back. -/
theorem hdn :
    iprop(Rem x1 w2 w4 d ∗ bigSep Finset.univ fun c : Fin ((K (F := F)).nCore 0) => (P (F := F) x1 w2 w4).dn 0 d c)
      ⊢ callTakes d (x1 d) (w2 d) (w4 d) := by
  rw [dn_eq, tiles_eq]
  unfold Rem
  iintro ⟨⟨R1, R2, R4⟩, B1, B2, B4, H5⟩
  isplitl [R1 B1]
  · iapply (Entails.of_eq (toks_coords (F := F) (x1 d)).symm)
    isplitl [R1]; · iexact R1
    iexact B1
  isplitl [R2 B2]
  · iapply (Entails.of_eq (toks_coords (F := F) (w2 d)).symm)
    isplitl [R2]; · iexact R2
    iexact B2
  isplitl [R4 B4]
  · iapply (Entails.of_eq (toks_coords (F := F) (w4 d)).symm)
    isplitl [R4]; · iexact R4
    iexact B4
  iapply ((part_split (F := F) d).2)
  iexact H5

end Call

end Cert.Proof.KTileB
end
-- ==== Proof.FramesB.lean ====
/-
  The two frame claims of the kernel program, at any float instance: under the precondition every index word the
  SparseCore body turns into an address is a field value (at most 999), so every subcore's task runs to its end; the
  launch theorem then gives the run of the whole program, which leaves the four argument arrays as they were.
-/
import proofs.«207464_g62843961475156_cont_9to1_m_1121_6_alg».proof.Defs
import proofs.«207464_g62843961475156_cont_9to1_m_1121_6_alg».proof.Proof.Gen.Pre_input_domain
import proofs.«207464_g62843961475156_cont_9to1_m_1121_6_alg».proof.Proof.LaunchB
import proofs.«207464_g62843961475156_cont_9to1_m_1121_6_alg».proof.Proof.TilePayB
import proofs.«207464_g62843961475156_cont_9to1_m_1121_6_alg».proof.Proof.CallSplitB
import proofs.«207464_g62843961475156_cont_9to1_m_1121_6_alg».proof.Proof.PreFacts

noncomputable section

namespace Cert.Proof.KFramesB

open Cert.Kernel Cert.Kernel.Gen Cert.Proof.KLaunchB Cert.Proof.KTileB
open Idealize.ShloMosaic Idealize.SL.Sem

variable {F : FTy → Type} [FloatOps F] [∀ e, Nonempty (Elt F e)]

/-- Every word of the transposed index array is an entry of `x`, hence at most 999 under the precondition. -/
theorem xt_le (m : (ℓ : Loc nD τ sig) → Buf (Elt F) ℓ)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    ∀ d y, (xt m d y : BitVec 32).toNat ≤ 999 := by
  intro d y
  obtain ⟨idx, e⟩ := xt_mem m d y
  rw [e]
  exact Cert.PreFacts.x_toNat _ _ _ _ (hpre d) idx

/-- The program's run: it ends, nothing faults, the arguments are unchanged. -/
theorem run (m : (ℓ : Loc nD τ sig) → Buf (Elt F) ℓ) (ρ : Dev nD → PrngReg)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_frame (P (xt m) (wf m) (wl m)) m ρ (Rem (xt m) (wf m) (wl m)) rfl rfl
    (tileObl (xt m) (wf m) (wl m) facts (xt_le m hpre)) (vecSplit (xt m) (wf m) (wl m))
    (fun d => hst (xt m) (wf m) (wl m) d) (fun d => hdn (xt m) (wf m) (wl m) d)

end Cert.Proof.KFramesB

end
-- ==== Proof.RefTerm.lean ====
/-
  The second program's result as one composed term of its four argument arrays, cut into named stages:
  the global row of each (batch element, field), the looked-up embedding rows laid out per batch element as 26 × 26
  field pairs, the two selections of the 325 pairs i < j by constant index tables, their coordinatewise product summed
  over the 16 coordinates and over the pairs, the linear lookup summed over the fields, and 1 / (1 + exp (−z)).
-/
import proofs.«207464_g62843961475156_cont_9to1_m_1121_6_alg».proof.Proof.Gen.ReferenceIdeal

noncomputable section

namespace Cert.RefSide

open Cert.ReferenceIdeal Cert.ReferenceIdeal.Gen Idealize.ShloMosaic

variable {F : FTy → Type} [FloatOps F]

/-- `x[b, f] + 1000 · f`: the field's offset added to the raw index (32-bit words). -/
def rows (x : IVec S4096x26 32) : IVec S4096x26 32 :=
  addi x (broadcastInDim S4096x26 ![0, 1] bcast_S1x26_S4096x26_0_1
    (broadcastInDim S1x26 ![1] bcast_S26_S1x26_1 (fun i => lit0 (S26.rowMajor i))))

/-- The row with a negative value wrapped around by 26000 (never taken when `0 ≤ x ≤ 999`). -/
def wrapped (x : IVec S4096x26 32) : IVec S4096x26 32 :=
  select (cmpi .slt (rows x) (broadcastInDim S4096x26 ![] bcast_S_S4096x26 (constantI S_ 32 0#32)))
    (addi (rows x) (broadcastInDim S4096x26 ![] bcast_S_S4096x26 (constantI S_ 32 26000#32))) (rows x)

/-- The rows as start indices of a lookup: a trailing axis of extent one. -/
def startIdx (x : IVec S4096x26 32) : IVec S4096x26x1 32 :=
  broadcastInDim S4096x26x1 ![0, 1] bcast_S4096x26_S4096x26x1_0_1 (wrapped x)

/-- Every table's row at every (batch element, field): `[table, batch, field, coordinate]`. -/
def looked (x : IVec S4096x26 32) (W : FVec F S26x26000x16 .f32) : FVec F S26x4096x26x16 .f32 :=
  Host.gather gather_S26x26000x16_S4096x26x1_S26x4096x26x16_03_1_n_n_1_2_26116 W (startIdx x)

/-- The same laid out per batch element with the (table, field) pairs flattened: `[batch, 26 · table + field, coordinate]`. -/
def emb (x : IVec S4096x26 32) (W : FVec F S26x26000x16 .f32) : FVec F S4096x676x16 .f32 :=
  fun i => shapeCast S4096x676x16
    (transpose S4096x26x26x16 [1, 0, 2, 3] (looked x W) transposes_S26x4096x26x16_S4096x26x26x16_1_0_2_3)
    shapeCasts_S4096x26x26x16_S4096x676x16 i

/-- The first table of pair positions, `26 · j + i` for the k-th pair `i < j`. -/
def tab1 : IVec S325 32 := fun i => lit1 (S325.rowMajor i)

/-- The second table of pair positions, `26 · i + j`. -/
def tab2 : IVec S325 32 := fun i => lit2 (S325.rowMajor i)

/-- A table of positions as start indices (the wrap-around of negative positions is switched off by a constant mask). -/
def pick (t : IVec S325 32) : IVec S325x1 32 :=
  broadcastInDim S325x1 ![0] bcast_S325_S325x1_0
    (select (constantI S325 1 0#1) (addi t (broadcastInDim S325 ![] bcast_S_S325 (constantI S_ 32 676#32))) t)

/-- The rows of the 325 pair positions of a table. -/
def taken (x : IVec S4096x26 32) (W : FVec F S26x26000x16 .f32) (t : IVec S325 32) : FVec F S4096x325x16 .f32 :=
  Host.gather gather_S4096x676x16_S325x1_S4096x325x16_02_1_n_n_1_1_4096116 (emb x W) (pick t)

/-- The cross terms summed over the 16 coordinates, then over the 325 pairs, as a column. -/
def crossSum (x : IVec S4096x26 32) (W : FVec F S26x26000x16 .f32) : FVec F S4096x1 .f32 :=
  broadcastInDim S4096x1 ![0] bcast_S4096_S4096x1_0
    (Host.reduceAdd
      (Host.reduceAdd (mulf (taken x W tab1) (taken x W tab2)) (constant (F := F) S_ .f32 0x00000000#32)
        reducesTo_S4096x325x16_S4096x325_d2 h_S_)
      (constant (F := F) S_ .f32 0x00000000#32) reducesTo_S4096x325_S4096_d1 h_S_)

/-- The linear table's entries at the rows, summed over the 26 fields. -/
def linSum (x : IVec S4096x26 32) (Wl : FVec F S26000x1 .f32) : FVec F S4096x1 .f32 :=
  Host.reduceAdd (Host.gather gather_S26000x1_S4096x26x1_S4096x26x1_2_0_n_n_0_2_11 Wl (startIdx x))
    (constant (F := F) S_ .f32 0x00000000#32) reducesTo_S4096x26x1_S4096x1_d1 h_S_

/-- The bias as a column. -/
def biasCol (bias : FVec F S1 .f32) : FVec F S4096x1 .f32 :=
  broadcastInDim S4096x1 ![0, 1] bcast_S1x1_S4096x1_0_1 (broadcastInDim S1x1 ![1] bcast_S1_S1x1_1 bias)

/-- The argument of the logistic function: (linear + bias) + cross. -/
def logit (x : IVec S4096x26 32) (W : FVec F S26x26000x16 .f32) (Wl : FVec F S26000x1 .f32) (bias : FVec F S1 .f32) :
    FVec F S4096x1 .f32 :=
  addf (addf (linSum x Wl) (biasCol bias)) (crossSum x W)

/-- The result: `1 / (1 + exp (−z))`. -/
def out (x : IVec S4096x26 32) (W : FVec F S26x26000x16 .f32) (Wl : FVec F S26000x1 .f32) (bias : FVec F S1 .f32) :
    FVec F S4096x1 .f32 :=
  Host.divf (broadcastInDim S4096x1 ![] bcast_S_S4096x1 (constant (F := F) S_ .f32 0x3F800000#32))
    (addf (broadcastInDim S4096x1 ![] bcast_S_S4096x1 (constant (F := F) S_ .f32 0x3F800000#32))
      (Host.exp (Host.negf (logit x W Wl bias))))

end Cert.RefSide

end
-- ==== Proof.RefRun.lean ====
/-
  The second program is a straight line of sixty host operations. Every weakly fair execution of it terminates, and at
  the end the result buffer holds the operations' composed term of the four argument arrays (the stages of the term are
  named in the module of the composed term), while the argument arrays are as they were.
-/
import proofs.«207464_g62843961475156_cont_9to1_m_1121_6_alg».proof.Proof.RefTerm
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The sixty operations, in order. -/
abbrev ops : List (HloOp τ sig (Elt F)) :=
  [ nullary main_c (fun i => lit0 (S26.rowMajor i)),
    nullary main_c_0 (fun i => lit1 (S325.rowMajor i)),
    nullary main_c_1 (constantI S325 1 0#1),
    nullary main_c_2 (fun i => lit2 (S325.rowMajor i)),
    nullary main_c_3 (constantI S325 1 0#1),
    unary main_c main_v0 (broadcastInDim S1x26 ![1] bcast_S26_S1x26_1 : (⟨S26, .i32⟩ : BufTy).Contents (Elt F) → (⟨S1x26, .i32⟩ : BufTy).Contents (Elt F)),
    unary main_v0 main_v1 (broadcastInDim S4096x26 ![0, 1] bcast_S1x26_S4096x26_0_1 : (⟨S1x26, .i32⟩ : BufTy).Contents (Elt F) → (⟨S4096x26, .i32⟩ : BufTy).Contents (Elt F)),
    binary main_arg0 main_v1 main_v2 (addi : (⟨S4096x26, .i32⟩ : BufTy).Contents (Elt F) → (⟨S4096x26, .i32⟩ : BufTy).Contents (Elt F) → (⟨S4096x26, .i32⟩ : BufTy).Contents (Elt F)),
    nullary main_c_4 (constantI S_ 32 0#32),
    unary main_c_4 main_v3 (broadcastInDim S4096x26 ![] bcast_S_S4096x26 : (⟨S_, .i32⟩ : BufTy).Contents (Elt F) → (⟨S4096x26, .i32⟩ : BufTy).Contents (Elt F)),
    binary main_v2 main_v3 main_v4 (cmpi .slt : (⟨S4096x26, .i32⟩ : BufTy).Contents (Elt F) → (⟨S4096x26, .i32⟩ : BufTy).Contents (Elt F) → (⟨S4096x26, .i1⟩ : BufTy).Contents (Elt F)),
    nullary main_c_5 (constantI S_ 32 26000#32),
    unary main_c_5 main_v5 (broadcastInDim S4096x26 ![] bcast_S_S4096x26 : (⟨S_, .i32⟩ : BufTy).Contents (Elt F) → (⟨S4096x26, .i32⟩ : BufTy).Contents (Elt F)),
    binary main_v2 main_v5 main_v6 (addi : (⟨S4096x26, .i32⟩ : BufTy).Contents (Elt F) → (⟨S4096x26, .i32⟩ : BufTy).Contents (Elt F) → (⟨S4096x26, .i32⟩ : BufTy).Contents (Elt F)),
    ternary main_v4 main_v6 main_v2 main_v7 (select : (⟨S4096x26, .i1⟩ : BufTy).Contents (Elt F) → (⟨S4096x26, .i32⟩ : BufTy).Contents (Elt F) → (⟨S4096x26, .i32⟩ : BufTy).Contents (Elt F) → (⟨S4096x26, .i32⟩ : BufTy).Contents (Elt F)),
    unary main_v7 main_v8 (broadcastInDim S4096x26x1 ![0, 1] bcast_S4096x26_S4096x26x1_0_1 : (⟨S4096x26, .i32⟩ : BufTy).Contents (Elt F) → (⟨S4096x26x1, .i32⟩ : BufTy).Contents (Elt F)),
    binary main_arg1 main_v8 main_v9 ((fun x i => Host.gather gather_S26x26000x16_S4096x26x1_S26x4096x26x16_03_1_n_n_1_2_26116 x i) : (⟨S26x26000x16, .f32⟩ : BufTy).Contents (Elt F) → (⟨S4096x26x1, .i32⟩ : BufTy).Contents (Elt F) → (⟨S26x4096x26x16, .f32⟩ : BufTy).Contents (Elt F)),
    unary main_v9 main_v10 ((transpose S4096x26x26x16 [1, 0, 2, 3] · transposes_S26x4096x26x16_S4096x26x26x16_1_0_2_3) : (⟨S26x4096x26x16, .f32⟩ : BufTy).Contents (Elt F) → (⟨S4096x26x26x16, .f32⟩ : BufTy).Contents (Elt F)),
    reshape main_v10 main_v11 rfl shapeCasts_S4096x26x26x16_S4096x676x16,
    nullary main_c_6 (constantI S_ 32 676#32),
    unary main_c_6 main_v12 (broadcastInDim S325 ![] bcast_S_S325 : (⟨S_, .i32⟩ : BufTy).Contents (Elt F) → (⟨S325, .i32⟩ : BufTy).Contents (Elt F)),
    binary main_c_0 main_v12 main_v13 (addi : (⟨S325, .i32⟩ : BufTy).Contents (Elt F) → (⟨S325, .i32⟩ : BufTy).Contents (Elt F) → (⟨S325, .i32⟩ : BufTy).Contents (Elt F)),
    ternary main_c_1 main_v13 main_c_0 main_v14 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    unary main_v14 main_v15 (broadcastInDim S325x1 ![0] bcast_S325_S325x1_0 : (⟨S325, .i32⟩ : BufTy).Contents (Elt F) → (⟨S325x1, .i32⟩ : BufTy).Contents (Elt F)),
    binary main_v11 main_v15 main_v16 ((fun x i => Host.gather gather_S4096x676x16_S325x1_S4096x325x16_02_1_n_n_1_1_4096116 x i) : (⟨S4096x676x16, .f32⟩ : BufTy).Contents (Elt F) → (⟨S325x1, .i32⟩ : BufTy).Contents (Elt F) → (⟨S4096x325x16, .f32⟩ : BufTy).Contents (Elt F)),
    nullary main_c_7 (constantI S_ 32 676#32),
    unary main_c_7 main_v17 (broadcastInDim S325 ![] bcast_S_S325 : (⟨S_, .i32⟩ : BufTy).Contents (Elt F) → (⟨S325, .i32⟩ : BufTy).Contents (Elt F)),
    binary main_c_2 main_v17 main_v18 (addi : (⟨S325, .i32⟩ : BufTy).Contents (Elt F) → (⟨S325, .i32⟩ : BufTy).Contents (Elt F) → (⟨S325, .i32⟩ : BufTy).Contents (Elt F)),
    ternary main_c_3 main_v18 main_c_2 main_v19 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    unary main_v19 main_v20 (broadcastInDim S325x1 ![0] bcast_S325_S325x1_0 : (⟨S325, .i32⟩ : BufTy).Contents (Elt F) → (⟨S325x1, .i32⟩ : BufTy).Contents (Elt F)),
    binary main_v11 main_v20 main_v21 ((fun x i => Host.gather gather_S4096x676x16_S325x1_S4096x325x16_02_1_n_n_1_1_4096116 x i) : (⟨S4096x676x16, .f32⟩ : BufTy).Contents (Elt F) → (⟨S325x1, .i32⟩ : BufTy).Contents (Elt F) → (⟨S4096x325x16, .f32⟩ : BufTy).Contents (Elt F)),
    binary main_v16 main_v21 main_v22 (mulf : (⟨S4096x325x16, .f32⟩ : BufTy).Contents (Elt F) → (⟨S4096x325x16, .f32⟩ : BufTy).Contents (Elt F) → (⟨S4096x325x16, .f32⟩ : BufTy).Contents (Elt F)),
    nullary main_cst (constant S_ .f32 0x00000000#32),
    binary main_v22 main_cst main_v23 ((fun x v => Host.reduceAdd x v reducesTo_S4096x325x16_S4096x325_d2 h_S_) : (⟨S4096x325x16, .f32⟩ : BufTy).Contents (Elt F) → (⟨S_, .f32⟩ : BufTy).Contents (Elt F) → (⟨S4096x325, .f32⟩ : BufTy).Contents (Elt F)),
    nullary main_cst_8 (constant S_ .f32 0x00000000#32),
    binary main_v23 main_cst_8 main_v24 ((fun x v => Host.reduceAdd x v reducesTo_S4096x325_S4096_d1 h_S_) : (⟨S4096x325, .f32⟩ : BufTy).Contents (Elt F) → (⟨S_, .f32⟩ : BufTy).Contents (Elt F) → (⟨S4096, .f32⟩ : BufTy).Contents (Elt F)),
    unary main_v24 main_v25 (broadcastInDim S4096x1 ![0] bcast_S4096_S4096x1_0 : (⟨S4096, .f32⟩ : BufTy).Contents (Elt F) → (⟨S4096x1, .f32⟩ : BufTy).Contents (Elt F)),
    nullary main_c_9 (constantI S_ 32 0#32),
    unary main_c_9 main_v26 (broadcastInDim S4096x26 ![] bcast_S_S4096x26 : (⟨S_, .i32⟩ : BufTy).Contents (Elt F) → (⟨S4096x26, .i32⟩ : BufTy).Contents (Elt F)),
    binary main_v2 main_v26 main_v27 (cmpi .slt : (⟨S4096x26, .i32⟩ : BufTy).Contents (Elt F) → (⟨S4096x26, .i32⟩ : BufTy).Contents (Elt F) → (⟨S4096x26, .i1⟩ : BufTy).Contents (Elt F)),
    nullary main_c_10 (constantI S_ 32 26000#32),
    unary main_c_10 main_v28 (broadcastInDim S4096x26 ![] bcast_S_S4096x26 : (⟨S_, .i32⟩ : BufTy).Contents (Elt F) → (⟨S4096x26, .i32⟩ : BufTy).Contents (Elt F)),
    binary main_v2 main_v28 main_v29 (addi : (⟨S4096x26, .i32⟩ : BufTy).Contents (Elt F) → (⟨S4096x26, .i32⟩ : BufTy).Contents (Elt F) → (⟨S4096x26, .i32⟩ : BufTy).Contents (Elt F)),
    ternary main_v27 main_v29 main_v2 main_v30 (select : (⟨S4096x26, .i1⟩ : BufTy).Contents (Elt F) → (⟨S4096x26, .i32⟩ : BufTy).Contents (Elt F) → (⟨S4096x26, .i32⟩ : BufTy).Contents (Elt F) → (⟨S4096x26, .i32⟩ : BufTy).Contents (Elt F)),
    unary main_v30 main_v31 (broadcastInDim S4096x26x1 ![0, 1] bcast_S4096x26_S4096x26x1_0_1 : (⟨S4096x26, .i32⟩ : BufTy).Contents (Elt F) → (⟨S4096x26x1, .i32⟩ : BufTy).Contents (Elt F)),
    binary main_arg2 main_v31 main_v32 ((fun x i => Host.gather gather_S26000x1_S4096x26x1_S4096x26x1_2_0_n_n_0_2_11 x i) : (⟨S26000x1, .f32⟩ : BufTy).Contents (Elt F) → (⟨S4096x26x1, .i32⟩ : BufTy).Contents (Elt F) → (⟨S4096x26x1, .f32⟩ : BufTy).Contents (Elt F)),
    nullary main_cst_11 (constant S_ .f32 0x00000000#32),
    binary main_v32 main_cst_11 main_v33 ((fun x v => Host.reduceAdd x v reducesTo_S4096x26x1_S4096x1_d1 h_S_) : (⟨S4096x26x1, .f32⟩ : BufTy).Contents (Elt F) → (⟨S_, .f32⟩ : BufTy).Contents (Elt F) → (⟨S4096x1, .f32⟩ : BufTy).Contents (Elt F)),
    unary main_arg3 main_v34 (broadcastInDim S1x1 ![1] bcast_S1_S1x1_1 : (⟨S1, .f32⟩ : BufTy).Contents (Elt F) → (⟨S1x1, .f32⟩ : BufTy).Contents (Elt F)),
    unary main_v34 main_v35 (broadcastInDim S4096x1 ![0, 1] bcast_S1x1_S4096x1_0_1 : (⟨S1x1, .f32⟩ : BufTy).Contents (Elt F) → (⟨S4096x1, .f32⟩ : BufTy).Contents (Elt F)),
    binary main_v33 main_v35 main_v36 (addf : (⟨S4096x1, .f32⟩ : BufTy).Contents (Elt F) → (⟨S4096x1, .f32⟩ : BufTy).Contents (Elt F) → (⟨S4096x1, .f32⟩ : BufTy).Contents (Elt F)),
    binary main_v36 main_v25 main_v37 (addf : (⟨S4096x1, .f32⟩ : BufTy).Contents (Elt F) → (⟨S4096x1, .f32⟩ : BufTy).Contents (Elt F) → (⟨S4096x1, .f32⟩ : BufTy).Contents (Elt F)),
    unary main_v37 main_v38 (Host.negf : (⟨S4096x1, .f32⟩ : BufTy).Contents (Elt F) → (⟨S4096x1, .f32⟩ : BufTy).Contents (Elt F)),
    unary main_v38 main_v39 (Host.exp : (⟨S4096x1, .f32⟩ : BufTy).Contents (Elt F) → (⟨S4096x1, .f32⟩ : BufTy).Contents (Elt F)),
    nullary main_cst_12 (constant S_ .f32 0x3F800000#32),
    unary main_cst_12 main_v40 (broadcastInDim S4096x1 ![] bcast_S_S4096x1 : (⟨S_, .f32⟩ : BufTy).Contents (Elt F) → (⟨S4096x1, .f32⟩ : BufTy).Contents (Elt F)),
    binary main_v40 main_v39 main_v41 (addf : (⟨S4096x1, .f32⟩ : BufTy).Contents (Elt F) → (⟨S4096x1, .f32⟩ : BufTy).Contents (Elt F) → (⟨S4096x1, .f32⟩ : BufTy).Contents (Elt F)),
    nullary main_cst_13 (constant S_ .f32 0x3F800000#32),
    unary main_cst_13 main_v42 (broadcastInDim S4096x1 ![] bcast_S_S4096x1 : (⟨S_, .f32⟩ : BufTy).Contents (Elt F) → (⟨S4096x1, .f32⟩ : BufTy).Contents (Elt F)),
    binary main_v42 main_v41 main_v43 (Host.divf : (⟨S4096x1, .f32⟩ : BufTy).Contents (Elt F) → (⟨S4096x1, .f32⟩ : BufTy).Contents (Elt F) → (⟨S4096x1, .f32⟩ : BufTy).Contents (Elt F)) ]

set_option maxHeartbeats 40000000 in
set_option maxRecDepth 100000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

/-- Every buffer of every device after the line: the operations folded over the contents at the start. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

/-- The result buffer after the line is the composed term of the argument buffers at the start. -/
theorem after_out (V : Valuation τ sig (Elt F)) :
    after (ops (F := F)) V (Proc.devRef .tc main_v43)
      = out (V (Proc.devRef .tc main_arg0)) (V (Proc.devRef .tc main_arg1)) (V (Proc.devRef .tc main_arg2)) (V (Proc.devRef .tc main_arg3)) := by
  after_results_simp
  rfl

/-- No operation of the line writes an argument buffer. -/
theorem after_arg0 (V : Valuation τ sig (Elt F)) : after (ops (F := F)) V (Proc.devRef .tc main_arg0) = V (Proc.devRef .tc main_arg0) := by
  after_results_simp
theorem after_arg1 (V : Valuation τ sig (Elt F)) : after (ops (F := F)) V (Proc.devRef .tc main_arg1) = V (Proc.devRef .tc main_arg1) := by
  after_results_simp
theorem after_arg2 (V : Valuation τ sig (Elt F)) : after (ops (F := F)) V (Proc.devRef .tc main_arg2) = V (Proc.devRef .tc main_arg2) := by
  after_results_simp
theorem after_arg3 (V : Valuation τ sig (Elt F)) : after (ops (F := F)) V (Proc.devRef .tc main_arg3) = V (Proc.devRef .tc main_arg3) := by
  after_results_simp

/-- On every device, from any memory with zero counters: every weakly fair execution of the second program terminates
    with its result at the composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v43).trans (after_out _), (h c main_arg0).trans (after_arg0 _),
      (h c main_arg1).trans (after_arg1 _), (h c main_arg2).trans (after_arg2 _), (h c main_arg3).trans (after_arg3 _)⟩)
    (run_after m ρ)

end Cert.RefSide

end
-- ==== Proof.RefRows.lean ====
/-
  The integer stages of the second program read at one (batch element, field): the row `x[b, f] + 1000 · f` as a 32-bit
  word, the wrap-around of negative rows (not taken when `0 ≤ x ≤ 999`, since then the row lies in `[0, 26000)`), and the
  start index of the lookups, which clamped into `[0, 25999]` is again `x[b, f] + 1000 · f`.
-/
import proofs.«207464_g62843961475156_cont_9to1_m_1121_6_alg».proof.Proof.RefTerm
import Idealize.ShloMosaic.Lib.Pipeline.Value
import Idealize.ShloMosaic.Lib.ValueIdx

noncomputable section

namespace Cert.RefSide

open Cert.ReferenceIdeal Cert.ReferenceIdeal.Gen Idealize.ShloMosaic Idealize.ShloMosaic.ValueIdx

/-- The table of field offsets holds `1000 · f`. -/
theorem lit0_eq : ∀ f : Fin 26, lit0 f = BitVec.ofNat 32 (1000 * f.val) := by decide

/-- A rank-zero value broadcast to a matrix, read at an entry. -/
theorem bcast_scalar_apply {α : Type} (v : S_.Idx → α) (j : S4096x26.Idx) :
    broadcastInDim S4096x26 ![] bcast_S_S4096x26 v j = v ix0 := by
  refine broadcastInDim_apply _ _ _ _ ix0 ?_
  intro a; exact a.elim0

/-- A vector over the fields broadcast along the batch axis, read at an entry. -/
theorem bcast_fields_apply {α : Type} (c : S26.Idx → α) (b : Fin 4096) (f : Fin 26) :
    broadcastInDim S4096x26 ![0, 1] bcast_S1x26_S4096x26_0_1 (broadcastInDim S1x26 ![1] bcast_S26_S1x26_1 c) (ix2 b f)
      = c (ix1 f) := by
  refine (broadcastInDim_apply _ _ _ _ (ix2 (0 : Fin 1) f) ?_).trans ?_
  · intro a; match a with | ⟨0, _⟩ => rfl | ⟨1, _⟩ => rfl
  · refine broadcastInDim_apply _ _ _ _ (ix1 f) ?_
    intro a; match a with | ⟨0, _⟩ => rfl

/-- The row word: the raw index plus the field's offset. -/
theorem rows_apply (x : IVec S4096x26 32) (b : Fin 4096) (f : Fin 26) :
    rows x (ix2 b f) = x (ix2 b f) + BitVec.ofNat 32 (1000 * f.val) := by
  have h := bcast_fields_apply (fun i => lit0 (S26.rowMajor i)) b f
  unfold rows
  show IntOp.addi (x (ix2 b f)) _ = _
  rw [h]
  show x (ix2 b f) + lit0 (S26.rowMajor (ix1 f)) = _
  have e : S26.rowMajor (ix1 f) = f := Fin.ext (by rw [Shape.rowMajor_val_one])
  rw [e, lit0_eq]

/-- A word in `[0, 999]` plus `1000 · f` does not wrap: it is the word of the sum of the numbers, below 26000. -/
theorem word_add (X : BitVec 32) (hX : 0 ≤ X.toInt ∧ X.toInt ≤ 999) (f : Fin 26) :
    X + BitVec.ofNat 32 (1000 * f.val) = BitVec.ofNat 32 (X.toNat + 1000 * f.val) ∧ X.toNat + 1000 * f.val < 26000 := by
  obtain ⟨h0, h1⟩ := hX
  have hf := f.isLt
  have hn : X.toNat ≤ 999 := by
    rw [BitVec.toInt_eq_toNat_cond] at h0 h1
    split at h0 <;> omega
  refine ⟨?_, by omega⟩
  apply BitVec.eq_of_toNat_eq
  simp only [BitVec.toNat_add, BitVec.toNat_ofNat]
  omega

/-- A number below 26000 as a 32-bit word is not negative and reads back as itself. -/
theorem word_small (n : Nat) (hn : n < 26000) :
    IntOp.cmpi .slt (BitVec.ofNat 32 n) 0#32 = 0#1 ∧ (BitVec.ofNat 32 n).toInt.toNat = n := by
  have e : (BitVec.ofNat 32 n).toInt = (n : Int) := by
    rw [BitVec.toInt_eq_toNat_cond, BitVec.toNat_ofNat]
    have : n % 2 ^ 32 = n := Nat.mod_eq_of_lt (by omega)
    rw [this, if_pos (by omega)]
  refine ⟨?_, by rw [e]; rfl⟩
  unfold IntOp.cmpi
  show BitVec.ofBool ((BitVec.ofNat 32 n).slt 0#32) = 0#1
  have : (BitVec.ofNat 32 n).slt 0#32 = false := by
    rw [BitVec.slt, e]
    simp
  rw [this]; rfl

/-- Under `0 ≤ x ≤ 999` the wrap-around is not taken: the wrapped row is the row. -/
theorem wrapped_apply (x : IVec S4096x26 32) (hx : ∀ i, 0 ≤ (x i).toInt ∧ (x i).toInt ≤ 999) (b : Fin 4096) (f : Fin 26) :
    wrapped x (ix2 b f) = BitVec.ofNat 32 ((x (ix2 b f)).toNat + 1000 * f.val) := by
  obtain ⟨hw, hlt⟩ := word_add (x (ix2 b f)) (hx _) f
  unfold wrapped
  rw [select_apply]
  show Scalar.select (IntOp.cmpi .slt (rows x (ix2 b f)) (broadcastInDim S4096x26 ![] bcast_S_S4096x26 (constantI S_ 32 0#32) (ix2 b f))) _ (rows x (ix2 b f)) = _
  rw [bcast_scalar_apply, rows_apply, hw]
  show Scalar.select (IntOp.cmpi .slt (BitVec.ofNat 32 ((x (ix2 b f)).toNat + 1000 * f.val)) 0#32) _ _ = _
  rw [(word_small _ hlt).1, select_zero]

/-- The start index of the lookups at `(b, f)`, clamped into the table, is `x[b, f] + 1000 · f`. -/
theorem start_apply (x : IVec S4096x26 32) (hx : ∀ i, 0 ≤ (x i).toInt ∧ (x i).toInt ≤ 999) (b : Fin 4096) (f : Fin 26) :
    min (startIdx x (ix3 b f (0 : Fin 1))).toInt.toNat (26000 - 1) = (x (ix2 b f)).toNat + 1000 * f.val
      ∧ (x (ix2 b f)).toNat + 1000 * f.val < 26000 := by
  obtain ⟨_, hlt⟩ := word_add (x (ix2 b f)) (hx _) f
  have e : startIdx x (ix3 b f (0 : Fin 1)) = wrapped x (ix2 b f) := by
    unfold startIdx
    refine broadcastInDim_apply _ _ _ _ (ix2 b f) ?_
    intro a; match a with | ⟨0, _⟩ => rfl | ⟨1, _⟩ => rfl
  rw [e, wrapped_apply x hx, (word_small _ hlt).2]
  exact ⟨by omega, hlt⟩

end Cert.RefSide

end
-- ==== Proof.RefGather.lean ====
/-
  The three lookups of the second program, each read at one element. In each, one operand axis is addressed by a signed
  index word (read off the start indices at the result's batch coordinates, clamped into the axis), that axis is
  collapsed, and the other operand axes are copied whole: their coordinate is the result's on the matching offset axis.
-/
import proofs.«207464_g62843961475156_cont_9to1_m_1121_6_alg».proof.Proof.RefTerm
import Idealize.ShloMosaic.Lib.ValueIdx

noncomputable section

namespace Cert.RefSide

open Cert.ReferenceIdeal Cert.ReferenceIdeal.Gen Idealize.ShloMosaic Idealize.ShloMosaic.ValueIdx

variable {α : Type} {w : Nat}

/-- Rows of the 26 tables `[26, 26000, 16]` by index words `[4096, 26, 1]`: result `(t, b, f, d)` is table `t`, the
    row named by the word at `(b, f)`, coordinate `d`. -/
theorem gather_tables_apply (W : S26x26000x16.Idx → α) (idx : IVec S4096x26x1 w) (t : Fin 26) (b : Fin 4096) (f : Fin 26)
    (d : Fin 16) :
    Host.gather gather_S26x26000x16_S4096x26x1_S26x4096x26x16_03_1_n_n_1_2_26116 W idx (ix4 t b f d)
      = W (ix3 t ⟨min (idx (ix3 b f (0 : Fin 1))).toInt.toNat (26000 - 1), by omega⟩ d) := by
  unfold Host.gather
  congr 1
  funext a
  refine Fin.ext ?_
  match a with
  | ⟨0, _⟩ =>
    show gather_S26x26000x16_S4096x26x1_S26x4096x26x16_03_1_n_n_1_2_26116.start (ix4 t b f d) idx 0 + gather_S26x26000x16_S4096x26x1_S26x4096x26x16_03_1_n_n_1_2_26116.batchCoord (ix4 t b f d) 0 + gather_S26x26000x16_S4096x26x1_S26x4096x26x16_03_1_n_n_1_2_26116.offCoord (ix4 t b f d) 0 = t.val
    have hs : gather_S26x26000x16_S4096x26x1_S26x4096x26x16_03_1_n_n_1_2_26116.start (ix4 t b f d) idx 0 = 0 := by
      unfold GatherDims.start
      refine dif_neg ?_
      show ¬ (0 : Fin 3) ∈ ([1] : List (Fin 3))
      decide
    have ho : gather_S26x26000x16_S4096x26x1_S26x4096x26x16_03_1_n_n_1_2_26116.offCoord (ix4 t b f d) 0 = t.val := by
      unfold GatherDims.offCoord
      have h : (0 : Fin 3) ∈ gather_S26x26000x16_S4096x26x1_S26x4096x26x16_03_1_n_n_1_2_26116.sKept := by
        refine (GatherDims.mem_sKept gather_S26x26000x16_S4096x26x1_S26x4096x26x16_03_1_n_n_1_2_26116 0).2 ⟨?_, List.not_mem_nil⟩
        show ¬ (0 : Fin 3) ∈ ([1] : List (Fin 3))
        decide
      rw [dif_pos h]
      rfl
    rw [GatherDims.batchCoord_eq_zero _ _ _ List.not_mem_nil, hs, ho]
    omega
  | ⟨1, _⟩ =>
    show gather_S26x26000x16_S4096x26x1_S26x4096x26x16_03_1_n_n_1_2_26116.start (ix4 t b f d) idx 1 + gather_S26x26000x16_S4096x26x1_S26x4096x26x16_03_1_n_n_1_2_26116.batchCoord (ix4 t b f d) 1 + gather_S26x26000x16_S4096x26x1_S26x4096x26x16_03_1_n_n_1_2_26116.offCoord (ix4 t b f d) 1
      = min (idx (ix3 b f (0 : Fin 1))).toInt.toNat (26000 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S26x26000x16_S4096x26x1_S26x4096x26x16_03_1_n_n_1_2_26116.startIndexMap from List.mem_singleton.mpr rfl)]
    have hsi : gather_S26x26000x16_S4096x26x1_S26x4096x26x16_03_1_n_n_1_2_26116.siIdx (ix4 t b f d) ⟨List.idxOf (1 : Fin 3) gather_S26x26000x16_S4096x26x1_S26x4096x26x16_03_1_n_n_1_2_26116.startIndexMap,
        List.idxOf_lt_length_iff.2 (List.mem_singleton.mpr rfl)⟩ = ix3 b f (0 : Fin 1) := by
      funext c; refine Fin.ext ?_
      match c with
      | ⟨0, _⟩ => rfl
      | ⟨1, _⟩ => rfl
      | ⟨2, _⟩ => rfl
    rw [hsi]
    rfl
  | ⟨2, _⟩ =>
    show gather_S26x26000x16_S4096x26x1_S26x4096x26x16_03_1_n_n_1_2_26116.start (ix4 t b f d) idx 2 + gather_S26x26000x16_S4096x26x1_S26x4096x26x16_03_1_n_n_1_2_26116.batchCoord (ix4 t b f d) 2 + gather_S26x26000x16_S4096x26x1_S26x4096x26x16_03_1_n_n_1_2_26116.offCoord (ix4 t b f d) 2 = d.val
    have hs : gather_S26x26000x16_S4096x26x1_S26x4096x26x16_03_1_n_n_1_2_26116.start (ix4 t b f d) idx 2 = 0 := by
      unfold GatherDims.start
      refine dif_neg ?_
      show ¬ (2 : Fin 3) ∈ ([1] : List (Fin 3))
      decide
    have ho : gather_S26x26000x16_S4096x26x1_S26x4096x26x16_03_1_n_n_1_2_26116.offCoord (ix4 t b f d) 2 = d.val := by
      unfold GatherDims.offCoord
      have h : (2 : Fin 3) ∈ gather_S26x26000x16_S4096x26x1_S26x4096x26x16_03_1_n_n_1_2_26116.sKept := by
        refine (GatherDims.mem_sKept gather_S26x26000x16_S4096x26x1_S26x4096x26x16_03_1_n_n_1_2_26116 2).2 ⟨?_, List.not_mem_nil⟩
        show ¬ (2 : Fin 3) ∈ ([1] : List (Fin 3))
        decide
      rw [dif_pos h]
      rfl
    rw [GatherDims.batchCoord_eq_zero _ _ _ List.not_mem_nil, hs, ho]
    omega

/-- Pair positions of `[4096, 676, 16]` by index words `[325, 1]`: result `(b, k, d)` is batch element `b`, the
    position named by word `k`, coordinate `d`. -/
theorem gather_pairs_apply (E : S4096x676x16.Idx → α) (idx : IVec S325x1 w) (b : Fin 4096) (k : Fin 325) (d : Fin 16) :
    Host.gather gather_S4096x676x16_S325x1_S4096x325x16_02_1_n_n_1_1_4096116 E idx (ix3 b k d)
      = E (ix3 b ⟨min (idx (ix2 k (0 : Fin 1))).toInt.toNat (676 - 1), by omega⟩ d) := by
  unfold Host.gather
  congr 1
  funext a
  refine Fin.ext ?_
  match a with
  | ⟨0, _⟩ =>
    show gather_S4096x676x16_S325x1_S4096x325x16_02_1_n_n_1_1_4096116.start (ix3 b k d) idx 0 + gather_S4096x676x16_S325x1_S4096x325x16_02_1_n_n_1_1_4096116.batchCoord (ix3 b k d) 0 + gather_S4096x676x16_S325x1_S4096x325x16_02_1_n_n_1_1_4096116.offCoord (ix3 b k d) 0 = b.val
    have hs : gather_S4096x676x16_S325x1_S4096x325x16_02_1_n_n_1_1_4096116.start (ix3 b k d) idx 0 = 0 := by
      unfold GatherDims.start
      refine dif_neg ?_
      show ¬ (0 : Fin 3) ∈ ([1] : List (Fin 3))
      decide
    have ho : gather_S4096x676x16_S325x1_S4096x325x16_02_1_n_n_1_1_4096116.offCoord (ix3 b k d) 0 = b.val := by
      unfold GatherDims.offCoord
      have h : (0 : Fin 3) ∈ gather_S4096x676x16_S325x1_S4096x325x16_02_1_n_n_1_1_4096116.sKept := by
        refine (GatherDims.mem_sKept gather_S4096x676x16_S325x1_S4096x325x16_02_1_n_n_1_1_4096116 0).2 ⟨?_, List.not_mem_nil⟩
        show ¬ (0 : Fin 3) ∈ ([1] : List (Fin 3))
        decide
      rw [dif_pos h]
      rfl
    rw [GatherDims.batchCoord_eq_zero _ _ _ List.not_mem_nil, hs, ho]
    omega
  | ⟨1, _⟩ =>
    show gather_S4096x676x16_S325x1_S4096x325x16_02_1_n_n_1_1_4096116.start (ix3 b k d) idx 1 + gather_S4096x676x16_S325x1_S4096x325x16_02_1_n_n_1_1_4096116.batchCoord (ix3 b k d) 1 + gather_S4096x676x16_S325x1_S4096x325x16_02_1_n_n_1_1_4096116.offCoord (ix3 b k d) 1
      = min (idx (ix2 k (0 : Fin 1))).toInt.toNat (676 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4096x676x16_S325x1_S4096x325x16_02_1_n_n_1_1_4096116.startIndexMap from List.mem_singleton.mpr rfl)]
    have hsi : gather_S4096x676x16_S325x1_S4096x325x16_02_1_n_n_1_1_4096116.siIdx (ix3 b k d) ⟨List.idxOf (1 : Fin 3) gather_S4096x676x16_S325x1_S4096x325x16_02_1_n_n_1_1_4096116.startIndexMap,
        List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl
  | ⟨2, _⟩ =>
    show gather_S4096x676x16_S325x1_S4096x325x16_02_1_n_n_1_1_4096116.start (ix3 b k d) idx 2 + gather_S4096x676x16_S325x1_S4096x325x16_02_1_n_n_1_1_4096116.batchCoord (ix3 b k d) 2 + gather_S4096x676x16_S325x1_S4096x325x16_02_1_n_n_1_1_4096116.offCoord (ix3 b k d) 2 = d.val
    have hs : gather_S4096x676x16_S325x1_S4096x325x16_02_1_n_n_1_1_4096116.start (ix3 b k d) idx 2 = 0 := by
      unfold GatherDims.start
      refine dif_neg ?_
      show ¬ (2 : Fin 3) ∈ ([1] : List (Fin 3))
      decide
    have ho : gather_S4096x676x16_S325x1_S4096x325x16_02_1_n_n_1_1_4096116.offCoord (ix3 b k d) 2 = d.val := by
      unfold GatherDims.offCoord
      have h : (2 : Fin 3) ∈ gather_S4096x676x16_S325x1_S4096x325x16_02_1_n_n_1_1_4096116.sKept := by
        refine (GatherDims.mem_sKept gather_S4096x676x16_S325x1_S4096x325x16_02_1_n_n_1_1_4096116 2).2 ⟨?_, List.not_mem_nil⟩
        show ¬ (2 : Fin 3) ∈ ([1] : List (Fin 3))
        decide
      rw [dif_pos h]
      rfl
    rw [GatherDims.batchCoord_eq_zero _ _ _ List.not_mem_nil, hs, ho]
    omega

/-- Entries of the linear table `[26000, 1]` by index words `[4096, 26, 1]`: result `(b, f, z)` is the row named by the
    word at `(b, f)`, column `z`. -/
theorem gather_linear_apply (L : S26000x1.Idx → α) (idx : IVec S4096x26x1 w) (b : Fin 4096) (f : Fin 26) (z : Fin 1) :
    Host.gather gather_S26000x1_S4096x26x1_S4096x26x1_2_0_n_n_0_2_11 L idx (ix3 b f z)
      = L (ix2 ⟨min (idx (ix3 b f (0 : Fin 1))).toInt.toNat (26000 - 1), by omega⟩ z) := by
  unfold Host.gather
  congr 1
  funext a
  refine Fin.ext ?_
  match a with
  | ⟨0, _⟩ =>
    show gather_S26000x1_S4096x26x1_S4096x26x1_2_0_n_n_0_2_11.start (ix3 b f z) idx 0 + gather_S26000x1_S4096x26x1_S4096x26x1_2_0_n_n_0_2_11.batchCoord (ix3 b f z) 0 + gather_S26000x1_S4096x26x1_S4096x26x1_2_0_n_n_0_2_11.offCoord (ix3 b f z) 0
      = min (idx (ix3 b f (0 : Fin 1))).toInt.toNat (26000 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S26000x1_S4096x26x1_S4096x26x1_2_0_n_n_0_2_11.startIndexMap from List.mem_singleton.mpr rfl)]
    have hsi : gather_S26000x1_S4096x26x1_S4096x26x1_2_0_n_n_0_2_11.siIdx (ix3 b f z) ⟨List.idxOf (0 : Fin 2) gather_S26000x1_S4096x26x1_S4096x26x1_2_0_n_n_0_2_11.startIndexMap,
        List.idxOf_lt_length_iff.2 (List.mem_singleton.mpr rfl)⟩ = ix3 b f (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S26000x1_S4096x26x1_S4096x26x1_2_0_n_n_0_2_11.start (ix3 b f z) idx 1 + gather_S26000x1_S4096x26x1_S4096x26x1_2_0_n_n_0_2_11.batchCoord (ix3 b f z) 1 + gather_S26000x1_S4096x26x1_S4096x26x1_2_0_n_n_0_2_11.offCoord (ix3 b f z) 1 = z.val
    have hs : gather_S26000x1_S4096x26x1_S4096x26x1_2_0_n_n_0_2_11.start (ix3 b f z) idx 1 = 0 := by
      unfold GatherDims.start
      refine dif_neg ?_
      show ¬ (1 : Fin 2) ∈ ([0] : List (Fin 2))
      decide
    have ho : gather_S26000x1_S4096x26x1_S4096x26x1_2_0_n_n_0_2_11.offCoord (ix3 b f z) 1 = z.val := by
      unfold GatherDims.offCoord
      have h : (1 : Fin 2) ∈ gather_S26000x1_S4096x26x1_S4096x26x1_2_0_n_n_0_2_11.sKept := by
        refine (GatherDims.mem_sKept gather_S26000x1_S4096x26x1_S4096x26x1_2_0_n_n_0_2_11 1).2 ⟨?_, List.not_mem_nil⟩
        show ¬ (1 : Fin 2) ∈ ([0] : List (Fin 2))
        decide
      rw [dif_pos h]
      rfl
    rw [GatherDims.batchCoord_eq_zero _ _ _ List.not_mem_nil, hs, ho]
    omega

end Cert.RefSide

end
-- ==== Proof.RefEmb.lean ====
/-
  The looked-up embeddings read at one element. Table `t` at (batch element `b`, field `f`) is the table's row
  `x[b, f] + 1000 · f`; in the per-batch layout the position `26 · j + i` holds table `j` at field `i`; and a selection of
  pair positions by a table of words reads the position each word names.
-/
import proofs.«207464_g62843961475156_cont_9to1_m_1121_6_alg».proof.Proof.RefRows
import proofs.«207464_g62843961475156_cont_9to1_m_1121_6_alg».proof.Proof.RefGather

noncomputable section

namespace Cert.RefSide

open Cert.ReferenceIdeal Cert.ReferenceIdeal.Gen Idealize.ShloMosaic Idealize.ShloMosaic.ValueIdx

variable {F : FTy → Type} [FloatOps F]

/-- The global row of field `f` for batch element `b`: `x[b, f] + 1000 · f` (reduced modulo 26000, which changes nothing
    when `0 ≤ x ≤ 999`). -/
def rowOf (x : IVec S4096x26 32) (b : Fin 4096) (f : Fin 26) : Fin 26000 :=
  ⟨((x (ix2 b f)).toNat + 1000 * f.val) % 26000, Nat.mod_lt _ (by omega)⟩

/-- The clamped start index of the lookups is that row. -/
theorem start_row (x : IVec S4096x26 32) (hx : ∀ i, 0 ≤ (x i).toInt ∧ (x i).toInt ≤ 999) (b : Fin 4096) (f : Fin 26)
    (h : min (startIdx x (ix3 b f (0 : Fin 1))).toInt.toNat (26000 - 1) < 26000) :
    (⟨min (startIdx x (ix3 b f (0 : Fin 1))).toInt.toNat (26000 - 1), h⟩ : Fin 26000) = rowOf x b f := by
  obtain ⟨h1, h2⟩ := start_apply x hx b f
  apply Fin.ext
  show min _ _ = ((x (ix2 b f)).toNat + 1000 * f.val) % 26000
  rw [h1, Nat.mod_eq_of_lt h2]

/-- Table `t` looked up at (batch element `b`, field `f`), coordinate `d`. -/
theorem looked_apply (x : IVec S4096x26 32) (hx : ∀ i, 0 ≤ (x i).toInt ∧ (x i).toInt ≤ 999) (W : FVec F S26x26000x16 .f32)
    (t : Fin 26) (b : Fin 4096) (f : Fin 26) (d : Fin 16) :
    looked x W (ix4 t b f d) = W (ix3 t (rowOf x b f) d) := by
  unfold looked
  rw [gather_tables_apply, start_row x hx]

/-- In the per-batch layout, position `26 · j + i` is table `j` at field `i`. -/
theorem emb_apply (x : IVec S4096x26 32) (hx : ∀ i, 0 ≤ (x i).toInt ∧ (x i).toInt ≤ 999) (W : FVec F S26x26000x16 .f32)
    (b : Fin 4096) (j i : Fin 26) (d : Fin 16) (p : Fin 676) (hp : p.val = 26 * j.val + i.val) :
    emb x W (ix3 b p d) = W (ix3 j (rowOf x b i) d) := by
  unfold emb
  refine (shapeCast_apply _ _ _ (ix4 b j i d) ?_).trans ?_
  · rw [Shape.rowMajor_val_four, Shape.rowMajor_val_three]
    show ((b.val * 26 + j.val) * 26 + i.val) * 16 + d.val = (b.val * 676 + p.val) * 16 + d.val
    omega
  · refine (transpose_apply _ _ _ _ (ix4 j b i d) ?_).trans (looked_apply x hx W j b i d)
    intro a; match a with | ⟨0, _⟩ => rfl | ⟨1, _⟩ => rfl | ⟨2, _⟩ => rfl | ⟨3, _⟩ => rfl

/-- A table of positions as start indices, read at word `k`: the table's word (the constant mask switches the
    wrap-around off). -/
theorem pick_apply (t : IVec S325 32) (k : Fin 325) : pick t (ix2 k (0 : Fin 1)) = t (ix1 k) := by
  unfold pick
  refine (broadcastInDim_apply _ _ _ _ (ix1 k) ?_).trans ?_
  · intro a; match a with | ⟨0, _⟩ => rfl
  · rw [select_apply]
    show Scalar.select 0#1 _ _ = _
    rw [select_zero]

/-- The selection by a table whose `k`-th word is `26 · j + i`, read at `(b, k, d)`: table `j` at field `i`. -/
theorem taken_apply (x : IVec S4096x26 32) (hx : ∀ i, 0 ≤ (x i).toInt ∧ (x i).toInt ≤ 999) (W : FVec F S26x26000x16 .f32)
    (t : IVec S325 32) (b : Fin 4096) (k : Fin 325) (d : Fin 16) (j i : Fin 26)
    (ht : t (ix1 k) = BitVec.ofNat 32 (26 * j.val + i.val)) :
    taken x W t (ix3 b k d) = W (ix3 j (rowOf x b i) d) := by
  have hj := j.isLt
  have hi := i.isLt
  unfold taken
  rw [gather_pairs_apply]
  refine emb_apply x hx W b j i d _ ?_
  show min (pick t (ix2 k (0 : Fin 1))).toInt.toNat (676 - 1) = 26 * j.val + i.val
  rw [pick_apply, ht, (word_small _ (by omega)).2]
  omega

end Cert.RefSide

end
-- ==== Proof.RefSums.lean ====
/-
  The float stages of the second program read at one batch element, at the exact values (floats are extended reals,
  every operation exact). A host sum over one axis is its zero start value plus the sum over that axis's coordinates;
  so the cross stage is the double sum, over the 325 pairs and the 16 coordinates, of products of table entries, the
  linear stage the sum over the 26 fields of linear-table entries, and the result `1 / (1 + exp (−z))`.
-/
import proofs.«207464_g62843961475156_cont_9to1_m_1121_6_alg».proof.Proof.RefEmb
import Idealize.ShloMosaic.PureOps.Ideal.Laws

noncomputable section

open scoped BigOperators

namespace Cert.RefSide

open Cert.ReferenceIdeal Cert.ReferenceIdeal.Gen Idealize.ShloMosaic Idealize.ShloMosaic.ValueIdx

/-- The word `0x3F800000` is the number one. -/
theorem ofBits_one_f32 : Ideal.ofBits .f32 0x3F800000#32 = 1 := by
  simp [Ideal.ofBits, Ideal.ieee, -EReal.coe_mul]; norm_num

/-- The constant one broadcast to the result's shape. -/
theorem one_apply (j : S4096x1.Idx) :
    broadcastInDim S4096x1 ![] bcast_S_S4096x1 (constant (F := Ideal) S_ .f32 0x3F800000#32) j = 1 := by
  refine (broadcastInDim_apply _ _ _ _ ix0 ?_).trans ofBits_one_f32
  intro a; exact a.elim0

/-- The bias as a column, read at any entry. -/
theorem biasCol_apply (bias : FVec Ideal S1 .f32) (b : Fin 4096) (z : Fin 1) :
    biasCol bias (ix2 b z) = bias (ix1 0) := by
  unfold biasCol
  refine (broadcastInDim_apply _ _ _ _ (ix2 (0 : Fin 1) (0 : Fin 1)) ?_).trans ?_
  · intro a; match a with | ⟨0, _⟩ => rfl | ⟨1, _⟩ => rfl
  · refine broadcastInDim_apply _ _ _ _ (ix1 (0 : Fin 1)) ?_
    intro a; match a with | ⟨0, _⟩ => rfl

/-- The host sum over the 16 coordinates. -/
theorem sum16_apply (X : FVec Ideal S4096x325x16 .f32) (b : Fin 4096) (k : Fin 325) :
    Host.reduceAdd X (constant (F := Ideal) S_ .f32 0x00000000#32) reducesTo_S4096x325x16_S4096x325_d2 h_S_ (ix2 b k)
      = ∑ d : Fin 16, X (ix3 b k d) := by
  have hR : S4096x325x16.Reduces [2] S4096x325 := by decide
  show Ideal.hostReduceAdd reducesTo_S4096x325x16_S4096x325_d2 X (Ideal.ofBits .f32 0x00000000#32) (ix2 b k) = _
  rw [Ideal.hostReduceAdd_single _ hR, Ideal.ofBits_zero_f32, zero_add]
  refine Finset.sum_congr rfl fun d _ => congrArg X ?_
  funext a; apply Fin.ext; match a with | ⟨0, _⟩ => rfl | ⟨1, _⟩ => rfl | ⟨2, _⟩ => rfl

/-- The host sum over the 325 pairs. -/
theorem sum325_apply (X : FVec Ideal S4096x325 .f32) (b : Fin 4096) :
    Host.reduceAdd X (constant (F := Ideal) S_ .f32 0x00000000#32) reducesTo_S4096x325_S4096_d1 h_S_ (ix1 b)
      = ∑ k : Fin 325, X (ix2 b k) := by
  have hR : S4096x325.Reduces [1] S4096 := by decide
  show Ideal.hostReduceAdd reducesTo_S4096x325_S4096_d1 X (Ideal.ofBits .f32 0x00000000#32) (ix1 b) = _
  rw [Ideal.hostReduceAdd_single _ hR, Ideal.ofBits_zero_f32, zero_add]
  refine Finset.sum_congr rfl fun k _ => congrArg X ?_
  funext a; apply Fin.ext; match a with | ⟨0, _⟩ => rfl | ⟨1, _⟩ => rfl

/-- The host sum over the 26 fields. -/
theorem sum26_apply (X : FVec Ideal S4096x26x1 .f32) (b : Fin 4096) (z : Fin 1) :
    Host.reduceAdd X (constant (F := Ideal) S_ .f32 0x00000000#32) reducesTo_S4096x26x1_S4096x1_d1 h_S_ (ix2 b z)
      = ∑ f : Fin 26, X (ix3 b f z) := by
  have hR : S4096x26x1.Reduces [1] S4096x1 := by decide
  show Ideal.hostReduceAdd reducesTo_S4096x26x1_S4096x1_d1 X (Ideal.ofBits .f32 0x00000000#32) (ix2 b z) = _
  rw [Ideal.hostReduceAdd_single _ hR, Ideal.ofBits_zero_f32, zero_add]
  refine Finset.sum_congr rfl fun f _ => congrArg X ?_
  funext a; apply Fin.ext; match a with | ⟨0, _⟩ => rfl | ⟨1, _⟩ => rfl | ⟨2, _⟩ => rfl

/-- The tables of pair positions read at word `k`. -/
theorem tab1_apply (k : Fin 325) : tab1 (ix1 k) = lit1 k := by
  unfold tab1
  exact congrArg lit1 (Fin.ext (by rw [Shape.rowMajor_val_one]))

theorem tab2_apply (k : Fin 325) : tab2 (ix1 k) = lit2 k := by
  unfold tab2
  exact congrArg lit2 (Fin.ext (by rw [Shape.rowMajor_val_one]))

section
variable (x : IVec S4096x26 32) (hx : ∀ i, 0 ≤ (x i).toInt ∧ (x i).toInt ≤ 999)
include hx

/-- The linear stage: the sum over the fields of the linear table at the field's row. -/
theorem linSum_apply (Wl : FVec Ideal S26000x1 .f32) (b : Fin 4096) (z : Fin 1) :
    linSum x Wl (ix2 b z) = ∑ f : Fin 26, Wl (ix2 (rowOf x b f) z) := by
  unfold linSum
  rw [sum26_apply]
  refine Finset.sum_congr rfl fun f _ => ?_
  rw [gather_linear_apply, start_row x hx]

/-- The cross stage, for any enumeration `(pi k, pj k)` of pairs that the two position tables spell as
    `26 · pj k + pi k` and `26 · pi k + pj k`: the sum over the pairs of the inner products of table `pj k` at field
    `pi k`'s row with table `pi k` at field `pj k`'s row. -/
theorem crossSum_apply (W : FVec Ideal S26x26000x16 .f32) (pi pj : Fin 325 → Fin 26)
    (h1 : ∀ k, lit1 k = BitVec.ofNat 32 (26 * (pj k).val + (pi k).val))
    (h2 : ∀ k, lit2 k = BitVec.ofNat 32 (26 * (pi k).val + (pj k).val)) (b : Fin 4096) (z : Fin 1) :
    crossSum x W (ix2 b z)
      = ∑ k : Fin 325, ∑ d : Fin 16, W (ix3 (pj k) (rowOf x b (pi k)) d) * W (ix3 (pi k) (rowOf x b (pj k)) d) := by
  unfold crossSum
  refine (broadcastInDim_apply _ _ _ _ (ix1 b) ?_).trans ?_
  · intro a; match a with | ⟨0, _⟩ => rfl
  rw [sum325_apply]
  refine Finset.sum_congr rfl fun k _ => ?_
  rw [sum16_apply]
  refine Finset.sum_congr rfl fun d _ => ?_
  rw [mulf_apply, taken_apply x hx W tab1 b k d (pj k) (pi k) ((tab1_apply k).trans (h1 k)),
    taken_apply x hx W tab2 b k d (pi k) (pj k) ((tab2_apply k).trans (h2 k))]

/-- The result at batch element `b`. -/
theorem out_apply (W : FVec Ideal S26x26000x16 .f32) (Wl : FVec Ideal S26000x1 .f32) (bias : FVec Ideal S1 .f32)
    (pi pj : Fin 325 → Fin 26)
    (h1 : ∀ k, lit1 k = BitVec.ofNat 32 (26 * (pj k).val + (pi k).val))
    (h2 : ∀ k, lit2 k = BitVec.ofNat 32 (26 * (pi k).val + (pj k).val)) (b : Fin 4096) (z : Fin 1) :
    out x W Wl bias (ix2 b z)
      = Ideal.div 1 (1 + Ideal.exp (-(((∑ f : Fin 26, Wl (ix2 (rowOf x b f) z)) + bias (ix1 0))
          + ∑ k : Fin 325, ∑ d : Fin 16, W (ix3 (pj k) (rowOf x b (pi k)) d) * W (ix3 (pi k) (rowOf x b (pj k)) d)))) := by
  have hone := one_apply (ix2 b z)
  unfold out
  show Ideal.div _ (_ + Ideal.exp (-(logit x W Wl bias (ix2 b z)))) = _
  rw [hone]
  unfold logit
  show Ideal.div 1 (1 + Ideal.exp (-((linSum x Wl (ix2 b z) + biasCol bias (ix2 b z)) + crossSum x W (ix2 b z)))) = _
  rw [linSum_apply x hx, biasCol_apply, crossSum_apply x hx W pi pj h1 h2]

end

end Cert.RefSide

end
-- ==== Proof.RefValue.lean ====
/-
  The second program's composed term is the common specification's closed form. The two tables of pair positions are
  `26 · j + i` and `26 · i + j` for the pairs `i < j` of fields in lexicographic order (decided entry by entry); so the
  k-th cross term multiplies table `j` at field `i`'s row with table `i` at field `j`'s row, coordinate by coordinate,
  which is the specification's cross term of `(i, j)`, and the rest is read stage by stage.
-/
import proofs.«207464_g62843961475156_cont_9to1_m_1121_6_alg».proof.Proof.RefSums
import proofs.«207464_g62843961475156_cont_9to1_m_1121_6_alg».proof.Proof.Spec

noncomputable section

open scoped BigOperators

namespace Cert.RefSide

open Cert.ReferenceIdeal Cert.ReferenceIdeal.Gen Idealize.ShloMosaic Idealize.ShloMosaic.ValueIdx

/-- The first table of pair positions holds `26 · j + i` for the k-th pair `i < j`. -/
theorem lit1_pairs : ∀ k : Fin 325, lit1 k = BitVec.ofNat 32 (26 * (Cert.Spec.rj k).val + (Cert.Spec.ri k).val) := by
  decide +kernel

/-- The second table of pair positions holds `26 · i + j`. -/
theorem lit2_pairs : ∀ k : Fin 325, lit2 k = BitVec.ofNat 32 (26 * (Cert.Spec.ri k).val + (Cert.Spec.rj k).val) := by
  decide +kernel

/-- Under `0 ≤ x ≤ 999` the composed term is the specification's closed form of the second program. -/
theorem out_eq_refOut (x : IVec S4096x26 32) (hx : ∀ i, 0 ≤ (x i).toInt ∧ (x i).toInt ≤ 999)
    (W : FVec Ideal S26x26000x16 .f32) (Wl : FVec Ideal S26000x1 .f32) (bias : FVec Ideal S1 .f32) :
    out x W Wl bias = Cert.Spec.refOut x W Wl bias := by
  funext idx
  obtain ⟨b, z, rfl⟩ : ∃ (b : Fin 4096) (z : Fin 1), idx = ix2 b z := ⟨idx 0, idx 1, eq_ix2 idx⟩
  obtain rfl : z = 0 := Subsingleton.elim _ _
  rw [out_apply x hx W Wl bias Cert.Spec.ri Cert.Spec.rj lit1_pairs lit2_pairs]
  rfl

end Cert.RefSide

end
-- ==== Proof.RefClaims.lean ====
/-
  The second program's parts of the claims. Its frame is its run with the value forgotten. And under `0 ≤ x ≤ 999` its
  run ends with the result at the common specification's closed form of the argument arrays.
-/
import proofs.«207464_g62843961475156_cont_9to1_m_1121_6_alg».proof.Defs
import proofs.«207464_g62843961475156_cont_9to1_m_1121_6_alg».proof.Proof.Gen.Pre_input_domain
import proofs.«207464_g62843961475156_cont_9to1_m_1121_6_alg».proof.Proof.RefRun
import proofs.«207464_g62843961475156_cont_9to1_m_1121_6_alg».proof.Proof.RefValue

noncomputable section

namespace Cert.RefSide

open Idealize.ShloMosaic Idealize.SL.Sem

/-- The second program runs to the end, nothing faulting, and leaves its argument arrays unchanged. -/
theorem frame_ReferenceIdeal : Cert.frame_ReferenceIdeal :=
  fun m g _ => (θ_run (Cert.ReferenceIdeal.defs (F := Ideal)) _ _).mono (fun _ h c => (h c).2) (run (F := Ideal) m g)

/-- From a memory whose index matrix lies in `[0, 999]`, the second program ends with its result at the specification's
    closed form of its four argument arrays, and the arguments unchanged. -/
theorem run_refOut (m : (ℓ : Loc Cert.ReferenceIdeal.nD Cert.ReferenceIdeal.τ Cert.ReferenceIdeal.sig) → Buf (Elt Ideal) ℓ)
    (g : Dev Cert.ReferenceIdeal.nD → PrngReg)
    (hx : ∀ (c : Dev Cert.ReferenceIdeal.nD) (i : Cert.ReferenceIdeal.S4096x26.Idx),
      0 ≤ ((m ((c.tc : Thread Cert.ReferenceIdeal.nD Cert.ReferenceIdeal.τ).loc Cert.ReferenceIdeal.main_arg0) : IVec Cert.ReferenceIdeal.S4096x26 32) i).toInt
        ∧ ((m ((c.tc : Thread Cert.ReferenceIdeal.nD Cert.ReferenceIdeal.τ).loc Cert.ReferenceIdeal.main_arg0) : IVec Cert.ReferenceIdeal.S4096x26 32) i).toInt ≤ 999) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v43)
        = Cert.Spec.refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (out_eq_refOut _ (hx c) _ _ _), (h c).2⟩) (run (F := Ideal) m g)

end Cert.RefSide

end
-- ==== Proof.CallSplitAt.lean ====
/-
  The value form of the call's hand-back: when every subcore hands back its pieces of the result array at the contents
  `g` of the whole array, the TensorCore holds the result array at `g` (and the three operand arrays whole again).
-/
import proofs.«207464_g62843961475156_cont_9to1_m_1121_6_alg».proof.Proof.CallSplit

noncomputable section

namespace Cert.Proof.KTile

open Cert.KernelIdeal Cert.KernelIdeal.Gen Cert.Proof.KLaunch Cert.KernelIdeal.Tasks

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

section CallAt

attribute [local irreducible] tilePieces tilePiecesAt

variable (x1 : (d : Dev nD) → Buf (Elt F) (v1Loc d)) (w2 : (d : Dev nD) → Buf (Elt F) (v2Loc d)) (w4 : (d : Dev nD) → Buf (Elt F) (v4Loc d))
variable (d : Dev nD)

/-- One subcore's part of the call with its pieces of the result array at the contents `g` of the whole array. -/
def tileResAt (g : Buf (Elt F) (v5Loc d)) (L : grid0.Coords) : sProp 𝕄 :=
  iprop((v1Loc d ↦{Transfers.shareTok fullShare 32 (tokOf L)} x1 d) ∗ (v2Loc d ↦{Transfers.shareTok fullShare 32 (tokOf L)} w2 d)
    ∗ (v4Loc d ↦{Transfers.shareTok fullShare 32 (tokOf L)} w4 d) ∗ tilePiecesAt (F := F) d g L)

/-- The parts of the subcores of the two SparseCores are the thirty-two subcores' parts. -/
theorem at_eq (g : Buf (Elt F) (v5Loc d)) :
    (bigSep Finset.univ fun c : Fin ((K (F := F)).nCore 0) => bigSep Finset.univ fun i : Fin ((K (F := F)).nSub 0) =>
        tileResAt (F := F) x1 w2 w4 d g (coordsV ⟨c.val, c.isLt⟩ ⟨i.val, i.isLt⟩))
      = bigSep Finset.univ fun L : grid0.Coords => tileResAt (F := F) x1 w2 w4 d g L := by
  show (bigSep (Finset.univ : Finset (Fin 2)) fun c => bigSep (Finset.univ : Finset (Fin 16)) fun i =>
    tileResAt (F := F) x1 w2 w4 d g (coordsV ⟨c.val, c.isLt⟩ ⟨i.val, i.isLt⟩)) = _
  rw [bigSep_coords (fun L : grid0.Coords => tileResAt (F := F) x1 w2 w4 d g L)]
  exact bigSep_congr fun c _ => bigSep_congr fun i _ => congrArg (tileResAt (F := F) x1 w2 w4 d g) (coordsV_eq _ _)

/-- The subcores' parts, sorted by kind. -/
theorem tilesAt_eq (g : Buf (Elt F) (v5Loc d)) :
    (bigSep Finset.univ fun L : grid0.Coords => tileResAt (F := F) x1 w2 w4 d g L)
      = iprop((bigSep Finset.univ fun L : grid0.Coords => v1Loc d ↦{Transfers.shareTok fullShare 32 (tokOf L)} x1 d)
          ∗ (bigSep Finset.univ fun L : grid0.Coords => v2Loc d ↦{Transfers.shareTok fullShare 32 (tokOf L)} w2 d)
          ∗ (bigSep Finset.univ fun L : grid0.Coords => v4Loc d ↦{Transfers.shareTok fullShare 32 (tokOf L)} w4 d)
          ∗ bigSep Finset.univ fun L : grid0.Coords => tilePiecesAt (F := F) d g L) := by
  unfold tileResAt
  rw [bigSep_sep', bigSep_sep', bigSep_sep']

/-- The subcores hand back the read shares and their pieces at `g`: the TensorCore holds the four arrays whole, the
    result array at `g`. -/
theorem hdn_at (g : Buf (Elt F) (v5Loc d)) :
    iprop(Rem x1 w2 w4 d ∗ bigSep Finset.univ fun c : Fin ((K (F := F)).nCore 0) => bigSep Finset.univ fun i : Fin ((K (F := F)).nSub 0) =>
        tileResAt (F := F) x1 w2 w4 d g (coordsV ⟨c.val, c.isLt⟩ ⟨i.val, i.isLt⟩))
      ⊢ iprop(v1Pts d (x1 d) ∗ v2Pts d (w2 d) ∗ v4Pts d (w4 d) ∗ v5Pts d g) := by
  rw [at_eq, tilesAt_eq]
  unfold Rem
  iintro ⟨⟨R1, R2, R4⟩, B1, B2, B4, H5⟩
  isplitl [R1 B1]
  · iapply (Entails.of_eq (toks_coords (F := F) (x1 d)).symm)
    isplitl [R1]; · iexact R1
    iexact B1
  isplitl [R2 B2]
  · iapply (Entails.of_eq (toks_coords (F := F) (w2 d)).symm)
    isplitl [R2]; · iexact R2
    iexact B2
  isplitl [R4 B4]
  · iapply (Entails.of_eq (toks_coords (F := F) (w4 d)).symm)
    isplitl [R4]; · iexact R4
    iexact B4
  iapply (Entails.of_eq (part_split_at (F := F) d g).symm)
  iexact H5

/-- The converse: the four arrays held whole, the result array at `g`, are the remainders and every subcore's part with
    its pieces at `g`. -/
theorem hst_at (g : Buf (Elt F) (v5Loc d)) :
    iprop(v1Pts d (x1 d) ∗ v2Pts d (w2 d) ∗ v4Pts d (w4 d) ∗ v5Pts d g)
      ⊢ iprop(Rem x1 w2 w4 d ∗ bigSep Finset.univ fun c : Fin ((K (F := F)).nCore 0) => bigSep Finset.univ fun i : Fin ((K (F := F)).nSub 0) =>
        tileResAt (F := F) x1 w2 w4 d g (coordsV ⟨c.val, c.isLt⟩ ⟨i.val, i.isLt⟩)) := by
  rw [at_eq, tilesAt_eq]
  unfold Rem
  iintro ⟨H1, H2, H4, H5⟩
  ihave H1' := (Entails.of_eq (toks_coords (F := F) (x1 d))) $$ H1
  ihave H2' := (Entails.of_eq (toks_coords (F := F) (w2 d))) $$ H2
  ihave H4' := (Entails.of_eq (toks_coords (F := F) (w4 d))) $$ H4
  ihave H5' := (Entails.of_eq (part_split_at (F := F) d g)) $$ H5
  icases H1' with ⟨R1, B1⟩
  icases H2' with ⟨R2, B2⟩
  icases H4' with ⟨R4, B4⟩
  isplitl [R1 R2 R4]
  · isplitl [R1]; · iexact R1
    isplitl [R2]; · iexact R2
    iexact R4
  isplitl [B1]; · iexact B1
  isplitl [B2]; · iexact B2
  isplitl [B4]; · iexact B4
  iexact H5'

end CallAt

end Cert.Proof.KTile
end
-- ==== Proof.KerChunk.lean ====
/-
  What one trip of each inner loop of the first program's per-tile task computes, as a pure term of the values it loads.

  The cross loop takes sixteen lanes of two index columns `xa`, `xb` and two tables of 1000 rows of 16 coordinates,
  and accumulates, starting from zero, for d = 0, …, 15 the lanewise product of table A at `16 · xa + d` with table B at
  `16 · xb + d`. The linear loop takes sixteen lanes of each of the 26 index columns and accumulates, starting from
  zero, for f = 0, …, 25 the linear table at `c_f + 1000 · f`. With every index word at most 999 no 32-bit index
  computation wraps and every index is inside its table.
-/
import proofs.«207464_g62843961475156_cont_9to1_m_1121_6_alg».proof.Proof.Gen.KernelIdeal.Skeleton
import proofs.«207464_g62843961475156_cont_9to1_m_1121_6_alg».proof.Proof.TileFacts

noncomputable section

namespace Cert.KerValue

open Cert.KernelIdeal Cert.KernelIdeal.Gen Idealize.ShloMosaic

variable {F : FTy → Type} [FloatOps F]

/-- Sixteen times a word at most 999, plus a constant at most 15, is an index into a table of 16000 entries. -/
theorem acc_inb (v : IVec S16 32) (hv : ∀ x, (v x).toNat ≤ 999) (c : BitVec 32) (hc : c.toNat ≤ 15) :
    ∀ a x, ((![addi (muli v (broadcast S16 16#32)) (broadcast S16 c)] : Fin 1 → IVec S16 32) a x).toNat < S16000.size a :=
  Cert.TileFacts.inb_of_le _ 15999
    (fun x => le_trans (Cert.TileFacts.addi_bcast_le _ c 15984
      (Cert.TileFacts.muli_bcast_le v 16#32 999 hv (by decide)) (by omega) x) (by omega)) (by decide)

/-- A word at most 999 plus a constant at most 25000 is an index into the padded linear table of 26112 entries. -/
theorem lin_inb (v : IVec S16 32) (hv : ∀ x, (v x).toNat ≤ 999) (c : BitVec 32) (hc : c.toNat ≤ 25000) :
    ∀ a x, ((![addi v (broadcast S16 c)] : Fin 1 → IVec S16 32) a x).toNat < S26112.size a :=
  Cert.TileFacts.inb_of_le _ 25999
    (fun x => le_trans (Cert.TileFacts.addi_bcast_le v c 999 hv (by omega) x) (by omega)) (by decide)

/-- One trip of the cross loop: the accumulator line it stores, from the two tables and the two index columns'
    sixteen lanes. -/
def accChunk (taba tabb : Vec F S16000 .f32) (xa xb : Vec F S16 .i32)
    (ha : ∀ x, (xa x).toNat ≤ 999) (hb : ∀ x, (xb x).toNat ≤ 999) : FVec F S16 .f32 :=
  k0_pay5
    (k0_pay68
      (k0_pay57
        (k0_pay46
        (loadIdx taba ![k0_pay40 xa] (acc_inb xa ha 0#32 (by decide))) (loadIdx tabb ![k0_pay41 xb] (acc_inb xb hb 0#32 (by decide)))
        (loadIdx taba ![k0_pay42 xa] (acc_inb xa ha 1#32 (by decide))) (loadIdx tabb ![k0_pay43 xb] (acc_inb xb hb 1#32 (by decide)))
        (loadIdx taba ![k0_pay44 xa] (acc_inb xa ha 2#32 (by decide))) (loadIdx tabb ![k0_pay45 xb] (acc_inb xb hb 2#32 (by decide))))
        (loadIdx taba ![k0_pay47 xa] (acc_inb xa ha 3#32 (by decide))) (loadIdx tabb ![k0_pay48 xb] (acc_inb xb hb 3#32 (by decide)))
        (loadIdx taba ![k0_pay49 (k0_pay38 xa)] (acc_inb xa ha 4#32 (by decide))) (loadIdx tabb ![k0_pay50 (k0_pay39 xb)] (acc_inb xb hb 4#32 (by decide)))
        (loadIdx taba ![k0_pay51 (k0_pay38 xa)] (acc_inb xa ha 5#32 (by decide))) (loadIdx tabb ![k0_pay52 (k0_pay39 xb)] (acc_inb xb hb 5#32 (by decide)))
        (loadIdx taba ![k0_pay53 (k0_pay38 xa)] (acc_inb xa ha 6#32 (by decide))) (loadIdx tabb ![k0_pay54 (k0_pay39 xb)] (acc_inb xb hb 6#32 (by decide)))
        (loadIdx taba ![k0_pay55 (k0_pay38 xa)] (acc_inb xa ha 7#32 (by decide))) (loadIdx tabb ![k0_pay56 (k0_pay39 xb)] (acc_inb xb hb 7#32 (by decide))))
        (loadIdx taba ![k0_pay58 (k0_pay38 xa)] (acc_inb xa ha 8#32 (by decide))) (loadIdx tabb ![k0_pay59 (k0_pay39 xb)] (acc_inb xb hb 8#32 (by decide)))
        (loadIdx taba ![k0_pay60 (k0_pay38 xa)] (acc_inb xa ha 9#32 (by decide))) (loadIdx tabb ![k0_pay61 (k0_pay39 xb)] (acc_inb xb hb 9#32 (by decide)))
        (loadIdx taba ![k0_pay62 (k0_pay38 xa)] (acc_inb xa ha 10#32 (by decide))) (loadIdx tabb ![k0_pay63 (k0_pay39 xb)] (acc_inb xb hb 10#32 (by decide)))
        (loadIdx taba ![k0_pay64 (k0_pay38 xa)] (acc_inb xa ha 11#32 (by decide))) (loadIdx tabb ![k0_pay65 (k0_pay39 xb)] (acc_inb xb hb 11#32 (by decide)))
        (loadIdx taba ![k0_pay66 (k0_pay38 xa)] (acc_inb xa ha 12#32 (by decide))) (loadIdx tabb ![k0_pay67 (k0_pay39 xb)] (acc_inb xb hb 12#32 (by decide))))
        (loadIdx taba ![k0_pay69 (k0_pay38 xa)] (acc_inb xa ha 13#32 (by decide))) (loadIdx tabb ![k0_pay70 (k0_pay39 xb)] (acc_inb xb hb 13#32 (by decide)))
        (loadIdx taba ![k0_pay1 (k0_pay38 xa)] (acc_inb xa ha 14#32 (by decide))) (loadIdx tabb ![k0_pay2 (k0_pay39 xb)] (acc_inb xb hb 14#32 (by decide)))
        (loadIdx taba ![k0_pay3 (k0_pay38 xa)] (acc_inb xa ha 15#32 (by decide))) (loadIdx tabb ![k0_pay4 (k0_pay39 xb)] (acc_inb xb hb 15#32 (by decide)))

/-- One trip of the linear loop: the line it stores, from the padded linear table and the 26 index columns' sixteen
    lanes. -/
def linChunk (wl : Vec F S26112 .f32) (c : Fin 26 → Vec F S16 .i32) (hc : ∀ f x, (c f x).toNat ≤ 999) : FVec F S16 .f32 :=
  k0_pay107
    (k0_pay37
      (k0_pay30
        (k0_pay23
          (k0_pay16
        (loadIdx wl ![k0_pay11 (c 0)] (lin_inb (c 0) (hc 0) 0#32 (by decide)))
        (loadIdx wl ![k0_pay12 (c 1)] (lin_inb (c 1) (hc 1) 1000#32 (by decide)))
        (loadIdx wl ![k0_pay13 (c 2)] (lin_inb (c 2) (hc 2) 2000#32 (by decide)))
        (loadIdx wl ![k0_pay14 (c 3)] (lin_inb (c 3) (hc 3) 3000#32 (by decide)))
        (loadIdx wl ![k0_pay15 (c 4)] (lin_inb (c 4) (hc 4) 4000#32 (by decide))))
        (loadIdx wl ![k0_pay17 (c 5) 5000#32] (lin_inb (c 5) (hc 5) 5000#32 (by decide)))
        (loadIdx wl ![k0_pay18 (c 6)] (lin_inb (c 6) (hc 6) 6000#32 (by decide)))
        (loadIdx wl ![k0_pay19 (c 7)] (lin_inb (c 7) (hc 7) 7000#32 (by decide)))
        (loadIdx wl ![k0_pay20 (c 8)] (lin_inb (c 8) (hc 8) 8000#32 (by decide)))
        (loadIdx wl ![k0_pay21 (c 9)] (lin_inb (c 9) (hc 9) 9000#32 (by decide)))
        (loadIdx wl ![k0_pay22 (c 10)] (lin_inb (c 10) (hc 10) 10000#32 (by decide))))
        (loadIdx wl ![k0_pay24 (c 11) 11000#32] (lin_inb (c 11) (hc 11) 11000#32 (by decide)))
        (loadIdx wl ![k0_pay25 (c 12)] (lin_inb (c 12) (hc 12) 12000#32 (by decide)))
        (loadIdx wl ![k0_pay26 (c 13)] (lin_inb (c 13) (hc 13) 13000#32 (by decide)))
        (loadIdx wl ![k0_pay27 (c 14)] (lin_inb (c 14) (hc 14) 14000#32 (by decide)))
        (loadIdx wl ![k0_pay28 (c 15)] (lin_inb (c 15) (hc 15) 15000#32 (by decide)))
        (loadIdx wl ![k0_pay29 (c 16)] (lin_inb (c 16) (hc 16) 16000#32 (by decide))))
        (loadIdx wl ![k0_pay31 (c 17) 17000#32] (lin_inb (c 17) (hc 17) 17000#32 (by decide)))
        (loadIdx wl ![k0_pay32 (c 18)] (lin_inb (c 18) (hc 18) 18000#32 (by decide)))
        (loadIdx wl ![k0_pay33 (c 19)] (lin_inb (c 19) (hc 19) 19000#32 (by decide)))
        (loadIdx wl ![k0_pay34 (c 20)] (lin_inb (c 20) (hc 20) 20000#32 (by decide)))
        (loadIdx wl ![k0_pay35 (c 21)] (lin_inb (c 21) (hc 21) 21000#32 (by decide)))
        (loadIdx wl ![k0_pay36 (c 22)] (lin_inb (c 22) (hc 22) 22000#32 (by decide))))
        (loadIdx wl ![k0_pay104 (c 23) 23000#32] (lin_inb (c 23) (hc 23) 23000#32 (by decide)))
        (loadIdx wl ![k0_pay105 (c 24)] (lin_inb (c 24) (hc 24) 24000#32 (by decide)))
        (loadIdx wl ![k0_pay106 (c 25)] (lin_inb (c 25) (hc 25) 25000#32 (by decide)))

end Cert.KerValue

end
-- ==== Proof.PartOf.lean ====
/-
  The array of partial sums the first program's SparseCore stage leaves, as ONE function of the three arrays it is
  handed: the flat transposed index matrix `fxt` (entry `4096 · f + b` is field `f` of batch element `b`), the flat
  tables `fwf` and the padded flat linear table `fwl`. The array has 328 rows of 4096 words. Row `p < 325` is the
  cross term of task `p`'s pair of fields: word `b` is lane `b mod 16` of the cross trip over the sixteen batch elements
  `b − b mod 16, …`, whose tables are the two windows of 16000 words of `fwf` at `16 · (26000 · tj p + 1000 · ti p)` and
  `16 · (26000 · ti p + 1000 · tj p)` and whose index lanes are columns `ti p` and `tj p` of `fxt`. Row 325 is the
  linear term: lane `b mod 16` of the linear trip over the 26 columns at those sixteen batch elements. Rows 326 and 327
  are the zero line.
-/
import proofs.«207464_g62843961475156_cont_9to1_m_1121_6_alg».proof.Proof.KerChunk
import proofs.«207464_g62843961475156_cont_9to1_m_1121_6_alg».proof.Proof.Spec
import Idealize.ShloMosaic.Lib.ValueIdx

noncomputable section

namespace Cert.KerValue

open Cert.KernelIdeal Cert.KernelIdeal.Gen Idealize.ShloMosaic Idealize.ShloMosaic.ValueIdx Cert.Spec

variable {F : FTy → Type} [FloatOps F]

/-- Table A of task `p`: the 16000 words of the flat tables from `16 · (26000 · tj p + 1000 · ti p)` on. -/
def tabA (fwf : Vec F S10816000 .f32) (p : Fin 325) : Vec F S16000 .f32 :=
  fun n => fwf (ix1 ⟨16 * (26000 * (tj p).val + 1000 * (ti p).val) + (n 0).val, by
    have h1 := (tj p).isLt; have h2 := (ti p).isLt; have h3 : (n 0).val < 16000 := (n 0).isLt; omega⟩)

/-- Table B of task `p`: the 16000 words from `16 · (26000 · ti p + 1000 · tj p)` on. -/
def tabB (fwf : Vec F S10816000 .f32) (p : Fin 325) : Vec F S16000 .f32 :=
  fun n => fwf (ix1 ⟨16 * (26000 * (ti p).val + 1000 * (tj p).val) + (n 0).val, by
    have h1 := (tj p).isLt; have h2 := (ti p).isLt; have h3 : (n 0).val < 16000 := (n 0).isLt; omega⟩)

/-- The sixteen lanes of column `f` at the batch elements `16 · c, …, 16 · c + 15`. -/
def colChunk (fxt : Vec F S106496 .i32) (f : Fin 26) (c : Fin 256) : Vec F S16 .i32 :=
  fun l => fxt (ix1 ⟨4096 * f.val + 16 * c.val + (l 0).val, by
    have h1 := f.isLt; have h2 := c.isLt; have h3 : (l 0).val < 16 := (l 0).isLt; omega⟩)

theorem colChunk_le (fxt : Vec F S106496 .i32) (hxt : ∀ y, (fxt y).toNat ≤ 999) (f : Fin 26) (c : Fin 256) :
    ∀ x, (colChunk (F := F) fxt f c x).toNat ≤ 999 := fun _ => hxt _

/-- The chunk of sixteen batch elements that holds `b`, and `b`'s lane in it. -/
def chunkOf (b : Fin 4096) : Fin 256 := ⟨b.val / 16, by have := b.isLt; omega⟩
def laneIn (b : Fin 4096) : S16.Idx := ix1 ⟨b.val % 16, Nat.mod_lt _ (by omega)⟩

/-- Word `b` of row `p < 325`. -/
def crossRow (fxt : Vec F S106496 .i32) (fwf : Vec F S10816000 .f32) (hxt : ∀ y, (fxt y).toNat ≤ 999) (p : Fin 325)
    (b : Fin 4096) : F .f32 :=
  accChunk (tabA fwf p) (tabB fwf p) (colChunk fxt (ti p) (chunkOf b)) (colChunk fxt (tj p) (chunkOf b))
    (colChunk_le fxt hxt (ti p) (chunkOf b)) (colChunk_le fxt hxt (tj p) (chunkOf b)) (laneIn b)

/-- Word `b` of row 325. -/
def linRow (fxt : Vec F S106496 .i32) (fwl : Vec F S26112 .f32) (hxt : ∀ y, (fxt y).toNat ≤ 999) (b : Fin 4096) : F .f32 :=
  linChunk fwl (fun f => colChunk fxt f (chunkOf b)) (fun f => colChunk_le fxt hxt f (chunkOf b)) (laneIn b)

/-- The whole array of partial sums, at flat index `n = 4096 · row + b`. -/
def partOf (fxt : Vec F S106496 .i32) (fwf : Vec F S10816000 .f32) (fwl : Vec F S26112 .f32) (hxt : ∀ y, (fxt y).toNat ≤ 999) :
    Vec F S1343488 .f32 :=
  fun n =>
    if h : (n 0).val / 4096 < 325 then
      crossRow fxt fwf hxt ⟨(n 0).val / 4096, h⟩ ⟨(n 0).val % 4096, Nat.mod_lt _ (by omega)⟩
    else if (n 0).val / 4096 = 325 then linRow fxt fwl hxt ⟨(n 0).val % 4096, Nat.mod_lt _ (by omega)⟩
    else k0_pay108 (F := F) (ix1 ⟨(n 0).val % 16, Nat.mod_lt _ (by omega)⟩)

/-- The array at a word of a task's row, -/
theorem partOf_cross (fxt : Vec F S106496 .i32) (fwf : Vec F S10816000 .f32) (fwl : Vec F S26112 .f32)
    (hxt : ∀ y, (fxt y).toNat ≤ 999) (p : Fin 325) (b : Fin 4096) (h : 4096 * p.val + b.val < 1343488) :
    partOf fxt fwf fwl hxt (ix1 ⟨4096 * p.val + b.val, h⟩) = crossRow fxt fwf hxt p b := by
  have hb := b.isLt
  have hp := p.isLt
  have e1 : (4096 * p.val + b.val) / 4096 = p.val := by omega
  have e2 : (4096 * p.val + b.val) % 4096 = b.val := by omega
  unfold partOf
  show (if h : (4096 * p.val + b.val) / 4096 < 325 then _ else _) = _
  rw [dif_pos (by omega)]
  exact congrArg₂ (crossRow fxt fwf hxt) (Fin.ext e1) (Fin.ext e2)

/-- of the linear row, -/
theorem partOf_lin (fxt : Vec F S106496 .i32) (fwf : Vec F S10816000 .f32) (fwl : Vec F S26112 .f32)
    (hxt : ∀ y, (fxt y).toNat ≤ 999) (b : Fin 4096) (h : 4096 * 325 + b.val < 1343488) :
    partOf fxt fwf fwl hxt (ix1 ⟨4096 * 325 + b.val, h⟩) = linRow fxt fwl hxt b := by
  have hb := b.isLt
  have e1 : (4096 * 325 + b.val) / 4096 = 325 := by omega
  have e2 : (4096 * 325 + b.val) % 4096 = b.val := by omega
  unfold partOf
  show (if h : (4096 * 325 + b.val) / 4096 < 325 then _ else _) = _
  rw [dif_neg (by omega), if_pos e1]
  exact congrArg (linRow fxt fwl hxt) (Fin.ext e2)

/-- and of the two zero rows. -/
theorem partOf_zero (fxt : Vec F S106496 .i32) (fwf : Vec F S10816000 .f32) (fwl : Vec F S26112 .f32)
    (hxt : ∀ y, (fxt y).toNat ≤ 999) (r : Nat) (hr : r = 326 ∨ r = 327) (b : Fin 4096) (h : 4096 * r + b.val < 1343488) :
    partOf fxt fwf fwl hxt (ix1 ⟨4096 * r + b.val, h⟩) = k0_pay108 (F := F) (ix1 ⟨b.val % 16, Nat.mod_lt _ (by omega)⟩) := by
  have hb := b.isLt
  have e1 : (4096 * r + b.val) / 4096 = r := by omega
  have e3 : (4096 * r + b.val) % 16 = b.val % 16 := by omega
  unfold partOf
  show (if h : (4096 * r + b.val) / 4096 < 325 then _ else _) = _
  rw [dif_neg (by omega), if_neg (show ¬ (4096 * r + b.val) / 4096 = 325 by omega)]
  exact congrArg (fun l => k0_pay108 (F := F) (ix1 l)) (Fin.ext e3)

end Cert.KerValue

end
-- ==== Proof.TileValue.lean ====
/-
  The accumulator line of one task, as a function. The inner loop of a task runs 256 trips; trip c reads sixteen lanes
  of the two index columns at word 16 · c, gathers the sixteen products per lane from the two tables, and stores the
  sixteen sums at word 16 · c of the accumulator line. So after c trips the line holds, at every word below 16 · c, the
  cross trip's lane of that word; a trip extends this by sixteen words and leaves the rest alone.
-/
import proofs.«207464_g62843961475156_cont_9to1_m_1121_6_alg».proof.Proof.KerChunk
import proofs.«207464_g62843961475156_cont_9to1_m_1121_6_alg».proof.Proof.TaskIdx
import Idealize.ShloMosaic.Lib.Writes
import Idealize.ShloMosaic.Lib.ValueIdx

noncomputable section

namespace Cert.Proof.KTile

open Cert.KernelIdeal Cert.KernelIdeal.Gen Cert.KerValue Idealize.ShloMosaic

variable {F : FTy → Type} [FloatOps F]

/-- The inner loop runs 256 trips. -/
theorem trips3 : k0_t3_loop.trips = 256 := by decide

/-- A whole table as a load of all of it reads it. -/
abbrev rd0 (g : Vec F S16000 .f32) : Vec F S16000 .f32 := View.readAt (Elt F) (Memref.whole cc0_scratch0 : Memref sig .scVector .vmem S16000 .f32).view (LoadRect.whole S16000) g
abbrev rd1 (g : Vec F S16000 .f32) : Vec F S16000 .f32 := View.readAt (Elt F) (Memref.whole cc0_scratch1 : Memref sig .scVector .vmem S16000 .f32).view (LoadRect.whole S16000) g

/-- The sixteen lanes of an index column that trip `c` reads. -/
abbrev chunk2 (g : Vec F S4096 .i32) (c : Fin k0_t3_loop.trips) : Vec F S16 .i32 :=
  View.readAt (Elt F) (Memref.whole cc0_scratch2 : Memref sig .scVector .vmem S4096 .i32).view (Rect.unit (s := S4096) (k0_off34 c) S16.size (k0_off34_inb c)).toLoadRect g
abbrev chunk3 (g : Vec F S4096 .i32) (c : Fin k0_t3_loop.trips) : Vec F S16 .i32 :=
  View.readAt (Elt F) (Memref.whole cc0_scratch3 : Memref sig .scVector .vmem S4096 .i32).view (Rect.unit (s := S4096) (k0_off34 c) S16.size (k0_off34_inb c)).toLoadRect g

theorem chunk2_le (g : Vec F S4096 .i32) (h : ∀ y, (g y).toNat ≤ 999) (c : Fin k0_t3_loop.trips) :
    ∀ x, (chunk2 (F := F) g c x).toNat ≤ 999 := fun _ => h _
theorem chunk3_le (g : Vec F S4096 .i32) (h : ∀ y, (g y).toNat ≤ 999) (c : Fin k0_t3_loop.trips) :
    ∀ x, (chunk3 (F := F) g c x).toNat ≤ 999 := fun _ => h _

/-- What trip `c` stores: the cross trip of the two tables at the trip's lanes of the two columns. -/
def accAt (g0 g1 : Vec F S16000 .f32) (g2 g3 : Vec F S4096 .i32) (h2 : ∀ y, (g2 y).toNat ≤ 999) (h3 : ∀ y, (g3 y).toNat ≤ 999)
    (c : Fin k0_t3_loop.trips) : FVec F S16 .f32 :=
  accChunk (rd0 g0) (rd1 g1) (chunk2 g2 c) (chunk3 g3 c) (chunk2_le g2 h2 c) (chunk3_le g3 h3 c)

/-- The trip that writes word `y` of the line, and the word's lane in that trip. -/
def cOf (y : S4096.Idx) : Fin k0_t3_loop.trips :=
  ⟨(y 0).val / 16, by have h : (y 0).val < 4096 := (y 0).isLt; rw [trips3]; omega⟩
def laneOf (y : S4096.Idx) : S16.Idx := ValueIdx.ix1 ⟨(y 0).val % 16, Nat.mod_lt _ (by omega)⟩

/-- The whole accumulator line of a task. -/
def accLine (g0 g1 : Vec F S16000 .f32) (g2 g3 : Vec F S4096 .i32) (h2 : ∀ y, (g2 y).toNat ≤ 999) (h3 : ∀ y, (g3 y).toNat ≤ 999) :
    Vec F S4096 .f32 :=
  fun y => accAt g0 g1 g2 g3 h2 h3 (cOf y) (laneOf y)

/-- Word `x` of trip `c`'s piece of the line is word `16 · c + x`. -/
theorem piece_val (c : Fin k0_t3_loop.trips) (x : S16.Idx) :
    (((Rect.unit (s := S4096) (k0_off35 c) S16.size (k0_off35_inb c)).emb x) 0 : Nat) = 16 * c.val + (x 0).val := by
  rw [Rect.emb_apply]
  show k0_off35 c 0 + 1 * (x 0).val = _
  rw [k0_off35_eq]
  show 16 * c.val + 1 * (x 0).val = _
  omega

/-- One trip extends the part of the line that is done by its sixteen words. -/
theorem accLine_step (g0 g1 : Vec F S16000 .f32) (g2 g3 : Vec F S4096 .i32) (h2 : ∀ y, (g2 y).toNat ≤ 999)
    (h3 : ∀ y, (g3 y).toNat ≤ 999) (g4 : Vec F S4096 .f32) (c : Fin k0_t3_loop.trips)
    (hI : ∀ y : S4096.Idx, (y 0).val < 16 * c.val → g4 y = accLine g0 g1 g2 g3 h2 h3 y) :
    ∀ y : S4096.Idx, (y 0).val < 16 * (c.val + 1) →
      ((Memref.whole cc0_scratch4 : Memref sig .scVector .vmem S4096 .f32).view).writes (Elt F) g4
        [⟨Rect.unit (s := S4096) (k0_off35 c) S16.size (k0_off35_inb c), accAt g0 g1 g2 g3 h2 h3 c⟩] y
        = accLine g0 g1 g2 g3 h2 h3 y := by
  intro y hy
  by_cases hm : y ∈ (Rect.unit (s := S4096) (k0_off35 c) S16.size (k0_off35_inb c)).set
  · obtain ⟨x, rfl⟩ : ∃ x, (Rect.unit (s := S4096) (k0_off35 c) S16.size (k0_off35_inb c)).emb x = y :=
      (Rect.unit (s := S4096) (k0_off35 c) S16.size (k0_off35_inb c)).exists_idx_of_mem hm
    have hx : (x 0).val < 16 := (x 0).isLt
    have e := piece_val c x
    have hw := View.read_writes_cons_emb ((Memref.whole cc0_scratch4 : Memref sig .scVector .vmem S4096 .f32).view) g4 (Rect.unit (s := S4096) (k0_off35 c) S16.size (k0_off35_inb c))
      (accAt g0 g1 g2 g3 h2 h3 c) [] x
    simp only [Memref.view_whole, View.read_whole] at hw
    simp only [Memref.view_whole]
    refine hw.trans ?_
    unfold accLine
    have hc : cOf ((Rect.unit (s := S4096) (k0_off35 c) S16.size (k0_off35_inb c)).emb x) = c :=
      Fin.ext (by show _ / 16 = c.val; rw [e]; omega)
    have hl : laneOf ((Rect.unit (s := S4096) (k0_off35 c) S16.size (k0_off35_inb c)).emb x) = x := by
      funext a; apply Fin.ext
      match a with
      | ⟨0, _⟩ => show _ % 16 = (x 0).val; rw [e]; omega
    rw [hc, hl]
  · have hlt : (y 0).val < 16 * c.val := by
      by_contra hge
      refine hm (Rect.mem_set_unit.mpr fun a => ?_)
      match a with
      | ⟨0, _⟩ =>
        show k0_off35 c 0 ≤ (y 0).val ∧ (y 0).val < k0_off35 c 0 + 16
        rw [k0_off35_eq]
        show 16 * c.val ≤ (y 0).val ∧ (y 0).val < 16 * c.val + 16
        omega
    have hw := View.read_writes_apply_of_forall_not_mem ((Memref.whole cc0_scratch4 : Memref sig .scVector .vmem S4096 .f32).view) g4 y
      [⟨Rect.unit (s := S4096) (k0_off35 c) S16.size (k0_off35_inb c), accAt g0 g1 g2 g3 h2 h3 c⟩] (fun p hp => by
        rcases List.mem_singleton.mp hp with rfl
        exact hm)
    simp only [Memref.view_whole, View.read_whole] at hw
    simp only [Memref.view_whole]
    exact hw.trans (hI y hlt)

end Cert.Proof.KTile

end
-- ==== Proof.TileStage.lean ====
/-
  The staged data of a task against the whole-array function. The two tables a task stages are the two windows of the
  flat tables that the array's definition names for the task, the two columns are the task's two fields' columns of
  the flat index matrix, and trip `c` of the inner loop reads their lanes `16 · c, …, 16 · c + 15`. So the accumulator
  line of a task is the task's row of the array.
-/
import proofs.«207464_g62843961475156_cont_9to1_m_1121_6_alg».proof.Proof.TileValue
import proofs.«207464_g62843961475156_cont_9to1_m_1121_6_alg».proof.Proof.PartOf

noncomputable section

namespace Cert.Proof.KTile

open Cert.KernelIdeal Cert.KernelIdeal.Gen Cert.KernelIdeal.Tasks Cert.KerValue Cert.Spec Idealize.ShloMosaic Idealize.ShloMosaic.ValueIdx

variable {F : FTy → Type} [FloatOps F]

theorem rd0_eq (g : Vec F S16000 .f32) : rd0 (F := F) g = g := Memref.readAt_whole (Elt F) cc0_scratch0 g
theorem rd1_eq (g : Vec F S16000 .f32) : rd1 (F := F) g = g := Memref.readAt_whole (Elt F) cc0_scratch1 g

/-- The windows of the flat tables and the columns of the flat index matrix that trip `t` of worker `L` stages. -/
abbrev winA (fwf : Vec F S10816000 .f32) (L : grid0.Coords) (t : Fin (k0_t2_loop L).trips) : Vec F S16000 .f32 :=
  View.read (Elt F) ((Memref.whole main_v2_scv : Memref sig .scVector .hbm S10816000 .f32).slice (Rect.unit (s := S10816000) (k0_off32 L t) S16000.size (k0_off32_inb L t)) (fun _ => rfl)).view fwf
abbrev winB (fwf : Vec F S10816000 .f32) (L : grid0.Coords) (t : Fin (k0_t2_loop L).trips) : Vec F S16000 .f32 :=
  View.read (Elt F) ((Memref.whole main_v2_scv : Memref sig .scVector .hbm S10816000 .f32).slice (Rect.unit (s := S10816000) (k0_off33 L t) S16000.size (k0_off33_inb L t)) (fun _ => rfl)).view fwf
abbrev colA (fxt : Vec F S106496 .i32) (L : grid0.Coords) (t : Fin (k0_t2_loop L).trips) : Vec F S4096 .i32 :=
  View.read (Elt F) ((Memref.whole main_v1_scv : Memref sig .scVector .hbm S106496 .i32).slice (Rect.unit (s := S106496) (k0_off30 L t) S4096.size (k0_off30_inb L t)) (fun _ => rfl)).view fxt
abbrev colB (fxt : Vec F S106496 .i32) (L : grid0.Coords) (t : Fin (k0_t2_loop L).trips) : Vec F S4096 .i32 :=
  View.read (Elt F) ((Memref.whole main_v1_scv : Memref sig .scVector .hbm S106496 .i32).slice (Rect.unit (s := S106496) (k0_off31 L t) S4096.size (k0_off31_inb L t)) (fun _ => rfl)).view fxt

theorem winA_eq (fwf : Vec F S10816000 .f32) (L : grid0.Coords) (t : Fin (k0_t2_loop L).trips) :
    winA fwf L t = tabA fwf (task L t) := by
  funext n
  unfold tabA
  refine congrArg fwf (funext fun a => Fin.ext ?_)
  match a with
  | ⟨0, _⟩ =>
    show k0_off32 L t 0 + 1 * (n 0).val = 16 * (26000 * (tj (task L t)).val + 1000 * (ti (task L t)).val) + (n 0).val
    rw [k0_off32_eq]
    show 16 * (26000 * (tj (task L t)).val + 1000 * (ti (task L t)).val) + 1 * (n 0).val = _
    omega

theorem winB_eq (fwf : Vec F S10816000 .f32) (L : grid0.Coords) (t : Fin (k0_t2_loop L).trips) :
    winB fwf L t = tabB fwf (task L t) := by
  funext n
  unfold tabB
  refine congrArg fwf (funext fun a => Fin.ext ?_)
  match a with
  | ⟨0, _⟩ =>
    show k0_off33 L t 0 + 1 * (n 0).val = 16 * (26000 * (ti (task L t)).val + 1000 * (tj (task L t)).val) + (n 0).val
    rw [k0_off33_eq]
    show 16 * (26000 * (ti (task L t)).val + 1000 * (tj (task L t)).val) + 1 * (n 0).val = _
    omega

theorem lt256 (c : Fin k0_t3_loop.trips) : c.val < 256 := lt_of_lt_of_eq c.isLt trips3

/-- Trip `c` reads lanes `16 · c, …` of the first staged column: column `ti` of the task. -/
theorem chunk2_colA (fxt : Vec F S106496 .i32) (L : grid0.Coords) (t : Fin (k0_t2_loop L).trips) (c : Fin k0_t3_loop.trips) :
    chunk2 (colA fxt L t) c = colChunk fxt (ti (task L t)) ⟨c.val, lt256 c⟩ := by
  funext l
  unfold colChunk
  refine congrArg fxt (funext fun a => Fin.ext ?_)
  match a with
  | ⟨0, _⟩ =>
    show k0_off30 L t 0 + 1 * (k0_off34 c 0 + 1 * (l 0).val) = 4096 * (ti (task L t)).val + 16 * c.val + (l 0).val
    rw [k0_off30_eq, k0_off34_eq]
    show 4096 * (ti (task L t)).val + 1 * (16 * c.val + 1 * (l 0).val) = _
    omega

theorem chunk3_colB (fxt : Vec F S106496 .i32) (L : grid0.Coords) (t : Fin (k0_t2_loop L).trips) (c : Fin k0_t3_loop.trips) :
    chunk3 (colB fxt L t) c = colChunk fxt (tj (task L t)) ⟨c.val, lt256 c⟩ := by
  funext l
  unfold colChunk
  refine congrArg fxt (funext fun a => Fin.ext ?_)
  match a with
  | ⟨0, _⟩ =>
    show k0_off31 L t 0 + 1 * (k0_off34 c 0 + 1 * (l 0).val) = 4096 * (tj (task L t)).val + 16 * c.val + (l 0).val
    rw [k0_off31_eq, k0_off34_eq]
    show 4096 * (tj (task L t)).val + 1 * (16 * c.val + 1 * (l 0).val) = _
    omega

/-- The cross trip depends on its tables and lanes only. -/
theorem accChunk_congr {taba taba' tabb tabb' : Vec F S16000 .f32} {xa xa' xb xb' : Vec F S16 .i32}
    (e0 : taba = taba') (e1 : tabb = tabb') (e2 : xa = xa') (e3 : xb = xb')
    (ha : ∀ x, (xa x).toNat ≤ 999) (hb : ∀ x, (xb x).toNat ≤ 999) (ha' : ∀ x, (xa' x).toNat ≤ 999) (hb' : ∀ x, (xb' x).toNat ≤ 999) :
    accChunk taba tabb xa xb ha hb = accChunk taba' tabb' xa' xb' ha' hb' := by
  subst e0 e1 e2 e3; rfl

theorem colA_le (fxt : Vec F S106496 .i32) (hxt : ∀ y, (fxt y).toNat ≤ 999) (L : grid0.Coords) (t : Fin (k0_t2_loop L).trips) :
    ∀ y, (colA (F := F) fxt L t y).toNat ≤ 999 := fun _ => hxt _
theorem colB_le (fxt : Vec F S106496 .i32) (hxt : ∀ y, (fxt y).toNat ≤ 999) (L : grid0.Coords) (t : Fin (k0_t2_loop L).trips) :
    ∀ y, (colB (F := F) fxt L t y).toNat ≤ 999 := fun _ => hxt _

/-- The accumulator line of trip `t` of worker `L` is the task's row of the array. -/
theorem accLine_task (fxt : Vec F S106496 .i32) (fwf : Vec F S10816000 .f32) (hxt : ∀ y, (fxt y).toNat ≤ 999)
    (L : grid0.Coords) (t : Fin (k0_t2_loop L).trips) (y : S4096.Idx) :
    accLine (winA fwf L t) (winB fwf L t) (colA fxt L t) (colB fxt L t) (colA_le fxt hxt L t) (colB_le fxt hxt L t) y
      = crossRow fxt fwf hxt (task L t) ⟨(y 0).val, (y 0).isLt⟩ := by
  have hc : (⟨(cOf y).val, lt256 (cOf y)⟩ : Fin 256) = chunkOf ⟨(y 0).val, (y 0).isLt⟩ := Fin.ext rfl
  unfold accLine accAt crossRow
  exact congrFun (accChunk_congr ((rd0_eq _).trans (winA_eq fwf L t)) ((rd1_eq _).trans (winB_eq fwf L t))
    ((chunk2_colA fxt L t (cOf y)).trans (congrArg (colChunk fxt (ti (task L t))) hc))
    ((chunk3_colB fxt L t (cOf y)).trans (congrArg (colChunk fxt (tj (task L t))) hc)) _ _ _ _) (laneOf y)

/-- The task's row of the result array after the accumulator line is copied into it agrees with the whole-array
    function on the row's words. -/
theorem taskRow_agree (fxt : Vec F S106496 .i32) (fwf : Vec F S10816000 .f32) (fwl : Vec F S26112 .f32)
    (hxt : ∀ y, (fxt y).toNat ≤ 999) (L : grid0.Coords) (t : Fin (k0_t2_loop L).trips)
    (fk : Vec F S1343488 .f32) (g4 : Vec F S4096 .f32)
    (hg4 : ∀ y, g4 y = accLine (winA fwf L t) (winB fwf L t) (colA fxt L t) (colB fxt L t) (colA_le fxt hxt L t) (colB_le fxt hxt L t) y) :
    ∀ i ∈ ((Memref.whole main_v5_scv : Memref sig .scVector .hbm S1343488 .f32).slice (Rect.unit (s := S1343488) (k0_off36 L t) S4096.size (k0_off36_inb L t)) (fun _ => rfl)).view.set,
      ((Memref.whole main_v5_scv : Memref sig .scVector .hbm S1343488 .f32).slice (Rect.unit (s := S1343488) (k0_off36 L t) S4096.size (k0_off36_inb L t)) (fun _ => rfl)).view.writes (Elt F) fk [⟨Rect.whole S4096, View.read (Elt F) (Memref.whole cc0_scratch4 : Memref sig .scVector .vmem S4096 .f32).view g4⟩] i = partOf fxt fwf fwl hxt i := by
  intro i hi
  obtain ⟨y, -, rfl⟩ := Finset.mem_map.mp hi
  have hw := View.read_writes_cons_emb ((Memref.whole main_v5_scv : Memref sig .scVector .hbm S1343488 .f32).slice (Rect.unit (s := S1343488) (k0_off36 L t) S4096.size (k0_off36_inb L t)) (fun _ => rfl)).view fk (Rect.whole S4096) (View.read (Elt F) (Memref.whole cc0_scratch4 : Memref sig .scVector .vmem S4096 .f32).view g4) [] y
  have e : (Rect.whole S4096).emb y = y := Rect.emb_whole_apply S4096 y
  rw [e] at hw
  have hp := (task L t).isLt
  have h36 : k0_off36 L t 0 = 4096 * (task L t).val := by rw [k0_off36_eq]; rfl
  have hy : (y 0).val < 4096 := (y 0).isLt
  have hlt : 4096 * (task L t).val + (y 0).val < 1343488 := by omega
  have he : ((Memref.whole main_v5_scv : Memref sig .scVector .hbm S1343488 .f32).slice (Rect.unit (s := S1343488) (k0_off36 L t) S4096.size (k0_off36_inb L t)) (fun _ => rfl)).view.emb y = ix1 ⟨4096 * (task L t).val + (y 0).val, hlt⟩ := by
    funext a; apply Fin.ext
    match a with
    | ⟨0, _⟩ =>
      show k0_off36 L t 0 + 1 * (y 0).val = 4096 * (task L t).val + (y 0).val
      omega
  have hr : View.read (Elt F) (Memref.whole cc0_scratch4 : Memref sig .scVector .vmem S4096 .f32).view g4 = g4 := by simp only [Memref.view_whole, View.read_whole]
  rw [hr] at hw
  rw [hr]
  refine Eq.trans ?_ ((hg4 y).trans ((accLine_task fxt fwf hxt L t y).trans ?_))
  · rw [View.read_apply] at hw
    exact eq_of_heq ((cast_heq _ _).symm.trans (heq_of_eq hw))
  · rw [he]
    exact (partOf_cross fxt fwf fwl hxt (task L t) ⟨(y 0).val, hy⟩ hlt).symm

end Cert.Proof.KTile

end
-- ==== Proof.LibSplitSep.lean ====
/-
  An iterated separating conjunction over the indices `0, …, N − 1`, split at a running count `n` into the part below
  `n` and the part from `n` on. Moving the boundary past `k` moves the `k`-th conjunct from the upper part to the
  lower one; at `n = 0` the lower part is empty and at `n = N` the upper part is.
-/
import Idealize.ShloMosaic.Lib.SparseCore.Cells

namespace Cert.SplitSep

open Idealize.SL Idealize.SL.RA Idealize.SL.BI
open scoped Idealize.SL.BI
open Idealize.SL.BI.BIBase Idealize.SL.BI.Laws Idealize.SL.ProofMode
open Idealize.ShloMosaic

variable {M : Type} [URA M] {N : Nat}

/-- The upper part from `k` on is the `k`-th conjunct and the upper part from `k + 1` on. -/
theorem upper_split (k : Fin N) (Φ : Fin N → sProp M) :
    bigSep (Finset.univ.filter fun t : Fin N => k.val ≤ t.val) Φ
      = iprop(Φ k ∗ bigSep (Finset.univ.filter fun t : Fin N => k.val + 1 ≤ t.val) Φ) := by
  have e : (Finset.univ.filter fun t : Fin N => k.val ≤ t.val)
      = insert k (Finset.univ.filter fun t : Fin N => k.val + 1 ≤ t.val) := by
    ext t
    simp only [Finset.mem_filter, Finset.mem_univ, true_and, Finset.mem_insert]
    constructor
    · intro h
      by_cases hk : t = k
      · exact .inl hk
      · exact .inr (by have : t.val ≠ k.val := fun h' => hk (Fin.ext h'); omega)
    · rintro (rfl | h)
      · exact Nat.le_refl _
      · omega
  rw [e, SparseCore.bigSep_insert' (by simp)]

/-- The lower part below `k + 1` is the `k`-th conjunct and the lower part below `k`. -/
theorem lower_join (k : Fin N) (Φ : Fin N → sProp M) :
    bigSep (Finset.univ.filter fun t : Fin N => t.val < k.val + 1) Φ
      = iprop(Φ k ∗ bigSep (Finset.univ.filter fun t : Fin N => t.val < k.val) Φ) := by
  have e : (Finset.univ.filter fun t : Fin N => t.val < k.val + 1)
      = insert k (Finset.univ.filter fun t : Fin N => t.val < k.val) := by
    ext t
    simp only [Finset.mem_filter, Finset.mem_univ, true_and, Finset.mem_insert]
    constructor
    · intro h
      by_cases hk : t = k
      · exact .inl hk
      · exact .inr (by have : t.val ≠ k.val := fun h' => hk (Fin.ext h'); omega)
    · rintro (rfl | h)
      · exact Nat.lt_succ_self _
      · omega
  rw [e, SparseCore.bigSep_insert' (by simp)]

theorem lower_zero (Φ : Fin N → sProp M) : bigSep (Finset.univ.filter fun t : Fin N => t.val < 0) Φ = iprop(emp) := by
  have e : (Finset.univ.filter fun t : Fin N => t.val < 0) = ∅ := by
    ext t; simp
  rw [e, bigSep_empty]; rfl

theorem upper_zero (Φ : Fin N → sProp M) : bigSep (Finset.univ.filter fun t : Fin N => 0 ≤ t.val) Φ = bigSep Finset.univ Φ := by
  have e : (Finset.univ.filter fun t : Fin N => 0 ≤ t.val) = Finset.univ := by
    ext t; simp
  rw [e]

theorem lower_all (Φ : Fin N → sProp M) : bigSep (Finset.univ.filter fun t : Fin N => t.val < N) Φ = bigSep Finset.univ Φ := by
  have e : (Finset.univ.filter fun t : Fin N => t.val < N) = Finset.univ := by
    ext t; simp
  rw [e]

theorem upper_all (Φ : Fin N → sProp M) : bigSep (Finset.univ.filter fun t : Fin N => N ≤ t.val) Φ = iprop(emp) := by
  have e : (Finset.univ.filter fun t : Fin N => N ≤ t.val) = ∅ := by
    ext t; simp
  rw [e, bigSep_empty]; rfl

end Cert.SplitSep
-- ==== Proof.TileLin.lean ====
/-
  The two lines of the first loop, as functions. The loop runs 8 trips; trip c reads sixteen lanes of each of the 26
  staged index columns at word 16 · c of the column's 128-word block, gathers the 26 linear weights per lane, and stores
  the sixteen sums at word 16 · c of the linear line and sixteen zeros at word 16 · c of the zero line. After c trips the
  lines hold, below word 16 · c, the linear trip's lane and zero; a trip extends this by sixteen words.
-/
import proofs.«207464_g62843961475156_cont_9to1_m_1121_6_alg».proof.Proof.KerChunk
import proofs.«207464_g62843961475156_cont_9to1_m_1121_6_alg».proof.Proof.TaskIdx
import Idealize.ShloMosaic.Lib.Writes
import Idealize.ShloMosaic.Lib.ValueIdx

noncomputable section

namespace Cert.Proof.KTile

open Cert.KernelIdeal Cert.KernelIdeal.Gen Cert.KerValue Idealize.ShloMosaic

variable {F : FTy → Type} [FloatOps F]

/-- The first loop runs 8 trips. -/
theorem trips1 : k0_t1_loop.trips = 8 := by decide

/-- The whole padded linear table as a load of all of it reads it. -/
abbrev rd5 (g : Vec F S26112 .f32) : Vec F S26112 .f32 := View.readAt (Elt F) (Memref.whole cc0_scratch5 : Memref sig .scVector .vmem S26112 .f32).view (LoadRect.whole S26112) g

/-- The sixteen lanes of each of the 26 staged columns that trip `c` reads. -/
def cols6 (g : Vec F S3328 .i32) (c : Fin k0_t1_loop.trips) : Fin 26 → Vec F S16 .i32 :=
  ![View.readAt (Elt F) (Memref.whole cc0_scratch6 : Memref sig .scVector .vmem S3328 .i32).view (Rect.unit (s := S3328) (k0_off2 c) S16.size (k0_off2_inb c)).toLoadRect g,
    View.readAt (Elt F) (Memref.whole cc0_scratch6 : Memref sig .scVector .vmem S3328 .i32).view (Rect.unit (s := S3328) (k0_off3 c) S16.size (k0_off3_inb c)).toLoadRect g,
    View.readAt (Elt F) (Memref.whole cc0_scratch6 : Memref sig .scVector .vmem S3328 .i32).view (Rect.unit (s := S3328) (k0_off4 c) S16.size (k0_off4_inb c)).toLoadRect g,
    View.readAt (Elt F) (Memref.whole cc0_scratch6 : Memref sig .scVector .vmem S3328 .i32).view (Rect.unit (s := S3328) (k0_off5 c) S16.size (k0_off5_inb c)).toLoadRect g,
    View.readAt (Elt F) (Memref.whole cc0_scratch6 : Memref sig .scVector .vmem S3328 .i32).view (Rect.unit (s := S3328) (k0_off6 c) S16.size (k0_off6_inb c)).toLoadRect g,
    View.readAt (Elt F) (Memref.whole cc0_scratch6 : Memref sig .scVector .vmem S3328 .i32).view (Rect.unit (s := S3328) (k0_off7 c) S16.size (k0_off7_inb c)).toLoadRect g,
    View.readAt (Elt F) (Memref.whole cc0_scratch6 : Memref sig .scVector .vmem S3328 .i32).view (Rect.unit (s := S3328) (k0_off8 c) S16.size (k0_off8_inb c)).toLoadRect g,
    View.readAt (Elt F) (Memref.whole cc0_scratch6 : Memref sig .scVector .vmem S3328 .i32).view (Rect.unit (s := S3328) (k0_off9 c) S16.size (k0_off9_inb c)).toLoadRect g,
    View.readAt (Elt F) (Memref.whole cc0_scratch6 : Memref sig .scVector .vmem S3328 .i32).view (Rect.unit (s := S3328) (k0_off10 c) S16.size (k0_off10_inb c)).toLoadRect g,
    View.readAt (Elt F) (Memref.whole cc0_scratch6 : Memref sig .scVector .vmem S3328 .i32).view (Rect.unit (s := S3328) (k0_off11 c) S16.size (k0_off11_inb c)).toLoadRect g,
    View.readAt (Elt F) (Memref.whole cc0_scratch6 : Memref sig .scVector .vmem S3328 .i32).view (Rect.unit (s := S3328) (k0_off12 c) S16.size (k0_off12_inb c)).toLoadRect g,
    View.readAt (Elt F) (Memref.whole cc0_scratch6 : Memref sig .scVector .vmem S3328 .i32).view (Rect.unit (s := S3328) (k0_off13 c) S16.size (k0_off13_inb c)).toLoadRect g,
    View.readAt (Elt F) (Memref.whole cc0_scratch6 : Memref sig .scVector .vmem S3328 .i32).view (Rect.unit (s := S3328) (k0_off14 c) S16.size (k0_off14_inb c)).toLoadRect g,
    View.readAt (Elt F) (Memref.whole cc0_scratch6 : Memref sig .scVector .vmem S3328 .i32).view (Rect.unit (s := S3328) (k0_off15 c) S16.size (k0_off15_inb c)).toLoadRect g,
    View.readAt (Elt F) (Memref.whole cc0_scratch6 : Memref sig .scVector .vmem S3328 .i32).view (Rect.unit (s := S3328) (k0_off16 c) S16.size (k0_off16_inb c)).toLoadRect g,
    View.readAt (Elt F) (Memref.whole cc0_scratch6 : Memref sig .scVector .vmem S3328 .i32).view (Rect.unit (s := S3328) (k0_off17 c) S16.size (k0_off17_inb c)).toLoadRect g,
    View.readAt (Elt F) (Memref.whole cc0_scratch6 : Memref sig .scVector .vmem S3328 .i32).view (Rect.unit (s := S3328) (k0_off18 c) S16.size (k0_off18_inb c)).toLoadRect g,
    View.readAt (Elt F) (Memref.whole cc0_scratch6 : Memref sig .scVector .vmem S3328 .i32).view (Rect.unit (s := S3328) (k0_off19 c) S16.size (k0_off19_inb c)).toLoadRect g,
    View.readAt (Elt F) (Memref.whole cc0_scratch6 : Memref sig .scVector .vmem S3328 .i32).view (Rect.unit (s := S3328) (k0_off20 c) S16.size (k0_off20_inb c)).toLoadRect g,
    View.readAt (Elt F) (Memref.whole cc0_scratch6 : Memref sig .scVector .vmem S3328 .i32).view (Rect.unit (s := S3328) (k0_off21 c) S16.size (k0_off21_inb c)).toLoadRect g,
    View.readAt (Elt F) (Memref.whole cc0_scratch6 : Memref sig .scVector .vmem S3328 .i32).view (Rect.unit (s := S3328) (k0_off22 c) S16.size (k0_off22_inb c)).toLoadRect g,
    View.readAt (Elt F) (Memref.whole cc0_scratch6 : Memref sig .scVector .vmem S3328 .i32).view (Rect.unit (s := S3328) (k0_off23 c) S16.size (k0_off23_inb c)).toLoadRect g,
    View.readAt (Elt F) (Memref.whole cc0_scratch6 : Memref sig .scVector .vmem S3328 .i32).view (Rect.unit (s := S3328) (k0_off24 c) S16.size (k0_off24_inb c)).toLoadRect g,
    View.readAt (Elt F) (Memref.whole cc0_scratch6 : Memref sig .scVector .vmem S3328 .i32).view (Rect.unit (s := S3328) (k0_off25 c) S16.size (k0_off25_inb c)).toLoadRect g,
    View.readAt (Elt F) (Memref.whole cc0_scratch6 : Memref sig .scVector .vmem S3328 .i32).view (Rect.unit (s := S3328) (k0_off26 c) S16.size (k0_off26_inb c)).toLoadRect g,
    View.readAt (Elt F) (Memref.whole cc0_scratch6 : Memref sig .scVector .vmem S3328 .i32).view (Rect.unit (s := S3328) (k0_off27 c) S16.size (k0_off27_inb c)).toLoadRect g]

theorem cols6_le (g : Vec F S3328 .i32) (h : ∀ y, (g y).toNat ≤ 999) (c : Fin k0_t1_loop.trips) :
    ∀ f x, (cols6 (F := F) g c f x).toNat ≤ 999 := by
  intro f
  fin_cases f <;> exact fun _ => h _

/-- What trip `c` stores into the linear line. -/
def linAt (wl : Vec F S26112 .f32) (g6 : Vec F S3328 .i32) (h6 : ∀ y, (g6 y).toNat ≤ 999) (c : Fin k0_t1_loop.trips) :
    FVec F S16 .f32 :=
  linChunk (rd5 wl) (cols6 g6 c) (cols6_le g6 h6 c)

/-- The trip that writes word `y` of a 128-word line, and the word's lane in that trip. -/
def cOf1 (y : S128.Idx) : Fin k0_t1_loop.trips :=
  ⟨(y 0).val / 16, by have h : (y 0).val < 128 := (y 0).isLt; rw [trips1]; omega⟩
def laneOf1 (y : S128.Idx) : S16.Idx := ValueIdx.ix1 ⟨(y 0).val % 16, Nat.mod_lt _ (by omega)⟩

/-- The whole linear line and the whole zero line. -/
def linLine (wl : Vec F S26112 .f32) (g6 : Vec F S3328 .i32) (h6 : ∀ y, (g6 y).toNat ≤ 999) : Vec F S128 .f32 :=
  fun y => linAt wl g6 h6 (cOf1 y) (laneOf1 y)
def zeroLine : Vec F S128 .f32 := fun y => k0_pay108 (F := F) (laneOf1 y)

/-- Word `x` of trip `c`'s piece of a line is word `16 · c + x`. -/
theorem piece1_val (c : Fin k0_t1_loop.trips) (x : S16.Idx) :
    (((Rect.unit (s := S128) (k0_off28 c) S16.size (k0_off28_inb c)).emb x) 0 : Nat) = 16 * c.val + (x 0).val := by
  rw [Rect.emb_apply]
  show k0_off28 c 0 + 1 * (x 0).val = _
  rw [k0_off28_eq]
  show 16 * c.val + 1 * (x 0).val = _
  omega

/-- One trip extends the part of the linear line that is done by its sixteen words. -/
theorem linLine_step (wl : Vec F S26112 .f32) (g6 : Vec F S3328 .i32) (h6 : ∀ y, (g6 y).toNat ≤ 999) (g : Vec F S128 .f32)
    (c : Fin k0_t1_loop.trips) (hI : ∀ y : S128.Idx, (y 0).val < 16 * c.val → g y = linLine wl g6 h6 y) :
    ∀ y : S128.Idx, (y 0).val < 16 * (c.val + 1) →
      ((Memref.whole cc0_scratch7 : Memref sig .scVector .vmem S128 .f32).view).writes (Elt F) g [⟨Rect.unit (s := S128) (k0_off28 c) S16.size (k0_off28_inb c), linAt wl g6 h6 c⟩] y
        = linLine wl g6 h6 y := by
  intro y hy
  by_cases hm : y ∈ (Rect.unit (s := S128) (k0_off28 c) S16.size (k0_off28_inb c)).set
  · obtain ⟨x, rfl⟩ : ∃ x, (Rect.unit (s := S128) (k0_off28 c) S16.size (k0_off28_inb c)).emb x = y :=
      (Rect.unit (s := S128) (k0_off28 c) S16.size (k0_off28_inb c)).exists_idx_of_mem hm
    have hx : (x 0).val < 16 := (x 0).isLt
    have e := piece1_val c x
    have hw := View.read_writes_cons_emb ((Memref.whole cc0_scratch7 : Memref sig .scVector .vmem S128 .f32).view) g (Rect.unit (s := S128) (k0_off28 c) S16.size (k0_off28_inb c))
      (linAt wl g6 h6 c) [] x
    simp only [Memref.view_whole, View.read_whole] at hw
    simp only [Memref.view_whole]
    refine hw.trans ?_
    unfold linLine
    have hc : cOf1 ((Rect.unit (s := S128) (k0_off28 c) S16.size (k0_off28_inb c)).emb x) = c :=
      Fin.ext (by show _ / 16 = c.val; rw [e]; omega)
    have hl : laneOf1 ((Rect.unit (s := S128) (k0_off28 c) S16.size (k0_off28_inb c)).emb x) = x := by
      funext a; apply Fin.ext
      match a with
      | ⟨0, _⟩ => show _ % 16 = (x 0).val; rw [e]; omega
    rw [hc, hl]
  · have hlt : (y 0).val < 16 * c.val := by
      by_contra hge
      refine hm (Rect.mem_set_unit.mpr fun a => ?_)
      match a with
      | ⟨0, _⟩ =>
        show k0_off28 c 0 ≤ (y 0).val ∧ (y 0).val < k0_off28 c 0 + 16
        rw [k0_off28_eq]
        show 16 * c.val ≤ (y 0).val ∧ (y 0).val < 16 * c.val + 16
        omega
    have hw := View.read_writes_apply_of_forall_not_mem ((Memref.whole cc0_scratch7 : Memref sig .scVector .vmem S128 .f32).view) g y
      [⟨Rect.unit (s := S128) (k0_off28 c) S16.size (k0_off28_inb c), linAt wl g6 h6 c⟩] (fun p hp => by
        rcases List.mem_singleton.mp hp with rfl
        exact hm)
    simp only [Memref.view_whole, View.read_whole] at hw
    simp only [Memref.view_whole]
    exact hw.trans (hI y hlt)

/-- One trip extends the part of the zero line that is done by its sixteen words. -/
theorem zeroLine_step (g : Vec F S128 .f32) (c : Fin k0_t1_loop.trips)
    (hI : ∀ y : S128.Idx, (y 0).val < 16 * c.val → g y = zeroLine (F := F) y) :
    ∀ y : S128.Idx, (y 0).val < 16 * (c.val + 1) →
      ((Memref.whole cc0_scratch8 : Memref sig .scVector .vmem S128 .f32).view).writes (Elt F) g [⟨Rect.unit (s := S128) (k0_off28 c) S16.size (k0_off28_inb c), k0_pay108 (F := F)⟩] y
        = zeroLine (F := F) y := by
  intro y hy
  by_cases hm : y ∈ (Rect.unit (s := S128) (k0_off28 c) S16.size (k0_off28_inb c)).set
  · obtain ⟨x, rfl⟩ : ∃ x, (Rect.unit (s := S128) (k0_off28 c) S16.size (k0_off28_inb c)).emb x = y :=
      (Rect.unit (s := S128) (k0_off28 c) S16.size (k0_off28_inb c)).exists_idx_of_mem hm
    have hx : (x 0).val < 16 := (x 0).isLt
    have e := piece1_val c x
    have hw := View.read_writes_cons_emb ((Memref.whole cc0_scratch8 : Memref sig .scVector .vmem S128 .f32).view) g (Rect.unit (s := S128) (k0_off28 c) S16.size (k0_off28_inb c))
      (k0_pay108 (F := F)) [] x
    simp only [Memref.view_whole, View.read_whole] at hw
    simp only [Memref.view_whole]
    refine hw.trans ?_
    unfold zeroLine
    have hc : cOf1 ((Rect.unit (s := S128) (k0_off28 c) S16.size (k0_off28_inb c)).emb x) = c :=
      Fin.ext (by show _ / 16 = c.val; rw [e]; omega)
    have hl : laneOf1 ((Rect.unit (s := S128) (k0_off28 c) S16.size (k0_off28_inb c)).emb x) = x := by
      funext a; apply Fin.ext
      match a with
      | ⟨0, _⟩ => show _ % 16 = (x 0).val; rw [e]; omega
    show k0_pay108 (F := F) x = k0_pay108 (F := F) (laneOf1 _)
    rw [hl]
  · have hlt : (y 0).val < 16 * c.val := by
      by_contra hge
      refine hm (Rect.mem_set_unit.mpr fun a => ?_)
      match a with
      | ⟨0, _⟩ =>
        show k0_off28 c 0 ≤ (y 0).val ∧ (y 0).val < k0_off28 c 0 + 16
        rw [k0_off28_eq]
        show 16 * c.val ≤ (y 0).val ∧ (y 0).val < 16 * c.val + 16
        omega
    have hw := View.read_writes_apply_of_forall_not_mem ((Memref.whole cc0_scratch8 : Memref sig .scVector .vmem S128 .f32).view) g y
      [⟨Rect.unit (s := S128) (k0_off28 c) S16.size (k0_off28_inb c), k0_pay108 (F := F)⟩] (fun p hp => by
        rcases List.mem_singleton.mp hp with rfl
        exact hm)
    simp only [Memref.view_whole, View.read_whole] at hw
    simp only [Memref.view_whole]
    exact hw.trans (hI y hlt)

/-- One trip extends the part of a 128-word line that agrees with a target function `T` by its sixteen words, when
    the trip's payload is `T` on them. -/
theorem line7_step (P : FVec F S16 .f32) (T : Vec F S128 .f32) (g : Vec F S128 .f32) (c : Fin k0_t1_loop.trips)
    (hP : ∀ x : S16.Idx, P x = T ((Rect.unit (s := S128) (k0_off28 c) S16.size (k0_off28_inb c)).emb x))
    (hI : ∀ y : S128.Idx, (y 0).val < 16 * c.val → g y = T y) :
    ∀ y : S128.Idx, (y 0).val < 16 * (c.val + 1) →
      ((Memref.whole cc0_scratch7 : Memref sig .scVector .vmem S128 .f32).view).writes (Elt F) g [⟨Rect.unit (s := S128) (k0_off28 c) S16.size (k0_off28_inb c), P⟩] y = T y := by
  intro y hy
  by_cases hm : y ∈ (Rect.unit (s := S128) (k0_off28 c) S16.size (k0_off28_inb c)).set
  · obtain ⟨x, rfl⟩ : ∃ x, (Rect.unit (s := S128) (k0_off28 c) S16.size (k0_off28_inb c)).emb x = y :=
      (Rect.unit (s := S128) (k0_off28 c) S16.size (k0_off28_inb c)).exists_idx_of_mem hm
    have hw := View.read_writes_cons_emb ((Memref.whole cc0_scratch7 : Memref sig .scVector .vmem S128 .f32).view) g (Rect.unit (s := S128) (k0_off28 c) S16.size (k0_off28_inb c)) P [] x
    simp only [Memref.view_whole, View.read_whole] at hw
    simp only [Memref.view_whole]
    exact hw.trans (hP x)
  · have hlt : (y 0).val < 16 * c.val := by
      by_contra hge
      refine hm (Rect.mem_set_unit.mpr fun a => ?_)
      match a with
      | ⟨0, _⟩ =>
        show k0_off28 c 0 ≤ (y 0).val ∧ (y 0).val < k0_off28 c 0 + 16
        rw [k0_off28_eq]
        show 16 * c.val ≤ (y 0).val ∧ (y 0).val < 16 * c.val + 16
        omega
    have hw := View.read_writes_apply_of_forall_not_mem ((Memref.whole cc0_scratch7 : Memref sig .scVector .vmem S128 .f32).view) g y
      [⟨Rect.unit (s := S128) (k0_off28 c) S16.size (k0_off28_inb c), P⟩] (fun p hp => by
        rcases List.mem_singleton.mp hp with rfl
        exact hm)
    simp only [Memref.view_whole, View.read_whole] at hw
    simp only [Memref.view_whole]
    exact hw.trans (hI y hlt)

/-- One trip extends the part of a 128-word line that agrees with a target function `T` by its sixteen words, when
    the trip's payload is `T` on them. -/
theorem line8_step (P : FVec F S16 .f32) (T : Vec F S128 .f32) (g : Vec F S128 .f32) (c : Fin k0_t1_loop.trips)
    (hP : ∀ x : S16.Idx, P x = T ((Rect.unit (s := S128) (k0_off28 c) S16.size (k0_off28_inb c)).emb x))
    (hI : ∀ y : S128.Idx, (y 0).val < 16 * c.val → g y = T y) :
    ∀ y : S128.Idx, (y 0).val < 16 * (c.val + 1) →
      ((Memref.whole cc0_scratch8 : Memref sig .scVector .vmem S128 .f32).view).writes (Elt F) g [⟨Rect.unit (s := S128) (k0_off28 c) S16.size (k0_off28_inb c), P⟩] y = T y := by
  intro y hy
  by_cases hm : y ∈ (Rect.unit (s := S128) (k0_off28 c) S16.size (k0_off28_inb c)).set
  · obtain ⟨x, rfl⟩ : ∃ x, (Rect.unit (s := S128) (k0_off28 c) S16.size (k0_off28_inb c)).emb x = y :=
      (Rect.unit (s := S128) (k0_off28 c) S16.size (k0_off28_inb c)).exists_idx_of_mem hm
    have hw := View.read_writes_cons_emb ((Memref.whole cc0_scratch8 : Memref sig .scVector .vmem S128 .f32).view) g (Rect.unit (s := S128) (k0_off28 c) S16.size (k0_off28_inb c)) P [] x
    simp only [Memref.view_whole, View.read_whole] at hw
    simp only [Memref.view_whole]
    exact hw.trans (hP x)
  · have hlt : (y 0).val < 16 * c.val := by
      by_contra hge
      refine hm (Rect.mem_set_unit.mpr fun a => ?_)
      match a with
      | ⟨0, _⟩ =>
        show k0_off28 c 0 ≤ (y 0).val ∧ (y 0).val < k0_off28 c 0 + 16
        rw [k0_off28_eq]
        show 16 * c.val ≤ (y 0).val ∧ (y 0).val < 16 * c.val + 16
        omega
    have hw := View.read_writes_apply_of_forall_not_mem ((Memref.whole cc0_scratch8 : Memref sig .scVector .vmem S128 .f32).view) g y
      [⟨Rect.unit (s := S128) (k0_off28 c) S16.size (k0_off28_inb c), P⟩] (fun p hp => by
        rcases List.mem_singleton.mp hp with rfl
        exact hm)
    simp only [Memref.view_whole, View.read_whole] at hw
    simp only [Memref.view_whole]
    exact hw.trans (hI y hlt)

/-- Where word `y` of the staged index chunk comes from: field `y / 128`, batch element `128 · wid + y mod 128`. -/
def stagedIdx (L : grid0.Coords) (y : S3328.Idx) : S106496.Idx :=
  ValueIdx.ix1 ⟨4096 * ((y 0).val / 128) + 128 * Cert.KernelIdeal.Tasks.wid L + (y 0).val % 128, by
    have h : (y 0).val < 3328 := (y 0).isLt
    have hw := Cert.KernelIdeal.Tasks.wid_lt L
    omega⟩

/-- The staged index chunk holds the subcore's 128 batch elements of each of the 26 columns. -/
def StagedFact (fxt : Vec F S106496 .i32) (L : grid0.Coords) (g6 : Vec F S3328 .i32) : Prop :=
  ∀ y : S3328.Idx, g6 y = fxt (stagedIdx L y)

theorem StagedFact.le {fxt : Vec F S106496 .i32} {L : grid0.Coords} {g6 : Vec F S3328 .i32} (h : StagedFact fxt L g6)
    (hxt : ∀ y, (fxt y).toNat ≤ 999) : ∀ y, (g6 y).toNat ≤ 999 := fun y => by rw [h y]; exact hxt _

/-- Word `x` of trip `c`'s piece of the linear line is lane `x` of what the trip stores. -/
theorem linLine_emb (wl : Vec F S26112 .f32) (g6 : Vec F S3328 .i32) (h6 : ∀ y, (g6 y).toNat ≤ 999)
    (c : Fin k0_t1_loop.trips) (x : S16.Idx) :
    linLine wl g6 h6 ((Rect.unit (s := S128) (k0_off28 c) S16.size (k0_off28_inb c)).emb x) = linAt wl g6 h6 c x := by
  unfold linLine
  have e := piece1_val c x
  have hx : (x 0).val < 16 := (x 0).isLt
  have hc : cOf1 ((Rect.unit (s := S128) (k0_off28 c) S16.size (k0_off28_inb c)).emb x) = c :=
    Fin.ext (by show _ / 16 = c.val; rw [e]; omega)
  have hl : laneOf1 ((Rect.unit (s := S128) (k0_off28 c) S16.size (k0_off28_inb c)).emb x) = x := by
    funext a; apply Fin.ext
    match a with
    | ⟨0, _⟩ => show _ % 16 = (x 0).val; rw [e]; omega
  rw [hc, hl]

/-- Word `x` of trip `c`'s piece of the zero line is the zero line there. -/
theorem zero_emb (c : Fin k0_t1_loop.trips) (x : S16.Idx) :
    k0_pay108 (F := F) x = zeroLine (F := F) ((Rect.unit (s := S128) (k0_off28 c) S16.size (k0_off28_inb c)).emb x) := by
  unfold zeroLine
  have e := piece1_val c x
  have hx : (x 0).val < 16 := (x 0).isLt
  have hl : laneOf1 ((Rect.unit (s := S128) (k0_off28 c) S16.size (k0_off28_inb c)).emb x) = x := by
    funext a; apply Fin.ext
    match a with
    | ⟨0, _⟩ => show _ % 16 = (x 0).val; rw [e]; omega
  rw [hl]

end Cert.Proof.KTile

end
-- ==== Proof.StagedChunk.lean ====
/-
  The staged index chunk of a subcore, read back. After its 26 copies the 3328-word scratch line holds, at word
  128 f + j, the index word of field f for the subcore's j-th batch row: word 4096 f + 128 w + j of the transposed
  index array, w the subcore's number. A 16-word load at 128 f + 16 c of that line is then the chunk 8 w + c of
  column f of the index array.
-/
import Idealize.ShloMosaic.Lib.ValueIdx
import proofs.«207464_g62843961475156_cont_9to1_m_1121_6_alg».proof.Proof.PartOf

noncomputable section

namespace Cert.KerValue

open Cert.KernelIdeal Cert.KernelIdeal.Gen Idealize.ShloMosaic Idealize.ShloMosaic.ValueIdx

variable {F : FTy → Type} [FloatOps F]

/-- The word of the transposed index array that lands at word `y` of subcore `w`'s staged line. -/
def stagedSrc (w : Nat) (hw : w < 32) (y : S3328.Idx) : S106496.Idx :=
  ix1 ⟨4096 * ((y 0).val / 128) + 128 * w + (y 0).val % 128, by
    have h : (y 0).val < 3328 := (y 0).isLt
    omega⟩

/-- A 16-word load of the staged line at `128 f + 16 c` is chunk `8 w + c` of column `f`. -/
theorem staged_load (fxt : Vec F S106496 .i32) (f6 : Vec F S3328 .i32) (w : Nat) (hw : w < 32)
    (hf6 : ∀ y, f6 y = fxt (stagedSrc w hw y)) (f : Fin 26) (c : Fin 8)
    (off : Fin 1 → Nat) (inb : ∀ a, off a + S16.size a ≤ S3328.size a) (hoff : off 0 = 16 * c.val + 128 * f.val)
    (x : S16.Idx) :
    f6 ((Rect.unit (s := S3328) off S16.size inb).toLoadRect.idx x)
      = colChunk fxt f ⟨8 * w + c.val, by have := c.isLt; omega⟩ x := by
  rw [hf6]
  unfold colChunk stagedSrc
  congr 1
  funext a
  match a with
  | ⟨0, _⟩ =>
    apply Fin.ext
    have hx : (x 0).val < 16 := (x 0).isLt
    have hc := c.isLt
    have hf := f.isLt
    show 4096 * ((off 0 + 1 * (x 0).val) / 128) + 128 * w + (off 0 + 1 * (x 0).val) % 128 = 4096 * f.val + 16 * (8 * w + c.val) + (x 0).val
    rw [hoff]
    have e1 : (16 * c.val + 128 * f.val + 1 * (x 0).val) / 128 = f.val := by omega
    have e2 : (16 * c.val + 128 * f.val + 1 * (x 0).val) % 128 = 16 * c.val + (x 0).val := by omega
    rw [e1, e2]
    omega

end Cert.KerValue

end
-- ==== Proof.LibReadBackIdx.lean ====
/-
  A buffer written by slice stores, read back under a predicate that may depend on the index. If every store's
  payload satisfies P at the buffer index each of its words lands on, then the buffer satisfies P at every index some
  store covers. With P y w := (w = g y) this names the written buffer's contents word by word.
-/
import Idealize.ShloMosaic.Lib.Pipeline.Value
import Idealize.ShloMosaic.Lib.Pipeline.FrameBody

noncomputable section

namespace Cert.ReadBackIdx

open Idealize.ShloMosaic Idealize.ShloMosaic.View

variable {Val : EltTy → Type} {S : Shape} {e : EltTy}

/-- The canonical function of a list of pieces satisfies `P y` at every covered `y`, if every payload does where it lands. -/
theorem canon_all_idx [∀ e, Nonempty (Val e)] (P : S.Idx → Val e → Prop) :
    ∀ (L : List (Piece Val S e)) (_ : ∀ p ∈ L, ∀ x : p.1.shape.Idx, P (p.1.emb x) (p.2 x)) (y : S.Idx)
      (_ : ∃ p ∈ L, y ∈ p.1.set), P y (canon L y)
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, canon_cons_emb]
      exact hL p (by simp) x
    · rw [canon_cons_of_not_mem _ _ hm]
      refine canon_all_idx P L (fun q hq => hL q (by simp [hq])) y ?_
      obtain ⟨q, hq, hyq⟩ := hy
      rcases List.mem_cons.mp hq with rfl | hq'
      · exact absurd hyq hm
      · exact ⟨q, hq', hyq⟩

/-- Read back through the view: the writes over any start contents, where the pieces cover every index. -/
theorem read_writes_all_idx [∀ e, Nonempty (Val e)] {sig : RefSig} {κ : Kind} {sp : Space} (v : View sig κ sp S e)
    (f : v.ty.Contents Val) (L : List (Piece Val S e)) (hc : ∀ y, ∃ p ∈ L, y ∈ p.1.set) (P : S.Idx → Val e → Prop)
    (hL : ∀ p ∈ L, ∀ x : p.1.shape.Idx, P (p.1.emb x) (p.2 x)) (y : S.Idx) : P y (v.read Val (v.writes Val f L) y) := by
  rw [read_writes_eq_canon v f L hc]
  exact canon_all_idx P L hL y (hc y)

/-- The same for a whole buffer's own view, whose read is the contents themselves. -/
theorem whole_writes_all_idx [∀ e, Nonempty (Val e)] {sig : RefSig} {κ : Kind} (b : Ref sig κ) (f : b.ty.Contents Val)
    (Lp : List (Piece Val b.ty.shape b.ty.elt)) (hc : ∀ y, ∃ p ∈ Lp, y ∈ p.1.set) (P : b.ty.shape.Idx → Val b.ty.elt → Prop)
    (hL : ∀ p ∈ Lp, ∀ x : p.1.shape.Idx, P (p.1.emb x) (p.2 x)) (y : b.ty.shape.Idx) :
    P y ((Memref.whole b).view.writes Val f Lp y) :=
  read_writes_all_idx (Memref.whole b).view f Lp hc P hL y

end Cert.ReadBackIdx

end
-- ==== Proof.StagedCols.lean ====
/-
  The first loop's reads, named. The staged line of a subcore holds at word y the word 4096·(y div 128) + 128·w +
  y mod 128 of the transposed index array (w the subcore's number): each of the 26 copied blocks lands one block of 128
  consecutive words of one column. So the 26 sixteen-word loads of trip c are the chunks 8·w + c of the 26 columns, and
  the 128-word line of linear sums the loop leaves is the linear row of the partial-sum array at the subcore's 128
  batch elements.
-/
import proofs.«207464_g62843961475156_cont_9to1_m_1121_6_alg».proof.Proof.TileLin
import proofs.«207464_g62843961475156_cont_9to1_m_1121_6_alg».proof.Proof.StagedChunk
import proofs.«207464_g62843961475156_cont_9to1_m_1121_6_alg».proof.Proof.LibReadBackIdx
import proofs.«207464_g62843961475156_cont_9to1_m_1121_6_alg».proof.Proof.Cover6
import proofs.«207464_g62843961475156_cont_9to1_m_1121_6_alg».proof.Proof.TaskIdx
import proofs.«207464_g62843961475156_cont_9to1_m_1121_6_alg».proof.Proof.PartOf

noncomputable section

namespace Cert.Proof.KTile

open Cert.KernelIdeal Cert.KernelIdeal.Gen Cert.KernelIdeal.Tasks Cert.KerValue Idealize.ShloMosaic Idealize.ShloMosaic.ValueIdx

variable {F : FTy → Type} [FloatOps F]

theorem lt8 (c : Fin k0_t1_loop.trips) : c.val < 8 := lt_of_lt_of_eq c.isLt trips1

/-- The block copied for field `f` lands, word by word, where the staged line expects it. -/
theorem stage_piece (fxt : Vec F S106496 .i32) (L : grid0.Coords) (f : Fin 26)
    (inb : ∀ a, (![128 * f.val] : Fin 1 → Nat) a + S128.size a ≤ S3328.size a) (x : S128.Idx) :
    View.read (Elt F) ((Memref.whole main_v1_scv : Memref sig .scVector .hbm S106496 .i32).slice
        (Rect.unit (s := S106496) (k0_off1 L (BitVec.ofNat 32 (4096 * f.val))) S128.size (k0_off1_inb L f)) (fun _ => rfl)).view fxt x
      = fxt (stagedSrc (wid L) (wid_lt L) ((Rect.unit (s := S3328) ![128 * f.val] S128.size inb).emb x)) := by
  unfold stagedSrc
  refine congrArg fxt (funext fun a => Fin.ext ?_)
  match a with
  | ⟨0, _⟩ =>
    show k0_off1 L (BitVec.ofNat 32 (4096 * f.val)) 0 + 1 * (x 0).val
      = 4096 * ((128 * f.val + 1 * (x 0).val) / 128) + 128 * wid L + (128 * f.val + 1 * (x 0).val) % 128
    rw [k0_off1_eq]
    show 4096 * f.val + 256 * (L 1).val + 128 * (L 0).val + 1 * (x 0).val = _
    have hx : (x 0).val < 128 := (x 0).isLt
    unfold wid
    omega

/-- A staged line written by pieces over the 26 blocks, each payload landing where expected, is the expected line. -/
theorem staged_contents (fxt : Vec F S106496 .i32) (L : grid0.Coords) (f0 : Vec F S3328 .i32)
    (Lp : List (View.Piece (Elt F) S3328 .i32)) (hrect : Lp.map (fun p => p.1) = Cert.Cover6.blks)
    (hpay : ∀ p ∈ Lp, ∀ x : p.1.shape.Idx, p.2 x = fxt (stagedSrc (wid L) (wid_lt L) (p.1.emb x))) (y : S3328.Idx) :
    (Memref.whole cc0_scratch6 : Memref sig .scVector .vmem S3328 .i32).view.writes (Elt F) f0 Lp y
      = fxt (stagedSrc (wid L) (wid_lt L) y) :=
  Cert.ReadBackIdx.whole_writes_all_idx (Val := Elt F) cc0_scratch6 f0 Lp (Cert.Cover6.cover Lp hrect)
    (fun y w => w = fxt (stagedSrc (wid L) (wid_lt L) y)) hpay y

/-- Trip `c`'s 26 loads are the chunks `8·w + c` of the 26 columns. -/
theorem cols6_eq (fxt : Vec F S106496 .i32) (L : grid0.Coords) (g6 : Vec F S3328 .i32)
    (hf6 : ∀ y, g6 y = fxt (stagedSrc (wid L) (wid_lt L) y)) (c : Fin k0_t1_loop.trips) (f : Fin 26) :
    cols6 g6 c f = colChunk fxt f ⟨8 * wid L + c.val, by have := lt8 c; have := wid_lt L; omega⟩ := by
  fin_cases f
  · funext x
    exact Cert.KerValue.staged_load fxt g6 (wid L) (wid_lt L) hf6 ⟨0, by omega⟩ ⟨c.val, lt8 c⟩ (k0_off2 c) (k0_off2_inb c)
      (by rw [k0_off2_eq]; show 16 * c.val = 16 * c.val + 128 * 0; omega) x
  · funext x
    exact Cert.KerValue.staged_load fxt g6 (wid L) (wid_lt L) hf6 ⟨1, by omega⟩ ⟨c.val, lt8 c⟩ (k0_off3 c) (k0_off3_inb c)
      (by rw [k0_off3_eq]; show 16 * c.val + 128 = 16 * c.val + 128 * 1; omega) x
  · funext x
    exact Cert.KerValue.staged_load fxt g6 (wid L) (wid_lt L) hf6 ⟨2, by omega⟩ ⟨c.val, lt8 c⟩ (k0_off4 c) (k0_off4_inb c)
      (by rw [k0_off4_eq]; show 16 * c.val + 256 = 16 * c.val + 128 * 2; omega) x
  · funext x
    exact Cert.KerValue.staged_load fxt g6 (wid L) (wid_lt L) hf6 ⟨3, by omega⟩ ⟨c.val, lt8 c⟩ (k0_off5 c) (k0_off5_inb c)
      (by rw [k0_off5_eq]; show 16 * c.val + 384 = 16 * c.val + 128 * 3; omega) x
  · funext x
    exact Cert.KerValue.staged_load fxt g6 (wid L) (wid_lt L) hf6 ⟨4, by omega⟩ ⟨c.val, lt8 c⟩ (k0_off6 c) (k0_off6_inb c)
      (by rw [k0_off6_eq]; show 16 * c.val + 512 = 16 * c.val + 128 * 4; omega) x
  · funext x
    exact Cert.KerValue.staged_load fxt g6 (wid L) (wid_lt L) hf6 ⟨5, by omega⟩ ⟨c.val, lt8 c⟩ (k0_off7 c) (k0_off7_inb c)
      (by rw [k0_off7_eq]; show 16 * c.val + 640 = 16 * c.val + 128 * 5; omega) x
  · funext x
    exact Cert.KerValue.staged_load fxt g6 (wid L) (wid_lt L) hf6 ⟨6, by omega⟩ ⟨c.val, lt8 c⟩ (k0_off8 c) (k0_off8_inb c)
      (by rw [k0_off8_eq]; show 16 * c.val + 768 = 16 * c.val + 128 * 6; omega) x
  · funext x
    exact Cert.KerValue.staged_load fxt g6 (wid L) (wid_lt L) hf6 ⟨7, by omega⟩ ⟨c.val, lt8 c⟩ (k0_off9 c) (k0_off9_inb c)
      (by rw [k0_off9_eq]; show 16 * c.val + 896 = 16 * c.val + 128 * 7; omega) x
  · funext x
    exact Cert.KerValue.staged_load fxt g6 (wid L) (wid_lt L) hf6 ⟨8, by omega⟩ ⟨c.val, lt8 c⟩ (k0_off10 c) (k0_off10_inb c)
      (by rw [k0_off10_eq]; show 16 * c.val + 1024 = 16 * c.val + 128 * 8; omega) x
  · funext x
    exact Cert.KerValue.staged_load fxt g6 (wid L) (wid_lt L) hf6 ⟨9, by omega⟩ ⟨c.val, lt8 c⟩ (k0_off11 c) (k0_off11_inb c)
      (by rw [k0_off11_eq]; show 16 * c.val + 1152 = 16 * c.val + 128 * 9; omega) x
  · funext x
    exact Cert.KerValue.staged_load fxt g6 (wid L) (wid_lt L) hf6 ⟨10, by omega⟩ ⟨c.val, lt8 c⟩ (k0_off12 c) (k0_off12_inb c)
      (by rw [k0_off12_eq]; show 16 * c.val + 1280 = 16 * c.val + 128 * 10; omega) x
  · funext x
    exact Cert.KerValue.staged_load fxt g6 (wid L) (wid_lt L) hf6 ⟨11, by omega⟩ ⟨c.val, lt8 c⟩ (k0_off13 c) (k0_off13_inb c)
      (by rw [k0_off13_eq]; show 16 * c.val + 1408 = 16 * c.val + 128 * 11; omega) x
  · funext x
    exact Cert.KerValue.staged_load fxt g6 (wid L) (wid_lt L) hf6 ⟨12, by omega⟩ ⟨c.val, lt8 c⟩ (k0_off14 c) (k0_off14_inb c)
      (by rw [k0_off14_eq]; show 16 * c.val + 1536 = 16 * c.val + 128 * 12; omega) x
  · funext x
    exact Cert.KerValue.staged_load fxt g6 (wid L) (wid_lt L) hf6 ⟨13, by omega⟩ ⟨c.val, lt8 c⟩ (k0_off15 c) (k0_off15_inb c)
      (by rw [k0_off15_eq]; show 16 * c.val + 1664 = 16 * c.val + 128 * 13; omega) x
  · funext x
    exact Cert.KerValue.staged_load fxt g6 (wid L) (wid_lt L) hf6 ⟨14, by omega⟩ ⟨c.val, lt8 c⟩ (k0_off16 c) (k0_off16_inb c)
      (by rw [k0_off16_eq]; show 16 * c.val + 1792 = 16 * c.val + 128 * 14; omega) x
  · funext x
    exact Cert.KerValue.staged_load fxt g6 (wid L) (wid_lt L) hf6 ⟨15, by omega⟩ ⟨c.val, lt8 c⟩ (k0_off17 c) (k0_off17_inb c)
      (by rw [k0_off17_eq]; show 16 * c.val + 1920 = 16 * c.val + 128 * 15; omega) x
  · funext x
    exact Cert.KerValue.staged_load fxt g6 (wid L) (wid_lt L) hf6 ⟨16, by omega⟩ ⟨c.val, lt8 c⟩ (k0_off18 c) (k0_off18_inb c)
      (by rw [k0_off18_eq]; show 16 * c.val + 2048 = 16 * c.val + 128 * 16; omega) x
  · funext x
    exact Cert.KerValue.staged_load fxt g6 (wid L) (wid_lt L) hf6 ⟨17, by omega⟩ ⟨c.val, lt8 c⟩ (k0_off19 c) (k0_off19_inb c)
      (by rw [k0_off19_eq]; show 16 * c.val + 2176 = 16 * c.val + 128 * 17; omega) x
  · funext x
    exact Cert.KerValue.staged_load fxt g6 (wid L) (wid_lt L) hf6 ⟨18, by omega⟩ ⟨c.val, lt8 c⟩ (k0_off20 c) (k0_off20_inb c)
      (by rw [k0_off20_eq]; show 16 * c.val + 2304 = 16 * c.val + 128 * 18; omega) x
  · funext x
    exact Cert.KerValue.staged_load fxt g6 (wid L) (wid_lt L) hf6 ⟨19, by omega⟩ ⟨c.val, lt8 c⟩ (k0_off21 c) (k0_off21_inb c)
      (by rw [k0_off21_eq]; show 16 * c.val + 2432 = 16 * c.val + 128 * 19; omega) x
  · funext x
    exact Cert.KerValue.staged_load fxt g6 (wid L) (wid_lt L) hf6 ⟨20, by omega⟩ ⟨c.val, lt8 c⟩ (k0_off22 c) (k0_off22_inb c)
      (by rw [k0_off22_eq]; show 16 * c.val + 2560 = 16 * c.val + 128 * 20; omega) x
  · funext x
    exact Cert.KerValue.staged_load fxt g6 (wid L) (wid_lt L) hf6 ⟨21, by omega⟩ ⟨c.val, lt8 c⟩ (k0_off23 c) (k0_off23_inb c)
      (by rw [k0_off23_eq]; show 16 * c.val + 2688 = 16 * c.val + 128 * 21; omega) x
  · funext x
    exact Cert.KerValue.staged_load fxt g6 (wid L) (wid_lt L) hf6 ⟨22, by omega⟩ ⟨c.val, lt8 c⟩ (k0_off24 c) (k0_off24_inb c)
      (by rw [k0_off24_eq]; show 16 * c.val + 2816 = 16 * c.val + 128 * 22; omega) x
  · funext x
    exact Cert.KerValue.staged_load fxt g6 (wid L) (wid_lt L) hf6 ⟨23, by omega⟩ ⟨c.val, lt8 c⟩ (k0_off25 c) (k0_off25_inb c)
      (by rw [k0_off25_eq]; show 16 * c.val + 2944 = 16 * c.val + 128 * 23; omega) x
  · funext x
    exact Cert.KerValue.staged_load fxt g6 (wid L) (wid_lt L) hf6 ⟨24, by omega⟩ ⟨c.val, lt8 c⟩ (k0_off26 c) (k0_off26_inb c)
      (by rw [k0_off26_eq]; show 16 * c.val + 3072 = 16 * c.val + 128 * 24; omega) x
  · funext x
    exact Cert.KerValue.staged_load fxt g6 (wid L) (wid_lt L) hf6 ⟨25, by omega⟩ ⟨c.val, lt8 c⟩ (k0_off27 c) (k0_off27_inb c)
      (by rw [k0_off27_eq]; show 16 * c.val + 3200 = 16 * c.val + 128 * 25; omega) x

theorem linChunk_congr {wl wl' : Vec F S26112 .f32} {c c' : Fin 26 → Vec F S16 .i32} (e0 : wl = wl') (e1 : c = c')
    (hc : ∀ f x, (c f x).toNat ≤ 999) (hc' : ∀ f x, (c' f x).toNat ≤ 999) :
    linChunk wl c hc = linChunk wl' c' hc' := by
  subst e0 e1; rfl

/-- The line of linear sums the first loop leaves is the subcore's 128 words of the linear row. -/
theorem linLine_eq (fxt : Vec F S106496 .i32) (fwl : Vec F S26112 .f32) (hxt : ∀ y, (fxt y).toNat ≤ 999) (L : grid0.Coords)
    (g6 : Vec F S3328 .i32) (h6 : ∀ y, (g6 y).toNat ≤ 999) (hf6 : ∀ y, g6 y = fxt (stagedSrc (wid L) (wid_lt L) y)) (y : S128.Idx) :
    linLine fwl g6 h6 y = linRow fxt fwl hxt ⟨128 * wid L + (y 0).val, by
      have h : (y 0).val < 128 := (y 0).isLt; have := wid_lt L; omega⟩ := by
  have hy : (y 0).val < 128 := (y 0).isLt
  have hw := wid_lt L
  unfold linLine linAt linRow
  have ec : (fun f => colChunk fxt f (chunkOf ⟨128 * wid L + (y 0).val, by omega⟩)) = cols6 g6 (cOf1 y) := by
    funext f
    rw [cols6_eq fxt L g6 hf6 (cOf1 y) f]
    congr 1
    apply Fin.ext
    show (128 * wid L + (y 0).val) / 16 = 8 * wid L + (y 0).val / 16
    omega
  have el : laneIn ⟨128 * wid L + (y 0).val, by omega⟩ = laneOf1 y := by
    unfold laneIn laneOf1
    congr 1
    apply Fin.ext
    show (128 * wid L + (y 0).val) % 16 = (y 0).val % 16
    omega
  rw [el]
  exact congrFun (linChunk_congr (Memref.readAt_whole (Elt F) cc0_scratch5 fwl) ec.symm _ _) (laneOf1 y)

end Cert.Proof.KTile

end
-- ==== Proof.RowStage.lean ====
/-
  The three 128-word pieces of the last three rows against the whole-array function.  Piece `K` of worker `L` is the words
  `4096 · (325 + K) + 128 · wid L + y`, `y < 128`, of the array.  After a 128-word line is copied into it, the piece
  agrees with the whole-array function provided the line is the right one: for row 325 the worker's 128 words of the
  linear row, for rows 326 and 327 the zero line.
-/
import proofs.«207464_g62843961475156_cont_9to1_m_1121_6_alg».proof.Proof.TileStage
import proofs.«207464_g62843961475156_cont_9to1_m_1121_6_alg».proof.Proof.PartOf
import proofs.«207464_g62843961475156_cont_9to1_m_1121_6_alg».proof.Proof.PartSplit

noncomputable section

namespace Cert.Proof.KTile

open Cert.KernelIdeal Cert.KernelIdeal.Gen Cert.KernelIdeal.Tasks Cert.KerValue Cert.Spec Idealize.ShloMosaic Idealize.ShloMosaic.ValueIdx

variable {F : FTy → Type} [FloatOps F]

/-- Where the three pieces of worker `L` start. -/
theorem off29_0 (L : grid0.Coords) : k0_off29 L 1331200#32 0 = 4096 * 325 + 128 * wid L := by
  have h0 : BitVec.ofNat 32 (1331200 + 4096 * (0 : Fin 3).val) = 1331200#32 := by decide
  have h := k0_off29_eq L 0
  rw [h0] at h
  rw [h]
  show 4096 * (0 : Fin 3).val + 256 * (L 1).val + 128 * (L 0).val + 1331200 = _
  have e : ((0 : Fin 3).val) = 0 := rfl
  rw [e]; unfold wid; omega
theorem off29_1 (L : grid0.Coords) : k0_off29 L 1335296#32 0 = 4096 * 326 + 128 * wid L := by
  have h0 : BitVec.ofNat 32 (1331200 + 4096 * (1 : Fin 3).val) = 1335296#32 := by decide
  have h := k0_off29_eq L 1
  rw [h0] at h
  rw [h]
  show 4096 * (1 : Fin 3).val + 256 * (L 1).val + 128 * (L 0).val + 1331200 = _
  have e : ((1 : Fin 3).val) = 1 := rfl
  rw [e]; unfold wid; omega
theorem off29_2 (L : grid0.Coords) : k0_off29 L 1339392#32 0 = 4096 * 327 + 128 * wid L := by
  have h0 : BitVec.ofNat 32 (1331200 + 4096 * (2 : Fin 3).val) = 1339392#32 := by decide
  have h := k0_off29_eq L 2
  rw [h0] at h
  rw [h]
  show 4096 * (2 : Fin 3).val + 256 * (L 1).val + 128 * (L 0).val + 1331200 = _
  have e : ((2 : Fin 3).val) = 2 := rfl
  rw [e]; unfold wid; omega

/-- A word of a worker's 128 words of a row is a word of the row. -/
theorem rowWord_lt (L : grid0.Coords) (y : S128.Idx) : 128 * wid L + (y 0).val < 4096 := by
  have h1 := wid_lt L
  have h2 : (y 0).val < 128 := (y 0).isLt
  omega

/-- The piece of row 325 after the worker's line of the linear row is copied into it agrees with the whole-array
    function on the piece's words. -/
theorem row0_agree (fxt : Vec F S106496 .i32) (fwf : Vec F S10816000 .f32) (fwl : Vec F S26112 .f32)
    (hxt : ∀ y, (fxt y).toNat ≤ 999) (L : grid0.Coords) (fk : Vec F S1343488 .f32) (w : Vec F S128 .f32)
    (hw : ∀ y : S128.Idx, w y = linRow fxt fwl hxt ⟨128 * wid L + (y 0).val, rowWord_lt L y⟩) :
    ∀ i ∈ (ptRow0 L).view.set,
      (ptRow0 L).view.writes (Elt F) fk [⟨Rect.whole S128, w⟩] i = partOf fxt fwf fwl hxt i := by
  intro i hi
  obtain ⟨y, -, rfl⟩ := Finset.mem_map.mp hi
  have hww := View.read_writes_cons_emb (ptRow0 L).view fk (Rect.whole S128) w [] y
  have e : (Rect.whole S128).emb y = y := Rect.emb_whole_apply S128 y
  rw [e] at hww
  have hb := rowWord_lt L y
  have hlt : 4096 * 325 + (128 * wid L + (y 0).val) < 1343488 := by omega
  have he : (ptRow0 L).view.emb y = ix1 ⟨4096 * 325 + (128 * wid L + (y 0).val), hlt⟩ := by
    funext a; apply Fin.ext
    match a with
    | ⟨0, _⟩ =>
      show k0_off29 L 1331200#32 0 + 1 * (y 0).val = 4096 * 325 + (128 * wid L + (y 0).val)
      rw [off29_0]; omega
  refine Eq.trans ?_ ((hw y).trans ?_)
  · rw [View.read_apply] at hww
    exact eq_of_heq ((cast_heq _ _).symm.trans (heq_of_eq hww))
  · rw [he]
    exact (partOf_lin fxt fwf fwl hxt ⟨128 * wid L + (y 0).val, hb⟩ hlt).symm

/-- The zero line at a word of a worker's 128 words is the zero line at the word's lane. -/
theorem zero_lane (L : grid0.Coords) (y : S128.Idx) :
    k0_pay108 (F := F) (ix1 ⟨(128 * wid L + (y 0).val) % 16, Nat.mod_lt _ (by omega)⟩)
      = k0_pay108 (F := F) (ix1 ⟨(y 0).val % 16, Nat.mod_lt _ (by omega)⟩) :=
  congrArg (fun l => k0_pay108 (F := F) (ix1 l)) (Fin.ext (by show (128 * wid L + (y 0).val) % 16 = (y 0).val % 16; omega))

/-- The piece of row 326 after the zero line is copied into it agrees with the whole-array function. -/
theorem row1_agree (fxt : Vec F S106496 .i32) (fwf : Vec F S10816000 .f32) (fwl : Vec F S26112 .f32)
    (hxt : ∀ y, (fxt y).toNat ≤ 999) (L : grid0.Coords) (fk : Vec F S1343488 .f32) (w : Vec F S128 .f32)
    (hw : ∀ y : S128.Idx, w y = k0_pay108 (F := F) (ix1 ⟨(y 0).val % 16, Nat.mod_lt _ (by omega)⟩)) :
    ∀ i ∈ (ptRow1 L).view.set,
      (ptRow1 L).view.writes (Elt F) fk [⟨Rect.whole S128, w⟩] i = partOf fxt fwf fwl hxt i := by
  intro i hi
  obtain ⟨y, -, rfl⟩ := Finset.mem_map.mp hi
  have hww := View.read_writes_cons_emb (ptRow1 L).view fk (Rect.whole S128) w [] y
  have e : (Rect.whole S128).emb y = y := Rect.emb_whole_apply S128 y
  rw [e] at hww
  have hb := rowWord_lt L y
  have hlt : 4096 * 326 + (128 * wid L + (y 0).val) < 1343488 := by omega
  have he : (ptRow1 L).view.emb y = ix1 ⟨4096 * 326 + (128 * wid L + (y 0).val), hlt⟩ := by
    funext a; apply Fin.ext
    match a with
    | ⟨0, _⟩ =>
      show k0_off29 L 1335296#32 0 + 1 * (y 0).val = 4096 * 326 + (128 * wid L + (y 0).val)
      rw [off29_1]; omega
  refine Eq.trans ?_ ((hw y).trans ?_)
  · rw [View.read_apply] at hww
    exact eq_of_heq ((cast_heq _ _).symm.trans (heq_of_eq hww))
  · rw [he]
    exact ((partOf_zero fxt fwf fwl hxt 326 (.inl rfl) ⟨128 * wid L + (y 0).val, hb⟩ hlt).trans (zero_lane L y)).symm

/-- The piece of row 327 after the zero line is copied into it agrees with the whole-array function. -/
theorem row2_agree (fxt : Vec F S106496 .i32) (fwf : Vec F S10816000 .f32) (fwl : Vec F S26112 .f32)
    (hxt : ∀ y, (fxt y).toNat ≤ 999) (L : grid0.Coords) (fk : Vec F S1343488 .f32) (w : Vec F S128 .f32)
    (hw : ∀ y : S128.Idx, w y = k0_pay108 (F := F) (ix1 ⟨(y 0).val % 16, Nat.mod_lt _ (by omega)⟩)) :
    ∀ i ∈ (ptRow2 L).view.set,
      (ptRow2 L).view.writes (Elt F) fk [⟨Rect.whole S128, w⟩] i = partOf fxt fwf fwl hxt i := by
  intro i hi
  obtain ⟨y, -, rfl⟩ := Finset.mem_map.mp hi
  have hww := View.read_writes_cons_emb (ptRow2 L).view fk (Rect.whole S128) w [] y
  have e : (Rect.whole S128).emb y = y := Rect.emb_whole_apply S128 y
  rw [e] at hww
  have hb := rowWord_lt L y
  have hlt : 4096 * 327 + (128 * wid L + (y 0).val) < 1343488 := by omega
  have he : (ptRow2 L).view.emb y = ix1 ⟨4096 * 327 + (128 * wid L + (y 0).val), hlt⟩ := by
    funext a; apply Fin.ext
    match a with
    | ⟨0, _⟩ =>
      show k0_off29 L 1339392#32 0 + 1 * (y 0).val = 4096 * 327 + (128 * wid L + (y 0).val)
      rw [off29_2]; omega
  refine Eq.trans ?_ ((hw y).trans ?_)
  · rw [View.read_apply] at hww
    exact eq_of_heq ((cast_heq _ _).symm.trans (heq_of_eq hww))
  · rw [he]
    exact ((partOf_zero fxt fwf fwl hxt 327 (.inr rfl) ⟨128 * wid L + (y 0).val, hb⟩ hlt).trans (zero_lane L y)).symm

end Cert.Proof.KTile

end
-- ==== Proof.StageList.lean ====
/-
  The staged index chunk as the 26 copies leave it: block `f` of 128 words holds the subcore's 128 batch elements of
  column `f`. Stated for the list of the 26 pieces in the order the copies are made (the last copy first).
-/
import proofs.«207464_g62843961475156_cont_9to1_m_1121_6_alg».proof.Proof.StagedCols

noncomputable section

namespace Cert.Proof.KTile

open Cert.KernelIdeal Cert.KernelIdeal.Gen Cert.KernelIdeal.Tasks Cert.KerValue Idealize.ShloMosaic Idealize.ShloMosaic.ValueIdx

variable {F : FTy → Type} [FloatOps F]

set_option maxHeartbeats 1000000 in
theorem stage_list (fxt : Vec F S106496 .i32) (L : grid0.Coords) (f0 : Vec F S3328 .i32) (y : S3328.Idx) :
    (Memref.whole cc0_scratch6 : Memref sig .scVector .vmem S3328 .i32).view.writes (Elt F) f0
      [⟨Rect.unit (s := S3328) ![3200] S128.size (by decide), View.read (Elt F) ((Memref.whole main_v1_scv : Memref sig .scVector .hbm S106496 .i32).slice (Rect.unit (s := S106496) (k0_off1 L 102400#32) S128.size (k0_off1_inb L 25)) (fun _ => rfl)).view fxt⟩,
      ⟨Rect.unit (s := S3328) ![3072] S128.size (by decide), View.read (Elt F) ((Memref.whole main_v1_scv : Memref sig .scVector .hbm S106496 .i32).slice (Rect.unit (s := S106496) (k0_off1 L 98304#32) S128.size (k0_off1_inb L 24)) (fun _ => rfl)).view fxt⟩,
      ⟨Rect.unit (s := S3328) ![2944] S128.size (by decide), View.read (Elt F) ((Memref.whole main_v1_scv : Memref sig .scVector .hbm S106496 .i32).slice (Rect.unit (s := S106496) (k0_off1 L 94208#32) S128.size (k0_off1_inb L 23)) (fun _ => rfl)).view fxt⟩,
      ⟨Rect.unit (s := S3328) ![2816] S128.size (by decide), View.read (Elt F) ((Memref.whole main_v1_scv : Memref sig .scVector .hbm S106496 .i32).slice (Rect.unit (s := S106496) (k0_off1 L 90112#32) S128.size (k0_off1_inb L 22)) (fun _ => rfl)).view fxt⟩,
      ⟨Rect.unit (s := S3328) ![2688] S128.size (by decide), View.read (Elt F) ((Memref.whole main_v1_scv : Memref sig .scVector .hbm S106496 .i32).slice (Rect.unit (s := S106496) (k0_off1 L 86016#32) S128.size (k0_off1_inb L 21)) (fun _ => rfl)).view fxt⟩,
      ⟨Rect.unit (s := S3328) ![2560] S128.size (by decide), View.read (Elt F) ((Memref.whole main_v1_scv : Memref sig .scVector .hbm S106496 .i32).slice (Rect.unit (s := S106496) (k0_off1 L 81920#32) S128.size (k0_off1_inb L 20)) (fun _ => rfl)).view fxt⟩,
      ⟨Rect.unit (s := S3328) ![2432] S128.size (by decide), View.read (Elt F) ((Memref.whole main_v1_scv : Memref sig .scVector .hbm S106496 .i32).slice (Rect.unit (s := S106496) (k0_off1 L 77824#32) S128.size (k0_off1_inb L 19)) (fun _ => rfl)).view fxt⟩,
      ⟨Rect.unit (s := S3328) ![2304] S128.size (by decide), View.read (Elt F) ((Memref.whole main_v1_scv : Memref sig .scVector .hbm S106496 .i32).slice (Rect.unit (s := S106496) (k0_off1 L 73728#32) S128.size (k0_off1_inb L 18)) (fun _ => rfl)).view fxt⟩,
      ⟨Rect.unit (s := S3328) ![2176] S128.size (by decide), View.read (Elt F) ((Memref.whole main_v1_scv : Memref sig .scVector .hbm S106496 .i32).slice (Rect.unit (s := S106496) (k0_off1 L 69632#32) S128.size (k0_off1_inb L 17)) (fun _ => rfl)).view fxt⟩,
      ⟨Rect.unit (s := S3328) ![2048] S128.size (by decide), View.read (Elt F) ((Memref.whole main_v1_scv : Memref sig .scVector .hbm S106496 .i32).slice (Rect.unit (s := S106496) (k0_off1 L 65536#32) S128.size (k0_off1_inb L 16)) (fun _ => rfl)).view fxt⟩,
      ⟨Rect.unit (s := S3328) ![1920] S128.size (by decide), View.read (Elt F) ((Memref.whole main_v1_scv : Memref sig .scVector .hbm S106496 .i32).slice (Rect.unit (s := S106496) (k0_off1 L 61440#32) S128.size (k0_off1_inb L 15)) (fun _ => rfl)).view fxt⟩,
      ⟨Rect.unit (s := S3328) ![1792] S128.size (by decide), View.read (Elt F) ((Memref.whole main_v1_scv : Memref sig .scVector .hbm S106496 .i32).slice (Rect.unit (s := S106496) (k0_off1 L 57344#32) S128.size (k0_off1_inb L 14)) (fun _ => rfl)).view fxt⟩,
      ⟨Rect.unit (s := S3328) ![1664] S128.size (by decide), View.read (Elt F) ((Memref.whole main_v1_scv : Memref sig .scVector .hbm S106496 .i32).slice (Rect.unit (s := S106496) (k0_off1 L 53248#32) S128.size (k0_off1_inb L 13)) (fun _ => rfl)).view fxt⟩,
      ⟨Rect.unit (s := S3328) ![1536] S128.size (by decide), View.read (Elt F) ((Memref.whole main_v1_scv : Memref sig .scVector .hbm S106496 .i32).slice (Rect.unit (s := S106496) (k0_off1 L 49152#32) S128.size (k0_off1_inb L 12)) (fun _ => rfl)).view fxt⟩,
      ⟨Rect.unit (s := S3328) ![1408] S128.size (by decide), View.read (Elt F) ((Memref.whole main_v1_scv : Memref sig .scVector .hbm S106496 .i32).slice (Rect.unit (s := S106496) (k0_off1 L 45056#32) S128.size (k0_off1_inb L 11)) (fun _ => rfl)).view fxt⟩,
      ⟨Rect.unit (s := S3328) ![1280] S128.size (by decide), View.read (Elt F) ((Memref.whole main_v1_scv : Memref sig .scVector .hbm S106496 .i32).slice (Rect.unit (s := S106496) (k0_off1 L 40960#32) S128.size (k0_off1_inb L 10)) (fun _ => rfl)).view fxt⟩,
      ⟨Rect.unit (s := S3328) ![1152] S128.size (by decide), View.read (Elt F) ((Memref.whole main_v1_scv : Memref sig .scVector .hbm S106496 .i32).slice (Rect.unit (s := S106496) (k0_off1 L 36864#32) S128.size (k0_off1_inb L 9)) (fun _ => rfl)).view fxt⟩,
      ⟨Rect.unit (s := S3328) ![1024] S128.size (by decide), View.read (Elt F) ((Memref.whole main_v1_scv : Memref sig .scVector .hbm S106496 .i32).slice (Rect.unit (s := S106496) (k0_off1 L 32768#32) S128.size (k0_off1_inb L 8)) (fun _ => rfl)).view fxt⟩,
      ⟨Rect.unit (s := S3328) ![896] S128.size (by decide), View.read (Elt F) ((Memref.whole main_v1_scv : Memref sig .scVector .hbm S106496 .i32).slice (Rect.unit (s := S106496) (k0_off1 L 28672#32) S128.size (k0_off1_inb L 7)) (fun _ => rfl)).view fxt⟩,
      ⟨Rect.unit (s := S3328) ![768] S128.size (by decide), View.read (Elt F) ((Memref.whole main_v1_scv : Memref sig .scVector .hbm S106496 .i32).slice (Rect.unit (s := S106496) (k0_off1 L 24576#32) S128.size (k0_off1_inb L 6)) (fun _ => rfl)).view fxt⟩,
      ⟨Rect.unit (s := S3328) ![640] S128.size (by decide), View.read (Elt F) ((Memref.whole main_v1_scv : Memref sig .scVector .hbm S106496 .i32).slice (Rect.unit (s := S106496) (k0_off1 L 20480#32) S128.size (k0_off1_inb L 5)) (fun _ => rfl)).view fxt⟩,
      ⟨Rect.unit (s := S3328) ![512] S128.size (by decide), View.read (Elt F) ((Memref.whole main_v1_scv : Memref sig .scVector .hbm S106496 .i32).slice (Rect.unit (s := S106496) (k0_off1 L 16384#32) S128.size (k0_off1_inb L 4)) (fun _ => rfl)).view fxt⟩,
      ⟨Rect.unit (s := S3328) ![384] S128.size (by decide), View.read (Elt F) ((Memref.whole main_v1_scv : Memref sig .scVector .hbm S106496 .i32).slice (Rect.unit (s := S106496) (k0_off1 L 12288#32) S128.size (k0_off1_inb L 3)) (fun _ => rfl)).view fxt⟩,
      ⟨Rect.unit (s := S3328) ![256] S128.size (by decide), View.read (Elt F) ((Memref.whole main_v1_scv : Memref sig .scVector .hbm S106496 .i32).slice (Rect.unit (s := S106496) (k0_off1 L 8192#32) S128.size (k0_off1_inb L 2)) (fun _ => rfl)).view fxt⟩,
      ⟨Rect.unit (s := S3328) ![128] S128.size (by decide), View.read (Elt F) ((Memref.whole main_v1_scv : Memref sig .scVector .hbm S106496 .i32).slice (Rect.unit (s := S106496) (k0_off1 L 4096#32) S128.size (k0_off1_inb L 1)) (fun _ => rfl)).view fxt⟩,
      ⟨Rect.unit (s := S3328) ![0] S128.size (by decide), View.read (Elt F) ((Memref.whole main_v1_scv : Memref sig .scVector .hbm S106496 .i32).slice (Rect.unit (s := S106496) (k0_off1 L 0#32) S128.size (k0_off1_inb L 0)) (fun _ => rfl)).view fxt⟩] y
      = fxt (stagedSrc (wid L) (wid_lt L) y) := by
  refine staged_contents fxt L f0 _ rfl ?_ y
  refine List.forall_mem_cons.mpr ⟨fun x => ?_, ?_⟩
  · exact stage_piece fxt L ⟨25, by decide⟩ (by decide) x
  refine List.forall_mem_cons.mpr ⟨fun x => ?_, ?_⟩
  · exact stage_piece fxt L ⟨24, by decide⟩ (by decide) x
  refine List.forall_mem_cons.mpr ⟨fun x => ?_, ?_⟩
  · exact stage_piece fxt L ⟨23, by decide⟩ (by decide) x
  refine List.forall_mem_cons.mpr ⟨fun x => ?_, ?_⟩
  · exact stage_piece fxt L ⟨22, by decide⟩ (by decide) x
  refine List.forall_mem_cons.mpr ⟨fun x => ?_, ?_⟩
  · exact stage_piece fxt L ⟨21, by decide⟩ (by decide) x
  refine List.forall_mem_cons.mpr ⟨fun x => ?_, ?_⟩
  · exact stage_piece fxt L ⟨20, by decide⟩ (by decide) x
  refine List.forall_mem_cons.mpr ⟨fun x => ?_, ?_⟩
  · exact stage_piece fxt L ⟨19, by decide⟩ (by decide) x
  refine List.forall_mem_cons.mpr ⟨fun x => ?_, ?_⟩
  · exact stage_piece fxt L ⟨18, by decide⟩ (by decide) x
  refine List.forall_mem_cons.mpr ⟨fun x => ?_, ?_⟩
  · exact stage_piece fxt L ⟨17, by decide⟩ (by decide) x
  refine List.forall_mem_cons.mpr ⟨fun x => ?_, ?_⟩
  · exact stage_piece fxt L ⟨16, by decide⟩ (by decide) x
  refine List.forall_mem_cons.mpr ⟨fun x => ?_, ?_⟩
  · exact stage_piece fxt L ⟨15, by decide⟩ (by decide) x
  refine List.forall_mem_cons.mpr ⟨fun x => ?_, ?_⟩
  · exact stage_piece fxt L ⟨14, by decide⟩ (by decide) x
  refine List.forall_mem_cons.mpr ⟨fun x => ?_, ?_⟩
  · exact stage_piece fxt L ⟨13, by decide⟩ (by decide) x
  refine List.forall_mem_cons.mpr ⟨fun x => ?_, ?_⟩
  · exact stage_piece fxt L ⟨12, by decide⟩ (by decide) x
  refine List.forall_mem_cons.mpr ⟨fun x => ?_, ?_⟩
  · exact stage_piece fxt L ⟨11, by decide⟩ (by decide) x
  refine List.forall_mem_cons.mpr ⟨fun x => ?_, ?_⟩
  · exact stage_piece fxt L ⟨10, by decide⟩ (by decide) x
  refine List.forall_mem_cons.mpr ⟨fun x => ?_, ?_⟩
  · exact stage_piece fxt L ⟨9, by decide⟩ (by decide) x
  refine List.forall_mem_cons.mpr ⟨fun x => ?_, ?_⟩
  · exact stage_piece fxt L ⟨8, by decide⟩ (by decide) x
  refine List.forall_mem_cons.mpr ⟨fun x => ?_, ?_⟩
  · exact stage_piece fxt L ⟨7, by decide⟩ (by decide) x
  refine List.forall_mem_cons.mpr ⟨fun x => ?_, ?_⟩
  · exact stage_piece fxt L ⟨6, by decide⟩ (by decide) x
  refine List.forall_mem_cons.mpr ⟨fun x => ?_, ?_⟩
  · exact stage_piece fxt L ⟨5, by decide⟩ (by decide) x
  refine List.forall_mem_cons.mpr ⟨fun x => ?_, ?_⟩
  · exact stage_piece fxt L ⟨4, by decide⟩ (by decide) x
  refine List.forall_mem_cons.mpr ⟨fun x => ?_, ?_⟩
  · exact stage_piece fxt L ⟨3, by decide⟩ (by decide) x
  refine List.forall_mem_cons.mpr ⟨fun x => ?_, ?_⟩
  · exact stage_piece fxt L ⟨2, by decide⟩ (by decide) x
  refine List.forall_mem_cons.mpr ⟨fun x => ?_, ?_⟩
  · exact stage_piece fxt L ⟨1, by decide⟩ (by decide) x
  refine List.forall_mem_cons.mpr ⟨fun x => ?_, ?_⟩
  · exact stage_piece fxt L ⟨0, by decide⟩ (by decide) x
  exact List.forall_mem_nil _

end Cert.Proof.KTile

end
-- ==== Proof.TileBodyV.lean ====
/-
  One vector subcore's run of the kernel body, with the values: at the end every piece of the result array this subcore
  owns holds the whole-array function of the three operand arrays. The inner loop of a task fills the accumulator line
  sixteen words a trip with the cross trip's lanes, the task loop copies each finished line to the task's row, and the
  first loop fills the linear line and the zero line that are copied to the subcore's pieces of the last three rows.
-/
import proofs.«207464_g62843961475156_cont_9to1_m_1121_6_alg».proof.Proof.TileBody
import proofs.«207464_g62843961475156_cont_9to1_m_1121_6_alg».proof.Proof.TileValue
import proofs.«207464_g62843961475156_cont_9to1_m_1121_6_alg».proof.Proof.TileStage
import proofs.«207464_g62843961475156_cont_9to1_m_1121_6_alg».proof.Proof.PartOf
import proofs.«207464_g62843961475156_cont_9to1_m_1121_6_alg».proof.Proof.LibSplitSep
import proofs.«207464_g62843961475156_cont_9to1_m_1121_6_alg».proof.Proof.TileLin
import proofs.«207464_g62843961475156_cont_9to1_m_1121_6_alg».proof.Proof.StagedCols
import proofs.«207464_g62843961475156_cont_9to1_m_1121_6_alg».proof.Proof.RowStage
import proofs.«207464_g62843961475156_cont_9to1_m_1121_6_alg».proof.Proof.StageList

noncomputable section

namespace Cert.Proof.KTile

open Cert.KernelIdeal Cert.KernelIdeal.Gen Cert.Proof.KLaunch Cert.KerValue Cert.KernelIdeal.Tasks

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

local notation "xtW" => (Memref.whole Cert.KernelIdeal.main_v1_scv : Memref Cert.KernelIdeal.sig Kind.scVector Space.hbm Cert.KernelIdeal.S106496 EltTy.i32)
local notation "wfW" => (Memref.whole Cert.KernelIdeal.main_v2_scv : Memref Cert.KernelIdeal.sig Kind.scVector Space.hbm Cert.KernelIdeal.S10816000 EltTy.f32)
local notation "wlW" => (Memref.whole Cert.KernelIdeal.main_v4_scv : Memref Cert.KernelIdeal.sig Kind.scVector Space.hbm Cert.KernelIdeal.S26112 EltTy.f32)
local notation "ptW" => (Memref.whole Cert.KernelIdeal.main_v5_scv : Memref Cert.KernelIdeal.sig Kind.scVector Space.hbm Cert.KernelIdeal.S1343488 EltTy.f32)
local notation "s0W" => (Memref.whole Cert.KernelIdeal.cc0_scratch0 : Memref Cert.KernelIdeal.sig Kind.scVector Space.vmem Cert.KernelIdeal.S16000 EltTy.f32)
local notation "s1W" => (Memref.whole Cert.KernelIdeal.cc0_scratch1 : Memref Cert.KernelIdeal.sig Kind.scVector Space.vmem Cert.KernelIdeal.S16000 EltTy.f32)
local notation "s2W" => (Memref.whole Cert.KernelIdeal.cc0_scratch2 : Memref Cert.KernelIdeal.sig Kind.scVector Space.vmem Cert.KernelIdeal.S4096 EltTy.i32)
local notation "s3W" => (Memref.whole Cert.KernelIdeal.cc0_scratch3 : Memref Cert.KernelIdeal.sig Kind.scVector Space.vmem Cert.KernelIdeal.S4096 EltTy.i32)
local notation "s4W" => (Memref.whole Cert.KernelIdeal.cc0_scratch4 : Memref Cert.KernelIdeal.sig Kind.scVector Space.vmem Cert.KernelIdeal.S4096 EltTy.f32)
local notation "s5W" => (Memref.whole Cert.KernelIdeal.cc0_scratch5 : Memref Cert.KernelIdeal.sig Kind.scVector Space.vmem Cert.KernelIdeal.S26112 EltTy.f32)
local notation "s6W" => (Memref.whole Cert.KernelIdeal.cc0_scratch6 : Memref Cert.KernelIdeal.sig Kind.scVector Space.vmem Cert.KernelIdeal.S3328 EltTy.i32)
local notation "s7W" => (Memref.whole Cert.KernelIdeal.cc0_scratch7 : Memref Cert.KernelIdeal.sig Kind.scVector Space.vmem Cert.KernelIdeal.S128 EltTy.f32)
local notation "s8W" => (Memref.whole Cert.KernelIdeal.cc0_scratch8 : Memref Cert.KernelIdeal.sig Kind.scVector Space.vmem Cert.KernelIdeal.S128 EltTy.f32)

/-- The inner loop of a task with the values: the two tables and the two index columns are the given ones, and the
    accumulator line holds the cross trip's lanes at every word below sixteen times the trip count. -/
def inv3V (G0 G1 : Vec F S16000 .f32) (G2 G3 : Vec F S4096 .i32) (h2 : ∀ y, (G2 y).toNat ≤ 999) (h3 : ∀ y, (G3 y).toNat ≤ 999)
    (O : CellTallies nD τ sig (HIx 1)) (W : Waits sig (HIx 1)) (n : Nat) (_ : PUnit) : sProp 𝕄 :=
  iprop(Transfers.MayWaits (thr d L) (none : HIx 1) O
    ∗ (∃ f : Buf (Elt F) ((s0W).view.loc (thr d L)), ⌜(f : Vec F S16000 .f32) = G0⌝ ∗ (s0W).view.loc (thr d L) ↦{fullShare} f)
    ∗ (∃ f : Buf (Elt F) ((s1W).view.loc (thr d L)), ⌜(f : Vec F S16000 .f32) = G1⌝ ∗ (s1W).view.loc (thr d L) ↦{fullShare} f)
    ∗ (∃ f : Buf (Elt F) ((s2W).view.loc (thr d L)), ⌜(f : Vec F S4096 .i32) = G2⌝ ∗ (s2W).view.loc (thr d L) ↦{fullShare} f)
    ∗ (∃ f : Buf (Elt F) ((s3W).view.loc (thr d L)), ⌜(f : Vec F S4096 .i32) = G3⌝ ∗ (s3W).view.loc (thr d L) ↦{fullShare} f)
    ∗ (∃ f : Buf (Elt F) ((s4W).view.loc (thr d L)), ⌜∀ y : S4096.Idx, (y 0).val < 16 * n → (f : Vec F S4096 .f32) y = accLine G0 G1 G2 G3 h2 h3 y⌝
        ∗ (s4W).view.loc (thr d L) ↦{fullShare} f)
    ∗ ∃ W', ⌜∀ p ∈ W', p ∈ W ∨ p.2 = none⌝ ∗ owes (thr d L) O W')

/-- The first loop with the values: the padded linear table is the operand array, the staged index chunk holds the
    subcore's 128 batch elements of the 26 columns, and the two lines hold the linear term and zero at every word below
    sixteen times the trip count. -/
def inv1V (fxt : Buf (Elt F) ((xtW).view.loc (thr d L))) (fwl : Buf (Elt F) ((wlW).view.loc (thr d L)))
    (hxt : ∀ y, (fxt y : BitVec 32).toNat ≤ 999)
    (O : CellTallies nD τ sig (HIx 1)) (W : Waits sig (HIx 1)) (n : Nat) (_ : PUnit) : sProp 𝕄 :=
  iprop(Transfers.MayWaits (thr d L) (none : HIx 1) O
    ∗ (∃ f : Buf (Elt F) ((s5W).view.loc (thr d L)), ⌜(fwl : Vec F S26112 .f32) = f⌝ ∗ (s5W).view.loc (thr d L) ↦{fullShare} f)
    ∗ (∃ f : Buf (Elt F) ((s6W).view.loc (thr d L)), ⌜∀ y, (f : Vec F S3328 .i32) y = (fxt : Vec F S106496 .i32) (stagedSrc (wid L) (wid_lt L) y)⌝
        ∗ (s6W).view.loc (thr d L) ↦{fullShare} f)
    ∗ (∃ f : Buf (Elt F) ((s7W).view.loc (thr d L)), ⌜∀ y : S128.Idx, (y 0).val < 16 * n →
          (f : Vec F S128 .f32) y = linRow fxt fwl hxt ⟨128 * wid L + (y 0).val, rowWord_lt L y⟩⌝
        ∗ (s7W).view.loc (thr d L) ↦{fullShare} f)
    ∗ (∃ f : Buf (Elt F) ((s8W).view.loc (thr d L)), ⌜∀ y : S128.Idx, (y 0).val < 16 * n → (f : Vec F S128 .f32) y = zeroLine (F := F) y⌝
        ∗ (s8W).view.loc (thr d L) ↦{fullShare} f)
    ∗ ∃ W', ⌜∀ p ∈ W', p ∈ W ∨ p.2 = none⌝ ∗ owes (thr d L) O W')

/-- The task loop with the values. -/
def inv2V (q1 q2 : PosShare TreeShare) (fxt : Buf (Elt F) ((xtW).view.loc (thr d L))) (fwf : Buf (Elt F) ((wfW).view.loc (thr d L)))
    (fwl : Buf (Elt F) ((wlW).view.loc (thr d L))) (hxt : ∀ y, (fxt y : BitVec 32).toNat ≤ 999)
    (O : CellTallies nD τ sig (HIx 1)) (W : Waits sig (HIx 1)) (n : Nat) (_ : PUnit) : sProp 𝕄 :=
  iprop(Transfers.MayWaits (thr d L) (none : HIx 1) O
    ∗ ((xtW).view.loc (thr d L) ↦{q1} fxt)
    ∗ ((wfW).view.loc (thr d L) ↦{q2} fwf)
    ∗ (∃ f, (s0W).view.loc (thr d L) ↦{fullShare} f) ∗ (∃ f, (s1W).view.loc (thr d L) ↦{fullShare} f) ∗ (∃ f, (s2W).view.loc (thr d L) ↦{fullShare} f) ∗ (∃ f, (s3W).view.loc (thr d L) ↦{fullShare} f) ∗ (∃ f, (s4W).view.loc (thr d L) ↦{fullShare} f)
    ∗ semVal ((thr d L, SemLoc.dma cc0_scoped30.sem) : GSem nD τ sig) 0 ∗ semVal ((thr d L, SemLoc.dma cc0_scoped31.sem) : GSem nD τ sig) 0 ∗ semVal ((thr d L, SemLoc.dma cc0_scoped32.sem) : GSem nD τ sig) 0 ∗ semVal ((thr d L, SemLoc.dma cc0_scoped33.sem) : GSem nD τ sig) 0 ∗ semVal ((thr d L, SemLoc.dma cc0_scoped34.sem) : GSem nD τ sig) 0
    ∗ (bigSep (Finset.univ.filter fun t : Fin (k0_t2_loop L).trips => t.val < n) fun t => iprop((ptTask L t).view.loc (thr d L) ↦[(ptTask L t).view.set]{fullShare} (partOf fxt fwf fwl hxt : Vec F S1343488 .f32)))
    ∗ (bigSep (Finset.univ.filter fun t : Fin (k0_t2_loop L).trips => n ≤ t.val) fun t => iprop(∃ f, (ptTask L t).view.loc (thr d L) ↦[(ptTask L t).view.set]{fullShare} f))
    ∗ ∃ W', ⌜∀ p ∈ W', p ∈ W ∨ p.2 = none⌝ ∗ owes (thr d L) O W')

set_option maxHeartbeats 4000000 in
theorem tile_body_v (q1 q2 q3 : PosShare TreeShare) (fxt : Buf (Elt F) ((xtW).view.loc (thr d L))) (fwf : Buf (Elt F) ((wfW).view.loc (thr d L)))
    (fwl : Buf (Elt F) ((wlW).view.loc (thr d L))) (hxt : ∀ y, (fxt y : BitVec 32).toNat ≤ 999)
    (O : CellTallies nD τ sig (HIx 1)) (W : Waits sig (HIx 1)) (hO : ∀ g, O g none = 0) :
    (iprop(levAts (K (F := F)).L (K (F := F)).lev
      ∗ ((xtW).view.loc (thr d L) ↦{q1} fxt)
      ∗ ((wfW).view.loc (thr d L) ↦{q2} fwf)
      ∗ ((wlW).view.loc (thr d L) ↦{q3} fwl)
      ∗ (∃ f, (ptRow0 L).view.loc (thr d L) ↦[(ptRow0 L).view.set]{fullShare} f)
      ∗ (∃ f, (ptRow1 L).view.loc (thr d L) ↦[(ptRow1 L).view.set]{fullShare} f)
      ∗ (∃ f, (ptRow2 L).view.loc (thr d L) ↦[(ptRow2 L).view.set]{fullShare} f)
      ∗ (bigSep Finset.univ fun t : Fin (k0_t2_loop L).trips => iprop(∃ f, (ptTask L t).view.loc (thr d L) ↦[(ptTask L t).view.set]{fullShare} f))
      ∗ (∃ f, (s0W).view.loc (thr d L) ↦{fullShare} f)
      ∗ (∃ f, (s1W).view.loc (thr d L) ↦{fullShare} f)
      ∗ (∃ f, (s2W).view.loc (thr d L) ↦{fullShare} f)
      ∗ (∃ f, (s3W).view.loc (thr d L) ↦{fullShare} f)
      ∗ (∃ f, (s4W).view.loc (thr d L) ↦{fullShare} f)
      ∗ (∃ f, (s5W).view.loc (thr d L) ↦{fullShare} f)
      ∗ (∃ f, (s6W).view.loc (thr d L) ↦{fullShare} f)
      ∗ (∃ f, (s7W).view.loc (thr d L) ↦{fullShare} f)
      ∗ (∃ f, (s8W).view.loc (thr d L) ↦{fullShare} f)
      ∗ semVal ((thr d L, SemLoc.dma cc0_scoped0.sem) : GSem nD τ sig) 0
      ∗ semVal ((thr d L, SemLoc.dma cc0_scoped1.sem) : GSem nD τ sig) 0
      ∗ semVal ((thr d L, SemLoc.dma cc0_scoped2.sem) : GSem nD τ sig) 0
      ∗ semVal ((thr d L, SemLoc.dma cc0_scoped3.sem) : GSem nD τ sig) 0
      ∗ semVal ((thr d L, SemLoc.dma cc0_scoped4.sem) : GSem nD τ sig) 0
      ∗ semVal ((thr d L, SemLoc.dma cc0_scoped5.sem) : GSem nD τ sig) 0
      ∗ semVal ((thr d L, SemLoc.dma cc0_scoped6.sem) : GSem nD τ sig) 0
      ∗ semVal ((thr d L, SemLoc.dma cc0_scoped7.sem) : GSem nD τ sig) 0
      ∗ semVal ((thr d L, SemLoc.dma cc0_scoped8.sem) : GSem nD τ sig) 0
      ∗ semVal ((thr d L, SemLoc.dma cc0_scoped9.sem) : GSem nD τ sig) 0
      ∗ semVal ((thr d L, SemLoc.dma cc0_scoped10.sem) : GSem nD τ sig) 0
      ∗ semVal ((thr d L, SemLoc.dma cc0_scoped11.sem) : GSem nD τ sig) 0
      ∗ semVal ((thr d L, SemLoc.dma cc0_scoped12.sem) : GSem nD τ sig) 0
      ∗ semVal ((thr d L, SemLoc.dma cc0_scoped13.sem) : GSem nD τ sig) 0
      ∗ semVal ((thr d L, SemLoc.dma cc0_scoped14.sem) : GSem nD τ sig) 0
      ∗ semVal ((thr d L, SemLoc.dma cc0_scoped15.sem) : GSem nD τ sig) 0
      ∗ semVal ((thr d L, SemLoc.dma cc0_scoped16.sem) : GSem nD τ sig) 0
      ∗ semVal ((thr d L, SemLoc.dma cc0_scoped17.sem) : GSem nD τ sig) 0
      ∗ semVal ((thr d L, SemLoc.dma cc0_scoped18.sem) : GSem nD τ sig) 0
      ∗ semVal ((thr d L, SemLoc.dma cc0_scoped19.sem) : GSem nD τ sig) 0
      ∗ semVal ((thr d L, SemLoc.dma cc0_scoped20.sem) : GSem nD τ sig) 0
      ∗ semVal ((thr d L, SemLoc.dma cc0_scoped21.sem) : GSem nD τ sig) 0
      ∗ semVal ((thr d L, SemLoc.dma cc0_scoped22.sem) : GSem nD τ sig) 0
      ∗ semVal ((thr d L, SemLoc.dma cc0_scoped23.sem) : GSem nD τ sig) 0
      ∗ semVal ((thr d L, SemLoc.dma cc0_scoped24.sem) : GSem nD τ sig) 0
      ∗ semVal ((thr d L, SemLoc.dma cc0_scoped25.sem) : GSem nD τ sig) 0
      ∗ semVal ((thr d L, SemLoc.dma cc0_scoped26.sem) : GSem nD τ sig) 0
      ∗ semVal ((thr d L, SemLoc.dma cc0_scoped27.sem) : GSem nD τ sig) 0
      ∗ semVal ((thr d L, SemLoc.dma cc0_scoped28.sem) : GSem nD τ sig) 0
      ∗ semVal ((thr d L, SemLoc.dma cc0_scoped29.sem) : GSem nD τ sig) 0
      ∗ semVal ((thr d L, SemLoc.dma cc0_scoped30.sem) : GSem nD τ sig) 0
      ∗ semVal ((thr d L, SemLoc.dma cc0_scoped31.sem) : GSem nD τ sig) 0
      ∗ semVal ((thr d L, SemLoc.dma cc0_scoped32.sem) : GSem nD τ sig) 0
      ∗ semVal ((thr d L, SemLoc.dma cc0_scoped33.sem) : GSem nD τ sig) 0
      ∗ semVal ((thr d L, SemLoc.dma cc0_scoped34.sem) : GSem nD τ sig) 0
      ∗ semVal ((thr d L, SemLoc.dma cc0_scoped35.sem) : GSem nD τ sig) 0
      ∗ semVal ((thr d L, SemLoc.dma cc0_scoped36.sem) : GSem nD τ sig) 0
      ∗ semVal ((thr d L, SemLoc.dma cc0_scoped37.sem) : GSem nD τ sig) 0
      ∗ semVal ((thr d L, SemLoc.dma cc0_scoped38.sem) : GSem nD τ sig) 0
      ∗ semVal ((thr d L, SemLoc.dma cc0_scoped39.sem) : GSem nD τ sig) 0
      ∗ owes (thr d L) O W) : sProp 𝕄)
      ⊢ wp frame (wpE (defs₀ (F := F)) 𝒱₀ (thr d L) none) Set.univ
          (cc0__sc_body (F := F) L xtW (Memref.isWhole_whole _) wfW (Memref.isWhole_whole _) wlW (Memref.isWhole_whole _) ptW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39)
          fun _ => iprop(((xtW).view.loc (thr d L) ↦{q1} fxt)
      ∗ ((wfW).view.loc (thr d L) ↦{q2} fwf)
      ∗ ((wlW).view.loc (thr d L) ↦{q3} fwl)
      ∗ ((ptRow0 L).view.loc (thr d L) ↦[(ptRow0 L).view.set]{fullShare} (Cert.KerValue.partOf fxt fwf fwl hxt : Vec F S1343488 .f32))
      ∗ ((ptRow1 L).view.loc (thr d L) ↦[(ptRow1 L).view.set]{fullShare} (Cert.KerValue.partOf fxt fwf fwl hxt : Vec F S1343488 .f32))
      ∗ ((ptRow2 L).view.loc (thr d L) ↦[(ptRow2 L).view.set]{fullShare} (Cert.KerValue.partOf fxt fwf fwl hxt : Vec F S1343488 .f32))
      ∗ (bigSep Finset.univ fun t : Fin (k0_t2_loop L).trips => iprop((ptTask L t).view.loc (thr d L) ↦[(ptTask L t).view.set]{fullShare} (Cert.KerValue.partOf fxt fwf fwl hxt : Vec F S1343488 .f32)))
      ∗ (∃ f, (s0W).view.loc (thr d L) ↦{fullShare} f)
      ∗ (∃ f, (s1W).view.loc (thr d L) ↦{fullShare} f)
      ∗ (∃ f, (s2W).view.loc (thr d L) ↦{fullShare} f)
      ∗ (∃ f, (s3W).view.loc (thr d L) ↦{fullShare} f)
      ∗ (∃ f, (s4W).view.loc (thr d L) ↦{fullShare} f)
      ∗ (∃ f, (s5W).view.loc (thr d L) ↦{fullShare} f)
      ∗ (∃ f, (s6W).view.loc (thr d L) ↦{fullShare} f)
      ∗ (∃ f, (s7W).view.loc (thr d L) ↦{fullShare} f)
      ∗ (∃ f, (s8W).view.loc (thr d L) ↦{fullShare} f)
      ∗ semVal ((thr d L, SemLoc.dma cc0_scoped0.sem) : GSem nD τ sig) 0
      ∗ semVal ((thr d L, SemLoc.dma cc0_scoped1.sem) : GSem nD τ sig) 0
      ∗ semVal ((thr d L, SemLoc.dma cc0_scoped2.sem) : GSem nD τ sig) 0
      ∗ semVal ((thr d L, SemLoc.dma cc0_scoped3.sem) : GSem nD τ sig) 0
      ∗ semVal ((thr d L, SemLoc.dma cc0_scoped4.sem) : GSem nD τ sig) 0
      ∗ semVal ((thr d L, SemLoc.dma cc0_scoped5.sem) : GSem nD τ sig) 0
      ∗ semVal ((thr d L, SemLoc.dma cc0_scoped6.sem) : GSem nD τ sig) 0
      ∗ semVal ((thr d L, SemLoc.dma cc0_scoped7.sem) : GSem nD τ sig) 0
      ∗ semVal ((thr d L, SemLoc.dma cc0_scoped8.sem) : GSem nD τ sig) 0
      ∗ semVal ((thr d L, SemLoc.dma cc0_scoped9.sem) : GSem nD τ sig) 0
      ∗ semVal ((thr d L, SemLoc.dma cc0_scoped10.sem) : GSem nD τ sig) 0
      ∗ semVal ((thr d L, SemLoc.dma cc0_scoped11.sem) : GSem nD τ sig) 0
      ∗ semVal ((thr d L, SemLoc.dma cc0_scoped12.sem) : GSem nD τ sig) 0
      ∗ semVal ((thr d L, SemLoc.dma cc0_scoped13.sem) : GSem nD τ sig) 0
      ∗ semVal ((thr d L, SemLoc.dma cc0_scoped14.sem) : GSem nD τ sig) 0
      ∗ semVal ((thr d L, SemLoc.dma cc0_scoped15.sem) : GSem nD τ sig) 0
      ∗ semVal ((thr d L, SemLoc.dma cc0_scoped16.sem) : GSem nD τ sig) 0
      ∗ semVal ((thr d L, SemLoc.dma cc0_scoped17.sem) : GSem nD τ sig) 0
      ∗ semVal ((thr d L, SemLoc.dma cc0_scoped18.sem) : GSem nD τ sig) 0
      ∗ semVal ((thr d L, SemLoc.dma cc0_scoped19.sem) : GSem nD τ sig) 0
      ∗ semVal ((thr d L, SemLoc.dma cc0_scoped20.sem) : GSem nD τ sig) 0
      ∗ semVal ((thr d L, SemLoc.dma cc0_scoped21.sem) : GSem nD τ sig) 0
      ∗ semVal ((thr d L, SemLoc.dma cc0_scoped22.sem) : GSem nD τ sig) 0
      ∗ semVal ((thr d L, SemLoc.dma cc0_scoped23.sem) : GSem nD τ sig) 0
      ∗ semVal ((thr d L, SemLoc.dma cc0_scoped24.sem) : GSem nD τ sig) 0
      ∗ semVal ((thr d L, SemLoc.dma cc0_scoped25.sem) : GSem nD τ sig) 0
      ∗ semVal ((thr d L, SemLoc.dma cc0_scoped26.sem) : GSem nD τ sig) 0
      ∗ semVal ((thr d L, SemLoc.dma cc0_scoped27.sem) : GSem nD τ sig) 0
      ∗ semVal ((thr d L, SemLoc.dma cc0_scoped28.sem) : GSem nD τ sig) 0
      ∗ semVal ((thr d L, SemLoc.dma cc0_scoped29.sem) : GSem nD τ sig) 0
      ∗ semVal ((thr d L, SemLoc.dma cc0_scoped30.sem) : GSem nD τ sig) 0
      ∗ semVal ((thr d L, SemLoc.dma cc0_scoped31.sem) : GSem nD τ sig) 0
      ∗ semVal ((thr d L, SemLoc.dma cc0_scoped32.sem) : GSem nD τ sig) 0
      ∗ semVal ((thr d L, SemLoc.dma cc0_scoped33.sem) : GSem nD τ sig) 0
      ∗ semVal ((thr d L, SemLoc.dma cc0_scoped34.sem) : GSem nD τ sig) 0
      ∗ semVal ((thr d L, SemLoc.dma cc0_scoped35.sem) : GSem nD τ sig) 0
      ∗ semVal ((thr d L, SemLoc.dma cc0_scoped36.sem) : GSem nD τ sig) 0
      ∗ semVal ((thr d L, SemLoc.dma cc0_scoped37.sem) : GSem nD τ sig) 0
      ∗ semVal ((thr d L, SemLoc.dma cc0_scoped38.sem) : GSem nD τ sig) 0
      ∗ semVal ((thr d L, SemLoc.dma cc0_scoped39.sem) : GSem nD τ sig) 0
      ∗ ∃ W', ⌜∀ p ∈ W', p ∈ W ∨ p.2 = none⌝ ∗ owes (thr d L) O W') := by
  rw [cc0__sc_body_eq_skeleton]; unfold cc0__sc_body_skel
  iintro ⟨#Hlv, Hxt, Hwf, Hwl, ⟨%fr0, Hr0⟩, ⟨%fr1, Hr1⟩, ⟨%fr2, Hr2⟩, Hpt, ⟨%fs0, Hs0⟩, ⟨%fs1, Hs1⟩, ⟨%fs2, Hs2⟩, ⟨%fs3, Hs3⟩, ⟨%fs4, Hs4⟩, ⟨%fs5, Hs5⟩, ⟨%fs6, Hs6⟩, ⟨%fs7, Hs7⟩, ⟨%fs8, Hs8⟩, Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, HO⟩
  ihave Hmw := ((K (F := F)).mayWaits_none (thr := thr d L) hO) $$ Hlv
  sl_exec_parts
  sl_for (inv1V d L fxt fwl hxt O W) $$ [Hmw Hs5 Hs6 Hs7 Hs8 HO]
  case region =>
    intro k _
    unfold inv1V
    iintro ⟨Hmw, ⟨%f5, %e5, Hs5⟩, ⟨%f6, %hf6, Hs6⟩, ⟨%f7, %hf7, Hs7⟩, ⟨%f8, %hf8, Hs8⟩, %W', %hW', HO⟩
    subst e5
    have h6 : ∀ y, ((f6 : Vec F S3328 .i32) y).toNat ≤ 999 := fun y => by rw [hf6 y]; exact hxt _
    sl_exec_parts (disch := first
      | exact Cert.TileFacts.inb_of_le _ _ (Cert.TileFacts.addi_bcast_le _ _ 999 (fun x => h6 _) (by decide)) (by decide))
    sl_step
    isplitl [Hmw]; · iexact Hmw
    isplitl [Hs5]; · iexists _; isplitr; · ipureintro; rfl
                     iexact Hs5
    isplitl [Hs6]; · iexists f6; isplitr; · ipureintro; exact hf6
                     iexact Hs6
    isplitl [Hs7]
    · iexists _; isplitr
      swap
      · iexact Hs7
      · ipureintro
        exact line7_step (linAt fwl f6 h6 k) (fun y => linRow fxt fwl hxt ⟨128 * wid L + (y 0).val, rowWord_lt L y⟩) f7 k
          (fun x => (linLine_emb fwl f6 h6 k x).symm.trans (linLine_eq fxt fwl hxt L f6 h6 hf6 _)) hf7
    isplitl [Hs8]
    · iexists _; isplitr
      swap
      · iexact Hs8
      · ipureintro
        exact line8_step (k0_pay108 (F := F)) (zeroLine (F := F)) f8 k (fun x => zero_emb k x) hf8
    iexists W'; isplitr
    · ipureintro; exact hW'
    · iexact HO
  · unfold inv1V
    isplitl [Hmw]; · iexact Hmw
    isplitl [Hs5]
    · iexists _; isplitr
      swap
      · iexact Hs5
      · ipureintro
        simp only [Memref.view_whole, View.write_whole_univ]
        rfl
    isplitl [Hs6]
    · iexists _; isplitr
      swap
      · iexact Hs6
      · ipureintro
        intro y
        exact stage_list fxt L _ y
    isplitl [Hs7]
    · iexists _; isplitr
      swap
      · iexact Hs7
      · ipureintro
        intro y hy
        exact absurd hy (by omega)
    isplitl [Hs8]
    · iexists _; isplitr
      swap
      · iexact Hs8
      · ipureintro
        intro y hy
        exact absurd hy (by omega)
    iexists _; isplitr
    swap
    · iexact HO
    · ipureintro; repeat apply waits_insert
      exact fun p hp => Or.inl hp
  iintro %_ HI
  unfold inv1V
  icases HI with ⟨Hmw, ⟨%f5, %e5, Hs5⟩, ⟨%f6, %hf6, Hs6⟩, ⟨%f7, %hf7, Hs7⟩, ⟨%f8, %hf8, Hs8⟩, %W1, %hW1, HO⟩
  sl_exec_parts
  sl_for (inv2V d L q1 q2 fxt fwf fwl hxt O W) $$ [Hmw Hxt Hwf Hs0 Hs1 Hs2 Hs3 Hs4 Hm30 Hm31 Hm32 Hm33 Hm34 Hpt HO]
  case region =>
    intro k _
    unfold inv2V
    iintro ⟨Hmw, Hxt, Hwf, ⟨%f0, Hs0⟩, ⟨%f1, Hs1⟩, ⟨%f2, Hs2⟩, ⟨%f3, Hs3⟩, ⟨%f4, Hs4⟩, Hm30, Hm31, Hm32, Hm33, Hm34, Hdone, Htodo, %W', %hW', HO⟩
    ihave Hp := (Entails.of_eq (Cert.SplitSep.upper_split k _)) $$ Htodo
    icases Hp with ⟨⟨%fk, Hk⟩, Htodo⟩
    sl_exec_parts
    sl_for (inv3V d L (winA fwf L k) (winB fwf L k) (colA fxt L k) (colB fxt L k) (colA_le fxt hxt L k) (colB_le fxt hxt L k) O W) $$ [Hmw Hs0 Hs1 Hs2 Hs3 Hs4 HO]
    case region =>
      intro k3 _
      unfold inv3V
      iintro ⟨Hmw, ⟨%g0, %e0, Hs0⟩, ⟨%g1, %e1, Hs1⟩, ⟨%g2, %e2, Hs2⟩, ⟨%g3, %e3, Hs3⟩, ⟨%g4, %hg4, Hs4⟩, %W3, %hW3, HO⟩
      subst e0 e1 e2 e3
      sl_exec_parts (disch := first
      | exact Cert.TileFacts.inb_of_le _ _ (Cert.TileFacts.addi_bcast_le _ _ _ (Cert.TileFacts.muli_bcast_le _ _ 999 (fun x => hxt _) (by decide)) (by decide)) (by decide))
      sl_step
      isplitl [Hmw]; · iexact Hmw
      isplitl [Hs0]; · iexists _; isplitr; · ipureintro; rfl
                       iexact Hs0
      isplitl [Hs1]; · iexists _; isplitr; · ipureintro; rfl
                       iexact Hs1
      isplitl [Hs2]; · iexists _; isplitr; · ipureintro; rfl
                       iexact Hs2
      isplitl [Hs3]; · iexists _; isplitr; · ipureintro; rfl
                       iexact Hs3
      isplitl [Hs4]
      · iexists _; isplitr
        swap
        · iexact Hs4
        · ipureintro
          exact accLine_step _ _ _ _ _ _ g4 k3 hg4
      iexists _; isplitr
      swap
      · iexact HO
      · ipureintro; repeat apply waits_insert
        exact hW3
    · unfold inv3V
      isplitl [Hmw]; · iexact Hmw
      isplitl [Hs0]
      · iexists _; isplitr
        swap
        · iexact Hs0
        · ipureintro
          simp only [Memref.view_whole, View.write_whole_univ]
          rfl
      isplitl [Hs1]
      · iexists _; isplitr
        swap
        · iexact Hs1
        · ipureintro
          simp only [Memref.view_whole, View.write_whole_univ]
          rfl
      isplitl [Hs2]
      · iexists _; isplitr
        swap
        · iexact Hs2
        · ipureintro
          simp only [Memref.view_whole, View.write_whole_univ]
          rfl
      isplitl [Hs3]
      · iexists _; isplitr
        swap
        · iexact Hs3
        · ipureintro
          simp only [Memref.view_whole, View.write_whole_univ]
          rfl
      isplitl [Hs4]
      · iexists _; isplitr
        swap
        · iexact Hs4
        · ipureintro
          intro y hy
          exact absurd hy (by omega)
      iexists _; isplitr
      swap
      · iexact HO
      · ipureintro; repeat apply waits_insert
        exact hW'
    iintro %_ HI
    unfold inv3V
    icases HI with ⟨Hmw, ⟨%g0, %e0, Hs0⟩, ⟨%g1, %e1, Hs1⟩, ⟨%g2, %e2, Hs2⟩, ⟨%g3, %e3, Hs3⟩, ⟨%g4, %hg4, Hs4⟩, %W3, %hW3, HO⟩
    sl_exec_parts
    sl_step
    isplitl [Hmw]; · iexact Hmw
    isplitl [Hxt]; · iexact Hxt
    isplitl [Hwf]; · iexact Hwf
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hm30]; · iexact Hm30
    isplitl [Hm31]; · iexact Hm31
    isplitl [Hm32]; · iexact Hm32
    isplitl [Hm33]; · iexact Hm33
    isplitl [Hm34]; · iexact Hm34
    isplitl [Hk Hdone]
    · rw [Cert.SplitSep.lower_join k]
      isplitl [Hk]
      · iapply (Entails.of_eq (pointsTo_congr (taskRow_agree fxt fwf fwl hxt L k fk g4 (fun y => hg4 y (lt_of_lt_of_le (y 0).isLt (by decide)))))) $$ Hk
      · iexact Hdone
    isplitl [Htodo]; · iexact Htodo
    iexists _; isplitr
    swap
    · iexact HO
    · ipureintro; repeat apply waits_insert
      exact hW3
  · unfold inv2V
    isplitl [Hmw]; · iexact Hmw
    isplitl [Hxt]; · iexact Hxt
    isplitl [Hwf]; · iexact Hwf
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hm30]; · iexact Hm30
    isplitl [Hm31]; · iexact Hm31
    isplitl [Hm32]; · iexact Hm32
    isplitl [Hm33]; · iexact Hm33
    isplitl [Hm34]; · iexact Hm34
    isplitr
    · rw [Cert.SplitSep.lower_zero]; iempintro
    isplitl [Hpt]
    · rw [Cert.SplitSep.upper_zero]; iexact Hpt
    iexists _; isplitr
    swap
    · iexact HO
    · ipureintro; repeat apply waits_insert
      exact hW1
  iintro %_ HI
  unfold inv2V
  icases HI with ⟨Hmw, Hxt, Hwf, ⟨%f0, Hs0⟩, ⟨%f1, Hs1⟩, ⟨%f2, Hs2⟩, ⟨%f3, Hs3⟩, ⟨%f4, Hs4⟩, Hm30, Hm31, Hm32, Hm33, Hm34, Hdone, Htodo, %W2, %hW2, HO⟩
  ihave He := (Entails.of_eq (Cert.SplitSep.upper_all _)) $$ Htodo
  icases He with -
  sl_exec_parts
  sl_for (fun _ _ => (iprop(emp) : sProp 𝕄)) $$ []
  case region =>
    intro k _
    exact (Nat.not_lt_zero _ (Nat.lt_of_lt_of_le k.isLt (k0_t4_abs L).2.1)).elim
  · iempintro
  iintro %_ -
  sl_exec_parts
  sl_step
  isplitl [Hxt]; · iexact Hxt
  isplitl [Hwf]; · iexact Hwf
  isplitl [Hwl]; · iexact Hwl
  isplitl [Hr0]
  · iapply (Entails.of_eq (pointsTo_congr (row0_agree fxt fwf fwl hxt L _ _ (fun y => hf7 y (lt_of_lt_of_le (y 0).isLt (by decide)))))) $$ Hr0
  isplitl [Hr1]
  · iapply (Entails.of_eq (pointsTo_congr (row1_agree fxt fwf fwl hxt L _ _ (fun y => hf8 y (lt_of_lt_of_le (y 0).isLt (by decide)))))) $$ Hr1
  isplitl [Hr2]
  · iapply (Entails.of_eq (pointsTo_congr (row2_agree fxt fwf fwl hxt L _ _ (fun y => hf8 y (lt_of_lt_of_le (y 0).isLt (by decide)))))) $$ Hr2
  isplitl [Hdone]
  · iapply (Entails.of_eq (Cert.SplitSep.lower_all _)) $$ Hdone
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hs5]; · iexists _; iexact Hs5
  isplitl [Hs6]; · iexists _; iexact Hs6
  isplitl [Hs7]; · iexists _; iexact Hs7
  isplitl [Hs8]; · iexists _; iexact Hs8
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  isplitl [Hm19]; · iexact Hm19
  isplitl [Hm20]; · iexact Hm20
  isplitl [Hm21]; · iexact Hm21
  isplitl [Hm22]; · iexact Hm22
  isplitl [Hm23]; · iexact Hm23
  isplitl [Hm24]; · iexact Hm24
  isplitl [Hm25]; · iexact Hm25
  isplitl [Hm26]; · iexact Hm26
  isplitl [Hm27]; · iexact Hm27
  isplitl [Hm28]; · iexact Hm28
  isplitl [Hm29]; · iexact Hm29
  isplitl [Hm30]; · iexact Hm30
  isplitl [Hm31]; · iexact Hm31
  isplitl [Hm32]; · iexact Hm32
  isplitl [Hm33]; · iexact Hm33
  isplitl [Hm34]; · iexact Hm34
  isplitl [Hm35]; · iexact Hm35
  isplitl [Hm36]; · iexact Hm36
  isplitl [Hm37]; · iexact Hm37
  isplitl [Hm38]; · iexact Hm38
  isplitl [Hm39]; · iexact Hm39
  iexists _; isplitr
  swap
  · iexact HO
  · ipureintro; repeat apply waits_insert
    exact hW2

end Cert.Proof.KTile
end
-- ==== Proof.TilePayV.lean ====
/-
  The call's payloads with the result named: a subcore hands its pieces of the result array back at the one function
  of the three operand arrays that the body computes; the obligations and the gathering of the pieces into the whole
  array follow the frame version's, with the contents carried along.
-/
import Idealize.ShloMosaic.Lib.SparseCore.Launch
import Idealize.ShloMosaic.Lib.StableHlo.Run
import Idealize.ShloMosaic.Lib.Pipeline.Kit
import Idealize.ShloMosaic.Lib.Tactic
import proofs.«207464_g62843961475156_cont_9to1_m_1121_6_alg».proof.Proof.Gen.KernelIdeal
import proofs.«207464_g62843961475156_cont_9to1_m_1121_6_alg».proof.Proof.Gen.KernelIdeal.Skeleton
import proofs.«207464_g62843961475156_cont_9to1_m_1121_6_alg».proof.Proof.Ghost
import proofs.«207464_g62843961475156_cont_9to1_m_1121_6_alg».proof.Proof.TileDefs
import proofs.«207464_g62843961475156_cont_9to1_m_1121_6_alg».proof.Proof.TileBody
import proofs.«207464_g62843961475156_cont_9to1_m_1121_6_alg».proof.Proof.TileOwn
import proofs.«207464_g62843961475156_cont_9to1_m_1121_6_alg».proof.Proof.TilePay
import proofs.«207464_g62843961475156_cont_9to1_m_1121_6_alg».proof.Proof.CallSplitAt
import proofs.«207464_g62843961475156_cont_9to1_m_1121_6_alg».proof.Proof.PartOf
import proofs.«207464_g62843961475156_cont_9to1_m_1121_6_alg».proof.Proof.TileBodyV

noncomputable section

namespace Cert.Proof.KTile

open Cert.KernelIdeal Cert.KernelIdeal.Gen Cert.Proof.KLaunch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

local notation "xtW" => (Memref.whole Cert.KernelIdeal.main_v1_scv : Memref Cert.KernelIdeal.sig Kind.scVector Space.hbm Cert.KernelIdeal.S106496 EltTy.i32)
local notation "wfW" => (Memref.whole Cert.KernelIdeal.main_v2_scv : Memref Cert.KernelIdeal.sig Kind.scVector Space.hbm Cert.KernelIdeal.S10816000 EltTy.f32)
local notation "wlW" => (Memref.whole Cert.KernelIdeal.main_v4_scv : Memref Cert.KernelIdeal.sig Kind.scVector Space.hbm Cert.KernelIdeal.S26112 EltTy.f32)
local notation "ptW" => (Memref.whole Cert.KernelIdeal.main_v5_scv : Memref Cert.KernelIdeal.sig Kind.scVector Space.hbm Cert.KernelIdeal.S1343488 EltTy.f32)
local notation "s0W" => (Memref.whole Cert.KernelIdeal.cc0_scratch0 : Memref Cert.KernelIdeal.sig Kind.scVector Space.vmem Cert.KernelIdeal.S16000 EltTy.f32)
local notation "s1W" => (Memref.whole Cert.KernelIdeal.cc0_scratch1 : Memref Cert.KernelIdeal.sig Kind.scVector Space.vmem Cert.KernelIdeal.S16000 EltTy.f32)
local notation "s2W" => (Memref.whole Cert.KernelIdeal.cc0_scratch2 : Memref Cert.KernelIdeal.sig Kind.scVector Space.vmem Cert.KernelIdeal.S4096 EltTy.i32)
local notation "s3W" => (Memref.whole Cert.KernelIdeal.cc0_scratch3 : Memref Cert.KernelIdeal.sig Kind.scVector Space.vmem Cert.KernelIdeal.S4096 EltTy.i32)
local notation "s4W" => (Memref.whole Cert.KernelIdeal.cc0_scratch4 : Memref Cert.KernelIdeal.sig Kind.scVector Space.vmem Cert.KernelIdeal.S4096 EltTy.f32)
local notation "s5W" => (Memref.whole Cert.KernelIdeal.cc0_scratch5 : Memref Cert.KernelIdeal.sig Kind.scVector Space.vmem Cert.KernelIdeal.S26112 EltTy.f32)
local notation "s6W" => (Memref.whole Cert.KernelIdeal.cc0_scratch6 : Memref Cert.KernelIdeal.sig Kind.scVector Space.vmem Cert.KernelIdeal.S3328 EltTy.i32)
local notation "s7W" => (Memref.whole Cert.KernelIdeal.cc0_scratch7 : Memref Cert.KernelIdeal.sig Kind.scVector Space.vmem Cert.KernelIdeal.S128 EltTy.f32)
local notation "s8W" => (Memref.whole Cert.KernelIdeal.cc0_scratch8 : Memref Cert.KernelIdeal.sig Kind.scVector Space.vmem Cert.KernelIdeal.S128 EltTy.f32)

/-! ## The call's payloads with the result's contents named -/

section PayV

variable (x1 : (d : Dev nD) → Buf (Elt F) (v1Loc d)) (w2 : (d : Dev nD) → Buf (Elt F) (v2Loc d)) (w4 : (d : Dev nD) → Buf (Elt F) (v4Loc d))
variable (hx1 : ∀ d y, (x1 d y : BitVec 32).toNat ≤ 999)

/-- The result array after the call, as one function of the three operand arrays. -/
def partG (d : Dev nD) : Buf (Elt F) (v5Loc d) := Cert.KerValue.partOf (x1 d) (w2 d) (w4 d) (hx1 d)

/-- The payloads: a subcore is handed its pieces of the result at any contents and hands them back at `partG`. -/
def Pv : PayT F where
  st := (P x1 w2 w4).st
  dn := fun q d c => match q with
    | 0 => bigSep Finset.univ fun i : Fin ((K (F := F)).nSub 0) => tileResAt x1 w2 w4 d (partG x1 w2 w4 hx1 d) (coordsV ⟨c.val, c.isLt⟩ ⟨i.val, i.isLt⟩)
  go := (P x1 w2 w4).go
  td := fun q d c i => match q with
    | 0 => tileResAt x1 w2 w4 d (partG x1 w2 w4 hx1 d) (coordsV ⟨c.val, c.isLt⟩ ⟨i.val, i.isLt⟩)
  x := fun _ _ => iprop(emp)

set_option synthInstance.maxHeartbeats 1000000 in
instance tileResAt_storable (d : Dev nD) (g : Buf (Elt F) (v5Loc d)) (L : grid0.Coords) : BI.Storable (upEmb : UEmb _ 𝕄) (tileResAt x1 w2 w4 d g L) := by
  unfold tileResAt tilePiecesAt; infer_instance

set_option synthInstance.maxHeartbeats 1000000 in
instance Pv_storable : (Pv (F := F) x1 w2 w4 hx1).IsStorable where
  st q d c := (P_storable x1 w2 w4).st q d c
  dn q d c := match q with | 0 => by unfold Pv; dsimp only; infer_instance
  go q d c i := (P_storable x1 w2 w4).go q d c i
  td q d c i := match q with | 0 => by unfold Pv; dsimp only; infer_instance

/-- One subcore's task with the result named. -/
theorem tile_task_v (hF : (K (F := F)).Facts)
    (O : CellTallies nD τ sig (HIx 1)) (W : Waits sig (HIx 1)) (hO : ∀ g, O g none = 0) :
    iprop(levAts (K (F := F)).L (K (F := F)).lev ∗ emp ∗ tileRes x1 w2 w4 d L
        ∗ scopedBufs (thr d L) ∗ scopedSems0 (thr d L) ∗ owes (thr d L) O W)
      ⊢ wp frame (wpE (defs₀ (F := F)) 𝒱₀ (thr d L) none) Set.univ
          (cc0__sc_body (F := F) L xtW (Memref.isWhole_whole _) wfW (Memref.isWhole_whole _) wlW (Memref.isWhole_whole _) ptW (Memref.isWhole_whole _) s0W (Memref.isWhole_whole _) s1W (Memref.isWhole_whole _) s2W (Memref.isWhole_whole _) s3W (Memref.isWhole_whole _) s4W (Memref.isWhole_whole _) s5W (Memref.isWhole_whole _) s6W (Memref.isWhole_whole _) s7W (Memref.isWhole_whole _) s8W (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39)
          fun _ => iprop(tileResAt x1 w2 w4 d (partG x1 w2 w4 hx1 d) L ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tileRes tilePieces tileResAt tilePiecesAt partG
  iintro ⟨#Hlv, -, ⟨Hxt, Hwf, Hwl, Hr0, Hr1, Hr2, Hpt⟩, ⟨Hs0, Hs1, Hs2, Hs3, Hs4, Hs5, Hs6, Hs7, Hs8, Hbufs⟩, ⟨Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, Hm40, Hm41, Hm42⟩, HO⟩
  ihave Hxt' := (Entails.of_eq (pts_xt (F := F) d L _ _).symm) $$ Hxt
  ihave Hwf' := (Entails.of_eq (pts_wf (F := F) d L _ _).symm) $$ Hwf
  ihave Hwl' := (Entails.of_eq (pts_wl (F := F) d L _ _).symm) $$ Hwl
  iapply (wp_wand_r frame _ _)
  isplitl [Hxt' Hwf' Hwl' Hr0 Hr1 Hr2 Hpt Hs0 Hs1 Hs2 Hs3 Hs4 Hs5 Hs6 Hs7 Hs8 Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39 HO]
  · iapply (tile_body_v (F := F) d L _ _ _ (x1 d) (w2 d) (w4 d) (hx1 d) O W hO)
    isplitr; · iexact Hlv
    isplitl [Hxt']; · iexact Hxt'
    isplitl [Hwf']; · iexact Hwf'
    isplitl [Hwl']; · iexact Hwl'
    isplitl [Hr0]; · iexact Hr0
    isplitl [Hr1]; · iexact Hr1
    isplitl [Hr2]; · iexact Hr2
    isplitl [Hpt]; · iexact Hpt
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    isplitl [Hm21]; · iexact Hm21
    isplitl [Hm22]; · iexact Hm22
    isplitl [Hm23]; · iexact Hm23
    isplitl [Hm24]; · iexact Hm24
    isplitl [Hm25]; · iexact Hm25
    isplitl [Hm26]; · iexact Hm26
    isplitl [Hm27]; · iexact Hm27
    isplitl [Hm28]; · iexact Hm28
    isplitl [Hm29]; · iexact Hm29
    isplitl [Hm30]; · iexact Hm30
    isplitl [Hm31]; · iexact Hm31
    isplitl [Hm32]; · iexact Hm32
    isplitl [Hm33]; · iexact Hm33
    isplitl [Hm34]; · iexact Hm34
    isplitl [Hm35]; · iexact Hm35
    isplitl [Hm36]; · iexact Hm36
    isplitl [Hm37]; · iexact Hm37
    isplitl [Hm38]; · iexact Hm38
    isplitl [Hm39]; · iexact Hm39
    iexact HO
  · iintro %a Hpost
    icases Hpost with ⟨Hxt, Hwf, Hwl, Hr0, Hr1, Hr2, Hpt, Hs0, Hs1, Hs2, Hs3, Hs4, Hs5, Hs6, Hs7, Hs8, Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, HW⟩
    isplitl [Hxt Hwf Hwl Hr0 Hr1 Hr2 Hpt]
    · isplitl [Hxt]; · iapply (Entails.of_eq (pts_xt (F := F) d L _ _)); iexact Hxt
      isplitl [Hwf]; · iapply (Entails.of_eq (pts_wf (F := F) d L _ _)); iexact Hwf
      isplitl [Hwl]; · iapply (Entails.of_eq (pts_wl (F := F) d L _ _)); iexact Hwl
      isplitl [Hr0]; · iexact Hr0
      isplitl [Hr1]; · iexact Hr1
      isplitl [Hr2]; · iexact Hr2
      iexact Hpt
    isplitl [Hs0 Hs1 Hs2 Hs3 Hs4 Hs5 Hs6 Hs7 Hs8 Hbufs]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hbufs
    isplitl [Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39 Hm40 Hm41 Hm42]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      isplitl [Hm15]; · iexact Hm15
      isplitl [Hm16]; · iexact Hm16
      isplitl [Hm17]; · iexact Hm17
      isplitl [Hm18]; · iexact Hm18
      isplitl [Hm19]; · iexact Hm19
      isplitl [Hm20]; · iexact Hm20
      isplitl [Hm21]; · iexact Hm21
      isplitl [Hm22]; · iexact Hm22
      isplitl [Hm23]; · iexact Hm23
      isplitl [Hm24]; · iexact Hm24
      isplitl [Hm25]; · iexact Hm25
      isplitl [Hm26]; · iexact Hm26
      isplitl [Hm27]; · iexact Hm27
      isplitl [Hm28]; · iexact Hm28
      isplitl [Hm29]; · iexact Hm29
      isplitl [Hm30]; · iexact Hm30
      isplitl [Hm31]; · iexact Hm31
      isplitl [Hm32]; · iexact Hm32
      isplitl [Hm33]; · iexact Hm33
      isplitl [Hm34]; · iexact Hm34
      isplitl [Hm35]; · iexact Hm35
      isplitl [Hm36]; · iexact Hm36
      isplitl [Hm37]; · iexact Hm37
      isplitl [Hm38]; · iexact Hm38
      isplitl [Hm39]; · iexact Hm39
      isplitl [Hm40]; · iexact Hm40
      isplitl [Hm41]; · iexact Hm41
      iexact Hm42
    iexact HW

/-- The launch theorem's obligation, with the result named. -/
theorem tileObl_v (hF : (K (F := F)).Facts) :
    (K (F := F)).TileObl (D (F := F)) 𝒱 (Pv x1 w2 w4 hx1) v₀ 0 := by
  intro d c i O W hO _ _
  simp only [show (Pv x1 w2 w4 hx1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task_v d (coordsV ⟨_, hc.1⟩ ⟨_, hc.2⟩) x1 w2 w4 hx1 hF O W hO).trans (wp_mono frame _ _ fun _ => obl_post)

theorem vecSplit_v : (K (F := F)).VecSplit' (Pv x1 w2 w4 hx1) 0 := by
  intro d c
  unfold Pv P; dsimp only
  iintro H
  imodintro
  isplitl [H]; · iexact H
  iintro H; iexact H

/-- What the call takes, for the payloads with the result named: the same as without. -/
theorem hst_v (d : Dev nD) : (callTakes d (x1 d) (w2 d) (w4 d) : sProp 𝕄)
    ⊢ iprop(Rem x1 w2 w4 d ∗ bigSep Finset.univ fun c : Fin ((K (F := F)).nCore 0) => (Pv x1 w2 w4 hx1).st 0 d c) :=
  hst x1 w2 w4 d

/-- What the call returns: the three operand arrays whole again and the result array whole at `partG`. -/
theorem hdn_v (d : Dev nD) : (iprop(Rem x1 w2 w4 d ∗ bigSep Finset.univ fun c : Fin ((K (F := F)).nCore 0) => (Pv x1 w2 w4 hx1).dn 0 d c) : sProp 𝕄)
    ⊢ iprop(v1Pts d (x1 d) ∗ v2Pts d (w2 d) ∗ v4Pts d (w4 d) ∗ ∃ f, ⌜f = partG x1 w2 w4 hx1 d⌝ ∗ v5Pts d f) := by
  unfold Pv; dsimp only
  refine (hdn_at x1 w2 w4 d (partG x1 w2 w4 hx1 d)).trans ?_
  iintro ⟨H1, H2, H4, H5⟩
  isplitl [H1]; · iexact H1
  isplitl [H2]; · iexact H2
  isplitl [H4]; · iexact H4
  iexists _; isplitr
  · ipureintro; rfl
  · iexact H5

end PayV

end Cert.Proof.KTile
end
-- ==== Proof.KerChunkValue.lean ====
/-
  The two loop trips at the exact values (floats are extended reals, every operation exact). Lane `x` of the cross
  trip is the sum over the 16 coordinates d of table A at `16 · xa[x] + d` times table B at `16 · xb[x] + d`; lane `x` of
  the linear trip is the sum over the 26 fields f of the linear table at `c_f[x] + 1000 · f`. Each is a fold of additions
  from zero in the order d = 0, …, 15 (f = 0, …, 25), which is the finite sum; the index words do not wrap because
  every word is at most 999.
-/
import proofs.«207464_g62843961475156_cont_9to1_m_1121_6_alg».proof.Proof.KerChunk
import Idealize.ShloMosaic.PureOps.Ideal.Laws
import Idealize.ShloMosaic.Lib.ValueIdx

noncomputable section

open scoped BigOperators

namespace Cert.KerValue

open Cert.KernelIdeal Cert.KernelIdeal.Gen Idealize.ShloMosaic Idealize.ShloMosaic.ValueIdx

/-- Sixteen additions from zero, in order, are the sum over `Fin 16`. -/
theorem fold16 (g : Fin 16 → EReal) : ((((((((((((((((0 + g 0) + g 1) + g 2) + g 3) + g 4) + g 5) + g 6) + g 7) + g 8) + g 9) + g 10) + g 11) + g 12) + g 13) + g 14) + g 15) = ∑ d : Fin 16, g d := by
  simp only [Fin.sum_univ_castSucc, Fin.sum_univ_zero]
  rfl

/-- Twenty-six additions from zero, in order, are the sum over `Fin 26`. -/
theorem fold26 (g : Fin 26 → EReal) : ((((((((((((((((((((((((((0 + g 0) + g 1) + g 2) + g 3) + g 4) + g 5) + g 6) + g 7) + g 8) + g 9) + g 10) + g 11) + g 12) + g 13) + g 14) + g 15) + g 16) + g 17) + g 18) + g 19) + g 20) + g 21) + g 22) + g 23) + g 24) + g 25) = ∑ d : Fin 26, g d := by
  simp only [Fin.sum_univ_castSucc, Fin.sum_univ_zero]
  rfl

/-- Lane `x` of an indexed load from a table of `N` entries by one vector of words: the entry the lane's word names. -/
theorem ld_eq {N : Nat} (tab : Vec Ideal ⟨1, ![N]⟩ .f32) (v : IVec S16 32)
    (h : ∀ a x, ((![v] : Fin 1 → IVec S16 32) a x).toNat < (⟨1, ![N]⟩ : Shape).size a) (x : S16.Idx) (n : Nat) (hn : n < N)
    (e : (v x).toNat = n) : loadIdx tab ![v] h x = tab (ix1 ⟨n, hn⟩) := by
  show tab (idxAt ![v] h x) = _
  congr 1
  funext a
  apply Fin.ext
  match a with
  | ⟨0, _⟩ => exact e

/-- Sixteen times a word at most 999 plus a constant at most 15, as a number. -/
theorem word16 (v : IVec S16 32) (hv : ∀ x, (v x).toNat ≤ 999) (c : BitVec 32) (hc : c.toNat ≤ 15) (x : S16.Idx) :
    (addi (muli v (broadcast S16 16#32)) (broadcast S16 c) x).toNat = 16 * (v x).toNat + c.toNat := by
  show ((v x) * 16#32 + c).toNat = _
  have := hv x
  have e16 : (16#32 : BitVec 32).toNat = 16 := by decide
  rw [BitVec.toNat_add, BitVec.toNat_mul, e16]
  omega

/-- A word at most 999 plus a constant at most 25000, as a number. -/
theorem wordLin (v : IVec S16 32) (hv : ∀ x, (v x).toNat ≤ 999) (c : BitVec 32) (hc : c.toNat ≤ 25000) (x : S16.Idx) :
    (addi v (broadcast S16 c) x).toNat = (v x).toNat + c.toNat := by
  show ((v x) + c).toNat = _
  have := hv x
  rw [BitVec.toNat_add]
  omega

theorem acc_lt {v : IVec S16 32} (hv : ∀ x, (v x).toNat ≤ 999) (x : S16.Idx) (d : Fin 16) :
    16 * (v x).toNat + d.val < 16000 := by
  have := hv x; have := d.isLt; omega

theorem lin_lt {c : Fin 26 → IVec S16 32} (hc : ∀ f x, (c f x).toNat ≤ 999) (x : S16.Idx) (f : Fin 26) :
    (c f x).toNat + 1000 * f.val < 26112 := by
  have := hc f x; have := f.isLt; omega

/-- Lane `x` of the cross trip: the inner product over the 16 coordinates of the two table rows the lane's words name. -/
theorem accChunk_apply (taba tabb : Vec Ideal S16000 .f32) (xa xb : Vec Ideal S16 .i32)
    (ha : ∀ x, (xa x).toNat ≤ 999) (hb : ∀ x, (xb x).toNat ≤ 999) (x : S16.Idx) :
    accChunk taba tabb xa xb ha hb x
      = ∑ d : Fin 16, taba (ix1 ⟨16 * (xa x).toNat + d.val, acc_lt ha x d⟩) * tabb (ix1 ⟨16 * (xb x).toNat + d.val, acc_lt hb x d⟩) := by
  have ea0 : ∀ h, loadIdx taba ![k0_pay40 xa] h x = taba (ix1 ⟨16 * (xa x).toNat + (0 : Fin 16).val, acc_lt ha x 0⟩) :=
    fun h => ld_eq taba _ h x _ _ (word16 xa ha 0#32 (by decide) x)
  have eb0 : ∀ h, loadIdx tabb ![k0_pay41 xb] h x = tabb (ix1 ⟨16 * (xb x).toNat + (0 : Fin 16).val, acc_lt hb x 0⟩) :=
    fun h => ld_eq tabb _ h x _ _ (word16 xb hb 0#32 (by decide) x)
  have ea1 : ∀ h, loadIdx taba ![k0_pay42 xa] h x = taba (ix1 ⟨16 * (xa x).toNat + (1 : Fin 16).val, acc_lt ha x 1⟩) :=
    fun h => ld_eq taba _ h x _ _ (word16 xa ha 1#32 (by decide) x)
  have eb1 : ∀ h, loadIdx tabb ![k0_pay43 xb] h x = tabb (ix1 ⟨16 * (xb x).toNat + (1 : Fin 16).val, acc_lt hb x 1⟩) :=
    fun h => ld_eq tabb _ h x _ _ (word16 xb hb 1#32 (by decide) x)
  have ea2 : ∀ h, loadIdx taba ![k0_pay44 xa] h x = taba (ix1 ⟨16 * (xa x).toNat + (2 : Fin 16).val, acc_lt ha x 2⟩) :=
    fun h => ld_eq taba _ h x _ _ (word16 xa ha 2#32 (by decide) x)
  have eb2 : ∀ h, loadIdx tabb ![k0_pay45 xb] h x = tabb (ix1 ⟨16 * (xb x).toNat + (2 : Fin 16).val, acc_lt hb x 2⟩) :=
    fun h => ld_eq tabb _ h x _ _ (word16 xb hb 2#32 (by decide) x)
  have ea3 : ∀ h, loadIdx taba ![k0_pay47 xa] h x = taba (ix1 ⟨16 * (xa x).toNat + (3 : Fin 16).val, acc_lt ha x 3⟩) :=
    fun h => ld_eq taba _ h x _ _ (word16 xa ha 3#32 (by decide) x)
  have eb3 : ∀ h, loadIdx tabb ![k0_pay48 xb] h x = tabb (ix1 ⟨16 * (xb x).toNat + (3 : Fin 16).val, acc_lt hb x 3⟩) :=
    fun h => ld_eq tabb _ h x _ _ (word16 xb hb 3#32 (by decide) x)
  have ea4 : ∀ h, loadIdx taba ![k0_pay49 (k0_pay38 xa)] h x = taba (ix1 ⟨16 * (xa x).toNat + (4 : Fin 16).val, acc_lt ha x 4⟩) :=
    fun h => ld_eq taba _ h x _ _ (word16 xa ha 4#32 (by decide) x)
  have eb4 : ∀ h, loadIdx tabb ![k0_pay50 (k0_pay39 xb)] h x = tabb (ix1 ⟨16 * (xb x).toNat + (4 : Fin 16).val, acc_lt hb x 4⟩) :=
    fun h => ld_eq tabb _ h x _ _ (word16 xb hb 4#32 (by decide) x)
  have ea5 : ∀ h, loadIdx taba ![k0_pay51 (k0_pay38 xa)] h x = taba (ix1 ⟨16 * (xa x).toNat + (5 : Fin 16).val, acc_lt ha x 5⟩) :=
    fun h => ld_eq taba _ h x _ _ (word16 xa ha 5#32 (by decide) x)
  have eb5 : ∀ h, loadIdx tabb ![k0_pay52 (k0_pay39 xb)] h x = tabb (ix1 ⟨16 * (xb x).toNat + (5 : Fin 16).val, acc_lt hb x 5⟩) :=
    fun h => ld_eq tabb _ h x _ _ (word16 xb hb 5#32 (by decide) x)
  have ea6 : ∀ h, loadIdx taba ![k0_pay53 (k0_pay38 xa)] h x = taba (ix1 ⟨16 * (xa x).toNat + (6 : Fin 16).val, acc_lt ha x 6⟩) :=
    fun h => ld_eq taba _ h x _ _ (word16 xa ha 6#32 (by decide) x)
  have eb6 : ∀ h, loadIdx tabb ![k0_pay54 (k0_pay39 xb)] h x = tabb (ix1 ⟨16 * (xb x).toNat + (6 : Fin 16).val, acc_lt hb x 6⟩) :=
    fun h => ld_eq tabb _ h x _ _ (word16 xb hb 6#32 (by decide) x)
  have ea7 : ∀ h, loadIdx taba ![k0_pay55 (k0_pay38 xa)] h x = taba (ix1 ⟨16 * (xa x).toNat + (7 : Fin 16).val, acc_lt ha x 7⟩) :=
    fun h => ld_eq taba _ h x _ _ (word16 xa ha 7#32 (by decide) x)
  have eb7 : ∀ h, loadIdx tabb ![k0_pay56 (k0_pay39 xb)] h x = tabb (ix1 ⟨16 * (xb x).toNat + (7 : Fin 16).val, acc_lt hb x 7⟩) :=
    fun h => ld_eq tabb _ h x _ _ (word16 xb hb 7#32 (by decide) x)
  have ea8 : ∀ h, loadIdx taba ![k0_pay58 (k0_pay38 xa)] h x = taba (ix1 ⟨16 * (xa x).toNat + (8 : Fin 16).val, acc_lt ha x 8⟩) :=
    fun h => ld_eq taba _ h x _ _ (word16 xa ha 8#32 (by decide) x)
  have eb8 : ∀ h, loadIdx tabb ![k0_pay59 (k0_pay39 xb)] h x = tabb (ix1 ⟨16 * (xb x).toNat + (8 : Fin 16).val, acc_lt hb x 8⟩) :=
    fun h => ld_eq tabb _ h x _ _ (word16 xb hb 8#32 (by decide) x)
  have ea9 : ∀ h, loadIdx taba ![k0_pay60 (k0_pay38 xa)] h x = taba (ix1 ⟨16 * (xa x).toNat + (9 : Fin 16).val, acc_lt ha x 9⟩) :=
    fun h => ld_eq taba _ h x _ _ (word16 xa ha 9#32 (by decide) x)
  have eb9 : ∀ h, loadIdx tabb ![k0_pay61 (k0_pay39 xb)] h x = tabb (ix1 ⟨16 * (xb x).toNat + (9 : Fin 16).val, acc_lt hb x 9⟩) :=
    fun h => ld_eq tabb _ h x _ _ (word16 xb hb 9#32 (by decide) x)
  have ea10 : ∀ h, loadIdx taba ![k0_pay62 (k0_pay38 xa)] h x = taba (ix1 ⟨16 * (xa x).toNat + (10 : Fin 16).val, acc_lt ha x 10⟩) :=
    fun h => ld_eq taba _ h x _ _ (word16 xa ha 10#32 (by decide) x)
  have eb10 : ∀ h, loadIdx tabb ![k0_pay63 (k0_pay39 xb)] h x = tabb (ix1 ⟨16 * (xb x).toNat + (10 : Fin 16).val, acc_lt hb x 10⟩) :=
    fun h => ld_eq tabb _ h x _ _ (word16 xb hb 10#32 (by decide) x)
  have ea11 : ∀ h, loadIdx taba ![k0_pay64 (k0_pay38 xa)] h x = taba (ix1 ⟨16 * (xa x).toNat + (11 : Fin 16).val, acc_lt ha x 11⟩) :=
    fun h => ld_eq taba _ h x _ _ (word16 xa ha 11#32 (by decide) x)
  have eb11 : ∀ h, loadIdx tabb ![k0_pay65 (k0_pay39 xb)] h x = tabb (ix1 ⟨16 * (xb x).toNat + (11 : Fin 16).val, acc_lt hb x 11⟩) :=
    fun h => ld_eq tabb _ h x _ _ (word16 xb hb 11#32 (by decide) x)
  have ea12 : ∀ h, loadIdx taba ![k0_pay66 (k0_pay38 xa)] h x = taba (ix1 ⟨16 * (xa x).toNat + (12 : Fin 16).val, acc_lt ha x 12⟩) :=
    fun h => ld_eq taba _ h x _ _ (word16 xa ha 12#32 (by decide) x)
  have eb12 : ∀ h, loadIdx tabb ![k0_pay67 (k0_pay39 xb)] h x = tabb (ix1 ⟨16 * (xb x).toNat + (12 : Fin 16).val, acc_lt hb x 12⟩) :=
    fun h => ld_eq tabb _ h x _ _ (word16 xb hb 12#32 (by decide) x)
  have ea13 : ∀ h, loadIdx taba ![k0_pay69 (k0_pay38 xa)] h x = taba (ix1 ⟨16 * (xa x).toNat + (13 : Fin 16).val, acc_lt ha x 13⟩) :=
    fun h => ld_eq taba _ h x _ _ (word16 xa ha 13#32 (by decide) x)
  have eb13 : ∀ h, loadIdx tabb ![k0_pay70 (k0_pay39 xb)] h x = tabb (ix1 ⟨16 * (xb x).toNat + (13 : Fin 16).val, acc_lt hb x 13⟩) :=
    fun h => ld_eq tabb _ h x _ _ (word16 xb hb 13#32 (by decide) x)
  have ea14 : ∀ h, loadIdx taba ![k0_pay1 (k0_pay38 xa)] h x = taba (ix1 ⟨16 * (xa x).toNat + (14 : Fin 16).val, acc_lt ha x 14⟩) :=
    fun h => ld_eq taba _ h x _ _ (word16 xa ha 14#32 (by decide) x)
  have eb14 : ∀ h, loadIdx tabb ![k0_pay2 (k0_pay39 xb)] h x = tabb (ix1 ⟨16 * (xb x).toNat + (14 : Fin 16).val, acc_lt hb x 14⟩) :=
    fun h => ld_eq tabb _ h x _ _ (word16 xb hb 14#32 (by decide) x)
  have ea15 : ∀ h, loadIdx taba ![k0_pay3 (k0_pay38 xa)] h x = taba (ix1 ⟨16 * (xa x).toNat + (15 : Fin 16).val, acc_lt ha x 15⟩) :=
    fun h => ld_eq taba _ h x _ _ (word16 xa ha 15#32 (by decide) x)
  have eb15 : ∀ h, loadIdx tabb ![k0_pay4 (k0_pay39 xb)] h x = tabb (ix1 ⟨16 * (xb x).toNat + (15 : Fin 16).val, acc_lt hb x 15⟩) :=
    fun h => ld_eq tabb _ h x _ _ (word16 xb hb 15#32 (by decide) x)
  rw [← fold16]
  show ((((((((((((((((Ideal.ofBits .f32 0x00000000#32 + loadIdx taba ![k0_pay40 xa] (acc_inb xa ha 0#32 (by decide)) x * loadIdx tabb ![k0_pay41 xb] (acc_inb xb hb 0#32 (by decide)) x) + loadIdx taba ![k0_pay42 xa] (acc_inb xa ha 1#32 (by decide)) x * loadIdx tabb ![k0_pay43 xb] (acc_inb xb hb 1#32 (by decide)) x) + loadIdx taba ![k0_pay44 xa] (acc_inb xa ha 2#32 (by decide)) x * loadIdx tabb ![k0_pay45 xb] (acc_inb xb hb 2#32 (by decide)) x) + loadIdx taba ![k0_pay47 xa] (acc_inb xa ha 3#32 (by decide)) x * loadIdx tabb ![k0_pay48 xb] (acc_inb xb hb 3#32 (by decide)) x) + loadIdx taba ![k0_pay49 (k0_pay38 xa)] (acc_inb xa ha 4#32 (by decide)) x * loadIdx tabb ![k0_pay50 (k0_pay39 xb)] (acc_inb xb hb 4#32 (by decide)) x) + loadIdx taba ![k0_pay51 (k0_pay38 xa)] (acc_inb xa ha 5#32 (by decide)) x * loadIdx tabb ![k0_pay52 (k0_pay39 xb)] (acc_inb xb hb 5#32 (by decide)) x) + loadIdx taba ![k0_pay53 (k0_pay38 xa)] (acc_inb xa ha 6#32 (by decide)) x * loadIdx tabb ![k0_pay54 (k0_pay39 xb)] (acc_inb xb hb 6#32 (by decide)) x) + loadIdx taba ![k0_pay55 (k0_pay38 xa)] (acc_inb xa ha 7#32 (by decide)) x * loadIdx tabb ![k0_pay56 (k0_pay39 xb)] (acc_inb xb hb 7#32 (by decide)) x) + loadIdx taba ![k0_pay58 (k0_pay38 xa)] (acc_inb xa ha 8#32 (by decide)) x * loadIdx tabb ![k0_pay59 (k0_pay39 xb)] (acc_inb xb hb 8#32 (by decide)) x) + loadIdx taba ![k0_pay60 (k0_pay38 xa)] (acc_inb xa ha 9#32 (by decide)) x * loadIdx tabb ![k0_pay61 (k0_pay39 xb)] (acc_inb xb hb 9#32 (by decide)) x) + loadIdx taba ![k0_pay62 (k0_pay38 xa)] (acc_inb xa ha 10#32 (by decide)) x * loadIdx tabb ![k0_pay63 (k0_pay39 xb)] (acc_inb xb hb 10#32 (by decide)) x) + loadIdx taba ![k0_pay64 (k0_pay38 xa)] (acc_inb xa ha 11#32 (by decide)) x * loadIdx tabb ![k0_pay65 (k0_pay39 xb)] (acc_inb xb hb 11#32 (by decide)) x) + loadIdx taba ![k0_pay66 (k0_pay38 xa)] (acc_inb xa ha 12#32 (by decide)) x * loadIdx tabb ![k0_pay67 (k0_pay39 xb)] (acc_inb xb hb 12#32 (by decide)) x) + loadIdx taba ![k0_pay69 (k0_pay38 xa)] (acc_inb xa ha 13#32 (by decide)) x * loadIdx tabb ![k0_pay70 (k0_pay39 xb)] (acc_inb xb hb 13#32 (by decide)) x) + loadIdx taba ![k0_pay1 (k0_pay38 xa)] (acc_inb xa ha 14#32 (by decide)) x * loadIdx tabb ![k0_pay2 (k0_pay39 xb)] (acc_inb xb hb 14#32 (by decide)) x) + loadIdx taba ![k0_pay3 (k0_pay38 xa)] (acc_inb xa ha 15#32 (by decide)) x * loadIdx tabb ![k0_pay4 (k0_pay39 xb)] (acc_inb xb hb 15#32 (by decide)) x) = _
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32 (congrArg₂ (· * ·) (ea0 _) (eb0 _))) (congrArg₂ (· * ·) (ea1 _) (eb1 _))) (congrArg₂ (· * ·) (ea2 _) (eb2 _))) (congrArg₂ (· * ·) (ea3 _) (eb3 _))) (congrArg₂ (· * ·) (ea4 _) (eb4 _))) (congrArg₂ (· * ·) (ea5 _) (eb5 _))) (congrArg₂ (· * ·) (ea6 _) (eb6 _))) (congrArg₂ (· * ·) (ea7 _) (eb7 _))) (congrArg₂ (· * ·) (ea8 _) (eb8 _))) (congrArg₂ (· * ·) (ea9 _) (eb9 _))) (congrArg₂ (· * ·) (ea10 _) (eb10 _))) (congrArg₂ (· * ·) (ea11 _) (eb11 _))) (congrArg₂ (· * ·) (ea12 _) (eb12 _))) (congrArg₂ (· * ·) (ea13 _) (eb13 _))) (congrArg₂ (· * ·) (ea14 _) (eb14 _))) (congrArg₂ (· * ·) (ea15 _) (eb15 _)))

/-- Lane `x` of the linear trip: the sum over the 26 fields of the linear table at the lane's row of that field. -/
theorem linChunk_apply (wl : Vec Ideal S26112 .f32) (c : Fin 26 → Vec Ideal S16 .i32) (hc : ∀ f x, (c f x).toNat ≤ 999)
    (x : S16.Idx) :
    linChunk wl c hc x = ∑ f : Fin 26, wl (ix1 ⟨(c f x).toNat + 1000 * f.val, lin_lt hc x f⟩) := by
  have e0 : ∀ h, loadIdx wl ![k0_pay11 (c 0)] h x = wl (ix1 ⟨(c 0 x).toNat + 1000 * (0 : Fin 26).val, lin_lt hc x 0⟩) :=
    fun h => ld_eq wl _ h x _ _ (wordLin (c 0) (hc 0) 0#32 (by decide) x)
  have e1 : ∀ h, loadIdx wl ![k0_pay12 (c 1)] h x = wl (ix1 ⟨(c 1 x).toNat + 1000 * (1 : Fin 26).val, lin_lt hc x 1⟩) :=
    fun h => ld_eq wl _ h x _ _ (wordLin (c 1) (hc 1) 1000#32 (by decide) x)
  have e2 : ∀ h, loadIdx wl ![k0_pay13 (c 2)] h x = wl (ix1 ⟨(c 2 x).toNat + 1000 * (2 : Fin 26).val, lin_lt hc x 2⟩) :=
    fun h => ld_eq wl _ h x _ _ (wordLin (c 2) (hc 2) 2000#32 (by decide) x)
  have e3 : ∀ h, loadIdx wl ![k0_pay14 (c 3)] h x = wl (ix1 ⟨(c 3 x).toNat + 1000 * (3 : Fin 26).val, lin_lt hc x 3⟩) :=
    fun h => ld_eq wl _ h x _ _ (wordLin (c 3) (hc 3) 3000#32 (by decide) x)
  have e4 : ∀ h, loadIdx wl ![k0_pay15 (c 4)] h x = wl (ix1 ⟨(c 4 x).toNat + 1000 * (4 : Fin 26).val, lin_lt hc x 4⟩) :=
    fun h => ld_eq wl _ h x _ _ (wordLin (c 4) (hc 4) 4000#32 (by decide) x)
  have e5 : ∀ h, loadIdx wl ![k0_pay17 (c 5) 5000#32] h x = wl (ix1 ⟨(c 5 x).toNat + 1000 * (5 : Fin 26).val, lin_lt hc x 5⟩) :=
    fun h => ld_eq wl _ h x _ _ (wordLin (c 5) (hc 5) 5000#32 (by decide) x)
  have e6 : ∀ h, loadIdx wl ![k0_pay18 (c 6)] h x = wl (ix1 ⟨(c 6 x).toNat + 1000 * (6 : Fin 26).val, lin_lt hc x 6⟩) :=
    fun h => ld_eq wl _ h x _ _ (wordLin (c 6) (hc 6) 6000#32 (by decide) x)
  have e7 : ∀ h, loadIdx wl ![k0_pay19 (c 7)] h x = wl (ix1 ⟨(c 7 x).toNat + 1000 * (7 : Fin 26).val, lin_lt hc x 7⟩) :=
    fun h => ld_eq wl _ h x _ _ (wordLin (c 7) (hc 7) 7000#32 (by decide) x)
  have e8 : ∀ h, loadIdx wl ![k0_pay20 (c 8)] h x = wl (ix1 ⟨(c 8 x).toNat + 1000 * (8 : Fin 26).val, lin_lt hc x 8⟩) :=
    fun h => ld_eq wl _ h x _ _ (wordLin (c 8) (hc 8) 8000#32 (by decide) x)
  have e9 : ∀ h, loadIdx wl ![k0_pay21 (c 9)] h x = wl (ix1 ⟨(c 9 x).toNat + 1000 * (9 : Fin 26).val, lin_lt hc x 9⟩) :=
    fun h => ld_eq wl _ h x _ _ (wordLin (c 9) (hc 9) 9000#32 (by decide) x)
  have e10 : ∀ h, loadIdx wl ![k0_pay22 (c 10)] h x = wl (ix1 ⟨(c 10 x).toNat + 1000 * (10 : Fin 26).val, lin_lt hc x 10⟩) :=
    fun h => ld_eq wl _ h x _ _ (wordLin (c 10) (hc 10) 10000#32 (by decide) x)
  have e11 : ∀ h, loadIdx wl ![k0_pay24 (c 11) 11000#32] h x = wl (ix1 ⟨(c 11 x).toNat + 1000 * (11 : Fin 26).val, lin_lt hc x 11⟩) :=
    fun h => ld_eq wl _ h x _ _ (wordLin (c 11) (hc 11) 11000#32 (by decide) x)
  have e12 : ∀ h, loadIdx wl ![k0_pay25 (c 12)] h x = wl (ix1 ⟨(c 12 x).toNat + 1000 * (12 : Fin 26).val, lin_lt hc x 12⟩) :=
    fun h => ld_eq wl _ h x _ _ (wordLin (c 12) (hc 12) 12000#32 (by decide) x)
  have e13 : ∀ h, loadIdx wl ![k0_pay26 (c 13)] h x = wl (ix1 ⟨(c 13 x).toNat + 1000 * (13 : Fin 26).val, lin_lt hc x 13⟩) :=
    fun h => ld_eq wl _ h x _ _ (wordLin (c 13) (hc 13) 13000#32 (by decide) x)
  have e14 : ∀ h, loadIdx wl ![k0_pay27 (c 14)] h x = wl (ix1 ⟨(c 14 x).toNat + 1000 * (14 : Fin 26).val, lin_lt hc x 14⟩) :=
    fun h => ld_eq wl _ h x _ _ (wordLin (c 14) (hc 14) 14000#32 (by decide) x)
  have e15 : ∀ h, loadIdx wl ![k0_pay28 (c 15)] h x = wl (ix1 ⟨(c 15 x).toNat + 1000 * (15 : Fin 26).val, lin_lt hc x 15⟩) :=
    fun h => ld_eq wl _ h x _ _ (wordLin (c 15) (hc 15) 15000#32 (by decide) x)
  have e16 : ∀ h, loadIdx wl ![k0_pay29 (c 16)] h x = wl (ix1 ⟨(c 16 x).toNat + 1000 * (16 : Fin 26).val, lin_lt hc x 16⟩) :=
    fun h => ld_eq wl _ h x _ _ (wordLin (c 16) (hc 16) 16000#32 (by decide) x)
  have e17 : ∀ h, loadIdx wl ![k0_pay31 (c 17) 17000#32] h x = wl (ix1 ⟨(c 17 x).toNat + 1000 * (17 : Fin 26).val, lin_lt hc x 17⟩) :=
    fun h => ld_eq wl _ h x _ _ (wordLin (c 17) (hc 17) 17000#32 (by decide) x)
  have e18 : ∀ h, loadIdx wl ![k0_pay32 (c 18)] h x = wl (ix1 ⟨(c 18 x).toNat + 1000 * (18 : Fin 26).val, lin_lt hc x 18⟩) :=
    fun h => ld_eq wl _ h x _ _ (wordLin (c 18) (hc 18) 18000#32 (by decide) x)
  have e19 : ∀ h, loadIdx wl ![k0_pay33 (c 19)] h x = wl (ix1 ⟨(c 19 x).toNat + 1000 * (19 : Fin 26).val, lin_lt hc x 19⟩) :=
    fun h => ld_eq wl _ h x _ _ (wordLin (c 19) (hc 19) 19000#32 (by decide) x)
  have e20 : ∀ h, loadIdx wl ![k0_pay34 (c 20)] h x = wl (ix1 ⟨(c 20 x).toNat + 1000 * (20 : Fin 26).val, lin_lt hc x 20⟩) :=
    fun h => ld_eq wl _ h x _ _ (wordLin (c 20) (hc 20) 20000#32 (by decide) x)
  have e21 : ∀ h, loadIdx wl ![k0_pay35 (c 21)] h x = wl (ix1 ⟨(c 21 x).toNat + 1000 * (21 : Fin 26).val, lin_lt hc x 21⟩) :=
    fun h => ld_eq wl _ h x _ _ (wordLin (c 21) (hc 21) 21000#32 (by decide) x)
  have e22 : ∀ h, loadIdx wl ![k0_pay36 (c 22)] h x = wl (ix1 ⟨(c 22 x).toNat + 1000 * (22 : Fin 26).val, lin_lt hc x 22⟩) :=
    fun h => ld_eq wl _ h x _ _ (wordLin (c 22) (hc 22) 22000#32 (by decide) x)
  have e23 : ∀ h, loadIdx wl ![k0_pay104 (c 23) 23000#32] h x = wl (ix1 ⟨(c 23 x).toNat + 1000 * (23 : Fin 26).val, lin_lt hc x 23⟩) :=
    fun h => ld_eq wl _ h x _ _ (wordLin (c 23) (hc 23) 23000#32 (by decide) x)
  have e24 : ∀ h, loadIdx wl ![k0_pay105 (c 24)] h x = wl (ix1 ⟨(c 24 x).toNat + 1000 * (24 : Fin 26).val, lin_lt hc x 24⟩) :=
    fun h => ld_eq wl _ h x _ _ (wordLin (c 24) (hc 24) 24000#32 (by decide) x)
  have e25 : ∀ h, loadIdx wl ![k0_pay106 (c 25)] h x = wl (ix1 ⟨(c 25 x).toNat + 1000 * (25 : Fin 26).val, lin_lt hc x 25⟩) :=
    fun h => ld_eq wl _ h x _ _ (wordLin (c 25) (hc 25) 25000#32 (by decide) x)
  rw [← fold26]
  show ((((((((((((((((((((((((((Ideal.ofBits .f32 0x00000000#32 + loadIdx wl ![k0_pay11 (c 0)] (lin_inb (c 0) (hc 0) 0#32 (by decide)) x) + loadIdx wl ![k0_pay12 (c 1)] (lin_inb (c 1) (hc 1) 1000#32 (by decide)) x) + loadIdx wl ![k0_pay13 (c 2)] (lin_inb (c 2) (hc 2) 2000#32 (by decide)) x) + loadIdx wl ![k0_pay14 (c 3)] (lin_inb (c 3) (hc 3) 3000#32 (by decide)) x) + loadIdx wl ![k0_pay15 (c 4)] (lin_inb (c 4) (hc 4) 4000#32 (by decide)) x) + loadIdx wl ![k0_pay17 (c 5) 5000#32] (lin_inb (c 5) (hc 5) 5000#32 (by decide)) x) + loadIdx wl ![k0_pay18 (c 6)] (lin_inb (c 6) (hc 6) 6000#32 (by decide)) x) + loadIdx wl ![k0_pay19 (c 7)] (lin_inb (c 7) (hc 7) 7000#32 (by decide)) x) + loadIdx wl ![k0_pay20 (c 8)] (lin_inb (c 8) (hc 8) 8000#32 (by decide)) x) + loadIdx wl ![k0_pay21 (c 9)] (lin_inb (c 9) (hc 9) 9000#32 (by decide)) x) + loadIdx wl ![k0_pay22 (c 10)] (lin_inb (c 10) (hc 10) 10000#32 (by decide)) x) + loadIdx wl ![k0_pay24 (c 11) 11000#32] (lin_inb (c 11) (hc 11) 11000#32 (by decide)) x) + loadIdx wl ![k0_pay25 (c 12)] (lin_inb (c 12) (hc 12) 12000#32 (by decide)) x) + loadIdx wl ![k0_pay26 (c 13)] (lin_inb (c 13) (hc 13) 13000#32 (by decide)) x) + loadIdx wl ![k0_pay27 (c 14)] (lin_inb (c 14) (hc 14) 14000#32 (by decide)) x) + loadIdx wl ![k0_pay28 (c 15)] (lin_inb (c 15) (hc 15) 15000#32 (by decide)) x) + loadIdx wl ![k0_pay29 (c 16)] (lin_inb (c 16) (hc 16) 16000#32 (by decide)) x) + loadIdx wl ![k0_pay31 (c 17) 17000#32] (lin_inb (c 17) (hc 17) 17000#32 (by decide)) x) + loadIdx wl ![k0_pay32 (c 18)] (lin_inb (c 18) (hc 18) 18000#32 (by decide)) x) + loadIdx wl ![k0_pay33 (c 19)] (lin_inb (c 19) (hc 19) 19000#32 (by decide)) x) + loadIdx wl ![k0_pay34 (c 20)] (lin_inb (c 20) (hc 20) 20000#32 (by decide)) x) + loadIdx wl ![k0_pay35 (c 21)] (lin_inb (c 21) (hc 21) 21000#32 (by decide)) x) + loadIdx wl ![k0_pay36 (c 22)] (lin_inb (c 22) (hc 22) 22000#32 (by decide)) x) + loadIdx wl ![k0_pay104 (c 23) 23000#32] (lin_inb (c 23) (hc 23) 23000#32 (by decide)) x) + loadIdx wl ![k0_pay105 (c 24)] (lin_inb (c 24) (hc 24) 24000#32 (by decide)) x) + loadIdx wl ![k0_pay106 (c 25)] (lin_inb (c 25) (hc 25) 25000#32 (by decide)) x) = _
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32 (e0 _)) (e1 _)) (e2 _)) (e3 _)) (e4 _)) (e5 _)) (e6 _)) (e7 _)) (e8 _)) (e9 _)) (e10 _)) (e11 _)) (e12 _)) (e13 _)) (e14 _)) (e15 _)) (e16 _)) (e17 _)) (e18 _)) (e19 _)) (e20 _)) (e21 _)) (e22 _)) (e23 _)) (e24 _)) (e25 _))

end Cert.KerValue

end
-- ==== Proof.KerValue.lean ====
/-
  The first program's arithmetic against the common specification, as statements about functions.

  A cross trip whose tables are table `j`'s rows of field `i` and table `i`'s rows of field `j`, and whose index columns
  are columns `i` and `j` of the index matrix at the lanes' batch elements, computes the specification's cross term of
  `(i, j)` at each lane's batch element. A linear trip over the 26 columns computes the specification's linear term. And
  the final reduction of 328 rows of partial sums — row p < 325 the cross term of task p's pair, row 325 the linear
  term, rows 326 and 327 zero — plus the bias, through the logistic function, is the specification's closed form of
  the first program.
-/
import proofs.«207464_g62843961475156_cont_9to1_m_1121_6_alg».proof.Proof.KerChunkValue
import proofs.«207464_g62843961475156_cont_9to1_m_1121_6_alg».proof.Proof.Spec
import Idealize.ShloMosaic.Lib.Pipeline.Value

noncomputable section

open scoped BigOperators

namespace Cert.KerValue

open Cert.KernelIdeal Cert.KernelIdeal.Gen Idealize.ShloMosaic Idealize.ShloMosaic.ValueIdx Cert.Spec

/-- The specification's row of field `f` when the entry is the word `w ≤ 999`: `1000 · f + w`. -/
theorem rowId_eq (x : IVec SX 32) (b : Fin 4096) (f : Fin 26) (w : BitVec 32) (hw : w = x (ix2 b f)) (hle : w.toNat ≤ 999)
    (h' : 1000 * f.val + w.toNat < 26000) : rowId x b f = ⟨1000 * f.val + w.toNat, h'⟩ := by
  apply Fin.ext
  show ((x (ix2 b f)).toNat + 1000 * f.val) % 26000 = 1000 * f.val + w.toNat
  rw [← hw, Nat.mod_eq_of_lt (by omega)]
  omega

/-- A cross trip computes the cross term of `(i, j)` at each lane's batch element `bs l`: table A holds table `j`'s rows
    `1000 · i + r`, table B table `i`'s rows `1000 · j + r` (16 coordinates a row), `xa`, `xb` the lanes of columns `i`, `j`. -/
theorem accChunk_cross (x : IVec SX 32) (W : FVec Ideal SW .f32) (i j : Fin 26)
    (taba tabb : Vec Ideal S16000 .f32) (xa xb : Vec Ideal S16 .i32) (bs : S16.Idx → Fin 4096)
    (hta : ∀ (r : Fin 1000) (e : Fin 16) (h : 16 * r.val + e.val < 16000) (h' : 1000 * i.val + r.val < 26000),
      taba (ix1 ⟨16 * r.val + e.val, h⟩) = W (ix3 j ⟨1000 * i.val + r.val, h'⟩ e))
    (htb : ∀ (r : Fin 1000) (e : Fin 16) (h : 16 * r.val + e.val < 16000) (h' : 1000 * j.val + r.val < 26000),
      tabb (ix1 ⟨16 * r.val + e.val, h⟩) = W (ix3 i ⟨1000 * j.val + r.val, h'⟩ e))
    (hxa : ∀ l, xa l = x (ix2 (bs l) i)) (hxb : ∀ l, xb l = x (ix2 (bs l) j))
    (ha : ∀ l, (xa l).toNat ≤ 999) (hb : ∀ l, (xb l).toNat ≤ 999) (l : S16.Idx) :
    accChunk taba tabb xa xb ha hb l = cross x W (bs l) i j := by
  have hi := i.isLt
  have hj := j.isLt
  have hla := ha l
  have hlb := hb l
  have hra : (xa l).toNat < 1000 := by omega
  have hrb : (xb l).toNat < 1000 := by omega
  have h1 : 1000 * i.val + (xa l).toNat < 26000 := by omega
  have h2 : 1000 * j.val + (xb l).toNat < 26000 := by omega
  rw [accChunk_apply]
  unfold cross
  refine Finset.sum_congr rfl fun d _ => ?_
  rw [rowId_eq x (bs l) i (xa l) (hxa l) hla h1, rowId_eq x (bs l) j (xb l) (hxb l) hlb h2]
  exact congrArg₂ (· * ·) (hta ⟨(xa l).toNat, hra⟩ d (acc_lt ha l d) h1) (htb ⟨(xb l).toNat, hrb⟩ d (acc_lt hb l d) h2)

/-- A linear trip computes the linear term at each lane's batch element: the padded table agrees with the linear table
    on its 26000 rows, `c f` the lanes of column `f`. -/
theorem linChunk_lin (x : IVec SX 32) (Wl : FVec Ideal SL .f32) (wl : Vec Ideal S26112 .f32)
    (c : Fin 26 → Vec Ideal S16 .i32) (bs : S16.Idx → Fin 4096)
    (hwl : ∀ (r : Fin 26000) (h : r.val < 26112), wl (ix1 ⟨r.val, h⟩) = Wl (ix2 r 0))
    (hcx : ∀ f l, c f l = x (ix2 (bs l) f)) (hc : ∀ f l, (c f l).toNat ≤ 999) (l : S16.Idx) :
    linChunk wl c hc l = lin x Wl (bs l) := by
  rw [linChunk_apply]
  unfold lin
  refine Finset.sum_congr rfl fun f _ => ?_
  have hf := f.isLt
  have hle := hc f l
  have h1 : 1000 * f.val + (c f l).toNat < 26000 := by omega
  have h2 : (c f l).toNat + 1000 * f.val < 26000 := by omega
  rw [rowId_eq x (bs l) f (c f l) (hcx f l) hle h1]
  refine (hwl ⟨(c f l).toNat + 1000 * f.val, h2⟩ (lin_lt hc l f)).trans ?_
  exact congrArg (fun r => Wl (ix2 r 0)) (Fin.ext (by show (c f l).toNat + 1000 * f.val = 1000 * f.val + (c f l).toNat; omega))

/-- A scratch table copied out of the flat tables at offset `16 · (26000 · j + 1000 · i)` holds table `j`'s rows
    `1000 · i + r`, `r < 1000`, sixteen coordinates a row (the flat tables hold `W[j, r, e]` at `(26000 · j + r) · 16 + e`). -/
theorem table_rows (W : FVec Ideal SW .f32) (wf : Vec Ideal S10816000 .f32)
    (hwf : ∀ (j : Fin 26) (r : Fin 26000) (e : Fin 16) (h : (j.val * 26000 + r.val) * 16 + e.val < 10816000),
      wf (ix1 ⟨(j.val * 26000 + r.val) * 16 + e.val, h⟩) = W (ix3 j r e))
    (i j : Fin 26) (tab : Vec Ideal S16000 .f32)
    (htab : ∀ (n : Fin 16000) (h : 16 * (26000 * j.val + 1000 * i.val) + n.val < 10816000),
      tab (ix1 n) = wf (ix1 ⟨16 * (26000 * j.val + 1000 * i.val) + n.val, h⟩)) :
    ∀ (r : Fin 1000) (e : Fin 16) (h : 16 * r.val + e.val < 16000) (h' : 1000 * i.val + r.val < 26000),
      tab (ix1 ⟨16 * r.val + e.val, h⟩) = W (ix3 j ⟨1000 * i.val + r.val, h'⟩ e) := by
  intro r e h h'
  have hi := i.isLt
  have hj := j.isLt
  have hr := r.isLt
  have he := e.isLt
  have h1 : 16 * (26000 * j.val + 1000 * i.val) + (16 * r.val + e.val) < 10816000 := by omega
  have h2 : (j.val * 26000 + (1000 * i.val + r.val)) * 16 + e.val < 10816000 := by omega
  refine (htab ⟨16 * r.val + e.val, h⟩ h1).trans (Eq.trans ?_ (hwf j ⟨1000 * i.val + r.val, h'⟩ e h2))
  exact congrArg (fun n => wf (ix1 n)) (Fin.ext (by
    show 16 * (26000 * j.val + 1000 * i.val) + (16 * r.val + e.val) = (j.val * 26000 + (1000 * i.val + r.val)) * 16 + e.val
    omega))

/-- A scratch column copied out of the flat transposed indices at offset `4096 · f` holds column `f` of the index
    matrix (the flat array holds `x[b, f]` at `4096 · f + b`). -/
theorem column_rows (x : IVec SX 32) (xt : Vec Ideal S106496 .i32)
    (hxt : ∀ (f : Fin 26) (b : Fin 4096) (h : f.val * 4096 + b.val < 106496), xt (ix1 ⟨f.val * 4096 + b.val, h⟩) = x (ix2 b f))
    (f : Fin 26) (col : Vec Ideal S4096 .i32)
    (hcol : ∀ (n : Fin 4096) (h : 4096 * f.val + n.val < 106496), col (ix1 n) = xt (ix1 ⟨4096 * f.val + n.val, h⟩))
    (n : Fin 4096) : col (ix1 n) = x (ix2 n f) := by
  have hf := f.isLt
  have hn := n.isLt
  have h1 : 4096 * f.val + n.val < 106496 := by omega
  have h2 : f.val * 4096 + n.val < 106496 := by omega
  refine (hcol n h1).trans (Eq.trans ?_ (hxt f n h2))
  exact congrArg (fun k => xt (ix1 k)) (Fin.ext (by show 4096 * f.val + n.val = f.val * 4096 + n.val; omega))

/-- The line of zeros the linear loop also stores is the number zero. -/
theorem zeroLine_apply (l : S16.Idx) : k0_pay108 (F := Ideal) l = 0 := by
  show Ideal.ofBits .f32 0x00000000#32 = 0
  exact Ideal.ofBits_zero_f32

/-- The final reduction at batch element `b`: the logistic function of the sum of the 328 rows plus the bias. -/
theorem combine_apply (part : Vec Ideal S328x4096 .f32) (b0 : EReal) (b : Fin 4096) :
    k1_pay1 (F := Ideal) part b0 (ix1 b) = Ideal.logistic ((∑ r : Fin 328, part (ix2 r b)) + b0) := by
  unfold k1_pay1
  show Ideal.logistic (multiReduction (F := Ideal) .add [0] S4096 (shapeCast S328x4096 part shapeCasts_S328x4096_S328x4096) 0x00000000#32
    reduces_S328x4096_S4096 (.inl rfl) rfl (ix1 b) + b0) = _
  refine congrArg (fun s => Ideal.logistic (s + b0)) ?_
  refine (Ideal.multiReduction_add_single (shapeCast S328x4096 part shapeCasts_S328x4096_S328x4096) 0x00000000#32
    reduces_S328x4096_S4096 (.inl rfl) rfl (ix1 b)).trans ?_
  refine Finset.sum_congr rfl fun r _ => ?_
  refine (congrFun (shapeCast_self part shapeCasts_S328x4096_S328x4096) _).trans (congrArg part ?_)
  funext a; apply Fin.ext; match a with | ⟨0, _⟩ => rfl | ⟨1, _⟩ => rfl

/-- With the rows of partial sums as the tasks leave them, the final reduction is the specification's closed form of
    the first program at `b`. -/
theorem combine_kerOut (x : IVec SX 32) (W : FVec Ideal SW .f32) (Wl : FVec Ideal SL .f32) (bias : FVec Ideal SB .f32)
    (part : Vec Ideal S328x4096 .f32) (b : Fin 4096)
    (hp : ∀ (p : Fin 325) (h : p.val < 328), part (ix2 ⟨p.val, h⟩ b) = cross x W b (ti p) (tj p))
    (hl : part (ix2 (325 : Fin 328) b) = lin x Wl b)
    (h6 : part (ix2 (326 : Fin 328) b) = 0) (h7 : part (ix2 (327 : Fin 328) b) = 0) :
    k1_pay1 (F := Ideal) part (bias (ix1 0)) (ix1 b) = kerOut x W Wl bias (ix2 b 0) := by
  rw [combine_apply]
  show _ = Ideal.logistic (((∑ p : Fin 325, cross x W b (ti p) (tj p)) + lin x Wl b) + bias (ix1 0))
  have hs : (∑ r : Fin 328, part (ix2 r b)) = (∑ p : Fin 325, cross x W b (ti p) (tj p)) + lin x Wl b := by
    rw [Fin.sum_univ_castSucc, Fin.sum_univ_castSucc, Fin.sum_univ_castSucc]
    have e7 : part (ix2 (Fin.last 327) b) = 0 := h7
    have e6 : part (ix2 (Fin.castSucc (Fin.last 326)) b) = 0 := h6
    have e5 : part (ix2 (Fin.castSucc (Fin.castSucc (Fin.last 325))) b) = lin x Wl b := hl
    rw [e7, e6, e5, add_zero, add_zero]
    exact congrArg (· + lin x Wl b) (Finset.sum_congr rfl fun p _ => hp p (by have := p.isLt; omega))
  rw [hs]

end Cert.KerValue

end
-- ==== Proof.KerOut.lean ====
/-
  The first program's result is the specification's closed form.

  @main's result is a function of the arguments and of the partial sums the SparseCore call leaves: the partial sums as 328
  rows of 4096, their column sums plus the bias through the logistic function, as a column. When row `p < 325` holds the
  cross terms of task `p`'s pair of fields, row 325 the linear terms and rows 326 and 327 zeros, that is the
  specification's closed form of the first program.
-/
import proofs.«207464_g62843961475156_cont_9to1_m_1121_6_alg».proof.Proof.Launch
import proofs.«207464_g62843961475156_cont_9to1_m_1121_6_alg».proof.Proof.KerValue

noncomputable section

namespace Cert.Proof.KLaunch

open Cert.KernelIdeal Cert.KernelIdeal.Gen
open Idealize.ShloMosaic Idealize.ShloMosaic.ValueIdx
open Idealize.SL Idealize.SL.Sem
open Cert.Spec

variable (m : (ℓ : Loc nD τ sig) → Buf (Elt Ideal) ℓ)

/-- The four arguments of device `d`, at the specification's types. -/
abbrev argX (d : Dev nD) : IVec SX 32 := m ((SparseCore.T d).loc main_arg0)
abbrev argW (d : Dev nD) : FVec Ideal SW .f32 := m ((SparseCore.T d).loc main_arg1)
abbrev argWl (d : Dev nD) : FVec Ideal SL .f32 := m ((SparseCore.T d).loc main_arg2)
abbrev argB (d : Dev nD) : FVec Ideal SB .f32 := m ((SparseCore.T d).loc main_arg3)

/-- The partial sums as 328 rows of 4096: entry `(r, b)` is entry `4096·r + b` of the flat array. -/
theorem part_apply (d : Dev nD) (f : Buf (Elt Ideal) (v5Loc d)) (r : Fin 328) (b : Fin 4096) (h : 4096 * r.val + b.val < 1343488) :
    shapeCast S328x4096 f shapeCasts_S1343488_S328x4096 (ix2 r b) = f (ix1 ⟨4096 * r.val + b.val, h⟩) :=
  shapeCast_apply _ _ _ (ix1 ⟨4096 * r.val + b.val, h⟩) (by
    rw [Shape.rowMajor_val_two, Shape.rowMajor_val_one]; show 4096 * r.val + b.val = r.val * 4096 + b.val; omega)

/-- With the partial sums as the tasks leave them, @main's result is the specification's closed form of the first
    program. -/
theorem outOf_kerOut (d : Dev nD) (f : Buf (Elt Ideal) (v5Loc d))
    (hp : ∀ (p : Fin 325) (b : Fin 4096) (h : 4096 * p.val + b.val < 1343488),
      f (ix1 ⟨4096 * p.val + b.val, h⟩) = cross (argX m d) (argW m d) b (ti p) (tj p))
    (hl : ∀ (b : Fin 4096) (h : 4096 * 325 + b.val < 1343488), f (ix1 ⟨4096 * 325 + b.val, h⟩) = lin (argX m d) (argWl m d) b)
    (h6 : ∀ (b : Fin 4096) (h : 4096 * 326 + b.val < 1343488), f (ix1 ⟨4096 * 326 + b.val, h⟩) = (0 : EReal))
    (h7 : ∀ (b : Fin 4096) (h : 4096 * 327 + b.val < 1343488), f (ix1 ⟨4096 * 327 + b.val, h⟩) = (0 : EReal)) :
    outOf m d f = kerOut (argX m d) (argW m d) (argWl m d) (argB m d) := by
  rw [outOf_eq]
  funext idx
  obtain ⟨b, z, rfl⟩ : ∃ (b : Fin 4096) (z : Fin 1), idx = ix2 b z := ⟨idx 0, idx 1, eq_ix2 idx⟩
  obtain rfl : z = 0 := Subsingleton.elim _ _
  refine (shapeCast_apply _ _ _ (ix1 b) (by
    rw [Shape.rowMajor_val_one, Shape.rowMajor_val_two]; show b.val = b.val * 1 + 0; omega)).trans ?_
  have hb := b.isLt
  exact Cert.KerValue.combine_kerOut (argX m d) (argW m d) (argWl m d) (argB m d)
    (fun i => shapeCast S328x4096 f shapeCasts_S1343488_S328x4096 i) b
    (fun p h => (part_apply d f ⟨p.val, h⟩ b (by have := p.isLt; show 4096 * p.val + b.val < 1343488; omega)).trans (hp p b _))
    ((part_apply d f 325 b (by show 4096 * 325 + b.val < 1343488; omega)).trans (hl b _))
    ((part_apply d f 326 b (by show 4096 * 326 + b.val < 1343488; omega)).trans (h6 b _))
    ((part_apply d f 327 b (by show 4096 * 327 + b.val < 1343488; omega)).trans (h7 b _))

end Cert.Proof.KLaunch

end
-- ==== Proof.HostOpsPad.lean ====
/-
  The padded flat linear table, read at an index: the first 26000 entries are the linear table's, the last 112 the padding
  value.
-/
import proofs.«207464_g62843961475156_cont_9to1_m_1121_6_alg».proof.Proof.HostOps
import Idealize.ShloMosaic.Lib.KernelVsHost

noncomputable section

namespace Cert.Proof.KLaunch

open Cert.KernelIdeal Cert.KernelIdeal.Gen
open Idealize.ShloMosaic Idealize.ShloMosaic.ValueIdx
open Idealize.SL Idealize.SL.Sem

variable {F : FTy → Type} [FloatOps F]
variable (m : (ℓ : Loc nD τ sig) → Buf (Elt F) ℓ)

/-- Entry `r < 26000` of the padded flat linear table is `W_linear[r, 0]`. -/
theorem wl_apply_lt (d : Dev nD) (r : Fin 26000) (h : r.val < 26112) :
    wl m d (ix1 ⟨r.val, h⟩) = m ((SparseCore.T d).loc main_arg2) (ix2 r 0) := by
  rw [wl_eq]
  refine (pad_apply_of_inside ![0] ![112] ![0] _ _ pads_S26000_S26112_01120 h_S_ _ (ix1 r) (fun a => ?_)).trans ?_
  · match a with
    | ⟨0, _⟩ => show r.val = 0 + r.val * (0 + 1); omega
  · exact shapeCast_apply _ _ _ (ix2 r 0) (by rw [Shape.rowMajor_val_two, Shape.rowMajor_val_one]; show r.val * 1 + 0 = r.val; omega)

/-- An entry from 26000 on is the padding value. -/
theorem wl_apply_ge (d : Dev nD) (r : Fin 26112) (h : 26000 ≤ r.val) :
    wl m d (ix1 r) = padVal (F := F) (Shape.Idx.first h_S_) := by
  rw [wl_eq]
  refine pad_apply_of_not_inside (s := S26000) (t := S26112) ![0] ![112] ![0] _ _ pads_S26000_S26112_01120 h_S_ _ (⟨0, by decide⟩ : Fin S26000.rank) (fun hh => ?_)
  have h3 := hh.2.2
  have e : ((ix1 r : S26112.Idx) ((⟨0, by decide⟩ : Fin S26000.rank).cast pads_S26000_S26112_01120.1)).val = r.val := rfl
  rw [e] at h3
  have h4 : (r.val - (![0] : Fin S26000.rank → Nat) (⟨0, by decide⟩ : Fin S26000.rank)) / ((![0] : Fin S26000.rank → Nat) (⟨0, by decide⟩ : Fin S26000.rank) + 1) = r.val := by
    show (r.val - 0) / (0 + 1) = r.val; simp
  rw [h4] at h3
  have h5 : S26000.size (⟨0, by decide⟩ : Fin S26000.rank) = 26000 := rfl
  omega

end Cert.Proof.KLaunch

end
-- ==== Proof.PartOfValue.lean ====
/-
  The partial sums the SparseCore stage leaves, read against the specification.

  The stage's result is one function of the three arrays it is handed. Handed the flat transposed indices, the flat tables and
  the padded flat linear table that @main's host operations make of the arguments, its row `p < 325` holds the cross terms
  of task `p`'s pair of fields, its row 325 the linear terms, and its rows 326 and 327 zeros: a task's two scratch tables are
  rows of the field-aware tables, its index lanes are entries of the index matrix, and every index is at most 999. So
  @main's result is the specification's closed form of the first program.
-/
import proofs.«207464_g62843961475156_cont_9to1_m_1121_6_alg».proof.Proof.KerOut
import proofs.«207464_g62843961475156_cont_9to1_m_1121_6_alg».proof.Proof.HostOpsPad
import proofs.«207464_g62843961475156_cont_9to1_m_1121_6_alg».proof.Proof.PartOf

noncomputable section

namespace Cert.Proof.KLaunch

open Cert.KernelIdeal Cert.KernelIdeal.Gen
open Idealize.ShloMosaic Idealize.ShloMosaic.ValueIdx
open Idealize.SL Idealize.SL.Sem
open Cert.Spec Cert.KerValue

variable (m : (ℓ : Loc nD τ sig) → Buf (Elt Ideal) ℓ) (d : Dev nD)

/-- Every flat transposed index is at most 999: each is an entry of the index matrix. -/
theorem xt_le (hx : ∀ idx, ((argX m d) idx).toNat ≤ 999) : ∀ y, ((xt m d : Vec Ideal S106496 .i32) y).toNat ≤ 999 := fun y => by
  obtain ⟨idx, e⟩ := xt_mem m d y
  rw [e]; exact hx idx

/-- The partial sums the stage leaves, of what @main hands it. -/
abbrev partM (hx : ∀ idx, ((argX m d) idx).toNat ≤ 999) : Vec Ideal S1343488 .f32 := partOf (xt m d) (wf m d) (wl m d) (xt_le m d hx)

/-- The batch element of lane `l` of the chunk that holds `b`. -/
def laneElt (b : Fin 4096) (l : S16.Idx) : Fin 4096 :=
  ⟨16 * (b.val / 16) + (l 0).val, by have := b.isLt; have h : (l 0).val < 16 := (l 0).isLt; omega⟩

theorem laneElt_laneIn (b : Fin 4096) : laneElt b (laneIn b) = b :=
  Fin.ext (by show 16 * (b.val / 16) + b.val % 16 = b.val; omega)

/-- A lane of a column's chunk is the index matrix's entry at the lane's batch element. -/
theorem colChunk_x (f : Fin 26) (b : Fin 4096) (l : S16.Idx) :
    colChunk (xt m d) f (chunkOf b) l = argX m d (ix2 (laneElt b l) f) := by
  have hf := f.isLt
  have hb := b.isLt
  have hl : (l 0).val < 16 := (l 0).isLt
  have h1 : f.val * 4096 + (16 * (b.val / 16) + (l 0).val) < 106496 := by omega
  refine Eq.trans ?_ (xt_apply m d f (laneElt b l) h1)
  unfold colChunk
  exact congrArg (fun k => xt m d (ix1 k)) (Fin.ext (by
    show 4096 * f.val + 16 * (b.val / 16) + (l 0).val = f.val * 4096 + (16 * (b.val / 16) + (l 0).val); omega))

/-- Row `p < 325` holds the cross terms of task `p`'s pair. -/
theorem partM_cross (hx : ∀ idx, ((argX m d) idx).toNat ≤ 999) (p : Fin 325) (b : Fin 4096) (h : 4096 * p.val + b.val < 1343488) :
    partM m d hx (ix1 ⟨4096 * p.val + b.val, h⟩) = cross (argX m d) (argW m d) b (ti p) (tj p) := by
  refine (partOf_cross (xt m d) (wf m d) (wl m d) (xt_le m d hx) p b h).trans ?_
  unfold crossRow
  have hA := table_rows (argW m d) (wf m d) (fun j r e h => wf_apply m d j r e h) (ti p) (tj p) (tabA (wf m d) p) (fun n h => rfl)
  have hB := table_rows (argW m d) (wf m d) (fun j r e h => wf_apply m d j r e h) (tj p) (ti p) (tabB (wf m d) p) (fun n h => rfl)
  have e := accChunk_cross (argX m d) (argW m d) (ti p) (tj p) (tabA (wf m d) p) (tabB (wf m d) p)
    (colChunk (xt m d) (ti p) (chunkOf b)) (colChunk (xt m d) (tj p) (chunkOf b)) (laneElt b) hA hB
    (fun l => colChunk_x m d (ti p) b l) (fun l => colChunk_x m d (tj p) b l)
    (colChunk_le (xt m d) (xt_le m d hx) (ti p) (chunkOf b)) (colChunk_le (xt m d) (xt_le m d hx) (tj p) (chunkOf b)) (laneIn b)
  rw [laneElt_laneIn] at e
  exact e

/-- Row 325 holds the linear terms. -/
theorem partM_lin (hx : ∀ idx, ((argX m d) idx).toNat ≤ 999) (b : Fin 4096) (h : 4096 * 325 + b.val < 1343488) :
    partM m d hx (ix1 ⟨4096 * 325 + b.val, h⟩) = lin (argX m d) (argWl m d) b := by
  refine (partOf_lin (xt m d) (wf m d) (wl m d) (xt_le m d hx) b h).trans ?_
  unfold linRow
  have e := linChunk_lin (argX m d) (argWl m d) (wl m d) (fun f => colChunk (xt m d) f (chunkOf b)) (laneElt b)
    (fun r h => wl_apply_lt m d r h) (fun f l => colChunk_x m d f b l)
    (fun f => colChunk_le (xt m d) (xt_le m d hx) f (chunkOf b)) (laneIn b)
  rw [laneElt_laneIn] at e
  exact e

/-- Rows 326 and 327 hold zeros. -/
theorem partM_zero (hx : ∀ idx, ((argX m d) idx).toNat ≤ 999) (r : Nat) (hr : r = 326 ∨ r = 327) (b : Fin 4096) (h : 4096 * r + b.val < 1343488) :
    partM m d hx (ix1 ⟨4096 * r + b.val, h⟩) = (0 : EReal) := by
  exact (partOf_zero (xt m d) (wf m d) (wl m d) (xt_le m d hx) r hr b h).trans (zeroLine_apply _)

/-- @main's result, when the call leaves the stage's function of what it was handed in the partial sums, is the
    specification's closed form of the first program. -/
theorem outOf_partM (hx : ∀ idx, ((argX m d) idx).toNat ≤ 999) : outOf m d (partM m d hx) = kerOut (argX m d) (argW m d) (argWl m d) (argB m d) :=
  outOf_kerOut m d (partM m d hx) (fun p b h => partM_cross m d hx p b h) (fun b h => partM_lin m d hx b h)
    (fun b h => partM_zero m d hx 326 (Or.inl rfl) b h) (fun b h => partM_zero m d hx 327 (Or.inr rfl) b h)

end Cert.Proof.KLaunch

end
-- ==== Proof.SpecLaws.lean ====
/-
  The laws of the common specification: the two enumerations of the 325 unordered pairs of fields list the same pairs,
  so a symmetric function sums to the same value over both; hence the two closed forms of the output are equal.
-/
import proofs.«207464_g62843961475156_cont_9to1_m_1121_6_alg».proof.Proof.Spec

noncomputable section

open scoped BigOperators

namespace Cert.Spec

open Idealize.ShloMosaic Idealize.ShloMosaic.ValueIdx

/-- The position of the pair `(i, j)`, `i < j < 26`, in lexicographic order: the rows `0, …, i−1` hold
    `25 + 24 + … + (26 − i) = 26·i − i·(i+1)/2` pairs, and `(i, j)` is the `(j − i − 1)`-th of row `i`. -/
def rank (i j : ℕ) : ℕ := i * 26 - i * (i + 1) / 2 + (j - i - 1)

/-- From a task of the tournament to the lexicographic position of its pair, sorted. -/
def toLex (p : Fin 325) : Fin 325 :=
  ⟨rank (min (ti p).val (tj p).val) (max (ti p).val (tj p).val) % 325, Nat.mod_lt _ (by norm_num)⟩

/-- From a lexicographic position to the task that plays its pair `(i, j)`, `i < j`.  If `j = 25` it is game `0` of
    round `i`.  Otherwise `i + j ≡ 2r (mod 25)`, so the round is `r = 13·(i + j) mod 25` (`13` is the inverse of `2`),
    and the game is whichever of `(i − r) mod 25` and `(j − r) mod 25 = 25 − (i − r) mod 25` lies in `1 … 12`. -/
def ofLex (k : Fin 325) : Fin 325 :=
  ⟨(if (rj k).val = 25 then 13 * (ri k).val else
      13 * (((ri k).val + (rj k).val) * 13 % 25) +
        (if ((ri k).val + 25 - ((ri k).val + (rj k).val) * 13 % 25) % 25 ≤ 12
          then ((ri k).val + 25 - ((ri k).val + (rj k).val) * 13 % 25) % 25
          else 25 - ((ri k).val + 25 - ((ri k).val + (rj k).val) * 13 % 25) % 25)) % 325,
    Nat.mod_lt _ (by norm_num)⟩

/-- The two maps are inverse to each other (a check of the 325 cases) … -/
theorem ofLex_toLex : ∀ p : Fin 325, ofLex (toLex p) = p := by decide +kernel
/-- … in both directions. -/
theorem toLex_ofLex : ∀ k : Fin 325, toLex (ofLex k) = k := by decide +kernel

/-- The bijection between the tournament's tasks and the lexicographic positions. -/
def pairEquiv : Fin 325 ≃ Fin 325 := ⟨toLex, ofLex, ofLex_toLex, toLex_ofLex⟩

/-- The pair at the lexicographic position of task `p` is task `p`'s pair, in one order or the other (a check of the
    325 cases). -/
theorem pair_toLex : ∀ p : Fin 325,
    (ri (toLex p) = ti p ∧ rj (toLex p) = tj p) ∨ (ri (toLex p) = tj p ∧ rj (toLex p) = ti p) := by decide +kernel

/-- In the lexicographic enumeration the first field is the smaller one. -/
theorem ri_lt_rj : ∀ k : Fin 325, ri k < rj k := by decide +kernel

/-- A symmetric function of two fields has the same sum over the tournament's pairs as over the lexicographic ones. -/
theorem sum_pairs {M : Type*} [AddCommMonoid M] (g : Fin 26 → Fin 26 → M) (hg : ∀ i j, g i j = g j i) :
    ∑ p : Fin 325, g (ti p) (tj p) = ∑ k : Fin 325, g (ri k) (rj k) := by
  rw [← Equiv.sum_comp pairEquiv (fun k => g (ri k) (rj k))]
  refine Finset.sum_congr rfl fun p _ => ?_
  show g (ti p) (tj p) = g (ri (toLex p)) (rj (toLex p))
  rcases pair_toLex p with ⟨h1, h2⟩ | ⟨h1, h2⟩
  · rw [h1, h2]
  · rw [h1, h2]; exact hg _ _

/-- The two closed forms of the output are equal: the cross terms are re-enumerated by `sum_pairs` (the cross term is
    symmetric), the three outer summands are re-associated and commuted in the extended reals' additive commutative
    monoid, and the logistic function is `1 / (1 + exp (−z))` by definition. -/
theorem kerOut_eq_refOut (x : IVec SX 32) (W : FVec Ideal SW .f32) (Wl : FVec Ideal SL .f32)
    (bias : FVec Ideal SB .f32) : kerOut x W Wl bias = refOut x W Wl bias := by
  funext idx
  have h : ∑ p : Fin 325, cross x W (idx 0) (ti p) (tj p) = ∑ k : Fin 325, cross x W (idx 0) (ri k) (rj k) :=
    sum_pairs (fun i j => cross x W (idx 0) i j) (fun i j => cross_comm x W (idx 0) i j)
  simp only [kerOut, refOut, Ideal.logistic]
  rw [h, add_assoc, add_comm (∑ k : Fin 325, cross x W (idx 0) (ri k) (rj k))]

end Cert.Spec
-- ==== Proof.ValueRun.lean ====
/-
  The idealized program's run with its result named. The launch theorem, at the payloads that carry the result
  array's contents, gives the run with the result equal to the final pass applied to those contents; read on the
  extended reals those contents are the 325 pair sums, the linear sums and two zero rows, and the final pass of them is
  the specification's closed form.
-/
import proofs.«207464_g62843961475156_cont_9to1_m_1121_6_alg».proof.Defs
import proofs.«207464_g62843961475156_cont_9to1_m_1121_6_alg».proof.Proof.Gen.Pre_input_domain
import proofs.«207464_g62843961475156_cont_9to1_m_1121_6_alg».proof.Proof.Launch
import proofs.«207464_g62843961475156_cont_9to1_m_1121_6_alg».proof.Proof.TilePayV
import proofs.«207464_g62843961475156_cont_9to1_m_1121_6_alg».proof.Proof.CallSplit
import proofs.«207464_g62843961475156_cont_9to1_m_1121_6_alg».proof.Proof.CallSplitAt
import proofs.«207464_g62843961475156_cont_9to1_m_1121_6_alg».proof.Proof.PreFacts
import proofs.«207464_g62843961475156_cont_9to1_m_1121_6_alg».proof.Proof.PartOfValue
import proofs.«207464_g62843961475156_cont_9to1_m_1121_6_alg».proof.Proof.Frames
import proofs.«207464_g62843961475156_cont_9to1_m_1121_6_alg».proof.Proof.SpecLaws

noncomputable section

namespace Cert.Proof.KValue

open Cert.KernelIdeal Cert.KernelIdeal.Gen Cert.Proof.KLaunch Cert.Proof.KTile
open Idealize.ShloMosaic Idealize.SL.Sem
open Idealize.SL Idealize.SL.BI
open scoped Idealize.SL.BI
open Idealize.SL.BI.BIBase Idealize.SL.BI.Laws Idealize.SL.ProofMode

set_option maxHeartbeats 1600000 in
/-- The idealized program's run with its result named: the specification's closed form of the four arguments. -/
theorem run_value (m : (ℓ : Loc nD τ sig) → Buf (Elt Ideal) ℓ) (ρ : Dev nD → PrngReg)
    (hpre : ∀ c : Dev nD, Cert.Pre_input_domain.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    θ_run (Cert.KernelIdeal.defs (F := Ideal)) (Cert.KernelIdeal.threads (F := Ideal)) ⟨m, fun _ => 0, ρ⟩ (fun r => ∀ c : Dev nD,
      r.2.mem ((c.tc : Thread nD τ).loc main_v8) = Cert.Spec.kerOut (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hx1 := Cert.Proof.KFrames.xt_le m hpre
  have h := run_main (F := Ideal) (Pv (xt m) (wf m) (wl m) hx1) m ρ (fun d f => f = partG (xt m) (wf m) (wl m) hx1 d)
    (Rem (xt m) (wf m) (wl m)) rfl rfl (tileObl_v (xt m) (wf m) (wl m) hx1 facts) (vecSplit_v (xt m) (wf m) (wl m) hx1)
    (fun d => hst_v (xt m) (wf m) (wl m) hx1 d) (fun d => hdn_v (xt m) (wf m) (wl m) hx1 d)
  refine (θ_run _ _ _).mono (fun r hr c => ?_) h
  obtain ⟨⟨f, hf, hv⟩, ha⟩ := hr c
  refine ⟨?_, ha⟩
  have hv' : r.2.mem ((c.tc : Thread nD τ).loc main_v8) = outOf m c f := hv
  rw [hv', hf]
  exact outOf_partM m c (fun idx => Cert.PreFacts.x_toNat _ _ _ _ (hpre c) idx)

end Cert.Proof.KValue

end
-- ==== Proof.lean ====
/-
  The certificate's claim. The kernel computes, for each batch row, the logistic function of the bias plus the sum of the
  row's 26 linear weights plus, over the 325 unordered pairs of fields, the dot product of the two cross embeddings; so
  does the reference. The kernel does it on 32 vector subcores — each sums the linear weights of its 128 rows and the
  dot products of its ten or eleven field pairs (pairs dealt by a round-robin tournament), writing 328 partial rows —
  and a final pass adds the partial rows and the bias and applies the logistic function; the reference gathers all
  embeddings, multiplies pair by pair in lexicographic order, sums, and writes the logistic function as 1 / (1 + exp(−z)).
  Frames: every index word turned into an address is a field value (at most 999 by the precondition) scaled and shifted
  by constants, so every indexed access is in range, every copy is awaited before its buffers are touched again, and
  the arguments are only read. Value: on the extended reals the two sums differ by the order of their terms and by a
  bijection between the two enumerations of the pairs.
-/
import proofs.«207464_g62843961475156_cont_9to1_m_1121_6_alg».proof.Defs
import proofs.«207464_g62843961475156_cont_9to1_m_1121_6_alg».proof.Proof.Gen.Kernel
import proofs.«207464_g62843961475156_cont_9to1_m_1121_6_alg».proof.Proof.Gen.KernelIdeal
import proofs.«207464_g62843961475156_cont_9to1_m_1121_6_alg».proof.Proof.Gen.ReferenceIdeal
import proofs.«207464_g62843961475156_cont_9to1_m_1121_6_alg».proof.Proof.Gen.Pre_input_domain
import proofs.«207464_g62843961475156_cont_9to1_m_1121_6_alg».proof.Proof.Frames
import proofs.«207464_g62843961475156_cont_9to1_m_1121_6_alg».proof.Proof.FramesB
import proofs.«207464_g62843961475156_cont_9to1_m_1121_6_alg».proof.Proof.RefClaims
import proofs.«207464_g62843961475156_cont_9to1_m_1121_6_alg».proof.Proof.ValueRun
import proofs.«207464_g62843961475156_cont_9to1_m_1121_6_alg».proof.Proof.SpecLaws
import proofs.«207464_g62843961475156_cont_9to1_m_1121_6_alg».proof.Proof.PreFacts

noncomputable section

namespace Cert.Proof

open Idealize.ShloMosaic Idealize.SL.Sem

/-- The word-level program runs to its end and leaves its arguments. -/
theorem frame_k : Cert.frame_Kernel := fun m ρ hpre => Cert.Proof.KFramesB.run (F := Bits) m ρ hpre

/-- The idealized program runs to its end and leaves its arguments. -/
theorem frame_ki : Cert.frame_KernelIdeal := fun m ρ hpre => Cert.Proof.KFrames.run (F := Ideal) m ρ hpre

/-- The ideal pass rewrote nothing: the idealization is the program's own text read on the extended reals. -/
theorem preserves : Cert.preserves_Kernel_KernelIdeal := trivial

/-- On the extended reals both programs end with the specification's value: the first program's result is the logistic
    function of the 328 partial rows' sum plus the bias, the partial rows being the 325 pair sums, the linear sums and
    two zero rows; the second's is 1 / (1 + exp(−z)) of the same terms in another order and another enumeration of the
    pairs. -/
theorem algebraic : Cert.algebraic_KernelIdeal_ReferenceIdeal := by
  intro m ρ m' ρ' hpre hagree
  refine ⟨fun c => Cert.Spec.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Proof.KValue.run_value m ρ hpre, ?_⟩
  have hx' : ∀ (c : Dev Cert.ReferenceIdeal.nD) (i : Cert.ReferenceIdeal.S4096x26.Idx),
      0 ≤ ((m' ((c.tc : Thread Cert.ReferenceIdeal.nD Cert.ReferenceIdeal.τ).loc Cert.ReferenceIdeal.main_arg0)) i).toInt
        ∧ ((m' ((c.tc : Thread Cert.ReferenceIdeal.nD Cert.ReferenceIdeal.τ).loc Cert.ReferenceIdeal.main_arg0)) i).toInt ≤ 999 := by
    intro c i
    rw [(hagree c).1]
    exact Cert.PreFacts.x_toInt _ _ _ _ (hpre c) i
  refine (θ_run (Cert.ReferenceIdeal.defs (F := Ideal)) _ _).mono (fun r h c => ⟨?_, (h c).2⟩) (Cert.RefSide.run_refOut m' ρ' hx')
  rw [(h c).1, (hagree c).1, (hagree c).2.1, (hagree c).2.2.1, (hagree c).2.2.2]
  exact (Cert.Spec.kerOut_eq_refOut _ _ _ _).symm

theorem claim : Cert.Claim :=
  ⟨Cert.Kernel.Gen.facts, Cert.KernelIdeal.Gen.facts, Cert.ReferenceIdeal.Gen.facts, Cert.Pre_input_domain.Gen.facts,
    frame_k, frame_ki, Cert.RefSide.frame_ReferenceIdeal, preserves, algebraic⟩

end Cert.Proof

end
